-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v302)) (v1 : (c : Dev Cert.KernelIdeal.nD) → Buf (Elt Ideal) ((c.tc : Thread Cert.KernelIdeal.nD Cert.KernelIdeal.τ).loc Cert.KernelIdeal.main_v362)) (v2 : (c : Dev Cert.KernelIdeal.nD) → Buf (Elt Ideal) ((c.tc : Thread Cert.KernelIdeal.nD Cert.KernelIdeal.τ).loc Cert.KernelIdeal.main_v392)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v302) = v0 c
          ∧ r.2.mem ((c.tc : Thread Cert.KernelIdeal.nD Cert.KernelIdeal.τ).loc Cert.KernelIdeal.main_v362) = v1 c
          ∧ r.2.mem ((c.tc : Thread Cert.KernelIdeal.nD Cert.KernelIdeal.τ).loc Cert.KernelIdeal.main_v392) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v421) = v0 c
          ∧ r.2.mem ((c.tc : Thread Cert.ReferenceIdeal.nD Cert.ReferenceIdeal.τ).loc Cert.ReferenceIdeal.main_v490) = v1 c
          ∧ r.2.mem ((c.tc : Thread Cert.ReferenceIdeal.nD Cert.ReferenceIdeal.τ).loc Cert.ReferenceIdeal.main_v524) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S150000x128 : Shape := ⟨2, ![150000, 128]⟩
abbrev S10000x128 : Shape := ⟨2, ![10000, 128]⟩
abbrev S2x600000 : Shape := ⟨2, ![2, 600000]⟩
abbrev S2x500000 : Shape := ⟨2, ![2, 500000]⟩
abbrev S2x150000 : Shape := ⟨2, ![2, 150000]⟩
abbrev S11x128x128 : Shape := ⟨3, ![11, 128, 128]⟩
abbrev S11x128 : Shape := ⟨2, ![11, 128]⟩
abbrev S5x128 : Shape := ⟨2, ![5, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S150000x128 : S_.BroadcastsInDim S150000x128 (![] : Fin 0 → Fin S150000x128.rank)
  reducesTo_S150000x128_S_d0_1 : S150000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S11x128x128 : S_.BroadcastsInDim S11x128x128 (![] : Fin 0 → Fin S11x128x128.rank)
  reducesTo_S11x128x128_S_d0_1_2 : S11x128x128.ReducesTo [0, 1, 2] S_
  bcast_S_S11x128 : S_.BroadcastsInDim S11x128 (![] : Fin 0 → Fin S11x128.rank)
  reducesTo_S11x128_S_d0_1 : S11x128.ReducesTo [0, 1] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg12 : FVec F S5x128 .f32) (main_v33 : IVec S_ 1) : IVec S_ 1 :=
  let main_v34 : FVec F S5x128 .f32 := Host.absf main_arg12
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  main_v38

def fn_part1 {F : FTy → Type} [FloatOps F] (main_arg9 : FVec F S11x128 .f32) (main_arg10 : FVec F S11x128x128 .f32) (main_arg11 : FVec F S5x128 .f32) (main_arg12 : FVec F S5x128 .f32) (main_v13 : IVec S_ 1) (main_v16 : IVec S11x128x128 1) : IVec S_ 1 :=
  let main_c_5 : IVec S_ 1 := constantI S_ 1 1#1
  let main_v17 : IVec S_ 1 := (fun x v => Host.reduce IntOp.andi x v reducesTo_S11x128x128_S_d0_1_2 h_S_) main_v16 main_c_5
  let main_v18 : IVec S_ 1 := andi main_v13 main_v17
  let main_v19 : FVec F S11x128 .f32 := Host.absf main_arg9
  let main_cst_6 : FVec F S_ .f32 := constant S_ .f32 0x7F800000#32
  let main_v20 : FVec F S11x128 .f32 := broadcastInDim S11x128 ![] bcast_S_S11x128 main_cst_6
  let main_v21 : IVec S11x128 1 := cmpf .olt main_v19 main_v20
  let main_c_7 : IVec S_ 1 := constantI S_ 1 1#1
  let main_v22 : IVec S_ 1 := (fun x v => Host.reduce IntOp.andi x v reducesTo_S11x128_S_d0_1 h_S_) main_v21 main_c_7
  let main_v23 : IVec S_ 1 := andi main_v18 main_v22
  let main_v24 : FVec F S11x128x128 .f32 := Host.absf main_arg10
  let main_cst_8 : FVec F S_ .f32 := constant S_ .f32 0x7F800000#32
  let main_v25 : FVec F S11x128x128 .f32 := broadcastInDim S11x128x128 ![] bcast_S_S11x128x128 main_cst_8
  let main_v26 : IVec S11x128x128 1 := cmpf .olt main_v24 main_v25
  let main_c_9 : IVec S_ 1 := constantI S_ 1 1#1
  let main_v27 : IVec S_ 1 := (fun x v => Host.reduce IntOp.andi x v reducesTo_S11x128x128_S_d0_1_2 h_S_) main_v26 main_c_9
  let main_v28 : IVec S_ 1 := andi main_v23 main_v27
  let main_v29 : FVec F S5x128 .f32 := Host.absf main_arg11
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg12 main_v33

def fn {F : FTy → Type} [FloatOps F] (main_arg0 : FVec F S200000x128 .f32) (main_arg1 : FVec F S150000x128 .f32) (main_arg2 : FVec F S10000x128 .f32) (main_arg3 : IVec S2x600000 32) (main_arg4 : IVec S2x500000 32) (main_arg5 : IVec S2x500000 32) (main_arg6 : IVec S2x150000 32) (main_arg7 : IVec S2x150000 32) (main_arg8 : FVec F S11x128x128 .f32) (main_arg9 : FVec F S11x128 .f32) (main_arg10 : FVec F S11x128x128 .f32) (main_arg11 : FVec F S5x128 .f32) (main_arg12 : FVec F S5x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S150000x128 .f32 := Host.absf main_arg1
  let main_cst_0 : FVec F S_ .f32 := constant S_ .f32 0x7F800000#32
  let main_v5 : FVec F S150000x128 .f32 := broadcastInDim S150000x128 ![] bcast_S_S150000x128 main_cst_0
  let main_v6 : IVec S150000x128 1 := cmpf .olt main_v4 main_v5
  let main_c_1 : IVec S_ 1 := constantI S_ 1 1#1
  let main_v7 : IVec S_ 1 := (fun x v => Host.reduce IntOp.andi x v reducesTo_S150000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S11x128x128 .f32 := Host.absf main_arg8
  let main_cst_4 : FVec F S_ .f32 := constant S_ .f32 0x7F800000#32
  let main_v15 : FVec F S11x128x128 .f32 := broadcastInDim S11x128x128 ![] bcast_S_S11x128x128 main_cst_4
  let main_v16 : IVec S11x128x128 1 := cmpf .olt main_v14 main_v15
  fn_part1 (F := F) main_arg9 main_arg10 main_arg11 main_arg12 main_v13 main_v16
-- ==== Kernel.lean ====
abbrev S200000x128 : Shape := ⟨2, ![200000, 128]⟩
abbrev S150000x128 : Shape := ⟨2, ![150000, 128]⟩
abbrev S10000x128 : Shape := ⟨2, ![10000, 128]⟩
abbrev S2x600000 : Shape := ⟨2, ![2, 600000]⟩
abbrev S2x500000 : Shape := ⟨2, ![2, 500000]⟩
abbrev S2x150000 : Shape := ⟨2, ![2, 150000]⟩
abbrev S11x128x128 : Shape := ⟨3, ![11, 128, 128]⟩
abbrev S11x128 : Shape := ⟨2, ![11, 128]⟩
abbrev S5x128 : Shape := ⟨2, ![5, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S200000x1 : Shape := ⟨2, ![200000, 1]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S150000x1 : Shape := ⟨2, ![150000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S1x150000 : Shape := ⟨2, ![1, 150000]⟩
abbrev S150000 : Shape := ⟨1, ![150000]⟩
abbrev S10000x1 : Shape := ⟨2, ![10000, 1]⟩

abbrev nBuf : Space → Nat
  | .hbm => 492
  | .vmem => 152
  | .smem => 0
  | _ => 0

abbrev hbmTy0_0 (i : Nat) : BufTy := match i % 128 with
  | 0 => ⟨S200000x128, .f32⟩
  | 1 => ⟨S150000x128, .f32⟩
  | 2 => ⟨S10000x128, .f32⟩
  | 3 => ⟨S2x600000, .i32⟩
  | 4 => ⟨S2x500000, .i32⟩
  | 5 => ⟨S2x500000, .i32⟩
  | 6 => ⟨S2x150000, .i32⟩
  | 7 => ⟨S2x150000, .i32⟩
  | 8 => ⟨S11x128x128, .f32⟩
  | 9 => ⟨S11x128, .f32⟩
  | 10 => ⟨S11x128x128, .f32⟩
  | 11 => ⟨S5x128, .f32⟩
  | 12 => ⟨S5x128, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S200000x128, .f32⟩
  | 28 => ⟨S600000x1, .i32⟩
  | 29 => ⟨S200000x128, .f32⟩
  | 30 => ⟨S_, .f32⟩
  | 31 => ⟨S600000x1, .f32⟩
  | 32 => ⟨S_, .f32⟩
  | 33 => ⟨S200000x1, .f32⟩
  | 34 => ⟨S600000x1, .i32⟩
  | 35 => ⟨S200000x1, .f32⟩
  | 36 => ⟨S_, .f32⟩
  | 37 => ⟨S200000x1, .f32⟩
  | 38 => ⟨S200000x1, .f32⟩
  | 39 => ⟨S200000x128, .f32⟩
  | 40 => ⟨S200000x128, .f32⟩
  | 41 => ⟨S1x500000, .i32⟩
  | 42 => ⟨S500000, .i32⟩
  | 43 => ⟨S1x500000, .i32⟩
  | 44 => ⟨S500000, .i32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x128, .f32⟩
  | 54 => ⟨S_, .f32⟩
  | 55 => ⟨S150000x128, .f32⟩
  | 56 => ⟨S500000x1, .i32⟩
  | 57 => ⟨S150000x128, .f32⟩
  | 58 => ⟨S_, .f32⟩
  | 59 => ⟨S500000x1, .f32⟩
  | 60 => ⟨S_, .f32⟩
  | 61 => ⟨S150000x1, .f32⟩
  | 62 => ⟨S500000x1, .i32⟩
  | 63 => ⟨S150000x1, .f32⟩
  | 64 => ⟨S_, .f32⟩
  | 65 => ⟨S150000x1, .f32⟩
  | 66 => ⟨S150000x1, .f32⟩
  | 67 => ⟨S150000x128, .f32⟩
  | 68 => ⟨S150000x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S1x128x128, .f32⟩
  | 75 => ⟨S128x128, .f32⟩
  | 76 => ⟨S200000x128, .f32⟩
  | 77 => ⟨S1x128, .f32⟩
  | 78 => ⟨S1x128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S1x128x128, .f32⟩
  | 85 => ⟨S128x128, .f32⟩
  | 86 => ⟨S150000x128, .f32⟩
  | 87 => ⟨S1x128, .f32⟩
  | 88 => ⟨S1x128, .f32⟩
  | 89 => ⟨S1x128, .f32⟩
  | 90 => ⟨S128, .f32⟩
  | 91 => ⟨S1x128, .f32⟩
  | 92 => ⟨S1x128, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S1x128, .f32⟩
  | 103 => ⟨S200000x128, .f32⟩
  | 104 => ⟨S1x128, .f32⟩
  | 105 => ⟨S128, .f32⟩
  | 106 => ⟨S1x128, .f32⟩
  | 107 => ⟨S1x128, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S150000x128, .f32⟩
  | 119 => ⟨S1x600000, .i32⟩
  | 120 => ⟨S600000, .i32⟩
  | 121 => ⟨S1x600000, .i32⟩
  | 122 => ⟨S600000, .i32⟩
  | 123 => ⟨S_, .i32⟩
  | 124 => ⟨S600000, .i32⟩
  | 125 => ⟨S600000, .i1⟩
  | 126 => ⟨S_, .i32⟩
  | 127 => ⟨S600000, .i32⟩
  | _ => ⟨S200000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S_, .f32⟩
  | 5 => ⟨S200000x128, .f32⟩
  | 6 => ⟨S600000x1, .i32⟩
  | 7 => ⟨S200000x128, .f32⟩
  | 8 => ⟨S_, .f32⟩
  | 9 => ⟨S600000x1, .f32⟩
  | 10 => ⟨S_, .f32⟩
  | 11 => ⟨S200000x1, .f32⟩
  | 12 => ⟨S600000x1, .i32⟩
  | 13 => ⟨S200000x1, .f32⟩
  | 14 => ⟨S_, .f32⟩
  | 15 => ⟨S200000x1, .f32⟩
  | 16 => ⟨S200000x1, .f32⟩
  | 17 => ⟨S200000x128, .f32⟩
  | 18 => ⟨S200000x128, .f32⟩
  | 19 => ⟨S1x500000, .i32⟩
  | 20 => ⟨S500000, .i32⟩
  | 21 => ⟨S1x500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S_, .f32⟩
  | 33 => ⟨S200000x128, .f32⟩
  | 34 => ⟨S500000x1, .i32⟩
  | 35 => ⟨S200000x128, .f32⟩
  | 36 => ⟨S_, .f32⟩
  | 37 => ⟨S500000x1, .f32⟩
  | 38 => ⟨S_, .f32⟩
  | 39 => ⟨S200000x1, .f32⟩
  | 40 => ⟨S500000x1, .i32⟩
  | 41 => ⟨S200000x1, .f32⟩
  | 42 => ⟨S_, .f32⟩
  | 43 => ⟨S200000x1, .f32⟩
  | 44 => ⟨S200000x1, .f32⟩
  | 45 => ⟨S200000x128, .f32⟩
  | 46 => ⟨S200000x128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S1x128x128, .f32⟩
  | 53 => ⟨S128x128, .f32⟩
  | 54 => ⟨S200000x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S1x128x128, .f32⟩
  | 61 => ⟨S128x128, .f32⟩
  | 62 => ⟨S200000x128, .f32⟩
  | 63 => ⟨S1x128, .f32⟩
  | 64 => ⟨S1x128, .f32⟩
  | 65 => ⟨S1x500000, .i32⟩
  | 66 => ⟨S500000, .i32⟩
  | 67 => ⟨S1x500000, .i32⟩
  | 68 => ⟨S500000, .i32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S_, .f32⟩
  | 79 => ⟨S150000x128, .f32⟩
  | 80 => ⟨S500000x1, .i32⟩
  | 81 => ⟨S150000x128, .f32⟩
  | 82 => ⟨S_, .f32⟩
  | 83 => ⟨S500000x1, .f32⟩
  | 84 => ⟨S_, .f32⟩
  | 85 => ⟨S150000x1, .f32⟩
  | 86 => ⟨S500000x1, .i32⟩
  | 87 => ⟨S150000x1, .f32⟩
  | 88 => ⟨S_, .f32⟩
  | 89 => ⟨S150000x1, .f32⟩
  | 90 => ⟨S150000x1, .f32⟩
  | 91 => ⟨S150000x128, .f32⟩
  | 92 => ⟨S150000x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S1x128x128, .f32⟩
  | 99 => ⟨S128x128, .f32⟩
  | 100 => ⟨S150000x128, .f32⟩
  | 101 => ⟨S1x128, .f32⟩
  | 102 => ⟨S1x128, .f32⟩
  | 103 => ⟨S1x150000, .i32⟩
  | 104 => ⟨S150000, .i32⟩
  | 105 => ⟨S1x150000, .i32⟩
  | 106 => ⟨S150000, .i32⟩
  | 107 => ⟨S_, .i32⟩
  | 108 => ⟨S150000, .i32⟩
  | 109 => ⟨S150000, .i1⟩
  | 110 => ⟨S_, .i32⟩
  | 111 => ⟨S150000, .i32⟩
  | 112 => ⟨S150000, .i32⟩
  | 113 => ⟨S150000, .i32⟩
  | 114 => ⟨S150000x1, .i32⟩
  | 115 => ⟨S150000x128, .f32⟩
  | 116 => ⟨S_, .f32⟩
  | 117 => ⟨S10000x128, .f32⟩
  | 118 => ⟨S150000x1, .i32⟩
  | 119 => ⟨S10000x128, .f32⟩
  | 120 => ⟨S_, .f32⟩
  | 121 => ⟨S150000x1, .f32⟩
  | 122 => ⟨S_, .f32⟩
  | 123 => ⟨S10000x1, .f32⟩
  | 124 => ⟨S150000x1, .i32⟩
  | 125 => ⟨S10000x1, .f32⟩
  | 126 => ⟨S_, .f32⟩
  | 127 => ⟨S10000x1, .f32⟩
  | _ => ⟨S200000x128, .f32⟩

abbrev hbmTy0_2 (i : Nat) : BufTy := match i % 128 with
  | 0 => ⟨S10000x1, .f32⟩
  | 1 => ⟨S10000x128, .f32⟩
  | 2 => ⟨S10000x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S10000x128, .f32⟩
  | 9 => ⟨S1x128, .f32⟩
  | 10 => ⟨S1x128, .f32⟩
  | 11 => ⟨S1x128, .f32⟩
  | 12 => ⟨S128, .f32⟩
  | 13 => ⟨S1x128, .f32⟩
  | 14 => ⟨S1x128, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S_, .f32⟩
  | 21 => ⟨S1x128, .f32⟩
  | 22 => ⟨S1x128, .f32⟩
  | 23 => ⟨S1x128, .f32⟩
  | 24 => ⟨S1x128, .f32⟩
  | 25 => ⟨S200000x128, .f32⟩
  | 26 => ⟨S1x128, .f32⟩
  | 27 => ⟨S128, .f32⟩
  | 28 => ⟨S1x128, .f32⟩
  | 29 => ⟨S1x128, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S1x128, .f32⟩
  | 39 => ⟨S1x128, .f32⟩
  | 40 => ⟨S150000x128, .f32⟩
  | 41 => ⟨S1x128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S1x128, .f32⟩
  | 55 => ⟨S10000x128, .f32⟩
  | 56 => ⟨S1x600000, .i32⟩
  | 57 => ⟨S600000, .i32⟩
  | 58 => ⟨S1x600000, .i32⟩
  | 59 => ⟨S600000, .i32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S_, .f32⟩
  | 70 => ⟨S200000x128, .f32⟩
  | 71 => ⟨S600000x1, .i32⟩
  | 72 => ⟨S200000x128, .f32⟩
  | 73 => ⟨S_, .f32⟩
  | 74 => ⟨S600000x1, .f32⟩
  | 75 => ⟨S_, .f32⟩
  | 76 => ⟨S200000x1, .f32⟩
  | 77 => ⟨S600000x1, .i32⟩
  | 78 => ⟨S200000x1, .f32⟩
  | 79 => ⟨S_, .f32⟩
  | 80 => ⟨S200000x1, .f32⟩
  | 81 => ⟨S200000x1, .f32⟩
  | 82 => ⟨S200000x128, .f32⟩
  | 83 => ⟨S200000x128, .f32⟩
  | 84 => ⟨S1x500000, .i32⟩
  | 85 => ⟨S500000, .i32⟩
  | 86 => ⟨S1x500000, .i32⟩
  | 87 => ⟨S500000, .i32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x128, .f32⟩
  | 97 => ⟨S_, .f32⟩
  | 98 => ⟨S200000x128, .f32⟩
  | 99 => ⟨S500000x1, .i32⟩
  | 100 => ⟨S200000x128, .f32⟩
  | 101 => ⟨S_, .f32⟩
  | 102 => ⟨S500000x1, .f32⟩
  | 103 => ⟨S_, .f32⟩
  | 104 => ⟨S200000x1, .f32⟩
  | 105 => ⟨S500000x1, .i32⟩
  | 106 => ⟨S200000x1, .f32⟩
  | 107 => ⟨S_, .f32⟩
  | 108 => ⟨S200000x1, .f32⟩
  | 109 => ⟨S200000x1, .f32⟩
  | 110 => ⟨S200000x128, .f32⟩
  | 111 => ⟨S200000x128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S1x128x128, .f32⟩
  | 118 => ⟨S128x128, .f32⟩
  | 119 => ⟨S200000x128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S1x128x128, .f32⟩
  | 126 => ⟨S128x128, .f32⟩
  | 127 => ⟨S200000x128, .f32⟩
  | _ => ⟨S200000x128, .f32⟩

abbrev hbmTy0_3 (i : Nat) : BufTy := match i % 128 with
  | 0 => ⟨S1x500000, .i32⟩
  | 1 => ⟨S500000, .i32⟩
  | 2 => ⟨S1x500000, .i32⟩
  | 3 => ⟨S500000, .i32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x128, .f32⟩
  | 13 => ⟨S_, .f32⟩
  | 14 => ⟨S150000x128, .f32⟩
  | 15 => ⟨S500000x1, .i32⟩
  | 16 => ⟨S150000x128, .f32⟩
  | 17 => ⟨S_, .f32⟩
  | 18 => ⟨S500000x1, .f32⟩
  | 19 => ⟨S_, .f32⟩
  | 20 => ⟨S150000x1, .f32⟩
  | 21 => ⟨S500000x1, .i32⟩
  | 22 => ⟨S150000x1, .f32⟩
  | 23 => ⟨S_, .f32⟩
  | 24 => ⟨S150000x1, .f32⟩
  | 25 => ⟨S150000x1, .f32⟩
  | 26 => ⟨S150000x128, .f32⟩
  | 27 => ⟨S150000x128, .f32⟩
  | 28 => ⟨S1x150000, .i32⟩
  | 29 => ⟨S150000, .i32⟩
  | 30 => ⟨S1x150000, .i32⟩
  | 31 => ⟨S150000, .i32⟩
  | 32 => ⟨S_, .i32⟩
  | 33 => ⟨S150000, .i32⟩
  | 34 => ⟨S150000, .i1⟩
  | 35 => ⟨S_, .i32⟩
  | 36 => ⟨S150000, .i32⟩
  | 37 => ⟨S150000, .i32⟩
  | 38 => ⟨S150000, .i32⟩
  | 39 => ⟨S150000x1, .i32⟩
  | 40 => ⟨S150000x128, .f32⟩
  | 41 => ⟨S_, .f32⟩
  | 42 => ⟨S150000x128, .f32⟩
  | 43 => ⟨S150000x1, .i32⟩
  | 44 => ⟨S150000x128, .f32⟩
  | 45 => ⟨S_, .f32⟩
  | 46 => ⟨S150000x1, .f32⟩
  | 47 => ⟨S_, .f32⟩
  | 48 => ⟨S150000x1, .f32⟩
  | 49 => ⟨S150000x1, .i32⟩
  | 50 => ⟨S150000x1, .f32⟩
  | 51 => ⟨S_, .f32⟩
  | 52 => ⟨S150000x1, .f32⟩
  | 53 => ⟨S150000x1, .f32⟩
  | 54 => ⟨S150000x128, .f32⟩
  | 55 => ⟨S150000x128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S1x128x128, .f32⟩
  | 62 => ⟨S128x128, .f32⟩
  | 63 => ⟨S150000x128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S1x128x128, .f32⟩
  | 70 => ⟨S128x128, .f32⟩
  | 71 => ⟨S150000x128, .f32⟩
  | 72 => ⟨S1x150000, .i32⟩
  | 73 => ⟨S150000, .i32⟩
  | 74 => ⟨S1x150000, .i32⟩
  | 75 => ⟨S150000, .i32⟩
  | 76 => ⟨S_, .i32⟩
  | 77 => ⟨S150000, .i32⟩
  | 78 => ⟨S150000, .i1⟩
  | 79 => ⟨S_, .i32⟩
  | 80 => ⟨S150000, .i32⟩
  | 81 => ⟨S150000, .i32⟩
  | 82 => ⟨S150000, .i32⟩
  | 83 => ⟨S150000x1, .i32⟩
  | 84 => ⟨S150000x128, .f32⟩
  | 85 => ⟨S_, .f32⟩
  | 86 => ⟨S10000x128, .f32⟩
  | 87 => ⟨S150000x1, .i32⟩
  | 88 => ⟨S10000x128, .f32⟩
  | 89 => ⟨S_, .f32⟩
  | 90 => ⟨S150000x1, .f32⟩
  | 91 => ⟨S_, .f32⟩
  | 92 => ⟨S10000x1, .f32⟩
  | 93 => ⟨S150000x1, .i32⟩
  | 94 => ⟨S10000x1, .f32⟩
  | 95 => ⟨S_, .f32⟩
  | 96 => ⟨S10000x1, .f32⟩
  | 97 => ⟨S10000x1, .f32⟩
  | 98 => ⟨S10000x128, .f32⟩
  | 99 => ⟨S10000x128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S1x128x128, .f32⟩
  | 106 => ⟨S128x128, .f32⟩
  | 107 => ⟨S10000x128, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | _ => ⟨S200000x128, .f32⟩

abbrev vmemTy0_0 (i : Nat) : BufTy := match i % 128 with
  | 0 => ⟨S2000x128, .f32⟩
  | 1 => ⟨S2000x128, .f32⟩
  | 2 => ⟨S128x128, .f32⟩
  | 3 => ⟨S1x128, .f32⟩
  | 4 => ⟨S2000x128, .f32⟩
  | 5 => ⟨S2000x128, .f32⟩
  | 6 => ⟨S128x128, .f32⟩
  | 7 => ⟨S2000x128, .f32⟩
  | 8 => ⟨S2000x128, .f32⟩
  | 9 => ⟨S1x128, .f32⟩
  | 10 => ⟨S1x128, .f32⟩
  | 11 => ⟨S2000x128, .f32⟩
  | 12 => ⟨S2000x128, .f32⟩
  | 13 => ⟨S128x128, .f32⟩
  | 14 => ⟨S1x128, .f32⟩
  | 15 => ⟨S2000x128, .f32⟩
  | 16 => ⟨S2000x128, .f32⟩
  | 17 => ⟨S128x128, .f32⟩
  | 18 => ⟨S2000x128, .f32⟩
  | 19 => ⟨S2000x128, .f32⟩
  | 20 => ⟨S1x128, .f32⟩
  | 21 => ⟨S1x128, .f32⟩
  | 22 => ⟨S2000x128, .f32⟩
  | 23 => ⟨S2000x128, .f32⟩
  | 24 => ⟨S1x128, .f32⟩
  | 25 => ⟨S1x128, .f32⟩
  | 26 => ⟨S1x128, .f32⟩
  | 27 => ⟨S1x128, .f32⟩
  | 28 => ⟨S2000x128, .f32⟩
  | 29 => ⟨S2000x128, .f32⟩
  | 30 => ⟨S2000x128, .f32⟩
  | 31 => ⟨S2000x128, .f32⟩
  | 32 => ⟨S1x128, .f32⟩
  | 33 => ⟨S1x128, .f32⟩
  | 34 => ⟨S1x128, .f32⟩
  | 35 => ⟨S1x128, .f32⟩
  | 36 => ⟨S2000x128, .f32⟩
  | 37 => ⟨S2000x128, .f32⟩
  | 38 => ⟨S2000x128, .f32⟩
  | 39 => ⟨S2000x128, .f32⟩
  | 40 => ⟨S128x128, .f32⟩
  | 41 => ⟨S1x128, .f32⟩
  | 42 => ⟨S2000x128, .f32⟩
  | 43 => ⟨S2000x128, .f32⟩
  | 44 => ⟨S128x128, .f32⟩
  | 45 => ⟨S2000x128, .f32⟩
  | 46 => ⟨S2000x128, .f32⟩
  | 47 => ⟨S2000x128, .f32⟩
  | 48 => ⟨S2000x128, .f32⟩
  | 49 => ⟨S128x128, .f32⟩
  | 50 => ⟨S1x128, .f32⟩
  | 51 => ⟨S2000x128, .f32⟩
  | 52 => ⟨S2000x128, .f32⟩
  | 53 => ⟨S128x128, .f32⟩
  | 54 => ⟨S2000x128, .f32⟩
  | 55 => ⟨S2000x128, .f32⟩
  | 56 => ⟨S2000x128, .f32⟩
  | 57 => ⟨S2000x128, .f32⟩
  | 58 => ⟨S1x128, .f32⟩
  | 59 => ⟨S1x128, .f32⟩
  | 60 => ⟨S2000x128, .f32⟩
  | 61 => ⟨S2000x128, .f32⟩
  | 62 => ⟨S128x128, .f32⟩
  | 63 => ⟨S1x128, .f32⟩
  | 64 => ⟨S2000x128, .f32⟩
  | 65 => ⟨S2000x128, .f32⟩
  | 66 => ⟨S128x128, .f32⟩
  | 67 => ⟨S2000x128, .f32⟩
  | 68 => ⟨S2000x128, .f32⟩
  | 69 => ⟨S1x128, .f32⟩
  | 70 => ⟨S1x128, .f32⟩
  | 71 => ⟨S2000x128, .f32⟩
  | 72 => ⟨S2000x128, .f32⟩
  | 73 => ⟨S128x128, .f32⟩
  | 74 => ⟨S1x128, .f32⟩
  | 75 => ⟨S2000x128, .f32⟩
  | 76 => ⟨S2000x128, .f32⟩
  | 77 => ⟨S1x128, .f32⟩
  | 78 => ⟨S1x128, .f32⟩
  | 79 => ⟨S2000x128, .f32⟩
  | 80 => ⟨S2000x128, .f32⟩
  | 81 => ⟨S1x128, .f32⟩
  | 82 => ⟨S1x128, .f32⟩
  | 83 => ⟨S1x128, .f32⟩
  | 84 => ⟨S1x128, .f32⟩
  | 85 => ⟨S2000x128, .f32⟩
  | 86 => ⟨S2000x128, .f32⟩
  | 87 => ⟨S2000x128, .f32⟩
  | 88 => ⟨S2000x128, .f32⟩
  | 89 => ⟨S1x128, .f32⟩
  | 90 => ⟨S1x128, .f32⟩
  | 91 => ⟨S1x128, .f32⟩
  | 92 => ⟨S1x128, .f32⟩
  | 93 => ⟨S2000x128, .f32⟩
  | 94 => ⟨S2000x128, .f32⟩
  | 95 => ⟨S2000x128, .f32⟩
  | 96 => ⟨S2000x128, .f32⟩
  | 97 => ⟨S1x128, .f32⟩
  | 98 => ⟨S1x128, .f32⟩
  | 99 => ⟨S1x128, .f32⟩
  | 100 => ⟨S1x128, .f32⟩
  | 101 => ⟨S2000x128, .f32⟩
  | 102 => ⟨S2000x128, .f32⟩
  | 103 => ⟨S2000x128, .f32⟩
  | 104 => ⟨S2000x128, .f32⟩
  | 105 => ⟨S128x128, .f32⟩
  | 106 => ⟨S1x128, .f32⟩
  | 107 => ⟨S2000x128, .f32⟩
  | 108 => ⟨S2000x128, .f32⟩
  | 109 => ⟨S128x128, .f32⟩
  | 110 => ⟨S2000x128, .f32⟩
  | 111 => ⟨S2000x128, .f32⟩
  | 112 => ⟨S2000x128, .f32⟩
  | 113 => ⟨S2000x128, .f32⟩
  | 114 => ⟨S128x128, .f32⟩
  | 115 => ⟨S1x128, .f32⟩
  | 116 => ⟨S2000x128, .f32⟩
  | 117 => ⟨S2000x128, .f32⟩
  | 118 => ⟨S128x128, .f32⟩
  | 119 => ⟨S2000x128, .f32⟩
  | 120 => ⟨S2000x128, .f32⟩
  | 121 => ⟨S2000x128, .f32⟩
  | 122 => ⟨S2000x128, .f32⟩
  | 123 => ⟨S2000x128, .f32⟩
  | 124 => ⟨S2000x128, .f32⟩
  | 125 => ⟨S128x128, .f32⟩
  | 126 => ⟨S1x128, .f32⟩
  | 127 => ⟨S2000x128, .f32⟩
  | _ => ⟨S200000x128, .f32⟩

abbrev vmemTy0_1 (i : Nat) : BufTy := match i % 128 with
  | 0 => ⟨S2000x128, .f32⟩
  | 1 => ⟨S128x128, .f32⟩
  | 2 => ⟨S2000x128, .f32⟩
  | 3 => ⟨S2000x128, .f32⟩
  | 4 => ⟨S2000x128, .f32⟩
  | 5 => ⟨S2000x128, .f32⟩
  | 6 => ⟨S128x128, .f32⟩
  | 7 => ⟨S1x128, .f32⟩
  | 8 => ⟨S2000x128, .f32⟩
  | 9 => ⟨S2000x128, .f32⟩
  | 10 => ⟨S128x128, .f32⟩
  | 11 => ⟨S2000x128, .f32⟩
  | 12 => ⟨S2000x128, .f32⟩
  | 13 => ⟨S2000x128, .f32⟩
  | 14 => ⟨S2000x128, .f32⟩
  | 15 => ⟨S2000x128, .f32⟩
  | 16 => ⟨S2000x128, .f32⟩
  | 17 => ⟨S128x128, .f32⟩
  | 18 => ⟨S1x128, .f32⟩
  | 19 => ⟨S2000x128, .f32⟩
  | 20 => ⟨S2000x128, .f32⟩
  | 21 => ⟨S128x128, .f32⟩
  | 22 => ⟨S2000x128, .f32⟩
  | 23 => ⟨S2000x128, .f32⟩
  | _ => ⟨S200000x128, .f32⟩

abbrev vmemTy (i : Nat) : BufTy := match i / 128 with
  | 0 => vmemTy0_0 i
  | 1 => vmemTy0_1 i
  | _ => ⟨S200000x128, .f32⟩

abbrev bufTy : (tb : Table) → Fin (tcTables nBuf tb) → BufTy
  | .hbm, ⟨i, _⟩ => hbmTy i
  | .local _ .vmem, ⟨i, _⟩ => vmemTy i
  | _, _ => ⟨S200000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 152 → Bool
  | ⟨i, _⟩ => dmaSemScopedAt i

abbrev sig : RefSig :=
  ofTc nBuf bufTy 0 152 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51_0 : Ref sig .tc := ⟨.hbm, 76, rfl⟩
abbrev main_v51_1 : Ref sig .tc := ⟨.hbm, 77, rfl⟩
abbrev main_v51_2 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59_0 : Ref sig .tc := ⟨.hbm, 86, rfl⟩
abbrev main_v59_1 : Ref sig .tc := ⟨.hbm, 87, rfl⟩
abbrev main_v59_2 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_12 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_14 : Ref sig .tc := ⟨.hbm, 123, rfl⟩
abbrev main_v90 : Ref sig .tc := ⟨.hbm, 124, rfl⟩
abbrev main_v91 : Ref sig .tc := ⟨.hbm, 125, rfl⟩
abbrev main_c_15 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_16 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_17 : Ref sig .tc := ⟨.hbm, 136, rfl⟩
abbrev main_v100 : Ref sig .tc := ⟨.hbm, 137, rfl⟩
abbrev main_cst_18 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_19 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_20 : Ref sig .tc := ⟨.hbm, 151, rfl⟩
abbrev main_v112 : Ref sig .tc := ⟨.hbm, 152, rfl⟩
abbrev main_v113 : Ref sig .tc := ⟨.hbm, 153, rfl⟩
abbrev main_c_21 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_22 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_23 : Ref sig .tc := ⟨.hbm, 164, rfl⟩
abbrev main_v122 : Ref sig .tc := ⟨.hbm, 165, rfl⟩
abbrev main_cst_24 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_25 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145_0 : Ref sig .tc := ⟨.hbm, 190, rfl⟩
abbrev main_v145_1 : Ref sig .tc := ⟨.hbm, 191, rfl⟩
abbrev main_v145_2 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_c_26 : Ref sig .tc := ⟨.hbm, 197, rfl⟩
abbrev main_v150 : Ref sig .tc := ⟨.hbm, 198, rfl⟩
abbrev main_v151 : Ref sig .tc := ⟨.hbm, 199, rfl⟩
abbrev main_c_27 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_28 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_29 : Ref sig .tc := ⟨.hbm, 210, rfl⟩
abbrev main_v160 : Ref sig .tc := ⟨.hbm, 211, rfl⟩
abbrev main_cst_30 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_31 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175_0 : Ref sig .tc := ⟨.hbm, 228, rfl⟩
abbrev main_v175_1 : Ref sig .tc := ⟨.hbm, 229, rfl⟩
abbrev main_v175_2 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_c_32 : Ref sig .tc := ⟨.hbm, 235, rfl⟩
abbrev main_v180 : Ref sig .tc := ⟨.hbm, 236, rfl⟩
abbrev main_v181 : Ref sig .tc := ⟨.hbm, 237, rfl⟩
abbrev main_c_33 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_cst_34 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_cst_35 : Ref sig .tc := ⟨.hbm, 248, rfl⟩
abbrev main_v190 : Ref sig .tc := ⟨.hbm, 249, rfl⟩
abbrev main_cst_36 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_cst_37 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203_0 : Ref sig .tc := ⟨.hbm, 264, rfl⟩
abbrev main_v203_1 : Ref sig .tc := ⟨.hbm, 265, rfl⟩
abbrev main_v203_2 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_38 : Ref sig .tc := ⟨.hbm, 273, rfl⟩
abbrev main_v210 : Ref sig .tc := ⟨.hbm, 274, rfl⟩
abbrev main_v211 : Ref sig .tc := ⟨.hbm, 275, rfl⟩
abbrev main_cst_39 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_cst_40 : Ref sig .tc := ⟨.hbm, 288, rfl⟩
abbrev main_v223 : Ref sig .tc := ⟨.hbm, 289, rfl⟩
abbrev main_v224 : Ref sig .tc := ⟨.hbm, 290, rfl⟩
abbrev main_cst_41 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_cst_42 : Ref sig .tc := ⟨.hbm, 303, rfl⟩
abbrev main_v236 : Ref sig .tc := ⟨.hbm, 304, rfl⟩
abbrev main_v237 : Ref sig .tc := ⟨.hbm, 305, rfl⟩
abbrev main_cst_43 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_c_44 : Ref sig .tc := ⟨.hbm, 316, rfl⟩
abbrev main_v247 : Ref sig .tc := ⟨.hbm, 317, rfl⟩
abbrev main_v248 : Ref sig .tc := ⟨.hbm, 318, rfl⟩
abbrev main_c_45 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_cst_46 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_cst_47 : Ref sig .tc := ⟨.hbm, 329, rfl⟩
abbrev main_v257 : Ref sig .tc := ⟨.hbm, 330, rfl⟩
abbrev main_cst_48 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_cst_49 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_c_50 : Ref sig .tc := ⟨.hbm, 344, rfl⟩
abbrev main_v269 : Ref sig .tc := ⟨.hbm, 345, rfl⟩
abbrev main_v270 : Ref sig .tc := ⟨.hbm, 346, rfl⟩
abbrev main_c_51 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_cst_52 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_cst_53 : Ref sig .tc := ⟨.hbm, 357, rfl⟩
abbrev main_v279 : Ref sig .tc := ⟨.hbm, 358, rfl⟩
abbrev main_cst_54 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_cst_55 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_c_56 : Ref sig .tc := ⟨.hbm, 388, rfl⟩
abbrev main_v307 : Ref sig .tc := ⟨.hbm, 389, rfl⟩
abbrev main_v308 : Ref sig .tc := ⟨.hbm, 390, rfl⟩
abbrev main_c_57 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_cst_58 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_cst_59 : Ref sig .tc := ⟨.hbm, 401, rfl⟩
abbrev main_v317 : Ref sig .tc := ⟨.hbm, 402, rfl⟩
abbrev main_cst_60 : Ref sig .tc := ⟨.hbm, 403, rfl⟩
abbrev main_v318 : Ref sig .tc := ⟨.hbm, 404, rfl⟩
abbrev main_v319 : Ref sig .tc := ⟨.hbm, 405, rfl⟩
abbrev main_v320 : Ref sig .tc := ⟨.hbm, 406, rfl⟩
abbrev main_cst_61 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_c_62 : Ref sig .tc := ⟨.hbm, 416, rfl⟩
abbrev main_v329 : Ref sig .tc := ⟨.hbm, 417, rfl⟩
abbrev main_v330 : Ref sig .tc := ⟨.hbm, 418, rfl⟩
abbrev main_c_63 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_v335 : Ref sig .tc := ⟨.hbm, 424, rfl⟩
abbrev main_cst_64 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_cst_65 : Ref sig .tc := ⟨.hbm, 429, rfl⟩
abbrev main_v339 : Ref sig .tc := ⟨.hbm, 430, rfl⟩
abbrev main_cst_66 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_cst_67 : Ref sig .tc := ⟨.hbm, 435, rfl⟩
abbrev main_v343 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_v356 : Ref sig .tc := ⟨.hbm, 449, rfl⟩
abbrev main_v357 : Ref sig .tc := ⟨.hbm, 450, rfl⟩
abbrev main_v358 : Ref sig .tc := ⟨.hbm, 451, rfl⟩
abbrev main_v359 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_v365 : Ref sig .tc := ⟨.hbm, 458, rfl⟩
abbrev main_v366 : Ref sig .tc := ⟨.hbm, 459, rfl⟩
abbrev main_c_68 : Ref sig .tc := ⟨.hbm, 460, rfl⟩
abbrev main_v367 : Ref sig .tc := ⟨.hbm, 461, rfl⟩
abbrev main_v368 : Ref sig .tc := ⟨.hbm, 462, rfl⟩
abbrev main_c_69 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_cst_70 : Ref sig .tc := ⟨.hbm, 469, rfl⟩
abbrev main_v374 : Ref sig .tc := ⟨.hbm, 470, rfl⟩
abbrev main_v375 : Ref sig .tc := ⟨.hbm, 471, rfl⟩
abbrev main_v376 : Ref sig .tc := ⟨.hbm, 472, rfl⟩
abbrev main_cst_71 : Ref sig .tc := ⟨.hbm, 473, rfl⟩
abbrev main_v377 : Ref sig .tc := ⟨.hbm, 474, rfl⟩
abbrev main_cst_72 : Ref sig .tc := ⟨.hbm, 475, rfl⟩
abbrev main_v378 : Ref sig .tc := ⟨.hbm, 476, rfl⟩
abbrev main_v379 : Ref sig .tc := ⟨.hbm, 477, rfl⟩
abbrev main_v380 : Ref sig .tc := ⟨.hbm, 478, rfl⟩
abbrev main_cst_73 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_v389 : Ref sig .tc := ⟨.hbm, 488, rfl⟩
abbrev main_v390 : Ref sig .tc := ⟨.hbm, 489, rfl⟩
abbrev main_v391 : Ref sig .tc := ⟨.hbm, 490, rfl⟩
abbrev main_v392 : Ref sig .tc := ⟨.hbm, 491, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc5_stg6_0 : Ref sig .tc := ⟨.vmem, 56, rfl⟩
abbrev cc5_stg6_1 : Ref sig .tc := ⟨.vmem, 57, rfl⟩
abbrev cc5_stg7_0 : Ref sig .tc := ⟨.vmem, 58, rfl⟩
abbrev cc5_stg8_0 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg3_1 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg5_1 : Ref sig .tc := ⟨.vmem, 68, rfl⟩
abbrev cc6_stg6_0 : Ref sig .tc := ⟨.vmem, 69, rfl⟩
abbrev cc6_stg7_0 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg3_1 : Ref sig .tc := ⟨.vmem, 76, rfl⟩
abbrev cc7_stg4_0 : Ref sig .tc := ⟨.vmem, 77, rfl⟩
abbrev cc7_stg5_0 : Ref sig .tc := ⟨.vmem, 78, rfl⟩
abbrev cc8_stg0_0 : Ref sig .tc := ⟨.vmem, 79, rfl⟩
abbrev cc8_stg0_1 : Ref sig .tc := ⟨.vmem, 80, rfl⟩
abbrev cc8_stg1_0 : Ref sig .tc := ⟨.vmem, 81, rfl⟩
abbrev cc8_stg2_0 : Ref sig .tc := ⟨.vmem, 82, rfl⟩
abbrev cc8_stg3_0 : Ref sig .tc := ⟨.vmem, 83, rfl⟩
abbrev cc8_stg4_0 : Ref sig .tc := ⟨.vmem, 84, rfl⟩
abbrev cc8_stg5_0 : Ref sig .tc := ⟨.vmem, 85, rfl⟩
abbrev cc8_stg5_1 : Ref sig .tc := ⟨.vmem, 86, rfl⟩
abbrev cc9_stg0_0 : Ref sig .tc := ⟨.vmem, 87, rfl⟩
abbrev cc9_stg0_1 : Ref sig .tc := ⟨.vmem, 88, rfl⟩
abbrev cc9_stg1_0 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg5_0 : Ref sig .tc := ⟨.vmem, 93, rfl⟩
abbrev cc9_stg5_1 : Ref sig .tc := ⟨.vmem, 94, rfl⟩
abbrev cc10_stg0_0 : Ref sig .tc := ⟨.vmem, 95, rfl⟩
abbrev cc10_stg0_1 : Ref sig .tc := ⟨.vmem, 96, rfl⟩
abbrev cc10_stg1_0 : Ref sig .tc := ⟨.vmem, 97, rfl⟩
abbrev cc10_stg2_0 : Ref sig .tc := ⟨.vmem, 98, rfl⟩
abbrev cc10_stg3_0 : Ref sig .tc := ⟨.vmem, 99, rfl⟩
abbrev cc10_stg4_0 : Ref sig .tc := ⟨.vmem, 100, rfl⟩
abbrev cc10_stg5_0 : Ref sig .tc := ⟨.vmem, 101, rfl⟩
abbrev cc10_stg5_1 : Ref sig .tc := ⟨.vmem, 102, rfl⟩
abbrev cc11_stg0_0 : Ref sig .tc := ⟨.vmem, 103, rfl⟩
abbrev cc11_stg0_1 : Ref sig .tc := ⟨.vmem, 104, rfl⟩
abbrev cc11_stg1_0 : Ref sig .tc := ⟨.vmem, 105, rfl⟩
abbrev cc11_stg2_0 : Ref sig .tc := ⟨.vmem, 106, rfl⟩
abbrev cc11_stg3_0 : Ref sig .tc := ⟨.vmem, 107, rfl⟩
abbrev cc11_stg3_1 : Ref sig .tc := ⟨.vmem, 108, rfl⟩
abbrev cc11_stg4_0 : Ref sig .tc := ⟨.vmem, 109, rfl⟩
abbrev cc11_stg5_0 : Ref sig .tc := ⟨.vmem, 110, rfl⟩
abbrev cc11_stg5_1 : Ref sig .tc := ⟨.vmem, 111, rfl⟩
abbrev cc12_stg0_0 : Ref sig .tc := ⟨.vmem, 112, rfl⟩
abbrev cc12_stg0_1 : Ref sig .tc := ⟨.vmem, 113, rfl⟩
abbrev cc12_stg1_0 : Ref sig .tc := ⟨.vmem, 114, rfl⟩
abbrev cc12_stg2_0 : Ref sig .tc := ⟨.vmem, 115, rfl⟩
abbrev cc12_stg3_0 : Ref sig .tc := ⟨.vmem, 116, rfl⟩
abbrev cc12_stg3_1 : Ref sig .tc := ⟨.vmem, 117, rfl⟩
abbrev cc12_stg4_0 : Ref sig .tc := ⟨.vmem, 118, rfl⟩
abbrev cc12_stg5_0 : Ref sig .tc := ⟨.vmem, 119, rfl⟩
abbrev cc12_stg5_1 : Ref sig .tc := ⟨.vmem, 120, rfl⟩
abbrev cc12_stg6_0 : Ref sig .tc := ⟨.vmem, 121, rfl⟩
abbrev cc12_stg6_1 : Ref sig .tc := ⟨.vmem, 122, rfl⟩
abbrev cc13_stg0_0 : Ref sig .tc := ⟨.vmem, 123, rfl⟩
abbrev cc13_stg0_1 : Ref sig .tc := ⟨.vmem, 124, rfl⟩
abbrev cc13_stg1_0 : Ref sig .tc := ⟨.vmem, 125, rfl⟩
abbrev cc13_stg2_0 : Ref sig .tc := ⟨.vmem, 126, rfl⟩
abbrev cc13_stg3_0 : Ref sig .tc := ⟨.vmem, 127, rfl⟩
abbrev cc13_stg3_1 : Ref sig .tc := ⟨.vmem, 128, rfl⟩
abbrev cc13_stg4_0 : Ref sig .tc := ⟨.vmem, 129, rfl⟩
abbrev cc13_stg5_0 : Ref sig .tc := ⟨.vmem, 130, rfl⟩
abbrev cc13_stg5_1 : Ref sig .tc := ⟨.vmem, 131, rfl⟩
abbrev cc14_stg0_0 : Ref sig .tc := ⟨.vmem, 132, rfl⟩
abbrev cc14_stg0_1 : Ref sig .tc := ⟨.vmem, 133, rfl⟩
abbrev cc14_stg1_0 : Ref sig .tc := ⟨.vmem, 134, rfl⟩
abbrev cc14_stg2_0 : Ref sig .tc := ⟨.vmem, 135, rfl⟩
abbrev cc14_stg3_0 : Ref sig .tc := ⟨.vmem, 136, rfl⟩
abbrev cc14_stg3_1 : Ref sig .tc := ⟨.vmem, 137, rfl⟩
abbrev cc14_stg4_0 : Ref sig .tc := ⟨.vmem, 138, rfl⟩
abbrev cc14_stg5_0 : Ref sig .tc := ⟨.vmem, 139, rfl⟩
abbrev cc14_stg5_1 : Ref sig .tc := ⟨.vmem, 140, rfl⟩
abbrev cc14_stg6_0 : Ref sig .tc := ⟨.vmem, 141, rfl⟩
abbrev cc14_stg6_1 : Ref sig .tc := ⟨.vmem, 142, rfl⟩
abbrev cc15_stg0_0 : Ref sig .tc := ⟨.vmem, 143, rfl⟩
abbrev cc15_stg0_1 : Ref sig .tc := ⟨.vmem, 144, rfl⟩
abbrev cc15_stg1_0 : Ref sig .tc := ⟨.vmem, 145, rfl⟩
abbrev cc15_stg2_0 : Ref sig .tc := ⟨.vmem, 146, rfl⟩
abbrev cc15_stg3_0 : Ref sig .tc := ⟨.vmem, 147, rfl⟩
abbrev cc15_stg3_1 : Ref sig .tc := ⟨.vmem, 148, rfl⟩
abbrev cc15_stg4_0 : Ref sig .tc := ⟨.vmem, 149, rfl⟩
abbrev cc15_stg5_0 : Ref sig .tc := ⟨.vmem, 150, rfl⟩
abbrev cc15_stg5_1 : Ref sig .tc := ⟨.vmem, 151, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43
abbrev cc4_sem4_0 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem3_0 : DmaSem sig := 51
abbrev cc5_sem3_1 : DmaSem sig := 52
abbrev cc5_sem4_0 : DmaSem sig := 53
abbrev cc5_sem5_0 : DmaSem sig := 54
abbrev cc5_sem5_1 : DmaSem sig := 55
abbrev cc5_sem6_0 : DmaSem sig := 56
abbrev cc5_sem6_1 : DmaSem sig := 57
abbrev cc5_sem7_0 : DmaSem sig := 58
abbrev cc5_sem8_0 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem3_1 : DmaSem sig := 65
abbrev cc6_sem4_0 : DmaSem sig := 66
abbrev cc6_sem5_0 : DmaSem sig := 67
abbrev cc6_sem5_1 : DmaSem sig := 68
abbrev cc6_sem6_0 : DmaSem sig := 69
abbrev cc6_sem7_0 : DmaSem sig := 70
abbrev cc7_sem0_0 : DmaSem sig := 71
abbrev cc7_sem0_1 : DmaSem sig := 72
abbrev cc7_sem1_0 : DmaSem sig := 73
abbrev cc7_sem2_0 : DmaSem sig := 74
abbrev cc7_sem3_0 : DmaSem sig := 75
abbrev cc7_sem3_1 : DmaSem sig := 76
abbrev cc7_sem4_0 : DmaSem sig := 77
abbrev cc7_sem5_0 : DmaSem sig := 78
abbrev cc8_sem0_0 : DmaSem sig := 79
abbrev cc8_sem0_1 : DmaSem sig := 80
abbrev cc8_sem1_0 : DmaSem sig := 81
abbrev cc8_sem2_0 : DmaSem sig := 82
abbrev cc8_sem3_0 : DmaSem sig := 83
abbrev cc8_sem4_0 : DmaSem sig := 84
abbrev cc8_sem5_0 : DmaSem sig := 85
abbrev cc8_sem5_1 : DmaSem sig := 86
abbrev cc9_sem0_0 : DmaSem sig := 87
abbrev cc9_sem0_1 : DmaSem sig := 88
abbrev cc9_sem1_0 : DmaSem sig := 89
abbrev cc9_sem2_0 : DmaSem sig := 90
abbrev cc9_sem3_0 : DmaSem sig := 91
abbrev cc9_sem4_0 : DmaSem sig := 92
abbrev cc9_sem5_0 : DmaSem sig := 93
abbrev cc9_sem5_1 : DmaSem sig := 94
abbrev cc10_sem0_0 : DmaSem sig := 95
abbrev cc10_sem0_1 : DmaSem sig := 96
abbrev cc10_sem1_0 : DmaSem sig := 97
abbrev cc10_sem2_0 : DmaSem sig := 98
abbrev cc10_sem3_0 : DmaSem sig := 99
abbrev cc10_sem4_0 : DmaSem sig := 100
abbrev cc10_sem5_0 : DmaSem sig := 101
abbrev cc10_sem5_1 : DmaSem sig := 102
abbrev cc11_sem0_0 : DmaSem sig := 103
abbrev cc11_sem0_1 : DmaSem sig := 104
abbrev cc11_sem1_0 : DmaSem sig := 105
abbrev cc11_sem2_0 : DmaSem sig := 106
abbrev cc11_sem3_0 : DmaSem sig := 107
abbrev cc11_sem3_1 : DmaSem sig := 108
abbrev cc11_sem4_0 : DmaSem sig := 109
abbrev cc11_sem5_0 : DmaSem sig := 110
abbrev cc11_sem5_1 : DmaSem sig := 111
abbrev cc12_sem0_0 : DmaSem sig := 112
abbrev cc12_sem0_1 : DmaSem sig := 113
abbrev cc12_sem1_0 : DmaSem sig := 114
abbrev cc12_sem2_0 : DmaSem sig := 115
abbrev cc12_sem3_0 : DmaSem sig := 116
abbrev cc12_sem3_1 : DmaSem sig := 117
abbrev cc12_sem4_0 : DmaSem sig := 118
abbrev cc12_sem5_0 : DmaSem sig := 119
abbrev cc12_sem5_1 : DmaSem sig := 120
abbrev cc12_sem6_0 : DmaSem sig := 121
abbrev cc12_sem6_1 : DmaSem sig := 122
abbrev cc13_sem0_0 : DmaSem sig := 123
abbrev cc13_sem0_1 : DmaSem sig := 124
abbrev cc13_sem1_0 : DmaSem sig := 125
abbrev cc13_sem2_0 : DmaSem sig := 126
abbrev cc13_sem3_0 : DmaSem sig := 127
abbrev cc13_sem3_1 : DmaSem sig := 128
abbrev cc13_sem4_0 : DmaSem sig := 129
abbrev cc13_sem5_0 : DmaSem sig := 130
abbrev cc13_sem5_1 : DmaSem sig := 131
abbrev cc14_sem0_0 : DmaSem sig := 132
abbrev cc14_sem0_1 : DmaSem sig := 133
abbrev cc14_sem1_0 : DmaSem sig := 134
abbrev cc14_sem2_0 : DmaSem sig := 135
abbrev cc14_sem3_0 : DmaSem sig := 136
abbrev cc14_sem3_1 : DmaSem sig := 137
abbrev cc14_sem4_0 : DmaSem sig := 138
abbrev cc14_sem5_0 : DmaSem sig := 139
abbrev cc14_sem5_1 : DmaSem sig := 140
abbrev cc14_sem6_0 : DmaSem sig := 141
abbrev cc14_sem6_1 : DmaSem sig := 142
abbrev cc15_sem0_0 : DmaSem sig := 143
abbrev cc15_sem0_1 : DmaSem sig := 144
abbrev cc15_sem1_0 : DmaSem sig := 145
abbrev cc15_sem2_0 : DmaSem sig := 146
abbrev cc15_sem3_0 : DmaSem sig := 147
abbrev cc15_sem3_1 : DmaSem sig := 148
abbrev cc15_sem4_0 : DmaSem sig := 149
abbrev cc15_sem5_0 : DmaSem sig := 150
abbrev cc15_sem5_1 : DmaSem sig := 151

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev grid6 : Pipeline.Grid := ⟨1, ![75], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![75], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![100], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S128x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![100], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S128x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S2000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![75], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S2000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 1 → Memref sig .tc .vmem S128x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S2000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![75], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S2000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 1 → Memref sig .tc .vmem S128x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 2 → Memref sig .tc .vmem S2000x128 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S2000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 1 → Memref sig .tc .vmem S128x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S2000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S600000x1 : S_.BroadcastsInDim S600000x1 (![] : Fin 0 → Fin S600000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S150000x128 : S_.BroadcastsInDim S150000x128 (![] : Fin 0 → Fin S150000x128.rank)
  bcast_S_S500000x1 : S_.BroadcastsInDim S500000x1 (![] : Fin 0 → Fin S500000x1.rank)
  bcast_S_S150000x1 : S_.BroadcastsInDim S150000x1 (![] : Fin 0 → Fin S150000x1.rank)
  bcast_S150000x1_S150000x128_0_1 : S150000x1.BroadcastsInDim S150000x128 (![0, 1] : Fin 2 → Fin S150000x128.rank)
  slices_S11x128x128_S1x128x128_0_0_0 : S11x128x128.Slices ![0, 0, 0] S1x128x128
  shapeCasts_S1x128x128_S128x128 : S1x128x128.ShapeCasts S128x128
  slices_S11x128_S1x128_0_0 : S11x128.Slices ![0, 0] S1x128
  shapeCasts_S1x128_S128 : S1x128.ShapeCasts S128
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  shapeCasts_S128_S1x128 : S128.ShapeCasts S1x128
  slices_S11x128x128_S1x128x128_1_0_0 : S11x128x128.Slices ![1, 0, 0] S1x128x128
  slices_S11x128_S1x128_1_0 : S11x128.Slices ![1, 0] S1x128
  slices_S5x128_S1x128_0_0 : S5x128.Slices ![0, 0] S1x128
  bcast_S_S1x128 : S_.BroadcastsInDim S1x128 (![] : Fin 0 → Fin S1x128.rank)
  slices_S5x128_S1x128_1_0 : S5x128.Slices ![1, 0] S1x128
  slices_S11x128x128_S1x128x128_2_0_0 : S11x128x128.Slices ![2, 0, 0] S1x128x128
  slices_S11x128_S1x128_2_0 : S11x128.Slices ![2, 0] S1x128
  slices_S11x128x128_S1x128x128_4_0_0 : S11x128x128.Slices ![4, 0, 0] S1x128x128
  slices_S11x128_S1x128_4_0 : S11x128.Slices ![4, 0] S1x128
  slices_S11x128x128_S1x128x128_3_0_0 : S11x128x128.Slices ![3, 0, 0] S1x128x128
  slices_S11x128_S1x128_3_0 : S11x128.Slices ![3, 0] S1x128
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S10000x128 : S_.BroadcastsInDim S10000x128 (![] : Fin 0 → Fin S10000x128.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  slices_S11x128x128_S1x128x128_5_0_0 : S11x128x128.Slices ![5, 0, 0] S1x128x128
  slices_S11x128_S1x128_5_0 : S11x128.Slices ![5, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128
  slices_S11x128x128_S1x128x128_6_0_0 : S11x128x128.Slices ![6, 0, 0] S1x128x128
  slices_S11x128_S1x128_6_0 : S11x128.Slices ![6, 0] S1x128
  slices_S11x128x128_S1x128x128_8_0_0 : S11x128x128.Slices ![8, 0, 0] S1x128x128
  slices_S11x128_S1x128_8_0 : S11x128.Slices ![8, 0] S1x128
  slices_S11x128x128_S1x128x128_7_0_0 : S11x128x128.Slices ![7, 0, 0] S1x128x128
  slices_S11x128_S1x128_7_0 : S11x128.Slices ![7, 0] S1x128
  slices_S11x128x128_S1x128x128_10_0_0 : S11x128x128.Slices ![10, 0, 0] S1x128x128
  slices_S11x128_S1x128_10_0 : S11x128.Slices ![10, 0] S1x128
  slices_S11x128x128_S1x128x128_9_0_0 : S11x128x128.Slices ![9, 0, 0] S1x128x128
  slices_S11x128_S1x128_9_0 : S11x128.Slices ![9, 0] S1x128
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S200000x1_S600000x1_S600000x1_1_0_0_1_wf : ScatterDims.WF S200000x1 S600000x1 S600000x1 [1] [0] [0] 1
  gather_S200000x128_S500000x1_S500000x128_1_0_n_n_0_1_1128_wf : GatherDims.WF S200000x128 S500000x1 S500000x128 [1] [0] [] [0] [] 1 ![1, 128]
  scatter_S150000x128_S500000x1_S500000x128_1_0_0_1_wf : ScatterDims.WF S150000x128 S500000x1 S500000x128 [1] [0] [0] 1
  scatter_S150000x1_S500000x1_S500000x1_1_0_0_1_wf : ScatterDims.WF S150000x1 S500000x1 S500000x1 [1] [0] [0] 1
  dot_S2000x128_S128x128_S2000x128_1_0_0_1_n_n_wf : DotDims.WF S2000x128 S128x128 S2000x128 [1] [0] [0] [1] [] []
  gather_S150000x128_S500000x1_S500000x128_1_0_n_n_0_1_1128_wf : GatherDims.WF S150000x128 S500000x1 S500000x128 [1] [0] [] [0] [] 1 ![1, 128]
  scatter_S200000x128_S500000x1_S500000x128_1_0_0_1_wf : ScatterDims.WF S200000x128 S500000x1 S500000x128 [1] [0] [0] 1
  scatter_S200000x1_S500000x1_S500000x1_1_0_0_1_wf : ScatterDims.WF S200000x1 S500000x1 S500000x1 [1] [0] [0] 1
  gather_S150000x128_S150000x1_S150000x128_1_0_n_n_0_1_1128_wf : GatherDims.WF S150000x128 S150000x1 S150000x128 [1] [0] [] [0] [] 1 ![1, 128]
  scatter_S10000x128_S150000x1_S150000x128_1_0_0_1_wf : ScatterDims.WF S10000x128 S150000x1 S150000x128 [1] [0] [0] 1
  scatter_S10000x1_S150000x1_S150000x1_1_0_0_1_wf : ScatterDims.WF S10000x1 S150000x1 S150000x1 [1] [0] [0] 1
  gather_S10000x128_S150000x1_S150000x128_1_0_n_n_0_1_1128_wf : GatherDims.WF S10000x128 S150000x1 S150000x128 [1] [0] [] [0] [] 1 ![1, 128]
  scatter_S150000x128_S150000x1_S150000x128_1_0_0_1_wf : ScatterDims.WF S150000x128 S150000x1 S150000x128 [1] [0] [0] 1
  scatter_S150000x1_S150000x1_S150000x1_1_0_0_1_wf : ScatterDims.WF S150000x1 S150000x1 S150000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .f32 = 32 ∨ (Rect.block (s := S200000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S200000x128.size a
  hwx0_5 : ∀ i : grid0.Coords, EltTy.bits .f32 = 32 ∨ (Rect.block (s := S200000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S150000x128.size a
  hwx1_0 : ∀ i : grid1.Coords, EltTy.bits .f32 = 32 ∨ (Rect.block (s := S150000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S150000x128.size a
  hwx1_3 : ∀ i : grid1.Coords, EltTy.bits .f32 = 32 ∨ (Rect.block (s := S150000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S150000x128.size a
  hwx1_5 : ∀ i : grid1.Coords, EltTy.bits .f32 = 32 ∨ (Rect.block (s := S150000x128) S2000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S200000x128.size a
  hwx2_5 : ∀ i : grid2.Coords, EltTy.bits .f32 = 32 ∨ (Rect.block (s := S200000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S150000x128.size a
  hwx3_0 : ∀ i : grid3.Coords, EltTy.bits .f32 = 32 ∨ (Rect.block (s := S150000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S150000x128.size a
  hwx3_5 : ∀ i : grid3.Coords, EltTy.bits .f32 = 32 ∨ (Rect.block (s := S150000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S200000x128.size a
  hwx4_0 : ∀ i : grid4.Coords, EltTy.bits .f32 = 32 ∨ (Rect.block (s := S200000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S200000x128.size a
  hwx4_3 : ∀ i : grid4.Coords, EltTy.bits .f32 = 32 ∨ (Rect.block (s := S200000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S200000x128.size a
  hwx4_5 : ∀ i : grid4.Coords, EltTy.bits .f32 = 32 ∨ (Rect.block (s := S200000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S200000x128.size a
  hwx5_0 : ∀ i : grid5.Coords, EltTy.bits .f32 = 32 ∨ (Rect.block (s := S200000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S200000x128.size a
  hwx5_3 : ∀ i : grid5.Coords, EltTy.bits .f32 = 32 ∨ (Rect.block (s := S200000x128) S2000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S200000x128.size a
  hwx5_5 : ∀ i : grid5.Coords, EltTy.bits .f32 = 32 ∨ (Rect.block (s := S200000x128) S2000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S200000x128.size a
  hwx5_6 : ∀ i : grid5.Coords, EltTy.bits .f32 = 32 ∨ (Rect.block (s := S200000x128) S2000x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S150000x128.size a
  hwx6_0 : ∀ i : grid6.Coords, EltTy.bits .f32 = 32 ∨ (Rect.block (s := S150000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S150000x128.size a
  hwx6_3 : ∀ i : grid6.Coords, EltTy.bits .f32 = 32 ∨ (Rect.block (s := S150000x128) S2000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S150000x128.size a
  hwx6_5 : ∀ i : grid6.Coords, EltTy.bits .f32 = 32 ∨ (Rect.block (s := S150000x128) S2000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S10000x128.size a
  hwx7_0 : ∀ i : grid7.Coords, EltTy.bits .f32 = 32 ∨ (Rect.block (s := S10000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S10000x128.size a
  hwx7_3 : ∀ i : grid7.Coords, EltTy.bits .f32 = 32 ∨ (Rect.block (s := S10000x128) S2000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S200000x128.size a
  hwx8_0 : ∀ i : grid8.Coords, EltTy.bits .f32 = 32 ∨ (Rect.block (s := S200000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S200000x128.size a
  hwx8_5 : ∀ i : grid8.Coords, EltTy.bits .f32 = 32 ∨ (Rect.block (s := S200000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S150000x128.size a
  hwx9_0 : ∀ i : grid9.Coords, EltTy.bits .f32 = 32 ∨ (Rect.block (s := S150000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S150000x128.size a
  hwx9_5 : ∀ i : grid9.Coords, EltTy.bits .f32 = 32 ∨ (Rect.block (s := S150000x128) S2000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S10000x128.size a
  hwx10_0 : ∀ i : grid10.Coords, EltTy.bits .f32 = 32 ∨ (Rect.block (s := S10000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S10000x128.size a
  hwx10_5 : ∀ i : grid10.Coords, EltTy.bits .f32 = 32 ∨ (Rect.block (s := S10000x128) S2000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S200000x128.size a
  hwx11_0 : ∀ i : grid11.Coords, EltTy.bits .f32 = 32 ∨ (Rect.block (s := S200000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S200000x128.size a
  hwx11_3 : ∀ i : grid11.Coords, EltTy.bits .f32 = 32 ∨ (Rect.block (s := S200000x128) S2000x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128x128.size a ≤ S128x128.size a
  hwx11_4 : ∀ i : grid11.Coords, EltTy.bits .f32 = 32 ∨ (Rect.block (s := S128x128) S128x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x128.size a ≤ S200000x128.size a
  hwx11_5 : ∀ i : grid11.Coords, EltTy.bits .f32 = 32 ∨ (Rect.block (s := S200000x128) S2000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S200000x128.size a
  hwx12_0 : ∀ i : grid12.Coords, EltTy.bits .f32 = 32 ∨ (Rect.block (s := S200000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S200000x128.size a
  hwx12_3 : ∀ i : grid12.Coords, EltTy.bits .f32 = 32 ∨ (Rect.block (s := S200000x128) S2000x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128x128.size a ≤ S128x128.size a
  hwx12_4 : ∀ i : grid12.Coords, EltTy.bits .f32 = 32 ∨ (Rect.block (s := S128x128) S128x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x128.size a ≤ S200000x128.size a
  hwx12_5 : ∀ i : grid12.Coords, EltTy.bits .f32 = 32 ∨ (Rect.block (s := S200000x128) S2000x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S2000x128.size a ≤ S200000x128.size a
  hwx12_6 : ∀ i : grid12.Coords, EltTy.bits .f32 = 32 ∨ (Rect.block (s := S200000x128) S2000x128.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S150000x128.size a
  hwx13_0 : ∀ i : grid13.Coords, EltTy.bits .f32 = 32 ∨ (Rect.block (s := S150000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S150000x128.size a
  hwx13_3 : ∀ i : grid13.Coords, EltTy.bits .f32 = 32 ∨ (Rect.block (s := S150000x128) S2000x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S128x128.size a ≤ S128x128.size a
  hwx13_4 : ∀ i : grid13.Coords, EltTy.bits .f32 = 32 ∨ (Rect.block (s := S128x128) S128x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x128.size a ≤ S150000x128.size a
  hwx13_5 : ∀ i : grid13.Coords, EltTy.bits .f32 = 32 ∨ (Rect.block (s := S150000x128) S2000x128.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S150000x128.size a
  hwx14_0 : ∀ i : grid14.Coords, EltTy.bits .f32 = 32 ∨ (Rect.block (s := S150000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x128.size a ≤ S150000x128.size a
  hwx14_3 : ∀ i : grid14.Coords, EltTy.bits .f32 = 32 ∨ (Rect.block (s := S150000x128) S2000x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S128x128.size a ≤ S128x128.size a
  hwx14_4 : ∀ i : grid14.Coords, EltTy.bits .f32 = 32 ∨ (Rect.block (s := S128x128) S128x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x128.size a ≤ S150000x128.size a
  hwx14_5 : ∀ i : grid14.Coords, EltTy.bits .f32 = 32 ∨ (Rect.block (s := S150000x128) S2000x128.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S2000x128.size a ≤ S150000x128.size a
  hwx14_6 : ∀ i : grid14.Coords, EltTy.bits .f32 = 32 ∨ (Rect.block (s := S150000x128) S2000x128.size (cc14_transform_6 i) (hinb14_6 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S10000x128.size a
  hwx15_0 : ∀ i : grid15.Coords, EltTy.bits .f32 = 32 ∨ (Rect.block (s := S10000x128) S2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x128.size a ≤ S10000x128.size a
  hwx15_3 : ∀ i : grid15.Coords, EltTy.bits .f32 = 32 ∨ (Rect.block (s := S10000x128) S2000x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S128x128.size a ≤ S128x128.size a
  hwx15_4 : ∀ i : grid15.Coords, EltTy.bits .f32 = 32 ∨ (Rect.block (s := S128x128) S128x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S2000x128.size a ≤ S10000x128.size a
  hwx15_5 : ∀ i : grid15.Coords, EltTy.bits .f32 = 32 ∨ (Rect.block (s := S10000x128) S2000x128.size (cc15_transform_5 i) (hinb15_5 i)).WholeWords (EltTy.packing .f32)

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000x1_S600000x1_S600000x1_1_0_0_1 : ScatterDims S200000x1 S600000x1 S600000x1 where
  updateWindowDims := [1]
  insertedWindowDims := [0]
  scatterDimsToOperandDims := [0]
  indexVectorDim := 1
  wf := scatter_S200000x1_S600000x1_S600000x1_1_0_0_1_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S150000x128_S500000x1_S500000x128_1_0_0_1 : ScatterDims S150000x128 S500000x1 S500000x128 where
  updateWindowDims := [1]
  insertedWindowDims := [0]
  scatterDimsToOperandDims := [0]
  indexVectorDim := 1
  wf := scatter_S150000x128_S500000x1_S500000x128_1_0_0_1_wf
def scatter_S150000x1_S500000x1_S500000x1_1_0_0_1 : ScatterDims S150000x1 S500000x1 S500000x1 where
  updateWindowDims := [1]
  insertedWindowDims := [0]
  scatterDimsToOperandDims := [0]
  indexVectorDim := 1
  wf := scatter_S150000x1_S500000x1_S500000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S150000x128_S500000x1_S500000x128_1_0_n_n_0_1_1128 : GatherDims S150000x128 S500000x1 S500000x128 where
  offsetDims := [1]
  collapsedSliceDims := [0]
  operandBatchingDims := []
  startIndicesBatchingDims := []
  startIndexMap := [0]
  indexVectorDim := 1
  sliceSizes := ![1, 128]
  wf := gather_S150000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000x1_S500000x1_S500000x1_1_0_0_1 : ScatterDims S200000x1 S500000x1 S500000x1 where
  updateWindowDims := [1]
  insertedWindowDims := [0]
  scatterDimsToOperandDims := [0]
  indexVectorDim := 1
  wf := scatter_S200000x1_S500000x1_S500000x1_1_0_0_1_wf
def gather_S150000x128_S150000x1_S150000x128_1_0_n_n_0_1_1128 : GatherDims S150000x128 S150000x1 S150000x128 where
  offsetDims := [1]
  collapsedSliceDims := [0]
  operandBatchingDims := []
  startIndicesBatchingDims := []
  startIndexMap := [0]
  indexVectorDim := 1
  sliceSizes := ![1, 128]
  wf := gather_S150000x128_S150000x1_S150000x128_1_0_n_n_0_1_1128_wf
def scatter_S10000x128_S150000x1_S150000x128_1_0_0_1 : ScatterDims S10000x128 S150000x1 S150000x128 where
  updateWindowDims := [1]
  insertedWindowDims := [0]
  scatterDimsToOperandDims := [0]
  indexVectorDim := 1
  wf := scatter_S10000x128_S150000x1_S150000x128_1_0_0_1_wf
def scatter_S10000x1_S150000x1_S150000x1_1_0_0_1 : ScatterDims S10000x1 S150000x1 S150000x1 where
  updateWindowDims := [1]
  insertedWindowDims := [0]
  scatterDimsToOperandDims := [0]
  indexVectorDim := 1
  wf := scatter_S10000x1_S150000x1_S150000x1_1_0_0_1_wf
def gather_S10000x128_S150000x1_S150000x128_1_0_n_n_0_1_1128 : GatherDims S10000x128 S150000x1 S150000x128 where
  offsetDims := [1]
  collapsedSliceDims := [0]
  operandBatchingDims := []
  startIndicesBatchingDims := []
  startIndexMap := [0]
  indexVectorDim := 1
  sliceSizes := ![1, 128]
  wf := gather_S10000x128_S150000x1_S150000x128_1_0_n_n_0_1_1128_wf
def scatter_S150000x128_S150000x1_S150000x128_1_0_0_1 : ScatterDims S150000x128 S150000x1 S150000x128 where
  updateWindowDims := [1]
  insertedWindowDims := [0]
  scatterDimsToOperandDims := [0]
  indexVectorDim := 1
  wf := scatter_S150000x128_S150000x1_S150000x128_1_0_0_1_wf
def scatter_S150000x1_S150000x1_S150000x1_1_0_0_1 : ScatterDims S150000x1 S150000x1 S150000x1 where
  updateWindowDims := [1]
  insertedWindowDims := [0]
  scatterDimsToOperandDims := [0]
  indexVectorDim := 1
  wf := scatter_S150000x1_S150000x1_S150000x1_1_0_0_1_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v50) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v51_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v59_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v51_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v107) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v131) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v134) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v136) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v137) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v129) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v139) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v142) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v144) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v137) S2000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v145_0) S2000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v145_1) S1x128.size cc5_transform_7 reads5_7 true true 1 stage5_7 sem5_7
    hrank5 hreads5_7 hinb5_7 nbuf5_7 (Memref.isWhole_whole _) hwx5_7 hstage5_7

abbrev win5_8 : Pipeline.Window sig grid5 :=
  Pipeline.Window.ofSpec (Memref.whole main_v145_2) S1x128.size cc5_transform_8 reads5_8 true true 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v167) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v169) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v172) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S2000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v174) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v175_0) S2000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v175_1) S1x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v175_2) S1x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v197) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v199) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v202) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v203_0) S2000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v203_1) S1x128.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v203_2) S1x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v145_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v211) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v215) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v206) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v209) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v216) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v175_0) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v224) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v228) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v219) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v222) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v229) S2000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v203_0) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v237) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v241) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v232) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v235) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v242) S2000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v264) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v288) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v291) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v216) S2000x128.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v293) S128x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v294) S2000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v286) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v296) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v299) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v216) S2000x128.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v301) S128x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v294) S2000x128.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v302) S2000x128.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v324) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v348) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v351) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v229) S2000x128.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v353) S128x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v354) S2000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v346) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v356) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v359) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v229) S2000x128.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_v361) S128x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v354) S2000x128.size cc14_transform_5 reads14_5 false false 2 stage14_5 sem14_5
    hrank14 hreads14_5 hinb14_5 nbuf14_5 (Memref.isWhole_whole _) hwx14_5 hstage14_5

abbrev win14_6 : Pipeline.Window sig grid14 :=
  Pipeline.Window.ofSpec (Memref.whole main_v362) S2000x128.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

abbrev win15_0 : Pipeline.Window sig grid15 :=
  Pipeline.Window.ofSpec (Memref.whole main_v384) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v386) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v389) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v242) S2000x128.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v391) S128x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v392) S2000x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

class Facts : Prop extends Facts₀ where

variable [Facts]
-- ==== ReferenceIdeal.lean ====
abbrev S200000x128 : Shape := ⟨2, ![200000, 128]⟩
abbrev S150000x128 : Shape := ⟨2, ![150000, 128]⟩
abbrev S10000x128 : Shape := ⟨2, ![10000, 128]⟩
abbrev S2x600000 : Shape := ⟨2, ![2, 600000]⟩
abbrev S2x500000 : Shape := ⟨2, ![2, 500000]⟩
abbrev S2x150000 : Shape := ⟨2, ![2, 150000]⟩
abbrev S11x128x128 : Shape := ⟨3, ![11, 128, 128]⟩
abbrev S11x128 : Shape := ⟨2, ![11, 128]⟩
abbrev S5x128 : Shape := ⟨2, ![5, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S200000x1 : Shape := ⟨2, ![200000, 1]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S150000x1 : Shape := ⟨2, ![150000, 1]⟩
abbrev S1x150000 : Shape := ⟨2, ![1, 150000]⟩
abbrev S150000 : Shape := ⟨1, ![150000]⟩
abbrev S10000x1 : Shape := ⟨2, ![10000, 1]⟩

abbrev nBuf : Space → Nat
  | .hbm => 639
  | .vmem => 0
  | .smem => 0
  | _ => 0

abbrev hbmTy0_0 (i : Nat) : BufTy := match i % 128 with
  | 0 => ⟨S200000x128, .f32⟩
  | 1 => ⟨S150000x128, .f32⟩
  | 2 => ⟨S10000x128, .f32⟩
  | 3 => ⟨S2x600000, .i32⟩
  | 4 => ⟨S2x500000, .i32⟩
  | 5 => ⟨S2x500000, .i32⟩
  | 6 => ⟨S2x150000, .i32⟩
  | 7 => ⟨S2x150000, .i32⟩
  | 8 => ⟨S11x128x128, .f32⟩
  | 9 => ⟨S11x128, .f32⟩
  | 10 => ⟨S11x128x128, .f32⟩
  | 11 => ⟨S5x128, .f32⟩
  | 12 => ⟨S5x128, .f32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S200000x128, .f32⟩
  | 34 => ⟨S600000x1, .i32⟩
  | 35 => ⟨S200000x128, .f32⟩
  | 36 => ⟨S_, .f32⟩
  | 37 => ⟨S600000x1, .f32⟩
  | 38 => ⟨S_, .f32⟩
  | 39 => ⟨S200000x1, .f32⟩
  | 40 => ⟨S600000x1, .i32⟩
  | 41 => ⟨S200000x1, .f32⟩
  | 42 => ⟨S_, .f32⟩
  | 43 => ⟨S200000x1, .f32⟩
  | 44 => ⟨S200000x1, .f32⟩
  | 45 => ⟨S200000x128, .f32⟩
  | 46 => ⟨S200000x128, .f32⟩
  | 47 => ⟨S200000x128, .f32⟩
  | 48 => ⟨S1x128, .f32⟩
  | 49 => ⟨S200000x128, .f32⟩
  | 50 => ⟨S200000x128, .f32⟩
  | 51 => ⟨S200000x128, .f32⟩
  | 52 => ⟨S200000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S1x500000, .i32⟩
  | 60 => ⟨S500000, .i32⟩
  | 61 => ⟨S1x500000, .i32⟩
  | 62 => ⟨S500000, .i32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x128, .f32⟩
  | 72 => ⟨S_, .f32⟩
  | 73 => ⟨S150000x128, .f32⟩
  | 74 => ⟨S500000x1, .i32⟩
  | 75 => ⟨S150000x128, .f32⟩
  | 76 => ⟨S_, .f32⟩
  | 77 => ⟨S500000x1, .f32⟩
  | 78 => ⟨S_, .f32⟩
  | 79 => ⟨S150000x1, .f32⟩
  | 80 => ⟨S500000x1, .i32⟩
  | 81 => ⟨S150000x1, .f32⟩
  | 82 => ⟨S_, .f32⟩
  | 83 => ⟨S150000x1, .f32⟩
  | 84 => ⟨S150000x1, .f32⟩
  | 85 => ⟨S150000x128, .f32⟩
  | 86 => ⟨S150000x128, .f32⟩
  | 87 => ⟨S150000x128, .f32⟩
  | 88 => ⟨S1x128, .f32⟩
  | 89 => ⟨S150000x128, .f32⟩
  | 90 => ⟨S150000x128, .f32⟩
  | 91 => ⟨S150000x128, .f32⟩
  | 92 => ⟨S150000x128, .f32⟩
  | 93 => ⟨S_, .f32⟩
  | 94 => ⟨S200000x128, .f32⟩
  | 95 => ⟨S200000x128, .f32⟩
  | 96 => ⟨S1x128, .f32⟩
  | 97 => ⟨S128, .f32⟩
  | 98 => ⟨S1x128, .f32⟩
  | 99 => ⟨S128, .f32⟩
  | 100 => ⟨S_, .f32⟩
  | 101 => ⟨S128, .f32⟩
  | 102 => ⟨S_, .f32⟩
  | 103 => ⟨S128, .f32⟩
  | 104 => ⟨S128, .f32⟩
  | 105 => ⟨S1x128, .f32⟩
  | 106 => ⟨S200000x128, .f32⟩
  | 107 => ⟨S200000x128, .f32⟩
  | 108 => ⟨S200000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S200000x128, .f32⟩
  | 116 => ⟨S200000x128, .f32⟩
  | 117 => ⟨S_, .f32⟩
  | 118 => ⟨S128, .f32⟩
  | 119 => ⟨S128, .f32⟩
  | 120 => ⟨S128, .f32⟩
  | 121 => ⟨S1x128, .f32⟩
  | 122 => ⟨S200000x128, .f32⟩
  | 123 => ⟨S200000x128, .f32⟩
  | 124 => ⟨S1x128, .f32⟩
  | 125 => ⟨S200000x128, .f32⟩
  | 126 => ⟨S200000x128, .f32⟩
  | 127 => ⟨S1x128, .f32⟩
  | _ => ⟨S200000x128, .f32⟩

abbrev hbmTy0_1 (i : Nat) : BufTy := match i % 128 with
  | 0 => ⟨S200000x128, .f32⟩
  | 1 => ⟨S200000x128, .f32⟩
  | 2 => ⟨S_, .f32⟩
  | 3 => ⟨S150000x128, .f32⟩
  | 4 => ⟨S150000x128, .f32⟩
  | 5 => ⟨S1x128, .f32⟩
  | 6 => ⟨S128, .f32⟩
  | 7 => ⟨S1x128, .f32⟩
  | 8 => ⟨S128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S150000x128, .f32⟩
  | 16 => ⟨S150000x128, .f32⟩
  | 17 => ⟨S150000x128, .f32⟩
  | 18 => ⟨S_, .f32⟩
  | 19 => ⟨S128, .f32⟩
  | 20 => ⟨S_, .f32⟩
  | 21 => ⟨S128, .f32⟩
  | 22 => ⟨S128, .f32⟩
  | 23 => ⟨S1x128, .f32⟩
  | 24 => ⟨S150000x128, .f32⟩
  | 25 => ⟨S150000x128, .f32⟩
  | 26 => ⟨S_, .f32⟩
  | 27 => ⟨S128, .f32⟩
  | 28 => ⟨S128, .f32⟩
  | 29 => ⟨S128, .f32⟩
  | 30 => ⟨S1x128, .f32⟩
  | 31 => ⟨S150000x128, .f32⟩
  | 32 => ⟨S150000x128, .f32⟩
  | 33 => ⟨S1x128, .f32⟩
  | 34 => ⟨S150000x128, .f32⟩
  | 35 => ⟨S150000x128, .f32⟩
  | 36 => ⟨S1x128, .f32⟩
  | 37 => ⟨S150000x128, .f32⟩
  | 38 => ⟨S150000x128, .f32⟩
  | 39 => ⟨S1x128x128, .f32⟩
  | 40 => ⟨S128x128, .f32⟩
  | 41 => ⟨S1x128, .f32⟩
  | 42 => ⟨S128, .f32⟩
  | 43 => ⟨S1x128x128, .f32⟩
  | 44 => ⟨S128x128, .f32⟩
  | 45 => ⟨S1x600000, .i32⟩
  | 46 => ⟨S600000, .i32⟩
  | 47 => ⟨S1x600000, .i32⟩
  | 48 => ⟨S600000, .i32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S_, .f32⟩
  | 59 => ⟨S200000x128, .f32⟩
  | 60 => ⟨S600000x1, .i32⟩
  | 61 => ⟨S200000x128, .f32⟩
  | 62 => ⟨S_, .f32⟩
  | 63 => ⟨S600000x1, .f32⟩
  | 64 => ⟨S_, .f32⟩
  | 65 => ⟨S200000x1, .f32⟩
  | 66 => ⟨S600000x1, .i32⟩
  | 67 => ⟨S200000x1, .f32⟩
  | 68 => ⟨S_, .f32⟩
  | 69 => ⟨S200000x1, .f32⟩
  | 70 => ⟨S200000x1, .f32⟩
  | 71 => ⟨S200000x128, .f32⟩
  | 72 => ⟨S200000x128, .f32⟩
  | 73 => ⟨S200000x128, .f32⟩
  | 74 => ⟨S1x128, .f32⟩
  | 75 => ⟨S200000x128, .f32⟩
  | 76 => ⟨S200000x128, .f32⟩
  | 77 => ⟨S200000x128, .f32⟩
  | 78 => ⟨S200000x128, .f32⟩
  | 79 => ⟨S1x128x128, .f32⟩
  | 80 => ⟨S128x128, .f32⟩
  | 81 => ⟨S1x128, .f32⟩
  | 82 => ⟨S128, .f32⟩
  | 83 => ⟨S1x128x128, .f32⟩
  | 84 => ⟨S128x128, .f32⟩
  | 85 => ⟨S1x500000, .i32⟩
  | 86 => ⟨S500000, .i32⟩
  | 87 => ⟨S1x500000, .i32⟩
  | 88 => ⟨S500000, .i32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x128, .f32⟩
  | 98 => ⟨S_, .f32⟩
  | 99 => ⟨S200000x128, .f32⟩
  | 100 => ⟨S500000x1, .i32⟩
  | 101 => ⟨S200000x128, .f32⟩
  | 102 => ⟨S_, .f32⟩
  | 103 => ⟨S500000x1, .f32⟩
  | 104 => ⟨S_, .f32⟩
  | 105 => ⟨S200000x1, .f32⟩
  | 106 => ⟨S500000x1, .i32⟩
  | 107 => ⟨S200000x1, .f32⟩
  | 108 => ⟨S_, .f32⟩
  | 109 => ⟨S200000x1, .f32⟩
  | 110 => ⟨S200000x1, .f32⟩
  | 111 => ⟨S200000x128, .f32⟩
  | 112 => ⟨S200000x128, .f32⟩
  | 113 => ⟨S200000x128, .f32⟩
  | 114 => ⟨S1x128, .f32⟩
  | 115 => ⟨S200000x128, .f32⟩
  | 116 => ⟨S200000x128, .f32⟩
  | 117 => ⟨S200000x128, .f32⟩
  | 118 => ⟨S200000x128, .f32⟩
  | 119 => ⟨S200000x128, .f32⟩
  | 120 => ⟨S1x128x128, .f32⟩
  | 121 => ⟨S128x128, .f32⟩
  | 122 => ⟨S1x128, .f32⟩
  | 123 => ⟨S128, .f32⟩
  | 124 => ⟨S1x128x128, .f32⟩
  | 125 => ⟨S128x128, .f32⟩
  | 126 => ⟨S1x500000, .i32⟩
  | 127 => ⟨S500000, .i32⟩
  | _ => ⟨S200000x128, .f32⟩

abbrev hbmTy0_2 (i : Nat) : BufTy := match i % 128 with
  | 0 => ⟨S1x500000, .i32⟩
  | 1 => ⟨S500000, .i32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x128, .f32⟩
  | 11 => ⟨S_, .f32⟩
  | 12 => ⟨S150000x128, .f32⟩
  | 13 => ⟨S500000x1, .i32⟩
  | 14 => ⟨S150000x128, .f32⟩
  | 15 => ⟨S_, .f32⟩
  | 16 => ⟨S500000x1, .f32⟩
  | 17 => ⟨S_, .f32⟩
  | 18 => ⟨S150000x1, .f32⟩
  | 19 => ⟨S500000x1, .i32⟩
  | 20 => ⟨S150000x1, .f32⟩
  | 21 => ⟨S_, .f32⟩
  | 22 => ⟨S150000x1, .f32⟩
  | 23 => ⟨S150000x1, .f32⟩
  | 24 => ⟨S150000x128, .f32⟩
  | 25 => ⟨S150000x128, .f32⟩
  | 26 => ⟨S150000x128, .f32⟩
  | 27 => ⟨S1x128, .f32⟩
  | 28 => ⟨S150000x128, .f32⟩
  | 29 => ⟨S150000x128, .f32⟩
  | 30 => ⟨S150000x128, .f32⟩
  | 31 => ⟨S150000x128, .f32⟩
  | 32 => ⟨S1x128x128, .f32⟩
  | 33 => ⟨S128x128, .f32⟩
  | 34 => ⟨S1x128, .f32⟩
  | 35 => ⟨S128, .f32⟩
  | 36 => ⟨S1x128x128, .f32⟩
  | 37 => ⟨S128x128, .f32⟩
  | 38 => ⟨S1x150000, .i32⟩
  | 39 => ⟨S150000, .i32⟩
  | 40 => ⟨S1x150000, .i32⟩
  | 41 => ⟨S150000, .i32⟩
  | 42 => ⟨S_, .i32⟩
  | 43 => ⟨S150000, .i32⟩
  | 44 => ⟨S150000, .i1⟩
  | 45 => ⟨S_, .i32⟩
  | 46 => ⟨S150000, .i32⟩
  | 47 => ⟨S150000, .i32⟩
  | 48 => ⟨S150000, .i32⟩
  | 49 => ⟨S150000x1, .i32⟩
  | 50 => ⟨S150000x128, .f32⟩
  | 51 => ⟨S_, .f32⟩
  | 52 => ⟨S10000x128, .f32⟩
  | 53 => ⟨S150000x1, .i32⟩
  | 54 => ⟨S10000x128, .f32⟩
  | 55 => ⟨S_, .f32⟩
  | 56 => ⟨S150000x1, .f32⟩
  | 57 => ⟨S_, .f32⟩
  | 58 => ⟨S10000x1, .f32⟩
  | 59 => ⟨S150000x1, .i32⟩
  | 60 => ⟨S10000x1, .f32⟩
  | 61 => ⟨S_, .f32⟩
  | 62 => ⟨S10000x1, .f32⟩
  | 63 => ⟨S10000x1, .f32⟩
  | 64 => ⟨S10000x128, .f32⟩
  | 65 => ⟨S10000x128, .f32⟩
  | 66 => ⟨S10000x128, .f32⟩
  | 67 => ⟨S1x128, .f32⟩
  | 68 => ⟨S10000x128, .f32⟩
  | 69 => ⟨S10000x128, .f32⟩
  | 70 => ⟨S_, .f32⟩
  | 71 => ⟨S200000x128, .f32⟩
  | 72 => ⟨S200000x128, .f32⟩
  | 73 => ⟨S1x128, .f32⟩
  | 74 => ⟨S128, .f32⟩
  | 75 => ⟨S1x128, .f32⟩
  | 76 => ⟨S128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S200000x128, .f32⟩
  | 84 => ⟨S200000x128, .f32⟩
  | 85 => ⟨S200000x128, .f32⟩
  | 86 => ⟨S_, .f32⟩
  | 87 => ⟨S128, .f32⟩
  | 88 => ⟨S_, .f32⟩
  | 89 => ⟨S128, .f32⟩
  | 90 => ⟨S128, .f32⟩
  | 91 => ⟨S1x128, .f32⟩
  | 92 => ⟨S200000x128, .f32⟩
  | 93 => ⟨S200000x128, .f32⟩
  | 94 => ⟨S_, .f32⟩
  | 95 => ⟨S128, .f32⟩
  | 96 => ⟨S128, .f32⟩
  | 97 => ⟨S128, .f32⟩
  | 98 => ⟨S1x128, .f32⟩
  | 99 => ⟨S200000x128, .f32⟩
  | 100 => ⟨S200000x128, .f32⟩
  | 101 => ⟨S1x128, .f32⟩
  | 102 => ⟨S200000x128, .f32⟩
  | 103 => ⟨S200000x128, .f32⟩
  | 104 => ⟨S1x128, .f32⟩
  | 105 => ⟨S200000x128, .f32⟩
  | 106 => ⟨S200000x128, .f32⟩
  | 107 => ⟨S_, .f32⟩
  | 108 => ⟨S150000x128, .f32⟩
  | 109 => ⟨S150000x128, .f32⟩
  | 110 => ⟨S1x128, .f32⟩
  | 111 => ⟨S128, .f32⟩
  | 112 => ⟨S1x128, .f32⟩
  | 113 => ⟨S128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S150000x128, .f32⟩
  | 121 => ⟨S150000x128, .f32⟩
  | 122 => ⟨S150000x128, .f32⟩
  | 123 => ⟨S_, .f32⟩
  | 124 => ⟨S128, .f32⟩
  | 125 => ⟨S_, .f32⟩
  | 126 => ⟨S128, .f32⟩
  | 127 => ⟨S128, .f32⟩
  | _ => ⟨S200000x128, .f32⟩

abbrev hbmTy0_3 (i : Nat) : BufTy := match i % 128 with
  | 0 => ⟨S1x128, .f32⟩
  | 1 => ⟨S150000x128, .f32⟩
  | 2 => ⟨S150000x128, .f32⟩
  | 3 => ⟨S_, .f32⟩
  | 4 => ⟨S128, .f32⟩
  | 5 => ⟨S128, .f32⟩
  | 6 => ⟨S128, .f32⟩
  | 7 => ⟨S1x128, .f32⟩
  | 8 => ⟨S150000x128, .f32⟩
  | 9 => ⟨S150000x128, .f32⟩
  | 10 => ⟨S1x128, .f32⟩
  | 11 => ⟨S150000x128, .f32⟩
  | 12 => ⟨S150000x128, .f32⟩
  | 13 => ⟨S1x128, .f32⟩
  | 14 => ⟨S150000x128, .f32⟩
  | 15 => ⟨S150000x128, .f32⟩
  | 16 => ⟨S_, .f32⟩
  | 17 => ⟨S10000x128, .f32⟩
  | 18 => ⟨S10000x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S1x128, .f32⟩
  | 29 => ⟨S10000x128, .f32⟩
  | 30 => ⟨S10000x128, .f32⟩
  | 31 => ⟨S10000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S10000x128, .f32⟩
  | 39 => ⟨S10000x128, .f32⟩
  | 40 => ⟨S_, .f32⟩
  | 41 => ⟨S128, .f32⟩
  | 42 => ⟨S128, .f32⟩
  | 43 => ⟨S128, .f32⟩
  | 44 => ⟨S1x128, .f32⟩
  | 45 => ⟨S10000x128, .f32⟩
  | 46 => ⟨S10000x128, .f32⟩
  | 47 => ⟨S1x128, .f32⟩
  | 48 => ⟨S10000x128, .f32⟩
  | 49 => ⟨S10000x128, .f32⟩
  | 50 => ⟨S1x128, .f32⟩
  | 51 => ⟨S10000x128, .f32⟩
  | 52 => ⟨S10000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S1x600000, .i32⟩
  | 60 => ⟨S600000, .i32⟩
  | 61 => ⟨S1x600000, .i32⟩
  | 62 => ⟨S600000, .i32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S200000x128, .f32⟩
  | 74 => ⟨S600000x1, .i32⟩
  | 75 => ⟨S200000x128, .f32⟩
  | 76 => ⟨S_, .f32⟩
  | 77 => ⟨S600000x1, .f32⟩
  | 78 => ⟨S_, .f32⟩
  | 79 => ⟨S200000x1, .f32⟩
  | 80 => ⟨S600000x1, .i32⟩
  | 81 => ⟨S200000x1, .f32⟩
  | 82 => ⟨S_, .f32⟩
  | 83 => ⟨S200000x1, .f32⟩
  | 84 => ⟨S200000x1, .f32⟩
  | 85 => ⟨S200000x128, .f32⟩
  | 86 => ⟨S200000x128, .f32⟩
  | 87 => ⟨S200000x128, .f32⟩
  | 88 => ⟨S1x128, .f32⟩
  | 89 => ⟨S200000x128, .f32⟩
  | 90 => ⟨S200000x128, .f32⟩
  | 91 => ⟨S200000x128, .f32⟩
  | 92 => ⟨S200000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x500000, .i32⟩
  | 100 => ⟨S500000, .i32⟩
  | 101 => ⟨S1x500000, .i32⟩
  | 102 => ⟨S500000, .i32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x128, .f32⟩
  | 112 => ⟨S_, .f32⟩
  | 113 => ⟨S200000x128, .f32⟩
  | 114 => ⟨S500000x1, .i32⟩
  | 115 => ⟨S200000x128, .f32⟩
  | 116 => ⟨S_, .f32⟩
  | 117 => ⟨S500000x1, .f32⟩
  | 118 => ⟨S_, .f32⟩
  | 119 => ⟨S200000x1, .f32⟩
  | 120 => ⟨S500000x1, .i32⟩
  | 121 => ⟨S200000x1, .f32⟩
  | 122 => ⟨S_, .f32⟩
  | 123 => ⟨S200000x1, .f32⟩
  | 124 => ⟨S200000x1, .f32⟩
  | 125 => ⟨S200000x128, .f32⟩
  | 126 => ⟨S200000x128, .f32⟩
  | 127 => ⟨S200000x128, .f32⟩
  | _ => ⟨S200000x128, .f32⟩

abbrev hbmTy0_4 (i : Nat) : BufTy := match i % 128 with
  | 0 => ⟨S1x128, .f32⟩
  | 1 => ⟨S200000x128, .f32⟩
  | 2 => ⟨S200000x128, .f32⟩
  | 3 => ⟨S200000x128, .f32⟩
  | 4 => ⟨S200000x128, .f32⟩
  | 5 => ⟨S200000x128, .f32⟩
  | 6 => ⟨S1x128x128, .f32⟩
  | 7 => ⟨S128x128, .f32⟩
  | 8 => ⟨S1x128, .f32⟩
  | 9 => ⟨S128, .f32⟩
  | 10 => ⟨S1x128x128, .f32⟩
  | 11 => ⟨S128x128, .f32⟩
  | 12 => ⟨S1x500000, .i32⟩
  | 13 => ⟨S500000, .i32⟩
  | 14 => ⟨S1x500000, .i32⟩
  | 15 => ⟨S500000, .i32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x128, .f32⟩
  | 25 => ⟨S_, .f32⟩
  | 26 => ⟨S150000x128, .f32⟩
  | 27 => ⟨S500000x1, .i32⟩
  | 28 => ⟨S150000x128, .f32⟩
  | 29 => ⟨S_, .f32⟩
  | 30 => ⟨S500000x1, .f32⟩
  | 31 => ⟨S_, .f32⟩
  | 32 => ⟨S150000x1, .f32⟩
  | 33 => ⟨S500000x1, .i32⟩
  | 34 => ⟨S150000x1, .f32⟩
  | 35 => ⟨S_, .f32⟩
  | 36 => ⟨S150000x1, .f32⟩
  | 37 => ⟨S150000x1, .f32⟩
  | 38 => ⟨S150000x128, .f32⟩
  | 39 => ⟨S150000x128, .f32⟩
  | 40 => ⟨S150000x128, .f32⟩
  | 41 => ⟨S1x128, .f32⟩
  | 42 => ⟨S150000x128, .f32⟩
  | 43 => ⟨S150000x128, .f32⟩
  | 44 => ⟨S150000x128, .f32⟩
  | 45 => ⟨S150000x128, .f32⟩
  | 46 => ⟨S1x128x128, .f32⟩
  | 47 => ⟨S128x128, .f32⟩
  | 48 => ⟨S1x128, .f32⟩
  | 49 => ⟨S128, .f32⟩
  | 50 => ⟨S1x128x128, .f32⟩
  | 51 => ⟨S128x128, .f32⟩
  | 52 => ⟨S1x150000, .i32⟩
  | 53 => ⟨S150000, .i32⟩
  | 54 => ⟨S1x150000, .i32⟩
  | 55 => ⟨S150000, .i32⟩
  | 56 => ⟨S_, .i32⟩
  | 57 => ⟨S150000, .i32⟩
  | 58 => ⟨S150000, .i1⟩
  | 59 => ⟨S_, .i32⟩
  | 60 => ⟨S150000, .i32⟩
  | 61 => ⟨S150000, .i32⟩
  | 62 => ⟨S150000, .i32⟩
  | 63 => ⟨S150000x1, .i32⟩
  | 64 => ⟨S150000x128, .f32⟩
  | 65 => ⟨S_, .f32⟩
  | 66 => ⟨S150000x128, .f32⟩
  | 67 => ⟨S150000x1, .i32⟩
  | 68 => ⟨S150000x128, .f32⟩
  | 69 => ⟨S_, .f32⟩
  | 70 => ⟨S150000x1, .f32⟩
  | 71 => ⟨S_, .f32⟩
  | 72 => ⟨S150000x1, .f32⟩
  | 73 => ⟨S150000x1, .i32⟩
  | 74 => ⟨S150000x1, .f32⟩
  | 75 => ⟨S_, .f32⟩
  | 76 => ⟨S150000x1, .f32⟩
  | 77 => ⟨S150000x1, .f32⟩
  | 78 => ⟨S150000x128, .f32⟩
  | 79 => ⟨S150000x128, .f32⟩
  | 80 => ⟨S150000x128, .f32⟩
  | 81 => ⟨S1x128, .f32⟩
  | 82 => ⟨S150000x128, .f32⟩
  | 83 => ⟨S150000x128, .f32⟩
  | 84 => ⟨S150000x128, .f32⟩
  | 85 => ⟨S150000x128, .f32⟩
  | 86 => ⟨S150000x128, .f32⟩
  | 87 => ⟨S1x128x128, .f32⟩
  | 88 => ⟨S128x128, .f32⟩
  | 89 => ⟨S1x128, .f32⟩
  | 90 => ⟨S128, .f32⟩
  | 91 => ⟨S1x128x128, .f32⟩
  | 92 => ⟨S128x128, .f32⟩
  | 93 => ⟨S1x150000, .i32⟩
  | 94 => ⟨S150000, .i32⟩
  | 95 => ⟨S1x150000, .i32⟩
  | 96 => ⟨S150000, .i32⟩
  | 97 => ⟨S_, .i32⟩
  | 98 => ⟨S150000, .i32⟩
  | 99 => ⟨S150000, .i1⟩
  | 100 => ⟨S_, .i32⟩
  | 101 => ⟨S150000, .i32⟩
  | 102 => ⟨S150000, .i32⟩
  | 103 => ⟨S150000, .i32⟩
  | 104 => ⟨S150000x1, .i32⟩
  | 105 => ⟨S150000x128, .f32⟩
  | 106 => ⟨S_, .f32⟩
  | 107 => ⟨S10000x128, .f32⟩
  | 108 => ⟨S150000x1, .i32⟩
  | 109 => ⟨S10000x128, .f32⟩
  | 110 => ⟨S_, .f32⟩
  | 111 => ⟨S150000x1, .f32⟩
  | 112 => ⟨S_, .f32⟩
  | 113 => ⟨S10000x1, .f32⟩
  | 114 => ⟨S150000x1, .i32⟩
  | 115 => ⟨S10000x1, .f32⟩
  | 116 => ⟨S_, .f32⟩
  | 117 => ⟨S10000x1, .f32⟩
  | 118 => ⟨S10000x1, .f32⟩
  | 119 => ⟨S10000x128, .f32⟩
  | 120 => ⟨S10000x128, .f32⟩
  | 121 => ⟨S10000x128, .f32⟩
  | 122 => ⟨S1x128, .f32⟩
  | 123 => ⟨S10000x128, .f32⟩
  | 124 => ⟨S10000x128, .f32⟩
  | 125 => ⟨S10000x128, .f32⟩
  | 126 => ⟨S10000x128, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_4 : Ref sig .tc := ⟨.hbm, 63, rfl⟩
abbrev main_v44 : Ref sig .tc := ⟨.hbm, 64, rfl⟩
abbrev main_v45 : Ref sig .tc := ⟨.hbm, 65, rfl⟩
abbrev main_c_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call0_cst : Ref sig .tc := ⟨.hbm, 93, rfl⟩
abbrev main_call0_v0 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_12 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_14 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call1_cst : Ref sig .tc := ⟨.hbm, 130, rfl⟩
abbrev main_call1_v0 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_15 : Ref sig .tc := ⟨.hbm, 137, rfl⟩
abbrev main_v103 : Ref sig .tc := ⟨.hbm, 138, rfl⟩
abbrev main_cst_16 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_17 : Ref sig .tc := ⟨.hbm, 146, rfl⟩
abbrev main_v110 : Ref sig .tc := ⟨.hbm, 147, rfl⟩
abbrev main_cst_18 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_19 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_c_20 : Ref sig .tc := ⟨.hbm, 177, rfl⟩
abbrev main_v138 : Ref sig .tc := ⟨.hbm, 178, rfl⟩
abbrev main_v139 : Ref sig .tc := ⟨.hbm, 179, rfl⟩
abbrev main_c_21 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_22 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_23 : Ref sig .tc := ⟨.hbm, 190, rfl⟩
abbrev main_v148 : Ref sig .tc := ⟨.hbm, 191, rfl⟩
abbrev main_cst_24 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_25 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_c_26 : Ref sig .tc := ⟨.hbm, 217, rfl⟩
abbrev main_v172 : Ref sig .tc := ⟨.hbm, 218, rfl⟩
abbrev main_v173 : Ref sig .tc := ⟨.hbm, 219, rfl⟩
abbrev main_c_27 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_28 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_cst_29 : Ref sig .tc := ⟨.hbm, 230, rfl⟩
abbrev main_v182 : Ref sig .tc := ⟨.hbm, 231, rfl⟩
abbrev main_cst_30 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_31 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_c_32 : Ref sig .tc := ⟨.hbm, 258, rfl⟩
abbrev main_v207 : Ref sig .tc := ⟨.hbm, 259, rfl⟩
abbrev main_v208 : Ref sig .tc := ⟨.hbm, 260, rfl⟩
abbrev main_c_33 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_cst_34 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_cst_35 : Ref sig .tc := ⟨.hbm, 271, rfl⟩
abbrev main_v217 : Ref sig .tc := ⟨.hbm, 272, rfl⟩
abbrev main_cst_36 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_cst_37 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_c_38 : Ref sig .tc := ⟨.hbm, 298, rfl⟩
abbrev main_v241 : Ref sig .tc := ⟨.hbm, 299, rfl⟩
abbrev main_v242 : Ref sig .tc := ⟨.hbm, 300, rfl⟩
abbrev main_c_39 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_cst_40 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_cst_41 : Ref sig .tc := ⟨.hbm, 311, rfl⟩
abbrev main_v251 : Ref sig .tc := ⟨.hbm, 312, rfl⟩
abbrev main_cst_42 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_cst_43 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_call2_cst : Ref sig .tc := ⟨.hbm, 326, rfl⟩
abbrev main_call2_v0 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_cst_44 : Ref sig .tc := ⟨.hbm, 333, rfl⟩
abbrev main_v268 : Ref sig .tc := ⟨.hbm, 334, rfl⟩
abbrev main_cst_45 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_cst_46 : Ref sig .tc := ⟨.hbm, 342, rfl⟩
abbrev main_v275 : Ref sig .tc := ⟨.hbm, 343, rfl⟩
abbrev main_cst_47 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_cst_48 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_call3_cst : Ref sig .tc := ⟨.hbm, 363, rfl⟩
abbrev main_call3_v0 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_cst_49 : Ref sig .tc := ⟨.hbm, 370, rfl⟩
abbrev main_v298 : Ref sig .tc := ⟨.hbm, 371, rfl⟩
abbrev main_cst_50 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_cst_51 : Ref sig .tc := ⟨.hbm, 379, rfl⟩
abbrev main_v305 : Ref sig .tc := ⟨.hbm, 380, rfl⟩
abbrev main_cst_52 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_cst_53 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_call4_cst : Ref sig .tc := ⟨.hbm, 400, rfl⟩
abbrev main_call4_v0 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_cst_54 : Ref sig .tc := ⟨.hbm, 407, rfl⟩
abbrev main_v328 : Ref sig .tc := ⟨.hbm, 408, rfl⟩
abbrev main_cst_55 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_cst_56 : Ref sig .tc := ⟨.hbm, 416, rfl⟩
abbrev main_v335 : Ref sig .tc := ⟨.hbm, 417, rfl⟩
abbrev main_cst_57 : Ref sig .tc := ⟨.hbm, 418, rfl⟩
abbrev main_v336 : Ref sig .tc := ⟨.hbm, 419, rfl⟩
abbrev main_v337 : Ref sig .tc := ⟨.hbm, 420, rfl⟩
abbrev main_v338 : Ref sig .tc := ⟨.hbm, 421, rfl⟩
abbrev main_v339 : Ref sig .tc := ⟨.hbm, 422, rfl⟩
abbrev main_v340 : Ref sig .tc := ⟨.hbm, 423, rfl⟩
abbrev main_cst_58 : Ref sig .tc := ⟨.hbm, 424, rfl⟩
abbrev main_v341 : Ref sig .tc := ⟨.hbm, 425, rfl⟩
abbrev main_v342 : Ref sig .tc := ⟨.hbm, 426, rfl⟩
abbrev main_v343 : Ref sig .tc := ⟨.hbm, 427, rfl⟩
abbrev main_v344 : Ref sig .tc := ⟨.hbm, 428, rfl⟩
abbrev main_v345 : Ref sig .tc := ⟨.hbm, 429, rfl⟩
abbrev main_v346 : Ref sig .tc := ⟨.hbm, 430, rfl⟩
abbrev main_v347 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_v357 : Ref sig .tc := ⟨.hbm, 441, rfl⟩
abbrev main_v358 : Ref sig .tc := ⟨.hbm, 442, rfl⟩
abbrev main_v359 : Ref sig .tc := ⟨.hbm, 443, rfl⟩
abbrev main_v360 : Ref sig .tc := ⟨.hbm, 444, rfl⟩
abbrev main_v361 : Ref sig .tc := ⟨.hbm, 445, rfl⟩
abbrev main_v362 : Ref sig .tc := ⟨.hbm, 446, rfl⟩
abbrev main_c_59 : Ref sig .tc := ⟨.hbm, 447, rfl⟩
abbrev main_v363 : Ref sig .tc := ⟨.hbm, 448, rfl⟩
abbrev main_v364 : Ref sig .tc := ⟨.hbm, 449, rfl⟩
abbrev main_c_60 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_cst_61 : Ref sig .tc := ⟨.hbm, 456, rfl⟩
abbrev main_v370 : Ref sig .tc := ⟨.hbm, 457, rfl⟩
abbrev main_v371 : Ref sig .tc := ⟨.hbm, 458, rfl⟩
abbrev main_v372 : Ref sig .tc := ⟨.hbm, 459, rfl⟩
abbrev main_cst_62 : Ref sig .tc := ⟨.hbm, 460, rfl⟩
abbrev main_v373 : Ref sig .tc := ⟨.hbm, 461, rfl⟩
abbrev main_cst_63 : Ref sig .tc := ⟨.hbm, 462, rfl⟩
abbrev main_v374 : Ref sig .tc := ⟨.hbm, 463, rfl⟩
abbrev main_v375 : Ref sig .tc := ⟨.hbm, 464, rfl⟩
abbrev main_v376 : Ref sig .tc := ⟨.hbm, 465, rfl⟩
abbrev main_cst_64 : Ref sig .tc := ⟨.hbm, 466, rfl⟩
abbrev main_v377 : Ref sig .tc := ⟨.hbm, 467, rfl⟩
abbrev main_v378 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_v386 : Ref sig .tc := ⟨.hbm, 476, rfl⟩
abbrev main_v387 : Ref sig .tc := ⟨.hbm, 477, rfl⟩
abbrev main_v388 : Ref sig .tc := ⟨.hbm, 478, rfl⟩
abbrev main_v389 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_c_65 : Ref sig .tc := ⟨.hbm, 487, rfl⟩
abbrev main_v397 : Ref sig .tc := ⟨.hbm, 488, rfl⟩
abbrev main_v398 : Ref sig .tc := ⟨.hbm, 489, rfl⟩
abbrev main_c_66 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_cst_67 : Ref sig .tc := ⟨.hbm, 496, rfl⟩
abbrev main_v404 : Ref sig .tc := ⟨.hbm, 497, rfl⟩
abbrev main_v405 : Ref sig .tc := ⟨.hbm, 498, rfl⟩
abbrev main_v406 : Ref sig .tc := ⟨.hbm, 499, rfl⟩
abbrev main_cst_68 : Ref sig .tc := ⟨.hbm, 500, rfl⟩
abbrev main_v407 : Ref sig .tc := ⟨.hbm, 501, rfl⟩
abbrev main_cst_69 : Ref sig .tc := ⟨.hbm, 502, rfl⟩
abbrev main_v408 : Ref sig .tc := ⟨.hbm, 503, rfl⟩
abbrev main_v409 : Ref sig .tc := ⟨.hbm, 504, rfl⟩
abbrev main_v410 : Ref sig .tc := ⟨.hbm, 505, rfl⟩
abbrev main_cst_70 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_v414 : Ref sig .tc := ⟨.hbm, 510, rfl⟩
abbrev main_v415 : Ref sig .tc := ⟨.hbm, 511, rfl⟩
abbrev main_v416 : Ref sig .tc := ⟨.hbm, 512, rfl⟩
abbrev main_v417 : Ref sig .tc := ⟨.hbm, 513, rfl⟩
abbrev main_v418 : Ref sig .tc := ⟨.hbm, 514, rfl⟩
abbrev main_v419 : Ref sig .tc := ⟨.hbm, 515, rfl⟩
abbrev main_v420 : Ref sig .tc := ⟨.hbm, 516, rfl⟩
abbrev main_v421 : Ref sig .tc := ⟨.hbm, 517, rfl⟩
abbrev main_v422 : Ref sig .tc := ⟨.hbm, 518, rfl⟩
abbrev main_v423 : Ref sig .tc := ⟨.hbm, 519, rfl⟩
abbrev main_v424 : Ref sig .tc := ⟨.hbm, 520, rfl⟩
abbrev main_v425 : Ref sig .tc := ⟨.hbm, 521, rfl⟩
abbrev main_v426 : Ref sig .tc := ⟨.hbm, 522, rfl⟩
abbrev main_v427 : Ref sig .tc := ⟨.hbm, 523, rfl⟩
abbrev main_v428 : Ref sig .tc := ⟨.hbm, 524, rfl⟩
abbrev main_v429 : Ref sig .tc := ⟨.hbm, 525, rfl⟩
abbrev main_v430 : Ref sig .tc := ⟨.hbm, 526, rfl⟩
abbrev main_v431 : Ref sig .tc := ⟨.hbm, 527, rfl⟩
abbrev main_c_71 : Ref sig .tc := ⟨.hbm, 528, rfl⟩
abbrev main_v432 : Ref sig .tc := ⟨.hbm, 529, rfl⟩
abbrev main_v433 : Ref sig .tc := ⟨.hbm, 530, rfl⟩
abbrev main_c_72 : Ref sig .tc := ⟨.hbm, 531, rfl⟩
abbrev main_v434 : Ref sig .tc := ⟨.hbm, 532, rfl⟩
abbrev main_v435 : Ref sig .tc := ⟨.hbm, 533, rfl⟩
abbrev main_v436 : Ref sig .tc := ⟨.hbm, 534, rfl⟩
abbrev main_v437 : Ref sig .tc := ⟨.hbm, 535, rfl⟩
abbrev main_v438 : Ref sig .tc := ⟨.hbm, 536, rfl⟩
abbrev main_cst_73 : Ref sig .tc := ⟨.hbm, 537, rfl⟩
abbrev main_v439 : Ref sig .tc := ⟨.hbm, 538, rfl⟩
abbrev main_v440 : Ref sig .tc := ⟨.hbm, 539, rfl⟩
abbrev main_v441 : Ref sig .tc := ⟨.hbm, 540, rfl⟩
abbrev main_cst_74 : Ref sig .tc := ⟨.hbm, 541, rfl⟩
abbrev main_v442 : Ref sig .tc := ⟨.hbm, 542, rfl⟩
abbrev main_cst_75 : Ref sig .tc := ⟨.hbm, 543, rfl⟩
abbrev main_v443 : Ref sig .tc := ⟨.hbm, 544, rfl⟩
abbrev main_v444 : Ref sig .tc := ⟨.hbm, 545, rfl⟩
abbrev main_v445 : Ref sig .tc := ⟨.hbm, 546, rfl⟩
abbrev main_cst_76 : Ref sig .tc := ⟨.hbm, 547, rfl⟩
abbrev main_v446 : Ref sig .tc := ⟨.hbm, 548, rfl⟩
abbrev main_v447 : Ref sig .tc := ⟨.hbm, 549, rfl⟩
abbrev main_v448 : Ref sig .tc := ⟨.hbm, 550, rfl⟩
abbrev main_v449 : Ref sig .tc := ⟨.hbm, 551, rfl⟩
abbrev main_v450 : Ref sig .tc := ⟨.hbm, 552, rfl⟩
abbrev main_v451 : Ref sig .tc := ⟨.hbm, 553, rfl⟩
abbrev main_v452 : Ref sig .tc := ⟨.hbm, 554, rfl⟩
abbrev main_v453 : Ref sig .tc := ⟨.hbm, 555, rfl⟩
abbrev main_v454 : Ref sig .tc := ⟨.hbm, 556, rfl⟩
abbrev main_v455 : Ref sig .tc := ⟨.hbm, 557, rfl⟩
abbrev main_v456 : Ref sig .tc := ⟨.hbm, 558, rfl⟩
abbrev main_v457 : Ref sig .tc := ⟨.hbm, 559, rfl⟩
abbrev main_v458 : Ref sig .tc := ⟨.hbm, 560, rfl⟩
abbrev main_v459 : Ref sig .tc := ⟨.hbm, 561, rfl⟩
abbrev main_v460 : Ref sig .tc := ⟨.hbm, 562, rfl⟩
abbrev main_v461 : Ref sig .tc := ⟨.hbm, 563, rfl⟩
abbrev main_v462 : Ref sig .tc := ⟨.hbm, 564, rfl⟩
abbrev main_v463 : Ref sig .tc := ⟨.hbm, 565, rfl⟩
abbrev main_v464 : Ref sig .tc := ⟨.hbm, 566, rfl⟩
abbrev main_v465 : Ref sig .tc := ⟨.hbm, 567, rfl⟩
abbrev main_c_77 : Ref sig .tc := ⟨.hbm, 568, rfl⟩
abbrev main_v466 : Ref sig .tc := ⟨.hbm, 569, rfl⟩
abbrev main_v467 : Ref sig .tc := ⟨.hbm, 570, rfl⟩
abbrev main_c_78 : Ref sig .tc := ⟨.hbm, 571, rfl⟩
abbrev main_v468 : Ref sig .tc := ⟨.hbm, 572, rfl⟩
abbrev main_v469 : Ref sig .tc := ⟨.hbm, 573, rfl⟩
abbrev main_v470 : Ref sig .tc := ⟨.hbm, 574, rfl⟩
abbrev main_v471 : Ref sig .tc := ⟨.hbm, 575, rfl⟩
abbrev main_v472 : Ref sig .tc := ⟨.hbm, 576, rfl⟩
abbrev main_cst_79 : Ref sig .tc := ⟨.hbm, 577, rfl⟩
abbrev main_v473 : Ref sig .tc := ⟨.hbm, 578, rfl⟩
abbrev main_v474 : Ref sig .tc := ⟨.hbm, 579, rfl⟩
abbrev main_v475 : Ref sig .tc := ⟨.hbm, 580, rfl⟩
abbrev main_cst_80 : Ref sig .tc := ⟨.hbm, 581, rfl⟩
abbrev main_v476 : Ref sig .tc := ⟨.hbm, 582, rfl⟩
abbrev main_cst_81 : Ref sig .tc := ⟨.hbm, 583, rfl⟩
abbrev main_v477 : Ref sig .tc := ⟨.hbm, 584, rfl⟩
abbrev main_v478 : Ref sig .tc := ⟨.hbm, 585, rfl⟩
abbrev main_v479 : Ref sig .tc := ⟨.hbm, 586, rfl⟩
abbrev main_cst_82 : Ref sig .tc := ⟨.hbm, 587, rfl⟩
abbrev main_v480 : Ref sig .tc := ⟨.hbm, 588, rfl⟩
abbrev main_v481 : Ref sig .tc := ⟨.hbm, 589, rfl⟩
abbrev main_v482 : Ref sig .tc := ⟨.hbm, 590, rfl⟩
abbrev main_v483 : Ref sig .tc := ⟨.hbm, 591, rfl⟩
abbrev main_v484 : Ref sig .tc := ⟨.hbm, 592, rfl⟩
abbrev main_v485 : Ref sig .tc := ⟨.hbm, 593, rfl⟩
abbrev main_v486 : Ref sig .tc := ⟨.hbm, 594, rfl⟩
abbrev main_v487 : Ref sig .tc := ⟨.hbm, 595, rfl⟩
abbrev main_v488 : Ref sig .tc := ⟨.hbm, 596, rfl⟩
abbrev main_v489 : Ref sig .tc := ⟨.hbm, 597, rfl⟩
abbrev main_v490 : Ref sig .tc := ⟨.hbm, 598, rfl⟩
abbrev main_v491 : Ref sig .tc := ⟨.hbm, 599, rfl⟩
abbrev main_v492 : Ref sig .tc := ⟨.hbm, 600, rfl⟩
abbrev main_v493 : Ref sig .tc := ⟨.hbm, 601, rfl⟩
abbrev main_v494 : Ref sig .tc := ⟨.hbm, 602, rfl⟩
abbrev main_v495 : Ref sig .tc := ⟨.hbm, 603, rfl⟩
abbrev main_v496 : Ref sig .tc := ⟨.hbm, 604, rfl⟩
abbrev main_v497 : Ref sig .tc := ⟨.hbm, 605, rfl⟩
abbrev main_v498 : Ref sig .tc := ⟨.hbm, 606, rfl⟩
abbrev main_v499 : Ref sig .tc := ⟨.hbm, 607, rfl⟩
abbrev main_v500 : Ref sig .tc := ⟨.hbm, 608, rfl⟩
abbrev main_c_83 : Ref sig .tc := ⟨.hbm, 609, rfl⟩
abbrev main_v501 : Ref sig .tc := ⟨.hbm, 610, rfl⟩
abbrev main_v502 : Ref sig .tc := ⟨.hbm, 611, rfl⟩
abbrev main_c_84 : Ref sig .tc := ⟨.hbm, 612, rfl⟩
abbrev main_v503 : Ref sig .tc := ⟨.hbm, 613, rfl⟩
abbrev main_v504 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_cst_85 : Ref sig .tc := ⟨.hbm, 618, rfl⟩
abbrev main_v508 : Ref sig .tc := ⟨.hbm, 619, rfl⟩
abbrev main_v509 : Ref sig .tc := ⟨.hbm, 620, rfl⟩
abbrev main_v510 : Ref sig .tc := ⟨.hbm, 621, rfl⟩
abbrev main_cst_86 : Ref sig .tc := ⟨.hbm, 622, rfl⟩
abbrev main_v511 : Ref sig .tc := ⟨.hbm, 623, rfl⟩
abbrev main_cst_87 : Ref sig .tc := ⟨.hbm, 624, rfl⟩
abbrev main_v512 : Ref sig .tc := ⟨.hbm, 625, rfl⟩
abbrev main_v513 : Ref sig .tc := ⟨.hbm, 626, rfl⟩
abbrev main_v514 : Ref sig .tc := ⟨.hbm, 627, rfl⟩
abbrev main_cst_88 : Ref sig .tc := ⟨.hbm, 628, rfl⟩
abbrev main_v515 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_v519 : Ref sig .tc := ⟨.hbm, 633, rfl⟩
abbrev main_v520 : Ref sig .tc := ⟨.hbm, 634, rfl⟩
abbrev main_v521 : Ref sig .tc := ⟨.hbm, 635, rfl⟩
abbrev main_v522 : Ref sig .tc := ⟨.hbm, 636, rfl⟩
abbrev main_v523 : Ref sig .tc := ⟨.hbm, 637, rfl⟩
abbrev main_v524 : Ref sig .tc := ⟨.hbm, 638, rfl⟩

abbrev nD : Nat := 1
abbrev τ : Topo := Topo.v7x

variable {F : FTy → Type} [FloatOps F]

class Facts₀ : Prop where
  slices_S11x128x128_S1x128x128_0_0_0 : S11x128x128.Slices ![0, 0, 0] S1x128x128
  shapeCasts_S1x128x128_S128x128 : S1x128x128.ShapeCasts S128x128
  slices_S11x128_S1x128_0_0 : S11x128.Slices ![0, 0] S1x128
  shapeCasts_S1x128_S128 : S1x128.ShapeCasts S128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S600000x1 : S_.BroadcastsInDim S600000x1 (![] : Fin 0 → Fin S600000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S11x128x128_S1x128x128_1_0_0 : S11x128x128.Slices ![1, 0, 0] S1x128x128
  slices_S11x128_S1x128_1_0 : S11x128.Slices ![1, 0] S1x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S150000x128 : S_.BroadcastsInDim S150000x128 (![] : Fin 0 → Fin S150000x128.rank)
  bcast_S_S500000x1 : S_.BroadcastsInDim S500000x1 (![] : Fin 0 → Fin S500000x1.rank)
  bcast_S_S150000x1 : S_.BroadcastsInDim S150000x1 (![] : Fin 0 → Fin S150000x1.rank)
  bcast_S150000x1_S150000x128_0_1 : S150000x1.BroadcastsInDim S150000x128 (![0, 1] : Fin 2 → Fin S150000x128.rank)
  bcast_S1x128_S150000x128_0_1 : S1x128.BroadcastsInDim S150000x128 (![0, 1] : Fin 2 → Fin S150000x128.rank)
  slices_S5x128_S1x128_0_0 : S5x128.Slices ![0, 0] S1x128
  reducesTo_S200000x128_S128_d0 : S200000x128.ReducesTo [0] S128
  h_S_ : 0 < S_.numel
  bcast_S_S128 : S_.BroadcastsInDim S128 (![] : Fin 0 → Fin S128.rank)
  slices_S5x128_S1x128_1_0 : S5x128.Slices ![1, 0] S1x128
  reducesTo_S150000x128_S128_d0 : S150000x128.ReducesTo [0] S128
  slices_S11x128x128_S1x128x128_2_0_0 : S11x128x128.Slices ![2, 0, 0] S1x128x128
  slices_S11x128_S1x128_2_0 : S11x128.Slices ![2, 0] S1x128
  slices_S11x128x128_S1x128x128_4_0_0 : S11x128x128.Slices ![4, 0, 0] S1x128x128
  slices_S11x128_S1x128_4_0 : S11x128.Slices ![4, 0] S1x128
  slices_S11x128x128_S1x128x128_3_0_0 : S11x128x128.Slices ![3, 0, 0] S1x128x128
  slices_S11x128_S1x128_3_0 : S11x128.Slices ![3, 0] S1x128
  slices_S11x128x128_S1x128x128_5_0_0 : S11x128x128.Slices ![5, 0, 0] S1x128x128
  slices_S11x128_S1x128_5_0 : S11x128.Slices ![5, 0] S1x128
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S10000x128 : S_.BroadcastsInDim S10000x128 (![] : Fin 0 → Fin S10000x128.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S1x128_S10000x128_0_1 : S1x128.BroadcastsInDim S10000x128 (![0, 1] : Fin 2 → Fin S10000x128.rank)
  slices_S5x128_S1x128_2_0 : S5x128.Slices ![2, 0] S1x128
  slices_S5x128_S1x128_3_0 : S5x128.Slices ![3, 0] S1x128
  slices_S5x128_S1x128_4_0 : S5x128.Slices ![4, 0] S1x128
  reducesTo_S10000x128_S128_d0 : S10000x128.ReducesTo [0] S128
  slices_S11x128x128_S1x128x128_6_0_0 : S11x128x128.Slices ![6, 0, 0] S1x128x128
  slices_S11x128_S1x128_6_0 : S11x128.Slices ![6, 0] S1x128
  slices_S11x128x128_S1x128x128_8_0_0 : S11x128x128.Slices ![8, 0, 0] S1x128x128
  slices_S11x128_S1x128_8_0 : S11x128.Slices ![8, 0] S1x128
  slices_S11x128x128_S1x128x128_7_0_0 : S11x128x128.Slices ![7, 0, 0] S1x128x128
  slices_S11x128_S1x128_7_0 : S11x128.Slices ![7, 0] S1x128
  slices_S11x128x128_S1x128x128_10_0_0 : S11x128x128.Slices ![10, 0, 0] S1x128x128
  slices_S11x128_S1x128_10_0 : S11x128.Slices ![10, 0] S1x128
  slices_S11x128x128_S1x128x128_9_0_0 : S11x128x128.Slices ![9, 0, 0] S1x128x128
  slices_S11x128_S1x128_9_0 : S11x128.Slices ![9, 0] S1x128
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S200000x1_S600000x1_S600000x1_1_0_0_1_wf : ScatterDims.WF S200000x1 S600000x1 S600000x1 [1] [0] [0] 1
  dot_S200000x128_S128x128_S200000x128_1_0_0_1_n_n_wf : DotDims.WF S200000x128 S128x128 S200000x128 [1] [0] [0] [1] [] []
  gather_S200000x128_S500000x1_S500000x128_1_0_n_n_0_1_1128_wf : GatherDims.WF S200000x128 S500000x1 S500000x128 [1] [0] [] [0] [] 1 ![1, 128]
  scatter_S150000x128_S500000x1_S500000x128_1_0_0_1_wf : ScatterDims.WF S150000x128 S500000x1 S500000x128 [1] [0] [0] 1
  scatter_S150000x1_S500000x1_S500000x1_1_0_0_1_wf : ScatterDims.WF S150000x1 S500000x1 S500000x1 [1] [0] [0] 1
  dot_S150000x128_S128x128_S150000x128_1_0_0_1_n_n_wf : DotDims.WF S150000x128 S128x128 S150000x128 [1] [0] [0] [1] [] []
  gather_S150000x128_S500000x1_S500000x128_1_0_n_n_0_1_1128_wf : GatherDims.WF S150000x128 S500000x1 S500000x128 [1] [0] [] [0] [] 1 ![1, 128]
  scatter_S200000x128_S500000x1_S500000x128_1_0_0_1_wf : ScatterDims.WF S200000x128 S500000x1 S500000x128 [1] [0] [0] 1
  scatter_S200000x1_S500000x1_S500000x1_1_0_0_1_wf : ScatterDims.WF S200000x1 S500000x1 S500000x1 [1] [0] [0] 1
  gather_S150000x128_S150000x1_S150000x128_1_0_n_n_0_1_1128_wf : GatherDims.WF S150000x128 S150000x1 S150000x128 [1] [0] [] [0] [] 1 ![1, 128]
  scatter_S10000x128_S150000x1_S150000x128_1_0_0_1_wf : ScatterDims.WF S10000x128 S150000x1 S150000x128 [1] [0] [0] 1
  scatter_S10000x1_S150000x1_S150000x1_1_0_0_1_wf : ScatterDims.WF S10000x1 S150000x1 S150000x1 [1] [0] [0] 1
  dot_S10000x128_S128x128_S10000x128_1_0_0_1_n_n_wf : DotDims.WF S10000x128 S128x128 S10000x128 [1] [0] [0] [1] [] []
  gather_S10000x128_S150000x1_S150000x128_1_0_n_n_0_1_1128_wf : GatherDims.WF S10000x128 S150000x1 S150000x128 [1] [0] [] [0] [] 1 ![1, 128]
  scatter_S150000x128_S150000x1_S150000x128_1_0_0_1_wf : ScatterDims.WF S150000x128 S150000x1 S150000x128 [1] [0] [0] 1
  scatter_S150000x1_S150000x1_S150000x1_1_0_0_1_wf : ScatterDims.WF S150000x1 S150000x1 S150000x1 [1] [0] [0] 1

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000x1_S600000x1_S600000x1_1_0_0_1 : ScatterDims S200000x1 S600000x1 S600000x1 where
  updateWindowDims := [1]
  insertedWindowDims := [0]
  scatterDimsToOperandDims := [0]
  indexVectorDim := 1
  wf := scatter_S200000x1_S600000x1_S600000x1_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S150000x128_S500000x1_S500000x128_1_0_0_1 : ScatterDims S150000x128 S500000x1 S500000x128 where
  updateWindowDims := [1]
  insertedWindowDims := [0]
  scatterDimsToOperandDims := [0]
  indexVectorDim := 1
  wf := scatter_S150000x128_S500000x1_S500000x128_1_0_0_1_wf
def scatter_S150000x1_S500000x1_S500000x1_1_0_0_1 : ScatterDims S150000x1 S500000x1 S500000x1 where
  updateWindowDims := [1]
  insertedWindowDims := [0]
  scatterDimsToOperandDims := [0]
  indexVectorDim := 1
  wf := scatter_S150000x1_S500000x1_S500000x1_1_0_0_1_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def gather_S150000x128_S500000x1_S500000x128_1_0_n_n_0_1_1128 : GatherDims S150000x128 S500000x1 S500000x128 where
  offsetDims := [1]
  collapsedSliceDims := [0]
  operandBatchingDims := []
  startIndicesBatchingDims := []
  startIndexMap := [0]
  indexVectorDim := 1
  sliceSizes := ![1, 128]
  wf := gather_S150000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000x1_S500000x1_S500000x1_1_0_0_1 : ScatterDims S200000x1 S500000x1 S500000x1 where
  updateWindowDims := [1]
  insertedWindowDims := [0]
  scatterDimsToOperandDims := [0]
  indexVectorDim := 1
  wf := scatter_S200000x1_S500000x1_S500000x1_1_0_0_1_wf
def gather_S150000x128_S150000x1_S150000x128_1_0_n_n_0_1_1128 : GatherDims S150000x128 S150000x1 S150000x128 where
  offsetDims := [1]
  collapsedSliceDims := [0]
  operandBatchingDims := []
  startIndicesBatchingDims := []
  startIndexMap := [0]
  indexVectorDim := 1
  sliceSizes := ![1, 128]
  wf := gather_S150000x128_S150000x1_S150000x128_1_0_n_n_0_1_1128_wf
def scatter_S10000x128_S150000x1_S150000x128_1_0_0_1 : ScatterDims S10000x128 S150000x1 S150000x128 where
  updateWindowDims := [1]
  insertedWindowDims := [0]
  scatterDimsToOperandDims := [0]
  indexVectorDim := 1
  wf := scatter_S10000x128_S150000x1_S150000x128_1_0_0_1_wf
def scatter_S10000x1_S150000x1_S150000x1_1_0_0_1 : ScatterDims S10000x1 S150000x1 S150000x1 where
  updateWindowDims := [1]
  insertedWindowDims := [0]
  scatterDimsToOperandDims := [0]
  indexVectorDim := 1
  wf := scatter_S10000x1_S150000x1_S150000x1_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S150000x1_S150000x128_1_0_n_n_0_1_1128 : GatherDims S10000x128 S150000x1 S150000x128 where
  offsetDims := [1]
  collapsedSliceDims := [0]
  operandBatchingDims := []
  startIndicesBatchingDims := []
  startIndexMap := [0]
  indexVectorDim := 1
  sliceSizes := ![1, 128]
  wf := gather_S10000x128_S150000x1_S150000x128_1_0_n_n_0_1_1128_wf
def scatter_S150000x128_S150000x1_S150000x128_1_0_0_1 : ScatterDims S150000x128 S150000x1 S150000x128 where
  updateWindowDims := [1]
  insertedWindowDims := [0]
  scatterDimsToOperandDims := [0]
  indexVectorDim := 1
  wf := scatter_S150000x128_S150000x1_S150000x128_1_0_0_1_wf
def scatter_S150000x1_S150000x1_S150000x1_1_0_0_1 : ScatterDims S150000x1 S150000x1 S150000x1 where
  updateWindowDims := [1]
  insertedWindowDims := [0]
  scatterDimsToOperandDims := [0]
  indexVectorDim := 1
  wf := scatter_S150000x1_S150000x1_S150000x1_1_0_0_1_wf

class Facts : Prop extends Facts₀ where

variable [Facts]
-- ==== Proof.LibKeep.lean ====
/-
  Three general facts about lists of buffer references and lines of host operations, for tables of "which buffers
  a line writes": a reference is outside a list when its index is outside the list's indices (so that membership is
  decided on numbers, not on references); a family of references misses a list likewise; and a line whose operations
  write, position by position, exactly the buffers of a list writes inside that list.
-/
import Idealize.ShloMosaic.Lib.StableHlo.Run

namespace Cert.LibKeep

open Idealize.ShloMosaic Idealize.ShloMosaic.TcCoe Idealize.SL.Sem

/-- A reference whose index is not among a list's indices is not in the list. -/
theorem not_mem_of_idx {sig : RefSig} {κ : Kind} {W : List (Ref sig κ)} {r : Ref sig κ}
    (h : r.idx.val ∉ W.map (fun w => w.idx.val)) : r ∉ W :=
  fun hm => h (List.mem_map.mpr ⟨r, hm, rfl⟩)

/-- Two lists of references with disjoint indices are disjoint: the form a table of kept buffers takes. -/
theorem forall_not_mem_of_idx {sig : RefSig} {κ : Kind} {L W : List (Ref sig κ)}
    (h : ∀ n ∈ L.map (fun w => w.idx.val), n ∉ W.map (fun w => w.idx.val)) : ∀ r ∈ L, r ∉ W :=
  fun r hr => not_mem_of_idx (h _ (List.mem_map.mpr ⟨r, hr, rfl⟩))

/-- A family of references none of whose indices is a list's misses the list. -/
theorem forall_ne_of_idx {sig : RefSig} {κ : Kind} {ι : Type} {L : List (Ref sig κ)} (f : ι → Ref sig κ)
    (h : ∀ n ∈ L.map (fun w => w.idx.val), ∀ w : ι, (f w).idx.val ≠ n) : ∀ r ∈ L, ∀ w, f w ≠ r :=
  fun r hr w e => h _ (List.mem_map.mpr ⟨r, hr, rfl⟩) w (congrArg (fun x => x.idx.val) e)

/-- A line each of whose operations writes exactly the buffer at its position in a list writes inside that list. -/
theorem forall_writes_of_map {τ : Topo} {sig : RefSig} {Val : EltTy → Type} (ops : List (HloOp τ sig Val))
    (W : List (Ref sig .tc))
    (h : ops.map (fun op => op.writes) = W.map (fun r => ({Proc.devRef .tc r} : Finset (DevRef τ sig)))) :
    ops.Forall fun op => op.writes ⊆ (W.map (Proc.devRef (τ := τ) .tc)).toFinset :=
  List.forall_iff_forall_mem.mpr fun op hop => by
    have hm : op.writes ∈ ops.map (fun op => op.writes) := List.mem_map.mpr ⟨op, hop, rfl⟩
    rw [h] at hm
    obtain ⟨r, hr, e⟩ := List.mem_map.mp hm
    rw [← e, Finset.singleton_subset_iff, List.mem_toFinset]
    exact List.mem_map.mpr ⟨r, hr, rfl⟩

end Cert.LibKeep
-- ==== Proof.KRun.lean ====
/-
  The idealized kernel program's run with its three results named.

  The program is sixteen tiled regions among stretches of host operations. Its buffers' contents at each boundary form
  a fold from the launch memory: a stretch applies its operations, a region replaces its arrays by what its write-backs
  leave. Every weakly fair execution terminates, without a fault, in a state where every unscoped buffer holds the
  fold's last value; in particular the three result buffers do, and the thirteen argument arrays are as launched.
-/
import proofs.«146104_j52931176955955_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the three results at the fold's last value and the arguments as launched. -/
theorem run_values : θ_run defs (onTc (τ := τ) (main (F := F))) ⟨m, fun _ => 0, ρ⟩ (fun r => ∀ c : Dev nD,
      r.2.mem ((c.tc : Thread nD τ).loc main_v302) = W32 m ρ c (Proc.devRef .tc main_v302)
      ∧ r.2.mem ((c.tc : Thread nD τ).loc main_v362) = W32 m ρ c (Proc.devRef .tc main_v362)
      ∧ r.2.mem ((c.tc : Thread nD τ).loc main_v392) = W32 m ρ c (Proc.devRef .tc main_v392)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h c =>
      ⟨h c _ (mem_uc main_v302 (by decide)),
       h c _ (mem_uc main_v362 (by decide)),
       h c _ (mem_uc main_v392 (by decide)),
       (h c _ (mem_uc main_arg0 (by decide))).trans (W32_main_arg0 m ρ c),
       (h c _ (mem_uc main_arg1 (by decide))).trans (W32_main_arg1 m ρ c),
       (h c _ (mem_uc main_arg2 (by decide))).trans (W32_main_arg2 m ρ c),
       (h c _ (mem_uc main_arg3 (by decide))).trans (W32_main_arg3 m ρ c),
       (h c _ (mem_uc main_arg4 (by decide))).trans (W32_main_arg4 m ρ c),
       (h c _ (mem_uc main_arg5 (by decide))).trans (W32_main_arg5 m ρ c),
       (h c _ (mem_uc main_arg6 (by decide))).trans (W32_main_arg6 m ρ c),
       (h c _ (mem_uc main_arg7 (by decide))).trans (W32_main_arg7 m ρ c),
       (h c _ (mem_uc main_arg8 (by decide))).trans (W32_main_arg8 m ρ c),
       (h c _ (mem_uc main_arg9 (by decide))).trans (W32_main_arg9 m ρ c),
       (h c _ (mem_uc main_arg10 (by decide))).trans (W32_main_arg10 m ρ c),
       (h c _ (mem_uc main_arg11 (by decide))).trans (W32_main_arg11 m ρ c),
       (h c _ (mem_uc main_arg12 (by decide))).trans (W32_main_arg12 m ρ c)⟩)

end Cert.KernelIdeal.KRun

end
-- ==== Proof.KKeep.lean ====
/-
  Which buffers each stretch of host operations of the idealized kernel program writes; hence every other buffer
  keeps its contents across the stretch; and every argument array, read at any boundary of the fold of buffer
  contents through the program (a stretch applies its operations, a region replaces its output arrays and leaves its
  input arrays as they were), is the launch memory's.
-/
import proofs.«146104_j52931176955955_1_alg».proof.Proof.Gen.KernelIdeal.Frame
import proofs.«146104_j52931176955955_1_alg».proof.Proof.LibKeep

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable {F : FTy → Type} [FloatOps F]

/-- The buffers stretch 0 writes, in order. -/
abbrev writes0 : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_c_4, main_v26, main_v27, main_c_5, main_v28, main_v29, main_v30, main_v31, main_v32, main_cst_6, main_v33, main_v34, main_v35, main_cst_7, main_v36, main_cst_8, main_v37, main_v38, main_v39, main_cst_9, main_v40, main_v41, main_v42, main_v43, main_v44, main_v45, main_v46, main_v47, main_v48, main_v49, main_v50]
theorem hostOps0_writes : (hostOps0 : List (HloOp τ sig (Elt F))).Forall fun op => op.writes ⊆ (writes0.map (Proc.devRef (τ := τ) .tc)).toFinset :=
  Cert.LibKeep.forall_writes_of_map _ _ rfl
/-- A buffer stretch 0 does not write keeps its contents across it. -/
theorem keepH0 (W : Valuation τ sig (Elt F)) (r : Ref sig .tc) (hr : r.idx.val ∉ writes0.map (fun w => w.idx.val)) :
    StableHlo.after hostOps0 W (Proc.devRef .tc r) = W (Proc.devRef .tc r) :=
  StableHlo.after_of_writes_sub hostOps0 W hostOps0_writes (Cert.LibKeep.not_mem_of_idx hr)

/-- The buffers stretch 1 writes, in order. -/
abbrev writes1 : List (Ref sig .tc) := [main_v52, main_v53, main_v54, main_v55, main_v56, main_v57, main_v58]
theorem hostOps1_writes : (hostOps1 : List (HloOp τ sig (Elt F))).Forall fun op => op.writes ⊆ (writes1.map (Proc.devRef (τ := τ) .tc)).toFinset :=
  Cert.LibKeep.forall_writes_of_map _ _ rfl
/-- A buffer stretch 1 does not write keeps its contents across it. -/
theorem keepH1 (W : Valuation τ sig (Elt F)) (r : Ref sig .tc) (hr : r.idx.val ∉ writes1.map (fun w => w.idx.val)) :
    StableHlo.after hostOps1 W (Proc.devRef .tc r) = W (Proc.devRef .tc r) :=
  StableHlo.after_of_writes_sub hostOps1 W hostOps1_writes (Cert.LibKeep.not_mem_of_idx hr)

/-- The buffers stretch 2 writes, in order. -/
abbrev writes2 : List (Ref sig .tc) := [main_v60, main_v61, main_v62, main_v63, main_v64, main_v65, main_cst_10, main_v66, main_v67, main_cst_11, main_v68, main_v69, main_v70, main_v71]
theorem hostOps2_writes : (hostOps2 : List (HloOp τ sig (Elt F))).Forall fun op => op.writes ⊆ (writes2.map (Proc.devRef (τ := τ) .tc)).toFinset :=
  Cert.LibKeep.forall_writes_of_map _ _ rfl
/-- A buffer stretch 2 does not write keeps its contents across it. -/
theorem keepH2 (W : Valuation τ sig (Elt F)) (r : Ref sig .tc) (hr : r.idx.val ∉ writes2.map (fun w => w.idx.val)) :
    StableHlo.after hostOps2 W (Proc.devRef .tc r) = W (Proc.devRef .tc r) :=
  StableHlo.after_of_writes_sub hostOps2 W hostOps2_writes (Cert.LibKeep.not_mem_of_idx hr)

/-- The buffers stretch 3 writes, in order. -/
abbrev writes3 : List (Ref sig .tc) := [main_v73, main_v74, main_v75, main_v76, main_v77, main_v78, main_cst_12, main_v79, main_v80, main_cst_13, main_v81, main_v82, main_v83, main_v84]
theorem hostOps3_writes : (hostOps3 : List (HloOp τ sig (Elt F))).Forall fun op => op.writes ⊆ (writes3.map (Proc.devRef (τ := τ) .tc)).toFinset :=
  Cert.LibKeep.forall_writes_of_map _ _ rfl
/-- A buffer stretch 3 does not write keeps its contents across it. -/
theorem keepH3 (W : Valuation τ sig (Elt F)) (r : Ref sig .tc) (hr : r.idx.val ∉ writes3.map (fun w => w.idx.val)) :
    StableHlo.after hostOps3 W (Proc.devRef .tc r) = W (Proc.devRef .tc r) :=
  StableHlo.after_of_writes_sub hostOps3 W hostOps3_writes (Cert.LibKeep.not_mem_of_idx hr)

/-- The buffers stretch 4 writes, in order. -/
abbrev writes4 : List (Ref sig .tc) := [main_v86, main_v87, main_v88, main_v89, main_c_14, main_v90, main_v91, main_c_15, main_v92, main_v93, main_v94, main_v95, main_v96, main_cst_16, main_v97, main_v98, main_v99, main_cst_17, main_v100, main_cst_18, main_v101, main_v102, main_v103, main_cst_19, main_v104, main_v105, main_v106, main_v107, main_v108, main_v109, main_v110, main_v111, main_c_20, main_v112, main_v113, main_c_21, main_v114, main_v115, main_v116, main_v117, main_v118, main_cst_22, main_v119, main_v120, main_v121, main_cst_23, main_v122, main_cst_24, main_v123, main_v124, main_v125, main_cst_25, main_v126, main_v127, main_v128, main_v129, main_v130, main_v131, main_v132, main_v133, main_v134, main_v135, main_v136]
theorem hostOps4_writes : (hostOps4 : List (HloOp τ sig (Elt F))).Forall fun op => op.writes ⊆ (writes4.map (Proc.devRef (τ := τ) .tc)).toFinset :=
  Cert.LibKeep.forall_writes_of_map _ _ rfl
/-- A buffer stretch 4 does not write keeps its contents across it. -/
theorem keepH4 (W : Valuation τ sig (Elt F)) (r : Ref sig .tc) (hr : r.idx.val ∉ writes4.map (fun w => w.idx.val)) :
    StableHlo.after hostOps4 W (Proc.devRef .tc r) = W (Proc.devRef .tc r) :=
  StableHlo.after_of_writes_sub hostOps4 W hostOps4_writes (Cert.LibKeep.not_mem_of_idx hr)

/-- The buffers stretch 5 writes, in order. -/
abbrev writes5 : List (Ref sig .tc) := [main_v138, main_v139, main_v140, main_v141, main_v142, main_v143, main_v144]
theorem hostOps5_writes : (hostOps5 : List (HloOp τ sig (Elt F))).Forall fun op => op.writes ⊆ (writes5.map (Proc.devRef (τ := τ) .tc)).toFinset :=
  Cert.LibKeep.forall_writes_of_map _ _ rfl
/-- A buffer stretch 5 does not write keeps its contents across it. -/
theorem keepH5 (W : Valuation τ sig (Elt F)) (r : Ref sig .tc) (hr : r.idx.val ∉ writes5.map (fun w => w.idx.val)) :
    StableHlo.after hostOps5 W (Proc.devRef .tc r) = W (Proc.devRef .tc r) :=
  StableHlo.after_of_writes_sub hostOps5 W hostOps5_writes (Cert.LibKeep.not_mem_of_idx hr)

/-- The buffers stretch 6 writes, in order. -/
abbrev writes6 : List (Ref sig .tc) := [main_v146, main_v147, main_v148, main_v149, main_c_26, main_v150, main_v151, main_c_27, main_v152, main_v153, main_v154, main_v155, main_v156, main_cst_28, main_v157, main_v158, main_v159, main_cst_29, main_v160, main_cst_30, main_v161, main_v162, main_v163, main_cst_31, main_v164, main_v165, main_v166, main_v167, main_v168, main_v169, main_v170, main_v171, main_v172, main_v173, main_v174]
theorem hostOps6_writes : (hostOps6 : List (HloOp τ sig (Elt F))).Forall fun op => op.writes ⊆ (writes6.map (Proc.devRef (τ := τ) .tc)).toFinset :=
  Cert.LibKeep.forall_writes_of_map _ _ rfl
/-- A buffer stretch 6 does not write keeps its contents across it. -/
theorem keepH6 (W : Valuation τ sig (Elt F)) (r : Ref sig .tc) (hr : r.idx.val ∉ writes6.map (fun w => w.idx.val)) :
    StableHlo.after hostOps6 W (Proc.devRef .tc r) = W (Proc.devRef .tc r) :=
  StableHlo.after_of_writes_sub hostOps6 W hostOps6_writes (Cert.LibKeep.not_mem_of_idx hr)

/-- The buffers stretch 7 writes, in order. -/
abbrev writes7 : List (Ref sig .tc) := [main_v176, main_v177, main_v178, main_v179, main_c_32, main_v180, main_v181, main_c_33, main_v182, main_v183, main_v184, main_v185, main_v186, main_cst_34, main_v187, main_v188, main_v189, main_cst_35, main_v190, main_cst_36, main_v191, main_v192, main_v193, main_cst_37, main_v194, main_v195, main_v196, main_v197, main_v198, main_v199, main_v200, main_v201, main_v202]
theorem hostOps7_writes : (hostOps7 : List (HloOp τ sig (Elt F))).Forall fun op => op.writes ⊆ (writes7.map (Proc.devRef (τ := τ) .tc)).toFinset :=
  Cert.LibKeep.forall_writes_of_map _ _ rfl
/-- A buffer stretch 7 does not write keeps its contents across it. -/
theorem keepH7 (W : Valuation τ sig (Elt F)) (r : Ref sig .tc) (hr : r.idx.val ∉ writes7.map (fun w => w.idx.val)) :
    StableHlo.after hostOps7 W (Proc.devRef .tc r) = W (Proc.devRef .tc r) :=
  StableHlo.after_of_writes_sub hostOps7 W hostOps7_writes (Cert.LibKeep.not_mem_of_idx hr)

/-- The buffers stretch 8 writes, in order. -/
abbrev writes8 : List (Ref sig .tc) := [main_v204, main_v205, main_v206, main_v207, main_v208, main_v209, main_cst_38, main_v210, main_v211, main_cst_39, main_v212, main_v213, main_v214, main_v215]
theorem hostOps8_writes : (hostOps8 : List (HloOp τ sig (Elt F))).Forall fun op => op.writes ⊆ (writes8.map (Proc.devRef (τ := τ) .tc)).toFinset :=
  Cert.LibKeep.forall_writes_of_map _ _ rfl
/-- A buffer stretch 8 does not write keeps its contents across it. -/
theorem keepH8 (W : Valuation τ sig (Elt F)) (r : Ref sig .tc) (hr : r.idx.val ∉ writes8.map (fun w => w.idx.val)) :
    StableHlo.after hostOps8 W (Proc.devRef .tc r) = W (Proc.devRef .tc r) :=
  StableHlo.after_of_writes_sub hostOps8 W hostOps8_writes (Cert.LibKeep.not_mem_of_idx hr)

/-- The buffers stretch 9 writes, in order. -/
abbrev writes9 : List (Ref sig .tc) := [main_v217, main_v218, main_v219, main_v220, main_v221, main_v222, main_cst_40, main_v223, main_v224, main_cst_41, main_v225, main_v226, main_v227, main_v228]
theorem hostOps9_writes : (hostOps9 : List (HloOp τ sig (Elt F))).Forall fun op => op.writes ⊆ (writes9.map (Proc.devRef (τ := τ) .tc)).toFinset :=
  Cert.LibKeep.forall_writes_of_map _ _ rfl
/-- A buffer stretch 9 does not write keeps its contents across it. -/
theorem keepH9 (W : Valuation τ sig (Elt F)) (r : Ref sig .tc) (hr : r.idx.val ∉ writes9.map (fun w => w.idx.val)) :
    StableHlo.after hostOps9 W (Proc.devRef .tc r) = W (Proc.devRef .tc r) :=
  StableHlo.after_of_writes_sub hostOps9 W hostOps9_writes (Cert.LibKeep.not_mem_of_idx hr)

/-- The buffers stretch 10 writes, in order. -/
abbrev writes10 : List (Ref sig .tc) := [main_v230, main_v231, main_v232, main_v233, main_v234, main_v235, main_cst_42, main_v236, main_v237, main_cst_43, main_v238, main_v239, main_v240, main_v241]
theorem hostOps10_writes : (hostOps10 : List (HloOp τ sig (Elt F))).Forall fun op => op.writes ⊆ (writes10.map (Proc.devRef (τ := τ) .tc)).toFinset :=
  Cert.LibKeep.forall_writes_of_map _ _ rfl
/-- A buffer stretch 10 does not write keeps its contents across it. -/
theorem keepH10 (W : Valuation τ sig (Elt F)) (r : Ref sig .tc) (hr : r.idx.val ∉ writes10.map (fun w => w.idx.val)) :
    StableHlo.after hostOps10 W (Proc.devRef .tc r) = W (Proc.devRef .tc r) :=
  StableHlo.after_of_writes_sub hostOps10 W hostOps10_writes (Cert.LibKeep.not_mem_of_idx hr)

/-- The buffers stretch 11 writes, in order. -/
abbrev writes11 : List (Ref sig .tc) := [main_v243, main_v244, main_v245, main_v246, main_c_44, main_v247, main_v248, main_c_45, main_v249, main_v250, main_v251, main_v252, main_v253, main_cst_46, main_v254, main_v255, main_v256, main_cst_47, main_v257, main_cst_48, main_v258, main_v259, main_v260, main_cst_49, main_v261, main_v262, main_v263, main_v264, main_v265, main_v266, main_v267, main_v268, main_c_50, main_v269, main_v270, main_c_51, main_v271, main_v272, main_v273, main_v274, main_v275, main_cst_52, main_v276, main_v277, main_v278, main_cst_53, main_v279, main_cst_54, main_v280, main_v281, main_v282, main_cst_55, main_v283, main_v284, main_v285, main_v286, main_v287, main_v288, main_v289, main_v290, main_v291, main_v292, main_v293]
theorem hostOps11_writes : (hostOps11 : List (HloOp τ sig (Elt F))).Forall fun op => op.writes ⊆ (writes11.map (Proc.devRef (τ := τ) .tc)).toFinset :=
  Cert.LibKeep.forall_writes_of_map _ _ rfl
/-- A buffer stretch 11 does not write keeps its contents across it. -/
theorem keepH11 (W : Valuation τ sig (Elt F)) (r : Ref sig .tc) (hr : r.idx.val ∉ writes11.map (fun w => w.idx.val)) :
    StableHlo.after hostOps11 W (Proc.devRef .tc r) = W (Proc.devRef .tc r) :=
  StableHlo.after_of_writes_sub hostOps11 W hostOps11_writes (Cert.LibKeep.not_mem_of_idx hr)

/-- The buffers stretch 12 writes, in order. -/
abbrev writes12 : List (Ref sig .tc) := [main_v295, main_v296, main_v297, main_v298, main_v299, main_v300, main_v301]
theorem hostOps12_writes : (hostOps12 : List (HloOp τ sig (Elt F))).Forall fun op => op.writes ⊆ (writes12.map (Proc.devRef (τ := τ) .tc)).toFinset :=
  Cert.LibKeep.forall_writes_of_map _ _ rfl
/-- A buffer stretch 12 does not write keeps its contents across it. -/
theorem keepH12 (W : Valuation τ sig (Elt F)) (r : Ref sig .tc) (hr : r.idx.val ∉ writes12.map (fun w => w.idx.val)) :
    StableHlo.after hostOps12 W (Proc.devRef .tc r) = W (Proc.devRef .tc r) :=
  StableHlo.after_of_writes_sub hostOps12 W hostOps12_writes (Cert.LibKeep.not_mem_of_idx hr)

/-- The buffers stretch 13 writes, in order. -/
abbrev writes13 : List (Ref sig .tc) := [main_v303, main_v304, main_v305, main_v306, main_c_56, main_v307, main_v308, main_c_57, main_v309, main_v310, main_v311, main_v312, main_v313, main_cst_58, main_v314, main_v315, main_v316, main_cst_59, main_v317, main_cst_60, main_v318, main_v319, main_v320, main_cst_61, main_v321, main_v322, main_v323, main_v324, main_v325, main_v326, main_v327, main_v328, main_c_62, main_v329, main_v330, main_c_63, main_v331, main_v332, main_v333, main_v334, main_v335, main_cst_64, main_v336, main_v337, main_v338, main_cst_65, main_v339, main_cst_66, main_v340, main_v341, main_v342, main_cst_67, main_v343, main_v344, main_v345, main_v346, main_v347, main_v348, main_v349, main_v350, main_v351, main_v352, main_v353]
theorem hostOps13_writes : (hostOps13 : List (HloOp τ sig (Elt F))).Forall fun op => op.writes ⊆ (writes13.map (Proc.devRef (τ := τ) .tc)).toFinset :=
  Cert.LibKeep.forall_writes_of_map _ _ rfl
/-- A buffer stretch 13 does not write keeps its contents across it. -/
theorem keepH13 (W : Valuation τ sig (Elt F)) (r : Ref sig .tc) (hr : r.idx.val ∉ writes13.map (fun w => w.idx.val)) :
    StableHlo.after hostOps13 W (Proc.devRef .tc r) = W (Proc.devRef .tc r) :=
  StableHlo.after_of_writes_sub hostOps13 W hostOps13_writes (Cert.LibKeep.not_mem_of_idx hr)

/-- The buffers stretch 14 writes, in order. -/
abbrev writes14 : List (Ref sig .tc) := [main_v355, main_v356, main_v357, main_v358, main_v359, main_v360, main_v361]
theorem hostOps14_writes : (hostOps14 : List (HloOp τ sig (Elt F))).Forall fun op => op.writes ⊆ (writes14.map (Proc.devRef (τ := τ) .tc)).toFinset :=
  Cert.LibKeep.forall_writes_of_map _ _ rfl
/-- A buffer stretch 14 does not write keeps its contents across it. -/
theorem keepH14 (W : Valuation τ sig (Elt F)) (r : Ref sig .tc) (hr : r.idx.val ∉ writes14.map (fun w => w.idx.val)) :
    StableHlo.after hostOps14 W (Proc.devRef .tc r) = W (Proc.devRef .tc r) :=
  StableHlo.after_of_writes_sub hostOps14 W hostOps14_writes (Cert.LibKeep.not_mem_of_idx hr)

/-- The buffers stretch 15 writes, in order. -/
abbrev writes15 : List (Ref sig .tc) := [main_v363, main_v364, main_v365, main_v366, main_c_68, main_v367, main_v368, main_c_69, main_v369, main_v370, main_v371, main_v372, main_v373, main_cst_70, main_v374, main_v375, main_v376, main_cst_71, main_v377, main_cst_72, main_v378, main_v379, main_v380, main_cst_73, main_v381, main_v382, main_v383, main_v384, main_v385, main_v386, main_v387, main_v388, main_v389, main_v390, main_v391]
theorem hostOps15_writes : (hostOps15 : List (HloOp τ sig (Elt F))).Forall fun op => op.writes ⊆ (writes15.map (Proc.devRef (τ := τ) .tc)).toFinset :=
  Cert.LibKeep.forall_writes_of_map _ _ rfl
/-- A buffer stretch 15 does not write keeps its contents across it. -/
theorem keepH15 (W : Valuation τ sig (Elt F)) (r : Ref sig .tc) (hr : r.idx.val ∉ writes15.map (fun w => w.idx.val)) :
    StableHlo.after hostOps15 W (Proc.devRef .tc r) = W (Proc.devRef .tc r) :=
  StableHlo.after_of_writes_sub hostOps15 W hostOps15_writes (Cert.LibKeep.not_mem_of_idx hr)

variable (m : (ℓ : Loc nD τ sig) → Buf (Elt F) ℓ) (ρ : Dev nD → PrngReg) (c : Dev nD)

theorem arg0_at0 : W0 m ρ c (Proc.devRef .tc main_arg0) = m ((c : Thread nD τ).loc main_arg0) := rfl
theorem arg0_at1 : W1 m ρ c (Proc.devRef .tc main_arg0) = m ((c : Thread nD τ).loc main_arg0) :=
  (keepH0 _ main_arg0 (by decide)).trans (arg0_at0 m ρ c)
theorem arg0_at2 : W2 m ρ c (Proc.devRef .tc main_arg0) = m ((c : Thread nD τ).loc main_arg0) :=
  ((W2_arr m ρ c 3).trans (((dat0 (V1 m ρ) c).arrAt_in 3 rfl _).trans (A_eq0 (V1 m ρ) c 3))).trans (arg0_at1 m ρ c)
theorem arg0_at3 : W3 m ρ c (Proc.devRef .tc main_arg0) = m ((c : Thread nD τ).loc main_arg0) :=
  (keepH1 _ main_arg0 (by decide)).trans (arg0_at2 m ρ c)
theorem arg0_at4 : W4 m ρ c (Proc.devRef .tc main_arg0) = m ((c : Thread nD τ).loc main_arg0) :=
  (W4_of_ne m ρ c main_arg0 (by decide)).trans (arg0_at3 m ρ c)
theorem arg0_at5 : W5 m ρ c (Proc.devRef .tc main_arg0) = m ((c : Thread nD τ).loc main_arg0) :=
  (keepH2 _ main_arg0 (by decide)).trans (arg0_at4 m ρ c)
theorem arg0_at6 : W6 m ρ c (Proc.devRef .tc main_arg0) = m ((c : Thread nD τ).loc main_arg0) :=
  (W6_of_ne m ρ c main_arg0 (by decide)).trans (arg0_at5 m ρ c)
theorem arg0_at7 : W7 m ρ c (Proc.devRef .tc main_arg0) = m ((c : Thread nD τ).loc main_arg0) :=
  (keepH3 _ main_arg0 (by decide)).trans (arg0_at6 m ρ c)
theorem arg0_at8 : W8 m ρ c (Proc.devRef .tc main_arg0) = m ((c : Thread nD τ).loc main_arg0) :=
  (W8_of_ne m ρ c main_arg0 (by decide)).trans (arg0_at7 m ρ c)
theorem arg0_at9 : W9 m ρ c (Proc.devRef .tc main_arg0) = m ((c : Thread nD τ).loc main_arg0) :=
  (keepH4 _ main_arg0 (by decide)).trans (arg0_at8 m ρ c)
theorem arg0_at10 : W10 m ρ c (Proc.devRef .tc main_arg0) = m ((c : Thread nD τ).loc main_arg0) :=
  (W10_of_ne m ρ c main_arg0 (by decide)).trans (arg0_at9 m ρ c)
theorem arg0_at11 : W11 m ρ c (Proc.devRef .tc main_arg0) = m ((c : Thread nD τ).loc main_arg0) :=
  (keepH5 _ main_arg0 (by decide)).trans (arg0_at10 m ρ c)
theorem arg0_at12 : W12 m ρ c (Proc.devRef .tc main_arg0) = m ((c : Thread nD τ).loc main_arg0) :=
  (W12_of_ne m ρ c main_arg0 (by decide)).trans (arg0_at11 m ρ c)
theorem arg0_at13 : W13 m ρ c (Proc.devRef .tc main_arg0) = m ((c : Thread nD τ).loc main_arg0) :=
  (keepH6 _ main_arg0 (by decide)).trans (arg0_at12 m ρ c)
theorem arg0_at14 : W14 m ρ c (Proc.devRef .tc main_arg0) = m ((c : Thread nD τ).loc main_arg0) :=
  (W14_of_ne m ρ c main_arg0 (by decide)).trans (arg0_at13 m ρ c)
theorem arg0_at15 : W15 m ρ c (Proc.devRef .tc main_arg0) = m ((c : Thread nD τ).loc main_arg0) :=
  (keepH7 _ main_arg0 (by decide)).trans (arg0_at14 m ρ c)
theorem arg0_at16 : W16 m ρ c (Proc.devRef .tc main_arg0) = m ((c : Thread nD τ).loc main_arg0) :=
  (W16_of_ne m ρ c main_arg0 (by decide)).trans (arg0_at15 m ρ c)
theorem arg0_at17 : W17 m ρ c (Proc.devRef .tc main_arg0) = m ((c : Thread nD τ).loc main_arg0) :=
  (keepH8 _ main_arg0 (by decide)).trans (arg0_at16 m ρ c)
theorem arg0_at18 : W18 m ρ c (Proc.devRef .tc main_arg0) = m ((c : Thread nD τ).loc main_arg0) :=
  (W18_of_ne m ρ c main_arg0 (by decide)).trans (arg0_at17 m ρ c)
theorem arg0_at19 : W19 m ρ c (Proc.devRef .tc main_arg0) = m ((c : Thread nD τ).loc main_arg0) :=
  (keepH9 _ main_arg0 (by decide)).trans (arg0_at18 m ρ c)
theorem arg0_at20 : W20 m ρ c (Proc.devRef .tc main_arg0) = m ((c : Thread nD τ).loc main_arg0) :=
  (W20_of_ne m ρ c main_arg0 (by decide)).trans (arg0_at19 m ρ c)
theorem arg0_at21 : W21 m ρ c (Proc.devRef .tc main_arg0) = m ((c : Thread nD τ).loc main_arg0) :=
  (keepH10 _ main_arg0 (by decide)).trans (arg0_at20 m ρ c)
theorem arg0_at22 : W22 m ρ c (Proc.devRef .tc main_arg0) = m ((c : Thread nD τ).loc main_arg0) :=
  (W22_of_ne m ρ c main_arg0 (by decide)).trans (arg0_at21 m ρ c)
theorem arg0_at23 : W23 m ρ c (Proc.devRef .tc main_arg0) = m ((c : Thread nD τ).loc main_arg0) :=
  (keepH11 _ main_arg0 (by decide)).trans (arg0_at22 m ρ c)
theorem arg0_at24 : W24 m ρ c (Proc.devRef .tc main_arg0) = m ((c : Thread nD τ).loc main_arg0) :=
  (W24_of_ne m ρ c main_arg0 (by decide)).trans (arg0_at23 m ρ c)
theorem arg0_at25 : W25 m ρ c (Proc.devRef .tc main_arg0) = m ((c : Thread nD τ).loc main_arg0) :=
  (keepH12 _ main_arg0 (by decide)).trans (arg0_at24 m ρ c)
theorem arg0_at26 : W26 m ρ c (Proc.devRef .tc main_arg0) = m ((c : Thread nD τ).loc main_arg0) :=
  (W26_of_ne m ρ c main_arg0 (by decide)).trans (arg0_at25 m ρ c)
theorem arg0_at27 : W27 m ρ c (Proc.devRef .tc main_arg0) = m ((c : Thread nD τ).loc main_arg0) :=
  (keepH13 _ main_arg0 (by decide)).trans (arg0_at26 m ρ c)
theorem arg0_at28 : W28 m ρ c (Proc.devRef .tc main_arg0) = m ((c : Thread nD τ).loc main_arg0) :=
  (W28_of_ne m ρ c main_arg0 (by decide)).trans (arg0_at27 m ρ c)
theorem arg0_at29 : W29 m ρ c (Proc.devRef .tc main_arg0) = m ((c : Thread nD τ).loc main_arg0) :=
  (keepH14 _ main_arg0 (by decide)).trans (arg0_at28 m ρ c)
theorem arg0_at30 : W30 m ρ c (Proc.devRef .tc main_arg0) = m ((c : Thread nD τ).loc main_arg0) :=
  (W30_of_ne m ρ c main_arg0 (by decide)).trans (arg0_at29 m ρ c)
theorem arg0_at31 : W31 m ρ c (Proc.devRef .tc main_arg0) = m ((c : Thread nD τ).loc main_arg0) :=
  (keepH15 _ main_arg0 (by decide)).trans (arg0_at30 m ρ c)
theorem arg0_at32 : W32 m ρ c (Proc.devRef .tc main_arg0) = m ((c : Thread nD τ).loc main_arg0) :=
  (W32_of_ne m ρ c main_arg0 (by decide)).trans (arg0_at31 m ρ c)

theorem arg1_at0 : W0 m ρ c (Proc.devRef .tc main_arg1) = m ((c : Thread nD τ).loc main_arg1) := rfl
theorem arg1_at1 : W1 m ρ c (Proc.devRef .tc main_arg1) = m ((c : Thread nD τ).loc main_arg1) :=
  (keepH0 _ main_arg1 (by decide)).trans (arg1_at0 m ρ c)
theorem arg1_at2 : W2 m ρ c (Proc.devRef .tc main_arg1) = m ((c : Thread nD τ).loc main_arg1) :=
  (W2_of_ne m ρ c main_arg1 (by decide)).trans (arg1_at1 m ρ c)
theorem arg1_at3 : W3 m ρ c (Proc.devRef .tc main_arg1) = m ((c : Thread nD τ).loc main_arg1) :=
  (keepH1 _ main_arg1 (by decide)).trans (arg1_at2 m ρ c)
theorem arg1_at4 : W4 m ρ c (Proc.devRef .tc main_arg1) = m ((c : Thread nD τ).loc main_arg1) :=
  ((W4_arr m ρ c 3).trans (((dat1 (V3 m ρ) c).arrAt_in 3 rfl _).trans (A_eq1 (V3 m ρ) c 3))).trans (arg1_at3 m ρ c)
theorem arg1_at5 : W5 m ρ c (Proc.devRef .tc main_arg1) = m ((c : Thread nD τ).loc main_arg1) :=
  (keepH2 _ main_arg1 (by decide)).trans (arg1_at4 m ρ c)
theorem arg1_at6 : W6 m ρ c (Proc.devRef .tc main_arg1) = m ((c : Thread nD τ).loc main_arg1) :=
  (W6_of_ne m ρ c main_arg1 (by decide)).trans (arg1_at5 m ρ c)
theorem arg1_at7 : W7 m ρ c (Proc.devRef .tc main_arg1) = m ((c : Thread nD τ).loc main_arg1) :=
  (keepH3 _ main_arg1 (by decide)).trans (arg1_at6 m ρ c)
theorem arg1_at8 : W8 m ρ c (Proc.devRef .tc main_arg1) = m ((c : Thread nD τ).loc main_arg1) :=
  (W8_of_ne m ρ c main_arg1 (by decide)).trans (arg1_at7 m ρ c)
theorem arg1_at9 : W9 m ρ c (Proc.devRef .tc main_arg1) = m ((c : Thread nD τ).loc main_arg1) :=
  (keepH4 _ main_arg1 (by decide)).trans (arg1_at8 m ρ c)
theorem arg1_at10 : W10 m ρ c (Proc.devRef .tc main_arg1) = m ((c : Thread nD τ).loc main_arg1) :=
  (W10_of_ne m ρ c main_arg1 (by decide)).trans (arg1_at9 m ρ c)
theorem arg1_at11 : W11 m ρ c (Proc.devRef .tc main_arg1) = m ((c : Thread nD τ).loc main_arg1) :=
  (keepH5 _ main_arg1 (by decide)).trans (arg1_at10 m ρ c)
theorem arg1_at12 : W12 m ρ c (Proc.devRef .tc main_arg1) = m ((c : Thread nD τ).loc main_arg1) :=
  (W12_of_ne m ρ c main_arg1 (by decide)).trans (arg1_at11 m ρ c)
theorem arg1_at13 : W13 m ρ c (Proc.devRef .tc main_arg1) = m ((c : Thread nD τ).loc main_arg1) :=
  (keepH6 _ main_arg1 (by decide)).trans (arg1_at12 m ρ c)
theorem arg1_at14 : W14 m ρ c (Proc.devRef .tc main_arg1) = m ((c : Thread nD τ).loc main_arg1) :=
  (W14_of_ne m ρ c main_arg1 (by decide)).trans (arg1_at13 m ρ c)
theorem arg1_at15 : W15 m ρ c (Proc.devRef .tc main_arg1) = m ((c : Thread nD τ).loc main_arg1) :=
  (keepH7 _ main_arg1 (by decide)).trans (arg1_at14 m ρ c)
theorem arg1_at16 : W16 m ρ c (Proc.devRef .tc main_arg1) = m ((c : Thread nD τ).loc main_arg1) :=
  (W16_of_ne m ρ c main_arg1 (by decide)).trans (arg1_at15 m ρ c)
theorem arg1_at17 : W17 m ρ c (Proc.devRef .tc main_arg1) = m ((c : Thread nD τ).loc main_arg1) :=
  (keepH8 _ main_arg1 (by decide)).trans (arg1_at16 m ρ c)
theorem arg1_at18 : W18 m ρ c (Proc.devRef .tc main_arg1) = m ((c : Thread nD τ).loc main_arg1) :=
  (W18_of_ne m ρ c main_arg1 (by decide)).trans (arg1_at17 m ρ c)
theorem arg1_at19 : W19 m ρ c (Proc.devRef .tc main_arg1) = m ((c : Thread nD τ).loc main_arg1) :=
  (keepH9 _ main_arg1 (by decide)).trans (arg1_at18 m ρ c)
theorem arg1_at20 : W20 m ρ c (Proc.devRef .tc main_arg1) = m ((c : Thread nD τ).loc main_arg1) :=
  (W20_of_ne m ρ c main_arg1 (by decide)).trans (arg1_at19 m ρ c)
theorem arg1_at21 : W21 m ρ c (Proc.devRef .tc main_arg1) = m ((c : Thread nD τ).loc main_arg1) :=
  (keepH10 _ main_arg1 (by decide)).trans (arg1_at20 m ρ c)
theorem arg1_at22 : W22 m ρ c (Proc.devRef .tc main_arg1) = m ((c : Thread nD τ).loc main_arg1) :=
  (W22_of_ne m ρ c main_arg1 (by decide)).trans (arg1_at21 m ρ c)
theorem arg1_at23 : W23 m ρ c (Proc.devRef .tc main_arg1) = m ((c : Thread nD τ).loc main_arg1) :=
  (keepH11 _ main_arg1 (by decide)).trans (arg1_at22 m ρ c)
theorem arg1_at24 : W24 m ρ c (Proc.devRef .tc main_arg1) = m ((c : Thread nD τ).loc main_arg1) :=
  (W24_of_ne m ρ c main_arg1 (by decide)).trans (arg1_at23 m ρ c)
theorem arg1_at25 : W25 m ρ c (Proc.devRef .tc main_arg1) = m ((c : Thread nD τ).loc main_arg1) :=
  (keepH12 _ main_arg1 (by decide)).trans (arg1_at24 m ρ c)
theorem arg1_at26 : W26 m ρ c (Proc.devRef .tc main_arg1) = m ((c : Thread nD τ).loc main_arg1) :=
  (W26_of_ne m ρ c main_arg1 (by decide)).trans (arg1_at25 m ρ c)
theorem arg1_at27 : W27 m ρ c (Proc.devRef .tc main_arg1) = m ((c : Thread nD τ).loc main_arg1) :=
  (keepH13 _ main_arg1 (by decide)).trans (arg1_at26 m ρ c)
theorem arg1_at28 : W28 m ρ c (Proc.devRef .tc main_arg1) = m ((c : Thread nD τ).loc main_arg1) :=
  (W28_of_ne m ρ c main_arg1 (by decide)).trans (arg1_at27 m ρ c)
theorem arg1_at29 : W29 m ρ c (Proc.devRef .tc main_arg1) = m ((c : Thread nD τ).loc main_arg1) :=
  (keepH14 _ main_arg1 (by decide)).trans (arg1_at28 m ρ c)
theorem arg1_at30 : W30 m ρ c (Proc.devRef .tc main_arg1) = m ((c : Thread nD τ).loc main_arg1) :=
  (W30_of_ne m ρ c main_arg1 (by decide)).trans (arg1_at29 m ρ c)
theorem arg1_at31 : W31 m ρ c (Proc.devRef .tc main_arg1) = m ((c : Thread nD τ).loc main_arg1) :=
  (keepH15 _ main_arg1 (by decide)).trans (arg1_at30 m ρ c)
theorem arg1_at32 : W32 m ρ c (Proc.devRef .tc main_arg1) = m ((c : Thread nD τ).loc main_arg1) :=
  (W32_of_ne m ρ c main_arg1 (by decide)).trans (arg1_at31 m ρ c)

theorem arg2_at0 : W0 m ρ c (Proc.devRef .tc main_arg2) = m ((c : Thread nD τ).loc main_arg2) := rfl
theorem arg2_at1 : W1 m ρ c (Proc.devRef .tc main_arg2) = m ((c : Thread nD τ).loc main_arg2) :=
  (keepH0 _ main_arg2 (by decide)).trans (arg2_at0 m ρ c)
theorem arg2_at2 : W2 m ρ c (Proc.devRef .tc main_arg2) = m ((c : Thread nD τ).loc main_arg2) :=
  (W2_of_ne m ρ c main_arg2 (by decide)).trans (arg2_at1 m ρ c)
theorem arg2_at3 : W3 m ρ c (Proc.devRef .tc main_arg2) = m ((c : Thread nD τ).loc main_arg2) :=
  (keepH1 _ main_arg2 (by decide)).trans (arg2_at2 m ρ c)
theorem arg2_at4 : W4 m ρ c (Proc.devRef .tc main_arg2) = m ((c : Thread nD τ).loc main_arg2) :=
  (W4_of_ne m ρ c main_arg2 (by decide)).trans (arg2_at3 m ρ c)
theorem arg2_at5 : W5 m ρ c (Proc.devRef .tc main_arg2) = m ((c : Thread nD τ).loc main_arg2) :=
  (keepH2 _ main_arg2 (by decide)).trans (arg2_at4 m ρ c)
theorem arg2_at6 : W6 m ρ c (Proc.devRef .tc main_arg2) = m ((c : Thread nD τ).loc main_arg2) :=
  (W6_of_ne m ρ c main_arg2 (by decide)).trans (arg2_at5 m ρ c)
theorem arg2_at7 : W7 m ρ c (Proc.devRef .tc main_arg2) = m ((c : Thread nD τ).loc main_arg2) :=
  (keepH3 _ main_arg2 (by decide)).trans (arg2_at6 m ρ c)
theorem arg2_at8 : W8 m ρ c (Proc.devRef .tc main_arg2) = m ((c : Thread nD τ).loc main_arg2) :=
  (W8_of_ne m ρ c main_arg2 (by decide)).trans (arg2_at7 m ρ c)
theorem arg2_at9 : W9 m ρ c (Proc.devRef .tc main_arg2) = m ((c : Thread nD τ).loc main_arg2) :=
  (keepH4 _ main_arg2 (by decide)).trans (arg2_at8 m ρ c)
theorem arg2_at10 : W10 m ρ c (Proc.devRef .tc main_arg2) = m ((c : Thread nD τ).loc main_arg2) :=
  (W10_of_ne m ρ c main_arg2 (by decide)).trans (arg2_at9 m ρ c)
theorem arg2_at11 : W11 m ρ c (Proc.devRef .tc main_arg2) = m ((c : Thread nD τ).loc main_arg2) :=
  (keepH5 _ main_arg2 (by decide)).trans (arg2_at10 m ρ c)
theorem arg2_at12 : W12 m ρ c (Proc.devRef .tc main_arg2) = m ((c : Thread nD τ).loc main_arg2) :=
  (W12_of_ne m ρ c main_arg2 (by decide)).trans (arg2_at11 m ρ c)
theorem arg2_at13 : W13 m ρ c (Proc.devRef .tc main_arg2) = m ((c : Thread nD τ).loc main_arg2) :=
  (keepH6 _ main_arg2 (by decide)).trans (arg2_at12 m ρ c)
theorem arg2_at14 : W14 m ρ c (Proc.devRef .tc main_arg2) = m ((c : Thread nD τ).loc main_arg2) :=
  (W14_of_ne m ρ c main_arg2 (by decide)).trans (arg2_at13 m ρ c)
theorem arg2_at15 : W15 m ρ c (Proc.devRef .tc main_arg2) = m ((c : Thread nD τ).loc main_arg2) :=
  (keepH7 _ main_arg2 (by decide)).trans (arg2_at14 m ρ c)
theorem arg2_at16 : W16 m ρ c (Proc.devRef .tc main_arg2) = m ((c : Thread nD τ).loc main_arg2) :=
  (W16_of_ne m ρ c main_arg2 (by decide)).trans (arg2_at15 m ρ c)
theorem arg2_at17 : W17 m ρ c (Proc.devRef .tc main_arg2) = m ((c : Thread nD τ).loc main_arg2) :=
  (keepH8 _ main_arg2 (by decide)).trans (arg2_at16 m ρ c)
theorem arg2_at18 : W18 m ρ c (Proc.devRef .tc main_arg2) = m ((c : Thread nD τ).loc main_arg2) :=
  (W18_of_ne m ρ c main_arg2 (by decide)).trans (arg2_at17 m ρ c)
theorem arg2_at19 : W19 m ρ c (Proc.devRef .tc main_arg2) = m ((c : Thread nD τ).loc main_arg2) :=
  (keepH9 _ main_arg2 (by decide)).trans (arg2_at18 m ρ c)
theorem arg2_at20 : W20 m ρ c (Proc.devRef .tc main_arg2) = m ((c : Thread nD τ).loc main_arg2) :=
  (W20_of_ne m ρ c main_arg2 (by decide)).trans (arg2_at19 m ρ c)
theorem arg2_at21 : W21 m ρ c (Proc.devRef .tc main_arg2) = m ((c : Thread nD τ).loc main_arg2) :=
  (keepH10 _ main_arg2 (by decide)).trans (arg2_at20 m ρ c)
theorem arg2_at22 : W22 m ρ c (Proc.devRef .tc main_arg2) = m ((c : Thread nD τ).loc main_arg2) :=
  (W22_of_ne m ρ c main_arg2 (by decide)).trans (arg2_at21 m ρ c)
theorem arg2_at23 : W23 m ρ c (Proc.devRef .tc main_arg2) = m ((c : Thread nD τ).loc main_arg2) :=
  (keepH11 _ main_arg2 (by decide)).trans (arg2_at22 m ρ c)
theorem arg2_at24 : W24 m ρ c (Proc.devRef .tc main_arg2) = m ((c : Thread nD τ).loc main_arg2) :=
  (W24_of_ne m ρ c main_arg2 (by decide)).trans (arg2_at23 m ρ c)
theorem arg2_at25 : W25 m ρ c (Proc.devRef .tc main_arg2) = m ((c : Thread nD τ).loc main_arg2) :=
  (keepH12 _ main_arg2 (by decide)).trans (arg2_at24 m ρ c)
theorem arg2_at26 : W26 m ρ c (Proc.devRef .tc main_arg2) = m ((c : Thread nD τ).loc main_arg2) :=
  (W26_of_ne m ρ c main_arg2 (by decide)).trans (arg2_at25 m ρ c)
theorem arg2_at27 : W27 m ρ c (Proc.devRef .tc main_arg2) = m ((c : Thread nD τ).loc main_arg2) :=
  (keepH13 _ main_arg2 (by decide)).trans (arg2_at26 m ρ c)
theorem arg2_at28 : W28 m ρ c (Proc.devRef .tc main_arg2) = m ((c : Thread nD τ).loc main_arg2) :=
  (W28_of_ne m ρ c main_arg2 (by decide)).trans (arg2_at27 m ρ c)
theorem arg2_at29 : W29 m ρ c (Proc.devRef .tc main_arg2) = m ((c : Thread nD τ).loc main_arg2) :=
  (keepH14 _ main_arg2 (by decide)).trans (arg2_at28 m ρ c)
theorem arg2_at30 : W30 m ρ c (Proc.devRef .tc main_arg2) = m ((c : Thread nD τ).loc main_arg2) :=
  (W30_of_ne m ρ c main_arg2 (by decide)).trans (arg2_at29 m ρ c)
theorem arg2_at31 : W31 m ρ c (Proc.devRef .tc main_arg2) = m ((c : Thread nD τ).loc main_arg2) :=
  (keepH15 _ main_arg2 (by decide)).trans (arg2_at30 m ρ c)
theorem arg2_at32 : W32 m ρ c (Proc.devRef .tc main_arg2) = m ((c : Thread nD τ).loc main_arg2) :=
  (W32_of_ne m ρ c main_arg2 (by decide)).trans (arg2_at31 m ρ c)

theorem arg3_at0 : W0 m ρ c (Proc.devRef .tc main_arg3) = m ((c : Thread nD τ).loc main_arg3) := rfl
theorem arg3_at1 : W1 m ρ c (Proc.devRef .tc main_arg3) = m ((c : Thread nD τ).loc main_arg3) :=
  (keepH0 _ main_arg3 (by decide)).trans (arg3_at0 m ρ c)
theorem arg3_at2 : W2 m ρ c (Proc.devRef .tc main_arg3) = m ((c : Thread nD τ).loc main_arg3) :=
  (W2_of_ne m ρ c main_arg3 (by decide)).trans (arg3_at1 m ρ c)
theorem arg3_at3 : W3 m ρ c (Proc.devRef .tc main_arg3) = m ((c : Thread nD τ).loc main_arg3) :=
  (keepH1 _ main_arg3 (by decide)).trans (arg3_at2 m ρ c)
theorem arg3_at4 : W4 m ρ c (Proc.devRef .tc main_arg3) = m ((c : Thread nD τ).loc main_arg3) :=
  (W4_of_ne m ρ c main_arg3 (by decide)).trans (arg3_at3 m ρ c)
theorem arg3_at5 : W5 m ρ c (Proc.devRef .tc main_arg3) = m ((c : Thread nD τ).loc main_arg3) :=
  (keepH2 _ main_arg3 (by decide)).trans (arg3_at4 m ρ c)
theorem arg3_at6 : W6 m ρ c (Proc.devRef .tc main_arg3) = m ((c : Thread nD τ).loc main_arg3) :=
  (W6_of_ne m ρ c main_arg3 (by decide)).trans (arg3_at5 m ρ c)
theorem arg3_at7 : W7 m ρ c (Proc.devRef .tc main_arg3) = m ((c : Thread nD τ).loc main_arg3) :=
  (keepH3 _ main_arg3 (by decide)).trans (arg3_at6 m ρ c)
theorem arg3_at8 : W8 m ρ c (Proc.devRef .tc main_arg3) = m ((c : Thread nD τ).loc main_arg3) :=
  (W8_of_ne m ρ c main_arg3 (by decide)).trans (arg3_at7 m ρ c)
theorem arg3_at9 : W9 m ρ c (Proc.devRef .tc main_arg3) = m ((c : Thread nD τ).loc main_arg3) :=
  (keepH4 _ main_arg3 (by decide)).trans (arg3_at8 m ρ c)
theorem arg3_at10 : W10 m ρ c (Proc.devRef .tc main_arg3) = m ((c : Thread nD τ).loc main_arg3) :=
  (W10_of_ne m ρ c main_arg3 (by decide)).trans (arg3_at9 m ρ c)
theorem arg3_at11 : W11 m ρ c (Proc.devRef .tc main_arg3) = m ((c : Thread nD τ).loc main_arg3) :=
  (keepH5 _ main_arg3 (by decide)).trans (arg3_at10 m ρ c)
theorem arg3_at12 : W12 m ρ c (Proc.devRef .tc main_arg3) = m ((c : Thread nD τ).loc main_arg3) :=
  (W12_of_ne m ρ c main_arg3 (by decide)).trans (arg3_at11 m ρ c)
theorem arg3_at13 : W13 m ρ c (Proc.devRef .tc main_arg3) = m ((c : Thread nD τ).loc main_arg3) :=
  (keepH6 _ main_arg3 (by decide)).trans (arg3_at12 m ρ c)
theorem arg3_at14 : W14 m ρ c (Proc.devRef .tc main_arg3) = m ((c : Thread nD τ).loc main_arg3) :=
  (W14_of_ne m ρ c main_arg3 (by decide)).trans (arg3_at13 m ρ c)
theorem arg3_at15 : W15 m ρ c (Proc.devRef .tc main_arg3) = m ((c : Thread nD τ).loc main_arg3) :=
  (keepH7 _ main_arg3 (by decide)).trans (arg3_at14 m ρ c)
theorem arg3_at16 : W16 m ρ c (Proc.devRef .tc main_arg3) = m ((c : Thread nD τ).loc main_arg3) :=
  (W16_of_ne m ρ c main_arg3 (by decide)).trans (arg3_at15 m ρ c)
theorem arg3_at17 : W17 m ρ c (Proc.devRef .tc main_arg3) = m ((c : Thread nD τ).loc main_arg3) :=
  (keepH8 _ main_arg3 (by decide)).trans (arg3_at16 m ρ c)
theorem arg3_at18 : W18 m ρ c (Proc.devRef .tc main_arg3) = m ((c : Thread nD τ).loc main_arg3) :=
  (W18_of_ne m ρ c main_arg3 (by decide)).trans (arg3_at17 m ρ c)
theorem arg3_at19 : W19 m ρ c (Proc.devRef .tc main_arg3) = m ((c : Thread nD τ).loc main_arg3) :=
  (keepH9 _ main_arg3 (by decide)).trans (arg3_at18 m ρ c)
theorem arg3_at20 : W20 m ρ c (Proc.devRef .tc main_arg3) = m ((c : Thread nD τ).loc main_arg3) :=
  (W20_of_ne m ρ c main_arg3 (by decide)).trans (arg3_at19 m ρ c)
theorem arg3_at21 : W21 m ρ c (Proc.devRef .tc main_arg3) = m ((c : Thread nD τ).loc main_arg3) :=
  (keepH10 _ main_arg3 (by decide)).trans (arg3_at20 m ρ c)
theorem arg3_at22 : W22 m ρ c (Proc.devRef .tc main_arg3) = m ((c : Thread nD τ).loc main_arg3) :=
  (W22_of_ne m ρ c main_arg3 (by decide)).trans (arg3_at21 m ρ c)
theorem arg3_at23 : W23 m ρ c (Proc.devRef .tc main_arg3) = m ((c : Thread nD τ).loc main_arg3) :=
  (keepH11 _ main_arg3 (by decide)).trans (arg3_at22 m ρ c)
theorem arg3_at24 : W24 m ρ c (Proc.devRef .tc main_arg3) = m ((c : Thread nD τ).loc main_arg3) :=
  (W24_of_ne m ρ c main_arg3 (by decide)).trans (arg3_at23 m ρ c)
theorem arg3_at25 : W25 m ρ c (Proc.devRef .tc main_arg3) = m ((c : Thread nD τ).loc main_arg3) :=
  (keepH12 _ main_arg3 (by decide)).trans (arg3_at24 m ρ c)
theorem arg3_at26 : W26 m ρ c (Proc.devRef .tc main_arg3) = m ((c : Thread nD τ).loc main_arg3) :=
  (W26_of_ne m ρ c main_arg3 (by decide)).trans (arg3_at25 m ρ c)
theorem arg3_at27 : W27 m ρ c (Proc.devRef .tc main_arg3) = m ((c : Thread nD τ).loc main_arg3) :=
  (keepH13 _ main_arg3 (by decide)).trans (arg3_at26 m ρ c)
theorem arg3_at28 : W28 m ρ c (Proc.devRef .tc main_arg3) = m ((c : Thread nD τ).loc main_arg3) :=
  (W28_of_ne m ρ c main_arg3 (by decide)).trans (arg3_at27 m ρ c)
theorem arg3_at29 : W29 m ρ c (Proc.devRef .tc main_arg3) = m ((c : Thread nD τ).loc main_arg3) :=
  (keepH14 _ main_arg3 (by decide)).trans (arg3_at28 m ρ c)
theorem arg3_at30 : W30 m ρ c (Proc.devRef .tc main_arg3) = m ((c : Thread nD τ).loc main_arg3) :=
  (W30_of_ne m ρ c main_arg3 (by decide)).trans (arg3_at29 m ρ c)
theorem arg3_at31 : W31 m ρ c (Proc.devRef .tc main_arg3) = m ((c : Thread nD τ).loc main_arg3) :=
  (keepH15 _ main_arg3 (by decide)).trans (arg3_at30 m ρ c)
theorem arg3_at32 : W32 m ρ c (Proc.devRef .tc main_arg3) = m ((c : Thread nD τ).loc main_arg3) :=
  (W32_of_ne m ρ c main_arg3 (by decide)).trans (arg3_at31 m ρ c)

theorem arg4_at0 : W0 m ρ c (Proc.devRef .tc main_arg4) = m ((c : Thread nD τ).loc main_arg4) := rfl
theorem arg4_at1 : W1 m ρ c (Proc.devRef .tc main_arg4) = m ((c : Thread nD τ).loc main_arg4) :=
  (keepH0 _ main_arg4 (by decide)).trans (arg4_at0 m ρ c)
theorem arg4_at2 : W2 m ρ c (Proc.devRef .tc main_arg4) = m ((c : Thread nD τ).loc main_arg4) :=
  (W2_of_ne m ρ c main_arg4 (by decide)).trans (arg4_at1 m ρ c)
theorem arg4_at3 : W3 m ρ c (Proc.devRef .tc main_arg4) = m ((c : Thread nD τ).loc main_arg4) :=
  (keepH1 _ main_arg4 (by decide)).trans (arg4_at2 m ρ c)
theorem arg4_at4 : W4 m ρ c (Proc.devRef .tc main_arg4) = m ((c : Thread nD τ).loc main_arg4) :=
  (W4_of_ne m ρ c main_arg4 (by decide)).trans (arg4_at3 m ρ c)
theorem arg4_at5 : W5 m ρ c (Proc.devRef .tc main_arg4) = m ((c : Thread nD τ).loc main_arg4) :=
  (keepH2 _ main_arg4 (by decide)).trans (arg4_at4 m ρ c)
theorem arg4_at6 : W6 m ρ c (Proc.devRef .tc main_arg4) = m ((c : Thread nD τ).loc main_arg4) :=
  (W6_of_ne m ρ c main_arg4 (by decide)).trans (arg4_at5 m ρ c)
theorem arg4_at7 : W7 m ρ c (Proc.devRef .tc main_arg4) = m ((c : Thread nD τ).loc main_arg4) :=
  (keepH3 _ main_arg4 (by decide)).trans (arg4_at6 m ρ c)
theorem arg4_at8 : W8 m ρ c (Proc.devRef .tc main_arg4) = m ((c : Thread nD τ).loc main_arg4) :=
  (W8_of_ne m ρ c main_arg4 (by decide)).trans (arg4_at7 m ρ c)
theorem arg4_at9 : W9 m ρ c (Proc.devRef .tc main_arg4) = m ((c : Thread nD τ).loc main_arg4) :=
  (keepH4 _ main_arg4 (by decide)).trans (arg4_at8 m ρ c)
theorem arg4_at10 : W10 m ρ c (Proc.devRef .tc main_arg4) = m ((c : Thread nD τ).loc main_arg4) :=
  (W10_of_ne m ρ c main_arg4 (by decide)).trans (arg4_at9 m ρ c)
theorem arg4_at11 : W11 m ρ c (Proc.devRef .tc main_arg4) = m ((c : Thread nD τ).loc main_arg4) :=
  (keepH5 _ main_arg4 (by decide)).trans (arg4_at10 m ρ c)
theorem arg4_at12 : W12 m ρ c (Proc.devRef .tc main_arg4) = m ((c : Thread nD τ).loc main_arg4) :=
  (W12_of_ne m ρ c main_arg4 (by decide)).trans (arg4_at11 m ρ c)
theorem arg4_at13 : W13 m ρ c (Proc.devRef .tc main_arg4) = m ((c : Thread nD τ).loc main_arg4) :=
  (keepH6 _ main_arg4 (by decide)).trans (arg4_at12 m ρ c)
theorem arg4_at14 : W14 m ρ c (Proc.devRef .tc main_arg4) = m ((c : Thread nD τ).loc main_arg4) :=
  (W14_of_ne m ρ c main_arg4 (by decide)).trans (arg4_at13 m ρ c)
theorem arg4_at15 : W15 m ρ c (Proc.devRef .tc main_arg4) = m ((c : Thread nD τ).loc main_arg4) :=
  (keepH7 _ main_arg4 (by decide)).trans (arg4_at14 m ρ c)
theorem arg4_at16 : W16 m ρ c (Proc.devRef .tc main_arg4) = m ((c : Thread nD τ).loc main_arg4) :=
  (W16_of_ne m ρ c main_arg4 (by decide)).trans (arg4_at15 m ρ c)
theorem arg4_at17 : W17 m ρ c (Proc.devRef .tc main_arg4) = m ((c : Thread nD τ).loc main_arg4) :=
  (keepH8 _ main_arg4 (by decide)).trans (arg4_at16 m ρ c)
theorem arg4_at18 : W18 m ρ c (Proc.devRef .tc main_arg4) = m ((c : Thread nD τ).loc main_arg4) :=
  (W18_of_ne m ρ c main_arg4 (by decide)).trans (arg4_at17 m ρ c)
theorem arg4_at19 : W19 m ρ c (Proc.devRef .tc main_arg4) = m ((c : Thread nD τ).loc main_arg4) :=
  (keepH9 _ main_arg4 (by decide)).trans (arg4_at18 m ρ c)
theorem arg4_at20 : W20 m ρ c (Proc.devRef .tc main_arg4) = m ((c : Thread nD τ).loc main_arg4) :=
  (W20_of_ne m ρ c main_arg4 (by decide)).trans (arg4_at19 m ρ c)
theorem arg4_at21 : W21 m ρ c (Proc.devRef .tc main_arg4) = m ((c : Thread nD τ).loc main_arg4) :=
  (keepH10 _ main_arg4 (by decide)).trans (arg4_at20 m ρ c)
theorem arg4_at22 : W22 m ρ c (Proc.devRef .tc main_arg4) = m ((c : Thread nD τ).loc main_arg4) :=
  (W22_of_ne m ρ c main_arg4 (by decide)).trans (arg4_at21 m ρ c)
theorem arg4_at23 : W23 m ρ c (Proc.devRef .tc main_arg4) = m ((c : Thread nD τ).loc main_arg4) :=
  (keepH11 _ main_arg4 (by decide)).trans (arg4_at22 m ρ c)
theorem arg4_at24 : W24 m ρ c (Proc.devRef .tc main_arg4) = m ((c : Thread nD τ).loc main_arg4) :=
  (W24_of_ne m ρ c main_arg4 (by decide)).trans (arg4_at23 m ρ c)
theorem arg4_at25 : W25 m ρ c (Proc.devRef .tc main_arg4) = m ((c : Thread nD τ).loc main_arg4) :=
  (keepH12 _ main_arg4 (by decide)).trans (arg4_at24 m ρ c)
theorem arg4_at26 : W26 m ρ c (Proc.devRef .tc main_arg4) = m ((c : Thread nD τ).loc main_arg4) :=
  (W26_of_ne m ρ c main_arg4 (by decide)).trans (arg4_at25 m ρ c)
theorem arg4_at27 : W27 m ρ c (Proc.devRef .tc main_arg4) = m ((c : Thread nD τ).loc main_arg4) :=
  (keepH13 _ main_arg4 (by decide)).trans (arg4_at26 m ρ c)
theorem arg4_at28 : W28 m ρ c (Proc.devRef .tc main_arg4) = m ((c : Thread nD τ).loc main_arg4) :=
  (W28_of_ne m ρ c main_arg4 (by decide)).trans (arg4_at27 m ρ c)
theorem arg4_at29 : W29 m ρ c (Proc.devRef .tc main_arg4) = m ((c : Thread nD τ).loc main_arg4) :=
  (keepH14 _ main_arg4 (by decide)).trans (arg4_at28 m ρ c)
theorem arg4_at30 : W30 m ρ c (Proc.devRef .tc main_arg4) = m ((c : Thread nD τ).loc main_arg4) :=
  (W30_of_ne m ρ c main_arg4 (by decide)).trans (arg4_at29 m ρ c)
theorem arg4_at31 : W31 m ρ c (Proc.devRef .tc main_arg4) = m ((c : Thread nD τ).loc main_arg4) :=
  (keepH15 _ main_arg4 (by decide)).trans (arg4_at30 m ρ c)
theorem arg4_at32 : W32 m ρ c (Proc.devRef .tc main_arg4) = m ((c : Thread nD τ).loc main_arg4) :=
  (W32_of_ne m ρ c main_arg4 (by decide)).trans (arg4_at31 m ρ c)

theorem arg5_at0 : W0 m ρ c (Proc.devRef .tc main_arg5) = m ((c : Thread nD τ).loc main_arg5) := rfl
theorem arg5_at1 : W1 m ρ c (Proc.devRef .tc main_arg5) = m ((c : Thread nD τ).loc main_arg5) :=
  (keepH0 _ main_arg5 (by decide)).trans (arg5_at0 m ρ c)
theorem arg5_at2 : W2 m ρ c (Proc.devRef .tc main_arg5) = m ((c : Thread nD τ).loc main_arg5) :=
  (W2_of_ne m ρ c main_arg5 (by decide)).trans (arg5_at1 m ρ c)
theorem arg5_at3 : W3 m ρ c (Proc.devRef .tc main_arg5) = m ((c : Thread nD τ).loc main_arg5) :=
  (keepH1 _ main_arg5 (by decide)).trans (arg5_at2 m ρ c)
theorem arg5_at4 : W4 m ρ c (Proc.devRef .tc main_arg5) = m ((c : Thread nD τ).loc main_arg5) :=
  (W4_of_ne m ρ c main_arg5 (by decide)).trans (arg5_at3 m ρ c)
theorem arg5_at5 : W5 m ρ c (Proc.devRef .tc main_arg5) = m ((c : Thread nD τ).loc main_arg5) :=
  (keepH2 _ main_arg5 (by decide)).trans (arg5_at4 m ρ c)
theorem arg5_at6 : W6 m ρ c (Proc.devRef .tc main_arg5) = m ((c : Thread nD τ).loc main_arg5) :=
  (W6_of_ne m ρ c main_arg5 (by decide)).trans (arg5_at5 m ρ c)
theorem arg5_at7 : W7 m ρ c (Proc.devRef .tc main_arg5) = m ((c : Thread nD τ).loc main_arg5) :=
  (keepH3 _ main_arg5 (by decide)).trans (arg5_at6 m ρ c)
theorem arg5_at8 : W8 m ρ c (Proc.devRef .tc main_arg5) = m ((c : Thread nD τ).loc main_arg5) :=
  (W8_of_ne m ρ c main_arg5 (by decide)).trans (arg5_at7 m ρ c)
theorem arg5_at9 : W9 m ρ c (Proc.devRef .tc main_arg5) = m ((c : Thread nD τ).loc main_arg5) :=
  (keepH4 _ main_arg5 (by decide)).trans (arg5_at8 m ρ c)
theorem arg5_at10 : W10 m ρ c (Proc.devRef .tc main_arg5) = m ((c : Thread nD τ).loc main_arg5) :=
  (W10_of_ne m ρ c main_arg5 (by decide)).trans (arg5_at9 m ρ c)
theorem arg5_at11 : W11 m ρ c (Proc.devRef .tc main_arg5) = m ((c : Thread nD τ).loc main_arg5) :=
  (keepH5 _ main_arg5 (by decide)).trans (arg5_at10 m ρ c)
theorem arg5_at12 : W12 m ρ c (Proc.devRef .tc main_arg5) = m ((c : Thread nD τ).loc main_arg5) :=
  (W12_of_ne m ρ c main_arg5 (by decide)).trans (arg5_at11 m ρ c)
theorem arg5_at13 : W13 m ρ c (Proc.devRef .tc main_arg5) = m ((c : Thread nD τ).loc main_arg5) :=
  (keepH6 _ main_arg5 (by decide)).trans (arg5_at12 m ρ c)
theorem arg5_at14 : W14 m ρ c (Proc.devRef .tc main_arg5) = m ((c : Thread nD τ).loc main_arg5) :=
  (W14_of_ne m ρ c main_arg5 (by decide)).trans (arg5_at13 m ρ c)
theorem arg5_at15 : W15 m ρ c (Proc.devRef .tc main_arg5) = m ((c : Thread nD τ).loc main_arg5) :=
  (keepH7 _ main_arg5 (by decide)).trans (arg5_at14 m ρ c)
theorem arg5_at16 : W16 m ρ c (Proc.devRef .tc main_arg5) = m ((c : Thread nD τ).loc main_arg5) :=
  (W16_of_ne m ρ c main_arg5 (by decide)).trans (arg5_at15 m ρ c)
theorem arg5_at17 : W17 m ρ c (Proc.devRef .tc main_arg5) = m ((c : Thread nD τ).loc main_arg5) :=
  (keepH8 _ main_arg5 (by decide)).trans (arg5_at16 m ρ c)
theorem arg5_at18 : W18 m ρ c (Proc.devRef .tc main_arg5) = m ((c : Thread nD τ).loc main_arg5) :=
  (W18_of_ne m ρ c main_arg5 (by decide)).trans (arg5_at17 m ρ c)
theorem arg5_at19 : W19 m ρ c (Proc.devRef .tc main_arg5) = m ((c : Thread nD τ).loc main_arg5) :=
  (keepH9 _ main_arg5 (by decide)).trans (arg5_at18 m ρ c)
theorem arg5_at20 : W20 m ρ c (Proc.devRef .tc main_arg5) = m ((c : Thread nD τ).loc main_arg5) :=
  (W20_of_ne m ρ c main_arg5 (by decide)).trans (arg5_at19 m ρ c)
theorem arg5_at21 : W21 m ρ c (Proc.devRef .tc main_arg5) = m ((c : Thread nD τ).loc main_arg5) :=
  (keepH10 _ main_arg5 (by decide)).trans (arg5_at20 m ρ c)
theorem arg5_at22 : W22 m ρ c (Proc.devRef .tc main_arg5) = m ((c : Thread nD τ).loc main_arg5) :=
  (W22_of_ne m ρ c main_arg5 (by decide)).trans (arg5_at21 m ρ c)
theorem arg5_at23 : W23 m ρ c (Proc.devRef .tc main_arg5) = m ((c : Thread nD τ).loc main_arg5) :=
  (keepH11 _ main_arg5 (by decide)).trans (arg5_at22 m ρ c)
theorem arg5_at24 : W24 m ρ c (Proc.devRef .tc main_arg5) = m ((c : Thread nD τ).loc main_arg5) :=
  (W24_of_ne m ρ c main_arg5 (by decide)).trans (arg5_at23 m ρ c)
theorem arg5_at25 : W25 m ρ c (Proc.devRef .tc main_arg5) = m ((c : Thread nD τ).loc main_arg5) :=
  (keepH12 _ main_arg5 (by decide)).trans (arg5_at24 m ρ c)
theorem arg5_at26 : W26 m ρ c (Proc.devRef .tc main_arg5) = m ((c : Thread nD τ).loc main_arg5) :=
  (W26_of_ne m ρ c main_arg5 (by decide)).trans (arg5_at25 m ρ c)
theorem arg5_at27 : W27 m ρ c (Proc.devRef .tc main_arg5) = m ((c : Thread nD τ).loc main_arg5) :=
  (keepH13 _ main_arg5 (by decide)).trans (arg5_at26 m ρ c)
theorem arg5_at28 : W28 m ρ c (Proc.devRef .tc main_arg5) = m ((c : Thread nD τ).loc main_arg5) :=
  (W28_of_ne m ρ c main_arg5 (by decide)).trans (arg5_at27 m ρ c)
theorem arg5_at29 : W29 m ρ c (Proc.devRef .tc main_arg5) = m ((c : Thread nD τ).loc main_arg5) :=
  (keepH14 _ main_arg5 (by decide)).trans (arg5_at28 m ρ c)
theorem arg5_at30 : W30 m ρ c (Proc.devRef .tc main_arg5) = m ((c : Thread nD τ).loc main_arg5) :=
  (W30_of_ne m ρ c main_arg5 (by decide)).trans (arg5_at29 m ρ c)
theorem arg5_at31 : W31 m ρ c (Proc.devRef .tc main_arg5) = m ((c : Thread nD τ).loc main_arg5) :=
  (keepH15 _ main_arg5 (by decide)).trans (arg5_at30 m ρ c)
theorem arg5_at32 : W32 m ρ c (Proc.devRef .tc main_arg5) = m ((c : Thread nD τ).loc main_arg5) :=
  (W32_of_ne m ρ c main_arg5 (by decide)).trans (arg5_at31 m ρ c)

theorem arg6_at0 : W0 m ρ c (Proc.devRef .tc main_arg6) = m ((c : Thread nD τ).loc main_arg6) := rfl
theorem arg6_at1 : W1 m ρ c (Proc.devRef .tc main_arg6) = m ((c : Thread nD τ).loc main_arg6) :=
  (keepH0 _ main_arg6 (by decide)).trans (arg6_at0 m ρ c)
theorem arg6_at2 : W2 m ρ c (Proc.devRef .tc main_arg6) = m ((c : Thread nD τ).loc main_arg6) :=
  (W2_of_ne m ρ c main_arg6 (by decide)).trans (arg6_at1 m ρ c)
theorem arg6_at3 : W3 m ρ c (Proc.devRef .tc main_arg6) = m ((c : Thread nD τ).loc main_arg6) :=
  (keepH1 _ main_arg6 (by decide)).trans (arg6_at2 m ρ c)
theorem arg6_at4 : W4 m ρ c (Proc.devRef .tc main_arg6) = m ((c : Thread nD τ).loc main_arg6) :=
  (W4_of_ne m ρ c main_arg6 (by decide)).trans (arg6_at3 m ρ c)
theorem arg6_at5 : W5 m ρ c (Proc.devRef .tc main_arg6) = m ((c : Thread nD τ).loc main_arg6) :=
  (keepH2 _ main_arg6 (by decide)).trans (arg6_at4 m ρ c)
theorem arg6_at6 : W6 m ρ c (Proc.devRef .tc main_arg6) = m ((c : Thread nD τ).loc main_arg6) :=
  (W6_of_ne m ρ c main_arg6 (by decide)).trans (arg6_at5 m ρ c)
theorem arg6_at7 : W7 m ρ c (Proc.devRef .tc main_arg6) = m ((c : Thread nD τ).loc main_arg6) :=
  (keepH3 _ main_arg6 (by decide)).trans (arg6_at6 m ρ c)
theorem arg6_at8 : W8 m ρ c (Proc.devRef .tc main_arg6) = m ((c : Thread nD τ).loc main_arg6) :=
  (W8_of_ne m ρ c main_arg6 (by decide)).trans (arg6_at7 m ρ c)
theorem arg6_at9 : W9 m ρ c (Proc.devRef .tc main_arg6) = m ((c : Thread nD τ).loc main_arg6) :=
  (keepH4 _ main_arg6 (by decide)).trans (arg6_at8 m ρ c)
theorem arg6_at10 : W10 m ρ c (Proc.devRef .tc main_arg6) = m ((c : Thread nD τ).loc main_arg6) :=
  (W10_of_ne m ρ c main_arg6 (by decide)).trans (arg6_at9 m ρ c)
theorem arg6_at11 : W11 m ρ c (Proc.devRef .tc main_arg6) = m ((c : Thread nD τ).loc main_arg6) :=
  (keepH5 _ main_arg6 (by decide)).trans (arg6_at10 m ρ c)
theorem arg6_at12 : W12 m ρ c (Proc.devRef .tc main_arg6) = m ((c : Thread nD τ).loc main_arg6) :=
  (W12_of_ne m ρ c main_arg6 (by decide)).trans (arg6_at11 m ρ c)
theorem arg6_at13 : W13 m ρ c (Proc.devRef .tc main_arg6) = m ((c : Thread nD τ).loc main_arg6) :=
  (keepH6 _ main_arg6 (by decide)).trans (arg6_at12 m ρ c)
theorem arg6_at14 : W14 m ρ c (Proc.devRef .tc main_arg6) = m ((c : Thread nD τ).loc main_arg6) :=
  (W14_of_ne m ρ c main_arg6 (by decide)).trans (arg6_at13 m ρ c)
theorem arg6_at15 : W15 m ρ c (Proc.devRef .tc main_arg6) = m ((c : Thread nD τ).loc main_arg6) :=
  (keepH7 _ main_arg6 (by decide)).trans (arg6_at14 m ρ c)
theorem arg6_at16 : W16 m ρ c (Proc.devRef .tc main_arg6) = m ((c : Thread nD τ).loc main_arg6) :=
  (W16_of_ne m ρ c main_arg6 (by decide)).trans (arg6_at15 m ρ c)
theorem arg6_at17 : W17 m ρ c (Proc.devRef .tc main_arg6) = m ((c : Thread nD τ).loc main_arg6) :=
  (keepH8 _ main_arg6 (by decide)).trans (arg6_at16 m ρ c)
theorem arg6_at18 : W18 m ρ c (Proc.devRef .tc main_arg6) = m ((c : Thread nD τ).loc main_arg6) :=
  (W18_of_ne m ρ c main_arg6 (by decide)).trans (arg6_at17 m ρ c)
theorem arg6_at19 : W19 m ρ c (Proc.devRef .tc main_arg6) = m ((c : Thread nD τ).loc main_arg6) :=
  (keepH9 _ main_arg6 (by decide)).trans (arg6_at18 m ρ c)
theorem arg6_at20 : W20 m ρ c (Proc.devRef .tc main_arg6) = m ((c : Thread nD τ).loc main_arg6) :=
  (W20_of_ne m ρ c main_arg6 (by decide)).trans (arg6_at19 m ρ c)
theorem arg6_at21 : W21 m ρ c (Proc.devRef .tc main_arg6) = m ((c : Thread nD τ).loc main_arg6) :=
  (keepH10 _ main_arg6 (by decide)).trans (arg6_at20 m ρ c)
theorem arg6_at22 : W22 m ρ c (Proc.devRef .tc main_arg6) = m ((c : Thread nD τ).loc main_arg6) :=
  (W22_of_ne m ρ c main_arg6 (by decide)).trans (arg6_at21 m ρ c)
theorem arg6_at23 : W23 m ρ c (Proc.devRef .tc main_arg6) = m ((c : Thread nD τ).loc main_arg6) :=
  (keepH11 _ main_arg6 (by decide)).trans (arg6_at22 m ρ c)
theorem arg6_at24 : W24 m ρ c (Proc.devRef .tc main_arg6) = m ((c : Thread nD τ).loc main_arg6) :=
  (W24_of_ne m ρ c main_arg6 (by decide)).trans (arg6_at23 m ρ c)
theorem arg6_at25 : W25 m ρ c (Proc.devRef .tc main_arg6) = m ((c : Thread nD τ).loc main_arg6) :=
  (keepH12 _ main_arg6 (by decide)).trans (arg6_at24 m ρ c)
theorem arg6_at26 : W26 m ρ c (Proc.devRef .tc main_arg6) = m ((c : Thread nD τ).loc main_arg6) :=
  (W26_of_ne m ρ c main_arg6 (by decide)).trans (arg6_at25 m ρ c)
theorem arg6_at27 : W27 m ρ c (Proc.devRef .tc main_arg6) = m ((c : Thread nD τ).loc main_arg6) :=
  (keepH13 _ main_arg6 (by decide)).trans (arg6_at26 m ρ c)
theorem arg6_at28 : W28 m ρ c (Proc.devRef .tc main_arg6) = m ((c : Thread nD τ).loc main_arg6) :=
  (W28_of_ne m ρ c main_arg6 (by decide)).trans (arg6_at27 m ρ c)
theorem arg6_at29 : W29 m ρ c (Proc.devRef .tc main_arg6) = m ((c : Thread nD τ).loc main_arg6) :=
  (keepH14 _ main_arg6 (by decide)).trans (arg6_at28 m ρ c)
theorem arg6_at30 : W30 m ρ c (Proc.devRef .tc main_arg6) = m ((c : Thread nD τ).loc main_arg6) :=
  (W30_of_ne m ρ c main_arg6 (by decide)).trans (arg6_at29 m ρ c)
theorem arg6_at31 : W31 m ρ c (Proc.devRef .tc main_arg6) = m ((c : Thread nD τ).loc main_arg6) :=
  (keepH15 _ main_arg6 (by decide)).trans (arg6_at30 m ρ c)
theorem arg6_at32 : W32 m ρ c (Proc.devRef .tc main_arg6) = m ((c : Thread nD τ).loc main_arg6) :=
  (W32_of_ne m ρ c main_arg6 (by decide)).trans (arg6_at31 m ρ c)

theorem arg7_at0 : W0 m ρ c (Proc.devRef .tc main_arg7) = m ((c : Thread nD τ).loc main_arg7) := rfl
theorem arg7_at1 : W1 m ρ c (Proc.devRef .tc main_arg7) = m ((c : Thread nD τ).loc main_arg7) :=
  (keepH0 _ main_arg7 (by decide)).trans (arg7_at0 m ρ c)
theorem arg7_at2 : W2 m ρ c (Proc.devRef .tc main_arg7) = m ((c : Thread nD τ).loc main_arg7) :=
  (W2_of_ne m ρ c main_arg7 (by decide)).trans (arg7_at1 m ρ c)
theorem arg7_at3 : W3 m ρ c (Proc.devRef .tc main_arg7) = m ((c : Thread nD τ).loc main_arg7) :=
  (keepH1 _ main_arg7 (by decide)).trans (arg7_at2 m ρ c)
theorem arg7_at4 : W4 m ρ c (Proc.devRef .tc main_arg7) = m ((c : Thread nD τ).loc main_arg7) :=
  (W4_of_ne m ρ c main_arg7 (by decide)).trans (arg7_at3 m ρ c)
theorem arg7_at5 : W5 m ρ c (Proc.devRef .tc main_arg7) = m ((c : Thread nD τ).loc main_arg7) :=
  (keepH2 _ main_arg7 (by decide)).trans (arg7_at4 m ρ c)
theorem arg7_at6 : W6 m ρ c (Proc.devRef .tc main_arg7) = m ((c : Thread nD τ).loc main_arg7) :=
  (W6_of_ne m ρ c main_arg7 (by decide)).trans (arg7_at5 m ρ c)
theorem arg7_at7 : W7 m ρ c (Proc.devRef .tc main_arg7) = m ((c : Thread nD τ).loc main_arg7) :=
  (keepH3 _ main_arg7 (by decide)).trans (arg7_at6 m ρ c)
theorem arg7_at8 : W8 m ρ c (Proc.devRef .tc main_arg7) = m ((c : Thread nD τ).loc main_arg7) :=
  (W8_of_ne m ρ c main_arg7 (by decide)).trans (arg7_at7 m ρ c)
theorem arg7_at9 : W9 m ρ c (Proc.devRef .tc main_arg7) = m ((c : Thread nD τ).loc main_arg7) :=
  (keepH4 _ main_arg7 (by decide)).trans (arg7_at8 m ρ c)
theorem arg7_at10 : W10 m ρ c (Proc.devRef .tc main_arg7) = m ((c : Thread nD τ).loc main_arg7) :=
  (W10_of_ne m ρ c main_arg7 (by decide)).trans (arg7_at9 m ρ c)
theorem arg7_at11 : W11 m ρ c (Proc.devRef .tc main_arg7) = m ((c : Thread nD τ).loc main_arg7) :=
  (keepH5 _ main_arg7 (by decide)).trans (arg7_at10 m ρ c)
theorem arg7_at12 : W12 m ρ c (Proc.devRef .tc main_arg7) = m ((c : Thread nD τ).loc main_arg7) :=
  (W12_of_ne m ρ c main_arg7 (by decide)).trans (arg7_at11 m ρ c)
theorem arg7_at13 : W13 m ρ c (Proc.devRef .tc main_arg7) = m ((c : Thread nD τ).loc main_arg7) :=
  (keepH6 _ main_arg7 (by decide)).trans (arg7_at12 m ρ c)
theorem arg7_at14 : W14 m ρ c (Proc.devRef .tc main_arg7) = m ((c : Thread nD τ).loc main_arg7) :=
  (W14_of_ne m ρ c main_arg7 (by decide)).trans (arg7_at13 m ρ c)
theorem arg7_at15 : W15 m ρ c (Proc.devRef .tc main_arg7) = m ((c : Thread nD τ).loc main_arg7) :=
  (keepH7 _ main_arg7 (by decide)).trans (arg7_at14 m ρ c)
theorem arg7_at16 : W16 m ρ c (Proc.devRef .tc main_arg7) = m ((c : Thread nD τ).loc main_arg7) :=
  (W16_of_ne m ρ c main_arg7 (by decide)).trans (arg7_at15 m ρ c)
theorem arg7_at17 : W17 m ρ c (Proc.devRef .tc main_arg7) = m ((c : Thread nD τ).loc main_arg7) :=
  (keepH8 _ main_arg7 (by decide)).trans (arg7_at16 m ρ c)
theorem arg7_at18 : W18 m ρ c (Proc.devRef .tc main_arg7) = m ((c : Thread nD τ).loc main_arg7) :=
  (W18_of_ne m ρ c main_arg7 (by decide)).trans (arg7_at17 m ρ c)
theorem arg7_at19 : W19 m ρ c (Proc.devRef .tc main_arg7) = m ((c : Thread nD τ).loc main_arg7) :=
  (keepH9 _ main_arg7 (by decide)).trans (arg7_at18 m ρ c)
theorem arg7_at20 : W20 m ρ c (Proc.devRef .tc main_arg7) = m ((c : Thread nD τ).loc main_arg7) :=
  (W20_of_ne m ρ c main_arg7 (by decide)).trans (arg7_at19 m ρ c)
theorem arg7_at21 : W21 m ρ c (Proc.devRef .tc main_arg7) = m ((c : Thread nD τ).loc main_arg7) :=
  (keepH10 _ main_arg7 (by decide)).trans (arg7_at20 m ρ c)
theorem arg7_at22 : W22 m ρ c (Proc.devRef .tc main_arg7) = m ((c : Thread nD τ).loc main_arg7) :=
  (W22_of_ne m ρ c main_arg7 (by decide)).trans (arg7_at21 m ρ c)
theorem arg7_at23 : W23 m ρ c (Proc.devRef .tc main_arg7) = m ((c : Thread nD τ).loc main_arg7) :=
  (keepH11 _ main_arg7 (by decide)).trans (arg7_at22 m ρ c)
theorem arg7_at24 : W24 m ρ c (Proc.devRef .tc main_arg7) = m ((c : Thread nD τ).loc main_arg7) :=
  (W24_of_ne m ρ c main_arg7 (by decide)).trans (arg7_at23 m ρ c)
theorem arg7_at25 : W25 m ρ c (Proc.devRef .tc main_arg7) = m ((c : Thread nD τ).loc main_arg7) :=
  (keepH12 _ main_arg7 (by decide)).trans (arg7_at24 m ρ c)
theorem arg7_at26 : W26 m ρ c (Proc.devRef .tc main_arg7) = m ((c : Thread nD τ).loc main_arg7) :=
  (W26_of_ne m ρ c main_arg7 (by decide)).trans (arg7_at25 m ρ c)
theorem arg7_at27 : W27 m ρ c (Proc.devRef .tc main_arg7) = m ((c : Thread nD τ).loc main_arg7) :=
  (keepH13 _ main_arg7 (by decide)).trans (arg7_at26 m ρ c)
theorem arg7_at28 : W28 m ρ c (Proc.devRef .tc main_arg7) = m ((c : Thread nD τ).loc main_arg7) :=
  (W28_of_ne m ρ c main_arg7 (by decide)).trans (arg7_at27 m ρ c)
theorem arg7_at29 : W29 m ρ c (Proc.devRef .tc main_arg7) = m ((c : Thread nD τ).loc main_arg7) :=
  (keepH14 _ main_arg7 (by decide)).trans (arg7_at28 m ρ c)
theorem arg7_at30 : W30 m ρ c (Proc.devRef .tc main_arg7) = m ((c : Thread nD τ).loc main_arg7) :=
  (W30_of_ne m ρ c main_arg7 (by decide)).trans (arg7_at29 m ρ c)
theorem arg7_at31 : W31 m ρ c (Proc.devRef .tc main_arg7) = m ((c : Thread nD τ).loc main_arg7) :=
  (keepH15 _ main_arg7 (by decide)).trans (arg7_at30 m ρ c)
theorem arg7_at32 : W32 m ρ c (Proc.devRef .tc main_arg7) = m ((c : Thread nD τ).loc main_arg7) :=
  (W32_of_ne m ρ c main_arg7 (by decide)).trans (arg7_at31 m ρ c)

theorem arg8_at0 : W0 m ρ c (Proc.devRef .tc main_arg8) = m ((c : Thread nD τ).loc main_arg8) := rfl
theorem arg8_at1 : W1 m ρ c (Proc.devRef .tc main_arg8) = m ((c : Thread nD τ).loc main_arg8) :=
  (keepH0 _ main_arg8 (by decide)).trans (arg8_at0 m ρ c)
theorem arg8_at2 : W2 m ρ c (Proc.devRef .tc main_arg8) = m ((c : Thread nD τ).loc main_arg8) :=
  (W2_of_ne m ρ c main_arg8 (by decide)).trans (arg8_at1 m ρ c)
theorem arg8_at3 : W3 m ρ c (Proc.devRef .tc main_arg8) = m ((c : Thread nD τ).loc main_arg8) :=
  (keepH1 _ main_arg8 (by decide)).trans (arg8_at2 m ρ c)
theorem arg8_at4 : W4 m ρ c (Proc.devRef .tc main_arg8) = m ((c : Thread nD τ).loc main_arg8) :=
  (W4_of_ne m ρ c main_arg8 (by decide)).trans (arg8_at3 m ρ c)
theorem arg8_at5 : W5 m ρ c (Proc.devRef .tc main_arg8) = m ((c : Thread nD τ).loc main_arg8) :=
  (keepH2 _ main_arg8 (by decide)).trans (arg8_at4 m ρ c)
theorem arg8_at6 : W6 m ρ c (Proc.devRef .tc main_arg8) = m ((c : Thread nD τ).loc main_arg8) :=
  (W6_of_ne m ρ c main_arg8 (by decide)).trans (arg8_at5 m ρ c)
theorem arg8_at7 : W7 m ρ c (Proc.devRef .tc main_arg8) = m ((c : Thread nD τ).loc main_arg8) :=
  (keepH3 _ main_arg8 (by decide)).trans (arg8_at6 m ρ c)
theorem arg8_at8 : W8 m ρ c (Proc.devRef .tc main_arg8) = m ((c : Thread nD τ).loc main_arg8) :=
  (W8_of_ne m ρ c main_arg8 (by decide)).trans (arg8_at7 m ρ c)
theorem arg8_at9 : W9 m ρ c (Proc.devRef .tc main_arg8) = m ((c : Thread nD τ).loc main_arg8) :=
  (keepH4 _ main_arg8 (by decide)).trans (arg8_at8 m ρ c)
theorem arg8_at10 : W10 m ρ c (Proc.devRef .tc main_arg8) = m ((c : Thread nD τ).loc main_arg8) :=
  (W10_of_ne m ρ c main_arg8 (by decide)).trans (arg8_at9 m ρ c)
theorem arg8_at11 : W11 m ρ c (Proc.devRef .tc main_arg8) = m ((c : Thread nD τ).loc main_arg8) :=
  (keepH5 _ main_arg8 (by decide)).trans (arg8_at10 m ρ c)
theorem arg8_at12 : W12 m ρ c (Proc.devRef .tc main_arg8) = m ((c : Thread nD τ).loc main_arg8) :=
  (W12_of_ne m ρ c main_arg8 (by decide)).trans (arg8_at11 m ρ c)
theorem arg8_at13 : W13 m ρ c (Proc.devRef .tc main_arg8) = m ((c : Thread nD τ).loc main_arg8) :=
  (keepH6 _ main_arg8 (by decide)).trans (arg8_at12 m ρ c)
theorem arg8_at14 : W14 m ρ c (Proc.devRef .tc main_arg8) = m ((c : Thread nD τ).loc main_arg8) :=
  (W14_of_ne m ρ c main_arg8 (by decide)).trans (arg8_at13 m ρ c)
theorem arg8_at15 : W15 m ρ c (Proc.devRef .tc main_arg8) = m ((c : Thread nD τ).loc main_arg8) :=
  (keepH7 _ main_arg8 (by decide)).trans (arg8_at14 m ρ c)
theorem arg8_at16 : W16 m ρ c (Proc.devRef .tc main_arg8) = m ((c : Thread nD τ).loc main_arg8) :=
  (W16_of_ne m ρ c main_arg8 (by decide)).trans (arg8_at15 m ρ c)
theorem arg8_at17 : W17 m ρ c (Proc.devRef .tc main_arg8) = m ((c : Thread nD τ).loc main_arg8) :=
  (keepH8 _ main_arg8 (by decide)).trans (arg8_at16 m ρ c)
theorem arg8_at18 : W18 m ρ c (Proc.devRef .tc main_arg8) = m ((c : Thread nD τ).loc main_arg8) :=
  (W18_of_ne m ρ c main_arg8 (by decide)).trans (arg8_at17 m ρ c)
theorem arg8_at19 : W19 m ρ c (Proc.devRef .tc main_arg8) = m ((c : Thread nD τ).loc main_arg8) :=
  (keepH9 _ main_arg8 (by decide)).trans (arg8_at18 m ρ c)
theorem arg8_at20 : W20 m ρ c (Proc.devRef .tc main_arg8) = m ((c : Thread nD τ).loc main_arg8) :=
  (W20_of_ne m ρ c main_arg8 (by decide)).trans (arg8_at19 m ρ c)
theorem arg8_at21 : W21 m ρ c (Proc.devRef .tc main_arg8) = m ((c : Thread nD τ).loc main_arg8) :=
  (keepH10 _ main_arg8 (by decide)).trans (arg8_at20 m ρ c)
theorem arg8_at22 : W22 m ρ c (Proc.devRef .tc main_arg8) = m ((c : Thread nD τ).loc main_arg8) :=
  (W22_of_ne m ρ c main_arg8 (by decide)).trans (arg8_at21 m ρ c)
theorem arg8_at23 : W23 m ρ c (Proc.devRef .tc main_arg8) = m ((c : Thread nD τ).loc main_arg8) :=
  (keepH11 _ main_arg8 (by decide)).trans (arg8_at22 m ρ c)
theorem arg8_at24 : W24 m ρ c (Proc.devRef .tc main_arg8) = m ((c : Thread nD τ).loc main_arg8) :=
  (W24_of_ne m ρ c main_arg8 (by decide)).trans (arg8_at23 m ρ c)
theorem arg8_at25 : W25 m ρ c (Proc.devRef .tc main_arg8) = m ((c : Thread nD τ).loc main_arg8) :=
  (keepH12 _ main_arg8 (by decide)).trans (arg8_at24 m ρ c)
theorem arg8_at26 : W26 m ρ c (Proc.devRef .tc main_arg8) = m ((c : Thread nD τ).loc main_arg8) :=
  (W26_of_ne m ρ c main_arg8 (by decide)).trans (arg8_at25 m ρ c)
theorem arg8_at27 : W27 m ρ c (Proc.devRef .tc main_arg8) = m ((c : Thread nD τ).loc main_arg8) :=
  (keepH13 _ main_arg8 (by decide)).trans (arg8_at26 m ρ c)
theorem arg8_at28 : W28 m ρ c (Proc.devRef .tc main_arg8) = m ((c : Thread nD τ).loc main_arg8) :=
  (W28_of_ne m ρ c main_arg8 (by decide)).trans (arg8_at27 m ρ c)
theorem arg8_at29 : W29 m ρ c (Proc.devRef .tc main_arg8) = m ((c : Thread nD τ).loc main_arg8) :=
  (keepH14 _ main_arg8 (by decide)).trans (arg8_at28 m ρ c)
theorem arg8_at30 : W30 m ρ c (Proc.devRef .tc main_arg8) = m ((c : Thread nD τ).loc main_arg8) :=
  (W30_of_ne m ρ c main_arg8 (by decide)).trans (arg8_at29 m ρ c)
theorem arg8_at31 : W31 m ρ c (Proc.devRef .tc main_arg8) = m ((c : Thread nD τ).loc main_arg8) :=
  (keepH15 _ main_arg8 (by decide)).trans (arg8_at30 m ρ c)
theorem arg8_at32 : W32 m ρ c (Proc.devRef .tc main_arg8) = m ((c : Thread nD τ).loc main_arg8) :=
  (W32_of_ne m ρ c main_arg8 (by decide)).trans (arg8_at31 m ρ c)

theorem arg9_at0 : W0 m ρ c (Proc.devRef .tc main_arg9) = m ((c : Thread nD τ).loc main_arg9) := rfl
theorem arg9_at1 : W1 m ρ c (Proc.devRef .tc main_arg9) = m ((c : Thread nD τ).loc main_arg9) :=
  (keepH0 _ main_arg9 (by decide)).trans (arg9_at0 m ρ c)
theorem arg9_at2 : W2 m ρ c (Proc.devRef .tc main_arg9) = m ((c : Thread nD τ).loc main_arg9) :=
  (W2_of_ne m ρ c main_arg9 (by decide)).trans (arg9_at1 m ρ c)
theorem arg9_at3 : W3 m ρ c (Proc.devRef .tc main_arg9) = m ((c : Thread nD τ).loc main_arg9) :=
  (keepH1 _ main_arg9 (by decide)).trans (arg9_at2 m ρ c)
theorem arg9_at4 : W4 m ρ c (Proc.devRef .tc main_arg9) = m ((c : Thread nD τ).loc main_arg9) :=
  (W4_of_ne m ρ c main_arg9 (by decide)).trans (arg9_at3 m ρ c)
theorem arg9_at5 : W5 m ρ c (Proc.devRef .tc main_arg9) = m ((c : Thread nD τ).loc main_arg9) :=
  (keepH2 _ main_arg9 (by decide)).trans (arg9_at4 m ρ c)
theorem arg9_at6 : W6 m ρ c (Proc.devRef .tc main_arg9) = m ((c : Thread nD τ).loc main_arg9) :=
  (W6_of_ne m ρ c main_arg9 (by decide)).trans (arg9_at5 m ρ c)
theorem arg9_at7 : W7 m ρ c (Proc.devRef .tc main_arg9) = m ((c : Thread nD τ).loc main_arg9) :=
  (keepH3 _ main_arg9 (by decide)).trans (arg9_at6 m ρ c)
theorem arg9_at8 : W8 m ρ c (Proc.devRef .tc main_arg9) = m ((c : Thread nD τ).loc main_arg9) :=
  (W8_of_ne m ρ c main_arg9 (by decide)).trans (arg9_at7 m ρ c)
theorem arg9_at9 : W9 m ρ c (Proc.devRef .tc main_arg9) = m ((c : Thread nD τ).loc main_arg9) :=
  (keepH4 _ main_arg9 (by decide)).trans (arg9_at8 m ρ c)
theorem arg9_at10 : W10 m ρ c (Proc.devRef .tc main_arg9) = m ((c : Thread nD τ).loc main_arg9) :=
  (W10_of_ne m ρ c main_arg9 (by decide)).trans (arg9_at9 m ρ c)
theorem arg9_at11 : W11 m ρ c (Proc.devRef .tc main_arg9) = m ((c : Thread nD τ).loc main_arg9) :=
  (keepH5 _ main_arg9 (by decide)).trans (arg9_at10 m ρ c)
theorem arg9_at12 : W12 m ρ c (Proc.devRef .tc main_arg9) = m ((c : Thread nD τ).loc main_arg9) :=
  (W12_of_ne m ρ c main_arg9 (by decide)).trans (arg9_at11 m ρ c)
theorem arg9_at13 : W13 m ρ c (Proc.devRef .tc main_arg9) = m ((c : Thread nD τ).loc main_arg9) :=
  (keepH6 _ main_arg9 (by decide)).trans (arg9_at12 m ρ c)
theorem arg9_at14 : W14 m ρ c (Proc.devRef .tc main_arg9) = m ((c : Thread nD τ).loc main_arg9) :=
  (W14_of_ne m ρ c main_arg9 (by decide)).trans (arg9_at13 m ρ c)
theorem arg9_at15 : W15 m ρ c (Proc.devRef .tc main_arg9) = m ((c : Thread nD τ).loc main_arg9) :=
  (keepH7 _ main_arg9 (by decide)).trans (arg9_at14 m ρ c)
theorem arg9_at16 : W16 m ρ c (Proc.devRef .tc main_arg9) = m ((c : Thread nD τ).loc main_arg9) :=
  (W16_of_ne m ρ c main_arg9 (by decide)).trans (arg9_at15 m ρ c)
theorem arg9_at17 : W17 m ρ c (Proc.devRef .tc main_arg9) = m ((c : Thread nD τ).loc main_arg9) :=
  (keepH8 _ main_arg9 (by decide)).trans (arg9_at16 m ρ c)
theorem arg9_at18 : W18 m ρ c (Proc.devRef .tc main_arg9) = m ((c : Thread nD τ).loc main_arg9) :=
  (W18_of_ne m ρ c main_arg9 (by decide)).trans (arg9_at17 m ρ c)
theorem arg9_at19 : W19 m ρ c (Proc.devRef .tc main_arg9) = m ((c : Thread nD τ).loc main_arg9) :=
  (keepH9 _ main_arg9 (by decide)).trans (arg9_at18 m ρ c)
theorem arg9_at20 : W20 m ρ c (Proc.devRef .tc main_arg9) = m ((c : Thread nD τ).loc main_arg9) :=
  (W20_of_ne m ρ c main_arg9 (by decide)).trans (arg9_at19 m ρ c)
theorem arg9_at21 : W21 m ρ c (Proc.devRef .tc main_arg9) = m ((c : Thread nD τ).loc main_arg9) :=
  (keepH10 _ main_arg9 (by decide)).trans (arg9_at20 m ρ c)
theorem arg9_at22 : W22 m ρ c (Proc.devRef .tc main_arg9) = m ((c : Thread nD τ).loc main_arg9) :=
  (W22_of_ne m ρ c main_arg9 (by decide)).trans (arg9_at21 m ρ c)
theorem arg9_at23 : W23 m ρ c (Proc.devRef .tc main_arg9) = m ((c : Thread nD τ).loc main_arg9) :=
  (keepH11 _ main_arg9 (by decide)).trans (arg9_at22 m ρ c)
theorem arg9_at24 : W24 m ρ c (Proc.devRef .tc main_arg9) = m ((c : Thread nD τ).loc main_arg9) :=
  (W24_of_ne m ρ c main_arg9 (by decide)).trans (arg9_at23 m ρ c)
theorem arg9_at25 : W25 m ρ c (Proc.devRef .tc main_arg9) = m ((c : Thread nD τ).loc main_arg9) :=
  (keepH12 _ main_arg9 (by decide)).trans (arg9_at24 m ρ c)
theorem arg9_at26 : W26 m ρ c (Proc.devRef .tc main_arg9) = m ((c : Thread nD τ).loc main_arg9) :=
  (W26_of_ne m ρ c main_arg9 (by decide)).trans (arg9_at25 m ρ c)
theorem arg9_at27 : W27 m ρ c (Proc.devRef .tc main_arg9) = m ((c : Thread nD τ).loc main_arg9) :=
  (keepH13 _ main_arg9 (by decide)).trans (arg9_at26 m ρ c)
theorem arg9_at28 : W28 m ρ c (Proc.devRef .tc main_arg9) = m ((c : Thread nD τ).loc main_arg9) :=
  (W28_of_ne m ρ c main_arg9 (by decide)).trans (arg9_at27 m ρ c)
theorem arg9_at29 : W29 m ρ c (Proc.devRef .tc main_arg9) = m ((c : Thread nD τ).loc main_arg9) :=
  (keepH14 _ main_arg9 (by decide)).trans (arg9_at28 m ρ c)
theorem arg9_at30 : W30 m ρ c (Proc.devRef .tc main_arg9) = m ((c : Thread nD τ).loc main_arg9) :=
  (W30_of_ne m ρ c main_arg9 (by decide)).trans (arg9_at29 m ρ c)
theorem arg9_at31 : W31 m ρ c (Proc.devRef .tc main_arg9) = m ((c : Thread nD τ).loc main_arg9) :=
  (keepH15 _ main_arg9 (by decide)).trans (arg9_at30 m ρ c)
theorem arg9_at32 : W32 m ρ c (Proc.devRef .tc main_arg9) = m ((c : Thread nD τ).loc main_arg9) :=
  (W32_of_ne m ρ c main_arg9 (by decide)).trans (arg9_at31 m ρ c)

theorem arg10_at0 : W0 m ρ c (Proc.devRef .tc main_arg10) = m ((c : Thread nD τ).loc main_arg10) := rfl
theorem arg10_at1 : W1 m ρ c (Proc.devRef .tc main_arg10) = m ((c : Thread nD τ).loc main_arg10) :=
  (keepH0 _ main_arg10 (by decide)).trans (arg10_at0 m ρ c)
theorem arg10_at2 : W2 m ρ c (Proc.devRef .tc main_arg10) = m ((c : Thread nD τ).loc main_arg10) :=
  (W2_of_ne m ρ c main_arg10 (by decide)).trans (arg10_at1 m ρ c)
theorem arg10_at3 : W3 m ρ c (Proc.devRef .tc main_arg10) = m ((c : Thread nD τ).loc main_arg10) :=
  (keepH1 _ main_arg10 (by decide)).trans (arg10_at2 m ρ c)
theorem arg10_at4 : W4 m ρ c (Proc.devRef .tc main_arg10) = m ((c : Thread nD τ).loc main_arg10) :=
  (W4_of_ne m ρ c main_arg10 (by decide)).trans (arg10_at3 m ρ c)
theorem arg10_at5 : W5 m ρ c (Proc.devRef .tc main_arg10) = m ((c : Thread nD τ).loc main_arg10) :=
  (keepH2 _ main_arg10 (by decide)).trans (arg10_at4 m ρ c)
theorem arg10_at6 : W6 m ρ c (Proc.devRef .tc main_arg10) = m ((c : Thread nD τ).loc main_arg10) :=
  (W6_of_ne m ρ c main_arg10 (by decide)).trans (arg10_at5 m ρ c)
theorem arg10_at7 : W7 m ρ c (Proc.devRef .tc main_arg10) = m ((c : Thread nD τ).loc main_arg10) :=
  (keepH3 _ main_arg10 (by decide)).trans (arg10_at6 m ρ c)
theorem arg10_at8 : W8 m ρ c (Proc.devRef .tc main_arg10) = m ((c : Thread nD τ).loc main_arg10) :=
  (W8_of_ne m ρ c main_arg10 (by decide)).trans (arg10_at7 m ρ c)
theorem arg10_at9 : W9 m ρ c (Proc.devRef .tc main_arg10) = m ((c : Thread nD τ).loc main_arg10) :=
  (keepH4 _ main_arg10 (by decide)).trans (arg10_at8 m ρ c)
theorem arg10_at10 : W10 m ρ c (Proc.devRef .tc main_arg10) = m ((c : Thread nD τ).loc main_arg10) :=
  (W10_of_ne m ρ c main_arg10 (by decide)).trans (arg10_at9 m ρ c)
theorem arg10_at11 : W11 m ρ c (Proc.devRef .tc main_arg10) = m ((c : Thread nD τ).loc main_arg10) :=
  (keepH5 _ main_arg10 (by decide)).trans (arg10_at10 m ρ c)
theorem arg10_at12 : W12 m ρ c (Proc.devRef .tc main_arg10) = m ((c : Thread nD τ).loc main_arg10) :=
  (W12_of_ne m ρ c main_arg10 (by decide)).trans (arg10_at11 m ρ c)
theorem arg10_at13 : W13 m ρ c (Proc.devRef .tc main_arg10) = m ((c : Thread nD τ).loc main_arg10) :=
  (keepH6 _ main_arg10 (by decide)).trans (arg10_at12 m ρ c)
theorem arg10_at14 : W14 m ρ c (Proc.devRef .tc main_arg10) = m ((c : Thread nD τ).loc main_arg10) :=
  (W14_of_ne m ρ c main_arg10 (by decide)).trans (arg10_at13 m ρ c)
theorem arg10_at15 : W15 m ρ c (Proc.devRef .tc main_arg10) = m ((c : Thread nD τ).loc main_arg10) :=
  (keepH7 _ main_arg10 (by decide)).trans (arg10_at14 m ρ c)
theorem arg10_at16 : W16 m ρ c (Proc.devRef .tc main_arg10) = m ((c : Thread nD τ).loc main_arg10) :=
  (W16_of_ne m ρ c main_arg10 (by decide)).trans (arg10_at15 m ρ c)
theorem arg10_at17 : W17 m ρ c (Proc.devRef .tc main_arg10) = m ((c : Thread nD τ).loc main_arg10) :=
  (keepH8 _ main_arg10 (by decide)).trans (arg10_at16 m ρ c)
theorem arg10_at18 : W18 m ρ c (Proc.devRef .tc main_arg10) = m ((c : Thread nD τ).loc main_arg10) :=
  (W18_of_ne m ρ c main_arg10 (by decide)).trans (arg10_at17 m ρ c)
theorem arg10_at19 : W19 m ρ c (Proc.devRef .tc main_arg10) = m ((c : Thread nD τ).loc main_arg10) :=
  (keepH9 _ main_arg10 (by decide)).trans (arg10_at18 m ρ c)
theorem arg10_at20 : W20 m ρ c (Proc.devRef .tc main_arg10) = m ((c : Thread nD τ).loc main_arg10) :=
  (W20_of_ne m ρ c main_arg10 (by decide)).trans (arg10_at19 m ρ c)
theorem arg10_at21 : W21 m ρ c (Proc.devRef .tc main_arg10) = m ((c : Thread nD τ).loc main_arg10) :=
  (keepH10 _ main_arg10 (by decide)).trans (arg10_at20 m ρ c)
theorem arg10_at22 : W22 m ρ c (Proc.devRef .tc main_arg10) = m ((c : Thread nD τ).loc main_arg10) :=
  (W22_of_ne m ρ c main_arg10 (by decide)).trans (arg10_at21 m ρ c)
theorem arg10_at23 : W23 m ρ c (Proc.devRef .tc main_arg10) = m ((c : Thread nD τ).loc main_arg10) :=
  (keepH11 _ main_arg10 (by decide)).trans (arg10_at22 m ρ c)
theorem arg10_at24 : W24 m ρ c (Proc.devRef .tc main_arg10) = m ((c : Thread nD τ).loc main_arg10) :=
  (W24_of_ne m ρ c main_arg10 (by decide)).trans (arg10_at23 m ρ c)
theorem arg10_at25 : W25 m ρ c (Proc.devRef .tc main_arg10) = m ((c : Thread nD τ).loc main_arg10) :=
  (keepH12 _ main_arg10 (by decide)).trans (arg10_at24 m ρ c)
theorem arg10_at26 : W26 m ρ c (Proc.devRef .tc main_arg10) = m ((c : Thread nD τ).loc main_arg10) :=
  (W26_of_ne m ρ c main_arg10 (by decide)).trans (arg10_at25 m ρ c)
theorem arg10_at27 : W27 m ρ c (Proc.devRef .tc main_arg10) = m ((c : Thread nD τ).loc main_arg10) :=
  (keepH13 _ main_arg10 (by decide)).trans (arg10_at26 m ρ c)
theorem arg10_at28 : W28 m ρ c (Proc.devRef .tc main_arg10) = m ((c : Thread nD τ).loc main_arg10) :=
  (W28_of_ne m ρ c main_arg10 (by decide)).trans (arg10_at27 m ρ c)
theorem arg10_at29 : W29 m ρ c (Proc.devRef .tc main_arg10) = m ((c : Thread nD τ).loc main_arg10) :=
  (keepH14 _ main_arg10 (by decide)).trans (arg10_at28 m ρ c)
theorem arg10_at30 : W30 m ρ c (Proc.devRef .tc main_arg10) = m ((c : Thread nD τ).loc main_arg10) :=
  (W30_of_ne m ρ c main_arg10 (by decide)).trans (arg10_at29 m ρ c)
theorem arg10_at31 : W31 m ρ c (Proc.devRef .tc main_arg10) = m ((c : Thread nD τ).loc main_arg10) :=
  (keepH15 _ main_arg10 (by decide)).trans (arg10_at30 m ρ c)
theorem arg10_at32 : W32 m ρ c (Proc.devRef .tc main_arg10) = m ((c : Thread nD τ).loc main_arg10) :=
  (W32_of_ne m ρ c main_arg10 (by decide)).trans (arg10_at31 m ρ c)

theorem arg11_at0 : W0 m ρ c (Proc.devRef .tc main_arg11) = m ((c : Thread nD τ).loc main_arg11) := rfl
theorem arg11_at1 : W1 m ρ c (Proc.devRef .tc main_arg11) = m ((c : Thread nD τ).loc main_arg11) :=
  (keepH0 _ main_arg11 (by decide)).trans (arg11_at0 m ρ c)
theorem arg11_at2 : W2 m ρ c (Proc.devRef .tc main_arg11) = m ((c : Thread nD τ).loc main_arg11) :=
  (W2_of_ne m ρ c main_arg11 (by decide)).trans (arg11_at1 m ρ c)
theorem arg11_at3 : W3 m ρ c (Proc.devRef .tc main_arg11) = m ((c : Thread nD τ).loc main_arg11) :=
  (keepH1 _ main_arg11 (by decide)).trans (arg11_at2 m ρ c)
theorem arg11_at4 : W4 m ρ c (Proc.devRef .tc main_arg11) = m ((c : Thread nD τ).loc main_arg11) :=
  (W4_of_ne m ρ c main_arg11 (by decide)).trans (arg11_at3 m ρ c)
theorem arg11_at5 : W5 m ρ c (Proc.devRef .tc main_arg11) = m ((c : Thread nD τ).loc main_arg11) :=
  (keepH2 _ main_arg11 (by decide)).trans (arg11_at4 m ρ c)
theorem arg11_at6 : W6 m ρ c (Proc.devRef .tc main_arg11) = m ((c : Thread nD τ).loc main_arg11) :=
  (W6_of_ne m ρ c main_arg11 (by decide)).trans (arg11_at5 m ρ c)
theorem arg11_at7 : W7 m ρ c (Proc.devRef .tc main_arg11) = m ((c : Thread nD τ).loc main_arg11) :=
  (keepH3 _ main_arg11 (by decide)).trans (arg11_at6 m ρ c)
theorem arg11_at8 : W8 m ρ c (Proc.devRef .tc main_arg11) = m ((c : Thread nD τ).loc main_arg11) :=
  (W8_of_ne m ρ c main_arg11 (by decide)).trans (arg11_at7 m ρ c)
theorem arg11_at9 : W9 m ρ c (Proc.devRef .tc main_arg11) = m ((c : Thread nD τ).loc main_arg11) :=
  (keepH4 _ main_arg11 (by decide)).trans (arg11_at8 m ρ c)
theorem arg11_at10 : W10 m ρ c (Proc.devRef .tc main_arg11) = m ((c : Thread nD τ).loc main_arg11) :=
  (W10_of_ne m ρ c main_arg11 (by decide)).trans (arg11_at9 m ρ c)
theorem arg11_at11 : W11 m ρ c (Proc.devRef .tc main_arg11) = m ((c : Thread nD τ).loc main_arg11) :=
  (keepH5 _ main_arg11 (by decide)).trans (arg11_at10 m ρ c)
theorem arg11_at12 : W12 m ρ c (Proc.devRef .tc main_arg11) = m ((c : Thread nD τ).loc main_arg11) :=
  (W12_of_ne m ρ c main_arg11 (by decide)).trans (arg11_at11 m ρ c)
theorem arg11_at13 : W13 m ρ c (Proc.devRef .tc main_arg11) = m ((c : Thread nD τ).loc main_arg11) :=
  (keepH6 _ main_arg11 (by decide)).trans (arg11_at12 m ρ c)
theorem arg11_at14 : W14 m ρ c (Proc.devRef .tc main_arg11) = m ((c : Thread nD τ).loc main_arg11) :=
  (W14_of_ne m ρ c main_arg11 (by decide)).trans (arg11_at13 m ρ c)
theorem arg11_at15 : W15 m ρ c (Proc.devRef .tc main_arg11) = m ((c : Thread nD τ).loc main_arg11) :=
  (keepH7 _ main_arg11 (by decide)).trans (arg11_at14 m ρ c)
theorem arg11_at16 : W16 m ρ c (Proc.devRef .tc main_arg11) = m ((c : Thread nD τ).loc main_arg11) :=
  (W16_of_ne m ρ c main_arg11 (by decide)).trans (arg11_at15 m ρ c)
theorem arg11_at17 : W17 m ρ c (Proc.devRef .tc main_arg11) = m ((c : Thread nD τ).loc main_arg11) :=
  (keepH8 _ main_arg11 (by decide)).trans (arg11_at16 m ρ c)
theorem arg11_at18 : W18 m ρ c (Proc.devRef .tc main_arg11) = m ((c : Thread nD τ).loc main_arg11) :=
  (W18_of_ne m ρ c main_arg11 (by decide)).trans (arg11_at17 m ρ c)
theorem arg11_at19 : W19 m ρ c (Proc.devRef .tc main_arg11) = m ((c : Thread nD τ).loc main_arg11) :=
  (keepH9 _ main_arg11 (by decide)).trans (arg11_at18 m ρ c)
theorem arg11_at20 : W20 m ρ c (Proc.devRef .tc main_arg11) = m ((c : Thread nD τ).loc main_arg11) :=
  (W20_of_ne m ρ c main_arg11 (by decide)).trans (arg11_at19 m ρ c)
theorem arg11_at21 : W21 m ρ c (Proc.devRef .tc main_arg11) = m ((c : Thread nD τ).loc main_arg11) :=
  (keepH10 _ main_arg11 (by decide)).trans (arg11_at20 m ρ c)
theorem arg11_at22 : W22 m ρ c (Proc.devRef .tc main_arg11) = m ((c : Thread nD τ).loc main_arg11) :=
  (W22_of_ne m ρ c main_arg11 (by decide)).trans (arg11_at21 m ρ c)
theorem arg11_at23 : W23 m ρ c (Proc.devRef .tc main_arg11) = m ((c : Thread nD τ).loc main_arg11) :=
  (keepH11 _ main_arg11 (by decide)).trans (arg11_at22 m ρ c)
theorem arg11_at24 : W24 m ρ c (Proc.devRef .tc main_arg11) = m ((c : Thread nD τ).loc main_arg11) :=
  (W24_of_ne m ρ c main_arg11 (by decide)).trans (arg11_at23 m ρ c)
theorem arg11_at25 : W25 m ρ c (Proc.devRef .tc main_arg11) = m ((c : Thread nD τ).loc main_arg11) :=
  (keepH12 _ main_arg11 (by decide)).trans (arg11_at24 m ρ c)
theorem arg11_at26 : W26 m ρ c (Proc.devRef .tc main_arg11) = m ((c : Thread nD τ).loc main_arg11) :=
  (W26_of_ne m ρ c main_arg11 (by decide)).trans (arg11_at25 m ρ c)
theorem arg11_at27 : W27 m ρ c (Proc.devRef .tc main_arg11) = m ((c : Thread nD τ).loc main_arg11) :=
  (keepH13 _ main_arg11 (by decide)).trans (arg11_at26 m ρ c)
theorem arg11_at28 : W28 m ρ c (Proc.devRef .tc main_arg11) = m ((c : Thread nD τ).loc main_arg11) :=
  (W28_of_ne m ρ c main_arg11 (by decide)).trans (arg11_at27 m ρ c)
theorem arg11_at29 : W29 m ρ c (Proc.devRef .tc main_arg11) = m ((c : Thread nD τ).loc main_arg11) :=
  (keepH14 _ main_arg11 (by decide)).trans (arg11_at28 m ρ c)
theorem arg11_at30 : W30 m ρ c (Proc.devRef .tc main_arg11) = m ((c : Thread nD τ).loc main_arg11) :=
  (W30_of_ne m ρ c main_arg11 (by decide)).trans (arg11_at29 m ρ c)
theorem arg11_at31 : W31 m ρ c (Proc.devRef .tc main_arg11) = m ((c : Thread nD τ).loc main_arg11) :=
  (keepH15 _ main_arg11 (by decide)).trans (arg11_at30 m ρ c)
theorem arg11_at32 : W32 m ρ c (Proc.devRef .tc main_arg11) = m ((c : Thread nD τ).loc main_arg11) :=
  (W32_of_ne m ρ c main_arg11 (by decide)).trans (arg11_at31 m ρ c)

theorem arg12_at0 : W0 m ρ c (Proc.devRef .tc main_arg12) = m ((c : Thread nD τ).loc main_arg12) := rfl
theorem arg12_at1 : W1 m ρ c (Proc.devRef .tc main_arg12) = m ((c : Thread nD τ).loc main_arg12) :=
  (keepH0 _ main_arg12 (by decide)).trans (arg12_at0 m ρ c)
theorem arg12_at2 : W2 m ρ c (Proc.devRef .tc main_arg12) = m ((c : Thread nD τ).loc main_arg12) :=
  (W2_of_ne m ρ c main_arg12 (by decide)).trans (arg12_at1 m ρ c)
theorem arg12_at3 : W3 m ρ c (Proc.devRef .tc main_arg12) = m ((c : Thread nD τ).loc main_arg12) :=
  (keepH1 _ main_arg12 (by decide)).trans (arg12_at2 m ρ c)
theorem arg12_at4 : W4 m ρ c (Proc.devRef .tc main_arg12) = m ((c : Thread nD τ).loc main_arg12) :=
  (W4_of_ne m ρ c main_arg12 (by decide)).trans (arg12_at3 m ρ c)
theorem arg12_at5 : W5 m ρ c (Proc.devRef .tc main_arg12) = m ((c : Thread nD τ).loc main_arg12) :=
  (keepH2 _ main_arg12 (by decide)).trans (arg12_at4 m ρ c)
theorem arg12_at6 : W6 m ρ c (Proc.devRef .tc main_arg12) = m ((c : Thread nD τ).loc main_arg12) :=
  (W6_of_ne m ρ c main_arg12 (by decide)).trans (arg12_at5 m ρ c)
theorem arg12_at7 : W7 m ρ c (Proc.devRef .tc main_arg12) = m ((c : Thread nD τ).loc main_arg12) :=
  (keepH3 _ main_arg12 (by decide)).trans (arg12_at6 m ρ c)
theorem arg12_at8 : W8 m ρ c (Proc.devRef .tc main_arg12) = m ((c : Thread nD τ).loc main_arg12) :=
  (W8_of_ne m ρ c main_arg12 (by decide)).trans (arg12_at7 m ρ c)
theorem arg12_at9 : W9 m ρ c (Proc.devRef .tc main_arg12) = m ((c : Thread nD τ).loc main_arg12) :=
  (keepH4 _ main_arg12 (by decide)).trans (arg12_at8 m ρ c)
theorem arg12_at10 : W10 m ρ c (Proc.devRef .tc main_arg12) = m ((c : Thread nD τ).loc main_arg12) :=
  (W10_of_ne m ρ c main_arg12 (by decide)).trans (arg12_at9 m ρ c)
theorem arg12_at11 : W11 m ρ c (Proc.devRef .tc main_arg12) = m ((c : Thread nD τ).loc main_arg12) :=
  (keepH5 _ main_arg12 (by decide)).trans (arg12_at10 m ρ c)
theorem arg12_at12 : W12 m ρ c (Proc.devRef .tc main_arg12) = m ((c : Thread nD τ).loc main_arg12) :=
  (W12_of_ne m ρ c main_arg12 (by decide)).trans (arg12_at11 m ρ c)
theorem arg12_at13 : W13 m ρ c (Proc.devRef .tc main_arg12) = m ((c : Thread nD τ).loc main_arg12) :=
  (keepH6 _ main_arg12 (by decide)).trans (arg12_at12 m ρ c)
theorem arg12_at14 : W14 m ρ c (Proc.devRef .tc main_arg12) = m ((c : Thread nD τ).loc main_arg12) :=
  (W14_of_ne m ρ c main_arg12 (by decide)).trans (arg12_at13 m ρ c)
theorem arg12_at15 : W15 m ρ c (Proc.devRef .tc main_arg12) = m ((c : Thread nD τ).loc main_arg12) :=
  (keepH7 _ main_arg12 (by decide)).trans (arg12_at14 m ρ c)
theorem arg12_at16 : W16 m ρ c (Proc.devRef .tc main_arg12) = m ((c : Thread nD τ).loc main_arg12) :=
  (W16_of_ne m ρ c main_arg12 (by decide)).trans (arg12_at15 m ρ c)
theorem arg12_at17 : W17 m ρ c (Proc.devRef .tc main_arg12) = m ((c : Thread nD τ).loc main_arg12) :=
  (keepH8 _ main_arg12 (by decide)).trans (arg12_at16 m ρ c)
theorem arg12_at18 : W18 m ρ c (Proc.devRef .tc main_arg12) = m ((c : Thread nD τ).loc main_arg12) :=
  (W18_of_ne m ρ c main_arg12 (by decide)).trans (arg12_at17 m ρ c)
theorem arg12_at19 : W19 m ρ c (Proc.devRef .tc main_arg12) = m ((c : Thread nD τ).loc main_arg12) :=
  (keepH9 _ main_arg12 (by decide)).trans (arg12_at18 m ρ c)
theorem arg12_at20 : W20 m ρ c (Proc.devRef .tc main_arg12) = m ((c : Thread nD τ).loc main_arg12) :=
  (W20_of_ne m ρ c main_arg12 (by decide)).trans (arg12_at19 m ρ c)
theorem arg12_at21 : W21 m ρ c (Proc.devRef .tc main_arg12) = m ((c : Thread nD τ).loc main_arg12) :=
  (keepH10 _ main_arg12 (by decide)).trans (arg12_at20 m ρ c)
theorem arg12_at22 : W22 m ρ c (Proc.devRef .tc main_arg12) = m ((c : Thread nD τ).loc main_arg12) :=
  (W22_of_ne m ρ c main_arg12 (by decide)).trans (arg12_at21 m ρ c)
theorem arg12_at23 : W23 m ρ c (Proc.devRef .tc main_arg12) = m ((c : Thread nD τ).loc main_arg12) :=
  (keepH11 _ main_arg12 (by decide)).trans (arg12_at22 m ρ c)
theorem arg12_at24 : W24 m ρ c (Proc.devRef .tc main_arg12) = m ((c : Thread nD τ).loc main_arg12) :=
  (W24_of_ne m ρ c main_arg12 (by decide)).trans (arg12_at23 m ρ c)
theorem arg12_at25 : W25 m ρ c (Proc.devRef .tc main_arg12) = m ((c : Thread nD τ).loc main_arg12) :=
  (keepH12 _ main_arg12 (by decide)).trans (arg12_at24 m ρ c)
theorem arg12_at26 : W26 m ρ c (Proc.devRef .tc main_arg12) = m ((c : Thread nD τ).loc main_arg12) :=
  (W26_of_ne m ρ c main_arg12 (by decide)).trans (arg12_at25 m ρ c)
theorem arg12_at27 : W27 m ρ c (Proc.devRef .tc main_arg12) = m ((c : Thread nD τ).loc main_arg12) :=
  (keepH13 _ main_arg12 (by decide)).trans (arg12_at26 m ρ c)
theorem arg12_at28 : W28 m ρ c (Proc.devRef .tc main_arg12) = m ((c : Thread nD τ).loc main_arg12) :=
  (W28_of_ne m ρ c main_arg12 (by decide)).trans (arg12_at27 m ρ c)
theorem arg12_at29 : W29 m ρ c (Proc.devRef .tc main_arg12) = m ((c : Thread nD τ).loc main_arg12) :=
  (keepH14 _ main_arg12 (by decide)).trans (arg12_at28 m ρ c)
theorem arg12_at30 : W30 m ρ c (Proc.devRef .tc main_arg12) = m ((c : Thread nD τ).loc main_arg12) :=
  (W30_of_ne m ρ c main_arg12 (by decide)).trans (arg12_at29 m ρ c)
theorem arg12_at31 : W31 m ρ c (Proc.devRef .tc main_arg12) = m ((c : Thread nD τ).loc main_arg12) :=
  (keepH15 _ main_arg12 (by decide)).trans (arg12_at30 m ρ c)
theorem arg12_at32 : W32 m ρ c (Proc.devRef .tc main_arg12) = m ((c : Thread nD τ).loc main_arg12) :=
  (W32_of_ne m ρ c main_arg12 (by decide)).trans (arg12_at31 m ρ c)

end Cert.KernelIdeal.KNet

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«146104_j52931176955955_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«146104_j52931176955955_1_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.LibDenseLayer.lean ====
/-
  The dense layers as whole-array functions, and the host's spelling of the same functions.

  A dense layer multiplies an array of M rows with K features by a K × N weight matrix: entry (r, q) is the sum over
  k of A (r, k) * W (k, q). Two layers first clamp the features at zero; two add a bias row to every row of the
  product. These are stated once here, over any extents, together with the facts that the host program's own
  operations — dot_general, maximum with a broadcast zero, the sum with a bias broadcast twice, a vector reshaped to
  a one-row matrix — are these functions at every entry. Nothing here needs a finite value: every law used is the
  definition of the operation at an entry.
-/
import proofs.«146104_j52931176955955_1_alg».proof.Proof.LibHostSlab
import Idealize.ShloMosaic.Lib.Pipeline.Value
import Idealize.ShloMosaic.Lib.ValueIdx
import Idealize.ShloMosaic.Lib.ValueLayout

noncomputable section

namespace Cert.DenseSpec

open Idealize.ShloMosaic Idealize.ShloMosaic.ValueIdx

variable {M K N : ℕ}

/-- Features clamped at zero, entry by entry. -/
def relu {s : Shape} (A : s.Idx → EReal) : s.Idx → EReal := fun i => max (A i) (Ideal.ofBits .f32 0x00000000#32)

/-- The product of M rows of K features with a K × N matrix, entry by entry. -/
def rowsTimes (A : (⟨2, ![M, K]⟩ : Shape).Idx → EReal) (W : (⟨2, ![K, N]⟩ : Shape).Idx → EReal) :
    (⟨2, ![M, N]⟩ : Shape).Idx → EReal :=
  fun i => ∑ k : Fin K, A (ix2 (⟨(i 0).val, (i 0).isLt⟩ : Fin M) k) * W (ix2 k (⟨(i 1).val, (i 1).isLt⟩ : Fin N))

theorem rowsTimes_ix2 (A : (⟨2, ![M, K]⟩ : Shape).Idx → EReal) (W : (⟨2, ![K, N]⟩ : Shape).Idx → EReal)
    (r : Fin M) (q : Fin N) : rowsTimes A W (ix2 r q) = ∑ k : Fin K, A (ix2 r k) * W (ix2 k q) := rfl

/-- A one-row matrix added to every row. -/
def addRow (X : (⟨2, ![M, N]⟩ : Shape).Idx → EReal) (b : (⟨2, ![1, N]⟩ : Shape).Idx → EReal) :
    (⟨2, ![M, N]⟩ : Shape).Idx → EReal :=
  fun i => X i + b (ix2 (0 : Fin 1) (⟨(i 1).val, (i 1).isLt⟩ : Fin N))

theorem addRow_ix2 (X : (⟨2, ![M, N]⟩ : Shape).Idx → EReal) (b : (⟨2, ![1, N]⟩ : Shape).Idx → EReal)
    (r : Fin M) (q : Fin N) : addRow X b (ix2 r q) = X (ix2 r q) + b (ix2 (0 : Fin 1) q) := rfl

/-- A vector of N entries as a one-row matrix. -/
def asRow (b : (⟨1, ![N]⟩ : Shape).Idx → EReal) : (⟨2, ![1, N]⟩ : Shape).Idx → EReal :=
  fun j => b (ix1 (⟨(j 1).val, (j 1).isLt⟩ : Fin N))

theorem zero2 : (![0, 0] : Fin 2 → Nat) = fun _ => 0 := funext fun a => by fin_cases a <;> rfl

/-! ## The host's operations are these functions -/

/-- The host's plain matrix product is the product entry by entry. -/
theorem hostDot_eq (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ .f32) (r : FVec Ideal ⟨2, ![K, N]⟩ .f32) :
    Host.dotGeneral d none l r = rowsTimes l r := by
  funext i
  obtain ⟨p, q, rfl⟩ : ∃ (p : Fin M) (q : Fin N), i = ix2 p q := ⟨i 0, i 1, eq_ix2 i⟩
  exact Bilinear.Host.dot_apply d h1 h2 h3 h4 h5 h6 l r none p q

/-- The host's maximum with a zero broadcast from a scalar is the clamp at zero. -/
theorem hostRelu_eq {s : Shape} (X : FVec Ideal s .f32) (h : (⟨0, ![]⟩ : Shape).BroadcastsInDim s ![]) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = _
  rw [broadcastInDim_apply ![] h _ i ix0 (fun a => a.elim0)]
  rfl

/-- The host's bias — a vector made a one-row matrix by a broadcast, then broadcast down the rows — added to a
    matrix is the row added to every row. -/
theorem hostBias_eq (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (asRow b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]
  rfl

/-- A vector reshaped to a one-row matrix is the vector as a row. -/
theorem reshapeRow_eq (b : (⟨1, ![N]⟩ : Shape).Idx → EReal) (h : (⟨1, ![N]⟩ : Shape).ShapeCasts ⟨2, ![1, N]⟩) :
    shapeCast ⟨2, ![1, N]⟩ b h = asRow b := by
  funext j
  refine shapeCast_apply b h j (ix1 (⟨(j 1).val, (j 1).isLt⟩ : Fin N)) ?_
  have h0 : (j 0).val = 0 := by have hlt : (j 0).val < 1 := (j 0).isLt; omega
  simp only [Shape.rowMajor_val_two, Shape.rowMajor_val_one]
  show (⟨(j 1).val, (j 1).isLt⟩ : Fin N).val = (j 0).val * N + (j 1).val
  rw [h0]; simp

end Cert.DenseSpec

end
-- ==== Proof.SageSpec.lean ====
/-
  The layers of the network as whole-array functions on the extended reals.

  Every node array has 128 features. A dense SAGE step of a node type takes the neighbour means `mean`, the node's own
  features `x`, two 128 × 128 weight matrices and a bias row, and returns  mean · Wl + b + x · Wr  entry by entry
  (`lin`; `lin0` when the node type has no features of its own). Batch normalisation needs the column sums of an
  array and of its squares (`colSum`, `colSumSq`) and then maps every entry h to ((h − μ) · (v + ε)^(-1/2)) · γ + β
  with the column's μ, v, γ, β (`bnApply`). Nothing here needs a finite value: these are definitions.
-/
import proofs.«146104_j52931176955955_1_alg».proof.Proof.LibDenseLayer

noncomputable section

namespace Cert.SageSpec

open Idealize.ShloMosaic Idealize.ShloMosaic.ValueIdx Cert.DenseSpec

variable {n : ℕ}

/-- An array of `n` rows of 128 features. -/
abbrev Mat (n : ℕ) : Type := (⟨2, ![n, 128]⟩ : Shape).Idx → EReal
/-- One row of 128 features. -/
abbrev Row : Type := (⟨2, ![1, 128]⟩ : Shape).Idx → EReal
/-- A 128 × 128 weight matrix. -/
abbrev Wt : Type := (⟨2, ![128, 128]⟩ : Shape).Idx → EReal

/-- The feature (column) of an index. -/
def col {a : ℕ} (i : (⟨2, ![a, 128]⟩ : Shape).Idx) : Fin 128 := ⟨(i 1).val, (i 1).isLt⟩

theorem col_ix2 {a : ℕ} (p : Fin a) (q : Fin 128) : col (ix2 p q) = q := rfl

/-- The small positive constant added to a variance before the inverse square root. -/
def eps : EReal := Ideal.ofBits .f32 0x3727C5AC#32

/-- mean · Wl + b + x · Wr. -/
def lin (mean : Mat n) (wl : Wt) (b : Row) (x : Mat n) (wr : Wt) : Mat n :=
  fun i => addRow (rowsTimes mean wl) b i + rowsTimes x wr i

theorem lin_ix2 (mean : Mat n) (wl : Wt) (b : Row) (x : Mat n) (wr : Wt) (p : Fin n) (q : Fin 128) :
    lin mean wl b x wr (ix2 p q)
      = ((∑ k : Fin 128, mean (ix2 p k) * wl (ix2 k q)) + b (ix2 (0 : Fin 1) q)) + ∑ k : Fin 128, x (ix2 p k) * wr (ix2 k q) := rfl

/-- mean · Wl + b. -/
def lin0 (mean : Mat n) (wl : Wt) (b : Row) : Mat n := addRow (rowsTimes mean wl) b

theorem lin0_ix2 (mean : Mat n) (wl : Wt) (b : Row) (p : Fin n) (q : Fin 128) :
    lin0 mean wl b (ix2 p q) = (∑ k : Fin 128, mean (ix2 p k) * wl (ix2 k q)) + b (ix2 (0 : Fin 1) q) := rfl

/-- The entrywise sum of two arrays. -/
def plus (a c : Mat n) : Mat n := fun i => a i + c i

/-- The sum of every column. -/
def colSum (h : Mat n) : Row := fun j => ∑ p : Fin n, h (ix2 p (col j))

theorem colSum_ix2 (h : Mat n) (q : Fin 128) : colSum h (ix2 (0 : Fin 1) q) = ∑ p : Fin n, h (ix2 p q) := rfl

/-- The sum of the squares of every column. -/
def colSumSq (h : Mat n) : Row := fun j => ∑ p : Fin n, h (ix2 p (col j)) * h (ix2 p (col j))

theorem colSumSq_ix2 (h : Mat n) (q : Fin 128) :
    colSumSq h (ix2 (0 : Fin 1) q) = ∑ p : Fin n, h (ix2 p q) * h (ix2 p q) := rfl

/-- ((h − μ) · (v + ε)^(-1/2)) · γ + β, column by column. -/
def bnApply (h : Mat n) (mu v g b : Row) : Mat n :=
  fun i => ((h i - mu (ix2 (0 : Fin 1) (col i))) * Ideal.rsqrt (v (ix2 (0 : Fin 1) (col i)) + eps)) * g (ix2 (0 : Fin 1) (col i))
    + b (ix2 (0 : Fin 1) (col i))

theorem bnApply_ix2 (h : Mat n) (mu v g b : Row) (p : Fin n) (q : Fin 128) :
    bnApply h mu v g b (ix2 p q)
      = ((h (ix2 p q) - mu (ix2 (0 : Fin 1) q)) * Ideal.rsqrt (v (ix2 (0 : Fin 1) q) + eps)) * g (ix2 (0 : Fin 1) q)
        + b (ix2 (0 : Fin 1) q) := rfl

end Cert.SageSpec

end
-- ==== Proof.LibColumnSum.lean ====
/-
  A sum along axis 0 of an [n, B] vector, read at a column.

  A kernel that keeps channels down the rows of a tile and samples across its columns reduces along axis 0: the
  result at column q is the sum of the n entries of that column. On the extended reals the reduction from the
  zero accumulator is that plain sum; the library's index of the reduced axis put back into the result index is
  the entry (j, q). Every extent is generic.
-/
import Idealize.ShloMosaic.PureOps.Ideal.Laws
import Idealize.ShloMosaic.Lib.ValueIdx

namespace ColumnSum

open Idealize.ShloMosaic Idealize.ShloMosaic.ValueIdx

variable {n B : ℕ}

/-- Column q with the channel coordinate j put back on axis 0 is the entry (j, q). -/
theorem lift_col (h : Shape.Reduces ⟨2, ![n, B]⟩ [0] ⟨1, ![B]⟩) (q : Fin B) (j : Fin n) :
    h.lift (ix1 q) j = ix2 j q := by
  funext d
  apply Fin.ext
  match d with
  | ⟨0, h0⟩ =>
    show h.liftVal (ix1 q) j.val ⟨0, h0⟩ = j.val
    unfold Shape.Reduces.liftVal
    split
    · rfl
    · next hc => exact absurd rfl hc
  | ⟨1, h1⟩ =>
    show h.liftVal (ix1 q) j.val ⟨1, h1⟩ = q.val
    unfold Shape.Reduces.liftVal
    split
    · next hc => exact absurd hc Nat.one_ne_zero
    · split
      · next hlt => exact absurd hlt (Nat.not_lt_zero _)
      · rfl

/-- A sum along axis 0 from the zero accumulator, at column q: the sum of the column's n entries. -/
theorem colSum_apply (v : FVec Ideal ⟨2, ![n, B]⟩ .f32) (h : Shape.Reduces ⟨2, ![n, B]⟩ [0] ⟨1, ![B]⟩)
    (hφ : FKind.Formats .f32) (hacc : (0x00000000#32 : BitVec 32) = FKind.add.neutral .f32 hφ) (q : Fin B) :
    multiReduction .add [0] ⟨1, ![B]⟩ v 0x00000000#32 h hφ hacc (ix1 q) = ∑ j : Fin n, v (ix2 j q) := by
  refine (Ideal.multiReduction_add_single v 0x00000000#32 h hφ hacc (ix1 q)).trans ?_
  exact Finset.sum_congr rfl fun j _ => congrArg v (lift_col h q j)

end ColumnSum
-- ==== Proof.RegRPayOwn.lean ====
/-
  The arithmetic of one grid point of the layers that keep a node type's own features, read entry by entry on the
  extended reals.

  A block is 2000 rows of 128 features. The point's dense step is  mean · Wl + b + x · Wr  clamped at zero: two
  128-term sums of products, a bias row broadcast down the rows, a maximum with zero. The two statistics rows add, to
  the row found, the block's column sums and the column sums of its squares: a reduction along the rows from the zero
  accumulator, recast from a length-128 vector to one row. A change of float format and a cast between equal shapes
  are the identity on the extended reals.
-/
import proofs.«146104_j52931176955955_1_alg».proof.Proof.Gen.KernelIdeal.Skeleton
import proofs.«146104_j52931176955955_1_alg».proof.Proof.LibDotRecord
import proofs.«146104_j52931176955955_1_alg».proof.Proof.LibColumnSum
import Idealize.ShloMosaic.Lib.ValueIdx
import Idealize.ShloMosaic.Lib.ValueLayout
import Idealize.ShloMosaic.Lib.Pipeline.Value

noncomputable section

namespace Cert.KernelIdeal.RegR

open Idealize.ShloMosaic Idealize.ShloMosaic.ValueIdx Cert.KernelIdeal Cert.KernelIdeal.Gen

/-- A length-128 vector cast to one row reads its entry q at (0, q). -/
theorem own_row_of_vec_apply {α : Type} (v : S128.Idx → α) (q : Fin 128) :
    shapeCast S1x128 v shapeCasts_S128_S1x128 (ix2 (0 : Fin 1) q) = v (ix1 q) := by
  refine shapeCast_apply v shapeCasts_S128_S1x128 (ix2 (0 : Fin 1) q) (ix1 q) ?_
  simp only [Shape.rowMajor_val_two, Shape.rowMajor_val_one]
  show q.val = 0 * 128 + q.val
  omega

/-! ## Region 0's payloads -/

/-- The dense step of a block, at row r and feature q: mean · Wl + b + x · Wr at (r, q), clamped at zero. The
    narrowing to the short format and the same-shape casts are the identity on the extended reals; each matrix
    product accumulates into zero. -/
theorem k0_pay2_apply (x0 : Vec Ideal S2000x128 .f32) (w : Vec Ideal S128x128 .f32) (b : Vec Ideal S1x128 .f32)
    (x3 : Vec Ideal S2000x128 .f32) (w' : Vec Ideal S128x128 .f32) (r : Fin 2000) (q : Fin 128) :
    k0_pay2 x0 w b x3 w' (ix2 r q)
      = max (((∑ k : Fin 128, x0 (ix2 r k) * w (ix2 k q)) + b (ix2 (0 : Fin 1) q))
          + ∑ k : Fin 128, x3 (ix2 r k) * w' (ix2 k q)) (Ideal.ofBits .f32 0x00000000#32) := by
  unfold k0_pay2
  refine (maximumf_apply _ _ (ix2 r q)).trans ?_
  refine congrArg₂ max ?_ rfl
  refine (addf_apply _ _ (ix2 r q)).trans ?_
  refine congrArg₂ (· + ·) ?_ ?_
  · refine (addf_apply _ _ (ix2 r q)).trans ?_
    refine congrArg₂ (· + ·) ?_ ?_
    · refine (DotRecord.matmul_zero_apply dot_S2000x128_S128x128_S2000x128_1_0_0_1_n_n rfl rfl rfl rfl rfl rfl _ _ none r q).trans ?_
      refine Finset.sum_congr rfl fun k _ => ?_
      show shapeCast S2000x128 x0 shapeCasts_S2000x128_S2000x128 (ix2 r k) * shapeCast S128x128 w shapeCasts_S128x128_S128x128 (ix2 k q) = _
      rw [shapeCast_self, shapeCast_self]
    · refine (DotRecord.broadcastTo_1b_ab_apply _ broadcasts_S1x128_S2000x128 r q).trans ?_
      rw [shapeCast_self, shapeCast_self]
  · refine (DotRecord.matmul_zero_apply dot_S2000x128_S128x128_S2000x128_1_0_0_1_n_n rfl rfl rfl rfl rfl rfl _ _ none r q).trans ?_
    refine Finset.sum_congr rfl fun k _ => ?_
    show x3 (ix2 r k) * shapeCast S128x128 w' shapeCasts_S128x128_S128x128 (ix2 k q) = _
    rw [shapeCast_self]

/-- The row the first point stores before accumulating is zero. -/
theorem k0_pay3_apply (q : Fin 128) : k0_pay3 (F := Ideal) (ix2 (0 : Fin 1) q) = Ideal.ofBits .f32 0x00000000#32 := rfl

theorem k0_pay4_apply (q : Fin 128) : k0_pay4 (F := Ideal) (ix2 (0 : Fin 1) q) = Ideal.ofBits .f32 0x00000000#32 := rfl

/-- The row found plus the column sums of the squares of a block. -/
theorem k0_pay1_apply (v : FVec Ideal S2000x128 .f32) (xo : Vec Ideal S1x128 .f32) (q : Fin 128) :
    k0_pay1 v xo (ix2 (0 : Fin 1) q) = xo (ix2 (0 : Fin 1) q) + ∑ r : Fin 2000, v (ix2 r q) * v (ix2 r q) := by
  unfold k0_pay1
  refine (addf_apply _ _ (ix2 (0 : Fin 1) q)).trans ?_
  refine congrArg₂ (· + ·) ?_ ?_
  · rw [shapeCast_self]
  · refine (own_row_of_vec_apply _ q).trans ?_
    exact ColumnSum.colSum_apply (mulf v v) reduces_S2000x128_S128 (.inl rfl) rfl q

/-- The row found plus the column sums of the block's dense step. -/
theorem k0_pay5_apply (x0 : Vec Ideal S2000x128 .f32) (w : Vec Ideal S128x128 .f32) (b : Vec Ideal S1x128 .f32)
    (x3 : Vec Ideal S2000x128 .f32) (w' : Vec Ideal S128x128 .f32) (xo : Vec Ideal S1x128 .f32) (q : Fin 128) :
    k0_pay5 x0 w b x3 w' xo (ix2 (0 : Fin 1) q)
      = xo (ix2 (0 : Fin 1) q) + ∑ r : Fin 2000, k0_pay2 x0 w b x3 w' (ix2 r q) := by
  unfold k0_pay5
  refine (addf_apply _ _ (ix2 (0 : Fin 1) q)).trans ?_
  refine congrArg₂ (· + ·) ?_ ?_
  · rw [shapeCast_self]
  · refine (own_row_of_vec_apply _ q).trans ?_
    exact ColumnSum.colSum_apply (k0_pay2 x0 w b x3 w') reduces_S2000x128_S128 (.inl rfl) rfl q

/-! ## Region 1's payloads -/

/-- The dense step of a block, at row r and feature q: mean · Wl + b + x · Wr at (r, q), clamped at zero. The
    narrowing to the short format and the same-shape casts are the identity on the extended reals; each matrix
    product accumulates into zero. -/
theorem k1_pay2_apply (x0 : Vec Ideal S2000x128 .f32) (w : Vec Ideal S128x128 .f32) (b : Vec Ideal S1x128 .f32)
    (x3 : Vec Ideal S2000x128 .f32) (w' : Vec Ideal S128x128 .f32) (r : Fin 2000) (q : Fin 128) :
    k1_pay2 x0 w b x3 w' (ix2 r q)
      = max (((∑ k : Fin 128, x0 (ix2 r k) * w (ix2 k q)) + b (ix2 (0 : Fin 1) q))
          + ∑ k : Fin 128, x3 (ix2 r k) * w' (ix2 k q)) (Ideal.ofBits .f32 0x00000000#32) := by
  unfold k1_pay2
  refine (maximumf_apply _ _ (ix2 r q)).trans ?_
  refine congrArg₂ max ?_ rfl
  refine (addf_apply _ _ (ix2 r q)).trans ?_
  refine congrArg₂ (· + ·) ?_ ?_
  · refine (addf_apply _ _ (ix2 r q)).trans ?_
    refine congrArg₂ (· + ·) ?_ ?_
    · refine (DotRecord.matmul_zero_apply dot_S2000x128_S128x128_S2000x128_1_0_0_1_n_n rfl rfl rfl rfl rfl rfl _ _ none r q).trans ?_
      refine Finset.sum_congr rfl fun k _ => ?_
      show shapeCast S2000x128 x0 shapeCasts_S2000x128_S2000x128 (ix2 r k) * shapeCast S128x128 w shapeCasts_S128x128_S128x128 (ix2 k q) = _
      rw [shapeCast_self, shapeCast_self]
    · refine (DotRecord.broadcastTo_1b_ab_apply _ broadcasts_S1x128_S2000x128 r q).trans ?_
      rw [shapeCast_self, shapeCast_self]
  · refine (DotRecord.matmul_zero_apply dot_S2000x128_S128x128_S2000x128_1_0_0_1_n_n rfl rfl rfl rfl rfl rfl _ _ none r q).trans ?_
    refine Finset.sum_congr rfl fun k _ => ?_
    show x3 (ix2 r k) * shapeCast S128x128 w' shapeCasts_S128x128_S128x128 (ix2 k q) = _
    rw [shapeCast_self]

/-- The row the first point stores before accumulating is zero. -/
theorem k1_pay3_apply (q : Fin 128) : k1_pay3 (F := Ideal) (ix2 (0 : Fin 1) q) = Ideal.ofBits .f32 0x00000000#32 := rfl

theorem k1_pay4_apply (q : Fin 128) : k1_pay4 (F := Ideal) (ix2 (0 : Fin 1) q) = Ideal.ofBits .f32 0x00000000#32 := rfl

/-- The row found plus the column sums of the squares of a block. -/
theorem k1_pay1_apply (v : FVec Ideal S2000x128 .f32) (xo : Vec Ideal S1x128 .f32) (q : Fin 128) :
    k1_pay1 v xo (ix2 (0 : Fin 1) q) = xo (ix2 (0 : Fin 1) q) + ∑ r : Fin 2000, v (ix2 r q) * v (ix2 r q) := by
  unfold k1_pay1
  refine (addf_apply _ _ (ix2 (0 : Fin 1) q)).trans ?_
  refine congrArg₂ (· + ·) ?_ ?_
  · rw [shapeCast_self]
  · refine (own_row_of_vec_apply _ q).trans ?_
    exact ColumnSum.colSum_apply (mulf v v) reduces_S2000x128_S128 (.inl rfl) rfl q

/-- The row found plus the column sums of the block's dense step. -/
theorem k1_pay5_apply (x0 : Vec Ideal S2000x128 .f32) (w : Vec Ideal S128x128 .f32) (b : Vec Ideal S1x128 .f32)
    (x3 : Vec Ideal S2000x128 .f32) (w' : Vec Ideal S128x128 .f32) (xo : Vec Ideal S1x128 .f32) (q : Fin 128) :
    k1_pay5 x0 w b x3 w' xo (ix2 (0 : Fin 1) q)
      = xo (ix2 (0 : Fin 1) q) + ∑ r : Fin 2000, k1_pay2 x0 w b x3 w' (ix2 r q) := by
  unfold k1_pay5
  refine (addf_apply _ _ (ix2 (0 : Fin 1) q)).trans ?_
  refine congrArg₂ (· + ·) ?_ ?_
  · rw [shapeCast_self]
  · refine (own_row_of_vec_apply _ q).trans ?_
    exact ColumnSum.colSum_apply (k1_pay2 x0 w b x3 w') reduces_S2000x128_S128 (.inl rfl) rfl q

/-! ## Region 6's payloads -/

/-- The dense step of a block, at row r and feature q: mean · Wl + b + x · Wr at (r, q), clamped at zero. The
    narrowing to the short format and the same-shape casts are the identity on the extended reals; each matrix
    product accumulates into zero. -/
theorem k6_pay2_apply (x0 : Vec Ideal S2000x128 .f32) (w : Vec Ideal S128x128 .f32) (b : Vec Ideal S1x128 .f32)
    (x3 : Vec Ideal S2000x128 .f32) (w' : Vec Ideal S128x128 .f32) (r : Fin 2000) (q : Fin 128) :
    k6_pay2 x0 w b x3 w' (ix2 r q)
      = max (((∑ k : Fin 128, x0 (ix2 r k) * w (ix2 k q)) + b (ix2 (0 : Fin 1) q))
          + ∑ k : Fin 128, x3 (ix2 r k) * w' (ix2 k q)) (Ideal.ofBits .f32 0x00000000#32) := by
  unfold k6_pay2
  refine (maximumf_apply _ _ (ix2 r q)).trans ?_
  refine congrArg₂ max ?_ rfl
  refine (addf_apply _ _ (ix2 r q)).trans ?_
  refine congrArg₂ (· + ·) ?_ ?_
  · refine (addf_apply _ _ (ix2 r q)).trans ?_
    refine congrArg₂ (· + ·) ?_ ?_
    · refine (DotRecord.matmul_zero_apply dot_S2000x128_S128x128_S2000x128_1_0_0_1_n_n rfl rfl rfl rfl rfl rfl _ _ none r q).trans ?_
      refine Finset.sum_congr rfl fun k _ => ?_
      show shapeCast S2000x128 x0 shapeCasts_S2000x128_S2000x128 (ix2 r k) * shapeCast S128x128 w shapeCasts_S128x128_S128x128 (ix2 k q) = _
      rw [shapeCast_self, shapeCast_self]
    · refine (DotRecord.broadcastTo_1b_ab_apply _ broadcasts_S1x128_S2000x128 r q).trans ?_
      rw [shapeCast_self, shapeCast_self]
  · refine (DotRecord.matmul_zero_apply dot_S2000x128_S128x128_S2000x128_1_0_0_1_n_n rfl rfl rfl rfl rfl rfl _ _ none r q).trans ?_
    refine Finset.sum_congr rfl fun k _ => ?_
    show shapeCast S2000x128 x3 shapeCasts_S2000x128_S2000x128 (ix2 r k) * shapeCast S128x128 w' shapeCasts_S128x128_S128x128 (ix2 k q) = _
    rw [shapeCast_self, shapeCast_self]

/-- The row the first point stores before accumulating is zero. -/
theorem k6_pay3_apply (q : Fin 128) : k6_pay3 (F := Ideal) (ix2 (0 : Fin 1) q) = Ideal.ofBits .f32 0x00000000#32 := rfl

theorem k6_pay4_apply (q : Fin 128) : k6_pay4 (F := Ideal) (ix2 (0 : Fin 1) q) = Ideal.ofBits .f32 0x00000000#32 := rfl

/-- The row found plus the column sums of the squares of a block. -/
theorem k6_pay1_apply (v : FVec Ideal S2000x128 .f32) (xo : Vec Ideal S1x128 .f32) (q : Fin 128) :
    k6_pay1 v xo (ix2 (0 : Fin 1) q) = xo (ix2 (0 : Fin 1) q) + ∑ r : Fin 2000, v (ix2 r q) * v (ix2 r q) := by
  unfold k6_pay1
  refine (addf_apply _ _ (ix2 (0 : Fin 1) q)).trans ?_
  refine congrArg₂ (· + ·) ?_ ?_
  · rw [shapeCast_self]
  · refine (own_row_of_vec_apply _ q).trans ?_
    exact ColumnSum.colSum_apply (mulf v v) reduces_S2000x128_S128 (.inl rfl) rfl q

/-- The row found plus the column sums of the block's dense step. -/
theorem k6_pay5_apply (x0 : Vec Ideal S2000x128 .f32) (w : Vec Ideal S128x128 .f32) (b : Vec Ideal S1x128 .f32)
    (x3 : Vec Ideal S2000x128 .f32) (w' : Vec Ideal S128x128 .f32) (xo : Vec Ideal S1x128 .f32) (q : Fin 128) :
    k6_pay5 x0 w b x3 w' xo (ix2 (0 : Fin 1) q)
      = xo (ix2 (0 : Fin 1) q) + ∑ r : Fin 2000, k6_pay2 x0 w b x3 w' (ix2 r q) := by
  unfold k6_pay5
  refine (addf_apply _ _ (ix2 (0 : Fin 1) q)).trans ?_
  refine congrArg₂ (· + ·) ?_ ?_
  · rw [shapeCast_self]
  · refine (own_row_of_vec_apply _ q).trans ?_
    exact ColumnSum.colSum_apply (k6_pay2 x0 w b x3 w') reduces_S2000x128_S128 (.inl rfl) rfl q

end Cert.KernelIdeal.RegR

end
-- ==== Proof.LibGridTotal.lean ====
/-
  Two rearrangements of finite sums in the extended reals.  Addition on `EReal` is a commutative monoid
  (associative, commutative, with unit `0`), which is all that is used: no entry needs to be finite.

  * A running total `a` with `a 0 = 0 + c 0` and `a (t+1) = a t + c (t+1)` is the partial sum
    `a t = c 0 + ... + c t`.
  * A sum over `T * B` rows is the sum over the `T` blocks of the sums over the `B` rows of each block,
    row `r` of block `t` being row `t * B + r`.
-/
import Idealize.ShloMosaic.PureOps.Ideal.Laws

namespace Sage.Alg

open Idealize.ShloMosaic

/-- A running total that starts at `0 + c 0` and adds `c (t+1)` at step `t+1` is the sum of the first
    `t+1` terms. -/
theorem running_total (c a : ℕ → EReal) (h0 : a 0 = 0 + c 0) (hs : ∀ t, a (t + 1) = a t + c (t + 1))
    (t : ℕ) : a t = ∑ s ∈ Finset.range (t + 1), c s := by
  induction t with
  | zero => rw [h0, zero_add, Finset.sum_range_one]
  | succ t ih => rw [hs, ih, Finset.sum_range_succ c (t + 1)]

/-- Row `r` of block `t` lies among the `T * B` rows. -/
theorem block_index_lt {T B t r : ℕ} (ht : t < T) (hr : r < B) : t * B + r < T * B :=
  calc t * B + r < t * B + B := Nat.add_lt_add_left hr _
    _ = (t + 1) * B := (add_one_mul t B).symm
    _ ≤ T * B := Nat.mul_le_mul_right B ht

/-- A function on the first `n` naturals, continued by `0`. -/
private noncomputable def ext0 {n : ℕ} (g : Fin n → EReal) (k : ℕ) : EReal := if h : k < n then g ⟨k, h⟩ else 0

/-- The first `T * B` terms of a sequence, summed block by block. -/
private theorem sum_range_mul (G : ℕ → EReal) (T B : ℕ) :
    ∑ k ∈ Finset.range (T * B), G k = ∑ t ∈ Finset.range T, ∑ r ∈ Finset.range B, G (t * B + r) := by
  induction T with
  | zero => simp
  | succ T ih => rw [add_one_mul, Finset.sum_range_add, ih, Finset.sum_range_succ]

/-- Rows split into `T` blocks of `B` rows. -/
theorem sum_fin_blocks (T B : ℕ) (g : Fin (T * B) → EReal) :
    ∑ p : Fin (T * B), g p
      = ∑ t ∈ Finset.range T, ∑ r : Fin B,
          (if h : t * B + r.val < T * B then g ⟨t * B + r.val, h⟩ else 0) := by
  have hL : ∑ p : Fin (T * B), g p = ∑ k ∈ Finset.range (T * B), ext0 g k := by
    rw [← Fin.sum_univ_eq_sum_range]
    refine Finset.sum_congr rfl fun p _ => ?_
    rw [ext0, dif_pos p.isLt]
  have hR : ∀ t : ℕ,
      ∑ r : Fin B, (if h : t * B + r.val < T * B then g ⟨t * B + r.val, h⟩ else 0)
        = ∑ r ∈ Finset.range B, ext0 g (t * B + r) :=
    fun t => Fin.sum_univ_eq_sum_range (fun r => ext0 g (t * B + r)) B
  rw [hL, sum_range_mul]
  exact Finset.sum_congr rfl fun t _ => (hR t).symm

/-- The same with the blocks indexed by `Fin T`, every row index being in range. -/
theorem sum_fin_blocks_fin (T B : ℕ) (g : Fin (T * B) → EReal) :
    ∑ p : Fin (T * B), g p
      = ∑ t : Fin T, ∑ r : Fin B, g ⟨t.val * B + r.val, block_index_lt t.isLt r.isLt⟩ := by
  rw [sum_fin_blocks, ← Fin.sum_univ_eq_sum_range
    (fun t => ∑ r : Fin B, (if h : t * B + r.val < T * B then g ⟨t * B + r.val, h⟩ else 0)) T]
  refine Finset.sum_congr rfl fun t _ => Finset.sum_congr rfl fun r _ => ?_
  exact dif_pos (block_index_lt t.isLt r.isLt)

end Sage.Alg
-- ==== Proof.RegRTotal.lean ====
/-
  A total kept while walking over T blocks of B rows.

  If after block 0 the total is the sum of that block's rows, and after every later block it is what it was plus the
  sum of that block's rows, then after block n it is the sum of the rows of blocks 0 … n, and after the last block the
  sum over all T * B rows. Addition on the extended reals is a commutative monoid, which is all that is used.
-/
import proofs.«146104_j52931176955955_1_alg».proof.Proof.LibGridTotal

namespace Sage.Alg

/-- Row `r` of block `t` lies among `R = T * B` rows. -/
theorem block_row_lt {R T B t r : ℕ} (hR : R = T * B) (ht : t < T) (hr : r < B) : t * B + r < R :=
  hR ▸ block_index_lt ht hr

/-- A quantity that after block 0 is the sum of the block's `B` rows and after every later block is what it was
    after the block before plus the sum of that block's rows is, after block `n`, the sum of the rows of blocks
    `0 … n`. -/
theorem block_total {R : ℕ} (T B : ℕ) (hR : R = T * B) (g : Fin R → EReal) (a : (n : ℕ) → n < T → EReal)
    (h0 : ∀ (n : ℕ) (h : n < T), n = 0 → a n h = ∑ r : Fin B, g ⟨n * B + r.val, block_row_lt hR h r.isLt⟩)
    (hs : ∀ (n : ℕ) (h : n < T), n ≠ 0 → a n h
        = a (n - 1) (Nat.lt_of_le_of_lt (Nat.sub_le _ _) h) + ∑ r : Fin B, g ⟨n * B + r.val, block_row_lt hR h r.isLt⟩) :
    ∀ (n : ℕ) (h : n < T), a n h
      = ∑ s ∈ Finset.range (n + 1), ∑ r : Fin B, (if h' : s * B + r.val < R then g ⟨s * B + r.val, h'⟩ else 0)
  | 0, h => by
    rw [h0 0 h rfl, Finset.sum_range_one]
    exact Finset.sum_congr rfl fun r _ => by rw [dif_pos (block_row_lt hR h r.isLt)]
  | n + 1, h => by
    have same : ∀ (m : ℕ) (hm : m < T), m = n → a m hm = a n (Nat.lt_of_succ_lt h) := fun m hm e => by subst e; rfl
    rw [hs (n + 1) h (Nat.succ_ne_zero n), same (n + 1 - 1) _ (Nat.add_sub_cancel n 1),
      block_total T B hR g a h0 hs n (Nat.lt_of_succ_lt h), Finset.sum_range_succ _ (n + 1)]
    congr 1
    exact Finset.sum_congr rfl fun r _ => by rw [dif_pos (block_row_lt hR h r.isLt)]

/-- After the last block it is the sum over all `R = T * B` rows. -/
theorem block_total_last {R : ℕ} (T B : ℕ) (hR : R = T * B) (g : Fin R → EReal) (a : (n : ℕ) → n < T → EReal)
    (h0 : ∀ (n : ℕ) (h : n < T), n = 0 → a n h = ∑ r : Fin B, g ⟨n * B + r.val, block_row_lt hR h r.isLt⟩)
    (hs : ∀ (n : ℕ) (h : n < T), n ≠ 0 → a n h
        = a (n - 1) (Nat.lt_of_le_of_lt (Nat.sub_le _ _) h) + ∑ r : Fin B, g ⟨n * B + r.val, block_row_lt hR h r.isLt⟩)
    (n : ℕ) (hn : n + 1 = T) (h : n < T) : a n h = ∑ p : Fin R, g p := by
  subst hR
  rw [block_total T B rfl g a h0 hs n h, hn, sum_fin_blocks]

end Sage.Alg
-- ==== Proof.RegR0a.lean ====
/-
  What one grid point of region 0 leaves in its three output blocks, as the arithmetic of that point.

  The body stores the dense step of its input blocks into the result block. At the first point it also stores a
  zero row into each of the two statistics rows; at every point it then reads each statistics row back and stores
  the row plus the block's column sums (of the dense step, and of its squares). Every load and store goes through
  the whole block, so each output block ends holding the value of its last store: at the first point the sums
  added to the zero row, at a later point the sums added to the row the point found.
-/
import proofs.«146104_j52931176955955_1_alg».proof.Proof.Gen.KernelIdeal.Frame
import Idealize.ShloMosaic.Lib.Pipeline.Value
import Idealize.ShloMosaic.Lib.Tactic

noncomputable section

namespace Cert.KernelIdeal.RegR

open Idealize.ShloMosaic Idealize.ShloMosaic.TcCoe Idealize.ShloMosaic.Tactic Idealize.SL.Sem
open Cert.KernelIdeal Cert.KernelIdeal.Gen

variable {F : FTy → Type} [FloatOps F]

theorem zero2_0 : (![0, 0] : Fin 2 → Nat) = fun _ => 0 := funext fun a => by fin_cases a <;> rfl

theorem out0_B_5_eq (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out0_B_5 c i a1 h1 a2 h2 a3 h3 a4 h4 a5 h5 a6 h6 a7 h7 a8 h8 hc x0 x1 x2 x3 x4 xo6 xo7 = k0_pay2 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero zero2_0]
  simp only [View.readAt_eq_ld, h1.read_unread, h2.read_unread, h3.read_unread, h4.read_unread, h5.read_unread, View.ld_unit_zero (S := S2000x128) zero2_0, View.ld_unit_zero (S := S128x128) zero2_0, View.ld_unit_zero (S := S1x128) zero2_0]

theorem out0_B_6_eq (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero zero2_0]
  simp only [View.readAt_eq_ld, h1.read_unread, h2.read_unread, h3.read_unread, h4.read_unread, h5.read_unread, h7.read_unread, View.ld_unit_zero (S := S2000x128) zero2_0, View.ld_unit_zero (S := S128x128) zero2_0, View.ld_unit_zero (S := S1x128) zero2_0]

theorem out0_B_7_eq (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out0_B_7 c i a1 h1 a2 h2 a3 h3 a4 h4 a5 h5 a6 h6 a7 h7 a8 h8 hc x0 x1 x2 x3 x4 xo6 xo7 = k0_pay1 (k0_pay2 x0 x1 x2 x3 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero zero2_0]
  simp only [View.readAt_eq_ld, h1.read_unread, h2.read_unread, h3.read_unread, h4.read_unread, h5.read_unread, h8.read_unread, View.ld_unit_zero (S := S2000x128) zero2_0, View.ld_unit_zero (S := S128x128) zero2_0, View.ld_unit_zero (S := S1x128) zero2_0]

theorem out0_A_5_eq (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 : Vec F S2000x128 .f32) (x1 : Vec F S128x128 .f32) (x2 : Vec F S1x128 .f32) (x3 : Vec F S2000x128 .f32) (x4 : Vec F S128x128 .f32) :
    out0_A_5 c i a1 h1 a2 h2 a3 h3 a4 h4 a5 h5 a6 h6 a7 h7 a8 h8 hc x0 x1 x2 x3 x4 = k0_pay2 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero zero2_0]
  simp only [View.readAt_eq_ld, h1.read_unread, h2.read_unread, h3.read_unread, h4.read_unread, h5.read_unread, View.ld_unit_zero (S := S2000x128) zero2_0, View.ld_unit_zero (S := S128x128) zero2_0, View.ld_unit_zero (S := S1x128) zero2_0]

theorem out0_A_6_eq (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 : Vec F S2000x128 .f32) (x1 : Vec F S128x128 .f32) (x2 : Vec F S1x128 .f32) (x3 : Vec F S2000x128 .f32) (x4 : Vec F S128x128 .f32) :
    out0_A_6 c i a1 h1 a2 h2 a3 h3 a4 h4 a5 h5 a6 h6 a7 h7 a8 h8 hc x0 x1 x2 x3 x4 = k0_pay5 x0 x1 x2 x3 x4 k0_pay3 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) zero2_0]
  simp only [View.readAt_eq_ld, h1.read_unread, h2.read_unread, h3.read_unread, h4.read_unread, h5.read_unread, View.readCov_unit_zero (S := S1x128) _ zero2_0, View.ld_unit_zero (S := S2000x128) zero2_0, View.ld_unit_zero (S := S128x128) zero2_0, View.ld_unit_zero (S := S1x128) zero2_0]

theorem out0_A_7_eq (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i)
    (x0 : Vec F S2000x128 .f32) (x1 : Vec F S128x128 .f32) (x2 : Vec F S1x128 .f32) (x3 : Vec F S2000x128 .f32) (x4 : Vec F S128x128 .f32) :
    out0_A_7 c i a1 h1 a2 h2 a3 h3 a4 h4 a5 h5 a6 h6 a7 h7 a8 h8 hc x0 x1 x2 x3 x4 = k0_pay1 (k0_pay2 x0 x1 x2 x3 x4) k0_pay4 := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) zero2_0]
  simp only [View.readAt_eq_ld, h1.read_unread, h2.read_unread, h3.read_unread, h4.read_unread, h5.read_unread, View.readCov_unit_zero (S := S1x128) _ zero2_0, View.ld_unit_zero (S := S2000x128) zero2_0, View.ld_unit_zero (S := S128x128) zero2_0, View.ld_unit_zero (S := S1x128) zero2_0]

end Cert.KernelIdeal.RegR

end
-- ==== Proof.RegR0.lean ====
/-
  The three arrays region 0 leaves, as whole-array functions of the arrays it finds.

  The grid has 100 points; point t works on rows 2000·t … 2000·t + 1999 of the 200000 rows, with both weight
  matrices and the bias row whole at every point. The layer is  H = max (mean · Wl + b + x · Wr, 0)  entry by entry.
  The result block of point t is block t of H, and the result blocks tile the array, so the result array is H. The
  two statistics rows keep a running total: after point t they hold the sums, over the rows of blocks 0 … t, of H's
  columns and of the squares of H's columns (by induction on the point: the first point starts from the zero row).
  Only the last point writes them back, and its block is the whole one-row array, so after the region they hold the
  column sums of H and of H's squares over all 200000 rows.
-/
import proofs.«146104_j52931176955955_1_alg».proof.Proof.Gen.KernelIdeal.Frame
import Idealize.ShloMosaic.Lib.Pipeline.Value
import Idealize.ShloMosaic.Lib.Tactic
import Idealize.ShloMosaic.Lib.ValueIdx
import proofs.«146104_j52931176955955_1_alg».proof.Proof.SageSpec
import proofs.«146104_j52931176955955_1_alg».proof.Proof.RegRPayOwn
import proofs.«146104_j52931176955955_1_alg».proof.Proof.RegRTotal
import proofs.«146104_j52931176955955_1_alg».proof.Proof.RegR0a

noncomputable section

namespace Cert.KernelIdeal.RegR

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The rows are 100 blocks of 2000. -/
theorem rows0_eq : 200000 = 100 * 2000 := by decide

/-- The layer as a whole-array function of the arrays the region finds: the dense step clamped at zero. -/
abbrev H0 (c : Dev nD) : S200000x128.Idx → EReal := (Cert.DenseSpec.relu (Cert.SageSpec.lin (n := 200000) (V c main_v21) (V c main_v45) (V c main_v48) (V c main_arg0) (V c main_v50)) : S200000x128.Idx → EReal)

/-- The printed index maps, decided over the grid: windows 0, 3 and 5 step one block of rows per point, the others
    stay at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Window 0's block at point t is rows 2000·t … 2000·t + 1999 of its array. -/
theorem iblk0_0_apply (c : Dev nD) (t : Fin cfg0.N) (r : Fin 2000) (k : Fin 128) :
    iblk0 V c 0 t (ix2 r k) = (V c main_v21 : S200000x128.Idx → EReal) (ix2 (⟨t.val * 2000 + r.val, Sage.Alg.block_row_lt (rows0_eq) (lt_of_lt_of_eq t.isLt N_0) r.isLt⟩ : Fin 200000) k) := by
  obtain ⟨e00, e01, e10, e11, e20, e21, e30, e31, e40, e41, e50, e51, e60, e61, e70, e71⟩ := idx0 t
  unfold iblk0
  rw [View.read_apply]
  show V c main_v21 _ = V c main_v21 _
  congr 1
  funext a
  apply Fin.ext
  match a with
  | ⟨0, _⟩ => show win0_0.index t (0 : Fin 2) * 2000 + 1 * r.val = t.val * 2000 + r.val; omega
  | ⟨1, _⟩ => show win0_0.index t (1 : Fin 2) * 128 + 1 * k.val = k.val; omega

/-- Window 1's block at every point is its whole array. -/
theorem iblk0_1_apply (c : Dev nD) (t : Fin cfg0.N) (p : Fin 128) (k : Fin 128) :
    iblk0 V c 1 t (ix2 p k) = (V c main_v45 : S128x128.Idx → EReal) (ix2 p k) := by
  obtain ⟨e00, e01, e10, e11, e20, e21, e30, e31, e40, e41, e50, e51, e60, e61, e70, e71⟩ := idx0 t
  unfold iblk0
  rw [View.read_apply]
  show V c main_v45 _ = V c main_v45 _
  congr 1
  funext a
  apply Fin.ext
  match a with
  | ⟨0, _⟩ => show win0_1.index t (0 : Fin 2) * 128 + 1 * p.val = p.val; omega
  | ⟨1, _⟩ => show win0_1.index t (1 : Fin 2) * 128 + 1 * k.val = k.val; omega

/-- Window 2's block at every point is its whole array. -/
theorem iblk0_2_apply (c : Dev nD) (t : Fin cfg0.N) (p : Fin 1) (k : Fin 128) :
    iblk0 V c 2 t (ix2 p k) = (V c main_v48 : S1x128.Idx → EReal) (ix2 p k) := by
  obtain ⟨e00, e01, e10, e11, e20, e21, e30, e31, e40, e41, e50, e51, e60, e61, e70, e71⟩ := idx0 t
  unfold iblk0
  rw [View.read_apply]
  show V c main_v48 _ = V c main_v48 _
  congr 1
  funext a
  apply Fin.ext
  match a with
  | ⟨0, _⟩ => show win0_2.index t (0 : Fin 2) * 1 + 1 * p.val = p.val; omega
  | ⟨1, _⟩ => show win0_2.index t (1 : Fin 2) * 128 + 1 * k.val = k.val; omega

/-- Window 3's block at point t is rows 2000·t … 2000·t + 1999 of its array. -/
theorem iblk0_3_apply (c : Dev nD) (t : Fin cfg0.N) (r : Fin 2000) (k : Fin 128) :
    iblk0 V c 3 t (ix2 r k) = (V c main_arg0 : S200000x128.Idx → EReal) (ix2 (⟨t.val * 2000 + r.val, Sage.Alg.block_row_lt (rows0_eq) (lt_of_lt_of_eq t.isLt N_0) r.isLt⟩ : Fin 200000) k) := by
  obtain ⟨e00, e01, e10, e11, e20, e21, e30, e31, e40, e41, e50, e51, e60, e61, e70, e71⟩ := idx0 t
  unfold iblk0
  rw [View.read_apply]
  show V c main_arg0 _ = V c main_arg0 _
  congr 1
  funext a
  apply Fin.ext
  match a with
  | ⟨0, _⟩ => show win0_3.index t (0 : Fin 2) * 2000 + 1 * r.val = t.val * 2000 + r.val; omega
  | ⟨1, _⟩ => show win0_3.index t (1 : Fin 2) * 128 + 1 * k.val = k.val; omega

/-- Window 4's block at every point is its whole array. -/
theorem iblk0_4_apply (c : Dev nD) (t : Fin cfg0.N) (p : Fin 128) (k : Fin 128) :
    iblk0 V c 4 t (ix2 p k) = (V c main_v50 : S128x128.Idx → EReal) (ix2 p k) := by
  obtain ⟨e00, e01, e10, e11, e20, e21, e30, e31, e40, e41, e50, e51, e60, e61, e70, e71⟩ := idx0 t
  unfold iblk0
  rw [View.read_apply]
  show V c main_v50 _ = V c main_v50 _
  congr 1
  funext a
  apply Fin.ext
  match a with
  | ⟨0, _⟩ => show win0_4.index t (0 : Fin 2) * 128 + 1 * p.val = p.val; omega
  | ⟨1, _⟩ => show win0_4.index t (1 : Fin 2) * 128 + 1 * k.val = k.val; omega

/-- The dense step of the blocks at point t, at (r, q), is the layer at row 2000·t + r. -/
theorem blk0_apply (c : Dev nD) (t : Fin cfg0.N) (r : Fin 2000) (q : Fin 128) :
    k0_pay2 (iblk0 V c 0 t) (iblk0 V c 1 t) (iblk0 V c 2 t) (iblk0 V c 3 t) (iblk0 V c 4 t) (ix2 r q) = H0 V c (ix2 (⟨t.val * 2000 + r.val, Sage.Alg.block_row_lt (rows0_eq) (lt_of_lt_of_eq t.isLt N_0) r.isLt⟩ : Fin 200000) q) := by
  refine (k0_pay2_apply (iblk0 V c 0 t) (iblk0 V c 1 t) (iblk0 V c 2 t) (iblk0 V c 3 t) (iblk0 V c 4 t) r q).trans ?_
  simp only [iblk0_0_apply V c t, iblk0_1_apply V c t, iblk0_2_apply V c t, iblk0_3_apply V c t, iblk0_4_apply V c t]
  rfl

/-! ## What the three outputs hold after each point -/

theorem outs0_5 (c : Dev nD) (t : Fin cfg0.N) : (outsAt0 V c t.val t.isLt).1 = k0_pay2 (iblk0 V c 0 t) (iblk0 V c 1 t) (iblk0 V c 2 t) (iblk0 V c 3 t) (iblk0 V c 4 t) := by
  by_cases h : t.val % 100 = 0
  · rw [outsAt0_A V c t h]; dsimp only
    exact out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk0 V c 0 t) (iblk0 V c 1 t) (iblk0 V c 2 t) (iblk0 V c 3 t) (iblk0 V c 4 t)
  · rw [outsAt0_B V c t h]; dsimp only
    exact out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h' => h ((hcond0_0 t).mp h')) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

theorem outs0_6_A (c : Dev nD) (t : Fin cfg0.N) (h : t.val % 100 = 0) :
    (outsAt0 V c t.val t.isLt).2.1 = k0_pay5 (iblk0 V c 0 t) (iblk0 V c 1 t) (iblk0 V c 2 t) (iblk0 V c 3 t) (iblk0 V c 4 t) (k0_pay3 (F := Ideal)) := by
  rw [outsAt0_A V c t h]; dsimp only
  exact out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk0 V c 0 t) (iblk0 V c 1 t) (iblk0 V c 2 t) (iblk0 V c 3 t) (iblk0 V c 4 t)

theorem outs0_6_B (c : Dev nD) (t : Fin cfg0.N) (h : ¬t.val % 100 = 0) :
    (outsAt0 V c t.val t.isLt).2.1 = k0_pay5 (iblk0 V c 0 t) (iblk0 V c 1 t) (iblk0 V c 2 t) (iblk0 V c 3 t) (iblk0 V c 4 t) (outsAt0 V c (t.val - 1) (Nat.lt_of_le_of_lt (Nat.sub_le _ _) t.isLt)).2.1 := by
  rw [outsAt0_B V c t h]; dsimp only
  exact out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h' => h ((hcond0_0 t).mp h')) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

theorem outs0_7_A (c : Dev nD) (t : Fin cfg0.N) (h : t.val % 100 = 0) :
    (outsAt0 V c t.val t.isLt).2.2 = k0_pay1 (k0_pay2 (iblk0 V c 0 t) (iblk0 V c 1 t) (iblk0 V c 2 t) (iblk0 V c 3 t) (iblk0 V c 4 t)) (k0_pay4 (F := Ideal)) := by
  rw [outsAt0_A V c t h]; dsimp only
  exact out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk0 V c 0 t) (iblk0 V c 1 t) (iblk0 V c 2 t) (iblk0 V c 3 t) (iblk0 V c 4 t)

theorem outs0_7_B (c : Dev nD) (t : Fin cfg0.N) (h : ¬t.val % 100 = 0) :
    (outsAt0 V c t.val t.isLt).2.2 = k0_pay1 (k0_pay2 (iblk0 V c 0 t) (iblk0 V c 1 t) (iblk0 V c 2 t) (iblk0 V c 3 t) (iblk0 V c 4 t)) (outsAt0 V c (t.val - 1) (Nat.lt_of_le_of_lt (Nat.sub_le _ _) t.isLt)).2.2 := by
  rw [outsAt0_B V c t h]; dsimp only
  exact out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h' => h ((hcond0_0 t).mp h')) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-! ## The running totals at a column -/

theorem stat0_6_A (c : Dev nD) (q : Fin 128) (t : Fin cfg0.N) (h : t.val % 100 = 0) :
    (outsAt0 V c t.val t.isLt).2.1 (ix2 (0 : Fin 1) q) = ∑ r : Fin 2000, H0 V c (ix2 (⟨t.val * 2000 + r.val, Sage.Alg.block_row_lt (rows0_eq) (lt_of_lt_of_eq t.isLt N_0) r.isLt⟩ : Fin 200000) q) := by
  refine (congrFun (outs0_6_A V c t h) (ix2 (0 : Fin 1) q)).trans ?_
  refine (k0_pay5_apply (iblk0 V c 0 t) (iblk0 V c 1 t) (iblk0 V c 2 t) (iblk0 V c 3 t) (iblk0 V c 4 t) (k0_pay3 (F := Ideal)) q).trans ?_
  rw [k0_pay3_apply, Ideal.ofBits_zero_f32, zero_add]
  exact Finset.sum_congr rfl fun r _ => blk0_apply V c t r q

theorem stat0_6_B (c : Dev nD) (q : Fin 128) (t : Fin cfg0.N) (h : ¬t.val % 100 = 0) :
    (outsAt0 V c t.val t.isLt).2.1 (ix2 (0 : Fin 1) q)
      = (outsAt0 V c (t.val - 1) (Nat.lt_of_le_of_lt (Nat.sub_le _ _) t.isLt)).2.1 (ix2 (0 : Fin 1) q) + ∑ r : Fin 2000, H0 V c (ix2 (⟨t.val * 2000 + r.val, Sage.Alg.block_row_lt (rows0_eq) (lt_of_lt_of_eq t.isLt N_0) r.isLt⟩ : Fin 200000) q) := by
  refine (congrFun (outs0_6_B V c t h) (ix2 (0 : Fin 1) q)).trans ?_
  refine (k0_pay5_apply (iblk0 V c 0 t) (iblk0 V c 1 t) (iblk0 V c 2 t) (iblk0 V c 3 t) (iblk0 V c 4 t) (outsAt0 V c (t.val - 1) (Nat.lt_of_le_of_lt (Nat.sub_le _ _) t.isLt)).2.1 q).trans ?_
  exact congrArg _ (Finset.sum_congr rfl fun r _ => blk0_apply V c t r q)

theorem stat0_7_A (c : Dev nD) (q : Fin 128) (t : Fin cfg0.N) (h : t.val % 100 = 0) :
    (outsAt0 V c t.val t.isLt).2.2 (ix2 (0 : Fin 1) q)
      = ∑ r : Fin 2000, H0 V c (ix2 (⟨t.val * 2000 + r.val, Sage.Alg.block_row_lt (rows0_eq) (lt_of_lt_of_eq t.isLt N_0) r.isLt⟩ : Fin 200000) q) * H0 V c (ix2 (⟨t.val * 2000 + r.val, Sage.Alg.block_row_lt (rows0_eq) (lt_of_lt_of_eq t.isLt N_0) r.isLt⟩ : Fin 200000) q) := by
  refine (congrFun (outs0_7_A V c t h) (ix2 (0 : Fin 1) q)).trans ?_
  refine (k0_pay1_apply (k0_pay2 (iblk0 V c 0 t) (iblk0 V c 1 t) (iblk0 V c 2 t) (iblk0 V c 3 t) (iblk0 V c 4 t)) (k0_pay4 (F := Ideal)) q).trans ?_
  rw [k0_pay4_apply, Ideal.ofBits_zero_f32, zero_add]
  exact Finset.sum_congr rfl fun r _ => by rw [blk0_apply V c t r q]

theorem stat0_7_B (c : Dev nD) (q : Fin 128) (t : Fin cfg0.N) (h : ¬t.val % 100 = 0) :
    (outsAt0 V c t.val t.isLt).2.2 (ix2 (0 : Fin 1) q)
      = (outsAt0 V c (t.val - 1) (Nat.lt_of_le_of_lt (Nat.sub_le _ _) t.isLt)).2.2 (ix2 (0 : Fin 1) q)
        + ∑ r : Fin 2000, H0 V c (ix2 (⟨t.val * 2000 + r.val, Sage.Alg.block_row_lt (rows0_eq) (lt_of_lt_of_eq t.isLt N_0) r.isLt⟩ : Fin 200000) q) * H0 V c (ix2 (⟨t.val * 2000 + r.val, Sage.Alg.block_row_lt (rows0_eq) (lt_of_lt_of_eq t.isLt N_0) r.isLt⟩ : Fin 200000) q) := by
  refine (congrFun (outs0_7_B V c t h) (ix2 (0 : Fin 1) q)).trans ?_
  refine (k0_pay1_apply (k0_pay2 (iblk0 V c 0 t) (iblk0 V c 1 t) (iblk0 V c 2 t) (iblk0 V c 3 t) (iblk0 V c 4 t)) (outsAt0 V c (t.val - 1) (Nat.lt_of_le_of_lt (Nat.sub_le _ _) t.isLt)).2.2 q).trans ?_
  exact congrArg _ (Finset.sum_congr rfl fun r _ => by rw [blk0_apply V c t r q])

/-- After the last point the first statistics row holds the column sums of the layer. -/
theorem stat0_6_last (c : Dev nD) (q : Fin 128) (n : ℕ) (hn : n < cfg0.N) (e : n + 1 = 100) :
    (outsAt0 V c n hn).2.1 (ix2 (0 : Fin 1) q) = ∑ p : Fin 200000, H0 V c (ix2 p q) := by
  have key := Sage.Alg.block_total_last 100 2000 rows0_eq (fun p : Fin 200000 => H0 V c (ix2 p q))
    (fun n hn => (outsAt0 V c n (lt_of_lt_of_eq hn N_0.symm)).2.1 (ix2 (0 : Fin 1) q))
    (fun n h1 e0 => stat0_6_A V c q ⟨n, lt_of_lt_of_eq h1 N_0.symm⟩ (by show n % 100 = 0; omega))
    (fun n h1 hne => stat0_6_B V c q ⟨n, lt_of_lt_of_eq h1 N_0.symm⟩ (by show ¬n % 100 = 0; omega))
    n e (lt_of_lt_of_eq hn N_0)
  exact key

/-- After the last point the second statistics row holds the column sums of the layer's squares. -/
theorem stat0_7_last (c : Dev nD) (q : Fin 128) (n : ℕ) (hn : n < cfg0.N) (e : n + 1 = 100) :
    (outsAt0 V c n hn).2.2 (ix2 (0 : Fin 1) q) = ∑ p : Fin 200000, H0 V c (ix2 p q) * H0 V c (ix2 p q) := by
  have key := Sage.Alg.block_total_last 100 2000 rows0_eq (fun p : Fin 200000 => H0 V c (ix2 p q) * H0 V c (ix2 p q))
    (fun n hn => (outsAt0 V c n (lt_of_lt_of_eq hn N_0.symm)).2.2 (ix2 (0 : Fin 1) q))
    (fun n h1 e0 => stat0_7_A V c q ⟨n, lt_of_lt_of_eq h1 N_0.symm⟩ (by show n % 100 = 0; omega))
    (fun n h1 hne => stat0_7_B V c q ⟨n, lt_of_lt_of_eq h1 N_0.symm⟩ (by show ¬n % 100 = 0; omega))
    n e (lt_of_lt_of_eq hn N_0)
  exact key

/-! ## The arrays after the region -/

/-- An index of the result array is in point t's block iff each coordinate is in the block's range. -/
theorem mem_blk0_5 (t : Fin cfg0.N) (i : S200000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v51_0).slice (win0_5.rect t)).set ↔ _
  rw [View.set_slice_whole, Rect.mem_set_unit]
  exact Iff.rfl

/-- What point t writes back to the result array is block t of the layer. -/
theorem flushed0_5 (c : Dev nD) (t : Fin cfg0.N) :
    (dat0 V c).flushed 5 t = ((cfg0.win 5).blk t).view.read (Elt Ideal) (H0 V c) := by
  show (cfg0.win 5).cut (grid0.coords t) ((dat0 V c).after 5 t) = _
  rw [after0_5, outs0_5 V c t]
  obtain ⟨e00, e01, e10, e11, e20, e21, e30, e31, e40, e41, e50, e51, e60, e61, e70, e71⟩ := idx0 t
  funext j
  obtain ⟨r, q, rfl⟩ : ∃ (r : Fin 2000) (q : Fin 128), j = ix2 r q := ⟨j 0, j 1, eq_ix2 (n0 := 2000) (n1 := 128) j⟩
  rw [View.read_apply]
  refine (blk0_apply V c t r q).trans ?_
  refine congrArg (H0 V c) ?_
  funext a
  apply Fin.ext
  match a with
  | ⟨0, _⟩ => show t.val * 2000 + r.val = win0_5.index t (0 : Fin 2) * 2000 + 1 * r.val; omega
  | ⟨1, _⟩ => show q.val = win0_5.index t (1 : Fin 2) * 128 + 1 * q.val; omega

/-- The result array after the region is the layer. -/
theorem arr0_5 (c : Dev nD) : (dat0 V c).arrAt 5 cfg0.N = (Cert.DenseSpec.relu (Cert.SageSpec.lin (n := 200000) (V c main_v21) (V c main_v45) (V c main_v48) (V c main_arg0) (V c main_v50)) : S200000x128.Idx → EReal) :=
  (dat0 V c).arrAt_eq_of_cover 5 (H0 V c) (fun t _ => flushed0_5 V c t) fun i => by
    have hN : cfg0.N = 100 := N_0
    have hi0 : (i 0).val < 200000 := (i 0).isLt
    have hi1 : (i 1).val < 128 := (i 1).isLt
    have ht : (i 0).val / 2000 < cfg0.N := by rw [hN]; omega
    obtain ⟨e00, e01, e10, e11, e20, e21, e30, e31, e40, e41, e50, e51, e60, e61, e70, e71⟩ := idx0 ⟨(i 0).val / 2000, ht⟩
    refine ⟨⟨(i 0).val / 2000, ht⟩, flush0_5 _, ?_⟩
    rw [mem_blk0_5]
    intro a
    match a with
    | ⟨0, _⟩ =>
      show win0_5.index ⟨(i 0).val / 2000, ht⟩ (0 : Fin 2) * 2000 ≤ (i 0).val ∧ (i 0).val < win0_5.index ⟨(i 0).val / 2000, ht⟩ (0 : Fin 2) * 2000 + 2000
      have e50' : win0_5.index ⟨(i 0).val / 2000, ht⟩ (0 : Fin 2) = (i 0).val / 2000 := e50
      omega
    | ⟨1, _⟩ =>
      show win0_5.index ⟨(i 0).val / 2000, ht⟩ (1 : Fin 2) * 128 ≤ (i 1).val ∧ (i 1).val < win0_5.index ⟨(i 0).val / 2000, ht⟩ (1 : Fin 2) * 128 + 128
      omega

/-- An index of statistics row 1 is in point t's block iff each coordinate is in the block's range. -/
theorem mem_blk0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v51_1).slice (win0_6.rect t)).set ↔ _
  rw [View.set_slice_whole, Rect.mem_set_unit]
  exact Iff.rfl

/-- The one point that writes the row back is the last; what it writes is any row that the running total equals
    entry by entry. -/
theorem flushed0_6_of (c : Dev nD) (t : Fin cfg0.N) (G : S1x128.Idx → EReal)
    (hG : ∀ q : Fin 128, (outsAt0 V c t.val t.isLt).2.1 (ix2 (0 : Fin 1) q) = G (ix2 (0 : Fin 1) q)) :
    (dat0 V c).flushed 6 t = ((cfg0.win 6).blk t).view.read (Elt Ideal) G := by
  obtain ⟨e00, e01, e10, e11, e20, e21, e30, e31, e40, e41, e50, e51, e60, e61, e70, e71⟩ := idx0 t
  show (cfg0.win 6).cut (grid0.coords t) ((dat0 V c).after 6 t) = _
  rw [after0_6]
  funext j
  obtain ⟨u, q, rfl⟩ : ∃ (u : Fin 1) (q : Fin 128), j = ix2 u q := ⟨j 0, j 1, eq_ix2 (n0 := 1) (n1 := 128) j⟩
  obtain rfl : u = 0 := Fin.eq_zero u
  have hemb : ((cfg0.win 6).blk t).view.emb (ix2 (0 : Fin 1) q) = ix2 (0 : Fin 1) q := by
    funext a
    apply Fin.ext
    match a with
    | ⟨0, _⟩ => show win0_6.index t (0 : Fin 2) * 1 + 1 * 0 = 0; omega
    | ⟨1, _⟩ => show win0_6.index t (1 : Fin 2) * 128 + 1 * q.val = q.val; omega
  show (outsAt0 V c t.val t.isLt).2.1 (ix2 (0 : Fin 1) q) = G (((cfg0.win 6).blk t).view.emb (ix2 (0 : Fin 1) q))
  rw [hemb]
  exact hG q

/-- It writes the whole-array column sums. -/
theorem flushed0_6 (c : Dev nD) (t : Fin cfg0.N) (hf : (cfg0.win 6).flush t = true) :
    (dat0 V c).flushed 6 t = ((cfg0.win 6).blk t).view.read (Elt Ideal) (Cert.SageSpec.colSum (H0 V c)) := by
  have hN : cfg0.N = 100 := N_0
  have hlast : t.val + 1 = 100 := by
    have h1 := (flush0_6 t).mp hf
    have h2 : t.val < 100 := lt_of_lt_of_eq t.isLt hN
    omega
  exact flushed0_6_of V c t (Cert.SageSpec.colSum (H0 V c)) fun q =>
    (stat0_6_last V c q t.val t.isLt hlast).trans (Cert.SageSpec.colSum_ix2 (H0 V c) q).symm

/-- Statistics row 1 after the region: the column sums of the layer. -/
theorem arr0_6 (c : Dev nD) : (dat0 V c).arrAt 6 cfg0.N = Cert.SageSpec.colSum (Cert.DenseSpec.relu (Cert.SageSpec.lin (n := 200000) (V c main_v21) (V c main_v45) (V c main_v48) (V c main_arg0) (V c main_v50)) : S200000x128.Idx → EReal) :=
  (dat0 V c).arrAt_eq_of_cover 6 (Cert.SageSpec.colSum (H0 V c)) (flushed0_6 V c) fun i => by
    have hN : cfg0.N = 100 := N_0
    have hi0 : (i 0).val < 1 := (i 0).isLt
    have hi1 : (i 1).val < 128 := (i 1).isLt
    have ht : 99 < cfg0.N := by rw [hN]; omega
    obtain ⟨e00, e01, e10, e11, e20, e21, e30, e31, e40, e41, e50, e51, e60, e61, e70, e71⟩ := idx0 ⟨99, ht⟩
    refine ⟨⟨99, ht⟩, (flush0_6 _).mpr rfl, ?_⟩
    rw [mem_blk0_6]
    intro a
    match a with
    | ⟨0, _⟩ =>
      show win0_6.index ⟨99, ht⟩ (0 : Fin 2) * 1 ≤ (i 0).val ∧ (i 0).val < win0_6.index ⟨99, ht⟩ (0 : Fin 2) * 1 + 1
      omega
    | ⟨1, _⟩ =>
      show win0_6.index ⟨99, ht⟩ (1 : Fin 2) * 128 ≤ (i 1).val ∧ (i 1).val < win0_6.index ⟨99, ht⟩ (1 : Fin 2) * 128 + 128
      omega

/-- An index of statistics row 2 is in point t's block iff each coordinate is in the block's range. -/
theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v51_2).slice (win0_7.rect t)).set ↔ _
  rw [View.set_slice_whole, Rect.mem_set_unit]
  exact Iff.rfl

/-- The one point that writes the row back is the last; what it writes is any row that the running total equals
    entry by entry. -/
theorem flushed0_7_of (c : Dev nD) (t : Fin cfg0.N) (G : S1x128.Idx → EReal)
    (hG : ∀ q : Fin 128, (outsAt0 V c t.val t.isLt).2.2 (ix2 (0 : Fin 1) q) = G (ix2 (0 : Fin 1) q)) :
    (dat0 V c).flushed 7 t = ((cfg0.win 7).blk t).view.read (Elt Ideal) G := by
  obtain ⟨e00, e01, e10, e11, e20, e21, e30, e31, e40, e41, e50, e51, e60, e61, e70, e71⟩ := idx0 t
  show (cfg0.win 7).cut (grid0.coords t) ((dat0 V c).after 7 t) = _
  rw [after0_7]
  funext j
  obtain ⟨u, q, rfl⟩ : ∃ (u : Fin 1) (q : Fin 128), j = ix2 u q := ⟨j 0, j 1, eq_ix2 (n0 := 1) (n1 := 128) j⟩
  obtain rfl : u = 0 := Fin.eq_zero u
  have hemb : ((cfg0.win 7).blk t).view.emb (ix2 (0 : Fin 1) q) = ix2 (0 : Fin 1) q := by
    funext a
    apply Fin.ext
    match a with
    | ⟨0, _⟩ => show win0_7.index t (0 : Fin 2) * 1 + 1 * 0 = 0; omega
    | ⟨1, _⟩ => show win0_7.index t (1 : Fin 2) * 128 + 1 * q.val = q.val; omega
  show (outsAt0 V c t.val t.isLt).2.2 (ix2 (0 : Fin 1) q) = G (((cfg0.win 7).blk t).view.emb (ix2 (0 : Fin 1) q))
  rw [hemb]
  exact hG q

/-- It writes the whole-array column sums of squares. -/
theorem flushed0_7 (c : Dev nD) (t : Fin cfg0.N) (hf : (cfg0.win 7).flush t = true) :
    (dat0 V c).flushed 7 t = ((cfg0.win 7).blk t).view.read (Elt Ideal) (Cert.SageSpec.colSumSq (H0 V c)) := by
  have hN : cfg0.N = 100 := N_0
  have hlast : t.val + 1 = 100 := by
    have h1 := (flush0_7 t).mp hf
    have h2 : t.val < 100 := lt_of_lt_of_eq t.isLt hN
    omega
  exact flushed0_7_of V c t (Cert.SageSpec.colSumSq (H0 V c)) fun q =>
    (stat0_7_last V c q t.val t.isLt hlast).trans (Cert.SageSpec.colSumSq_ix2 (H0 V c) q).symm

/-- Statistics row 2 after the region: the column sums of squares of the layer. -/
theorem arr0_7 (c : Dev nD) : (dat0 V c).arrAt 7 cfg0.N = Cert.SageSpec.colSumSq (Cert.DenseSpec.relu (Cert.SageSpec.lin (n := 200000) (V c main_v21) (V c main_v45) (V c main_v48) (V c main_arg0) (V c main_v50)) : S200000x128.Idx → EReal) :=
  (dat0 V c).arrAt_eq_of_cover 7 (Cert.SageSpec.colSumSq (H0 V c)) (flushed0_7 V c) fun i => by
    have hN : cfg0.N = 100 := N_0
    have hi0 : (i 0).val < 1 := (i 0).isLt
    have hi1 : (i 1).val < 128 := (i 1).isLt
    have ht : 99 < cfg0.N := by rw [hN]; omega
    obtain ⟨e00, e01, e10, e11, e20, e21, e30, e31, e40, e41, e50, e51, e60, e61, e70, e71⟩ := idx0 ⟨99, ht⟩
    refine ⟨⟨99, ht⟩, (flush0_7 _).mpr rfl, ?_⟩
    rw [mem_blk0_7]
    intro a
    match a with
    | ⟨0, _⟩ =>
      show win0_7.index ⟨99, ht⟩ (0 : Fin 2) * 1 ≤ (i 0).val ∧ (i 0).val < win0_7.index ⟨99, ht⟩ (0 : Fin 2) * 1 + 1
      omega
    | ⟨1, _⟩ =>
      show win0_7.index ⟨99, ht⟩ (1 : Fin 2) * 128 ≤ (i 1).val ∧ (i 1).val < win0_7.index ⟨99, ht⟩ (1 : Fin 2) * 128 + 128
      omega

end Cert.KernelIdeal.RegR

end
-- ==== Proof.LibSageHost.lean ====
/-
  The host program's spelling of a dense SAGE step.

  The host multiplies the neighbour means by a weight matrix, adds a bias row broadcast down the rows, and adds the
  product of the node's own features with a second matrix. Entry by entry that is  mean · Wl + b + x · Wr ; without
  own features it is  mean · Wl + b ; a clamp at zero applied to either is the clamp of the function. Every law
  used is the definition of an operation at an entry: nothing here needs a finite value.
-/
import proofs.«146104_j52931176955955_1_alg».proof.Proof.SageSpec

noncomputable section

namespace Cert.SageSpec

open Idealize.ShloMosaic Idealize.ShloMosaic.ValueIdx Cert.DenseSpec

variable {M : ℕ}

/-- A row broadcast down the rows and added is the row added to every row. -/
theorem hostAddRow_eq (X : FVec Ideal ⟨2, ![M, 128]⟩ .f32) (b : FVec Ideal ⟨2, ![1, 128]⟩ .f32)
    (h2 : (⟨2, ![1, 128]⟩ : Shape).BroadcastsInDim ⟨2, ![M, 128]⟩ ![0, 1]) :
    addf X (broadcastInDim ⟨2, ![M, 128]⟩ ![0, 1] h2 b) = addRow X b := by
  funext i
  obtain ⟨p, q, rfl⟩ : ∃ (p : Fin M) (q : Fin 128), i = ix2 p q := ⟨i 0, i 1, eq_ix2 i⟩
  show X (ix2 p q) + broadcastInDim ⟨2, ![M, 128]⟩ ![0, 1] h2 b (ix2 p q) = _
  rw [broadcastInDim_apply ![0, 1] h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if (128 : ℕ) = 1 then 0 else q.val
      rw [if_neg (by decide)])]
  rfl

/-- The host's dense step with own features is `lin`. -/
theorem hostLin_eq (d : DotDims ⟨2, ![M, 128]⟩ ⟨2, ![128, 128]⟩ ⟨2, ![M, 128]⟩)
    (h1 : d.lhsContracting = [1]) (h2 : d.rhsContracting = [0]) (h3 : d.lhsNonContracting = [0])
    (h4 : d.rhsNonContracting = [1]) (h5 : d.lhsBatch = []) (h6 : d.rhsBatch = [])
    (mean x : FVec Ideal ⟨2, ![M, 128]⟩ .f32) (wl wr : FVec Ideal ⟨2, ![128, 128]⟩ .f32)
    (b : FVec Ideal ⟨2, ![1, 128]⟩ .f32)
    (hb : (⟨2, ![1, 128]⟩ : Shape).BroadcastsInDim ⟨2, ![M, 128]⟩ ![0, 1]) :
    addf (addf (Host.dotGeneral d none mean wl) (broadcastInDim ⟨2, ![M, 128]⟩ ![0, 1] hb b))
        (Host.dotGeneral d none x wr)
      = lin mean wl b x wr := by
  rw [hostDot_eq d h1 h2 h3 h4 h5 h6, hostDot_eq d h1 h2 h3 h4 h5 h6, hostAddRow_eq]
  rfl

/-- The host's dense step without own features is `lin0`. -/
theorem hostLin0_eq (d : DotDims ⟨2, ![M, 128]⟩ ⟨2, ![128, 128]⟩ ⟨2, ![M, 128]⟩)
    (h1 : d.lhsContracting = [1]) (h2 : d.rhsContracting = [0]) (h3 : d.lhsNonContracting = [0])
    (h4 : d.rhsNonContracting = [1]) (h5 : d.lhsBatch = []) (h6 : d.rhsBatch = [])
    (mean : FVec Ideal ⟨2, ![M, 128]⟩ .f32) (wl : FVec Ideal ⟨2, ![128, 128]⟩ .f32)
    (b : FVec Ideal ⟨2, ![1, 128]⟩ .f32)
    (hb : (⟨2, ![1, 128]⟩ : Shape).BroadcastsInDim ⟨2, ![M, 128]⟩ ![0, 1]) :
    addf (Host.dotGeneral d none mean wl) (broadcastInDim ⟨2, ![M, 128]⟩ ![0, 1] hb b) = lin0 mean wl b := by
  rw [hostDot_eq d h1 h2 h3 h4 h5 h6, hostAddRow_eq]
  rfl

/-- The entrywise sum of two arrays, as the host spells it. -/
theorem hostPlus_eq (a c : FVec Ideal ⟨2, ![M, 128]⟩ .f32) : addf a c = plus a c := rfl

/-- Addition of arrays commutes. -/
theorem plus_comm (a c : Mat M) : plus a c = plus c a := funext fun i => add_comm (a i) (c i)

end Cert.SageSpec

end
-- ==== Proof.RefD.lean ====
/-
  The reference's dense stages as whole-array functions.

  Each dense SAGE step of the reference — a product of the neighbour means with a weight slice, a bias row broadcast
  down the rows, a product of the node's own features with a second weight slice — is `lin` (or `lin0` without own
  features) of its operands; the clamps at zero are `relu`; the sums of two steps are `plus`.
-/
import proofs.«146104_j52931176955955_1_alg».proof.Proof.ReadP
import proofs.«146104_j52931176955955_1_alg».proof.Proof.LibSageHost

set_option maxRecDepth 16384

noncomputable section

namespace Cert.ReferenceIdeal.RefNet

open Cert.ReferenceIdeal Cert.ReferenceIdeal.Read Cert.SageSpec Cert.DenseSpec
open Idealize.ShloMosaic Idealize.ShloMosaic.ValueIdx

theorem v33_eq (x0 : (⟨S200000x128, .f32⟩ : BufTy).Contents (Elt Ideal)) (x3 : (⟨S2x600000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) :
    val_main_v33 (F := Ideal) x0 x3 x8 x9 x10 = lin (val_main_v27 (F := Ideal) x0 x3) (val_main_v1 (F := Ideal) x8) (val_main_v29 (F := Ideal) x9) x0 (val_main_v5 (F := Ideal) x10) :=
  hostLin_eq _ rfl rfl rfl rfl rfl rfl _ _ _ _ _ _

theorem v67_eq (x0 : (⟨S200000x128, .f32⟩ : BufTy).Contents (Elt Ideal)) (x1 : (⟨S150000x128, .f32⟩ : BufTy).Contents (Elt Ideal)) (x4 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) :
    val_main_v67 (F := Ideal) x0 x1 x4 x8 x9 x10 = lin (val_main_v61 (F := Ideal) x0 x4) (val_main_v35 (F := Ideal) x8) (val_main_v63 (F := Ideal) x9) x1 (val_main_v39 (F := Ideal) x10) :=
  hostLin_eq _ rfl rfl rfl rfl rfl rfl _ _ _ _ _ _

theorem v161_eq (x0 : (⟨S200000x128, .f32⟩ : BufTy).Contents (Elt Ideal)) (x3 : (⟨S2x600000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v161 (F := Ideal) x0 x3 x8 x9 x10 x11 x12 = lin (val_main_v155 (F := Ideal) x0 x3 x8 x9 x10 x11 x12) (val_main_v129 (F := Ideal) x8) (val_main_v157 (F := Ideal) x9) (val_main_v97 (F := Ideal) x0 x3 x8 x9 x10 x11 x12) (val_main_v133 (F := Ideal) x10) :=
  hostLin_eq _ rfl rfl rfl rfl rfl rfl _ _ _ _ _ _

theorem v195_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v195 (F := Ideal) x0 x1 x3 x4 x5 x8 x9 x10 x11 x12 = lin (val_main_v189 (F := Ideal) x0 x1 x4 x5 x8 x9 x10 x11 x12) (val_main_v163 (F := Ideal) x8) (val_main_v191 (F := Ideal) x9) (val_main_v97 (F := Ideal) x0 x3 x8 x9 x10 x11 x12) (val_main_v167 (F := Ideal) x10) :=
  hostLin_eq _ rfl rfl rfl rfl rfl rfl _ _ _ _ _ _

theorem v230_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v230 (F := Ideal) x0 x1 x3 x4 x8 x9 x10 x11 x12 = lin (val_main_v224 (F := Ideal) x0 x3 x4 x8 x9 x10 x11 x12) (val_main_v198 (F := Ideal) x8) (val_main_v226 (F := Ideal) x9) (val_main_v127 (F := Ideal) x0 x1 x4 x8 x9 x10 x11 x12) (val_main_v202 (F := Ideal) x10) :=
  hostLin_eq _ rfl rfl rfl rfl rfl rfl _ _ _ _ _ _

theorem v386_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v386 (F := Ideal) x0 x1 x3 x4 x5 x8 x9 x10 x11 x12 = lin (val_main_v380 (F := Ideal) x0 x1 x3 x4 x5 x8 x9 x10 x11 x12) (val_main_v354 (F := Ideal) x8) (val_main_v382 (F := Ideal) x9) (val_main_v292 (F := Ideal) x0 x1 x3 x4 x5 x8 x9 x10 x11 x12) (val_main_v358 (F := Ideal) x10) :=
  hostLin_eq _ rfl rfl rfl rfl rfl rfl _ _ _ _ _ _

theorem v420_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v420 (F := Ideal) x0 x1 x3 x4 x5 x8 x9 x10 x11 x12 = lin (val_main_v414 (F := Ideal) x0 x1 x3 x4 x5 x8 x9 x10 x11 x12) (val_main_v388 (F := Ideal) x8) (val_main_v416 (F := Ideal) x9) (val_main_v292 (F := Ideal) x0 x1 x3 x4 x5 x8 x9 x10 x11 x12) (val_main_v392 (F := Ideal) x10) :=
  hostLin_eq _ rfl rfl rfl rfl rfl rfl _ _ _ _ _ _

theorem v455_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v455 (F := Ideal) x0 x1 x3 x4 x5 x8 x9 x10 x11 x12 = lin (val_main_v449 (F := Ideal) x0 x1 x3 x4 x5 x8 x9 x10 x11 x12) (val_main_v423 (F := Ideal) x8) (val_main_v451 (F := Ideal) x9) (val_main_v322 (F := Ideal) x0 x1 x3 x4 x8 x9 x10 x11 x12) (val_main_v427 (F := Ideal) x10) :=
  hostLin_eq _ rfl rfl rfl rfl rfl rfl _ _ _ _ _ _

theorem v489_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v489 (F := Ideal) x0 x1 x3 x4 x6 x7 x8 x9 x10 x11 x12 = lin (val_main_v483 (F := Ideal) x0 x1 x4 x6 x7 x8 x9 x10 x11 x12) (val_main_v457 (F := Ideal) x8) (val_main_v485 (F := Ideal) x9) (val_main_v322 (F := Ideal) x0 x1 x3 x4 x8 x9 x10 x11 x12) (val_main_v461 (F := Ideal) x10) :=
  hostLin_eq _ rfl rfl rfl rfl rfl rfl _ _ _ _ _ _

theorem v524_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 : (⟨S2x500000, .i32⟩ : BufTy).Contents (Elt Ideal)) (x6 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v524 (F := Ideal) x0 x1 x3 x4 x6 x8 x9 x10 x11 x12 = lin (val_main_v518 (F := Ideal) x0 x1 x3 x4 x6 x8 x9 x10 x11 x12) (val_main_v492 (F := Ideal) x8) (val_main_v520 (F := Ideal) x9) (val_main_v352 (F := Ideal) x0 x1 x4 x6 x8 x9 x10 x11 x12) (val_main_v496 (F := Ideal) x10) :=
  hostLin_eq _ rfl rfl rfl rfl rfl rfl _ _ _ _ _ _

theorem v262_eq (x0 : (⟨S200000x128, .f32⟩ : BufTy).Contents (Elt Ideal)) (x1 : (⟨S150000x128, .f32⟩ : BufTy).Contents (Elt Ideal)) (x4 : (⟨S2x500000, .i32⟩ : BufTy).Contents (Elt Ideal)) (x6 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v262 (F := Ideal) x0 x1 x4 x6 x8 x9 x10 x11 x12 = lin0 (val_main_v258 (F := Ideal) x0 x1 x4 x6 x8 x9 x10 x11 x12) (val_main_v232 (F := Ideal) x8) (val_main_v260 (F := Ideal) x9) :=
  hostLin0_eq _ rfl rfl rfl rfl rfl rfl _ _ _ _

theorem v68_eq (x0 : (⟨S200000x128, .f32⟩ : BufTy).Contents (Elt Ideal)) (x3 : (⟨S2x600000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) :
    val_main_v68 (F := Ideal) x0 x3 x8 x9 x10 = relu (val_main_v33 (F := Ideal) x0 x3 x8 x9 x10) :=
  hostRelu_eq _ _

theorem v98_eq (x0 : (⟨S200000x128, .f32⟩ : BufTy).Contents (Elt Ideal)) (x1 : (⟨S150000x128, .f32⟩ : BufTy).Contents (Elt Ideal)) (x4 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) :
    val_main_v98 (F := Ideal) x0 x1 x4 x8 x9 x10 = relu (val_main_v67 (F := Ideal) x0 x1 x4 x8 x9 x10) :=
  hostRelu_eq _ _

theorem v263_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v263 (F := Ideal) x0 x1 x3 x4 x5 x8 x9 x10 x11 x12 = relu (val_main_v196 (F := Ideal) x0 x1 x3 x4 x5 x8 x9 x10 x11 x12) :=
  hostRelu_eq _ _

theorem v293_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v293 (F := Ideal) x0 x1 x3 x4 x8 x9 x10 x11 x12 = relu (val_main_v230 (F := Ideal) x0 x1 x3 x4 x8 x9 x10 x11 x12) :=
  hostRelu_eq _ _

theorem v323_eq (x0 : (⟨S200000x128, .f32⟩ : BufTy).Contents (Elt Ideal)) (x1 : (⟨S150000x128, .f32⟩ : BufTy).Contents (Elt Ideal)) (x4 : (⟨S2x500000, .i32⟩ : BufTy).Contents (Elt Ideal)) (x6 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v323 (F := Ideal) x0 x1 x4 x6 x8 x9 x10 x11 x12 = relu (val_main_v262 (F := Ideal) x0 x1 x4 x6 x8 x9 x10 x11 x12) :=
  hostRelu_eq _ _

theorem v196_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v196 (F := Ideal) x0 x1 x3 x4 x5 x8 x9 x10 x11 x12 = plus (val_main_v161 (F := Ideal) x0 x3 x8 x9 x10 x11 x12) (val_main_v195 (F := Ideal) x0 x1 x3 x4 x5 x8 x9 x10 x11 x12) := rfl

theorem v421_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v421 (F := Ideal) x0 x1 x3 x4 x5 x8 x9 x10 x11 x12 = plus (val_main_v386 (F := Ideal) x0 x1 x3 x4 x5 x8 x9 x10 x11 x12) (val_main_v420 (F := Ideal) x0 x1 x3 x4 x5 x8 x9 x10 x11 x12) := rfl

theorem v490_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v490 (F := Ideal) x0 x1 x3 x4 x5 x6 x7 x8 x9 x10 x11 x12 = plus (val_main_v455 (F := Ideal) x0 x1 x3 x4 x5 x8 x9 x10 x11 x12) (val_main_v489 (F := Ideal) x0 x1 x3 x4 x6 x7 x8 x9 x10 x11 x12) := rfl

end Cert.ReferenceIdeal.RefNet

end
-- ==== Proof.LibRealClosure.lean ====
/-
  Real-valued entries of the extended reals.

  The extended reals `EReal = ℝ ∪ {⊥, ⊤}` contain the real numbers as the elements other than the two
  infinities.  `IsReal x` says that `x` is (the image of) a real number.  Sums, differences, products,
  maxima, finite sums and case distinctions of real elements are real; so is a real element divided by a
  nonzero real constant, or by `max y 1` for a real `y` (which is at least `1`, hence nonzero); so is
  the reciprocal square root of a positive real.  On such elements the arithmetic of `EReal` is the
  arithmetic of `ℝ`, where distributivity holds without exception.

  The file also records the real numbers that five single-precision bit patterns denote:
  `1`, `200000`, `150000`, `10000`, and a positive real (the single-precision number nearest `1e-5`,
  which is `10995116 · 2⁻⁴⁰`).
-/
import Idealize.ShloMosaic.PureOps.Ideal.Laws

namespace Sage.Alg

open Idealize.ShloMosaic

/-- `x` is a real number: neither of the two infinities. -/
def IsReal (x : EReal) : Prop := ∃ r : ℝ, x = (r : EReal)

protected theorem IsReal.coe (r : ℝ) : IsReal (r : EReal) := ⟨r, rfl⟩

protected theorem IsReal.zero : IsReal (0 : EReal) := ⟨0, rfl⟩

protected theorem IsReal.add {x y : EReal} (hx : IsReal x) (hy : IsReal y) : IsReal (x + y) := by
  obtain ⟨a, rfl⟩ := hx
  obtain ⟨b, rfl⟩ := hy
  exact ⟨a + b, (EReal.coe_add a b).symm⟩

protected theorem IsReal.sub {x y : EReal} (hx : IsReal x) (hy : IsReal y) : IsReal (x - y) := by
  obtain ⟨a, rfl⟩ := hx
  obtain ⟨b, rfl⟩ := hy
  exact ⟨a - b, (EReal.coe_sub a b).symm⟩

protected theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The inclusion of the reals is monotone, so it commutes with `max`. -/
private theorem coe_max' (a b : ℝ) : max (a : EReal) (b : EReal) = ((max a b : ℝ) : EReal) :=
  (EReal.coe_strictMono.monotone.map_max (a := a) (b := b)).symm

protected theorem IsReal.max {x y : EReal} (hx : IsReal x) (hy : IsReal y) : IsReal (max x y) := by
  obtain ⟨a, rfl⟩ := hx
  obtain ⟨b, rfl⟩ := hy
  exact ⟨max a b, coe_max' a b⟩

protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

protected theorem IsReal.ite {p : Prop} [Decidable p] {x y : EReal} (hx : IsReal x) (hy : IsReal y) :
    IsReal (if p then x else y) := by
  split
  · exact hx
  · exact hy

/-- A real divided by a nonzero real constant. -/
protected theorem IsReal.div_coe {x : EReal} (hx : IsReal x) {c : ℝ} (hc : c ≠ 0) :
    IsReal (Ideal.div x (c : EReal)) := by
  rw [Ideal.div_coe hc]
  exact hx.mul (IsReal.coe _)

/-- A segment mean: a real divided by `max y 1`, which is a real number at least `1`. -/
protected theorem IsReal.div_max_one {x y : EReal} (hx : IsReal x) (hy : IsReal y) :
    IsReal (Ideal.div x (max y 1)) := by
  obtain ⟨b, rfl⟩ := hy
  have h1 : max (b : EReal) 1 = ((max b 1 : ℝ) : EReal) := by
    rw [← EReal.coe_one, coe_max']
  rw [h1]
  exact hx.div_coe (ne_of_gt (lt_of_lt_of_le one_pos (le_max_right b 1)))

/-- The reciprocal square root of a positive real is the real `(√r)⁻¹`. -/
protected theorem IsReal.rsqrt_pos {r : ℝ} (hr : 0 < r) : IsReal (Ideal.rsqrt (r : EReal)) := by
  rw [Ideal.rsqrt_coe, if_neg (not_lt.2 hr.le), if_neg hr.ne']
  exact IsReal.coe _

/-- An extended real strictly between the two infinities is real. -/
theorem isReal_of_ne_bot_of_ne_top {x : EReal} (hb : x ≠ ⊥) (ht : x ≠ ⊤) : IsReal x :=
  ⟨x.toReal, (EReal.coe_toReal ht hb).symm⟩

/-! ### Single-precision constants -/

/-- The pattern `0x3F800000` is `1.0`. -/
theorem ofBits_one : Ideal.ofBits .f32 0x3F800000#32 = ((1 : ℝ) : EReal) := by
  simp [Ideal.ofBits, Ideal.ieee, -EReal.coe_mul]; norm_num

/-- The pattern `0x48435000` is `200000.0 = (2²³ + 4411392) · 2⁻⁶`. -/
theorem ofBits_200000 : Ideal.ofBits .f32 0x48435000#32 = ((200000 : ℝ) : EReal) := by
  simp [Ideal.ofBits, Ideal.ieee, -EReal.coe_mul]; norm_num

/-- The pattern `0x48127C00` is `150000.0`. -/
theorem ofBits_150000 : Ideal.ofBits .f32 0x48127C00#32 = ((150000 : ℝ) : EReal) := by
  simp [Ideal.ofBits, Ideal.ieee, -EReal.coe_mul]; norm_num

/-- The pattern `0x461C4000` is `10000.0`. -/
theorem ofBits_10000 : Ideal.ofBits .f32 0x461C4000#32 = ((10000 : ℝ) : EReal) := by
  simp [Ideal.ofBits, Ideal.ieee, -EReal.coe_mul]; norm_num

/-- The pattern `0x3727C5AC` (the single-precision number nearest `1e-5`) is `10995116 · 2⁻⁴⁰`. -/
private theorem ofBits_eps_val :
    Ideal.ofBits .f32 0x3727C5AC#32 = ((10995116 * (2 : ℝ) ^ (-40 : Int) : ℝ) : EReal) := by
  simp [Ideal.ofBits, Ideal.ieee, -EReal.coe_mul]

/-- The pattern `0x3727C5AC` denotes a positive real. -/
theorem ofBits_eps_pos : ∃ e : ℝ, 0 < e ∧ Ideal.ofBits .f32 0x3727C5AC#32 = (e : EReal) :=
  ⟨10995116 * (2 : ℝ) ^ (-40 : Int), by positivity, ofBits_eps_val⟩

end Sage.Alg
-- ==== Proof.LibBnVariance.lean ====
/-
  The two formulas for the variance agree on real data.

  For real numbers `g₀, ..., gₙ₋₁` with mean `m = (∑ gⱼ) / N`, where `N = n ≠ 0`,
  `(∑ (gᵢ - m)²) / N = (∑ gᵢ²) / N - m²`, because `∑ (gᵢ - m)² = ∑ gᵢ² - 2 m ∑ gᵢ + n m²` and
  `∑ gᵢ = N m`.  In the extended reals the identity needs every entry to be real: with an infinite
  entry both the subtraction `gᵢ - m` and the distributive law fail.  For real entries every
  intermediate value is the image of a real number, division by the nonzero real `N` is
  multiplication by `1/N`, and the identity is the one over `ℝ`.  The common value is a sum of
  squares times `1/N`, hence a nonnegative real when `N > 0`.
-/
import proofs.«146104_j52931176955955_1_alg».proof.Proof.LibRealClosure

namespace Sage.Alg

open Idealize.ShloMosaic

/-- The inclusion of the reals commutes with finite sums. -/
private theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Expanding the squares: `∑ (gᵢ - m)² = ∑ gᵢ² - 2 m ∑ gᵢ + n m²`. -/
private theorem sum_sq_dev {n : ℕ} (g : Fin n → ℝ) (m : ℝ) :
    ∑ i, (g i - m) * (g i - m) = (∑ i, g i * g i) - 2 * m * (∑ i, g i) + (n : ℝ) * (m * m) := by
  have h : ∀ i, (g i - m) * (g i - m) = g i * g i - 2 * m * g i + m * m := fun i => by ring
  simp only [h]
  rw [Finset.sum_add_distrib, Finset.sum_sub_distrib, ← Finset.mul_sum, Finset.sum_const,
    Finset.card_univ, Fintype.card_fin, nsmul_eq_mul]

/-- The identity over the reals, with the mean `m = (∑ gⱼ) · (1/N)` and `n = N`:
    `(∑ (gᵢ - m)²) / N = (∑ gᵢ²) / N - m²`, since `∑ gᵢ = N m`. -/
private theorem var_real {n : ℕ} (N : ℝ) (hN : N ≠ 0) (hn : (n : ℝ) = N) (g : Fin n → ℝ) :
    (∑ i, (g i - (∑ j, g j) * (1 / N)) * (g i - (∑ j, g j) * (1 / N))) * (1 / N)
      = (∑ i, g i * g i) * (1 / N) - (∑ j, g j) * (1 / N) * ((∑ j, g j) * (1 / N)) := by
  rw [sum_sq_dev, hn]
  field_simp
  ring

/-- For real data, the mean of the squared deviations from the mean is the mean of the squares minus the
    squared mean. -/
theorem var_centered_eq {n : ℕ} (N : ℝ) (hN : N ≠ 0) (hn : (n : ℝ) = N) (f : Fin n → EReal)
    (hf : ∀ i, IsReal (f i)) :
    Ideal.div (∑ i, (f i - Ideal.div (∑ j, f j) (N : EReal)) * (f i - Ideal.div (∑ j, f j) (N : EReal)))
        (N : EReal)
      = Ideal.div (∑ i, f i * f i) (N : EReal)
          - Ideal.div (∑ j, f j) (N : EReal) * Ideal.div (∑ j, f j) (N : EReal) := by
  choose g hg using hf
  simp only [hg, Ideal.div_coe hN, coe_sum, ← EReal.coe_sub, ← EReal.coe_mul]
  rw [var_real N hN hn g]

/-- ... and it is a nonnegative real. -/
theorem var_centered_nonneg {n : ℕ} (N : ℝ) (hN : 0 < N) (f : Fin n → EReal) (hf : ∀ i, IsReal (f i)) :
    ∃ v : ℝ, 0 ≤ v ∧
      Ideal.div (∑ i, (f i - Ideal.div (∑ j, f j) (N : EReal)) * (f i - Ideal.div (∑ j, f j) (N : EReal)))
        (N : EReal) = (v : EReal) := by
  choose g hg using hf
  refine ⟨(∑ i, (g i - (∑ j, g j) * (1 / N)) * (g i - (∑ j, g j) * (1 / N))) * (1 / N), ?_, ?_⟩
  · exact mul_nonneg (Finset.sum_nonneg fun i _ => mul_self_nonneg _) (by positivity)
  · simp only [hg, Ideal.div_coe hN.ne', coe_sum, ← EReal.coe_sub, ← EReal.coe_mul]

end Sage.Alg
-- ==== Proof.LibBnBridge.lean ====
/-
  Batch normalisation of real data: the two forms of the normaliser agree, and a normalised entry is real.

  With mean `m = (∑ fⱼ) / N` (`N = n > 0`), the variance computed as the mean of the squares minus the
  squared mean equals the variance computed as the mean of the squared deviations, for real data; hence
  so do their reciprocal square roots after adding the same `e`.  The variance is a nonnegative real
  `v`, so for a positive real `ε` the sum `v + ε` is a positive real, its reciprocal square root
  is the real `(√(v + ε))⁻¹`, and `(x - m) · rsqrt(v + ε) · g + b` is real whenever `x`, `g`, `b` are.
-/
import proofs.«146104_j52931176955955_1_alg».proof.Proof.LibBnVariance

namespace Sage.Alg

open Idealize.ShloMosaic

/-- The mean of real data over a nonzero real count is real. -/
theorem mean_isReal {n : ℕ} (N : ℝ) (hN : N ≠ 0) (f : Fin n → EReal) (hf : ∀ i, IsReal (f i)) :
    IsReal (Ideal.div (∑ j, f j) (N : EReal)) :=
  (IsReal.sum _ _ fun i _ => hf i).div_coe hN

/-- The two normalisers agree on real data: the reciprocal square root of (mean of squares minus squared
    mean, plus `e`) is that of (mean of squared deviations, plus `e`). -/
theorem bn_forms_eq {n : ℕ} (N : ℝ) (hN : 0 < N) (hn : (n : ℝ) = N) (f : Fin n → EReal)
    (hf : ∀ i, IsReal (f i)) (e : EReal) :
    Ideal.rsqrt ((Ideal.div (∑ i, f i * f i) (N : EReal)
          - Ideal.div (∑ j, f j) (N : EReal) * Ideal.div (∑ j, f j) (N : EReal)) + e)
      = Ideal.rsqrt (Ideal.div (∑ i, (f i - Ideal.div (∑ j, f j) (N : EReal))
          * (f i - Ideal.div (∑ j, f j) (N : EReal))) (N : EReal) + e) := by
  rw [var_centered_eq N hN.ne' hn f hf]

/-- The normaliser is real: the variance `v ≥ 0` plus `ε > 0` is a positive real. -/
theorem bn_rsqrt_isReal {n : ℕ} (N : ℝ) (hN : 0 < N) (f : Fin n → EReal) (hf : ∀ i, IsReal (f i))
    {ε : ℝ} (hε : 0 < ε) :
    IsReal (Ideal.rsqrt (Ideal.div (∑ i, (f i - Ideal.div (∑ j, f j) (N : EReal))
          * (f i - Ideal.div (∑ j, f j) (N : EReal))) (N : EReal) + (ε : EReal))) := by
  obtain ⟨v, hv, hvar⟩ := var_centered_nonneg N hN f hf
  rw [hvar, ← EReal.coe_add]
  exact IsReal.rsqrt_pos (add_pos_of_nonneg_of_pos hv hε)

/-- A normalised, scaled and shifted entry is real. -/
theorem bn_entry_isReal {n : ℕ} (N : ℝ) (hN : 0 < N) (f : Fin n → EReal) (hf : ∀ i, IsReal (f i))
    {x g b : EReal} (hx : IsReal x) (hg : IsReal g) (hb : IsReal b) {ε : ℝ} (hε : 0 < ε) :
    IsReal (((x - Ideal.div (∑ j, f j) (N : EReal))
        * Ideal.rsqrt (Ideal.div (∑ i, (f i - Ideal.div (∑ j, f j) (N : EReal))
          * (f i - Ideal.div (∑ j, f j) (N : EReal))) (N : EReal) + (ε : EReal))) * g + b) :=
  (((hx.sub (mean_isReal N hN.ne' f hf)).mul (bn_rsqrt_isReal N hN f hf hε)).mul hg).add hb

/-- The same for the form with the variance as mean of squares minus squared mean. -/
theorem bn_entry_isReal' {n : ℕ} (N : ℝ) (hN : 0 < N) (hn : (n : ℝ) = N) (f : Fin n → EReal)
    (hf : ∀ i, IsReal (f i)) {x g b : EReal} (hx : IsReal x) (hg : IsReal g) (hb : IsReal b) {ε : ℝ}
    (hε : 0 < ε) :
    IsReal (((x - Ideal.div (∑ j, f j) (N : EReal))
        * Ideal.rsqrt ((Ideal.div (∑ i, f i * f i) (N : EReal)
          - Ideal.div (∑ j, f j) (N : EReal) * Ideal.div (∑ j, f j) (N : EReal)) + (ε : EReal))) * g + b) := by
  rw [bn_forms_eq N hN hn f hf]
  exact bn_entry_isReal N hN f hf hx hg hb hε

end Sage.Alg
-- ==== Proof.LibBnSpec.lean ====
/-
  Batch normalisation of a real array, at the level of whole arrays.

  For an array `h` of `n` rows and a real `N = n > 0`, the column mean is `μ = (column sum) / N`.  One form of
  the variance is the mean of the squares minus the squared mean, `(column sum of squares) / N − μ · μ`; the
  other is the mean of the squared deviations, `(Σ (h − μ)²) / N`.  For real entries the two agree (the identity
  over `ℝ`; it fails at an infinite entry), so normalising with either gives the same array.  The variance is a
  nonnegative real and the added constant is a positive real, so the normaliser `(v + ε)^(-1/2)` is real and
  every normalised entry is real when the scale and shift rows are.  Likewise the dense step, the entrywise sum,
  the clamp at zero and the column sums take real arrays to real arrays: each entry is a finite expression in
  `+`, `·`, `max` of real entries.
-/
import proofs.«146104_j52931176955955_1_alg».proof.Proof.SageSpec
import proofs.«146104_j52931176955955_1_alg».proof.Proof.LibBnBridge

noncomputable section

namespace Cert.SageSpec

open Sage.Alg Idealize.ShloMosaic Idealize.ShloMosaic.ValueIdx Cert.DenseSpec

variable {n : ℕ}

/-- The column mean: the column sum divided by `N`. -/
def muK (h : Mat n) (N : EReal) : Row := fun j => Ideal.div (colSum h j) N

/-- The variance as the mean of the squares minus the squared mean. -/
def varK (h : Mat n) (N : EReal) : Row :=
  fun j => Ideal.div (colSumSq h j) N - muK h N j * muK h N j

/-- Normalisation with the variance as the mean of the squared deviations from the column mean. -/
def bnRef (h : Mat n) (N : EReal) (g b : Row) : Mat n := fun i =>
  ((h i - Ideal.div (∑ p : Fin n, h (ix2 p (col i))) N)
      * Ideal.rsqrt (Ideal.div (∑ p : Fin n,
          (h (ix2 p (col i)) - Ideal.div (∑ p' : Fin n, h (ix2 p' (col i))) N)
            * (h (ix2 p (col i)) - Ideal.div (∑ p' : Fin n, h (ix2 p' (col i))) N)) N + eps))
    * g (ix2 (0 : Fin 1) (col i)) + b (ix2 (0 : Fin 1) (col i))

/-- On a real array, normalising with mean-of-squares-minus-squared-mean is normalising with the mean of the
    squared deviations. -/
theorem bnApply_eq_bnRef (h : Mat n) (hh : ∀ i, IsReal (h i)) (N : ℝ) (hN : 0 < N) (hn : (n : ℝ) = N)
    (g b : Row) : bnApply h (muK h (N : EReal)) (varK h (N : EReal)) g b = bnRef h (N : EReal) g b := by
  funext i
  have key := bn_forms_eq N hN hn (fun p : Fin n => h (ix2 p (col i))) (fun p => hh _) eps
  show ((h i - Ideal.div (∑ p : Fin n, h (ix2 p (col i))) (N : EReal))
      * Ideal.rsqrt ((Ideal.div (∑ p : Fin n, h (ix2 p (col i)) * h (ix2 p (col i))) (N : EReal)
          - Ideal.div (∑ p : Fin n, h (ix2 p (col i))) (N : EReal)
            * Ideal.div (∑ p : Fin n, h (ix2 p (col i))) (N : EReal)) + eps))
    * g (ix2 (0 : Fin 1) (col i)) + b (ix2 (0 : Fin 1) (col i)) = bnRef h (N : EReal) g b i
  rw [key]
  rfl

/-- A normalised real array is real when the scale and shift rows are. -/
theorem bnRef_isReal (h : Mat n) (hh : ∀ i, IsReal (h i)) (N : ℝ) (hN : 0 < N) (g b : Row)
    (hg : ∀ j, IsReal (g j)) (hb : ∀ j, IsReal (b j)) : ∀ i, IsReal (bnRef h (N : EReal) g b i) := by
  intro i
  obtain ⟨e, he, hee⟩ := ofBits_eps_pos
  have heps : eps = (e : EReal) := hee
  unfold bnRef
  rw [heps]
  exact bn_entry_isReal N hN (fun p : Fin n => h (ix2 p (col i))) (fun p => hh _) (hh i) (hg _) (hb _) he

/-- The same for the form with mean of squares minus squared mean. -/
theorem bnApply_isReal (h : Mat n) (hh : ∀ i, IsReal (h i)) (N : ℝ) (hN : 0 < N) (hn : (n : ℝ) = N)
    (g b : Row) (hg : ∀ j, IsReal (g j)) (hb : ∀ j, IsReal (b j)) :
    ∀ i, IsReal (bnApply h (muK h (N : EReal)) (varK h (N : EReal)) g b i) := by
  rw [bnApply_eq_bnRef h hh N hN hn g b]
  exact bnRef_isReal h hh N hN g b hg hb

/-- A product of real matrices is real: each entry is a finite sum of products. -/
theorem rowsTimes_isReal {M K N : ℕ} (A : (⟨2, ![M, K]⟩ : Shape).Idx → EReal)
    (W : (⟨2, ![K, N]⟩ : Shape).Idx → EReal) (hA : ∀ i, IsReal (A i)) (hW : ∀ i, IsReal (W i)) :
    ∀ i, IsReal (rowsTimes A W i) := by
  intro i
  unfold rowsTimes
  exact IsReal.sum _ _ fun k _ => (hA _).mul (hW _)

/-- A real row added to every row of a real matrix. -/
theorem addRow_isReal {M N : ℕ} (X : (⟨2, ![M, N]⟩ : Shape).Idx → EReal)
    (b : (⟨2, ![1, N]⟩ : Shape).Idx → EReal) (hX : ∀ i, IsReal (X i)) (hb : ∀ i, IsReal (b i)) :
    ∀ i, IsReal (addRow X b i) := by
  intro i
  unfold addRow
  exact (hX i).add (hb _)

theorem lin_isReal (mean x : Mat n) (wl wr : Wt) (b : Row) (hmean : ∀ i, IsReal (mean i))
    (hx : ∀ i, IsReal (x i)) (hwl : ∀ i, IsReal (wl i)) (hwr : ∀ i, IsReal (wr i))
    (hb : ∀ i, IsReal (b i)) : ∀ i, IsReal (lin mean wl b x wr i) := by
  intro i
  unfold lin
  exact (addRow_isReal _ _ (rowsTimes_isReal _ _ hmean hwl) hb i).add (rowsTimes_isReal _ _ hx hwr i)

theorem lin0_isReal (mean : Mat n) (wl : Wt) (b : Row) (hmean : ∀ i, IsReal (mean i))
    (hwl : ∀ i, IsReal (wl i)) (hb : ∀ i, IsReal (b i)) : ∀ i, IsReal (lin0 mean wl b i) := by
  intro i
  unfold lin0
  exact addRow_isReal _ _ (rowsTimes_isReal _ _ hmean hwl) hb i

theorem plus_isReal (a c : Mat n) (ha : ∀ i, IsReal (a i)) (hc : ∀ i, IsReal (c i)) :
    ∀ i, IsReal (plus a c i) := by
  intro i
  unfold plus
  exact (ha i).add (hc i)

theorem relu_isReal {s : Shape} (A : s.Idx → EReal) (hA : ∀ i, IsReal (A i)) :
    ∀ i, IsReal (Cert.DenseSpec.relu A i) := by
  intro i
  unfold Cert.DenseSpec.relu
  rw [Ideal.ofBits_zero_f32]
  exact (hA i).max IsReal.zero

theorem colSum_isReal (h : Mat n) (hh : ∀ i, IsReal (h i)) : ∀ j, IsReal (colSum h j) := by
  intro j
  unfold colSum
  exact IsReal.sum _ _ fun p _ => hh _

theorem colSumSq_isReal (h : Mat n) (hh : ∀ i, IsReal (h i)) : ∀ j, IsReal (colSumSq h j) := by
  intro j
  unfold colSumSq
  exact IsReal.sum _ _ fun p _ => (hh _).mul (hh _)

end Cert.SageSpec

end
-- ==== Proof.RefBn.lean ====
/-
  The reference network's five batch normalisations, as whole-array functions.

  Each normalisation takes an array `h` of `N` rows of 128 features (`N` = 200000, 150000, 200000, 150000,
  10000) and runs the same 29 stages: the column sums of `h` (zero plus the sum over the rows) divided by `N`
  give the column means; the means are broadcast to every row and subtracted; the squares of the differences are
  summed per column and divided by `N`, which gives the variances as means of squared deviations; a small
  positive constant is added and the reciprocal square root taken; every centred entry is multiplied by its
  column's normaliser and scale and the column's shift is added.  Read at an entry `(p, q)`, that is exactly
  `bnRef h N γ β (p, q)`.  No entry needs to be finite: both sides are the same expression, stage by stage.
-/
import proofs.«146104_j52931176955955_1_alg».proof.Proof.ReadP
import proofs.«146104_j52931176955955_1_alg».proof.Proof.LibBnSpec

noncomputable section

namespace Cert.ReferenceIdeal.RefNet

open Cert.ReferenceIdeal Cert.ReferenceIdeal.Read Cert.SageSpec Cert.DenseSpec Sage.Alg Idealize.ShloMosaic
  Idealize.ShloMosaic.ValueIdx

/-- Stages 69–97: the normalisation of stage 68 over its 200000 rows, with the variance as the mean of
    the squared deviations, is `bnRef`.  The column mean is the column sum (zero plus the sum over the rows) divided
    by 200000; the centred squares are summed and divided the same way; the small constant is added, the reciprocal
    square root taken, and every entry is centred, scaled by it and by the scale row, and shifted by the shift row. -/
theorem v97_eq (x0 : (⟨S200000x128, .f32⟩ : BufTy).Contents (Elt Ideal)) (x3 : (⟨S2x600000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v97 (F := Ideal) x0 x3 x8 x9 x10 x11 x12
      = bnRef (val_main_v68 (F := Ideal) x0 x3 x8 x9 x10) ((200000 : ℝ) : EReal) (val_main_v92 (F := Ideal) x11) (val_main_v95 (F := Ideal) x12) := by
  -- the column mean
  have h75 : ∀ q : Fin 128, val_main_v75 (F := Ideal) x0 x3 x8 x9 x10 (ix1 q)
      = Ideal.div (∑ p : Fin 200000, val_main_v68 (F := Ideal) x0 x3 x8 x9 x10 (ix2 p q)) ((200000 : ℝ) : EReal) := by
    intro q
    have hs : (∑ k : Fin 200000, (val_main_v68 (F := Ideal) x0 x3 x8 x9 x10) (idx_main_v73 (ix1 q) k)) = ∑ p : Fin 200000, val_main_v68 (F := Ideal) x0 x3 x8 x9 x10 (ix2 p q) :=
      Finset.sum_congr rfl fun k _ => congrArg (val_main_v68 (F := Ideal) x0 x3 x8 x9 x10) (funext fun a => Fin.ext (by match a with | ⟨0, _⟩ => rfl | ⟨1, _⟩ => rfl))
    rw [val_main_v75_apply, val_main_v73_apply, val_main_v74_apply, val_main_cst_11_apply, val_main_cst_10_apply, hs, Ideal.hostDivf_def,
      Ideal.ofBits_def (φ := .f32) 0x00000000#32, Ideal.ofBits_def (φ := .f32) 0x48435000#32, Ideal.ofBits_zero_f32,
      zero_add, ofBits_200000]
  -- the mean broadcast to every row, twice
  have h77 : ∀ (p : Fin 200000) (q : Fin 128), val_main_v77 (F := Ideal) x0 x3 x8 x9 x10 (ix2 p q) = val_main_v75 (F := Ideal) x0 x3 x8 x9 x10 (ix1 q) := by
    intro p q
    rw [val_main_v77_apply, val_main_v76_apply]
    exact congrArg (val_main_v75 (F := Ideal) x0 x3 x8 x9 x10) (funext fun a => Fin.ext (by match a with | ⟨0, _⟩ => rfl))
  have h84 : ∀ (p : Fin 200000) (q : Fin 128), val_main_v84 (F := Ideal) x0 x3 x8 x9 x10 (ix2 p q) = val_main_v75 (F := Ideal) x0 x3 x8 x9 x10 (ix1 q) := by
    intro p q
    rw [val_main_v84_apply, val_main_v83_apply]
    exact congrArg (val_main_v75 (F := Ideal) x0 x3 x8 x9 x10) (funext fun a => Fin.ext (by match a with | ⟨0, _⟩ => rfl))
  -- the mean of the squared deviations
  have h82 : ∀ q : Fin 128, val_main_v82 (F := Ideal) x0 x3 x8 x9 x10 (ix1 q)
      = Ideal.div (∑ p : Fin 200000, (val_main_v68 (F := Ideal) x0 x3 x8 x9 x10 (ix2 p q) - val_main_v75 (F := Ideal) x0 x3 x8 x9 x10 (ix1 q))
          * (val_main_v68 (F := Ideal) x0 x3 x8 x9 x10 (ix2 p q) - val_main_v75 (F := Ideal) x0 x3 x8 x9 x10 (ix1 q))) ((200000 : ℝ) : EReal) := by
    intro q
    have hs : (∑ k : Fin 200000, (val_main_v79 (F := Ideal) x0 x3 x8 x9 x10) (idx_main_v80 (ix1 q) k))
        = ∑ p : Fin 200000, (val_main_v68 (F := Ideal) x0 x3 x8 x9 x10 (ix2 p q) - val_main_v75 (F := Ideal) x0 x3 x8 x9 x10 (ix1 q)) * (val_main_v68 (F := Ideal) x0 x3 x8 x9 x10 (ix2 p q) - val_main_v75 (F := Ideal) x0 x3 x8 x9 x10 (ix1 q)) :=
      Finset.sum_congr rfl fun k _ => by
        have hk : idx_main_v80 (ix1 q) k = ix2 k q := funext fun a => Fin.ext (by match a with | ⟨0, _⟩ => rfl | ⟨1, _⟩ => rfl)
        rw [hk, val_main_v79_apply, val_main_v78_apply, h77, Ideal.mulf_def, Ideal.subf_def]
    rw [val_main_v82_apply, val_main_v80_apply, val_main_v81_apply, val_main_cst_13_apply, val_main_cst_12_apply, hs, Ideal.hostDivf_def,
      Ideal.ofBits_def (φ := .f32) 0x00000000#32, Ideal.ofBits_def (φ := .f32) 0x48435000#32, Ideal.ofBits_zero_f32,
      zero_add, ofBits_200000]
  -- the normaliser
  have h88 : ∀ q : Fin 128, val_main_v88 (F := Ideal) x0 x3 x8 x9 x10 (ix1 q)
      = Ideal.rsqrt (val_main_v82 (F := Ideal) x0 x3 x8 x9 x10 (ix1 q) + eps) := by
    intro q
    unfold eps
    rw [val_main_v88_apply, val_main_v87_apply, val_main_v86_apply, val_main_cst_14_apply, Ideal.hostUnary_rsqrt_def, Ideal.addf_def,
      Ideal.ofBits_def]
  have h90 : ∀ (p : Fin 200000) (q : Fin 128), val_main_v90 (F := Ideal) x0 x3 x8 x9 x10 (ix2 p q)
      = val_main_v88 (F := Ideal) x0 x3 x8 x9 x10 (ix1 q) := by
    intro p q
    rw [val_main_v90_apply, val_main_v89_apply]
    exact congrArg (val_main_v88 (F := Ideal) x0 x3 x8 x9 x10) (funext fun a => Fin.ext (by match a with | ⟨0, _⟩ => rfl))
  -- the scale and shift rows broadcast to every row
  have h93 : ∀ (p : Fin 200000) (q : Fin 128), val_main_v93 (F := Ideal) x11 (ix2 p q)
      = val_main_v92 (F := Ideal) x11 (ix2 (0 : Fin 1) q) := by
    intro p q
    rw [val_main_v93_apply]
    exact congrArg (val_main_v92 (F := Ideal) x11) (funext fun a => Fin.ext (by match a with | ⟨0, _⟩ => rfl | ⟨1, _⟩ => rfl))
  have h96 : ∀ (p : Fin 200000) (q : Fin 128), val_main_v96 (F := Ideal) x12 (ix2 p q)
      = val_main_v95 (F := Ideal) x12 (ix2 (0 : Fin 1) q) := by
    intro p q
    rw [val_main_v96_apply]
    exact congrArg (val_main_v95 (F := Ideal) x12) (funext fun a => Fin.ext (by match a with | ⟨0, _⟩ => rfl | ⟨1, _⟩ => rfl))
  funext i
  obtain ⟨p, q, rfl⟩ : ∃ p q, i = ix2 p q := ⟨i 0, i 1, eq_ix2 i⟩
  rw [val_main_v97_apply, val_main_v94_apply, val_main_v91_apply, val_main_v85_apply, h96, h93, h90, h88, h84, h82]
  simp only [Ideal.addf_def, Ideal.mulf_def, Ideal.subf_def, h75]
  rfl

/-- Stages 99–127: the normalisation of stage 98 over its 150000 rows, with the variance as the mean of
    the squared deviations, is `bnRef`.  The column mean is the column sum (zero plus the sum over the rows) divided
    by 150000; the centred squares are summed and divided the same way; the small constant is added, the reciprocal
    square root taken, and every entry is centred, scaled by it and by the scale row, and shifted by the shift row. -/
theorem v127_eq (x0 : (⟨S200000x128, .f32⟩ : BufTy).Contents (Elt Ideal)) (x1 : (⟨S150000x128, .f32⟩ : BufTy).Contents (Elt Ideal)) (x4 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v127 (F := Ideal) x0 x1 x4 x8 x9 x10 x11 x12
      = bnRef (val_main_v98 (F := Ideal) x0 x1 x4 x8 x9 x10) ((150000 : ℝ) : EReal) (val_main_v122 (F := Ideal) x11) (val_main_v125 (F := Ideal) x12) := by
  -- the column mean
  have h75 : ∀ q : Fin 128, val_main_v105 (F := Ideal) x0 x1 x4 x8 x9 x10 (ix1 q)
      = Ideal.div (∑ p : Fin 150000, val_main_v98 (F := Ideal) x0 x1 x4 x8 x9 x10 (ix2 p q)) ((150000 : ℝ) : EReal) := by
    intro q
    have hs : (∑ k : Fin 150000, (val_main_v98 (F := Ideal) x0 x1 x4 x8 x9 x10) (idx_main_v103 (ix1 q) k)) = ∑ p : Fin 150000, val_main_v98 (F := Ideal) x0 x1 x4 x8 x9 x10 (ix2 p q) :=
      Finset.sum_congr rfl fun k _ => congrArg (val_main_v98 (F := Ideal) x0 x1 x4 x8 x9 x10) (funext fun a => Fin.ext (by match a with | ⟨0, _⟩ => rfl | ⟨1, _⟩ => rfl))
    rw [val_main_v105_apply, val_main_v103_apply, val_main_v104_apply, val_main_cst_16_apply, val_main_cst_15_apply, hs, Ideal.hostDivf_def,
      Ideal.ofBits_def (φ := .f32) 0x00000000#32, Ideal.ofBits_def (φ := .f32) 0x48127C00#32, Ideal.ofBits_zero_f32,
      zero_add, ofBits_150000]
  -- the mean broadcast to every row, twice
  have h77 : ∀ (p : Fin 150000) (q : Fin 128), val_main_v107 (F := Ideal) x0 x1 x4 x8 x9 x10 (ix2 p q) = val_main_v105 (F := Ideal) x0 x1 x4 x8 x9 x10 (ix1 q) := by
    intro p q
    rw [val_main_v107_apply, val_main_v106_apply]
    exact congrArg (val_main_v105 (F := Ideal) x0 x1 x4 x8 x9 x10) (funext fun a => Fin.ext (by match a with | ⟨0, _⟩ => rfl))
  have h84 : ∀ (p : Fin 150000) (q : Fin 128), val_main_v114 (F := Ideal) x0 x1 x4 x8 x9 x10 (ix2 p q) = val_main_v105 (F := Ideal) x0 x1 x4 x8 x9 x10 (ix1 q) := by
    intro p q
    rw [val_main_v114_apply, val_main_v113_apply]
    exact congrArg (val_main_v105 (F := Ideal) x0 x1 x4 x8 x9 x10) (funext fun a => Fin.ext (by match a with | ⟨0, _⟩ => rfl))
  -- the mean of the squared deviations
  have h82 : ∀ q : Fin 128, val_main_v112 (F := Ideal) x0 x1 x4 x8 x9 x10 (ix1 q)
      = Ideal.div (∑ p : Fin 150000, (val_main_v98 (F := Ideal) x0 x1 x4 x8 x9 x10 (ix2 p q) - val_main_v105 (F := Ideal) x0 x1 x4 x8 x9 x10 (ix1 q))
          * (val_main_v98 (F := Ideal) x0 x1 x4 x8 x9 x10 (ix2 p q) - val_main_v105 (F := Ideal) x0 x1 x4 x8 x9 x10 (ix1 q))) ((150000 : ℝ) : EReal) := by
    intro q
    have hs : (∑ k : Fin 150000, (val_main_v109 (F := Ideal) x0 x1 x4 x8 x9 x10) (idx_main_v110 (ix1 q) k))
        = ∑ p : Fin 150000, (val_main_v98 (F := Ideal) x0 x1 x4 x8 x9 x10 (ix2 p q) - val_main_v105 (F := Ideal) x0 x1 x4 x8 x9 x10 (ix1 q)) * (val_main_v98 (F := Ideal) x0 x1 x4 x8 x9 x10 (ix2 p q) - val_main_v105 (F := Ideal) x0 x1 x4 x8 x9 x10 (ix1 q)) :=
      Finset.sum_congr rfl fun k _ => by
        have hk : idx_main_v110 (ix1 q) k = ix2 k q := funext fun a => Fin.ext (by match a with | ⟨0, _⟩ => rfl | ⟨1, _⟩ => rfl)
        rw [hk, val_main_v109_apply, val_main_v108_apply, h77, Ideal.mulf_def, Ideal.subf_def]
    rw [val_main_v112_apply, val_main_v110_apply, val_main_v111_apply, val_main_cst_18_apply, val_main_cst_17_apply, hs, Ideal.hostDivf_def,
      Ideal.ofBits_def (φ := .f32) 0x00000000#32, Ideal.ofBits_def (φ := .f32) 0x48127C00#32, Ideal.ofBits_zero_f32,
      zero_add, ofBits_150000]
  -- the normaliser
  have h88 : ∀ q : Fin 128, val_main_v118 (F := Ideal) x0 x1 x4 x8 x9 x10 (ix1 q)
      = Ideal.rsqrt (val_main_v112 (F := Ideal) x0 x1 x4 x8 x9 x10 (ix1 q) + eps) := by
    intro q
    unfold eps
    rw [val_main_v118_apply, val_main_v117_apply, val_main_v116_apply, val_main_cst_19_apply, Ideal.hostUnary_rsqrt_def, Ideal.addf_def,
      Ideal.ofBits_def]
  have h90 : ∀ (p : Fin 150000) (q : Fin 128), val_main_v120 (F := Ideal) x0 x1 x4 x8 x9 x10 (ix2 p q)
      = val_main_v118 (F := Ideal) x0 x1 x4 x8 x9 x10 (ix1 q) := by
    intro p q
    rw [val_main_v120_apply, val_main_v119_apply]
    exact congrArg (val_main_v118 (F := Ideal) x0 x1 x4 x8 x9 x10) (funext fun a => Fin.ext (by match a with | ⟨0, _⟩ => rfl))
  -- the scale and shift rows broadcast to every row
  have h93 : ∀ (p : Fin 150000) (q : Fin 128), val_main_v123 (F := Ideal) x11 (ix2 p q)
      = val_main_v122 (F := Ideal) x11 (ix2 (0 : Fin 1) q) := by
    intro p q
    rw [val_main_v123_apply]
    exact congrArg (val_main_v122 (F := Ideal) x11) (funext fun a => Fin.ext (by match a with | ⟨0, _⟩ => rfl | ⟨1, _⟩ => rfl))
  have h96 : ∀ (p : Fin 150000) (q : Fin 128), val_main_v126 (F := Ideal) x12 (ix2 p q)
      = val_main_v125 (F := Ideal) x12 (ix2 (0 : Fin 1) q) := by
    intro p q
    rw [val_main_v126_apply]
    exact congrArg (val_main_v125 (F := Ideal) x12) (funext fun a => Fin.ext (by match a with | ⟨0, _⟩ => rfl | ⟨1, _⟩ => rfl))
  funext i
  obtain ⟨p, q, rfl⟩ : ∃ p q, i = ix2 p q := ⟨i 0, i 1, eq_ix2 i⟩
  rw [val_main_v127_apply, val_main_v124_apply, val_main_v121_apply, val_main_v115_apply, h96, h93, h90, h88, h84, h82]
  simp only [Ideal.addf_def, Ideal.mulf_def, Ideal.subf_def, h75]
  rfl

/-- Stages 264–292: the normalisation of stage 263 over its 200000 rows, with the variance as the mean of
    the squared deviations, is `bnRef`.  The column mean is the column sum (zero plus the sum over the rows) divided
    by 200000; the centred squares are summed and divided the same way; the small constant is added, the reciprocal
    square root taken, and every entry is centred, scaled by it and by the scale row, and shifted by the shift row. -/
theorem v292_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v292 (F := Ideal) x0 x1 x3 x4 x5 x8 x9 x10 x11 x12
      = bnRef (val_main_v263 (F := Ideal) x0 x1 x3 x4 x5 x8 x9 x10 x11 x12) ((200000 : ℝ) : EReal) (val_main_v287 (F := Ideal) x11) (val_main_v290 (F := Ideal) x12) := by
  -- the column mean
  have h75 : ∀ q : Fin 128, val_main_v270 (F := Ideal) x0 x1 x3 x4 x5 x8 x9 x10 x11 x12 (ix1 q)
      = Ideal.div (∑ p : Fin 200000, val_main_v263 (F := Ideal) x0 x1 x3 x4 x5 x8 x9 x10 x11 x12 (ix2 p q)) ((200000 : ℝ) : EReal) := by
    intro q
    have hs : (∑ k : Fin 200000, (val_main_v263 (F := Ideal) x0 x1 x3 x4 x5 x8 x9 x10 x11 x12) (idx_main_v268 (ix1 q) k)) = ∑ p : Fin 200000, val_main_v263 (F := Ideal) x0 x1 x3 x4 x5 x8 x9 x10 x11 x12 (ix2 p q) :=
      Finset.sum_congr rfl fun k _ => congrArg (val_main_v263 (F := Ideal) x0 x1 x3 x4 x5 x8 x9 x10 x11 x12) (funext fun a => Fin.ext (by match a with | ⟨0, _⟩ => rfl | ⟨1, _⟩ => rfl))
    rw [val_main_v270_apply, val_main_v268_apply, val_main_v269_apply, val_main_cst_45_apply, val_main_cst_44_apply, hs, Ideal.hostDivf_def,
      Ideal.ofBits_def (φ := .f32) 0x00000000#32, Ideal.ofBits_def (φ := .f32) 0x48435000#32, Ideal.ofBits_zero_f32,
      zero_add, ofBits_200000]
  -- the mean broadcast to every row, twice
  have h77 : ∀ (p : Fin 200000) (q : Fin 128), val_main_v272 (F := Ideal) x0 x1 x3 x4 x5 x8 x9 x10 x11 x12 (ix2 p q) = val_main_v270 (F := Ideal) x0 x1 x3 x4 x5 x8 x9 x10 x11 x12 (ix1 q) := by
    intro p q
    rw [val_main_v272_apply, val_main_v271_apply]
    exact congrArg (val_main_v270 (F := Ideal) x0 x1 x3 x4 x5 x8 x9 x10 x11 x12) (funext fun a => Fin.ext (by match a with | ⟨0, _⟩ => rfl))
  have h84 : ∀ (p : Fin 200000) (q : Fin 128), val_main_v279 (F := Ideal) x0 x1 x3 x4 x5 x8 x9 x10 x11 x12 (ix2 p q) = val_main_v270 (F := Ideal) x0 x1 x3 x4 x5 x8 x9 x10 x11 x12 (ix1 q) := by
    intro p q
    rw [val_main_v279_apply, val_main_v278_apply]
    exact congrArg (val_main_v270 (F := Ideal) x0 x1 x3 x4 x5 x8 x9 x10 x11 x12) (funext fun a => Fin.ext (by match a with | ⟨0, _⟩ => rfl))
  -- the mean of the squared deviations
  have h82 : ∀ q : Fin 128, val_main_v277 (F := Ideal) x0 x1 x3 x4 x5 x8 x9 x10 x11 x12 (ix1 q)
      = Ideal.div (∑ p : Fin 200000, (val_main_v263 (F := Ideal) x0 x1 x3 x4 x5 x8 x9 x10 x11 x12 (ix2 p q) - val_main_v270 (F := Ideal) x0 x1 x3 x4 x5 x8 x9 x10 x11 x12 (ix1 q))
          * (val_main_v263 (F := Ideal) x0 x1 x3 x4 x5 x8 x9 x10 x11 x12 (ix2 p q) - val_main_v270 (F := Ideal) x0 x1 x3 x4 x5 x8 x9 x10 x11 x12 (ix1 q))) ((200000 : ℝ) : EReal) := by
    intro q
    have hs : (∑ k : Fin 200000, (val_main_v274 (F := Ideal) x0 x1 x3 x4 x5 x8 x9 x10 x11 x12) (idx_main_v275 (ix1 q) k))
        = ∑ p : Fin 200000, (val_main_v263 (F := Ideal) x0 x1 x3 x4 x5 x8 x9 x10 x11 x12 (ix2 p q) - val_main_v270 (F := Ideal) x0 x1 x3 x4 x5 x8 x9 x10 x11 x12 (ix1 q)) * (val_main_v263 (F := Ideal) x0 x1 x3 x4 x5 x8 x9 x10 x11 x12 (ix2 p q) - val_main_v270 (F := Ideal) x0 x1 x3 x4 x5 x8 x9 x10 x11 x12 (ix1 q)) :=
      Finset.sum_congr rfl fun k _ => by
        have hk : idx_main_v275 (ix1 q) k = ix2 k q := funext fun a => Fin.ext (by match a with | ⟨0, _⟩ => rfl | ⟨1, _⟩ => rfl)
        rw [hk, val_main_v274_apply, val_main_v273_apply, h77, Ideal.mulf_def, Ideal.subf_def]
    rw [val_main_v277_apply, val_main_v275_apply, val_main_v276_apply, val_main_cst_47_apply, val_main_cst_46_apply, hs, Ideal.hostDivf_def,
      Ideal.ofBits_def (φ := .f32) 0x00000000#32, Ideal.ofBits_def (φ := .f32) 0x48435000#32, Ideal.ofBits_zero_f32,
      zero_add, ofBits_200000]
  -- the normaliser
  have h88 : ∀ q : Fin 128, val_main_v283 (F := Ideal) x0 x1 x3 x4 x5 x8 x9 x10 x11 x12 (ix1 q)
      = Ideal.rsqrt (val_main_v277 (F := Ideal) x0 x1 x3 x4 x5 x8 x9 x10 x11 x12 (ix1 q) + eps) := by
    intro q
    unfold eps
    rw [val_main_v283_apply, val_main_v282_apply, val_main_v281_apply, val_main_cst_48_apply, Ideal.hostUnary_rsqrt_def, Ideal.addf_def,
      Ideal.ofBits_def]
  have h90 : ∀ (p : Fin 200000) (q : Fin 128), val_main_v285 (F := Ideal) x0 x1 x3 x4 x5 x8 x9 x10 x11 x12 (ix2 p q)
      = val_main_v283 (F := Ideal) x0 x1 x3 x4 x5 x8 x9 x10 x11 x12 (ix1 q) := by
    intro p q
    rw [val_main_v285_apply, val_main_v284_apply]
    exact congrArg (val_main_v283 (F := Ideal) x0 x1 x3 x4 x5 x8 x9 x10 x11 x12) (funext fun a => Fin.ext (by match a with | ⟨0, _⟩ => rfl))
  -- the scale and shift rows broadcast to every row
  have h93 : ∀ (p : Fin 200000) (q : Fin 128), val_main_v288 (F := Ideal) x11 (ix2 p q)
      = val_main_v287 (F := Ideal) x11 (ix2 (0 : Fin 1) q) := by
    intro p q
    rw [val_main_v288_apply]
    exact congrArg (val_main_v287 (F := Ideal) x11) (funext fun a => Fin.ext (by match a with | ⟨0, _⟩ => rfl | ⟨1, _⟩ => rfl))
  have h96 : ∀ (p : Fin 200000) (q : Fin 128), val_main_v291 (F := Ideal) x12 (ix2 p q)
      = val_main_v290 (F := Ideal) x12 (ix2 (0 : Fin 1) q) := by
    intro p q
    rw [val_main_v291_apply]
    exact congrArg (val_main_v290 (F := Ideal) x12) (funext fun a => Fin.ext (by match a with | ⟨0, _⟩ => rfl | ⟨1, _⟩ => rfl))
  funext i
  obtain ⟨p, q, rfl⟩ : ∃ p q, i = ix2 p q := ⟨i 0, i 1, eq_ix2 i⟩
  rw [val_main_v292_apply, val_main_v289_apply, val_main_v286_apply, val_main_v280_apply, h96, h93, h90, h88, h84, h82]
  simp only [Ideal.addf_def, Ideal.mulf_def, Ideal.subf_def, h75]
  rfl

/-- Stages 294–322: the normalisation of stage 293 over its 150000 rows, with the variance as the mean of
    the squared deviations, is `bnRef`.  The column mean is the column sum (zero plus the sum over the rows) divided
    by 150000; the centred squares are summed and divided the same way; the small constant is added, the reciprocal
    square root taken, and every entry is centred, scaled by it and by the scale row, and shifted by the shift row. -/
theorem v322_eq (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 : (⟨S2x500000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v322 (F := Ideal) x0 x1 x3 x4 x8 x9 x10 x11 x12
      = bnRef (val_main_v293 (F := Ideal) x0 x1 x3 x4 x8 x9 x10 x11 x12) ((150000 : ℝ) : EReal) (val_main_v317 (F := Ideal) x11) (val_main_v320 (F := Ideal) x12) := by
  -- the column mean
  have h75 : ∀ q : Fin 128, val_main_v300 (F := Ideal) x0 x1 x3 x4 x8 x9 x10 x11 x12 (ix1 q)
      = Ideal.div (∑ p : Fin 150000, val_main_v293 (F := Ideal) x0 x1 x3 x4 x8 x9 x10 x11 x12 (ix2 p q)) ((150000 : ℝ) : EReal) := by
    intro q
    have hs : (∑ k : Fin 150000, (val_main_v293 (F := Ideal) x0 x1 x3 x4 x8 x9 x10 x11 x12) (idx_main_v298 (ix1 q) k)) = ∑ p : Fin 150000, val_main_v293 (F := Ideal) x0 x1 x3 x4 x8 x9 x10 x11 x12 (ix2 p q) :=
      Finset.sum_congr rfl fun k _ => congrArg (val_main_v293 (F := Ideal) x0 x1 x3 x4 x8 x9 x10 x11 x12) (funext fun a => Fin.ext (by match a with | ⟨0, _⟩ => rfl | ⟨1, _⟩ => rfl))
    rw [val_main_v300_apply, val_main_v298_apply, val_main_v299_apply, val_main_cst_50_apply, val_main_cst_49_apply, hs, Ideal.hostDivf_def,
      Ideal.ofBits_def (φ := .f32) 0x00000000#32, Ideal.ofBits_def (φ := .f32) 0x48127C00#32, Ideal.ofBits_zero_f32,
      zero_add, ofBits_150000]
  -- the mean broadcast to every row, twice
  have h77 : ∀ (p : Fin 150000) (q : Fin 128), val_main_v302 (F := Ideal) x0 x1 x3 x4 x8 x9 x10 x11 x12 (ix2 p q) = val_main_v300 (F := Ideal) x0 x1 x3 x4 x8 x9 x10 x11 x12 (ix1 q) := by
    intro p q
    rw [val_main_v302_apply, val_main_v301_apply]
    exact congrArg (val_main_v300 (F := Ideal) x0 x1 x3 x4 x8 x9 x10 x11 x12) (funext fun a => Fin.ext (by match a with | ⟨0, _⟩ => rfl))
  have h84 : ∀ (p : Fin 150000) (q : Fin 128), val_main_v309 (F := Ideal) x0 x1 x3 x4 x8 x9 x10 x11 x12 (ix2 p q) = val_main_v300 (F := Ideal) x0 x1 x3 x4 x8 x9 x10 x11 x12 (ix1 q) := by
    intro p q
    rw [val_main_v309_apply, val_main_v308_apply]
    exact congrArg (val_main_v300 (F := Ideal) x0 x1 x3 x4 x8 x9 x10 x11 x12) (funext fun a => Fin.ext (by match a with | ⟨0, _⟩ => rfl))
  -- the mean of the squared deviations
  have h82 : ∀ q : Fin 128, val_main_v307 (F := Ideal) x0 x1 x3 x4 x8 x9 x10 x11 x12 (ix1 q)
      = Ideal.div (∑ p : Fin 150000, (val_main_v293 (F := Ideal) x0 x1 x3 x4 x8 x9 x10 x11 x12 (ix2 p q) - val_main_v300 (F := Ideal) x0 x1 x3 x4 x8 x9 x10 x11 x12 (ix1 q))
          * (val_main_v293 (F := Ideal) x0 x1 x3 x4 x8 x9 x10 x11 x12 (ix2 p q) - val_main_v300 (F := Ideal) x0 x1 x3 x4 x8 x9 x10 x11 x12 (ix1 q))) ((150000 : ℝ) : EReal) := by
    intro q
    have hs : (∑ k : Fin 150000, (val_main_v304 (F := Ideal) x0 x1 x3 x4 x8 x9 x10 x11 x12) (idx_main_v305 (ix1 q) k))
        = ∑ p : Fin 150000, (val_main_v293 (F := Ideal) x0 x1 x3 x4 x8 x9 x10 x11 x12 (ix2 p q) - val_main_v300 (F := Ideal) x0 x1 x3 x4 x8 x9 x10 x11 x12 (ix1 q)) * (val_main_v293 (F := Ideal) x0 x1 x3 x4 x8 x9 x10 x11 x12 (ix2 p q) - val_main_v300 (F := Ideal) x0 x1 x3 x4 x8 x9 x10 x11 x12 (ix1 q)) :=
      Finset.sum_congr rfl fun k _ => by
        have hk : idx_main_v305 (ix1 q) k = ix2 k q := funext fun a => Fin.ext (by match a with | ⟨0, _⟩ => rfl | ⟨1, _⟩ => rfl)
        rw [hk, val_main_v304_apply, val_main_v303_apply, h77, Ideal.mulf_def, Ideal.subf_def]
    rw [val_main_v307_apply, val_main_v305_apply, val_main_v306_apply, val_main_cst_52_apply, val_main_cst_51_apply, hs, Ideal.hostDivf_def,
      Ideal.ofBits_def (φ := .f32) 0x00000000#32, Ideal.ofBits_def (φ := .f32) 0x48127C00#32, Ideal.ofBits_zero_f32,
      zero_add, ofBits_150000]
  -- the normaliser
  have h88 : ∀ q : Fin 128, val_main_v313 (F := Ideal) x0 x1 x3 x4 x8 x9 x10 x11 x12 (ix1 q)
      = Ideal.rsqrt (val_main_v307 (F := Ideal) x0 x1 x3 x4 x8 x9 x10 x11 x12 (ix1 q) + eps) := by
    intro q
    unfold eps
    rw [val_main_v313_apply, val_main_v312_apply, val_main_v311_apply, val_main_cst_53_apply, Ideal.hostUnary_rsqrt_def, Ideal.addf_def,
      Ideal.ofBits_def]
  have h90 : ∀ (p : Fin 150000) (q : Fin 128), val_main_v315 (F := Ideal) x0 x1 x3 x4 x8 x9 x10 x11 x12 (ix2 p q)
      = val_main_v313 (F := Ideal) x0 x1 x3 x4 x8 x9 x10 x11 x12 (ix1 q) := by
    intro p q
    rw [val_main_v315_apply, val_main_v314_apply]
    exact congrArg (val_main_v313 (F := Ideal) x0 x1 x3 x4 x8 x9 x10 x11 x12) (funext fun a => Fin.ext (by match a with | ⟨0, _⟩ => rfl))
  -- the scale and shift rows broadcast to every row
  have h93 : ∀ (p : Fin 150000) (q : Fin 128), val_main_v318 (F := Ideal) x11 (ix2 p q)
      = val_main_v317 (F := Ideal) x11 (ix2 (0 : Fin 1) q) := by
    intro p q
    rw [val_main_v318_apply]
    exact congrArg (val_main_v317 (F := Ideal) x11) (funext fun a => Fin.ext (by match a with | ⟨0, _⟩ => rfl | ⟨1, _⟩ => rfl))
  have h96 : ∀ (p : Fin 150000) (q : Fin 128), val_main_v321 (F := Ideal) x12 (ix2 p q)
      = val_main_v320 (F := Ideal) x12 (ix2 (0 : Fin 1) q) := by
    intro p q
    rw [val_main_v321_apply]
    exact congrArg (val_main_v320 (F := Ideal) x12) (funext fun a => Fin.ext (by match a with | ⟨0, _⟩ => rfl | ⟨1, _⟩ => rfl))
  funext i
  obtain ⟨p, q, rfl⟩ : ∃ p q, i = ix2 p q := ⟨i 0, i 1, eq_ix2 i⟩
  rw [val_main_v322_apply, val_main_v319_apply, val_main_v316_apply, val_main_v310_apply, h96, h93, h90, h88, h84, h82]
  simp only [Ideal.addf_def, Ideal.mulf_def, Ideal.subf_def, h75]
  rfl

/-- Stages 324–352: the normalisation of stage 323 over its 10000 rows, with the variance as the mean of
    the squared deviations, is `bnRef`.  The column mean is the column sum (zero plus the sum over the rows) divided
    by 10000; the centred squares are summed and divided the same way; the small constant is added, the reciprocal
    square root taken, and every entry is centred, scaled by it and by the scale row, and shifted by the shift row. -/
theorem v352_eq (x0 : (⟨S200000x128, .f32⟩ : BufTy).Contents (Elt Ideal)) (x1 : (⟨S150000x128, .f32⟩ : BufTy).Contents (Elt Ideal)) (x4 : (⟨S2x500000, .i32⟩ : BufTy).Contents (Elt Ideal)) (x6 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) :
    val_main_v352 (F := Ideal) x0 x1 x4 x6 x8 x9 x10 x11 x12
      = bnRef (val_main_v323 (F := Ideal) x0 x1 x4 x6 x8 x9 x10 x11 x12) ((10000 : ℝ) : EReal) (val_main_v347 (F := Ideal) x11) (val_main_v350 (F := Ideal) x12) := by
  -- the column mean
  have h75 : ∀ q : Fin 128, val_main_v330 (F := Ideal) x0 x1 x4 x6 x8 x9 x10 x11 x12 (ix1 q)
      = Ideal.div (∑ p : Fin 10000, val_main_v323 (F := Ideal) x0 x1 x4 x6 x8 x9 x10 x11 x12 (ix2 p q)) ((10000 : ℝ) : EReal) := by
    intro q
    have hs : (∑ k : Fin 10000, (val_main_v323 (F := Ideal) x0 x1 x4 x6 x8 x9 x10 x11 x12) (idx_main_v328 (ix1 q) k)) = ∑ p : Fin 10000, val_main_v323 (F := Ideal) x0 x1 x4 x6 x8 x9 x10 x11 x12 (ix2 p q) :=
      Finset.sum_congr rfl fun k _ => congrArg (val_main_v323 (F := Ideal) x0 x1 x4 x6 x8 x9 x10 x11 x12) (funext fun a => Fin.ext (by match a with | ⟨0, _⟩ => rfl | ⟨1, _⟩ => rfl))
    rw [val_main_v330_apply, val_main_v328_apply, val_main_v329_apply, val_main_cst_55_apply, val_main_cst_54_apply, hs, Ideal.hostDivf_def,
      Ideal.ofBits_def (φ := .f32) 0x00000000#32, Ideal.ofBits_def (φ := .f32) 0x461C4000#32, Ideal.ofBits_zero_f32,
      zero_add, ofBits_10000]
  -- the mean broadcast to every row, twice
  have h77 : ∀ (p : Fin 10000) (q : Fin 128), val_main_v332 (F := Ideal) x0 x1 x4 x6 x8 x9 x10 x11 x12 (ix2 p q) = val_main_v330 (F := Ideal) x0 x1 x4 x6 x8 x9 x10 x11 x12 (ix1 q) := by
    intro p q
    rw [val_main_v332_apply, val_main_v331_apply]
    exact congrArg (val_main_v330 (F := Ideal) x0 x1 x4 x6 x8 x9 x10 x11 x12) (funext fun a => Fin.ext (by match a with | ⟨0, _⟩ => rfl))
  have h84 : ∀ (p : Fin 10000) (q : Fin 128), val_main_v339 (F := Ideal) x0 x1 x4 x6 x8 x9 x10 x11 x12 (ix2 p q) = val_main_v330 (F := Ideal) x0 x1 x4 x6 x8 x9 x10 x11 x12 (ix1 q) := by
    intro p q
    rw [val_main_v339_apply, val_main_v338_apply]
    exact congrArg (val_main_v330 (F := Ideal) x0 x1 x4 x6 x8 x9 x10 x11 x12) (funext fun a => Fin.ext (by match a with | ⟨0, _⟩ => rfl))
  -- the mean of the squared deviations
  have h82 : ∀ q : Fin 128, val_main_v337 (F := Ideal) x0 x1 x4 x6 x8 x9 x10 x11 x12 (ix1 q)
      = Ideal.div (∑ p : Fin 10000, (val_main_v323 (F := Ideal) x0 x1 x4 x6 x8 x9 x10 x11 x12 (ix2 p q) - val_main_v330 (F := Ideal) x0 x1 x4 x6 x8 x9 x10 x11 x12 (ix1 q))
          * (val_main_v323 (F := Ideal) x0 x1 x4 x6 x8 x9 x10 x11 x12 (ix2 p q) - val_main_v330 (F := Ideal) x0 x1 x4 x6 x8 x9 x10 x11 x12 (ix1 q))) ((10000 : ℝ) : EReal) := by
    intro q
    have hs : (∑ k : Fin 10000, (val_main_v334 (F := Ideal) x0 x1 x4 x6 x8 x9 x10 x11 x12) (idx_main_v335 (ix1 q) k))
        = ∑ p : Fin 10000, (val_main_v323 (F := Ideal) x0 x1 x4 x6 x8 x9 x10 x11 x12 (ix2 p q) - val_main_v330 (F := Ideal) x0 x1 x4 x6 x8 x9 x10 x11 x12 (ix1 q)) * (val_main_v323 (F := Ideal) x0 x1 x4 x6 x8 x9 x10 x11 x12 (ix2 p q) - val_main_v330 (F := Ideal) x0 x1 x4 x6 x8 x9 x10 x11 x12 (ix1 q)) :=
      Finset.sum_congr rfl fun k _ => by
        have hk : idx_main_v335 (ix1 q) k = ix2 k q := funext fun a => Fin.ext (by match a with | ⟨0, _⟩ => rfl | ⟨1, _⟩ => rfl)
        rw [hk, val_main_v334_apply, val_main_v333_apply, h77, Ideal.mulf_def, Ideal.subf_def]
    rw [val_main_v337_apply, val_main_v335_apply, val_main_v336_apply, val_main_cst_57_apply, val_main_cst_56_apply, hs, Ideal.hostDivf_def,
      Ideal.ofBits_def (φ := .f32) 0x00000000#32, Ideal.ofBits_def (φ := .f32) 0x461C4000#32, Ideal.ofBits_zero_f32,
      zero_add, ofBits_10000]
  -- the normaliser
  have h88 : ∀ q : Fin 128, val_main_v343 (F := Ideal) x0 x1 x4 x6 x8 x9 x10 x11 x12 (ix1 q)
      = Ideal.rsqrt (val_main_v337 (F := Ideal) x0 x1 x4 x6 x8 x9 x10 x11 x12 (ix1 q) + eps) := by
    intro q
    unfold eps
    rw [val_main_v343_apply, val_main_v342_apply, val_main_v341_apply, val_main_cst_58_apply, Ideal.hostUnary_rsqrt_def, Ideal.addf_def,
      Ideal.ofBits_def]
  have h90 : ∀ (p : Fin 10000) (q : Fin 128), val_main_v345 (F := Ideal) x0 x1 x4 x6 x8 x9 x10 x11 x12 (ix2 p q)
      = val_main_v343 (F := Ideal) x0 x1 x4 x6 x8 x9 x10 x11 x12 (ix1 q) := by
    intro p q
    rw [val_main_v345_apply, val_main_v344_apply]
    exact congrArg (val_main_v343 (F := Ideal) x0 x1 x4 x6 x8 x9 x10 x11 x12) (funext fun a => Fin.ext (by match a with | ⟨0, _⟩ => rfl))
  -- the scale and shift rows broadcast to every row
  have h93 : ∀ (p : Fin 10000) (q : Fin 128), val_main_v348 (F := Ideal) x11 (ix2 p q)
      = val_main_v347 (F := Ideal) x11 (ix2 (0 : Fin 1) q) := by
    intro p q
    rw [val_main_v348_apply]
    exact congrArg (val_main_v347 (F := Ideal) x11) (funext fun a => Fin.ext (by match a with | ⟨0, _⟩ => rfl | ⟨1, _⟩ => rfl))
  have h96 : ∀ (p : Fin 10000) (q : Fin 128), val_main_v351 (F := Ideal) x12 (ix2 p q)
      = val_main_v350 (F := Ideal) x12 (ix2 (0 : Fin 1) q) := by
    intro p q
    rw [val_main_v351_apply]
    exact congrArg (val_main_v350 (F := Ideal) x12) (funext fun a => Fin.ext (by match a with | ⟨0, _⟩ => rfl | ⟨1, _⟩ => rfl))
  funext i
  obtain ⟨p, q, rfl⟩ : ∃ p q, i = ix2 p q := ⟨i 0, i 1, eq_ix2 i⟩
  rw [val_main_v352_apply, val_main_v349_apply, val_main_v346_apply, val_main_v340_apply, h96, h93, h90, h88, h84, h82]
  simp only [Ideal.addf_def, Ideal.mulf_def, Ideal.subf_def, h75]
  rfl

end Cert.ReferenceIdeal.RefNet

end
-- ==== Proof.LibSegMeanReal.lean ====
/-
  A segment mean of real rows is real.

  A segment mean gathers rows of a table, adds each gathered row into the row of a zero table that a second
  index column names, counts in the same way how many rows were added into each destination row, floors the
  count at one, and divides.  Every operation reads its result entry off entries of its operands:

  * an entry of a gather, or of a broadcast, IS an entry of its operand (whichever one the indices select);
  * an entry of an accumulating scatter is the operand's entry plus a finite sum of update entries (the
    updates that land there; none, if every index is out of range);
  * an entry of a pointwise maximum or quotient is the maximum or quotient of the entries.

  So if the table's entries are real, every entry of the row sums is a real number (zero plus a finite sum
  of reals), every entry of the counts is a real number (zero plus a finite sum of ones), every entry of the
  floored counts is `max y 1` for a real `y`, hence a real number that is at least one and so nonzero, and
  every entry of the quotient is real.  Nothing is assumed about the index columns or the dimension numbers,
  and every extent is generic.
-/
import Idealize.ShloMosaic.PureOps.Ideal.Laws
import Idealize.ShloMosaic.Lib.ValueIdx
import proofs.«146104_j52931176955955_1_alg».proof.Proof.LibRealClosure

namespace Sage.Alg

open Idealize.ShloMosaic

/-- A value `max y 1` with `y` real: a count floored at one. -/
def IsMaxOne (v : EReal) : Prop := ∃ y : EReal, IsReal y ∧ v = max y 1

protected theorem IsReal.one : IsReal (1 : EReal) := ⟨1, rfl⟩

/-- A real divided by a floored count is real: the floored count is a real number at least `1`. -/
protected theorem IsReal.div_isMaxOne {x v : EReal} (hx : IsReal x) (hv : IsMaxOne v) :
    IsReal (Ideal.div x v) := by
  obtain ⟨y, hy, rfl⟩ := hv
  exact hx.div_max_one hy

section Entries

variable {α : Type} {P : α → Prop}

/-- Every entry of a broadcast is an entry of its operand. -/
theorem broadcastInDim_forall {s t : Shape} (dims : Fin s.rank → Fin t.rank) (h : s.BroadcastsInDim t dims)
    (x : s.Idx → α) (hx : ∀ k, P (x k)) (j : t.Idx) : P (broadcastInDim t dims h x j) := by
  unfold broadcastInDim
  exact hx _

/-- Every entry of a gather is an entry of its operand, whatever the start indices. -/
theorem gather_forall {s si t : Shape} {w : Nat} (d : GatherDims s si t) (x : s.Idx → α)
    (hx : ∀ k, P (x k)) (idx : IVec si w) (j : t.Idx) : P (Host.gather d x idx j) := by
  unfold Host.gather
  exact hx _

end Entries

/-- The splat of `+0.0` has real entries. -/
theorem constant_zero_isReal (s : Shape) (i : s.Idx) :
    IsReal (constant (F := Ideal) s .f32 0x00000000#32 i) := by
  show IsReal (Ideal.ofBits .f32 0x00000000#32)
  rw [Ideal.ofBits_zero_f32]
  exact IsReal.zero

/-- The splat of `1.0` has entries `1`. -/
theorem constant_one_apply (s : Shape) (i : s.Idx) :
    constant (F := Ideal) s .f32 0x3F800000#32 i = (1 : EReal) := by
  show Ideal.ofBits .f32 0x3F800000#32 = 1
  rw [ofBits_one, EReal.coe_one]

/-- An accumulating scatter of real updates into a real operand has real entries: each is the operand's
    entry plus a finite sum of update entries. -/
theorem scatterAdd_isReal {φ : FTy} {s si su : Shape} {w : Nat} (d : ScatterDims s si su)
    (x : FVec Ideal s φ) (hx : ∀ i, IsReal (x i)) (idx : IVec si w) (upd : FVec Ideal su φ)
    (hu : ∀ j, IsReal (upd j)) (i : s.Idx) :
    IsReal (Host.scatterAdd (F := Ideal) d x idx upd i) := by
  show IsReal (Ideal.hostScatterAdd d x idx upd i)
  unfold Ideal.hostScatterAdd
  exact (hx i).add (IsReal.sum _ _ fun j _ => hu j)

/-- The pointwise maximum of a real vector and a vector of ones: every entry is a floored count. -/
theorem maximumf_isMaxOne {φ : FTy} {s : Shape} (a b : FVec Ideal s φ) (ha : ∀ i, IsReal (a i))
    (hb : ∀ i, b i = (1 : EReal)) (i : s.Idx) : IsMaxOne (maximumf (F := Ideal) a b i) := by
  refine ⟨a i, ha i, ?_⟩
  show max (a i) (b i) = max (a i) 1
  rw [hb i]

/-- The pointwise quotient of a real vector by a vector of floored counts has real entries. -/
theorem divf_isReal {φ : FTy} {s : Shape} (a b : FVec Ideal s φ) (ha : ∀ i, IsReal (a i))
    (hb : ∀ i, IsMaxOne (b i)) (i : s.Idx) : IsReal (Host.divf (F := Ideal) a b i) := by
  show IsReal (Ideal.div (a i) (b i))
  exact (ha i).div_isMaxOne (hb i)

/-- THE SEGMENT MEAN OF REAL ROWS IS REAL.  Rows of `x` gathered at `srcIdx`, added into a zero table at
    `dstIdx`, divided by the number of rows added (ones added into a zero column at `dstIdx'`) floored at
    one and broadcast along the rows.  Any dimension numbers, any index columns, any extents. -/
theorem segMean_isReal {sx ssi sg so sdi sc sdi' su k0 k1 k2 k3 : Shape} {w0 w1 w2 : Nat}
    {gd : GatherDims sx ssi sg} {sd : ScatterDims so sdi sg} {sd1 : ScatterDims sc sdi' su}
    {dz : Fin k0.rank → Fin so.rank} {hz : k0.BroadcastsInDim so dz}
    {db : Fin sc.rank → Fin so.rank} {hb : sc.BroadcastsInDim so db}
    {dz1 : Fin k1.rank → Fin sc.rank} {hz1 : k1.BroadcastsInDim sc dz1}
    {du : Fin k2.rank → Fin su.rank} {hu : k2.BroadcastsInDim su du}
    {d1 : Fin k3.rank → Fin sc.rank} {h1 : k3.BroadcastsInDim sc d1}
    (x : FVec Ideal sx .f32) (hx : ∀ i, IsReal (x i))
    (srcIdx : IVec ssi w0) (dstIdx : IVec sdi w1) (dstIdx' : IVec sdi' w2) (i : so.Idx) :
    IsReal (Host.divf (F := Ideal)
      (Host.scatterAdd sd (broadcastInDim so dz hz (constant k0 .f32 0x00000000#32)) dstIdx
        (Host.gather gd x srcIdx))
      (broadcastInDim so db hb (maximumf
        (Host.scatterAdd sd1 (broadcastInDim sc dz1 hz1 (constant k1 .f32 0x00000000#32)) dstIdx'
          (broadcastInDim su du hu (constant k2 .f32 0x3F800000#32)))
        (broadcastInDim sc d1 h1 (constant k3 .f32 0x3F800000#32)))) i) := by
  refine divf_isReal _ _ (fun i => ?_) (fun i => ?_) i
  · exact scatterAdd_isReal _ _
      (fun j => broadcastInDim_forall (P := IsReal) _ _ _ (constant_zero_isReal _) j) _ _
      (fun j => gather_forall (P := IsReal) _ _ hx _ j) i
  · refine broadcastInDim_forall (P := IsMaxOne) _ _ _ (fun k => ?_) i
    refine maximumf_isMaxOne _ _ (fun k => ?_) (fun k => ?_) k
    · exact scatterAdd_isReal _ _
        (fun j => broadcastInDim_forall (P := IsReal) _ _ _ (constant_zero_isReal _) j) _ _
        (fun j => broadcastInDim_forall (P := IsReal) _ _ _
          (fun m => by rw [constant_one_apply]; exact IsReal.one) j) k
    · exact broadcastInDim_forall (P := fun v => v = (1 : EReal)) _ _ _ (constant_one_apply _) k

end Sage.Alg
-- ==== Proof.LibLayoutReal.lean ====
/-
  Entries of a slice and of a reshape are entries of the operand.

  A strided slice with unit strides reads, at each index `j` of the block, the operand at the index `off + j`; a
  reshape reads, at each index of the new shape, the operand at the index with the same row-major position.  In both
  cases every entry of the result IS an entry of the operand.  Hence any property that holds of every entry of the
  operand holds of every entry of the result.  Shapes, offsets and the property are arbitrary.
-/
import Idealize.ShloMosaic.Lib.ValueIdx

namespace Sage.Alg

open Idealize.ShloMosaic

section Entries

variable {α : Type} {P : α → Prop}

/-- Every entry of a slice is an entry of its operand. -/
theorem extractStridedSlice_forall {s t : Shape} (off : Fin s.rank → Nat) (x : s.Idx → α) (h : s.Slices off t)
    (hx : ∀ k, P (x k)) (j : t.Idx) : P (extractStridedSlice t off x h j) := by
  unfold extractStridedSlice
  exact hx _

/-- Every entry of a reshape is an entry of its operand. -/
theorem shapeCast_forall {s t : Shape} (x : s.Idx → α) (h : s.ShapeCasts t) (hx : ∀ k, P (x k)) (j : t.Idx) :
    P (shapeCast t x h j) := by
  unfold shapeCast
  exact hx _

end Entries

end Sage.Alg
-- ==== Proof.RefReal.lean ====
/-
  Every stage of the reference that the network feeds forward is an array of real numbers when the float arguments are.

  Slices, reshapes and broadcasts of an argument array have the argument's entries; a segment mean of real rows is
  real; a dense step of real operands is real; a clamp of reals is real; a batch normalisation of a real array by its
  own statistics is real, because the centred second moment is a nonnegative real and the added constant is positive.
-/
import proofs.«146104_j52931176955955_1_alg».proof.Proof.RefD
import proofs.«146104_j52931176955955_1_alg».proof.Proof.RefBn
import proofs.«146104_j52931176955955_1_alg».proof.Proof.LibSegMeanReal
import proofs.«146104_j52931176955955_1_alg».proof.Proof.LibBnSpec
import proofs.«146104_j52931176955955_1_alg».proof.Proof.LibLayoutReal

set_option maxRecDepth 16384

noncomputable section

namespace Cert.ReferenceIdeal.RefNet

open Cert.ReferenceIdeal Cert.ReferenceIdeal.Read Cert.SageSpec Cert.DenseSpec Sage.Alg
open Idealize.ShloMosaic Idealize.ShloMosaic.ValueIdx

theorem real_v1 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v1 (F := Ideal) x8 i) := by
  intro i; unfold val_main_v1 val_main_v0
  exact shapeCast_forall (P := IsReal) _ _ (extractStridedSlice_forall (P := IsReal) _ _ _ h8) i

theorem real_v5 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v5 (F := Ideal) x10 i) := by
  intro i; unfold val_main_v5 val_main_v4
  exact shapeCast_forall (P := IsReal) _ _ (extractStridedSlice_forall (P := IsReal) _ _ _ h10) i

theorem real_v27 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v27 (F := Ideal) x0 x3 i) :=
  fun i => segMean_isReal _ h0 _ _ _ i

theorem real_v29 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v29 (F := Ideal) x9 i) := by
  intro i; unfold val_main_v29 val_main_v3 val_main_v2
  exact broadcastInDim_forall (P := IsReal) _ _ _ (shapeCast_forall (P := IsReal) _ _ (extractStridedSlice_forall (P := IsReal) _ _ _ h9)) i

theorem real_v33 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v33 (F := Ideal) x0 x3 x8 x9 x10 i) := by
  rw [v33_eq]; exact lin_isReal _ _ _ _ _ (real_v27 x0 x1 x3 x4 x5 x6 x7 x8 x9 x10 x11 x12 h0 h1 h8 h9 h10 h11 h12) h0 (real_v1 x0 x1 x3 x4 x5 x6 x7 x8 x9 x10 x11 x12 h0 h1 h8 h9 h10 h11 h12) (real_v5 x0 x1 x3 x4 x5 x6 x7 x8 x9 x10 x11 x12 h0 h1 h8 h9 h10 h11 h12) (real_v29 x0 x1 x3 x4 x5 x6 x7 x8 x9 x10 x11 x12 h0 h1 h8 h9 h10 h11 h12)

theorem real_v35 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v35 (F := Ideal) x8 i) := by
  intro i; unfold val_main_v35 val_main_v34
  exact shapeCast_forall (P := IsReal) _ _ (extractStridedSlice_forall (P := IsReal) _ _ _ h8) i

theorem real_v39 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v39 (F := Ideal) x10 i) := by
  intro i; unfold val_main_v39 val_main_v38
  exact shapeCast_forall (P := IsReal) _ _ (extractStridedSlice_forall (P := IsReal) _ _ _ h10) i

theorem real_v61 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v61 (F := Ideal) x0 x4 i) :=
  fun i => segMean_isReal _ h0 _ _ _ i

theorem real_v63 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v63 (F := Ideal) x9 i) := by
  intro i; unfold val_main_v63 val_main_v37 val_main_v36
  exact broadcastInDim_forall (P := IsReal) _ _ _ (shapeCast_forall (P := IsReal) _ _ (extractStridedSlice_forall (P := IsReal) _ _ _ h9)) i

theorem real_v67 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v67 (F := Ideal) x0 x1 x4 x8 x9 x10 i) := by
  rw [v67_eq]; exact lin_isReal _ _ _ _ _ (real_v61 x0 x1 x3 x4 x5 x6 x7 x8 x9 x10 x11 x12 h0 h1 h8 h9 h10 h11 h12) h1 (real_v35 x0 x1 x3 x4 x5 x6 x7 x8 x9 x10 x11 x12 h0 h1 h8 h9 h10 h11 h12) (real_v39 x0 x1 x3 x4 x5 x6 x7 x8 x9 x10 x11 x12 h0 h1 h8 h9 h10 h11 h12) (real_v63 x0 x1 x3 x4 x5 x6 x7 x8 x9 x10 x11 x12 h0 h1 h8 h9 h10 h11 h12)

theorem real_v68 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v68 (F := Ideal) x0 x3 x8 x9 x10 i) := by
  rw [v68_eq]; exact relu_isReal _ (real_v33 x0 x1 x3 x4 x5 x6 x7 x8 x9 x10 x11 x12 h0 h1 h8 h9 h10 h11 h12)

theorem real_v92 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v92 (F := Ideal) x11 i) := by
  intro i; unfold val_main_v92 val_main_v70 val_main_v69
  exact broadcastInDim_forall (P := IsReal) _ _ _ (shapeCast_forall (P := IsReal) _ _ (extractStridedSlice_forall (P := IsReal) _ _ _ h11)) i

theorem real_v95 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v95 (F := Ideal) x12 i) := by
  intro i; unfold val_main_v95 val_main_v72 val_main_v71
  exact broadcastInDim_forall (P := IsReal) _ _ _ (shapeCast_forall (P := IsReal) _ _ (extractStridedSlice_forall (P := IsReal) _ _ _ h12)) i

theorem real_v97 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v97 (F := Ideal) x0 x3 x8 x9 x10 x11 x12 i) := by
  rw [v97_eq]; exact bnRef_isReal _ (real_v68 x0 x1 x3 x4 x5 x6 x7 x8 x9 x10 x11 x12 h0 h1 h8 h9 h10 h11 h12) 200000 (by norm_num) _ _ (real_v92 x0 x1 x3 x4 x5 x6 x7 x8 x9 x10 x11 x12 h0 h1 h8 h9 h10 h11 h12) (real_v95 x0 x1 x3 x4 x5 x6 x7 x8 x9 x10 x11 x12 h0 h1 h8 h9 h10 h11 h12)

theorem real_v98 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v98 (F := Ideal) x0 x1 x4 x8 x9 x10 i) := by
  rw [v98_eq]; exact relu_isReal _ (real_v67 x0 x1 x3 x4 x5 x6 x7 x8 x9 x10 x11 x12 h0 h1 h8 h9 h10 h11 h12)

theorem real_v122 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v122 (F := Ideal) x11 i) := by
  intro i; unfold val_main_v122 val_main_v100 val_main_v99
  exact broadcastInDim_forall (P := IsReal) _ _ _ (shapeCast_forall (P := IsReal) _ _ (extractStridedSlice_forall (P := IsReal) _ _ _ h11)) i

theorem real_v125 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v125 (F := Ideal) x12 i) := by
  intro i; unfold val_main_v125 val_main_v102 val_main_v101
  exact broadcastInDim_forall (P := IsReal) _ _ _ (shapeCast_forall (P := IsReal) _ _ (extractStridedSlice_forall (P := IsReal) _ _ _ h12)) i

theorem real_v127 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v127 (F := Ideal) x0 x1 x4 x8 x9 x10 x11 x12 i) := by
  rw [v127_eq]; exact bnRef_isReal _ (real_v98 x0 x1 x3 x4 x5 x6 x7 x8 x9 x10 x11 x12 h0 h1 h8 h9 h10 h11 h12) 150000 (by norm_num) _ _ (real_v122 x0 x1 x3 x4 x5 x6 x7 x8 x9 x10 x11 x12 h0 h1 h8 h9 h10 h11 h12) (real_v125 x0 x1 x3 x4 x5 x6 x7 x8 x9 x10 x11 x12 h0 h1 h8 h9 h10 h11 h12)

theorem real_v129 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v129 (F := Ideal) x8 i) := by
  intro i; unfold val_main_v129 val_main_v128
  exact shapeCast_forall (P := IsReal) _ _ (extractStridedSlice_forall (P := IsReal) _ _ _ h8) i

theorem real_v133 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v133 (F := Ideal) x10 i) := by
  intro i; unfold val_main_v133 val_main_v132
  exact shapeCast_forall (P := IsReal) _ _ (extractStridedSlice_forall (P := IsReal) _ _ _ h10) i

theorem real_v155 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v155 (F := Ideal) x0 x3 x8 x9 x10 x11 x12 i) :=
  fun i => segMean_isReal _ (real_v97 x0 x1 x3 x4 x5 x6 x7 x8 x9 x10 x11 x12 h0 h1 h8 h9 h10 h11 h12) _ _ _ i

theorem real_v157 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v157 (F := Ideal) x9 i) := by
  intro i; unfold val_main_v157 val_main_v131 val_main_v130
  exact broadcastInDim_forall (P := IsReal) _ _ _ (shapeCast_forall (P := IsReal) _ _ (extractStridedSlice_forall (P := IsReal) _ _ _ h9)) i

theorem real_v161 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v161 (F := Ideal) x0 x3 x8 x9 x10 x11 x12 i) := by
  rw [v161_eq]; exact lin_isReal _ _ _ _ _ (real_v155 x0 x1 x3 x4 x5 x6 x7 x8 x9 x10 x11 x12 h0 h1 h8 h9 h10 h11 h12) (real_v97 x0 x1 x3 x4 x5 x6 x7 x8 x9 x10 x11 x12 h0 h1 h8 h9 h10 h11 h12) (real_v129 x0 x1 x3 x4 x5 x6 x7 x8 x9 x10 x11 x12 h0 h1 h8 h9 h10 h11 h12) (real_v133 x0 x1 x3 x4 x5 x6 x7 x8 x9 x10 x11 x12 h0 h1 h8 h9 h10 h11 h12) (real_v157 x0 x1 x3 x4 x5 x6 x7 x8 x9 x10 x11 x12 h0 h1 h8 h9 h10 h11 h12)

theorem real_v163 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v163 (F := Ideal) x8 i) := by
  intro i; unfold val_main_v163 val_main_v162
  exact shapeCast_forall (P := IsReal) _ _ (extractStridedSlice_forall (P := IsReal) _ _ _ h8) i

theorem real_v167 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v167 (F := Ideal) x10 i) := by
  intro i; unfold val_main_v167 val_main_v166
  exact shapeCast_forall (P := IsReal) _ _ (extractStridedSlice_forall (P := IsReal) _ _ _ h10) i

theorem real_v189 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v189 (F := Ideal) x0 x1 x4 x5 x8 x9 x10 x11 x12 i) :=
  fun i => segMean_isReal _ (real_v127 x0 x1 x3 x4 x5 x6 x7 x8 x9 x10 x11 x12 h0 h1 h8 h9 h10 h11 h12) _ _ _ i

theorem real_v191 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v191 (F := Ideal) x9 i) := by
  intro i; unfold val_main_v191 val_main_v165 val_main_v164
  exact broadcastInDim_forall (P := IsReal) _ _ _ (shapeCast_forall (P := IsReal) _ _ (extractStridedSlice_forall (P := IsReal) _ _ _ h9)) i

theorem real_v195 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v195 (F := Ideal) x0 x1 x3 x4 x5 x8 x9 x10 x11 x12 i) := by
  rw [v195_eq]; exact lin_isReal _ _ _ _ _ (real_v189 x0 x1 x3 x4 x5 x6 x7 x8 x9 x10 x11 x12 h0 h1 h8 h9 h10 h11 h12) (real_v97 x0 x1 x3 x4 x5 x6 x7 x8 x9 x10 x11 x12 h0 h1 h8 h9 h10 h11 h12) (real_v163 x0 x1 x3 x4 x5 x6 x7 x8 x9 x10 x11 x12 h0 h1 h8 h9 h10 h11 h12) (real_v167 x0 x1 x3 x4 x5 x6 x7 x8 x9 x10 x11 x12 h0 h1 h8 h9 h10 h11 h12) (real_v191 x0 x1 x3 x4 x5 x6 x7 x8 x9 x10 x11 x12 h0 h1 h8 h9 h10 h11 h12)

theorem real_v196 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v196 (F := Ideal) x0 x1 x3 x4 x5 x8 x9 x10 x11 x12 i) := by
  rw [v196_eq]; exact plus_isReal _ _ (real_v161 x0 x1 x3 x4 x5 x6 x7 x8 x9 x10 x11 x12 h0 h1 h8 h9 h10 h11 h12) (real_v195 x0 x1 x3 x4 x5 x6 x7 x8 x9 x10 x11 x12 h0 h1 h8 h9 h10 h11 h12)

theorem real_v198 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v198 (F := Ideal) x8 i) := by
  intro i; unfold val_main_v198 val_main_v197
  exact shapeCast_forall (P := IsReal) _ _ (extractStridedSlice_forall (P := IsReal) _ _ _ h8) i

theorem real_v202 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v202 (F := Ideal) x10 i) := by
  intro i; unfold val_main_v202 val_main_v201
  exact shapeCast_forall (P := IsReal) _ _ (extractStridedSlice_forall (P := IsReal) _ _ _ h10) i

theorem real_v224 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v224 (F := Ideal) x0 x3 x4 x8 x9 x10 x11 x12 i) :=
  fun i => segMean_isReal _ (real_v97 x0 x1 x3 x4 x5 x6 x7 x8 x9 x10 x11 x12 h0 h1 h8 h9 h10 h11 h12) _ _ _ i

theorem real_v226 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v226 (F := Ideal) x9 i) := by
  intro i; unfold val_main_v226 val_main_v200 val_main_v199
  exact broadcastInDim_forall (P := IsReal) _ _ _ (shapeCast_forall (P := IsReal) _ _ (extractStridedSlice_forall (P := IsReal) _ _ _ h9)) i

theorem real_v230 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v230 (F := Ideal) x0 x1 x3 x4 x8 x9 x10 x11 x12 i) := by
  rw [v230_eq]; exact lin_isReal _ _ _ _ _ (real_v224 x0 x1 x3 x4 x5 x6 x7 x8 x9 x10 x11 x12 h0 h1 h8 h9 h10 h11 h12) (real_v127 x0 x1 x3 x4 x5 x6 x7 x8 x9 x10 x11 x12 h0 h1 h8 h9 h10 h11 h12) (real_v198 x0 x1 x3 x4 x5 x6 x7 x8 x9 x10 x11 x12 h0 h1 h8 h9 h10 h11 h12) (real_v202 x0 x1 x3 x4 x5 x6 x7 x8 x9 x10 x11 x12 h0 h1 h8 h9 h10 h11 h12) (real_v226 x0 x1 x3 x4 x5 x6 x7 x8 x9 x10 x11 x12 h0 h1 h8 h9 h10 h11 h12)

theorem real_v232 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v232 (F := Ideal) x8 i) := by
  intro i; unfold val_main_v232 val_main_v231
  exact shapeCast_forall (P := IsReal) _ _ (extractStridedSlice_forall (P := IsReal) _ _ _ h8) i

theorem real_v258 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v258 (F := Ideal) x0 x1 x4 x6 x8 x9 x10 x11 x12 i) :=
  fun i => segMean_isReal _ (real_v127 x0 x1 x3 x4 x5 x6 x7 x8 x9 x10 x11 x12 h0 h1 h8 h9 h10 h11 h12) _ _ _ i

theorem real_v260 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v260 (F := Ideal) x9 i) := by
  intro i; unfold val_main_v260 val_main_v234 val_main_v233
  exact broadcastInDim_forall (P := IsReal) _ _ _ (shapeCast_forall (P := IsReal) _ _ (extractStridedSlice_forall (P := IsReal) _ _ _ h9)) i

theorem real_v262 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v262 (F := Ideal) x0 x1 x4 x6 x8 x9 x10 x11 x12 i) := by
  rw [v262_eq]; exact lin0_isReal _ _ _ (real_v258 x0 x1 x3 x4 x5 x6 x7 x8 x9 x10 x11 x12 h0 h1 h8 h9 h10 h11 h12) (real_v232 x0 x1 x3 x4 x5 x6 x7 x8 x9 x10 x11 x12 h0 h1 h8 h9 h10 h11 h12) (real_v260 x0 x1 x3 x4 x5 x6 x7 x8 x9 x10 x11 x12 h0 h1 h8 h9 h10 h11 h12)

theorem real_v263 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v263 (F := Ideal) x0 x1 x3 x4 x5 x8 x9 x10 x11 x12 i) := by
  rw [v263_eq]; exact relu_isReal _ (real_v196 x0 x1 x3 x4 x5 x6 x7 x8 x9 x10 x11 x12 h0 h1 h8 h9 h10 h11 h12)

theorem real_v287 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v287 (F := Ideal) x11 i) := by
  intro i; unfold val_main_v287 val_main_v265 val_main_v264
  exact broadcastInDim_forall (P := IsReal) _ _ _ (shapeCast_forall (P := IsReal) _ _ (extractStridedSlice_forall (P := IsReal) _ _ _ h11)) i

theorem real_v290 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v290 (F := Ideal) x12 i) := by
  intro i; unfold val_main_v290 val_main_v267 val_main_v266
  exact broadcastInDim_forall (P := IsReal) _ _ _ (shapeCast_forall (P := IsReal) _ _ (extractStridedSlice_forall (P := IsReal) _ _ _ h12)) i

theorem real_v292 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v292 (F := Ideal) x0 x1 x3 x4 x5 x8 x9 x10 x11 x12 i) := by
  rw [v292_eq]; exact bnRef_isReal _ (real_v263 x0 x1 x3 x4 x5 x6 x7 x8 x9 x10 x11 x12 h0 h1 h8 h9 h10 h11 h12) 200000 (by norm_num) _ _ (real_v287 x0 x1 x3 x4 x5 x6 x7 x8 x9 x10 x11 x12 h0 h1 h8 h9 h10 h11 h12) (real_v290 x0 x1 x3 x4 x5 x6 x7 x8 x9 x10 x11 x12 h0 h1 h8 h9 h10 h11 h12)

theorem real_v293 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v293 (F := Ideal) x0 x1 x3 x4 x8 x9 x10 x11 x12 i) := by
  rw [v293_eq]; exact relu_isReal _ (real_v230 x0 x1 x3 x4 x5 x6 x7 x8 x9 x10 x11 x12 h0 h1 h8 h9 h10 h11 h12)

theorem real_v317 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v317 (F := Ideal) x11 i) := by
  intro i; unfold val_main_v317 val_main_v295 val_main_v294
  exact broadcastInDim_forall (P := IsReal) _ _ _ (shapeCast_forall (P := IsReal) _ _ (extractStridedSlice_forall (P := IsReal) _ _ _ h11)) i

theorem real_v320 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v320 (F := Ideal) x12 i) := by
  intro i; unfold val_main_v320 val_main_v297 val_main_v296
  exact broadcastInDim_forall (P := IsReal) _ _ _ (shapeCast_forall (P := IsReal) _ _ (extractStridedSlice_forall (P := IsReal) _ _ _ h12)) i

theorem real_v322 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v322 (F := Ideal) x0 x1 x3 x4 x8 x9 x10 x11 x12 i) := by
  rw [v322_eq]; exact bnRef_isReal _ (real_v293 x0 x1 x3 x4 x5 x6 x7 x8 x9 x10 x11 x12 h0 h1 h8 h9 h10 h11 h12) 150000 (by norm_num) _ _ (real_v317 x0 x1 x3 x4 x5 x6 x7 x8 x9 x10 x11 x12 h0 h1 h8 h9 h10 h11 h12) (real_v320 x0 x1 x3 x4 x5 x6 x7 x8 x9 x10 x11 x12 h0 h1 h8 h9 h10 h11 h12)

theorem real_v323 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v323 (F := Ideal) x0 x1 x4 x6 x8 x9 x10 x11 x12 i) := by
  rw [v323_eq]; exact relu_isReal _ (real_v262 x0 x1 x3 x4 x5 x6 x7 x8 x9 x10 x11 x12 h0 h1 h8 h9 h10 h11 h12)

theorem real_v347 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v347 (F := Ideal) x11 i) := by
  intro i; unfold val_main_v347 val_main_v325 val_main_v324
  exact broadcastInDim_forall (P := IsReal) _ _ _ (shapeCast_forall (P := IsReal) _ _ (extractStridedSlice_forall (P := IsReal) _ _ _ h11)) i

theorem real_v350 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v350 (F := Ideal) x12 i) := by
  intro i; unfold val_main_v350 val_main_v327 val_main_v326
  exact broadcastInDim_forall (P := IsReal) _ _ _ (shapeCast_forall (P := IsReal) _ _ (extractStridedSlice_forall (P := IsReal) _ _ _ h12)) i

theorem real_v352 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v352 (F := Ideal) x0 x1 x4 x6 x8 x9 x10 x11 x12 i) := by
  rw [v352_eq]; exact bnRef_isReal _ (real_v323 x0 x1 x3 x4 x5 x6 x7 x8 x9 x10 x11 x12 h0 h1 h8 h9 h10 h11 h12) 10000 (by norm_num) _ _ (real_v347 x0 x1 x3 x4 x5 x6 x7 x8 x9 x10 x11 x12 h0 h1 h8 h9 h10 h11 h12) (real_v350 x0 x1 x3 x4 x5 x6 x7 x8 x9 x10 x11 x12 h0 h1 h8 h9 h10 h11 h12)

theorem real_v354 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v354 (F := Ideal) x8 i) := by
  intro i; unfold val_main_v354 val_main_v353
  exact shapeCast_forall (P := IsReal) _ _ (extractStridedSlice_forall (P := IsReal) _ _ _ h8) i

theorem real_v358 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v358 (F := Ideal) x10 i) := by
  intro i; unfold val_main_v358 val_main_v357
  exact shapeCast_forall (P := IsReal) _ _ (extractStridedSlice_forall (P := IsReal) _ _ _ h10) i

theorem real_v380 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v380 (F := Ideal) x0 x1 x3 x4 x5 x8 x9 x10 x11 x12 i) :=
  fun i => segMean_isReal _ (real_v292 x0 x1 x3 x4 x5 x6 x7 x8 x9 x10 x11 x12 h0 h1 h8 h9 h10 h11 h12) _ _ _ i

theorem real_v382 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v382 (F := Ideal) x9 i) := by
  intro i; unfold val_main_v382 val_main_v356 val_main_v355
  exact broadcastInDim_forall (P := IsReal) _ _ _ (shapeCast_forall (P := IsReal) _ _ (extractStridedSlice_forall (P := IsReal) _ _ _ h9)) i

theorem real_v386 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v386 (F := Ideal) x0 x1 x3 x4 x5 x8 x9 x10 x11 x12 i) := by
  rw [v386_eq]; exact lin_isReal _ _ _ _ _ (real_v380 x0 x1 x3 x4 x5 x6 x7 x8 x9 x10 x11 x12 h0 h1 h8 h9 h10 h11 h12) (real_v292 x0 x1 x3 x4 x5 x6 x7 x8 x9 x10 x11 x12 h0 h1 h8 h9 h10 h11 h12) (real_v354 x0 x1 x3 x4 x5 x6 x7 x8 x9 x10 x11 x12 h0 h1 h8 h9 h10 h11 h12) (real_v358 x0 x1 x3 x4 x5 x6 x7 x8 x9 x10 x11 x12 h0 h1 h8 h9 h10 h11 h12) (real_v382 x0 x1 x3 x4 x5 x6 x7 x8 x9 x10 x11 x12 h0 h1 h8 h9 h10 h11 h12)

theorem real_v388 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v388 (F := Ideal) x8 i) := by
  intro i; unfold val_main_v388 val_main_v387
  exact shapeCast_forall (P := IsReal) _ _ (extractStridedSlice_forall (P := IsReal) _ _ _ h8) i

theorem real_v392 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v392 (F := Ideal) x10 i) := by
  intro i; unfold val_main_v392 val_main_v391
  exact shapeCast_forall (P := IsReal) _ _ (extractStridedSlice_forall (P := IsReal) _ _ _ h10) i

theorem real_v414 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v414 (F := Ideal) x0 x1 x3 x4 x5 x8 x9 x10 x11 x12 i) :=
  fun i => segMean_isReal _ (real_v322 x0 x1 x3 x4 x5 x6 x7 x8 x9 x10 x11 x12 h0 h1 h8 h9 h10 h11 h12) _ _ _ i

theorem real_v416 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v416 (F := Ideal) x9 i) := by
  intro i; unfold val_main_v416 val_main_v390 val_main_v389
  exact broadcastInDim_forall (P := IsReal) _ _ _ (shapeCast_forall (P := IsReal) _ _ (extractStridedSlice_forall (P := IsReal) _ _ _ h9)) i

theorem real_v420 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v420 (F := Ideal) x0 x1 x3 x4 x5 x8 x9 x10 x11 x12 i) := by
  rw [v420_eq]; exact lin_isReal _ _ _ _ _ (real_v414 x0 x1 x3 x4 x5 x6 x7 x8 x9 x10 x11 x12 h0 h1 h8 h9 h10 h11 h12) (real_v292 x0 x1 x3 x4 x5 x6 x7 x8 x9 x10 x11 x12 h0 h1 h8 h9 h10 h11 h12) (real_v388 x0 x1 x3 x4 x5 x6 x7 x8 x9 x10 x11 x12 h0 h1 h8 h9 h10 h11 h12) (real_v392 x0 x1 x3 x4 x5 x6 x7 x8 x9 x10 x11 x12 h0 h1 h8 h9 h10 h11 h12) (real_v416 x0 x1 x3 x4 x5 x6 x7 x8 x9 x10 x11 x12 h0 h1 h8 h9 h10 h11 h12)

theorem real_v421 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v421 (F := Ideal) x0 x1 x3 x4 x5 x8 x9 x10 x11 x12 i) := by
  rw [v421_eq]; exact plus_isReal _ _ (real_v386 x0 x1 x3 x4 x5 x6 x7 x8 x9 x10 x11 x12 h0 h1 h8 h9 h10 h11 h12) (real_v420 x0 x1 x3 x4 x5 x6 x7 x8 x9 x10 x11 x12 h0 h1 h8 h9 h10 h11 h12)

theorem real_v423 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v423 (F := Ideal) x8 i) := by
  intro i; unfold val_main_v423 val_main_v422
  exact shapeCast_forall (P := IsReal) _ _ (extractStridedSlice_forall (P := IsReal) _ _ _ h8) i

theorem real_v427 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v427 (F := Ideal) x10 i) := by
  intro i; unfold val_main_v427 val_main_v426
  exact shapeCast_forall (P := IsReal) _ _ (extractStridedSlice_forall (P := IsReal) _ _ _ h10) i

theorem real_v449 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v449 (F := Ideal) x0 x1 x3 x4 x5 x8 x9 x10 x11 x12 i) :=
  fun i => segMean_isReal _ (real_v292 x0 x1 x3 x4 x5 x6 x7 x8 x9 x10 x11 x12 h0 h1 h8 h9 h10 h11 h12) _ _ _ i

theorem real_v451 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v451 (F := Ideal) x9 i) := by
  intro i; unfold val_main_v451 val_main_v425 val_main_v424
  exact broadcastInDim_forall (P := IsReal) _ _ _ (shapeCast_forall (P := IsReal) _ _ (extractStridedSlice_forall (P := IsReal) _ _ _ h9)) i

theorem real_v455 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v455 (F := Ideal) x0 x1 x3 x4 x5 x8 x9 x10 x11 x12 i) := by
  rw [v455_eq]; exact lin_isReal _ _ _ _ _ (real_v449 x0 x1 x3 x4 x5 x6 x7 x8 x9 x10 x11 x12 h0 h1 h8 h9 h10 h11 h12) (real_v322 x0 x1 x3 x4 x5 x6 x7 x8 x9 x10 x11 x12 h0 h1 h8 h9 h10 h11 h12) (real_v423 x0 x1 x3 x4 x5 x6 x7 x8 x9 x10 x11 x12 h0 h1 h8 h9 h10 h11 h12) (real_v427 x0 x1 x3 x4 x5 x6 x7 x8 x9 x10 x11 x12 h0 h1 h8 h9 h10 h11 h12) (real_v451 x0 x1 x3 x4 x5 x6 x7 x8 x9 x10 x11 x12 h0 h1 h8 h9 h10 h11 h12)

theorem real_v457 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v457 (F := Ideal) x8 i) := by
  intro i; unfold val_main_v457 val_main_v456
  exact shapeCast_forall (P := IsReal) _ _ (extractStridedSlice_forall (P := IsReal) _ _ _ h8) i

theorem real_v461 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v461 (F := Ideal) x10 i) := by
  intro i; unfold val_main_v461 val_main_v460
  exact shapeCast_forall (P := IsReal) _ _ (extractStridedSlice_forall (P := IsReal) _ _ _ h10) i

theorem real_v483 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v483 (F := Ideal) x0 x1 x4 x6 x7 x8 x9 x10 x11 x12 i) :=
  fun i => segMean_isReal _ (real_v352 x0 x1 x3 x4 x5 x6 x7 x8 x9 x10 x11 x12 h0 h1 h8 h9 h10 h11 h12) _ _ _ i

theorem real_v485 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v485 (F := Ideal) x9 i) := by
  intro i; unfold val_main_v485 val_main_v459 val_main_v458
  exact broadcastInDim_forall (P := IsReal) _ _ _ (shapeCast_forall (P := IsReal) _ _ (extractStridedSlice_forall (P := IsReal) _ _ _ h9)) i

theorem real_v489 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v489 (F := Ideal) x0 x1 x3 x4 x6 x7 x8 x9 x10 x11 x12 i) := by
  rw [v489_eq]; exact lin_isReal _ _ _ _ _ (real_v483 x0 x1 x3 x4 x5 x6 x7 x8 x9 x10 x11 x12 h0 h1 h8 h9 h10 h11 h12) (real_v322 x0 x1 x3 x4 x5 x6 x7 x8 x9 x10 x11 x12 h0 h1 h8 h9 h10 h11 h12) (real_v457 x0 x1 x3 x4 x5 x6 x7 x8 x9 x10 x11 x12 h0 h1 h8 h9 h10 h11 h12) (real_v461 x0 x1 x3 x4 x5 x6 x7 x8 x9 x10 x11 x12 h0 h1 h8 h9 h10 h11 h12) (real_v485 x0 x1 x3 x4 x5 x6 x7 x8 x9 x10 x11 x12 h0 h1 h8 h9 h10 h11 h12)

theorem real_v490 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v490 (F := Ideal) x0 x1 x3 x4 x5 x6 x7 x8 x9 x10 x11 x12 i) := by
  rw [v490_eq]; exact plus_isReal _ _ (real_v455 x0 x1 x3 x4 x5 x6 x7 x8 x9 x10 x11 x12 h0 h1 h8 h9 h10 h11 h12) (real_v489 x0 x1 x3 x4 x5 x6 x7 x8 x9 x10 x11 x12 h0 h1 h8 h9 h10 h11 h12)

theorem real_v492 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v492 (F := Ideal) x8 i) := by
  intro i; unfold val_main_v492 val_main_v491
  exact shapeCast_forall (P := IsReal) _ _ (extractStridedSlice_forall (P := IsReal) _ _ _ h8) i

theorem real_v496 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v496 (F := Ideal) x10 i) := by
  intro i; unfold val_main_v496 val_main_v495
  exact shapeCast_forall (P := IsReal) _ _ (extractStridedSlice_forall (P := IsReal) _ _ _ h10) i

theorem real_v518 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v518 (F := Ideal) x0 x1 x3 x4 x6 x8 x9 x10 x11 x12 i) :=
  fun i => segMean_isReal _ (real_v322 x0 x1 x3 x4 x5 x6 x7 x8 x9 x10 x11 x12 h0 h1 h8 h9 h10 h11 h12) _ _ _ i

theorem real_v520 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v520 (F := Ideal) x9 i) := by
  intro i; unfold val_main_v520 val_main_v494 val_main_v493
  exact broadcastInDim_forall (P := IsReal) _ _ _ (shapeCast_forall (P := IsReal) _ _ (extractStridedSlice_forall (P := IsReal) _ _ _ h9)) i

theorem real_v524 (x0 : (⟨S200000x128, .f32⟩ : BufTy).Contents (Elt Ideal)) (x1 : (⟨S150000x128, .f32⟩ : BufTy).Contents (Elt Ideal)) (x3 : (⟨S2x600000, .i32⟩ : BufTy).Contents (Elt Ideal)) (x4 x5 : (⟨S2x500000, .i32⟩ : BufTy).Contents (Elt Ideal)) (x6 x7 : (⟨S2x150000, .i32⟩ : BufTy).Contents (Elt Ideal)) (x8 : (⟨S11x128x128, .f32⟩ : BufTy).Contents (Elt Ideal)) (x9 : (⟨S11x128, .f32⟩ : BufTy).Contents (Elt Ideal)) (x10 : (⟨S11x128x128, .f32⟩ : BufTy).Contents (Elt Ideal)) (x11 x12 : (⟨S5x128, .f32⟩ : BufTy).Contents (Elt Ideal)) (h0 : ∀ i, IsReal (x0 i)) (h1 : ∀ i, IsReal (x1 i)) (h8 : ∀ i, IsReal (x8 i)) (h9 : ∀ i, IsReal (x9 i)) (h10 : ∀ i, IsReal (x10 i)) (h11 : ∀ i, IsReal (x11 i)) (h12 : ∀ i, IsReal (x12 i)) :
    ∀ i, IsReal (val_main_v524 (F := Ideal) x0 x1 x3 x4 x6 x8 x9 x10 x11 x12 i) := by
  rw [v524_eq]; exact lin_isReal _ _ _ _ _ (real_v518 x0 x1 x3 x4 x5 x6 x7 x8 x9 x10 x11 x12 h0 h1 h8 h9 h10 h11 h12) (real_v352 x0 x1 x3 x4 x5 x6 x7 x8 x9 x10 x11 x12 h0 h1 h8 h9 h10 h11 h12) (real_v492 x0 x1 x3 x4 x5 x6 x7 x8 x9 x10 x11 x12 h0 h1 h8 h9 h10 h11 h12) (real_v496 x0 x1 x3 x4 x5 x6 x7 x8 x9 x10 x11 x12 h0 h1 h8 h9 h10 h11 h12) (real_v520 x0 x1 x3 x4 x5 x6 x7 x8 x9 x10 x11 x12 h0 h1 h8 h9 h10 h11 h12)

end Cert.ReferenceIdeal.RefNet

end
-- ==== Proof.LibStatsHost.lean ====
/-
  The host's spelling of the batch statistics the kernel program computes between its regions.

  From the column sums of an array and of its squares the host divides by the row count, broadcast from a scalar
  constant, and subtracts the squared mean: entry by entry these are the column mean `muK` and the mean of squares
  minus the squared mean `varK`. Definitions at an entry only; no finite value is needed.
-/
import proofs.«146104_j52931176955955_1_alg».proof.Proof.LibBnSpec

noncomputable section

namespace Cert.SageSpec

open Idealize.ShloMosaic Idealize.ShloMosaic.ValueIdx Cert.DenseSpec

variable {n : ℕ}

/-- A row divided by a scalar constant broadcast over the row, entry by entry. -/
theorem host_divRow_apply (r : FVec Ideal ⟨2, ![1, 128]⟩ .f32) (N : ℝ) (w : BitVec 32)
    (hw : Ideal.ofBits .f32 w = (N : EReal)) (hb : (⟨0, ![]⟩ : Shape).BroadcastsInDim ⟨2, ![1, 128]⟩ ![])
    (j : (⟨2, ![1, 128]⟩ : Shape).Idx) :
    Host.divf (F := Ideal) r (broadcastInDim ⟨2, ![1, 128]⟩ ![] hb (constant ⟨0, ![]⟩ .f32 w)) j
      = Ideal.div (r j) (N : EReal) := by
  show Ideal.div (r j) (broadcastInDim ⟨2, ![1, 128]⟩ ![] hb (constant (F := Ideal) ⟨0, ![]⟩ .f32 w) j) = _
  rw [broadcastInDim_apply ![] hb _ j ix0 (fun a => a.elim0)]
  exact congrArg (Ideal.div (r j)) hw

/-- The column sums divided by the row count are the column means. -/
theorem host_muK_eq (H : Mat n) (N : ℝ) (w : BitVec 32) (hw : Ideal.ofBits .f32 w = (N : EReal))
    (hb : (⟨0, ![]⟩ : Shape).BroadcastsInDim ⟨2, ![1, 128]⟩ ![]) :
    Host.divf (F := Ideal) (colSum H) (broadcastInDim ⟨2, ![1, 128]⟩ ![] hb (constant ⟨0, ![]⟩ .f32 w))
      = muK H (N : EReal) :=
  funext fun j => host_divRow_apply (colSum H) N w hw hb j

/-- The mean of the squares minus the squared mean, as the host spells it. -/
theorem host_varK_eq (H : Mat n) (N : ℝ) (w : BitVec 32) (hw : Ideal.ofBits .f32 w = (N : EReal))
    (hb : (⟨0, ![]⟩ : Shape).BroadcastsInDim ⟨2, ![1, 128]⟩ ![]) :
    subf (Host.divf (F := Ideal) (colSumSq H) (broadcastInDim ⟨2, ![1, 128]⟩ ![] hb (constant ⟨0, ![]⟩ .f32 w)))
        (mulf (Host.divf (F := Ideal) (colSum H) (broadcastInDim ⟨2, ![1, 128]⟩ ![] hb (constant ⟨0, ![]⟩ .f32 w)))
          (Host.divf (F := Ideal) (colSum H) (broadcastInDim ⟨2, ![1, 128]⟩ ![] hb (constant ⟨0, ![]⟩ .f32 w))))
      = varK H (N : EReal) := by
  funext j
  show Host.divf (F := Ideal) (colSumSq H) _ j - Host.divf (F := Ideal) (colSum H) _ j * Host.divf (F := Ideal) (colSum H) _ j = _
  rw [host_divRow_apply (colSumSq H) N w hw hb j, host_divRow_apply (colSum H) N w hw hb j]
  rfl

end Cert.SageSpec

end
-- ==== Proof.KReg0.lean ====
/-
  Region 0 of the idealized kernel program, read against the reference's stages: the region's host-computed operands
  are the same host operations of the same values as the reference's stages; the region's output arrays are the
  whole-array functions of its operands that the reference's corresponding stages are.
-/
import proofs.«146104_j52931176955955_1_alg».proof.Proof.KKeep
import proofs.«146104_j52931176955955_1_alg».proof.Proof.RegR0
import proofs.«146104_j52931176955955_1_alg».proof.Proof.RefD
import proofs.«146104_j52931176955955_1_alg».proof.Proof.RefReal
import proofs.«146104_j52931176955955_1_alg».proof.Proof.LibStatsHost

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

set_option backward.isDefEq.respectTransparency.types false in
theorem v21_at1 : W1 m ρ c (Proc.devRef .tc main_v21) = (Cert.ReferenceIdeal.Read.val_main_v27 (F := Ideal) (m ((c : Thread nD τ).loc main_arg0)) (m ((c : Thread nD τ).loc main_arg3))) := by
  show StableHlo.after hostOps0 (W0 m ρ c) (Proc.devRef .tc main_v21) = _
  after_results_simp
  rfl

set_option backward.isDefEq.respectTransparency.types false in
theorem v45_at1 : W1 m ρ c (Proc.devRef .tc main_v45) = (Cert.ReferenceIdeal.Read.val_main_v1 (F := Ideal) (m ((c : Thread nD τ).loc main_arg8))) := by
  show StableHlo.after hostOps0 (W0 m ρ c) (Proc.devRef .tc main_v45) = _
  after_results_simp
  rfl

set_option backward.isDefEq.respectTransparency.types false in
theorem v48_at1 : W1 m ρ c (Proc.devRef .tc main_v48) = (Cert.ReferenceIdeal.Read.val_main_v29 (F := Ideal) (m ((c : Thread nD τ).loc main_arg9))) := by
  show StableHlo.after hostOps0 (W0 m ρ c) (Proc.devRef .tc main_v48) = _
  after_results_simp
  rfl

set_option backward.isDefEq.respectTransparency.types false in
theorem v50_at1 : W1 m ρ c (Proc.devRef .tc main_v50) = (Cert.ReferenceIdeal.Read.val_main_v5 (F := Ideal) (m ((c : Thread nD τ).loc main_arg10))) := by
  show StableHlo.after hostOps0 (W0 m ρ c) (Proc.devRef .tc main_v50) = _
  after_results_simp
  rfl

set_option backward.isDefEq.respectTransparency.types false in
theorem v43_at1 : W1 m ρ c (Proc.devRef .tc main_v43) = (Cert.ReferenceIdeal.Read.val_main_v61 (F := Ideal) (m ((c : Thread nD τ).loc main_arg0)) (m ((c : Thread nD τ).loc main_arg4))) := by
  show StableHlo.after hostOps0 (W0 m ρ c) (Proc.devRef .tc main_v43) = _
  after_results_simp
  rfl

set_option backward.isDefEq.respectTransparency.types false in
theorem v51_0_at2 : W2 m ρ c (Proc.devRef .tc main_v51_0) = (Cert.ReferenceIdeal.Read.val_main_v68 (F := Ideal) (m ((c : Thread nD τ).loc main_arg0)) (m ((c : Thread nD τ).loc main_arg3)) (m ((c : Thread nD τ).loc main_arg8)) (m ((c : Thread nD τ).loc main_arg9)) (m ((c : Thread nD τ).loc main_arg10))) :=
  (W2_arr m ρ c 5).trans ((Cert.KernelIdeal.RegR.arr0_5 (V1 m ρ) c).trans (by
    rw [show V1 m ρ c main_v21 = _ from v21_at1 m ρ c, show V1 m ρ c main_v45 = _ from v45_at1 m ρ c, show V1 m ρ c main_v48 = _ from v48_at1 m ρ c, show V1 m ρ c main_arg0 = _ from arg0_at1 m ρ c, show V1 m ρ c main_v50 = _ from v50_at1 m ρ c]
    exact ((Cert.ReferenceIdeal.RefNet.v68_eq (m ((c : Thread nD τ).loc main_arg0)) (m ((c : Thread nD τ).loc main_arg3)) (m ((c : Thread nD τ).loc main_arg8)) (m ((c : Thread nD τ).loc main_arg9)) (m ((c : Thread nD τ).loc main_arg10))).trans (congrArg Cert.DenseSpec.relu (Cert.ReferenceIdeal.RefNet.v33_eq (m ((c : Thread nD τ).loc main_arg0)) (m ((c : Thread nD τ).loc main_arg3)) (m ((c : Thread nD τ).loc main_arg8)) (m ((c : Thread nD τ).loc main_arg9)) (m ((c : Thread nD τ).loc main_arg10))))).symm))

set_option backward.isDefEq.respectTransparency.types false in
theorem v51_1_at2 : W2 m ρ c (Proc.devRef .tc main_v51_1) = (Cert.SageSpec.colSum (Cert.ReferenceIdeal.Read.val_main_v68 (F := Ideal) (m ((c : Thread nD τ).loc main_arg0)) (m ((c : Thread nD τ).loc main_arg3)) (m ((c : Thread nD τ).loc main_arg8)) (m ((c : Thread nD τ).loc main_arg9)) (m ((c : Thread nD τ).loc main_arg10)))) :=
  (W2_arr m ρ c 6).trans ((Cert.KernelIdeal.RegR.arr0_6 (V1 m ρ) c).trans (by
    rw [show V1 m ρ c main_v21 = _ from v21_at1 m ρ c, show V1 m ρ c main_v45 = _ from v45_at1 m ρ c, show V1 m ρ c main_v48 = _ from v48_at1 m ρ c, show V1 m ρ c main_arg0 = _ from arg0_at1 m ρ c, show V1 m ρ c main_v50 = _ from v50_at1 m ρ c]
    exact congrArg Cert.SageSpec.colSum (((Cert.ReferenceIdeal.RefNet.v68_eq (m ((c : Thread nD τ).loc main_arg0)) (m ((c : Thread nD τ).loc main_arg3)) (m ((c : Thread nD τ).loc main_arg8)) (m ((c : Thread nD τ).loc main_arg9)) (m ((c : Thread nD τ).loc main_arg10))).trans (congrArg Cert.DenseSpec.relu (Cert.ReferenceIdeal.RefNet.v33_eq (m ((c : Thread nD τ).loc main_arg0)) (m ((c : Thread nD τ).loc main_arg3)) (m ((c : Thread nD τ).loc main_arg8)) (m ((c : Thread nD τ).loc main_arg9)) (m ((c : Thread nD τ).loc main_arg10))))).symm)))

set_option backward.isDefEq.respectTransparency.types false in
theorem v51_2_at2 : W2 m ρ c (Proc.devRef .tc main_v51_2) = (Cert.SageSpec.colSumSq (Cert.ReferenceIdeal.Read.val_main_v68 (F := Ideal) (m ((c : Thread nD τ).loc main_arg0)) (m ((c : Thread nD τ).loc main_arg3)) (m ((c : Thread nD τ).loc main_arg8)) (m ((c : Thread nD τ).loc main_arg9)) (m ((c : Thread nD τ).loc main_arg10)))) :=
  (W2_arr m ρ c 7).trans ((Cert.KernelIdeal.RegR.arr0_7 (V1 m ρ) c).trans (by
    rw [show V1 m ρ c main_v21 = _ from v21_at1 m ρ c, show V1 m ρ c main_v45 = _ from v45_at1 m ρ c, show V1 m ρ c main_v48 = _ from v48_at1 m ρ c, show V1 m ρ c main_arg0 = _ from arg0_at1 m ρ c, show V1 m ρ c main_v50 = _ from v50_at1 m ρ c]
    exact congrArg Cert.SageSpec.colSumSq (((Cert.ReferenceIdeal.RefNet.v68_eq (m ((c : Thread nD τ).loc main_arg0)) (m ((c : Thread nD τ).loc main_arg3)) (m ((c : Thread nD τ).loc main_arg8)) (m ((c : Thread nD τ).loc main_arg9)) (m ((c : Thread nD τ).loc main_arg10))).trans (congrArg Cert.DenseSpec.relu (Cert.ReferenceIdeal.RefNet.v33_eq (m ((c : Thread nD τ).loc main_arg0)) (m ((c : Thread nD τ).loc main_arg3)) (m ((c : Thread nD τ).loc main_arg8)) (m ((c : Thread nD τ).loc main_arg9)) (m ((c : Thread nD τ).loc main_arg10))))).symm)))

end Cert.KernelIdeal.KNet

end
-- ==== Proof.RegR1a.lean ====
/-
  What one grid point of region 1 leaves in its three output blocks, as the arithmetic of that point.

  The body stores the dense step of its input blocks into the result block. At the first point it also stores a
  zero row into each of the two statistics rows; at every point it then reads each statistics row back and stores
  the row plus the block's column sums (of the dense step, and of its squares). Every load and store goes through
  the whole block, so each output block ends holding the value of its last store: at the first point the sums
  added to the zero row, at a later point the sums added to the row the point found.
-/
import proofs.«146104_j52931176955955_1_alg».proof.Proof.Gen.KernelIdeal.Frame
import Idealize.ShloMosaic.Lib.Pipeline.Value
import Idealize.ShloMosaic.Lib.Tactic

noncomputable section

namespace Cert.KernelIdeal.RegR

open Idealize.ShloMosaic Idealize.ShloMosaic.TcCoe Idealize.ShloMosaic.Tactic Idealize.SL.Sem
open Cert.KernelIdeal Cert.KernelIdeal.Gen

variable {F : FTy → Type} [FloatOps F]

theorem zero2_1 : (![0, 0] : Fin 2 → Nat) = fun _ => 0 := funext fun a => by fin_cases a <;> rfl

theorem out1_B_5_eq (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond1_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out1_B_5 c i a1 h1 a2 h2 a3 h3 a4 h4 a5 h5 a6 h6 a7 h7 a8 h8 hc x0 x1 x2 x3 x4 xo6 xo7 = k1_pay2 x0 x1 x2 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  rw [View.canon_unit_zero zero2_1]
  simp only [View.readAt_eq_ld, h1.read_unread, h2.read_unread, h3.read_unread, h4.read_unread, h5.read_unread, View.ld_unit_zero (S := S2000x128) zero2_1, View.ld_unit_zero (S := S128x128) zero2_1, View.ld_unit_zero (S := S1x128) zero2_1]

theorem out1_B_6_eq (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond1_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out1_B_6 c i a1 h1 a2 h2 a3 h3 a4 h4 a5 h5 a6 h6 a7 h7 a8 h8 hc x0 x1 x2 x3 x4 xo6 xo7 = k1_pay5 x0 x1 x2 x3 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  sl_unfold_words
  rw [View.canon_unit_zero zero2_1]
  simp only [View.readAt_eq_ld, h1.read_unread, h2.read_unread, h3.read_unread, h4.read_unread, h5.read_unread, h7.read_unread, View.ld_unit_zero (S := S2000x128) zero2_1, View.ld_unit_zero (S := S128x128) zero2_1, View.ld_unit_zero (S := S1x128) zero2_1]

theorem out1_B_7_eq (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond1_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out1_B_7 c i a1 h1 a2 h2 a3 h3 a4 h4 a5 h5 a6 h6 a7 h7 a8 h8 hc x0 x1 x2 x3 x4 xo6 xo7 = k1_pay1 (k1_pay2 x0 x1 x2 x3 x4) xo7 := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero zero2_1]
  simp only [View.readAt_eq_ld, h1.read_unread, h2.read_unread, h3.read_unread, h4.read_unread, h5.read_unread, h8.read_unread, View.ld_unit_zero (S := S2000x128) zero2_1, View.ld_unit_zero (S := S128x128) zero2_1, View.ld_unit_zero (S := S1x128) zero2_1]

theorem out1_A_5_eq (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond1_0 i)
    (x0 : Vec F S2000x128 .f32) (x1 : Vec F S128x128 .f32) (x2 : Vec F S1x128 .f32) (x3 : Vec F S2000x128 .f32) (x4 : Vec F S128x128 .f32) :
    out1_A_5 c i a1 h1 a2 h2 a3 h3 a4 h4 a5 h5 a6 h6 a7 h7 a8 h8 hc x0 x1 x2 x3 x4 = k1_pay2 x0 x1 x2 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  rw [View.canon_unit_zero zero2_1]
  simp only [View.readAt_eq_ld, h1.read_unread, h2.read_unread, h3.read_unread, h4.read_unread, h5.read_unread, View.ld_unit_zero (S := S2000x128) zero2_1, View.ld_unit_zero (S := S128x128) zero2_1, View.ld_unit_zero (S := S1x128) zero2_1]

theorem out1_A_6_eq (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond1_0 i)
    (x0 : Vec F S2000x128 .f32) (x1 : Vec F S128x128 .f32) (x2 : Vec F S1x128 .f32) (x3 : Vec F S2000x128 .f32) (x4 : Vec F S128x128 .f32) :
    out1_A_6 c i a1 h1 a2 h2 a3 h3 a4 h4 a5 h5 a6 h6 a7 h7 a8 h8 hc x0 x1 x2 x3 x4 = k1_pay5 x0 x1 x2 x3 x4 k1_pay3 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) zero2_1]
  simp only [View.readAt_eq_ld, h1.read_unread, h2.read_unread, h3.read_unread, h4.read_unread, h5.read_unread, View.readCov_unit_zero (S := S1x128) _ zero2_1, View.ld_unit_zero (S := S2000x128) zero2_1, View.ld_unit_zero (S := S128x128) zero2_1, View.ld_unit_zero (S := S1x128) zero2_1]

theorem out1_A_7_eq (c : Dev nD) (i : grid1.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond1_0 i)
    (x0 : Vec F S2000x128 .f32) (x1 : Vec F S128x128 .f32) (x2 : Vec F S1x128 .f32) (x3 : Vec F S2000x128 .f32) (x4 : Vec F S128x128 .f32) :
    out1_A_7 c i a1 h1 a2 h2 a3 h3 a4 h4 a5 h5 a6 h6 a7 h7 a8 h8 hc x0 x1 x2 x3 x4 = k1_pay1 (k1_pay2 x0 x1 x2 x3 x4) k1_pay4 := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) zero2_1]
  simp only [View.readAt_eq_ld, h1.read_unread, h2.read_unread, h3.read_unread, h4.read_unread, h5.read_unread, View.readCov_unit_zero (S := S1x128) _ zero2_1, View.ld_unit_zero (S := S2000x128) zero2_1, View.ld_unit_zero (S := S128x128) zero2_1, View.ld_unit_zero (S := S1x128) zero2_1]

end Cert.KernelIdeal.RegR

end
-- ==== Proof.RegR1.lean ====
/-
  The three arrays region 1 leaves, as whole-array functions of the arrays it finds.

  The grid has 75 points; point t works on rows 2000·t … 2000·t + 1999 of the 150000 rows, with both weight
  matrices and the bias row whole at every point. The layer is  H = max (mean · Wl + b + x · Wr, 0)  entry by entry.
  The result block of point t is block t of H, and the result blocks tile the array, so the result array is H. The
  two statistics rows keep a running total: after point t they hold the sums, over the rows of blocks 0 … t, of H's
  columns and of the squares of H's columns (by induction on the point: the first point starts from the zero row).
  Only the last point writes them back, and its block is the whole one-row array, so after the region they hold the
  column sums of H and of H's squares over all 150000 rows.
-/
import proofs.«146104_j52931176955955_1_alg».proof.Proof.Gen.KernelIdeal.Frame
import Idealize.ShloMosaic.Lib.Pipeline.Value
import Idealize.ShloMosaic.Lib.Tactic
import Idealize.ShloMosaic.Lib.ValueIdx
import proofs.«146104_j52931176955955_1_alg».proof.Proof.SageSpec
import proofs.«146104_j52931176955955_1_alg».proof.Proof.RegRPayOwn
import proofs.«146104_j52931176955955_1_alg».proof.Proof.RegRTotal
import proofs.«146104_j52931176955955_1_alg».proof.Proof.RegR1a

noncomputable section

namespace Cert.KernelIdeal.RegR

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The rows are 75 blocks of 2000. -/
theorem rows1_eq : 150000 = 75 * 2000 := by decide

/-- The layer as a whole-array function of the arrays the region finds: the dense step clamped at zero. -/
abbrev H1 (c : Dev nD) : S150000x128.Idx → EReal := (Cert.DenseSpec.relu (Cert.SageSpec.lin (n := 150000) (V c main_v43) (V c main_v53) (V c main_v56) (V c main_arg1) (V c main_v58)) : S150000x128.Idx → EReal)

/-- The printed index maps, decided over the grid: windows 0, 3 and 5 step one block of rows per point, the others
    stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Window 0's block at point t is rows 2000·t … 2000·t + 1999 of its array. -/
theorem iblk1_0_apply (c : Dev nD) (t : Fin cfg1.N) (r : Fin 2000) (k : Fin 128) :
    iblk1 V c 0 t (ix2 r k) = (V c main_v43 : S150000x128.Idx → EReal) (ix2 (⟨t.val * 2000 + r.val, Sage.Alg.block_row_lt (rows1_eq) (lt_of_lt_of_eq t.isLt N_1) r.isLt⟩ : Fin 150000) k) := by
  obtain ⟨e00, e01, e10, e11, e20, e21, e30, e31, e40, e41, e50, e51, e60, e61, e70, e71⟩ := idx1 t
  unfold iblk1
  rw [View.read_apply]
  show V c main_v43 _ = V c main_v43 _
  congr 1
  funext a
  apply Fin.ext
  match a with
  | ⟨0, _⟩ => show win1_0.index t (0 : Fin 2) * 2000 + 1 * r.val = t.val * 2000 + r.val; omega
  | ⟨1, _⟩ => show win1_0.index t (1 : Fin 2) * 128 + 1 * k.val = k.val; omega

/-- Window 1's block at every point is its whole array. -/
theorem iblk1_1_apply (c : Dev nD) (t : Fin cfg1.N) (p : Fin 128) (k : Fin 128) :
    iblk1 V c 1 t (ix2 p k) = (V c main_v53 : S128x128.Idx → EReal) (ix2 p k) := by
  obtain ⟨e00, e01, e10, e11, e20, e21, e30, e31, e40, e41, e50, e51, e60, e61, e70, e71⟩ := idx1 t
  unfold iblk1
  rw [View.read_apply]
  show V c main_v53 _ = V c main_v53 _
  congr 1
  funext a
  apply Fin.ext
  match a with
  | ⟨0, _⟩ => show win1_1.index t (0 : Fin 2) * 128 + 1 * p.val = p.val; omega
  | ⟨1, _⟩ => show win1_1.index t (1 : Fin 2) * 128 + 1 * k.val = k.val; omega

/-- Window 2's block at every point is its whole array. -/
theorem iblk1_2_apply (c : Dev nD) (t : Fin cfg1.N) (p : Fin 1) (k : Fin 128) :
    iblk1 V c 2 t (ix2 p k) = (V c main_v56 : S1x128.Idx → EReal) (ix2 p k) := by
  obtain ⟨e00, e01, e10, e11, e20, e21, e30, e31, e40, e41, e50, e51, e60, e61, e70, e71⟩ := idx1 t
  unfold iblk1
  rw [View.read_apply]
  show V c main_v56 _ = V c main_v56 _
  congr 1
  funext a
  apply Fin.ext
  match a with
  | ⟨0, _⟩ => show win1_2.index t (0 : Fin 2) * 1 + 1 * p.val = p.val; omega
  | ⟨1, _⟩ => show win1_2.index t (1 : Fin 2) * 128 + 1 * k.val = k.val; omega

/-- Window 3's block at point t is rows 2000·t … 2000·t + 1999 of its array. -/
theorem iblk1_3_apply (c : Dev nD) (t : Fin cfg1.N) (r : Fin 2000) (k : Fin 128) :
    iblk1 V c 3 t (ix2 r k) = (V c main_arg1 : S150000x128.Idx → EReal) (ix2 (⟨t.val * 2000 + r.val, Sage.Alg.block_row_lt (rows1_eq) (lt_of_lt_of_eq t.isLt N_1) r.isLt⟩ : Fin 150000) k) := by
  obtain ⟨e00, e01, e10, e11, e20, e21, e30, e31, e40, e41, e50, e51, e60, e61, e70, e71⟩ := idx1 t
  unfold iblk1
  rw [View.read_apply]
  show V c main_arg1 _ = V c main_arg1 _
  congr 1
  funext a
  apply Fin.ext
  match a with
  | ⟨0, _⟩ => show win1_3.index t (0 : Fin 2) * 2000 + 1 * r.val = t.val * 2000 + r.val; omega
  | ⟨1, _⟩ => show win1_3.index t (1 : Fin 2) * 128 + 1 * k.val = k.val; omega

/-- Window 4's block at every point is its whole array. -/
theorem iblk1_4_apply (c : Dev nD) (t : Fin cfg1.N) (p : Fin 128) (k : Fin 128) :
    iblk1 V c 4 t (ix2 p k) = (V c main_v58 : S128x128.Idx → EReal) (ix2 p k) := by
  obtain ⟨e00, e01, e10, e11, e20, e21, e30, e31, e40, e41, e50, e51, e60, e61, e70, e71⟩ := idx1 t
  unfold iblk1
  rw [View.read_apply]
  show V c main_v58 _ = V c main_v58 _
  congr 1
  funext a
  apply Fin.ext
  match a with
  | ⟨0, _⟩ => show win1_4.index t (0 : Fin 2) * 128 + 1 * p.val = p.val; omega
  | ⟨1, _⟩ => show win1_4.index t (1 : Fin 2) * 128 + 1 * k.val = k.val; omega

/-- The dense step of the blocks at point t, at (r, q), is the layer at row 2000·t + r. -/
theorem blk1_apply (c : Dev nD) (t : Fin cfg1.N) (r : Fin 2000) (q : Fin 128) :
    k1_pay2 (iblk1 V c 0 t) (iblk1 V c 1 t) (iblk1 V c 2 t) (iblk1 V c 3 t) (iblk1 V c 4 t) (ix2 r q) = H1 V c (ix2 (⟨t.val * 2000 + r.val, Sage.Alg.block_row_lt (rows1_eq) (lt_of_lt_of_eq t.isLt N_1) r.isLt⟩ : Fin 150000) q) := by
  refine (k1_pay2_apply (iblk1 V c 0 t) (iblk1 V c 1 t) (iblk1 V c 2 t) (iblk1 V c 3 t) (iblk1 V c 4 t) r q).trans ?_
  simp only [iblk1_0_apply V c t, iblk1_1_apply V c t, iblk1_2_apply V c t, iblk1_3_apply V c t, iblk1_4_apply V c t]
  rfl

/-! ## What the three outputs hold after each point -/

theorem outs1_5 (c : Dev nD) (t : Fin cfg1.N) : (outsAt1 V c t.val t.isLt).1 = k1_pay2 (iblk1 V c 0 t) (iblk1 V c 1 t) (iblk1 V c 2 t) (iblk1 V c 3 t) (iblk1 V c 4 t) := by
  by_cases h : t.val % 75 = 0
  · rw [outsAt1_A V c t h]; dsimp only
    exact out1_A_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h) (iblk1 V c 0 t) (iblk1 V c 1 t) (iblk1 V c 2 t) (iblk1 V c 3 t) (iblk1 V c 4 t)
  · rw [outsAt1_B V c t h]; dsimp only
    exact out1_B_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h' => h ((hcond1_0 t).mp h')) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

theorem outs1_6_A (c : Dev nD) (t : Fin cfg1.N) (h : t.val % 75 = 0) :
    (outsAt1 V c t.val t.isLt).2.1 = k1_pay5 (iblk1 V c 0 t) (iblk1 V c 1 t) (iblk1 V c 2 t) (iblk1 V c 3 t) (iblk1 V c 4 t) (k1_pay3 (F := Ideal)) := by
  rw [outsAt1_A V c t h]; dsimp only
  exact out1_A_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h) (iblk1 V c 0 t) (iblk1 V c 1 t) (iblk1 V c 2 t) (iblk1 V c 3 t) (iblk1 V c 4 t)

theorem outs1_6_B (c : Dev nD) (t : Fin cfg1.N) (h : ¬t.val % 75 = 0) :
    (outsAt1 V c t.val t.isLt).2.1 = k1_pay5 (iblk1 V c 0 t) (iblk1 V c 1 t) (iblk1 V c 2 t) (iblk1 V c 3 t) (iblk1 V c 4 t) (outsAt1 V c (t.val - 1) (Nat.lt_of_le_of_lt (Nat.sub_le _ _) t.isLt)).2.1 := by
  rw [outsAt1_B V c t h]; dsimp only
  exact out1_B_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h' => h ((hcond1_0 t).mp h')) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

theorem outs1_7_A (c : Dev nD) (t : Fin cfg1.N) (h : t.val % 75 = 0) :
    (outsAt1 V c t.val t.isLt).2.2 = k1_pay1 (k1_pay2 (iblk1 V c 0 t) (iblk1 V c 1 t) (iblk1 V c 2 t) (iblk1 V c 3 t) (iblk1 V c 4 t)) (k1_pay4 (F := Ideal)) := by
  rw [outsAt1_A V c t h]; dsimp only
  exact out1_A_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h) (iblk1 V c 0 t) (iblk1 V c 1 t) (iblk1 V c 2 t) (iblk1 V c 3 t) (iblk1 V c 4 t)

theorem outs1_7_B (c : Dev nD) (t : Fin cfg1.N) (h : ¬t.val % 75 = 0) :
    (outsAt1 V c t.val t.isLt).2.2 = k1_pay1 (k1_pay2 (iblk1 V c 0 t) (iblk1 V c 1 t) (iblk1 V c 2 t) (iblk1 V c 3 t) (iblk1 V c 4 t)) (outsAt1 V c (t.val - 1) (Nat.lt_of_le_of_lt (Nat.sub_le _ _) t.isLt)).2.2 := by
  rw [outsAt1_B V c t h]; dsimp only
  exact out1_B_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h' => h ((hcond1_0 t).mp h')) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

/-! ## The running totals at a column -/

theorem stat1_6_A (c : Dev nD) (q : Fin 128) (t : Fin cfg1.N) (h : t.val % 75 = 0) :
    (outsAt1 V c t.val t.isLt).2.1 (ix2 (0 : Fin 1) q) = ∑ r : Fin 2000, H1 V c (ix2 (⟨t.val * 2000 + r.val, Sage.Alg.block_row_lt (rows1_eq) (lt_of_lt_of_eq t.isLt N_1) r.isLt⟩ : Fin 150000) q) := by
  refine (congrFun (outs1_6_A V c t h) (ix2 (0 : Fin 1) q)).trans ?_
  refine (k1_pay5_apply (iblk1 V c 0 t) (iblk1 V c 1 t) (iblk1 V c 2 t) (iblk1 V c 3 t) (iblk1 V c 4 t) (k1_pay3 (F := Ideal)) q).trans ?_
  rw [k1_pay3_apply, Ideal.ofBits_zero_f32, zero_add]
  exact Finset.sum_congr rfl fun r _ => blk1_apply V c t r q

theorem stat1_6_B (c : Dev nD) (q : Fin 128) (t : Fin cfg1.N) (h : ¬t.val % 75 = 0) :
    (outsAt1 V c t.val t.isLt).2.1 (ix2 (0 : Fin 1) q)
      = (outsAt1 V c (t.val - 1) (Nat.lt_of_le_of_lt (Nat.sub_le _ _) t.isLt)).2.1 (ix2 (0 : Fin 1) q) + ∑ r : Fin 2000, H1 V c (ix2 (⟨t.val * 2000 + r.val, Sage.Alg.block_row_lt (rows1_eq) (lt_of_lt_of_eq t.isLt N_1) r.isLt⟩ : Fin 150000) q) := by
  refine (congrFun (outs1_6_B V c t h) (ix2 (0 : Fin 1) q)).trans ?_
  refine (k1_pay5_apply (iblk1 V c 0 t) (iblk1 V c 1 t) (iblk1 V c 2 t) (iblk1 V c 3 t) (iblk1 V c 4 t) (outsAt1 V c (t.val - 1) (Nat.lt_of_le_of_lt (Nat.sub_le _ _) t.isLt)).2.1 q).trans ?_
  exact congrArg _ (Finset.sum_congr rfl fun r _ => blk1_apply V c t r q)

theorem stat1_7_A (c : Dev nD) (q : Fin 128) (t : Fin cfg1.N) (h : t.val % 75 = 0) :
    (outsAt1 V c t.val t.isLt).2.2 (ix2 (0 : Fin 1) q)
      = ∑ r : Fin 2000, H1 V c (ix2 (⟨t.val * 2000 + r.val, Sage.Alg.block_row_lt (rows1_eq) (lt_of_lt_of_eq t.isLt N_1) r.isLt⟩ : Fin 150000) q) * H1 V c (ix2 (⟨t.val * 2000 + r.val, Sage.Alg.block_row_lt (rows1_eq) (lt_of_lt_of_eq t.isLt N_1) r.isLt⟩ : Fin 150000) q) := by
  refine (congrFun (outs1_7_A V c t h) (ix2 (0 : Fin 1) q)).trans ?_
  refine (k1_pay1_apply (k1_pay2 (iblk1 V c 0 t) (iblk1 V c 1 t) (iblk1 V c 2 t) (iblk1 V c 3 t) (iblk1 V c 4 t)) (k1_pay4 (F := Ideal)) q).trans ?_
  rw [k1_pay4_apply, Ideal.ofBits_zero_f32, zero_add]
  exact Finset.sum_congr rfl fun r _ => by rw [blk1_apply V c t r q]

theorem stat1_7_B (c : Dev nD) (q : Fin 128) (t : Fin cfg1.N) (h : ¬t.val % 75 = 0) :
    (outsAt1 V c t.val t.isLt).2.2 (ix2 (0 : Fin 1) q)
      = (outsAt1 V c (t.val - 1) (Nat.lt_of_le_of_lt (Nat.sub_le _ _) t.isLt)).2.2 (ix2 (0 : Fin 1) q)
        + ∑ r : Fin 2000, H1 V c (ix2 (⟨t.val * 2000 + r.val, Sage.Alg.block_row_lt (rows1_eq) (lt_of_lt_of_eq t.isLt N_1) r.isLt⟩ : Fin 150000) q) * H1 V c (ix2 (⟨t.val * 2000 + r.val, Sage.Alg.block_row_lt (rows1_eq) (lt_of_lt_of_eq t.isLt N_1) r.isLt⟩ : Fin 150000) q) := by
  refine (congrFun (outs1_7_B V c t h) (ix2 (0 : Fin 1) q)).trans ?_
  refine (k1_pay1_apply (k1_pay2 (iblk1 V c 0 t) (iblk1 V c 1 t) (iblk1 V c 2 t) (iblk1 V c 3 t) (iblk1 V c 4 t)) (outsAt1 V c (t.val - 1) (Nat.lt_of_le_of_lt (Nat.sub_le _ _) t.isLt)).2.2 q).trans ?_
  exact congrArg _ (Finset.sum_congr rfl fun r _ => by rw [blk1_apply V c t r q])

/-- After the last point the first statistics row holds the column sums of the layer. -/
theorem stat1_6_last (c : Dev nD) (q : Fin 128) (n : ℕ) (hn : n < cfg1.N) (e : n + 1 = 75) :
    (outsAt1 V c n hn).2.1 (ix2 (0 : Fin 1) q) = ∑ p : Fin 150000, H1 V c (ix2 p q) := by
  have key := Sage.Alg.block_total_last 75 2000 rows1_eq (fun p : Fin 150000 => H1 V c (ix2 p q))
    (fun n hn => (outsAt1 V c n (lt_of_lt_of_eq hn N_1.symm)).2.1 (ix2 (0 : Fin 1) q))
    (fun n h1 e0 => stat1_6_A V c q ⟨n, lt_of_lt_of_eq h1 N_1.symm⟩ (by show n % 75 = 0; omega))
    (fun n h1 hne => stat1_6_B V c q ⟨n, lt_of_lt_of_eq h1 N_1.symm⟩ (by show ¬n % 75 = 0; omega))
    n e (lt_of_lt_of_eq hn N_1)
  exact key

/-- After the last point the second statistics row holds the column sums of the layer's squares. -/
theorem stat1_7_last (c : Dev nD) (q : Fin 128) (n : ℕ) (hn : n < cfg1.N) (e : n + 1 = 75) :
    (outsAt1 V c n hn).2.2 (ix2 (0 : Fin 1) q) = ∑ p : Fin 150000, H1 V c (ix2 p q) * H1 V c (ix2 p q) := by
  have key := Sage.Alg.block_total_last 75 2000 rows1_eq (fun p : Fin 150000 => H1 V c (ix2 p q) * H1 V c (ix2 p q))
    (fun n hn => (outsAt1 V c n (lt_of_lt_of_eq hn N_1.symm)).2.2 (ix2 (0 : Fin 1) q))
    (fun n h1 e0 => stat1_7_A V c q ⟨n, lt_of_lt_of_eq h1 N_1.symm⟩ (by show n % 75 = 0; omega))
    (fun n h1 hne => stat1_7_B V c q ⟨n, lt_of_lt_of_eq h1 N_1.symm⟩ (by show ¬n % 75 = 0; omega))
    n e (lt_of_lt_of_eq hn N_1)
  exact key

/-! ## The arrays after the region -/

/-- An index of the result array is in point t's block iff each coordinate is in the block's range. -/
theorem mem_blk1_5 (t : Fin cfg1.N) (i : S150000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v59_0).slice (win1_5.rect t)).set ↔ _
  rw [View.set_slice_whole, Rect.mem_set_unit]
  exact Iff.rfl

/-- What point t writes back to the result array is block t of the layer. -/
theorem flushed1_5 (c : Dev nD) (t : Fin cfg1.N) :
    (dat1 V c).flushed 5 t = ((cfg1.win 5).blk t).view.read (Elt Ideal) (H1 V c) := by
  show (cfg1.win 5).cut (grid1.coords t) ((dat1 V c).after 5 t) = _
  rw [after1_5, outs1_5 V c t]
  obtain ⟨e00, e01, e10, e11, e20, e21, e30, e31, e40, e41, e50, e51, e60, e61, e70, e71⟩ := idx1 t
  funext j
  obtain ⟨r, q, rfl⟩ : ∃ (r : Fin 2000) (q : Fin 128), j = ix2 r q := ⟨j 0, j 1, eq_ix2 (n0 := 2000) (n1 := 128) j⟩
  rw [View.read_apply]
  refine (blk1_apply V c t r q).trans ?_
  refine congrArg (H1 V c) ?_
  funext a
  apply Fin.ext
  match a with
  | ⟨0, _⟩ => show t.val * 2000 + r.val = win1_5.index t (0 : Fin 2) * 2000 + 1 * r.val; omega
  | ⟨1, _⟩ => show q.val = win1_5.index t (1 : Fin 2) * 128 + 1 * q.val; omega

/-- The result array after the region is the layer. -/
theorem arr1_5 (c : Dev nD) : (dat1 V c).arrAt 5 cfg1.N = (Cert.DenseSpec.relu (Cert.SageSpec.lin (n := 150000) (V c main_v43) (V c main_v53) (V c main_v56) (V c main_arg1) (V c main_v58)) : S150000x128.Idx → EReal) :=
  (dat1 V c).arrAt_eq_of_cover 5 (H1 V c) (fun t _ => flushed1_5 V c t) fun i => by
    have hN : cfg1.N = 75 := N_1
    have hi0 : (i 0).val < 150000 := (i 0).isLt
    have hi1 : (i 1).val < 128 := (i 1).isLt
    have ht : (i 0).val / 2000 < cfg1.N := by rw [hN]; omega
    obtain ⟨e00, e01, e10, e11, e20, e21, e30, e31, e40, e41, e50, e51, e60, e61, e70, e71⟩ := idx1 ⟨(i 0).val / 2000, ht⟩
    refine ⟨⟨(i 0).val / 2000, ht⟩, flush1_5 _, ?_⟩
    rw [mem_blk1_5]
    intro a
    match a with
    | ⟨0, _⟩ =>
      show win1_5.index ⟨(i 0).val / 2000, ht⟩ (0 : Fin 2) * 2000 ≤ (i 0).val ∧ (i 0).val < win1_5.index ⟨(i 0).val / 2000, ht⟩ (0 : Fin 2) * 2000 + 2000
      have e50' : win1_5.index ⟨(i 0).val / 2000, ht⟩ (0 : Fin 2) = (i 0).val / 2000 := e50
      omega
    | ⟨1, _⟩ =>
      show win1_5.index ⟨(i 0).val / 2000, ht⟩ (1 : Fin 2) * 128 ≤ (i 1).val ∧ (i 1).val < win1_5.index ⟨(i 0).val / 2000, ht⟩ (1 : Fin 2) * 128 + 128
      omega

/-- An index of statistics row 1 is in point t's block iff each coordinate is in the block's range. -/
theorem mem_blk1_6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v59_1).slice (win1_6.rect t)).set ↔ _
  rw [View.set_slice_whole, Rect.mem_set_unit]
  exact Iff.rfl

/-- The one point that writes the row back is the last; what it writes is any row that the running total equals
    entry by entry. -/
theorem flushed1_6_of (c : Dev nD) (t : Fin cfg1.N) (G : S1x128.Idx → EReal)
    (hG : ∀ q : Fin 128, (outsAt1 V c t.val t.isLt).2.1 (ix2 (0 : Fin 1) q) = G (ix2 (0 : Fin 1) q)) :
    (dat1 V c).flushed 6 t = ((cfg1.win 6).blk t).view.read (Elt Ideal) G := by
  obtain ⟨e00, e01, e10, e11, e20, e21, e30, e31, e40, e41, e50, e51, e60, e61, e70, e71⟩ := idx1 t
  show (cfg1.win 6).cut (grid1.coords t) ((dat1 V c).after 6 t) = _
  rw [after1_6]
  funext j
  obtain ⟨u, q, rfl⟩ : ∃ (u : Fin 1) (q : Fin 128), j = ix2 u q := ⟨j 0, j 1, eq_ix2 (n0 := 1) (n1 := 128) j⟩
  obtain rfl : u = 0 := Fin.eq_zero u
  have hemb : ((cfg1.win 6).blk t).view.emb (ix2 (0 : Fin 1) q) = ix2 (0 : Fin 1) q := by
    funext a
    apply Fin.ext
    match a with
    | ⟨0, _⟩ => show win1_6.index t (0 : Fin 2) * 1 + 1 * 0 = 0; omega
    | ⟨1, _⟩ => show win1_6.index t (1 : Fin 2) * 128 + 1 * q.val = q.val; omega
  show (outsAt1 V c t.val t.isLt).2.1 (ix2 (0 : Fin 1) q) = G (((cfg1.win 6).blk t).view.emb (ix2 (0 : Fin 1) q))
  rw [hemb]
  exact hG q

/-- It writes the whole-array column sums. -/
theorem flushed1_6 (c : Dev nD) (t : Fin cfg1.N) (hf : (cfg1.win 6).flush t = true) :
    (dat1 V c).flushed 6 t = ((cfg1.win 6).blk t).view.read (Elt Ideal) (Cert.SageSpec.colSum (H1 V c)) := by
  have hN : cfg1.N = 75 := N_1
  have hlast : t.val + 1 = 75 := by
    have h1 := (flush1_6 t).mp hf
    have h2 : t.val < 75 := lt_of_lt_of_eq t.isLt hN
    omega
  exact flushed1_6_of V c t (Cert.SageSpec.colSum (H1 V c)) fun q =>
    (stat1_6_last V c q t.val t.isLt hlast).trans (Cert.SageSpec.colSum_ix2 (H1 V c) q).symm

/-- Statistics row 1 after the region: the column sums of the layer. -/
theorem arr1_6 (c : Dev nD) : (dat1 V c).arrAt 6 cfg1.N = Cert.SageSpec.colSum (Cert.DenseSpec.relu (Cert.SageSpec.lin (n := 150000) (V c main_v43) (V c main_v53) (V c main_v56) (V c main_arg1) (V c main_v58)) : S150000x128.Idx → EReal) :=
  (dat1 V c).arrAt_eq_of_cover 6 (Cert.SageSpec.colSum (H1 V c)) (flushed1_6 V c) fun i => by
    have hN : cfg1.N = 75 := N_1
    have hi0 : (i 0).val < 1 := (i 0).isLt
    have hi1 : (i 1).val < 128 := (i 1).isLt
    have ht : 74 < cfg1.N := by rw [hN]; omega
    obtain ⟨e00, e01, e10, e11, e20, e21, e30, e31, e40, e41, e50, e51, e60, e61, e70, e71⟩ := idx1 ⟨74, ht⟩
    refine ⟨⟨74, ht⟩, (flush1_6 _).mpr rfl, ?_⟩
    rw [mem_blk1_6]
    intro a
    match a with
    | ⟨0, _⟩ =>
      show win1_6.index ⟨74, ht⟩ (0 : Fin 2) * 1 ≤ (i 0).val ∧ (i 0).val < win1_6.index ⟨74, ht⟩ (0 : Fin 2) * 1 + 1
      omega
    | ⟨1, _⟩ =>
      show win1_6.index ⟨74, ht⟩ (1 : Fin 2) * 128 ≤ (i 1).val ∧ (i 1).val < win1_6.index ⟨74, ht⟩ (1 : Fin 2) * 128 + 128
      omega

/-- An index of statistics row 2 is in point t's block iff each coordinate is in the block's range. -/
theorem mem_blk1_7 (t : Fin cfg1.N) (i : S1x128.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v59_2).slice (win1_7.rect t)).set ↔ _
  rw [View.set_slice_whole, Rect.mem_set_unit]
  exact Iff.rfl

/-- The one point that writes the row back is the last; what it writes is any row that the running total equals
    entry by entry. -/
theorem flushed1_7_of (c : Dev nD) (t : Fin cfg1.N) (G : S1x128.Idx → EReal)
    (hG : ∀ q : Fin 128, (outsAt1 V c t.val t.isLt).2.2 (ix2 (0 : Fin 1) q) = G (ix2 (0 : Fin 1) q)) :
    (dat1 V c).flushed 7 t = ((cfg1.win 7).blk t).view.read (Elt Ideal) G := by
  obtain ⟨e00, e01, e10, e11, e20, e21, e30, e31, e40, e41, e50, e51, e60, e61, e70, e71⟩ := idx1 t
  show (cfg1.win 7).cut (grid1.coords t) ((dat1 V c).after 7 t) = _
  rw [after1_7]
  funext j
  obtain ⟨u, q, rfl⟩ : ∃ (u : Fin 1) (q : Fin 128), j = ix2 u q := ⟨j 0, j 1, eq_ix2 (n0 := 1) (n1 := 128) j⟩
  obtain rfl : u = 0 := Fin.eq_zero u
  have hemb : ((cfg1.win 7).blk t).view.emb (ix2 (0 : Fin 1) q) = ix2 (0 : Fin 1) q := by
    funext a
    apply Fin.ext
    match a with
    | ⟨0, _⟩ => show win1_7.index t (0 : Fin 2) * 1 + 1 * 0 = 0; omega
    | ⟨1, _⟩ => show win1_7.index t (1 : Fin 2) * 128 + 1 * q.val = q.val; omega
  show (outsAt1 V c t.val t.isLt).2.2 (ix2 (0 : Fin 1) q) = G (((cfg1.win 7).blk t).view.emb (ix2 (0 : Fin 1) q))
  rw [hemb]
  exact hG q

/-- It writes the whole-array column sums of squares. -/
theorem flushed1_7 (c : Dev nD) (t : Fin cfg1.N) (hf : (cfg1.win 7).flush t = true) :
    (dat1 V c).flushed 7 t = ((cfg1.win 7).blk t).view.read (Elt Ideal) (Cert.SageSpec.colSumSq (H1 V c)) := by
  have hN : cfg1.N = 75 := N_1
  have hlast : t.val + 1 = 75 := by
    have h1 := (flush1_7 t).mp hf
    have h2 : t.val < 75 := lt_of_lt_of_eq t.isLt hN
    omega
  exact flushed1_7_of V c t (Cert.SageSpec.colSumSq (H1 V c)) fun q =>
    (stat1_7_last V c q t.val t.isLt hlast).trans (Cert.SageSpec.colSumSq_ix2 (H1 V c) q).symm

/-- Statistics row 2 after the region: the column sums of squares of the layer. -/
theorem arr1_7 (c : Dev nD) : (dat1 V c).arrAt 7 cfg1.N = Cert.SageSpec.colSumSq (Cert.DenseSpec.relu (Cert.SageSpec.lin (n := 150000) (V c main_v43) (V c main_v53) (V c main_v56) (V c main_arg1) (V c main_v58)) : S150000x128.Idx → EReal) :=
  (dat1 V c).arrAt_eq_of_cover 7 (Cert.SageSpec.colSumSq (H1 V c)) (flushed1_7 V c) fun i => by
    have hN : cfg1.N = 75 := N_1
    have hi0 : (i 0).val < 1 := (i 0).isLt
    have hi1 : (i 1).val < 128 := (i 1).isLt
    have ht : 74 < cfg1.N := by rw [hN]; omega
    obtain ⟨e00, e01, e10, e11, e20, e21, e30, e31, e40, e41, e50, e51, e60, e61, e70, e71⟩ := idx1 ⟨74, ht⟩
    refine ⟨⟨74, ht⟩, (flush1_7 _).mpr rfl, ?_⟩
    rw [mem_blk1_7]
    intro a
    match a with
    | ⟨0, _⟩ =>
      show win1_7.index ⟨74, ht⟩ (0 : Fin 2) * 1 ≤ (i 0).val ∧ (i 0).val < win1_7.index ⟨74, ht⟩ (0 : Fin 2) * 1 + 1
      omega
    | ⟨1, _⟩ =>
      show win1_7.index ⟨74, ht⟩ (1 : Fin 2) * 128 ≤ (i 1).val ∧ (i 1).val < win1_7.index ⟨74, ht⟩ (1 : Fin 2) * 128 + 128
      omega

end Cert.KernelIdeal.RegR

end
-- ==== Proof.KReg1.lean ====
/-
  Region 1 of the idealized kernel program, read against the reference's stages: the region's host-computed operands
  are the same host operations of the same values as the reference's stages; the region's output arrays are the
  whole-array functions of its operands that the reference's corresponding stages are.
-/
import proofs.«146104_j52931176955955_1_alg».proof.Proof.KReg0
import proofs.«146104_j52931176955955_1_alg».proof.Proof.RegR1

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

set_option backward.isDefEq.respectTransparency.types false in
theorem v53_at3 : W3 m ρ c (Proc.devRef .tc main_v53) = (Cert.ReferenceIdeal.Read.val_main_v35 (F := Ideal) (m ((c : Thread nD τ).loc main_arg8))) := by
  show StableHlo.after hostOps1 (W2 m ρ c) (Proc.devRef .tc main_v53) = _
  after_results_simp
  rw [arg8_at2 m ρ c]
  rfl

set_option backward.isDefEq.respectTransparency.types false in
theorem v56_at3 : W3 m ρ c (Proc.devRef .tc main_v56) = (Cert.ReferenceIdeal.Read.val_main_v63 (F := Ideal) (m ((c : Thread nD τ).loc main_arg9))) := by
  show StableHlo.after hostOps1 (W2 m ρ c) (Proc.devRef .tc main_v56) = _
  after_results_simp
  rw [arg9_at2 m ρ c]
  rfl

set_option backward.isDefEq.respectTransparency.types false in
theorem v58_at3 : W3 m ρ c (Proc.devRef .tc main_v58) = (Cert.ReferenceIdeal.Read.val_main_v39 (F := Ideal) (m ((c : Thread nD τ).loc main_arg10))) := by
  show StableHlo.after hostOps1 (W2 m ρ c) (Proc.devRef .tc main_v58) = _
  after_results_simp
  rw [arg10_at2 m ρ c]
  rfl

theorem v43_at3 : W3 m ρ c (Proc.devRef .tc main_v43) = (Cert.ReferenceIdeal.Read.val_main_v61 (F := Ideal) (m ((c : Thread nD τ).loc main_arg0)) (m ((c : Thread nD τ).loc main_arg4))) :=
  (keepH1 (W2 m ρ c) main_v43 (by decide)).trans ((W2_of_ne m ρ c main_v43 (by decide)).trans (v43_at1 m ρ c))

set_option backward.isDefEq.respectTransparency.types false in
theorem v59_0_at4 : W4 m ρ c (Proc.devRef .tc main_v59_0) = (Cert.ReferenceIdeal.Read.val_main_v98 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))) :=
  (W4_arr m ρ c 5).trans ((Cert.KernelIdeal.RegR.arr1_5 (V3 m ρ) c).trans (by
    rw [show V3 m ρ c main_v43 = _ from v43_at3 m ρ c, show V3 m ρ c main_v53 = _ from v53_at3 m ρ c, show V3 m ρ c main_v56 = _ from v56_at3 m ρ c, show V3 m ρ c main_arg1 = _ from arg1_at3 m ρ c, show V3 m ρ c main_v58 = _ from v58_at3 m ρ c]
    exact ((Cert.ReferenceIdeal.RefNet.v98_eq (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))).trans (congrArg Cert.DenseSpec.relu (Cert.ReferenceIdeal.RefNet.v67_eq (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))))).symm))

set_option backward.isDefEq.respectTransparency.types false in
theorem v59_1_at4 : W4 m ρ c (Proc.devRef .tc main_v59_1) = (Cert.SageSpec.colSum (Cert.ReferenceIdeal.Read.val_main_v98 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10)))) :=
  (W4_arr m ρ c 6).trans ((Cert.KernelIdeal.RegR.arr1_6 (V3 m ρ) c).trans (by
    rw [show V3 m ρ c main_v43 = _ from v43_at3 m ρ c, show V3 m ρ c main_v53 = _ from v53_at3 m ρ c, show V3 m ρ c main_v56 = _ from v56_at3 m ρ c, show V3 m ρ c main_arg1 = _ from arg1_at3 m ρ c, show V3 m ρ c main_v58 = _ from v58_at3 m ρ c]
    exact congrArg Cert.SageSpec.colSum (((Cert.ReferenceIdeal.RefNet.v98_eq (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))).trans (congrArg Cert.DenseSpec.relu (Cert.ReferenceIdeal.RefNet.v67_eq (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))))).symm)))

set_option backward.isDefEq.respectTransparency.types false in
theorem v59_2_at4 : W4 m ρ c (Proc.devRef .tc main_v59_2) = (Cert.SageSpec.colSumSq (Cert.ReferenceIdeal.Read.val_main_v98 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10)))) :=
  (W4_arr m ρ c 7).trans ((Cert.KernelIdeal.RegR.arr1_7 (V3 m ρ) c).trans (by
    rw [show V3 m ρ c main_v43 = _ from v43_at3 m ρ c, show V3 m ρ c main_v53 = _ from v53_at3 m ρ c, show V3 m ρ c main_v56 = _ from v56_at3 m ρ c, show V3 m ρ c main_arg1 = _ from arg1_at3 m ρ c, show V3 m ρ c main_v58 = _ from v58_at3 m ρ c]
    exact congrArg Cert.SageSpec.colSumSq (((Cert.ReferenceIdeal.RefNet.v98_eq (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))).trans (congrArg Cert.DenseSpec.relu (Cert.ReferenceIdeal.RefNet.v67_eq (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))))).symm)))

end Cert.KernelIdeal.KNet

end
-- ==== Proof.RegAPayBn.lean ====
/-
  Batch normalisation applied to one block of rows, read at an entry.

  The body takes a block of 2000 rows and four rows of 128 entries: the column means μ, the column variances v, the
  scales γ and the shifts β. It adds the small constant ε (the float with word 0x3727C5AC) to the variances, takes the
  inverse square root, and maps every entry h (r, q) to
      ((h (r, q) − μ (0, q)) · rsqrt (v (0, q) + ε)) · γ (0, q)  +  β (0, q).
  The body loads the variance row second and the mean row third, so its payload's second and third operands are
  v and μ in that order. A reshape to the same shape is the identity and a row broadcast down the rows reads the row
  at the column; the arithmetic is the extended reals' entry by entry. Five kernels have this body.
-/
import proofs.«146104_j52931176955955_1_alg».proof.Proof.Gen.KernelIdeal.Skeleton
import proofs.«146104_j52931176955955_1_alg».proof.Proof.LibDotRecord

namespace Cert.KernelIdeal.RegA

open Idealize.ShloMosaic Idealize.ShloMosaic.ValueIdx Cert.KernelIdeal

/-- The normalised block at entry (r, q); the payload's operands are the block, the variances, the means, the scales
    and the shifts, in this order. -/
theorem k2_pay1_apply (h : Vec Ideal S2000x128 .f32) (v : Vec Ideal S1x128 .f32) (mu : Vec Ideal S1x128 .f32)
    (g : Vec Ideal S1x128 .f32) (b : Vec Ideal S1x128 .f32) (r : Fin 2000) (q : Fin 128) :
    Gen.k2_pay1 (F := Ideal) h v mu g b (ix2 r q)
      = ((h (ix2 r q) - mu (ix2 (0 : Fin 1) q)) * Ideal.rsqrt (v (ix2 (0 : Fin 1) q) + Ideal.ofBits .f32 0x3727C5AC#32))
          * g (ix2 (0 : Fin 1) q)
        + b (ix2 (0 : Fin 1) q) := by
  unfold Gen.k2_pay1
  simp only [shapeCast_self]
  refine congrArg₂ (· + ·) (congrArg₂ (· * ·) (congrArg₂ (· * ·) (congrArg₂ (· - ·) rfl ?_) ?_) ?_) ?_
  · exact DotRecord.broadcastTo_1b_ab_apply mu Gen.broadcasts_S1x128_S2000x128 r q
  · exact DotRecord.broadcastTo_1b_ab_apply _ Gen.broadcasts_S1x128_S2000x128 r q
  · exact DotRecord.broadcastTo_1b_ab_apply g Gen.broadcasts_S1x128_S2000x128 r q
  · exact DotRecord.broadcastTo_1b_ab_apply b Gen.broadcasts_S1x128_S2000x128 r q

/-- The same body in kernel 3. -/
theorem k3_pay1_apply (h : Vec Ideal S2000x128 .f32) (v : Vec Ideal S1x128 .f32) (mu : Vec Ideal S1x128 .f32)
    (g : Vec Ideal S1x128 .f32) (b : Vec Ideal S1x128 .f32) (r : Fin 2000) (q : Fin 128) :
    Gen.k3_pay1 (F := Ideal) h v mu g b (ix2 r q)
      = ((h (ix2 r q) - mu (ix2 (0 : Fin 1) q)) * Ideal.rsqrt (v (ix2 (0 : Fin 1) q) + Ideal.ofBits .f32 0x3727C5AC#32))
          * g (ix2 (0 : Fin 1) q)
        + b (ix2 (0 : Fin 1) q) :=
  k2_pay1_apply h v mu g b r q

/-- The same body in kernel 8. -/
theorem k8_pay1_apply (h : Vec Ideal S2000x128 .f32) (v : Vec Ideal S1x128 .f32) (mu : Vec Ideal S1x128 .f32)
    (g : Vec Ideal S1x128 .f32) (b : Vec Ideal S1x128 .f32) (r : Fin 2000) (q : Fin 128) :
    Gen.k8_pay1 (F := Ideal) h v mu g b (ix2 r q)
      = ((h (ix2 r q) - mu (ix2 (0 : Fin 1) q)) * Ideal.rsqrt (v (ix2 (0 : Fin 1) q) + Ideal.ofBits .f32 0x3727C5AC#32))
          * g (ix2 (0 : Fin 1) q)
        + b (ix2 (0 : Fin 1) q) :=
  k2_pay1_apply h v mu g b r q

/-- The same body in kernel 9. -/
theorem k9_pay1_apply (h : Vec Ideal S2000x128 .f32) (v : Vec Ideal S1x128 .f32) (mu : Vec Ideal S1x128 .f32)
    (g : Vec Ideal S1x128 .f32) (b : Vec Ideal S1x128 .f32) (r : Fin 2000) (q : Fin 128) :
    Gen.k9_pay1 (F := Ideal) h v mu g b (ix2 r q)
      = ((h (ix2 r q) - mu (ix2 (0 : Fin 1) q)) * Ideal.rsqrt (v (ix2 (0 : Fin 1) q) + Ideal.ofBits .f32 0x3727C5AC#32))
          * g (ix2 (0 : Fin 1) q)
        + b (ix2 (0 : Fin 1) q) :=
  k2_pay1_apply h v mu g b r q

/-- The same body in kernel 10. -/
theorem k10_pay1_apply (h : Vec Ideal S2000x128 .f32) (v : Vec Ideal S1x128 .f32) (mu : Vec Ideal S1x128 .f32)
    (g : Vec Ideal S1x128 .f32) (b : Vec Ideal S1x128 .f32) (r : Fin 2000) (q : Fin 128) :
    Gen.k10_pay1 (F := Ideal) h v mu g b (ix2 r q)
      = ((h (ix2 r q) - mu (ix2 (0 : Fin 1) q)) * Ideal.rsqrt (v (ix2 (0 : Fin 1) q) + Ideal.ofBits .f32 0x3727C5AC#32))
          * g (ix2 (0 : Fin 1) q)
        + b (ix2 (0 : Fin 1) q) :=
  k2_pay1_apply h v mu g b r q

end Cert.KernelIdeal.RegA
-- ==== Proof.RegA2.lean ====
/-
  Region 2: batch normalisation applied, as one array.

  The region walks 100 blocks of 2000 rows. At block t it reads rows 2000 t … 2000 t + 1999 of the array to be
  normalised and the four whole rows of column means, column variances, scales and shifts, and writes the same rows
  of its output. Its body's block at entry (r, q) is ((h (r, q) − μ (q)) · rsqrt (v (q) + ε)) · γ (q) + β (q); so
  block t of the output is block t of the whole-array function that maps every entry this way, and the 100 blocks
  cover the 200000 rows: row i lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayBn
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem zeros2 : (![0, 0] : Fin 2 → Nat) = fun _ => 0 := funext fun a => by fin_cases a <;> rfl

/-- The block indices over the grid: the row-tiled windows sit at block (t, 0), the four rows at block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of block t as a row of the array. -/
def row2 (t : Fin cfg2.N) (r : Fin 2000) : Fin 200000 :=
  ⟨2000 * t.val + r.val, by
    have ht : t.val < 100 := Nat.lt_of_lt_of_eq t.isLt N_2
    have hr := r.isLt
    omega⟩

/-- Row r of window 0's block at point t is row 2000 t + r of its array. -/
theorem blk2_0 (c : Dev nD) (t : Fin cfg2.N) (r : Fin 2000) (k : Fin 128) :
    (iblk2 V c 0 t : S2000x128.Idx → EReal) (ix2 r k) = (V c main_v51_0 : S200000x128.Idx → EReal) (ix2 (row2 t r) k) := by
  obtain ⟨ea, eb, -⟩ := idx2 t
  unfold iblk2
  rw [View.read_apply]
  show (V c main_v51_0 : S200000x128.Idx → EReal) _ = _
  refine congrArg (V c main_v51_0 : S200000x128.Idx → EReal) ?_
  funext a; apply Fin.ext
  match a with
  | ⟨0, _⟩ => show win2_0.index t (0 : Fin 2) * 2000 + 1 * r.val = 2000 * t.val + r.val; rw [ea]; omega
  | ⟨1, _⟩ => show win2_0.index t (1 : Fin 2) * 128 + 1 * k.val = k.val; rw [eb]; omega

/-- Window 1's block at every point is its whole row. -/
theorem blk2_1 (c : Dev nD) (t : Fin cfg2.N) (k : Fin 1) (q : Fin 128) :
    (iblk2 V c 1 t : S1x128.Idx → EReal) (ix2 k q) = (V c main_v67 : S1x128.Idx → EReal) (ix2 k q) := by
  obtain ⟨-, -, ea, eb, -⟩ := idx2 t
  unfold iblk2
  rw [View.read_apply]
  show (V c main_v67 : S1x128.Idx → EReal) _ = _
  refine congrArg (V c main_v67 : S1x128.Idx → EReal) ?_
  funext a; apply Fin.ext
  match a with
  | ⟨0, _⟩ => show win2_1.index t (0 : Fin 2) * 1 + 1 * k.val = k.val; rw [ea]; omega
  | ⟨1, _⟩ => show win2_1.index t (1 : Fin 2) * 128 + 1 * q.val = q.val; rw [eb]; omega

/-- Window 2's block at every point is its whole row. -/
theorem blk2_2 (c : Dev nD) (t : Fin cfg2.N) (k : Fin 1) (q : Fin 128) :
    (iblk2 V c 2 t : S1x128.Idx → EReal) (ix2 k q) = (V c main_v71 : S1x128.Idx → EReal) (ix2 k q) := by
  obtain ⟨-, -, -, -, ea, eb, -⟩ := idx2 t
  unfold iblk2
  rw [View.read_apply]
  show (V c main_v71 : S1x128.Idx → EReal) _ = _
  refine congrArg (V c main_v71 : S1x128.Idx → EReal) ?_
  funext a; apply Fin.ext
  match a with
  | ⟨0, _⟩ => show win2_2.index t (0 : Fin 2) * 1 + 1 * k.val = k.val; rw [ea]; omega
  | ⟨1, _⟩ => show win2_2.index t (1 : Fin 2) * 128 + 1 * q.val = q.val; rw [eb]; omega

/-- Window 3's block at every point is its whole row. -/
theorem blk2_3 (c : Dev nD) (t : Fin cfg2.N) (k : Fin 1) (q : Fin 128) :
    (iblk2 V c 3 t : S1x128.Idx → EReal) (ix2 k q) = (V c main_v62 : S1x128.Idx → EReal) (ix2 k q) := by
  obtain ⟨-, -, -, -, -, -, ea, eb, -⟩ := idx2 t
  unfold iblk2
  rw [View.read_apply]
  show (V c main_v62 : S1x128.Idx → EReal) _ = _
  refine congrArg (V c main_v62 : S1x128.Idx → EReal) ?_
  funext a; apply Fin.ext
  match a with
  | ⟨0, _⟩ => show win2_3.index t (0 : Fin 2) * 1 + 1 * k.val = k.val; rw [ea]; omega
  | ⟨1, _⟩ => show win2_3.index t (1 : Fin 2) * 128 + 1 * q.val = q.val; rw [eb]; omega

/-- Window 4's block at every point is its whole row. -/
theorem blk2_4 (c : Dev nD) (t : Fin cfg2.N) (k : Fin 1) (q : Fin 128) :
    (iblk2 V c 4 t : S1x128.Idx → EReal) (ix2 k q) = (V c main_v65 : S1x128.Idx → EReal) (ix2 k q) := by
  obtain ⟨-, -, -, -, -, -, -, -, ea, eb, -⟩ := idx2 t
  unfold iblk2
  rw [View.read_apply]
  show (V c main_v65 : S1x128.Idx → EReal) _ = _
  refine congrArg (V c main_v65 : S1x128.Idx → EReal) ?_
  funext a; apply Fin.ext
  match a with
  | ⟨0, _⟩ => show win2_4.index t (0 : Fin 2) * 1 + 1 * k.val = k.val; rw [ea]; omega
  | ⟨1, _⟩ => show win2_4.index t (1 : Fin 2) * 128 + 1 * q.val = q.val; rw [eb]; omega

/-- What point t writes back is block t of the whole-array function. -/
theorem flushed2 (c : Dev nD) (t : Fin cfg2.N) :
    (dat2 V c).flushed 5 t = ((cfg2.win 5).blk t).view.read (Elt Ideal)
      (SageSpec.bnApply (V c main_v51_0) (V c main_v67) (V c main_v71) (V c main_v62) (V c main_v65)) := by
  show (cfg2.win 5).cut (grid2.coords t) ((dat2 V c).after 5 t) = _
  rw [after2_5]
  unfold out2_5
  rw [View.canon_unit_zero zeros2]
  simp only [View.ld_unit_zero (S := S2000x128) zeros2, View.ld_unit_zero (S := S1x128) zeros2]
  obtain ⟨-, -, -, -, -, -, -, -, -, -, ea, eb⟩ := idx2 t
  refine funext fun (j : S2000x128.Idx) => ?_
  obtain ⟨r, q, rfl⟩ : ∃ (r : Fin 2000) (q : Fin 128), j = ix2 r q := ⟨j 0, j 1, eq_ix2 j⟩
  have hemb : (((cfg2.win 5).blk t).view.emb (ix2 r q) : S200000x128.Idx) = ix2 (row2 t r) q := by
    funext a; apply Fin.ext
    match a with
    | ⟨0, _⟩ => show win2_5.index t (0 : Fin 2) * 2000 + 1 * r.val = 2000 * t.val + r.val; rw [ea]; omega
    | ⟨1, _⟩ => show win2_5.index t (1 : Fin 2) * 128 + 1 * q.val = q.val; rw [eb]; omega
  refine (k2_pay1_apply (iblk2 V c 0 t) (iblk2 V c 2 t) (iblk2 V c 1 t) (iblk2 V c 3 t) (iblk2 V c 4 t) r q).trans ?_
  refine Eq.trans ?_ (congrArg (SageSpec.bnApply (V c main_v51_0) (V c main_v67) (V c main_v71) (V c main_v62) (V c main_v65)) hemb).symm
  show _ = (_ - _) * _ * _ + _
  refine congrArg₂ (· + ·) (congrArg₂ (· * ·) (congrArg₂ (· * ·) (congrArg₂ (· - ·) ?_ ?_) ?_) ?_) ?_
  · exact blk2_0 V c t r q
  · exact blk2_1 V c t 0 q
  · exact congrArg (fun x => Ideal.rsqrt (x + SageSpec.eps)) (blk2_2 V c t 0 q)
  · exact blk2_3 V c t 0 q
  · exact blk2_4 V c t 0 q

/-- An index of the array is in point t's block iff each coordinate is in the block's range on its axis. -/
theorem mem_blk2 (t : Fin cfg2.N) (i : S200000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v72).slice (win2_5.rect t)).set ↔ _
  rw [View.set_slice_whole, Rect.mem_set_unit]
  exact Iff.rfl

/-- Every index of the array is in some point's block: row i is in block i / 2000. -/
theorem cover2 (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  have hN : cfg2.N = 100 := N_2
  obtain ⟨t, ht⟩ : ∃ t : Fin cfg2.N, t.val = (i 0).val / 2000 := ⟨⟨(i 0).val / 2000, by rw [hN]; omega⟩, rfl⟩
  obtain ⟨-, -, -, -, -, -, -, -, -, -, ea, eb⟩ := idx2 t
  refine ⟨t, flush2_5 t, ?_⟩
  rw [mem_blk2]
  intro a
  match a with
  | ⟨0, _⟩ =>
    show win2_5.index t (0 : Fin 2) * 2000 ≤ (i 0).val ∧ (i 0).val < win2_5.index t (0 : Fin 2) * 2000 + 2000
    rw [ea, ht]; omega
  | ⟨1, _⟩ =>
    show win2_5.index t (1 : Fin 2) * 128 ≤ (i 1).val ∧ (i 1).val < win2_5.index t (1 : Fin 2) * 128 + 128
    rw [eb]; omega

/-- The output array after the region is the whole-array function of the region's input arrays. -/
theorem arr2 (c : Dev nD) :
    (dat2 (F := Ideal) V c).arrAt 5 cfg2.N
      = SageSpec.bnApply (V c main_v51_0) (V c main_v67) (V c main_v71) (V c main_v62) (V c main_v65) :=
  (dat2 V c).arrAt_eq_of_cover 5 _ (fun t _ => flushed2 V c t) cover2

end Cert.KernelIdeal.RegA

end
-- ==== Proof.KReg2.lean ====
/-
  Region 2 of the idealized kernel program, read against the reference's stages: the region's host-computed operands
  are the same host operations of the same values as the reference's stages; the region's output arrays are the
  whole-array functions of its operands that the reference's corresponding stages are.
-/
import proofs.«146104_j52931176955955_1_alg».proof.Proof.KReg1
import proofs.«146104_j52931176955955_1_alg».proof.Proof.RegA2

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v51_1_at4 : W4 m ρ c (Proc.devRef .tc main_v51_1) = (Cert.SageSpec.colSum (Cert.ReferenceIdeal.Read.val_main_v68 (F := Ideal) (m ((c : Thread nD τ).loc main_arg0)) (m ((c : Thread nD τ).loc main_arg3)) (m ((c : Thread nD τ).loc main_arg8)) (m ((c : Thread nD τ).loc main_arg9)) (m ((c : Thread nD τ).loc main_arg10)))) :=
  (W4_of_ne m ρ c main_v51_1 (by decide)).trans ((keepH1 (W2 m ρ c) main_v51_1 (by decide)).trans (v51_1_at2 m ρ c))

set_option backward.isDefEq.respectTransparency.types false in
theorem v67_at5 : W5 m ρ c (Proc.devRef .tc main_v67) = (Cert.SageSpec.muK (Cert.ReferenceIdeal.Read.val_main_v68 (F := Ideal) (m ((c : Thread nD τ).loc main_arg0)) (m ((c : Thread nD τ).loc main_arg3)) (m ((c : Thread nD τ).loc main_arg8)) (m ((c : Thread nD τ).loc main_arg9)) (m ((c : Thread nD τ).loc main_arg10))) ((200000 : ℝ) : EReal)) := by
  show StableHlo.after hostOps2 (W4 m ρ c) (Proc.devRef .tc main_v67) = _
  after_results_simp
  rw [v51_1_at4 m ρ c]
  exact Cert.SageSpec.host_muK_eq _ (200000 : ℝ) _ Sage.Alg.ofBits_200000 _

theorem v51_2_at4 : W4 m ρ c (Proc.devRef .tc main_v51_2) = (Cert.SageSpec.colSumSq (Cert.ReferenceIdeal.Read.val_main_v68 (F := Ideal) (m ((c : Thread nD τ).loc main_arg0)) (m ((c : Thread nD τ).loc main_arg3)) (m ((c : Thread nD τ).loc main_arg8)) (m ((c : Thread nD τ).loc main_arg9)) (m ((c : Thread nD τ).loc main_arg10)))) :=
  (W4_of_ne m ρ c main_v51_2 (by decide)).trans ((keepH1 (W2 m ρ c) main_v51_2 (by decide)).trans (v51_2_at2 m ρ c))

set_option backward.isDefEq.respectTransparency.types false in
theorem v71_at5 : W5 m ρ c (Proc.devRef .tc main_v71) = (Cert.SageSpec.varK (Cert.ReferenceIdeal.Read.val_main_v68 (F := Ideal) (m ((c : Thread nD τ).loc main_arg0)) (m ((c : Thread nD τ).loc main_arg3)) (m ((c : Thread nD τ).loc main_arg8)) (m ((c : Thread nD τ).loc main_arg9)) (m ((c : Thread nD τ).loc main_arg10))) ((200000 : ℝ) : EReal)) := by
  show StableHlo.after hostOps2 (W4 m ρ c) (Proc.devRef .tc main_v71) = _
  after_results_simp
  rw [v51_2_at4 m ρ c, v51_1_at4 m ρ c]
  exact Cert.SageSpec.host_varK_eq _ (200000 : ℝ) _ Sage.Alg.ofBits_200000 _

set_option backward.isDefEq.respectTransparency.types false in
theorem v62_at5 : W5 m ρ c (Proc.devRef .tc main_v62) = (Cert.ReferenceIdeal.Read.val_main_v92 (F := Ideal) (m ((c : Thread nD τ).loc main_arg11))) := by
  show StableHlo.after hostOps2 (W4 m ρ c) (Proc.devRef .tc main_v62) = _
  after_results_simp
  rw [arg11_at4 m ρ c]
  rfl

set_option backward.isDefEq.respectTransparency.types false in
theorem v65_at5 : W5 m ρ c (Proc.devRef .tc main_v65) = (Cert.ReferenceIdeal.Read.val_main_v95 (F := Ideal) (m ((c : Thread nD τ).loc main_arg12))) := by
  show StableHlo.after hostOps2 (W4 m ρ c) (Proc.devRef .tc main_v65) = _
  after_results_simp
  rw [arg12_at4 m ρ c]
  rfl

theorem v51_0_at5 : W5 m ρ c (Proc.devRef .tc main_v51_0) = (Cert.ReferenceIdeal.Read.val_main_v68 (F := Ideal) (m ((c : Thread nD τ).loc main_arg0)) (m ((c : Thread nD τ).loc main_arg3)) (m ((c : Thread nD τ).loc main_arg8)) (m ((c : Thread nD τ).loc main_arg9)) (m ((c : Thread nD τ).loc main_arg10))) :=
  (keepH2 (W4 m ρ c) main_v51_0 (by decide)).trans ((W4_of_ne m ρ c main_v51_0 (by decide)).trans ((keepH1 (W2 m ρ c) main_v51_0 (by decide)).trans (v51_0_at2 m ρ c)))

set_option backward.isDefEq.respectTransparency.types false in
theorem v72_at6 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W6 m ρ c (Proc.devRef .tc main_v72) = (Cert.ReferenceIdeal.Read.val_main_v97 (F := Ideal) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))) :=
  (W6_arr m ρ c 5).trans ((Cert.KernelIdeal.RegA.arr2 (V5 m ρ) c).trans (by
    rw [show V5 m ρ c main_v51_0 = _ from v51_0_at5 m ρ c, show V5 m ρ c main_v67 = _ from v67_at5 m ρ c, show V5 m ρ c main_v71 = _ from v71_at5 m ρ c, show V5 m ρ c main_v62 = _ from v62_at5 m ρ c, show V5 m ρ c main_v65 = _ from v65_at5 m ρ c]
    exact (Cert.SageSpec.bnApply_eq_bnRef _ (Cert.ReferenceIdeal.RefNet.real_v68 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) h0 h1 h8 h9 h10 h11 h12) (200000 : ℝ) (by norm_num) (by norm_num) _ _).trans (Cert.ReferenceIdeal.RefNet.v97_eq (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.RegA3.lean ====
/-
  Region 3: batch normalisation applied, as one array.

  The region walks 75 blocks of 2000 rows. At block t it reads rows 2000 t … 2000 t + 1999 of the array to be
  normalised and the four whole rows of column means, column variances, scales and shifts, and writes the same rows
  of its output. Its body's block at entry (r, q) is ((h (r, q) − μ (q)) · rsqrt (v (q) + ε)) · γ (q) + β (q); so
  block t of the output is block t of the whole-array function that maps every entry this way, and the 75 blocks
  cover the 150000 rows: row i lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayBn
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem zeros2 : (![0, 0] : Fin 2 → Nat) = fun _ => 0 := funext fun a => by fin_cases a <;> rfl

/-- The block indices over the grid: the row-tiled windows sit at block (t, 0), the four rows at block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row r of block t as a row of the array. -/
def row3 (t : Fin cfg3.N) (r : Fin 2000) : Fin 150000 :=
  ⟨2000 * t.val + r.val, by
    have ht : t.val < 75 := Nat.lt_of_lt_of_eq t.isLt N_3
    have hr := r.isLt
    omega⟩

/-- Row r of window 0's block at point t is row 2000 t + r of its array. -/
theorem blk3_0 (c : Dev nD) (t : Fin cfg3.N) (r : Fin 2000) (k : Fin 128) :
    (iblk3 V c 0 t : S2000x128.Idx → EReal) (ix2 r k) = (V c main_v59_0 : S150000x128.Idx → EReal) (ix2 (row3 t r) k) := by
  obtain ⟨ea, eb, -⟩ := idx3 t
  unfold iblk3
  rw [View.read_apply]
  show (V c main_v59_0 : S150000x128.Idx → EReal) _ = _
  refine congrArg (V c main_v59_0 : S150000x128.Idx → EReal) ?_
  funext a; apply Fin.ext
  match a with
  | ⟨0, _⟩ => show win3_0.index t (0 : Fin 2) * 2000 + 1 * r.val = 2000 * t.val + r.val; rw [ea]; omega
  | ⟨1, _⟩ => show win3_0.index t (1 : Fin 2) * 128 + 1 * k.val = k.val; rw [eb]; omega

/-- Window 1's block at every point is its whole row. -/
theorem blk3_1 (c : Dev nD) (t : Fin cfg3.N) (k : Fin 1) (q : Fin 128) :
    (iblk3 V c 1 t : S1x128.Idx → EReal) (ix2 k q) = (V c main_v80 : S1x128.Idx → EReal) (ix2 k q) := by
  obtain ⟨-, -, ea, eb, -⟩ := idx3 t
  unfold iblk3
  rw [View.read_apply]
  show (V c main_v80 : S1x128.Idx → EReal) _ = _
  refine congrArg (V c main_v80 : S1x128.Idx → EReal) ?_
  funext a; apply Fin.ext
  match a with
  | ⟨0, _⟩ => show win3_1.index t (0 : Fin 2) * 1 + 1 * k.val = k.val; rw [ea]; omega
  | ⟨1, _⟩ => show win3_1.index t (1 : Fin 2) * 128 + 1 * q.val = q.val; rw [eb]; omega

/-- Window 2's block at every point is its whole row. -/
theorem blk3_2 (c : Dev nD) (t : Fin cfg3.N) (k : Fin 1) (q : Fin 128) :
    (iblk3 V c 2 t : S1x128.Idx → EReal) (ix2 k q) = (V c main_v84 : S1x128.Idx → EReal) (ix2 k q) := by
  obtain ⟨-, -, -, -, ea, eb, -⟩ := idx3 t
  unfold iblk3
  rw [View.read_apply]
  show (V c main_v84 : S1x128.Idx → EReal) _ = _
  refine congrArg (V c main_v84 : S1x128.Idx → EReal) ?_
  funext a; apply Fin.ext
  match a with
  | ⟨0, _⟩ => show win3_2.index t (0 : Fin 2) * 1 + 1 * k.val = k.val; rw [ea]; omega
  | ⟨1, _⟩ => show win3_2.index t (1 : Fin 2) * 128 + 1 * q.val = q.val; rw [eb]; omega

/-- Window 3's block at every point is its whole row. -/
theorem blk3_3 (c : Dev nD) (t : Fin cfg3.N) (k : Fin 1) (q : Fin 128) :
    (iblk3 V c 3 t : S1x128.Idx → EReal) (ix2 k q) = (V c main_v75 : S1x128.Idx → EReal) (ix2 k q) := by
  obtain ⟨-, -, -, -, -, -, ea, eb, -⟩ := idx3 t
  unfold iblk3
  rw [View.read_apply]
  show (V c main_v75 : S1x128.Idx → EReal) _ = _
  refine congrArg (V c main_v75 : S1x128.Idx → EReal) ?_
  funext a; apply Fin.ext
  match a with
  | ⟨0, _⟩ => show win3_3.index t (0 : Fin 2) * 1 + 1 * k.val = k.val; rw [ea]; omega
  | ⟨1, _⟩ => show win3_3.index t (1 : Fin 2) * 128 + 1 * q.val = q.val; rw [eb]; omega

/-- Window 4's block at every point is its whole row. -/
theorem blk3_4 (c : Dev nD) (t : Fin cfg3.N) (k : Fin 1) (q : Fin 128) :
    (iblk3 V c 4 t : S1x128.Idx → EReal) (ix2 k q) = (V c main_v78 : S1x128.Idx → EReal) (ix2 k q) := by
  obtain ⟨-, -, -, -, -, -, -, -, ea, eb, -⟩ := idx3 t
  unfold iblk3
  rw [View.read_apply]
  show (V c main_v78 : S1x128.Idx → EReal) _ = _
  refine congrArg (V c main_v78 : S1x128.Idx → EReal) ?_
  funext a; apply Fin.ext
  match a with
  | ⟨0, _⟩ => show win3_4.index t (0 : Fin 2) * 1 + 1 * k.val = k.val; rw [ea]; omega
  | ⟨1, _⟩ => show win3_4.index t (1 : Fin 2) * 128 + 1 * q.val = q.val; rw [eb]; omega

/-- What point t writes back is block t of the whole-array function. -/
theorem flushed3 (c : Dev nD) (t : Fin cfg3.N) :
    (dat3 V c).flushed 5 t = ((cfg3.win 5).blk t).view.read (Elt Ideal)
      (SageSpec.bnApply (V c main_v59_0) (V c main_v80) (V c main_v84) (V c main_v75) (V c main_v78)) := by
  show (cfg3.win 5).cut (grid3.coords t) ((dat3 V c).after 5 t) = _
  rw [after3_5]
  unfold out3_5
  rw [View.canon_unit_zero zeros2]
  simp only [View.ld_unit_zero (S := S2000x128) zeros2, View.ld_unit_zero (S := S1x128) zeros2]
  obtain ⟨-, -, -, -, -, -, -, -, -, -, ea, eb⟩ := idx3 t
  refine funext fun (j : S2000x128.Idx) => ?_
  obtain ⟨r, q, rfl⟩ : ∃ (r : Fin 2000) (q : Fin 128), j = ix2 r q := ⟨j 0, j 1, eq_ix2 j⟩
  have hemb : (((cfg3.win 5).blk t).view.emb (ix2 r q) : S150000x128.Idx) = ix2 (row3 t r) q := by
    funext a; apply Fin.ext
    match a with
    | ⟨0, _⟩ => show win3_5.index t (0 : Fin 2) * 2000 + 1 * r.val = 2000 * t.val + r.val; rw [ea]; omega
    | ⟨1, _⟩ => show win3_5.index t (1 : Fin 2) * 128 + 1 * q.val = q.val; rw [eb]; omega
  refine (k3_pay1_apply (iblk3 V c 0 t) (iblk3 V c 2 t) (iblk3 V c 1 t) (iblk3 V c 3 t) (iblk3 V c 4 t) r q).trans ?_
  refine Eq.trans ?_ (congrArg (SageSpec.bnApply (V c main_v59_0) (V c main_v80) (V c main_v84) (V c main_v75) (V c main_v78)) hemb).symm
  show _ = (_ - _) * _ * _ + _
  refine congrArg₂ (· + ·) (congrArg₂ (· * ·) (congrArg₂ (· * ·) (congrArg₂ (· - ·) ?_ ?_) ?_) ?_) ?_
  · exact blk3_0 V c t r q
  · exact blk3_1 V c t 0 q
  · exact congrArg (fun x => Ideal.rsqrt (x + SageSpec.eps)) (blk3_2 V c t 0 q)
  · exact blk3_3 V c t 0 q
  · exact blk3_4 V c t 0 q

/-- An index of the array is in point t's block iff each coordinate is in the block's range on its axis. -/
theorem mem_blk3 (t : Fin cfg3.N) (i : S150000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v85).slice (win3_5.rect t)).set ↔ _
  rw [View.set_slice_whole, Rect.mem_set_unit]
  exact Iff.rfl

/-- Every index of the array is in some point's block: row i is in block i / 2000. -/
theorem cover3 (i : S150000x128.Idx) :
    ∃ t : Fin cfg3.N, (cfg3.win 5).flush t = true ∧ i ∈ ((cfg3.win 5).blk t).view.set := by
  have hi0 : (i 0).val < 150000 := (i 0).isLt
  have hi1 : (i 1).val < 128 := (i 1).isLt
  have hN : cfg3.N = 75 := N_3
  obtain ⟨t, ht⟩ : ∃ t : Fin cfg3.N, t.val = (i 0).val / 2000 := ⟨⟨(i 0).val / 2000, by rw [hN]; omega⟩, rfl⟩
  obtain ⟨-, -, -, -, -, -, -, -, -, -, ea, eb⟩ := idx3 t
  refine ⟨t, flush3_5 t, ?_⟩
  rw [mem_blk3]
  intro a
  match a with
  | ⟨0, _⟩ =>
    show win3_5.index t (0 : Fin 2) * 2000 ≤ (i 0).val ∧ (i 0).val < win3_5.index t (0 : Fin 2) * 2000 + 2000
    rw [ea, ht]; omega
  | ⟨1, _⟩ =>
    show win3_5.index t (1 : Fin 2) * 128 ≤ (i 1).val ∧ (i 1).val < win3_5.index t (1 : Fin 2) * 128 + 128
    rw [eb]; omega

/-- The output array after the region is the whole-array function of the region's input arrays. -/
theorem arr3 (c : Dev nD) :
    (dat3 (F := Ideal) V c).arrAt 5 cfg3.N
      = SageSpec.bnApply (V c main_v59_0) (V c main_v80) (V c main_v84) (V c main_v75) (V c main_v78) :=
  (dat3 V c).arrAt_eq_of_cover 5 _ (fun t _ => flushed3 V c t) cover3

end Cert.KernelIdeal.RegA

end
-- ==== Proof.KReg3.lean ====
/-
  Region 3 of the idealized kernel program, read against the reference's stages: the region's host-computed operands
  are the same host operations of the same values as the reference's stages; the region's output arrays are the
  whole-array functions of its operands that the reference's corresponding stages are.
-/
import proofs.«146104_j52931176955955_1_alg».proof.Proof.KReg2
import proofs.«146104_j52931176955955_1_alg».proof.Proof.RegA3

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v59_1_at6 : W6 m ρ c (Proc.devRef .tc main_v59_1) = (Cert.SageSpec.colSum (Cert.ReferenceIdeal.Read.val_main_v98 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10)))) :=
  (W6_of_ne m ρ c main_v59_1 (by decide)).trans ((keepH2 (W4 m ρ c) main_v59_1 (by decide)).trans (v59_1_at4 m ρ c))

set_option backward.isDefEq.respectTransparency.types false in
theorem v80_at7 : W7 m ρ c (Proc.devRef .tc main_v80) = (Cert.SageSpec.muK (Cert.ReferenceIdeal.Read.val_main_v98 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))) ((150000 : ℝ) : EReal)) := by
  show StableHlo.after hostOps3 (W6 m ρ c) (Proc.devRef .tc main_v80) = _
  after_results_simp
  rw [v59_1_at6 m ρ c]
  exact Cert.SageSpec.host_muK_eq _ (150000 : ℝ) _ Sage.Alg.ofBits_150000 _

theorem v59_2_at6 : W6 m ρ c (Proc.devRef .tc main_v59_2) = (Cert.SageSpec.colSumSq (Cert.ReferenceIdeal.Read.val_main_v98 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10)))) :=
  (W6_of_ne m ρ c main_v59_2 (by decide)).trans ((keepH2 (W4 m ρ c) main_v59_2 (by decide)).trans (v59_2_at4 m ρ c))

set_option backward.isDefEq.respectTransparency.types false in
theorem v84_at7 : W7 m ρ c (Proc.devRef .tc main_v84) = (Cert.SageSpec.varK (Cert.ReferenceIdeal.Read.val_main_v98 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))) ((150000 : ℝ) : EReal)) := by
  show StableHlo.after hostOps3 (W6 m ρ c) (Proc.devRef .tc main_v84) = _
  after_results_simp
  rw [v59_2_at6 m ρ c, v59_1_at6 m ρ c]
  exact Cert.SageSpec.host_varK_eq _ (150000 : ℝ) _ Sage.Alg.ofBits_150000 _

set_option backward.isDefEq.respectTransparency.types false in
theorem v75_at7 : W7 m ρ c (Proc.devRef .tc main_v75) = (Cert.ReferenceIdeal.Read.val_main_v122 (F := Ideal) (m ((c : Thread nD τ).loc main_arg11))) := by
  show StableHlo.after hostOps3 (W6 m ρ c) (Proc.devRef .tc main_v75) = _
  after_results_simp
  rw [arg11_at6 m ρ c]
  rfl

set_option backward.isDefEq.respectTransparency.types false in
theorem v78_at7 : W7 m ρ c (Proc.devRef .tc main_v78) = (Cert.ReferenceIdeal.Read.val_main_v125 (F := Ideal) (m ((c : Thread nD τ).loc main_arg12))) := by
  show StableHlo.after hostOps3 (W6 m ρ c) (Proc.devRef .tc main_v78) = _
  after_results_simp
  rw [arg12_at6 m ρ c]
  rfl

theorem v59_0_at7 : W7 m ρ c (Proc.devRef .tc main_v59_0) = (Cert.ReferenceIdeal.Read.val_main_v98 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10))) :=
  (keepH3 (W6 m ρ c) main_v59_0 (by decide)).trans ((W6_of_ne m ρ c main_v59_0 (by decide)).trans ((keepH2 (W4 m ρ c) main_v59_0 (by decide)).trans (v59_0_at4 m ρ c)))

set_option backward.isDefEq.respectTransparency.types false in
theorem v85_at8 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W8 m ρ c (Proc.devRef .tc main_v85) = (Cert.ReferenceIdeal.Read.val_main_v127 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  (W8_arr m ρ c 5).trans ((Cert.KernelIdeal.RegA.arr3 (V7 m ρ) c).trans (by
    rw [show V7 m ρ c main_v59_0 = _ from v59_0_at7 m ρ c, show V7 m ρ c main_v80 = _ from v80_at7 m ρ c, show V7 m ρ c main_v84 = _ from v84_at7 m ρ c, show V7 m ρ c main_v75 = _ from v75_at7 m ρ c, show V7 m ρ c main_v78 = _ from v78_at7 m ρ c]
    exact (Cert.SageSpec.bnApply_eq_bnRef _ (Cert.ReferenceIdeal.RefNet.real_v98 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) h0 h1 h8 h9 h10 h11 h12) (150000 : ℝ) (by norm_num) (by norm_num) _ _).trans (Cert.ReferenceIdeal.RefNet.v127_eq (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.RegAPayLin.lean ====
/-
  The dense step on one block of rows, read at an entry.

  The body multiplies a block of 2000 rows of neighbour means by a 128 × 128 matrix, adds the bias row to every row
  of the product, and adds the product of the block of the nodes' own features with a second 128 × 128 matrix. On
  the extended reals a change of float format is the identity, a reshape to the same shape is the identity, and the
  matrix unit accumulating into zero is the textbook contraction. So entry (r, q) of the stored block is
      (∑ k, x (r, k) · W (k, q)  +  b (0, q))  +  ∑ k, x' (r, k) · W' (k, q),
  in this order of the two sums. Four of the kernels have this same body.
-/
import proofs.«146104_j52931176955955_1_alg».proof.Proof.Gen.KernelIdeal.Skeleton
import proofs.«146104_j52931176955955_1_alg».proof.Proof.LibDotRecord

namespace Cert.KernelIdeal.RegA

open Idealize.ShloMosaic Idealize.ShloMosaic.ValueIdx Cert.KernelIdeal

/-- The dense step's stored block at entry (r, q). -/
theorem k4_pay1_apply (x0 : Vec Ideal S2000x128 .f32) (w : Vec Ideal S128x128 .f32) (b : Vec Ideal S1x128 .f32)
    (x3 : Vec Ideal S2000x128 .f32) (w' : Vec Ideal S128x128 .f32) (r : Fin 2000) (q : Fin 128) :
    Gen.k4_pay1 (F := Ideal) x0 w b x3 w' (ix2 r q)
      = ((∑ k : Fin 128, x0 (ix2 r k) * w (ix2 k q)) + b (ix2 (0 : Fin 1) q)) + ∑ k : Fin 128, x3 (ix2 r k) * w' (ix2 k q) := by
  unfold Gen.k4_pay1
  simp only [shapeCast_self]
  refine congrArg₂ (· + ·) (congrArg₂ (· + ·) ?_ ?_) ?_
  · exact DotRecord.matmul_zero_apply dot_S2000x128_S128x128_S2000x128_1_0_0_1_n_n rfl rfl rfl rfl rfl rfl _ _ none r q
  · exact DotRecord.broadcastTo_1b_ab_apply b Gen.broadcasts_S1x128_S2000x128 r q
  · exact DotRecord.matmul_zero_apply dot_S2000x128_S128x128_S2000x128_1_0_0_1_n_n rfl rfl rfl rfl rfl rfl _ _ none r q

/-- The same body in the second layer's first dense step. -/
theorem k11_pay1_apply (x0 : Vec Ideal S2000x128 .f32) (w : Vec Ideal S128x128 .f32) (b : Vec Ideal S1x128 .f32)
    (x3 : Vec Ideal S2000x128 .f32) (w' : Vec Ideal S128x128 .f32) (r : Fin 2000) (q : Fin 128) :
    Gen.k11_pay1 (F := Ideal) x0 w b x3 w' (ix2 r q)
      = ((∑ k : Fin 128, x0 (ix2 r k) * w (ix2 k q)) + b (ix2 (0 : Fin 1) q)) + ∑ k : Fin 128, x3 (ix2 r k) * w' (ix2 k q) :=
  k4_pay1_apply x0 w b x3 w' r q

/-- The same body in the second layer's second dense step. -/
theorem k13_pay1_apply (x0 : Vec Ideal S2000x128 .f32) (w : Vec Ideal S128x128 .f32) (b : Vec Ideal S1x128 .f32)
    (x3 : Vec Ideal S2000x128 .f32) (w' : Vec Ideal S128x128 .f32) (r : Fin 2000) (q : Fin 128) :
    Gen.k13_pay1 (F := Ideal) x0 w b x3 w' (ix2 r q)
      = ((∑ k : Fin 128, x0 (ix2 r k) * w (ix2 k q)) + b (ix2 (0 : Fin 1) q)) + ∑ k : Fin 128, x3 (ix2 r k) * w' (ix2 k q) :=
  k4_pay1_apply x0 w b x3 w' r q

/-- The same body in the second layer's third dense step. -/
theorem k15_pay1_apply (x0 : Vec Ideal S2000x128 .f32) (w : Vec Ideal S128x128 .f32) (b : Vec Ideal S1x128 .f32)
    (x3 : Vec Ideal S2000x128 .f32) (w' : Vec Ideal S128x128 .f32) (r : Fin 2000) (q : Fin 128) :
    Gen.k15_pay1 (F := Ideal) x0 w b x3 w' (ix2 r q)
      = ((∑ k : Fin 128, x0 (ix2 r k) * w (ix2 k q)) + b (ix2 (0 : Fin 1) q)) + ∑ k : Fin 128, x3 (ix2 r k) * w' (ix2 k q) :=
  k4_pay1_apply x0 w b x3 w' r q

end Cert.KernelIdeal.RegA
-- ==== Proof.RegA4.lean ====
/-
  Region 4: a dense step as one array.

  The region walks 100 blocks of 2000 rows. At block t it reads rows 2000 t … 2000 t + 1999 of the neighbour means
  and of the nodes' own features, the two whole 128 × 128 matrices and the whole bias row, and writes the same rows
  of its output. Its body's block at entry (r, q) is the dense step of the operands' row r; so block t of the output
  is block t of the whole-array function  mean · Wl + b + x · Wr,  and the 100 blocks cover the 200000 rows: row i
  lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayLin
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros4 : (![0, 0] : Fin 2 → Nat) = fun _ => 0 := funext fun a => by fin_cases a <;> rfl

/-- The block indices over the grid: the row-tiled windows sit at block (t, 0), the others at block (0, 0). -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row r of block t as a row of the array. -/
def row4 (t : Fin cfg4.N) (r : Fin 2000) : Fin 200000 :=
  ⟨2000 * t.val + r.val, by
    have ht : t.val < 100 := Nat.lt_of_lt_of_eq t.isLt N_4
    have hr := r.isLt
    omega⟩

/-- Row r of window 0's block at point t is row 2000 t + r of its array. -/
theorem blk4_0 (c : Dev nD) (t : Fin cfg4.N) (r : Fin 2000) (k : Fin 128) :
    (iblk4 V c 0 t : S2000x128.Idx → EReal) (ix2 r k) = (V c main_v107 : S200000x128.Idx → EReal) (ix2 (row4 t r) k) := by
  obtain ⟨ea, eb, -⟩ := idx4 t
  unfold iblk4
  rw [View.read_apply]
  show (V c main_v107 : S200000x128.Idx → EReal) _ = _
  refine congrArg (V c main_v107 : S200000x128.Idx → EReal) ?_
  funext a; apply Fin.ext
  match a with
  | ⟨0, _⟩ => show win4_0.index t (0 : Fin 2) * 2000 + 1 * r.val = 2000 * t.val + r.val; rw [ea]; omega
  | ⟨1, _⟩ => show win4_0.index t (1 : Fin 2) * 128 + 1 * k.val = k.val; rw [eb]; omega

/-- Window 1's block at every point is its whole array. -/
theorem blk4_1 (c : Dev nD) (t : Fin cfg4.N) (k : Fin 128) (q : Fin 128) :
    (iblk4 V c 1 t : S128x128.Idx → EReal) (ix2 k q) = (V c main_v131 : S128x128.Idx → EReal) (ix2 k q) := by
  obtain ⟨-, -, ea, eb, -⟩ := idx4 t
  unfold iblk4
  rw [View.read_apply]
  show (V c main_v131 : S128x128.Idx → EReal) _ = _
  refine congrArg (V c main_v131 : S128x128.Idx → EReal) ?_
  funext a; apply Fin.ext
  match a with
  | ⟨0, _⟩ => show win4_1.index t (0 : Fin 2) * 128 + 1 * k.val = k.val; rw [ea]; omega
  | ⟨1, _⟩ => show win4_1.index t (1 : Fin 2) * 128 + 1 * q.val = q.val; rw [eb]; omega

/-- Window 2's block at every point is its whole array. -/
theorem blk4_2 (c : Dev nD) (t : Fin cfg4.N) (k : Fin 1) (q : Fin 128) :
    (iblk4 V c 2 t : S1x128.Idx → EReal) (ix2 k q) = (V c main_v134 : S1x128.Idx → EReal) (ix2 k q) := by
  obtain ⟨-, -, -, -, ea, eb, -⟩ := idx4 t
  unfold iblk4
  rw [View.read_apply]
  show (V c main_v134 : S1x128.Idx → EReal) _ = _
  refine congrArg (V c main_v134 : S1x128.Idx → EReal) ?_
  funext a; apply Fin.ext
  match a with
  | ⟨0, _⟩ => show win4_2.index t (0 : Fin 2) * 1 + 1 * k.val = k.val; rw [ea]; omega
  | ⟨1, _⟩ => show win4_2.index t (1 : Fin 2) * 128 + 1 * q.val = q.val; rw [eb]; omega

/-- Row r of window 3's block at point t is row 2000 t + r of its array. -/
theorem blk4_3 (c : Dev nD) (t : Fin cfg4.N) (r : Fin 2000) (k : Fin 128) :
    (iblk4 V c 3 t : S2000x128.Idx → EReal) (ix2 r k) = (V c main_v72 : S200000x128.Idx → EReal) (ix2 (row4 t r) k) := by
  obtain ⟨-, -, -, -, -, -, ea, eb, -⟩ := idx4 t
  unfold iblk4
  rw [View.read_apply]
  show (V c main_v72 : S200000x128.Idx → EReal) _ = _
  refine congrArg (V c main_v72 : S200000x128.Idx → EReal) ?_
  funext a; apply Fin.ext
  match a with
  | ⟨0, _⟩ => show win4_3.index t (0 : Fin 2) * 2000 + 1 * r.val = 2000 * t.val + r.val; rw [ea]; omega
  | ⟨1, _⟩ => show win4_3.index t (1 : Fin 2) * 128 + 1 * k.val = k.val; rw [eb]; omega

/-- Window 4's block at every point is its whole array. -/
theorem blk4_4 (c : Dev nD) (t : Fin cfg4.N) (k : Fin 128) (q : Fin 128) :
    (iblk4 V c 4 t : S128x128.Idx → EReal) (ix2 k q) = (V c main_v136 : S128x128.Idx → EReal) (ix2 k q) := by
  obtain ⟨-, -, -, -, -, -, -, -, ea, eb, -⟩ := idx4 t
  unfold iblk4
  rw [View.read_apply]
  show (V c main_v136 : S128x128.Idx → EReal) _ = _
  refine congrArg (V c main_v136 : S128x128.Idx → EReal) ?_
  funext a; apply Fin.ext
  match a with
  | ⟨0, _⟩ => show win4_4.index t (0 : Fin 2) * 128 + 1 * k.val = k.val; rw [ea]; omega
  | ⟨1, _⟩ => show win4_4.index t (1 : Fin 2) * 128 + 1 * q.val = q.val; rw [eb]; omega

/-- What point t writes back is block t of the whole-array function. -/
theorem flushed4 (c : Dev nD) (t : Fin cfg4.N) :
    (dat4 V c).flushed 5 t = ((cfg4.win 5).blk t).view.read (Elt Ideal)
      (SageSpec.lin (V c main_v107) (V c main_v131) (V c main_v134) (V c main_v72) (V c main_v136)) := by
  show (cfg4.win 5).cut (grid4.coords t) ((dat4 V c).after 5 t) = _
  rw [after4_5]
  unfold out4_5
  rw [View.canon_unit_zero zeros4]
  simp only [View.ld_unit_zero (S := S2000x128) zeros4, View.ld_unit_zero (S := S128x128) zeros4, View.ld_unit_zero (S := S1x128) zeros4]
  obtain ⟨-, -, -, -, -, -, -, -, -, -, ea, eb⟩ := idx4 t
  refine funext fun (j : S2000x128.Idx) => ?_
  obtain ⟨r, q, rfl⟩ : ∃ (r : Fin 2000) (q : Fin 128), j = ix2 r q := ⟨j 0, j 1, eq_ix2 j⟩
  have hemb : (((cfg4.win 5).blk t).view.emb (ix2 r q) : S200000x128.Idx) = ix2 (row4 t r) q := by
    funext a; apply Fin.ext
    match a with
    | ⟨0, _⟩ => show win4_5.index t (0 : Fin 2) * 2000 + 1 * r.val = 2000 * t.val + r.val; rw [ea]; omega
    | ⟨1, _⟩ => show win4_5.index t (1 : Fin 2) * 128 + 1 * q.val = q.val; rw [eb]; omega
  refine (k4_pay1_apply (iblk4 V c 0 t) (iblk4 V c 1 t) (iblk4 V c 2 t) (iblk4 V c 3 t) (iblk4 V c 4 t) r q).trans ?_
  refine Eq.trans ?_ (congrArg (SageSpec.lin (V c main_v107) (V c main_v131) (V c main_v134) (V c main_v72) (V c main_v136)) hemb).symm
  show _ = _ + _ + _
  refine congrArg₂ (· + ·) (congrArg₂ (· + ·) ?_ ?_) ?_
  · exact Finset.sum_congr rfl fun k _ => congrArg₂ (· * ·) (blk4_0 V c t r k) (blk4_1 V c t k q)
  · exact blk4_2 V c t 0 q
  · exact Finset.sum_congr rfl fun k _ => congrArg₂ (· * ·) (blk4_3 V c t r k) (blk4_4 V c t k q)

/-- An index of the array is in point t's block iff each coordinate is in the block's range on its axis. -/
theorem mem_blk4 (t : Fin cfg4.N) (i : S200000x128.Idx) :
    i ∈ ((cfg4.win 5).blk t).view.set ↔ ∀ a : Fin 2, win4_5.index t a * S2000x128.size a ≤ (i a).val
      ∧ (i a).val < win4_5.index t a * S2000x128.size a + S2000x128.size a := by
  show i ∈ ((View.whole main_v137).slice (win4_5.rect t)).set ↔ _
  rw [View.set_slice_whole, Rect.mem_set_unit]
  exact Iff.rfl

/-- Every index of the array is in some point's block: row i is in block i / 2000. -/
theorem cover4 (i : S200000x128.Idx) :
    ∃ t : Fin cfg4.N, (cfg4.win 5).flush t = true ∧ i ∈ ((cfg4.win 5).blk t).view.set := by
  have hi0 : (i 0).val < 200000 := (i 0).isLt
  have hi1 : (i 1).val < 128 := (i 1).isLt
  have hN : cfg4.N = 100 := N_4
  obtain ⟨t, ht⟩ : ∃ t : Fin cfg4.N, t.val = (i 0).val / 2000 := ⟨⟨(i 0).val / 2000, by rw [hN]; omega⟩, rfl⟩
  obtain ⟨-, -, -, -, -, -, -, -, -, -, ea, eb⟩ := idx4 t
  refine ⟨t, flush4_5 t, ?_⟩
  rw [mem_blk4]
  intro a
  match a with
  | ⟨0, _⟩ =>
    show win4_5.index t (0 : Fin 2) * 2000 ≤ (i 0).val ∧ (i 0).val < win4_5.index t (0 : Fin 2) * 2000 + 2000
    rw [ea, ht]; omega
  | ⟨1, _⟩ =>
    show win4_5.index t (1 : Fin 2) * 128 ≤ (i 1).val ∧ (i 1).val < win4_5.index t (1 : Fin 2) * 128 + 128
    rw [eb]; omega

/-- The output array after the region is the whole-array function of the region's input arrays. -/
theorem arr4 (c : Dev nD) :
    (dat4 (F := Ideal) V c).arrAt 5 cfg4.N
      = SageSpec.lin (V c main_v107) (V c main_v131) (V c main_v134) (V c main_v72) (V c main_v136) :=
  (dat4 V c).arrAt_eq_of_cover 5 _ (fun t _ => flushed4 V c t) (cover4)

end Cert.KernelIdeal.RegA

end
-- ==== Proof.KReg4.lean ====
/-
  Region 4 of the idealized kernel program, read against the reference's stages: the region's host-computed operands
  are the same host operations of the same values as the reference's stages; the region's output arrays are the
  whole-array functions of its operands that the reference's corresponding stages are.
-/
import proofs.«146104_j52931176955955_1_alg».proof.Proof.KReg3
import proofs.«146104_j52931176955955_1_alg».proof.Proof.RegA4

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v72_at8 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W8 m ρ c (Proc.devRef .tc main_v72) = (Cert.ReferenceIdeal.Read.val_main_v97 (F := Ideal) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))) :=
  (W8_of_ne m ρ c main_v72 (by decide)).trans ((keepH3 (W6 m ρ c) main_v72 (by decide)).trans (v72_at6 m ρ c h0 h1 h8 h9 h10 h11 h12))

set_option backward.isDefEq.respectTransparency.types false in
theorem v107_at9 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W9 m ρ c (Proc.devRef .tc main_v107) = (Cert.ReferenceIdeal.Read.val_main_v155 (F := Ideal) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps4 (W8 m ρ c) (Proc.devRef .tc main_v107) = _
  after_results_simp
  rw [arg3_at8 m ρ c, v72_at8 m ρ c h0 h1 h8 h9 h10 h11 h12]
  rfl

set_option backward.isDefEq.respectTransparency.types false in
theorem v131_at9 : W9 m ρ c (Proc.devRef .tc main_v131) = (Cert.ReferenceIdeal.Read.val_main_v129 (F := Ideal) (m ((c : Thread nD τ).loc main_arg8))) := by
  show StableHlo.after hostOps4 (W8 m ρ c) (Proc.devRef .tc main_v131) = _
  after_results_simp
  rw [arg8_at8 m ρ c]
  rfl

set_option backward.isDefEq.respectTransparency.types false in
theorem v134_at9 : W9 m ρ c (Proc.devRef .tc main_v134) = (Cert.ReferenceIdeal.Read.val_main_v157 (F := Ideal) (m ((c : Thread nD τ).loc main_arg9))) := by
  show StableHlo.after hostOps4 (W8 m ρ c) (Proc.devRef .tc main_v134) = _
  after_results_simp
  rw [arg9_at8 m ρ c]
  rfl

set_option backward.isDefEq.respectTransparency.types false in
theorem v136_at9 : W9 m ρ c (Proc.devRef .tc main_v136) = (Cert.ReferenceIdeal.Read.val_main_v133 (F := Ideal) (m ((c : Thread nD τ).loc main_arg10))) := by
  show StableHlo.after hostOps4 (W8 m ρ c) (Proc.devRef .tc main_v136) = _
  after_results_simp
  rw [arg10_at8 m ρ c]
  rfl

set_option backward.isDefEq.respectTransparency.types false in
theorem v129_at9 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W9 m ρ c (Proc.devRef .tc main_v129) = (Cert.ReferenceIdeal.Read.val_main_v189 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps4 (W8 m ρ c) (Proc.devRef .tc main_v129) = _
  after_results_simp
  rw [arg5_at8 m ρ c, v85_at8 m ρ c h0 h1 h8 h9 h10 h11 h12]
  rfl

theorem v72_at9 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W9 m ρ c (Proc.devRef .tc main_v72) = (Cert.ReferenceIdeal.Read.val_main_v97 (F := Ideal) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH4 (W8 m ρ c) main_v72 (by decide)).trans (v72_at8 m ρ c h0 h1 h8 h9 h10 h11 h12)

set_option backward.isDefEq.respectTransparency.types false in
theorem v137_at10 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W10 m ρ c (Proc.devRef .tc main_v137) = (Cert.ReferenceIdeal.Read.val_main_v161 (F := Ideal) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))) :=
  (W10_arr m ρ c 5).trans ((Cert.KernelIdeal.RegA.arr4 (V9 m ρ) c).trans (by
    rw [show V9 m ρ c main_v107 = _ from v107_at9 m ρ c h0 h1 h8 h9 h10 h11 h12, show V9 m ρ c main_v131 = _ from v131_at9 m ρ c, show V9 m ρ c main_v134 = _ from v134_at9 m ρ c, show V9 m ρ c main_v72 = _ from v72_at9 m ρ c h0 h1 h8 h9 h10 h11 h12, show V9 m ρ c main_v136 = _ from v136_at9 m ρ c]
    exact (Cert.ReferenceIdeal.RefNet.v161_eq (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.LibBlockSums.lean ====
/-
  Sums over an index range cut into blocks, and the two layouts of a doubled row range.

  All statements are about a function into an additive commutative monoid (the extended reals are one).

  * `sum_fin_split`: a sum over `n = a + b` indices is the sum over the first `a` plus the sum over the last `b`, the
    latter indexed by `j ↦ j + a`; `sum_fin256_blocks`, `sum_fin384_blocks` are the cases of two and three blocks of 128.
  * `interleave`, `halves`: the 320000 = 2 · 160000 rows as pairs `(e, h)`, laid out as row `2 e + h` (the two rows of an
    edge adjacent) or as row `160000 h + e` (all first rows, then all second rows); a sum over the rows is the sum over
    the pairs either way (`sum_interleave`, `sum_halves`, and the iterated forms).
  * `sum_fin_mul_blocks`: a sum over `n · b` rows is the sum over `n` blocks of the sum over the `b` rows `b t + i` of block
    `t`; literal cases 320000 = 80 · 4000 and 20000 = 10 · 2000.
  * `sum_pair_segment`: among the 320000 rows, those with `r / 2 = e` are the two rows `2 e` and `2 e + 1`.
-/
import Mathlib.Algebra.BigOperators.Fin
import Mathlib.Algebra.BigOperators.Group.Finset.Piecewise
import Mathlib.Logic.Equiv.Fin.Basic

open scoped BigOperators

namespace BlockSums

variable {M : Type*} [AddCommMonoid M]

/-! ## A range cut in two or three -/

/-- A sum over `a + b` consecutive indices is the sum over the first `a` plus the sum over the remaining `b`
    (Mathlib's `Fin.sum_univ_add`, restated). -/
theorem sum_fin_add (a b : ℕ) (f : Fin (a + b) → M) :
    ∑ k, f k = ∑ j : Fin a, f (Fin.castAdd b j) + ∑ j : Fin b, f (Fin.natAdd a j) :=
  Fin.sum_univ_add f

/-- The same with the indices spelt by their values: for `n = a + b`, the sum over `Fin n` is the sum of `f j` over
    `j < a` plus the sum of `f (j + a)` over `j < b`. -/
theorem sum_fin_split (a b n : ℕ) (h : n = a + b) (f : Fin n → M) :
    ∑ k, f k = (∑ j : Fin a, f ⟨j.val, by omega⟩) + ∑ j : Fin b, f ⟨j.val + a, by omega⟩ := by
  subst h
  rw [Fin.sum_univ_add]
  congr 1
  refine Finset.sum_congr rfl fun j _ => congrArg f (Fin.ext ?_)
  show a + j.val = j.val + a
  omega

/-- 256 indices are two blocks of 128. -/
theorem sum_fin256_blocks (f : Fin 256 → M) :
    ∑ k, f k = (∑ j : Fin 128, f ⟨j.val, by omega⟩) + (∑ j : Fin 128, f ⟨j.val + 128, by omega⟩) :=
  sum_fin_split 128 128 256 rfl f

/-- 384 indices are three blocks of 128: split off the last block, then cut the first 256 in two. -/
theorem sum_fin384_blocks (f : Fin 384 → M) :
    ∑ k, f k = (∑ j : Fin 128, f ⟨j.val, by omega⟩) + (∑ j : Fin 128, f ⟨j.val + 128, by omega⟩)
      + (∑ j : Fin 128, f ⟨j.val + 256, by omega⟩) := by
  rw [sum_fin_split 256 128 384 rfl f, sum_fin256_blocks (fun k : Fin 256 => f ⟨k.val, by omega⟩)]

/-! ## The two layouts of 320000 = 2 · 160000 rows -/

/-- Pair `(e, h)` at row `2 e + h`: the two rows of `e` are adjacent. Inverse: `r ↦ (r / 2, r % 2)`. -/
def interleave : Fin 160000 × Fin 2 ≃ Fin 320000 where
  toFun p := ⟨2 * p.1.val + p.2.val, by omega⟩
  invFun r := (⟨r.val / 2, by omega⟩, ⟨r.val % 2, by omega⟩)
  left_inv p := Prod.ext (Fin.ext (by show (2 * p.1.val + p.2.val) / 2 = p.1.val; omega))
    (Fin.ext (by show (2 * p.1.val + p.2.val) % 2 = p.2.val; omega))
  right_inv r := Fin.ext (by show 2 * (r.val / 2) + r.val % 2 = r.val; omega)

/-- The row of pair `(e, h)` in the interleaved layout is `2 e + h`. -/
@[simp] theorem interleave_val (e : Fin 160000) (h : Fin 2) : (interleave (e, h)).val = 2 * e.val + h.val := rfl

/-- The pair at row `r` of the interleaved layout is `(r / 2, r % 2)`. -/
@[simp] theorem interleave_symm_fst_val (r : Fin 320000) : (interleave.symm r).1.val = r.val / 2 := rfl
@[simp] theorem interleave_symm_snd_val (r : Fin 320000) : (interleave.symm r).2.val = r.val % 2 := rfl

/-- Pair `(e, h)` at row `160000 h + e`: all rows with `h = 0` first, then all rows with `h = 1`. Inverse:
    `r ↦ (r % 160000, r / 160000)`. -/
def halves : Fin 160000 × Fin 2 ≃ Fin 320000 where
  toFun p := ⟨160000 * p.2.val + p.1.val, by omega⟩
  invFun r := (⟨r.val % 160000, by omega⟩, ⟨r.val / 160000, by omega⟩)
  left_inv p := Prod.ext (Fin.ext (by show (160000 * p.2.val + p.1.val) % 160000 = p.1.val; omega))
    (Fin.ext (by show (160000 * p.2.val + p.1.val) / 160000 = p.2.val; omega))
  right_inv r := Fin.ext (by show 160000 * (r.val / 160000) + r.val % 160000 = r.val; omega)

/-- The row of pair `(e, h)` in the two-halves layout is `160000 h + e`. -/
@[simp] theorem halves_val (e : Fin 160000) (h : Fin 2) : (halves (e, h)).val = 160000 * h.val + e.val := rfl

/-- The pair at row `r` of the two-halves layout is `(r % 160000, r / 160000)`. -/
@[simp] theorem halves_symm_fst_val (r : Fin 320000) : (halves.symm r).1.val = r.val % 160000 := rfl
@[simp] theorem halves_symm_snd_val (r : Fin 320000) : (halves.symm r).2.val = r.val / 160000 := rfl

/-- A sum over the 320000 rows is the sum over the pairs, each read at its interleaved row. -/
theorem sum_interleave (f : Fin 320000 → M) : ∑ r, f r = ∑ p : Fin 160000 × Fin 2, f (interleave p) :=
  (Equiv.sum_comp interleave f).symm

/-- A sum over the 320000 rows is the sum over the pairs, each read at its row in the two-halves layout. -/
theorem sum_halves (f : Fin 320000 → M) : ∑ r, f r = ∑ p : Fin 160000 × Fin 2, f (halves p) :=
  (Equiv.sum_comp halves f).symm

/-- The interleaved layout, as an iterated sum: over `e`, the two rows `2 e` and `2 e + 1`. -/
theorem sum_interleave_pairs (f : Fin 320000 → M) :
    ∑ r, f r = ∑ e : Fin 160000, (f ⟨2 * e.val, by omega⟩ + f ⟨2 * e.val + 1, by omega⟩) := by
  rw [sum_interleave, Fintype.sum_prod_type]
  refine Finset.sum_congr rfl fun e _ => ?_
  rw [Fin.sum_univ_two]
  rfl

/-- The two-halves layout, as an iterated sum: over `e`, the rows `e` and `160000 + e`. -/
theorem sum_halves_pairs (f : Fin 320000 → M) :
    ∑ r, f r = ∑ e : Fin 160000, (f ⟨e.val, by omega⟩ + f ⟨160000 + e.val, by omega⟩) := by
  rw [sum_halves, Fintype.sum_prod_type]
  refine Finset.sum_congr rfl fun e _ => ?_
  rw [Fin.sum_univ_two]
  congr 1 <;> exact congrArg f (Fin.ext (by simp))

/-! ## A range cut into equal blocks -/

/-- Row `i` of block `t`, among `n` blocks of `b` rows, is a row of the whole range: `b t + i < n b`. -/
theorem block_row_lt {n b t i : ℕ} (ht : t < n) (hi : i < b) : b * t + i < n * b :=
  calc b * t + i < b * t + b := by omega
    _ = b * (t + 1) := (Nat.mul_succ b t).symm
    _ ≤ b * n := Nat.mul_le_mul_left _ ht
    _ = n * b := Nat.mul_comm _ _

/-- A sum over `n · b` rows is the sum over the `n` blocks `t` of the sum over the `b` rows `b t + i` of the block
    (every row is `b t + i` for exactly one pair: `t` its quotient and `i` its remainder by `b`). -/
theorem sum_fin_mul_blocks (n b : ℕ) (f : Fin (n * b) → M) :
    ∑ r, f r = ∑ t : Fin n, ∑ i : Fin b, f ⟨b * t.val + i.val, block_row_lt t.isLt i.isLt⟩ := by
  rw [← Equiv.sum_comp finProdFinEquiv f, Fintype.sum_prod_type]
  refine Finset.sum_congr rfl fun t _ => Finset.sum_congr rfl fun i _ => congrArg f (Fin.ext ?_)
  show i.val + b * t.val = b * t.val + i.val
  omega

/-- 320000 rows are 80 blocks of 4000. -/
theorem sum_fin320000_blocks (f : Fin 320000 → M) :
    ∑ r, f r = ∑ t : Fin 80, ∑ i : Fin 4000, f ⟨4000 * t.val + i.val, by omega⟩ :=
  sum_fin_mul_blocks 80 4000 f

/-- 20000 rows are 10 blocks of 2000. -/
theorem sum_fin20000_blocks (f : Fin 20000 → M) :
    ∑ r, f r = ∑ t : Fin 10, ∑ i : Fin 2000, f ⟨2000 * t.val + i.val, by omega⟩ :=
  sum_fin_mul_blocks 10 2000 f

/-! ## The two rows of one pair -/

/-- Among the 320000 rows, exactly rows `2 e` and `2 e + 1` have `r / 2 = e`: the sum of `g` over the rows with that
    quotient is `g (2 e) + g (2 e + 1)`. -/
theorem sum_pair_segment (g : Fin 320000 → M) (e : Fin 160000) :
    ∑ r : Fin 320000, (if r.val / 2 = e.val then g r else 0)
      = g ⟨2 * e.val, by omega⟩ + g ⟨2 * e.val + 1, by omega⟩ := by
  rw [sum_interleave_pairs]
  have hcond : ∀ e' : Fin 160000,
      ((if (2 * e'.val) / 2 = e.val then g ⟨2 * e'.val, by omega⟩ else 0)
        + (if (2 * e'.val + 1) / 2 = e.val then g ⟨2 * e'.val + 1, by omega⟩ else 0))
      = if e' = e then (g ⟨2 * e'.val, by omega⟩ + g ⟨2 * e'.val + 1, by omega⟩) else 0 := by
    intro e'
    have h0 : (2 * e'.val) / 2 = e'.val := by omega
    have h1 : (2 * e'.val + 1) / 2 = e'.val := by omega
    rw [h0, h1]
    by_cases he : e' = e
    · rw [if_pos (congrArg Fin.val he), if_pos (congrArg Fin.val he), if_pos he]
    · have hv : ¬ e'.val = e.val := fun h => he (Fin.ext h)
      rw [if_neg hv, if_neg hv, if_neg he, add_zero]
  rw [Finset.sum_congr rfl fun e' _ => hcond e', Finset.sum_ite_eq' Finset.univ e]
  simp

end BlockSums
-- ==== Proof.RegRGrid.lean ====
/-
  A total accumulated over the points of a grid is the sum over all rows.

  N = T · B rows are cut into T blocks of B consecutive rows, block n being the rows B · n, …, B · n + B − 1. A
  running total starts, at point 0, from 0 plus a term of block 0, and at every later point adds that point's
  term to what the point before left; after point n it is the sum of the terms of points 0, …, n
  (`running_total`, by induction on the point). When the term of a point is the sum of a function over the
  rows of its block, the total after the last point is the sum of the function over all N rows
  (`total_eq_sum`: the rows are the pairs of a block and a row of the block). Everything is stated in an additive
  commutative monoid, which the extended reals are; no entry needs to be finite.
-/
import proofs.«146104_j52931176955955_1_alg».proof.Proof.LibBlockSums

open scoped BigOperators

namespace Cert.KernelIdeal.RegR

variable {M : Type*} [AddCommMonoid M]

/-- A running total over the points of a grid that starts from 0 plus the first point's term and adds each later
    point's term to what the point before left is, after point n, the sum of the terms of points 0, …, n. -/
theorem running_total {N : ℕ} (a : (n : ℕ) → n < N → M) (c : Fin N → M)
    (h0 : ∀ h : 0 < N, a 0 h = 0 + c ⟨0, h⟩)
    (hs : ∀ (n : ℕ) (h : n + 1 < N), a (n + 1) h = a n (Nat.lt_of_succ_lt h) + c ⟨n + 1, h⟩) :
    ∀ (n : ℕ) (h : n < N), a n h = ∑ s : Fin (n + 1), c ⟨s.val, Nat.lt_of_lt_of_le s.isLt (Nat.succ_le_of_lt h)⟩
  | 0, h => by
    rw [h0 h, zero_add, Fin.sum_univ_one]
    rfl
  | n + 1, h => by
    rw [Fin.sum_univ_castSucc, hs n h, running_total a c h0 hs n (Nat.lt_of_succ_lt h)]
    rfl

/-- Row r of block n, among N = T · B rows cut into T blocks of B, is a row. -/
theorem row_lt {N T B n : ℕ} (hN : N = T * B) (h : n < T) (r : Fin B) : B * n + r.val < N := by
  subst hN
  exact BlockSums.block_row_lt h r.isLt

/-- N = T · B rows in T blocks of B. A total that starts, at point 0, from 0 plus the sum over block 0 and at each
    later point adds the sum over that point's block is, after the last point, the sum over all rows. -/
theorem total_eq_sum {N : ℕ} (T B : ℕ) (hN : N = T * B) (f : Fin N → M) (a : (n : ℕ) → n < T → M)
    (h0 : ∀ h : 0 < T, a 0 h = 0 + ∑ r : Fin B, f ⟨B * 0 + r.val, row_lt hN h r⟩)
    (hs : ∀ (n : ℕ) (h : n + 1 < T),
      a (n + 1) h = a n (Nat.lt_of_succ_lt h) + ∑ r : Fin B, f ⟨B * (n + 1) + r.val, row_lt hN h r⟩)
    (n : ℕ) (hn : n + 1 = T) : a n (by omega) = ∑ p, f p := by
  subst hN
  subst hn
  rw [running_total a (fun s => ∑ r : Fin B, f ⟨B * s.val + r.val, BlockSums.block_row_lt s.isLt r.isLt⟩) h0 hs n _,
    BlockSums.sum_fin_mul_blocks]

end Cert.KernelIdeal.RegR
-- ==== Proof.RegRPayLinPlus.lean ====
/-
  The arithmetic of one grid point of a dense layer with own features and another array added, read entry by entry
  on the extended reals.

  The body of such a region computes, from a block X of 2000 rows of neighbour means, the block Y of the nodes' own
  features, two 128 × 128 weight matrices W, W', a bias row b and the block Z of another array, the block
  P = max (((X · W + b) + Y · W') + Z, 0), and two updated statistics rows: the row found plus the column sums of
  P, and the row found plus the column sums of the squares of P. On the extended reals a change of float format is
  the identity, the matrix unit accumulating into zero is the plain contraction, and a reduction along the rows
  from the zero accumulator is the plain sum of the column; the rows the first grid point stores are rows of zeros.
-/
import proofs.«146104_j52931176955955_1_alg».proof.Proof.Gen.KernelIdeal.Skeleton
import proofs.«146104_j52931176955955_1_alg».proof.Proof.LibDotRecord
import proofs.«146104_j52931176955955_1_alg».proof.Proof.LibColumnSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegR

open Idealize.ShloMosaic Idealize.ShloMosaic.ValueIdx Cert.KernelIdeal Cert.KernelIdeal.Gen

/-- The dense block of a node type with features of its own, another array added, clamped at zero, at row r and
    feature q: means times the left weights, plus the bias, plus own features times the right weights, plus the
    other array's entry, clamped. (A change of float format is the identity on the extended reals.) -/
theorem pay5_2_apply (x0 : FVec Ideal S2000x128 .f32) (w : FVec Ideal S128x128 .f32) (b : FVec Ideal S1x128 .f32)
    (x3 : FVec Ideal S2000x128 .f32) (w' : FVec Ideal S128x128 .f32) (x5 : FVec Ideal S2000x128 .f32)
    (r : Fin 2000) (q : Fin 128) :
    k5_pay2 (F := Ideal) x0 w b x3 w' x5 (ix2 r q)
      = max ((((∑ k : Fin 128, x0 (ix2 r k) * w (ix2 k q)) + b (ix2 (0 : Fin 1) q))
              + ∑ k : Fin 128, x3 (ix2 r k) * w' (ix2 k q)) + x5 (ix2 r q))
          (Ideal.ofBits .f32 0x00000000#32) := by
  unfold k5_pay2
  simp only [shapeCast_self]
  exact congrArg₂ (fun a c => max (a + x5 (ix2 r q)) c)
    (congrArg₂ (fun a c => a + c)
      (congrArg₂ (fun a c => a + c)
        (DotRecord.matmul_zero_apply dot_S2000x128_S128x128_S2000x128_1_0_0_1_n_n rfl rfl rfl rfl rfl rfl
          (truncf .bf16 x0 bitsLt_bf16_f32) (truncf .bf16 w bitsLt_bf16_f32) none r q)
        (DotRecord.broadcastTo_1b_ab_apply b broadcasts_S1x128_S2000x128 r q))
      (DotRecord.matmul_zero_apply dot_S2000x128_S128x128_S2000x128_1_0_0_1_n_n rfl rfl rfl rfl rfl rfl
        (truncf .bf16 x3 bitsLt_bf16_f32) (truncf .bf16 w' bitsLt_bf16_f32) none r q))
    (rfl : (Ideal.ofBits .f32 0x00000000#32 : EReal) = Ideal.ofBits .f32 0x00000000#32)

/-- The row of zeros the first grid point stores into the column-sum row. -/
theorem pay5_3_apply (i : S1x128.Idx) : k5_pay3 (F := Ideal) i = Ideal.ofBits .f32 0x00000000#32 := rfl

/-- The row of zeros the first grid point stores into the row of column sums of squares. -/
theorem pay5_4_apply (i : S1x128.Idx) : k5_pay4 (F := Ideal) i = Ideal.ofBits .f32 0x00000000#32 := rfl

/-- The updated column-sum row at feature q: the row found plus the sum of the block's column q. -/
theorem pay5_5_apply (x0 : FVec Ideal S2000x128 .f32) (w : FVec Ideal S128x128 .f32) (b : FVec Ideal S1x128 .f32)
    (x3 : FVec Ideal S2000x128 .f32) (w' : FVec Ideal S128x128 .f32) (x5 : FVec Ideal S2000x128 .f32)
    (xo : FVec Ideal S1x128 .f32) (q : Fin 128) :
    k5_pay5 (F := Ideal) x0 w b x3 w' x5 xo (ix2 (0 : Fin 1) q)
      = xo (ix2 (0 : Fin 1) q) + ∑ r : Fin 2000, k5_pay2 (F := Ideal) x0 w b x3 w' x5 (ix2 r q) := by
  unfold k5_pay5
  simp only [shapeCast_self]
  refine congrArg (fun z => xo (ix2 (0 : Fin 1) q) + z) ?_
  refine (shapeCast_a_1a_apply _ shapeCasts_S128_S1x128 (0 : Fin 1) q).trans ?_
  exact ColumnSum.colSum_apply (k5_pay2 (F := Ideal) x0 w b x3 w' x5) reduces_S2000x128_S128 (.inl rfl) rfl q

/-- The updated row of column sums of squares at feature q, for any block v: the row found plus the sum of the
    squares of v's column q. -/
theorem pay5_1_apply (v : FVec Ideal S2000x128 .f32) (xo : FVec Ideal S1x128 .f32) (q : Fin 128) :
    k5_pay1 (F := Ideal) v xo (ix2 (0 : Fin 1) q)
      = xo (ix2 (0 : Fin 1) q) + ∑ r : Fin 2000, v (ix2 r q) * v (ix2 r q) := by
  unfold k5_pay1
  simp only [shapeCast_self]
  refine congrArg (fun z => xo (ix2 (0 : Fin 1) q) + z) ?_
  refine (shapeCast_a_1a_apply _ shapeCasts_S128_S1x128 (0 : Fin 1) q).trans ?_
  exact ColumnSum.colSum_apply (mulf v v) reduces_S2000x128_S128 (.inl rfl) rfl q

end Cert.KernelIdeal.RegR

end
-- ==== Proof.RegR5a.lean ====
/-
  Region 5: what one grid point leaves in its three output blocks, as the body's arithmetic of the blocks it reads.

  At every grid point the body stores the dense block computed from its input blocks. At the first point it also
  stores a row of zeros into each of the two statistics rows before updating them; at every later point it updates
  the rows it finds. So after a point the block of the result is the dense block, and each statistics row is its
  update of the row of zeros (first point) or of the row the point before left (later points). Each statement
  reads the stores the run of the body found back through the whole staging buffer: one store through the whole
  buffer leaves its value, a load of the whole buffer reads its contents, and a load after a store reads what was
  stored. Stated for any float instance.
-/
import proofs.«146104_j52931176955955_1_alg».proof.Proof.Gen.KernelIdeal.Frame
import Idealize.ShloMosaic.Lib.Pipeline.Value
import Idealize.ShloMosaic.Lib.Tactic

set_option maxRecDepth 16384

noncomputable section

namespace Cert.KernelIdeal.RegR

open Idealize.ShloMosaic Idealize.ShloMosaic.TcCoe Idealize.SL.Sem
open Cert.KernelIdeal Cert.KernelIdeal.Gen

variable {F : FTy → Type} [FloatOps F]

/-- The zero offsets of a block read or written whole. -/
theorem hz2_5 : (![0, 0] : Fin 2 → Nat) = fun _ => 0 := funext fun a => by fin_cases a <;> rfl

local notation "hz2" => hz2_5

/-- First point: the result block is the dense block of the input blocks. -/
theorem out5_A_6_eq (c : Dev nD) (i : grid5.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond5_0 i) (x0 : Vec F S2000x128 .f32) (x1 : Vec F S128x128 .f32) (x2 : Vec F S1x128 .f32) (x3 : Vec F S2000x128 .f32) (x4 : Vec F S128x128 .f32) (x5 : Vec F S2000x128 .f32) :
    out5_A_6 c i a1 h1 a2 h2 a3 h3 a4 h4 a5 h5 a6 h6 a7 h7 a8 h8 a9 h9 hc x0 x1 x2 x3 x4 x5 = k5_pay2 x0 x1 x2 x3 x4 x5 := by
  unfold out5_A_6
  rw [View.read_writes_eq_canon _ _ _ (cover5_A_6 c i a1 h1 a2 h2 a3 h3 a4 h4 a5 h5 a6 h6 a7 h7 a8 h8 a9 h9 hc x0 x1 x2 x3 x4 x5)]
  unfold kernelRun5_A
  dsimp only
  sl_unfold_words
  rw [View.canon_unit_zero hz2]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S1x128) hz2]

/-- Later points: the result block is the dense block of the input blocks. -/
theorem out5_B_6_eq (c : Dev nD) (i : grid5.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond5_0 i) (x0 : Vec F S2000x128 .f32) (x1 : Vec F S128x128 .f32) (x2 : Vec F S1x128 .f32) (x3 : Vec F S2000x128 .f32) (x4 : Vec F S128x128 .f32) (x5 : Vec F S2000x128 .f32) (xo7 xo8 : Vec F S1x128 .f32) :
    out5_B_6 c i a1 h1 a2 h2 a3 h3 a4 h4 a5 h5 a6 h6 a7 h7 a8 h8 a9 h9 hc x0 x1 x2 x3 x4 x5 xo7 xo8 = k5_pay2 x0 x1 x2 x3 x4 x5 := by
  unfold out5_B_6
  rw [View.read_writes_eq_canon _ _ _ (cover5_B_6 c i a1 h1 a2 h2 a3 h3 a4 h4 a5 h5 a6 h6 a7 h7 a8 h8 a9 h9 hc x0 x1 x2 x3 x4 x5 xo7 xo8)]
  unfold kernelRun5_B
  dsimp only
  sl_unfold_words
  rw [View.canon_unit_zero hz2]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S1x128) hz2]

/-- First point: the column-sum row is the update of the row of zeros. -/
theorem out5_A_7_eq (c : Dev nD) (i : grid5.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond5_0 i) (x0 : Vec F S2000x128 .f32) (x1 : Vec F S128x128 .f32) (x2 : Vec F S1x128 .f32) (x3 : Vec F S2000x128 .f32) (x4 : Vec F S128x128 .f32) (x5 : Vec F S2000x128 .f32) :
    out5_A_7 c i a1 h1 a2 h2 a3 h3 a4 h4 a5 h5 a6 h6 a7 h7 a8 h8 a9 h9 hc x0 x1 x2 x3 x4 x5 = k5_pay5 x0 x1 x2 x3 x4 x5 k5_pay3 := by
  unfold out5_A_7
  rw [View.read_writes_eq_canon _ _ _ (cover5_A_7 c i a1 h1 a2 h2 a3 h3 a4 h4 a5 h5 a6 h6 a7 h7 a8 h8 a9 h9 hc x0 x1 x2 x3 x4 x5)]
  unfold kernelRun5_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S1x128) hz2]

/-- Later points: the column-sum row is the update of the row found. -/
theorem out5_B_7_eq (c : Dev nD) (i : grid5.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond5_0 i) (x0 : Vec F S2000x128 .f32) (x1 : Vec F S128x128 .f32) (x2 : Vec F S1x128 .f32) (x3 : Vec F S2000x128 .f32) (x4 : Vec F S128x128 .f32) (x5 : Vec F S2000x128 .f32) (xo7 xo8 : Vec F S1x128 .f32) :
    out5_B_7 c i a1 h1 a2 h2 a3 h3 a4 h4 a5 h5 a6 h6 a7 h7 a8 h8 a9 h9 hc x0 x1 x2 x3 x4 x5 xo7 xo8 = k5_pay5 x0 x1 x2 x3 x4 x5 xo7 := by
  unfold out5_B_7
  rw [View.read_writes_eq_canon _ _ _ (cover5_B_7 c i a1 h1 a2 h2 a3 h3 a4 h4 a5 h5 a6 h6 a7 h7 a8 h8 a9 h9 hc x0 x1 x2 x3 x4 x5 xo7 xo8)]
  unfold kernelRun5_B
  dsimp only
  sl_unfold_words
  rw [View.canon_unit_zero hz2]
  simp only [View.readAt_eq_ld, h1.read_unread, h2.read_unread, h3.read_unread, h4.read_unread, h5.read_unread, h6.read_unread, h8.read_unread, View.ld_unit_zero (S := S2000x128) hz2, View.ld_unit_zero (S := S128x128) hz2, View.ld_unit_zero (S := S1x128) hz2]

/-- First point: the row of column sums of squares is the update of the row of zeros. -/
theorem out5_A_8_eq (c : Dev nD) (i : grid5.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond5_0 i) (x0 : Vec F S2000x128 .f32) (x1 : Vec F S128x128 .f32) (x2 : Vec F S1x128 .f32) (x3 : Vec F S2000x128 .f32) (x4 : Vec F S128x128 .f32) (x5 : Vec F S2000x128 .f32) :
    out5_A_8 c i a1 h1 a2 h2 a3 h3 a4 h4 a5 h5 a6 h6 a7 h7 a8 h8 a9 h9 hc x0 x1 x2 x3 x4 x5 = k5_pay1 (k5_pay2 x0 x1 x2 x3 x4 x5) k5_pay4 := by
  unfold out5_A_8
  rw [View.read_writes_eq_canon _ _ _ (cover5_A_8 c i a1 h1 a2 h2 a3 h3 a4 h4 a5 h5 a6 h6 a7 h7 a8 h8 a9 h9 hc x0 x1 x2 x3 x4 x5)]
  unfold kernelRun5_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S1x128) hz2]

/-- Later points: the row of column sums of squares is the update of the row found. -/
theorem out5_B_8_eq (c : Dev nD) (i : grid5.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond5_0 i) (x0 : Vec F S2000x128 .f32) (x1 : Vec F S128x128 .f32) (x2 : Vec F S1x128 .f32) (x3 : Vec F S2000x128 .f32) (x4 : Vec F S128x128 .f32) (x5 : Vec F S2000x128 .f32) (xo7 xo8 : Vec F S1x128 .f32) :
    out5_B_8 c i a1 h1 a2 h2 a3 h3 a4 h4 a5 h5 a6 h6 a7 h7 a8 h8 a9 h9 hc x0 x1 x2 x3 x4 x5 xo7 xo8 = k5_pay1 (k5_pay2 x0 x1 x2 x3 x4 x5) xo8 := by
  unfold out5_B_8
  rw [View.read_writes_eq_canon _ _ _ (cover5_B_8 c i a1 h1 a2 h2 a3 h3 a4 h4 a5 h5 a6 h6 a7 h7 a8 h8 a9 h9 hc x0 x1 x2 x3 x4 x5 xo7 xo8)]
  unfold kernelRun5_B
  dsimp only
  sl_unfold_words
  rw [View.canon_unit_zero hz2]
  simp only [View.readAt_eq_ld, h1.read_unread, h2.read_unread, h3.read_unread, h4.read_unread, h5.read_unread, h6.read_unread, h9.read_unread, View.ld_unit_zero (S := S2000x128) hz2, View.ld_unit_zero (S := S128x128) hz2, View.ld_unit_zero (S := S1x128) hz2]

end Cert.KernelIdeal.RegR

end
-- ==== Proof.RegR5.lean ====
/-
  Region 5: the three arrays after the region, as whole-array functions of the arrays the region finds.

  The region runs over 100 grid points; point t reads rows 2000 t, …, 2000 t + 1999 of its row-tiled inputs and the
  whole of its other inputs, stores the dense block of those rows, and keeps two running statistics rows.
  * The dense block of point t is rows 2000 t, … of the whole-array function H (the payload at an entry, each
    input block read where it sits in its array); the blocks tile the 200000 rows, so the result array is H.
  * The column-sum row starts, at point 0, from a row of zeros plus the column sums of block 0, and at each later
    point adds the column sums of that point's block to what the point before left. It is written back after the
    last point only, when it holds the sum over all blocks, which is the column sum over all 200000 rows.
  * The same for the squares.
-/
import proofs.«146104_j52931176955955_1_alg».proof.Proof.Gen.KernelIdeal.Frame
import proofs.«146104_j52931176955955_1_alg».proof.Proof.SageSpec
import proofs.«146104_j52931176955955_1_alg».proof.Proof.RegRGrid
import proofs.«146104_j52931176955955_1_alg».proof.Proof.RegRPayLinPlus
import proofs.«146104_j52931176955955_1_alg».proof.Proof.RegR5a
import Idealize.ShloMosaic.Lib.Pipeline.Value

set_option maxRecDepth 16384

noncomputable section

namespace Cert.KernelIdeal.RegR

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The region's result rows as one function of the arrays it finds. -/
abbrev H5 : SageSpec.Mat 200000 := DenseSpec.relu (SageSpec.plus (SageSpec.lin (V c main_v129 : S200000x128.Idx → EReal) (V c main_v139 : S128x128.Idx → EReal)
    (V c main_v142 : S1x128.Idx → EReal) (V c main_v72 : S200000x128.Idx → EReal) (V c main_v144 : S128x128.Idx → EReal))
    (V c main_v137 : S200000x128.Idx → EReal))

/-! ## Where the blocks sit -/

/-- The block indices, decided over the grid: a row-tiled window's block at point t is block t of its array, every
    other window's block is its whole array. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0 :=
  (by decide +kernel : ∀ t : Fin grid5.N, _)

/-- Input window 0 is tiled by rows: its block at point t is rows 2000 t, …, 2000 t + 1999 of its array. -/
theorem iblk5_0_apply (t : Fin cfg5.N) (r : Fin 2000) (k : Fin 128) (h : 2000 * t.val + r.val < 200000) :
    (iblk5 V c 0 t : FVec Ideal S2000x128 .f32) (ix2 r k) = (V c main_v129 : S200000x128.Idx → EReal) (ix2 ⟨2000 * t.val + r.val, h⟩ k) := by
  obtain ⟨e0, e1, -⟩ := idx5 t
  unfold iblk5
  rw [View.read_apply]
  show V c main_v129 _ = V c main_v129 _
  refine congrArg (V c main_v129) (funext fun a => Fin.ext ?_)
  match a with
  | ⟨0, _⟩ => show win5_0.index t (0 : Fin 2) * 2000 + 1 * r.val = 2000 * t.val + r.val; omega
  | ⟨1, _⟩ => show win5_0.index t (1 : Fin 2) * 128 + 1 * k.val = k.val; omega

/-- Input window 1 is its whole array at every point. -/
theorem iblk5_1_apply (t : Fin cfg5.N) (p : Fin 128) (q : Fin 128) :
    (iblk5 V c 1 t : FVec Ideal S128x128 .f32) (ix2 p q) = (V c main_v139 : S128x128.Idx → EReal) (ix2 p q) := by
  obtain ⟨-, -, e0, e1, -⟩ := idx5 t
  unfold iblk5
  rw [View.read_apply]
  show V c main_v139 _ = V c main_v139 _
  refine congrArg (V c main_v139) (funext fun a => Fin.ext ?_)
  match a with
  | ⟨0, _⟩ => show win5_1.index t (0 : Fin 2) * 128 + 1 * p.val = p.val; omega
  | ⟨1, _⟩ => show win5_1.index t (1 : Fin 2) * 128 + 1 * q.val = q.val; omega

/-- Input window 2 is its whole array at every point. -/
theorem iblk5_2_apply (t : Fin cfg5.N) (p : Fin 1) (q : Fin 128) :
    (iblk5 V c 2 t : FVec Ideal S1x128 .f32) (ix2 p q) = (V c main_v142 : S1x128.Idx → EReal) (ix2 p q) := by
  obtain ⟨-, -, -, -, e0, e1, -⟩ := idx5 t
  unfold iblk5
  rw [View.read_apply]
  show V c main_v142 _ = V c main_v142 _
  refine congrArg (V c main_v142) (funext fun a => Fin.ext ?_)
  match a with
  | ⟨0, _⟩ => show win5_2.index t (0 : Fin 2) * 1 + 1 * p.val = p.val; omega
  | ⟨1, _⟩ => show win5_2.index t (1 : Fin 2) * 128 + 1 * q.val = q.val; omega

/-- Input window 3 is tiled by rows: its block at point t is rows 2000 t, …, 2000 t + 1999 of its array. -/
theorem iblk5_3_apply (t : Fin cfg5.N) (r : Fin 2000) (k : Fin 128) (h : 2000 * t.val + r.val < 200000) :
    (iblk5 V c 3 t : FVec Ideal S2000x128 .f32) (ix2 r k) = (V c main_v72 : S200000x128.Idx → EReal) (ix2 ⟨2000 * t.val + r.val, h⟩ k) := by
  obtain ⟨-, -, -, -, -, -, e0, e1, -⟩ := idx5 t
  unfold iblk5
  rw [View.read_apply]
  show V c main_v72 _ = V c main_v72 _
  refine congrArg (V c main_v72) (funext fun a => Fin.ext ?_)
  match a with
  | ⟨0, _⟩ => show win5_3.index t (0 : Fin 2) * 2000 + 1 * r.val = 2000 * t.val + r.val; omega
  | ⟨1, _⟩ => show win5_3.index t (1 : Fin 2) * 128 + 1 * k.val = k.val; omega

/-- Input window 4 is its whole array at every point. -/
theorem iblk5_4_apply (t : Fin cfg5.N) (p : Fin 128) (q : Fin 128) :
    (iblk5 V c 4 t : FVec Ideal S128x128 .f32) (ix2 p q) = (V c main_v144 : S128x128.Idx → EReal) (ix2 p q) := by
  obtain ⟨-, -, -, -, -, -, -, -, e0, e1, -⟩ := idx5 t
  unfold iblk5
  rw [View.read_apply]
  show V c main_v144 _ = V c main_v144 _
  refine congrArg (V c main_v144) (funext fun a => Fin.ext ?_)
  match a with
  | ⟨0, _⟩ => show win5_4.index t (0 : Fin 2) * 128 + 1 * p.val = p.val; omega
  | ⟨1, _⟩ => show win5_4.index t (1 : Fin 2) * 128 + 1 * q.val = q.val; omega

/-- Input window 5 is tiled by rows: its block at point t is rows 2000 t, …, 2000 t + 1999 of its array. -/
theorem iblk5_5_apply (t : Fin cfg5.N) (r : Fin 2000) (k : Fin 128) (h : 2000 * t.val + r.val < 200000) :
    (iblk5 V c 5 t : FVec Ideal S2000x128 .f32) (ix2 r k) = (V c main_v137 : S200000x128.Idx → EReal) (ix2 ⟨2000 * t.val + r.val, h⟩ k) := by
  obtain ⟨-, -, -, -, -, -, -, -, -, -, e0, e1, -⟩ := idx5 t
  unfold iblk5
  rw [View.read_apply]
  show V c main_v137 _ = V c main_v137 _
  refine congrArg (V c main_v137) (funext fun a => Fin.ext ?_)
  match a with
  | ⟨0, _⟩ => show win5_5.index t (0 : Fin 2) * 2000 + 1 * r.val = 2000 * t.val + r.val; omega
  | ⟨1, _⟩ => show win5_5.index t (1 : Fin 2) * 128 + 1 * k.val = k.val; omega

/-- The dense block of point t, at row r and feature q, is H at row 2000 t + r. -/
theorem blk5 (t : Fin cfg5.N) (r : Fin 2000) (q : Fin 128) (h : 2000 * t.val + r.val < 200000) :
    k5_pay2 (F := Ideal) (iblk5 V c 0 t) (iblk5 V c 1 t) (iblk5 V c 2 t) (iblk5 V c 3 t) (iblk5 V c 4 t) (iblk5 V c 5 t) (ix2 r q) = H5 V c (ix2 ⟨2000 * t.val + r.val, h⟩ q) :=
  (pay5_2_apply (iblk5 V c 0 t) (iblk5 V c 1 t) (iblk5 V c 2 t) (iblk5 V c 3 t) (iblk5 V c 4 t) (iblk5 V c 5 t) r q).trans
    (congrArg₂ (fun a b => max (a + b) (Ideal.ofBits .f32 0x00000000#32))
      (congrArg₂ (fun a b => a + b)
        (congrArg₂ (fun a b => a + b)
          (Finset.sum_congr rfl fun k _ => congrArg₂ (fun a b => a * b) (iblk5_0_apply V c t r k h) (iblk5_1_apply V c t k q))
          (iblk5_2_apply V c t 0 q))
        (Finset.sum_congr rfl fun k _ => congrArg₂ (fun a b => a * b) (iblk5_3_apply V c t r k h) (iblk5_4_apply V c t k q)))
      (iblk5_5_apply V c t r q h))

/-! ## What each point leaves -/

/-- After every point the result block is the dense block of the point's input blocks. -/
theorem outs5_blk (t : Fin cfg5.N) :
    (outsAt5 V c t.val t.isLt).1 = k5_pay2 (F := Ideal) (iblk5 V c 0 t) (iblk5 V c 1 t) (iblk5 V c 2 t) (iblk5 V c 3 t) (iblk5 V c 4 t) (iblk5 V c 5 t) := by
  by_cases h0 : t.val % 100 = 0
  · rw [outsAt5_A V c t h0]
    dsimp only
    exact out5_A_6_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) ((hcond5_0 t).mpr h0) (iblk5 V c 0 t) (iblk5 V c 1 t) (iblk5 V c 2 t) (iblk5 V c 3 t) (iblk5 V c 4 t) (iblk5 V c 5 t)
  · rw [outsAt5_B V c t h0]
    dsimp only
    exact out5_B_6_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.1 (outsAt5 V c (t.val - 1) (Nat.lt_of_le_of_lt (Nat.sub_le _ _) t.isLt)).2.2

/-- After the first point the column-sum row is the update of the row of zeros. -/
theorem outs5_sum_A (t : Fin cfg5.N) (h0 : t.val % 100 = 0) :
    (outsAt5 V c t.val t.isLt).2.1 = k5_pay5 (F := Ideal) (iblk5 V c 0 t) (iblk5 V c 1 t) (iblk5 V c 2 t) (iblk5 V c 3 t) (iblk5 V c 4 t) (iblk5 V c 5 t) (k5_pay3 (F := Ideal)) := by
  rw [outsAt5_A V c t h0]
  dsimp only
  exact out5_A_7_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) ((hcond5_0 t).mpr h0) (iblk5 V c 0 t) (iblk5 V c 1 t) (iblk5 V c 2 t) (iblk5 V c 3 t) (iblk5 V c 4 t) (iblk5 V c 5 t)

/-- After a later point the column-sum row is the update of the row the point before left. -/
theorem outs5_sum_B (t : Fin cfg5.N) (h0 : ¬t.val % 100 = 0) :
    (outsAt5 V c t.val t.isLt).2.1 = k5_pay5 (F := Ideal) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.1 := by
  rw [outsAt5_B V c t h0]
  dsimp only
  exact out5_B_7_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.1 (outsAt5 V c (t.val - 1) (Nat.lt_of_le_of_lt (Nat.sub_le _ _) t.isLt)).2.2

/-- After the first point the row of column sums of squares is the update of the row of zeros. -/
theorem outs5_sq_A (t : Fin cfg5.N) (h0 : t.val % 100 = 0) :
    (outsAt5 V c t.val t.isLt).2.2 = k5_pay1 (F := Ideal) (k5_pay2 (F := Ideal) (iblk5 V c 0 t) (iblk5 V c 1 t) (iblk5 V c 2 t) (iblk5 V c 3 t) (iblk5 V c 4 t) (iblk5 V c 5 t)) (k5_pay4 (F := Ideal)) := by
  rw [outsAt5_A V c t h0]
  dsimp only
  exact out5_A_8_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) ((hcond5_0 t).mpr h0) (iblk5 V c 0 t) (iblk5 V c 1 t) (iblk5 V c 2 t) (iblk5 V c 3 t) (iblk5 V c 4 t) (iblk5 V c 5 t)

/-- After a later point the row of column sums of squares is the update of the row the point before left. -/
theorem outs5_sq_B (t : Fin cfg5.N) (h0 : ¬t.val % 100 = 0) :
    (outsAt5 V c t.val t.isLt).2.2 = k5_pay1 (F := Ideal) (k5_pay2 (F := Ideal) (iblk5 V c 0 t) (iblk5 V c 1 t) (iblk5 V c 2 t) (iblk5 V c 3 t) (iblk5 V c 4 t) (iblk5 V c 5 t)) (outsAt5 V c (t.val - 1) (Nat.lt_of_le_of_lt (Nat.sub_le _ _) t.isLt)).2.2 := by
  rw [outsAt5_B V c t h0]
  dsimp only
  exact out5_B_8_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (fun h => h0 ((hcond5_0 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.1 (outsAt5 V c (t.val - 1) (Nat.lt_of_le_of_lt (Nat.sub_le _ _) t.isLt)).2.2

/-! ## The running totals -/

/-- The 200000 rows are 100 blocks of 2000. -/
theorem rows5 : 200000 = cfg5.N * 2000 := by rw [show cfg5.N = 100 from N_5]

/-- Point 0 leaves, at feature q of the column-sum row, zero plus the column sum of block 0 of H. -/
theorem sum5_zero (h : 0 < cfg5.N) (q : Fin 128) :
    (outsAt5 V c 0 h).2.1 (ix2 (0 : Fin 1) q)
      = 0 + ∑ r : Fin 2000, H5 V c (ix2 ⟨2000 * 0 + r.val, row_lt (rows5) h r⟩ q) :=
  (congrFun (outs5_sum_A V c ⟨0, h⟩ rfl) (ix2 (0 : Fin 1) q)).trans
    ((pay5_5_apply (iblk5 V c 0 ⟨0, h⟩) (iblk5 V c 1 ⟨0, h⟩) (iblk5 V c 2 ⟨0, h⟩) (iblk5 V c 3 ⟨0, h⟩) (iblk5 V c 4 ⟨0, h⟩) (iblk5 V c 5 ⟨0, h⟩) (k5_pay3 (F := Ideal)) q).trans
      (congrArg₂ (fun a b => a + b) ((pay5_3_apply (ix2 (0 : Fin 1) q)).trans Ideal.ofBits_zero_f32)
        (Finset.sum_congr rfl fun r _ => blk5 V c ⟨0, h⟩ r q (row_lt (rows5) h r))))

/-- Point n + 1 adds the column sum of block n + 1 of H to what point n left. -/
theorem sum5_succ (n : ℕ) (h : n + 1 < cfg5.N) (q : Fin 128) :
    (outsAt5 V c (n + 1) h).2.1 (ix2 (0 : Fin 1) q)
      = (outsAt5 V c n (Nat.lt_of_succ_lt h)).2.1 (ix2 (0 : Fin 1) q)
        + ∑ r : Fin 2000, H5 V c (ix2 ⟨2000 * (n + 1) + r.val, row_lt (rows5) h r⟩ q) := by
  have hN : n + 1 < 100 := lt_of_lt_of_eq h N_5
  have hB : ¬(⟨n + 1, h⟩ : Fin cfg5.N).val % 100 = 0 := by dsimp only; omega
  exact (congrFun (outs5_sum_B V c ⟨n + 1, h⟩ hB) (ix2 (0 : Fin 1) q)).trans
    ((pay5_5_apply (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (outsAt5 V c n (Nat.lt_of_succ_lt h)).2.1 q).trans
      (congrArg (fun b => (outsAt5 V c n (Nat.lt_of_succ_lt h)).2.1 (ix2 (0 : Fin 1) q) + b)
        (Finset.sum_congr rfl fun r _ => blk5 V c ⟨n + 1, h⟩ r q (row_lt (rows5) h r))))

/-- Point 0 leaves, at feature q of the row of column sums of squares, zero plus that sum over block 0 of H. -/
theorem sq5_zero (h : 0 < cfg5.N) (q : Fin 128) :
    (outsAt5 V c 0 h).2.2 (ix2 (0 : Fin 1) q)
      = 0 + ∑ r : Fin 2000, H5 V c (ix2 ⟨2000 * 0 + r.val, row_lt (rows5) h r⟩ q)
            * H5 V c (ix2 ⟨2000 * 0 + r.val, row_lt (rows5) h r⟩ q) :=
  (congrFun (outs5_sq_A V c ⟨0, h⟩ rfl) (ix2 (0 : Fin 1) q)).trans
    ((pay5_1_apply (k5_pay2 (F := Ideal) (iblk5 V c 0 ⟨0, h⟩) (iblk5 V c 1 ⟨0, h⟩) (iblk5 V c 2 ⟨0, h⟩) (iblk5 V c 3 ⟨0, h⟩) (iblk5 V c 4 ⟨0, h⟩) (iblk5 V c 5 ⟨0, h⟩)) (k5_pay4 (F := Ideal)) q).trans
      (congrArg₂ (fun a b => a + b) ((pay5_4_apply (ix2 (0 : Fin 1) q)).trans Ideal.ofBits_zero_f32)
        (Finset.sum_congr rfl fun r _ => congrArg₂ (fun a b => a * b)
          (blk5 V c ⟨0, h⟩ r q (row_lt (rows5) h r)) (blk5 V c ⟨0, h⟩ r q (row_lt (rows5) h r)))))

/-- Point n + 1 adds the sum of the squares of column q of block n + 1 of H to what point n left. -/
theorem sq5_succ (n : ℕ) (h : n + 1 < cfg5.N) (q : Fin 128) :
    (outsAt5 V c (n + 1) h).2.2 (ix2 (0 : Fin 1) q)
      = (outsAt5 V c n (Nat.lt_of_succ_lt h)).2.2 (ix2 (0 : Fin 1) q)
        + ∑ r : Fin 2000, H5 V c (ix2 ⟨2000 * (n + 1) + r.val, row_lt (rows5) h r⟩ q)
            * H5 V c (ix2 ⟨2000 * (n + 1) + r.val, row_lt (rows5) h r⟩ q) := by
  have hN : n + 1 < 100 := lt_of_lt_of_eq h N_5
  have hB : ¬(⟨n + 1, h⟩ : Fin cfg5.N).val % 100 = 0 := by dsimp only; omega
  exact (congrFun (outs5_sq_B V c ⟨n + 1, h⟩ hB) (ix2 (0 : Fin 1) q)).trans
    ((pay5_1_apply (k5_pay2 (F := Ideal) (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩)) (outsAt5 V c n (Nat.lt_of_succ_lt h)).2.2 q).trans
      (congrArg (fun b => (outsAt5 V c n (Nat.lt_of_succ_lt h)).2.2 (ix2 (0 : Fin 1) q) + b)
        (Finset.sum_congr rfl fun r _ => congrArg₂ (fun a b => a * b)
          (blk5 V c ⟨n + 1, h⟩ r q (row_lt (rows5) h r)) (blk5 V c ⟨n + 1, h⟩ r q (row_lt (rows5) h r)))))

/-- After the last point the column-sum row holds, at feature q, the sum of column q of H over all rows. -/
theorem sum5_last (n : ℕ) (hn : n + 1 = cfg5.N) (h : n < cfg5.N) (q : Fin 128) :
    (outsAt5 V c n h).2.1 (ix2 (0 : Fin 1) q) = ∑ p : Fin 200000, H5 V c (ix2 p q) := by
  have e := total_eq_sum cfg5.N 2000 (rows5) (fun p : Fin 200000 => H5 V c (ix2 p q))
    (fun n h => (outsAt5 V c n h).2.1 (ix2 (0 : Fin 1) q))
    (fun h => sum5_zero V c h q) (fun n h => sum5_succ V c n h q) n hn
  exact e

/-- After the last point the other row holds, at feature q, the sum of the squares of column q of H over all rows. -/
theorem sq5_last (n : ℕ) (hn : n + 1 = cfg5.N) (h : n < cfg5.N) (q : Fin 128) :
    (outsAt5 V c n h).2.2 (ix2 (0 : Fin 1) q) = ∑ p : Fin 200000, H5 V c (ix2 p q) * H5 V c (ix2 p q) := by
  have e := total_eq_sum cfg5.N 2000 (rows5) (fun p : Fin 200000 => H5 V c (ix2 p q) * H5 V c (ix2 p q))
    (fun n h => (outsAt5 V c n h).2.2 (ix2 (0 : Fin 1) q))
    (fun h => sq5_zero V c h q) (fun n h => sq5_succ V c n h q) n hn
  exact e

/-! ## The result rows -/

/-- A row of the result array is in point t's block iff it is one of rows 2000 t, …, 2000 t + 1999. -/
theorem mem_blk5_6 (t : Fin cfg5.N) (i : S200000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v145_0).slice (win5_6.rect t)).set ↔ _
  rw [View.set_slice_whole, Rect.mem_set_unit]
  exact Iff.rfl

/-- What point t writes back to the result array is block t of H. -/
theorem flushed5_6 (t : Fin cfg5.N) :
    (dat5 V c).flushed 6 t = ((cfg5.win 6).blk t).view.read (Elt Ideal) (H5 V c) := by
  obtain ⟨-, -, -, -, -, -, -, -, -, -, -, -, e0, e1, -⟩ := idx5 t
  have ht : t.val < 100 := lt_of_lt_of_eq t.isLt N_5
  show (cfg5.win 6).cut (grid5.coords t) ((dat5 V c).after 6 t) = _
  rw [after5_6, outs5_blk V c t]
  refine funext fun (y : S2000x128.Idx) => ?_
  obtain ⟨r, q, rfl⟩ : ∃ (r : Fin 2000) (q : Fin 128), y = ix2 r q := ⟨y 0, y 1, eq_ix2 y⟩
  rw [View.read_apply]
  show k5_pay2 (F := Ideal) (iblk5 V c 0 t) (iblk5 V c 1 t) (iblk5 V c 2 t) (iblk5 V c 3 t) (iblk5 V c 4 t) (iblk5 V c 5 t) (ix2 r q) = H5 V c (((cfg5.win 6).blk t).view.emb (ix2 r q))
  refine (blk5 V c t r q (by omega)).trans (congrArg (H5 V c) (funext fun a => Fin.ext ?_))
  match a with
  | ⟨0, _⟩ => show 2000 * t.val + r.val = win5_6.index t (0 : Fin 2) * 2000 + 1 * r.val; omega
  | ⟨1, _⟩ => show q.val = win5_6.index t (1 : Fin 2) * 128 + 1 * q.val; omega

/-- Every row of the result array is in the block of the point its number divided by 2000 names. -/
theorem cover5_6 (i : S200000x128.Idx) :
    ∃ t : Fin cfg5.N, (cfg5.win 6).flush t = true ∧ i ∈ ((cfg5.win 6).blk t).view.set := by
  have hi0 : (i 0).val < 200000 := (i 0).isLt
  have hi1 : (i 1).val < 128 := (i 1).isLt
  have hN : cfg5.N = 100 := N_5
  obtain ⟨t, ht⟩ : ∃ t : Fin cfg5.N, t.val = (i 0).val / 2000 := ⟨⟨(i 0).val / 2000, by rw [hN]; omega⟩, rfl⟩
  obtain ⟨-, -, -, -, -, -, -, -, -, -, -, -, e0, e1, -⟩ := idx5 t
  refine ⟨t, flush5_6 t, (mem_blk5_6 t i).mpr fun a => ?_⟩
  match a with
  | ⟨0, _⟩ =>
    show win5_6.index t (0 : Fin 2) * 2000 ≤ (i 0).val ∧ (i 0).val < win5_6.index t (0 : Fin 2) * 2000 + 2000
    omega
  | ⟨1, _⟩ =>
    show win5_6.index t (1 : Fin 2) * 128 ≤ (i 1).val ∧ (i 1).val < win5_6.index t (1 : Fin 2) * 128 + 128
    omega

/-- The result array after the region is H. -/
theorem arr5_6 : (dat5 (F := Ideal) V c).arrAt 6 cfg5.N = H5 V c :=
  (dat5 V c).arrAt_eq_of_cover 6 (H5 V c) (fun t _ => flushed5_6 V c t) (cover5_6)

/-! ## The statistics rows -/

/-- The last grid point. -/
def tl5 : Fin cfg5.N := ⟨99, by rw [show cfg5.N = 100 from N_5]; decide⟩

/-- The entries of window 7's one-row block sit at themselves in the one-row array, at every point. -/
theorem emb5_7 (t : Fin cfg5.N) (q : Fin 128) :
    ((cfg5.win 7).blk t).view.emb (ix2 (0 : Fin 1) q) = (ix2 (0 : Fin 1) q : S1x128.Idx) := by
  obtain ⟨-, -, -, -, -, -, -, -, -, -, -, -, -, -, e0, e1, -⟩ := idx5 t
  refine funext fun a => Fin.ext ?_
  match a with
  | ⟨0, _⟩ => show win5_7.index t (0 : Fin 2) * 1 + 1 * 0 = 0; omega
  | ⟨1, _⟩ => show win5_7.index t (1 : Fin 2) * 128 + 1 * q.val = q.val; omega

/-- The one write-back of window 7, after the last point, writes the column sums of H. -/
theorem flushed5_7 (t : Fin cfg5.N) (hf : (cfg5.win 7).flush t = true) :
    (dat5 V c).flushed 7 t = ((cfg5.win 7).blk t).view.read (Elt Ideal) (SageSpec.colSum (H5 V c)) := by
  have hN : cfg5.N = 100 := N_5
  have hl : t.val + 1 = cfg5.N := by have := (flush5_7 t).mp hf; have := t.isLt; omega
  have hX : ∀ q : Fin 128, (outsAt5 V c t.val t.isLt).2.1 (ix2 (0 : Fin 1) q)
      = SageSpec.colSum (H5 V c) (ix2 (0 : Fin 1) q) :=
    fun q => (sum5_last V c t.val hl t.isLt q).trans (SageSpec.colSum_ix2 (H5 V c) q).symm
  show (cfg5.win 7).cut (grid5.coords t) ((dat5 V c).after 7 t) = _
  rw [after5_7]
  generalize (outsAt5 V c t.val t.isLt).2.1 = X at hX ⊢
  generalize SageSpec.colSum (H5 V c) = G at hX ⊢
  refine funext fun (y : S1x128.Idx) => ?_
  obtain ⟨u, q, rfl⟩ : ∃ (u : Fin 1) (q : Fin 128), y = ix2 u q := ⟨y 0, y 1, eq_ix2 y⟩
  obtain rfl : u = 0 := Subsingleton.elim _ _
  rw [View.read_apply]
  show X (ix2 (0 : Fin 1) q) = G (((cfg5.win 7).blk t).view.emb (ix2 (0 : Fin 1) q))
  rw [emb5_7 t q]
  exact hX q

/-- Every entry of the one-row array is in the block written back after the last point. -/
theorem cover5_7 (i : S1x128.Idx) :
    ∃ t : Fin cfg5.N, (cfg5.win 7).flush t = true ∧ i ∈ ((cfg5.win 7).blk t).view.set := by
  have hi0 : (i 0).val < 1 := (i 0).isLt
  have hi1 : (i 1).val < 128 := (i 1).isLt
  obtain ⟨-, -, -, -, -, -, -, -, -, -, -, -, -, -, e0, e1, -⟩ := idx5 tl5
  refine ⟨tl5, (flush5_7 tl5).mpr rfl, ?_⟩
  show i ∈ ((View.whole main_v145_1).slice (win5_7.rect tl5)).set
  rw [View.set_slice_whole, Rect.mem_set_unit]
  intro a
  match a with
  | ⟨0, _⟩ =>
    show win5_7.index tl5 (0 : Fin 2) * 1 ≤ (i 0).val ∧ (i 0).val < win5_7.index tl5 (0 : Fin 2) * 1 + 1
    omega
  | ⟨1, _⟩ =>
    show win5_7.index tl5 (1 : Fin 2) * 128 ≤ (i 1).val ∧ (i 1).val < win5_7.index tl5 (1 : Fin 2) * 128 + 128
    omega

/-- The column-sum array after the region is the column sums of H. -/
theorem arr5_7 : (dat5 (F := Ideal) V c).arrAt 7 cfg5.N = SageSpec.colSum (H5 V c) :=
  (dat5 V c).arrAt_eq_of_cover 7 (SageSpec.colSum (H5 V c)) (flushed5_7 V c) (cover5_7)

/-- The entries of window 8's one-row block sit at themselves in the one-row array, at every point. -/
theorem emb5_8 (t : Fin cfg5.N) (q : Fin 128) :
    ((cfg5.win 8).blk t).view.emb (ix2 (0 : Fin 1) q) = (ix2 (0 : Fin 1) q : S1x128.Idx) := by
  obtain ⟨-, -, -, -, -, -, -, -, -, -, -, -, -, -, -, -, e0, e1⟩ := idx5 t
  refine funext fun a => Fin.ext ?_
  match a with
  | ⟨0, _⟩ => show win5_8.index t (0 : Fin 2) * 1 + 1 * 0 = 0; omega
  | ⟨1, _⟩ => show win5_8.index t (1 : Fin 2) * 128 + 1 * q.val = q.val; omega

/-- The one write-back of window 8, after the last point, writes the column sums of squares of H. -/
theorem flushed5_8 (t : Fin cfg5.N) (hf : (cfg5.win 8).flush t = true) :
    (dat5 V c).flushed 8 t = ((cfg5.win 8).blk t).view.read (Elt Ideal) (SageSpec.colSumSq (H5 V c)) := by
  have hN : cfg5.N = 100 := N_5
  have hl : t.val + 1 = cfg5.N := by have := (flush5_8 t).mp hf; have := t.isLt; omega
  have hX : ∀ q : Fin 128, (outsAt5 V c t.val t.isLt).2.2 (ix2 (0 : Fin 1) q)
      = SageSpec.colSumSq (H5 V c) (ix2 (0 : Fin 1) q) :=
    fun q => (sq5_last V c t.val hl t.isLt q).trans (SageSpec.colSumSq_ix2 (H5 V c) q).symm
  show (cfg5.win 8).cut (grid5.coords t) ((dat5 V c).after 8 t) = _
  rw [after5_8]
  generalize (outsAt5 V c t.val t.isLt).2.2 = X at hX ⊢
  generalize SageSpec.colSumSq (H5 V c) = G at hX ⊢
  refine funext fun (y : S1x128.Idx) => ?_
  obtain ⟨u, q, rfl⟩ : ∃ (u : Fin 1) (q : Fin 128), y = ix2 u q := ⟨y 0, y 1, eq_ix2 y⟩
  obtain rfl : u = 0 := Subsingleton.elim _ _
  rw [View.read_apply]
  show X (ix2 (0 : Fin 1) q) = G (((cfg5.win 8).blk t).view.emb (ix2 (0 : Fin 1) q))
  rw [emb5_8 t q]
  exact hX q

/-- Every entry of the one-row array is in the block written back after the last point. -/
theorem cover5_8 (i : S1x128.Idx) :
    ∃ t : Fin cfg5.N, (cfg5.win 8).flush t = true ∧ i ∈ ((cfg5.win 8).blk t).view.set := by
  have hi0 : (i 0).val < 1 := (i 0).isLt
  have hi1 : (i 1).val < 128 := (i 1).isLt
  obtain ⟨-, -, -, -, -, -, -, -, -, -, -, -, -, -, -, -, e0, e1⟩ := idx5 tl5
  refine ⟨tl5, (flush5_8 tl5).mpr rfl, ?_⟩
  show i ∈ ((View.whole main_v145_2).slice (win5_8.rect tl5)).set
  rw [View.set_slice_whole, Rect.mem_set_unit]
  intro a
  match a with
  | ⟨0, _⟩ =>
    show win5_8.index tl5 (0 : Fin 2) * 1 ≤ (i 0).val ∧ (i 0).val < win5_8.index tl5 (0 : Fin 2) * 1 + 1
    omega
  | ⟨1, _⟩ =>
    show win5_8.index tl5 (1 : Fin 2) * 128 ≤ (i 1).val ∧ (i 1).val < win5_8.index tl5 (1 : Fin 2) * 128 + 128
    omega

/-- The squares array after the region is the column sums of squares of H. -/
theorem arr5_8 : (dat5 (F := Ideal) V c).arrAt 8 cfg5.N = SageSpec.colSumSq (H5 V c) :=
  (dat5 V c).arrAt_eq_of_cover 8 (SageSpec.colSumSq (H5 V c)) (flushed5_8 V c) (cover5_8)

end Cert.KernelIdeal.RegR

end
-- ==== Proof.KReg5.lean ====
/-
  Region 5 of the idealized kernel program, read against the reference's stages: the region's host-computed operands
  are the same host operations of the same values as the reference's stages; the region's output arrays are the
  whole-array functions of its operands that the reference's corresponding stages are.
-/
import proofs.«146104_j52931176955955_1_alg».proof.Proof.KReg4
import proofs.«146104_j52931176955955_1_alg».proof.Proof.RegR5

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

set_option backward.isDefEq.respectTransparency.types false in
theorem v139_at11 : W11 m ρ c (Proc.devRef .tc main_v139) = (Cert.ReferenceIdeal.Read.val_main_v163 (F := Ideal) (m ((c : Thread nD τ).loc main_arg8))) := by
  show StableHlo.after hostOps5 (W10 m ρ c) (Proc.devRef .tc main_v139) = _
  after_results_simp
  rw [arg8_at10 m ρ c]
  rfl

set_option backward.isDefEq.respectTransparency.types false in
theorem v142_at11 : W11 m ρ c (Proc.devRef .tc main_v142) = (Cert.ReferenceIdeal.Read.val_main_v191 (F := Ideal) (m ((c : Thread nD τ).loc main_arg9))) := by
  show StableHlo.after hostOps5 (W10 m ρ c) (Proc.devRef .tc main_v142) = _
  after_results_simp
  rw [arg9_at10 m ρ c]
  rfl

set_option backward.isDefEq.respectTransparency.types false in
theorem v144_at11 : W11 m ρ c (Proc.devRef .tc main_v144) = (Cert.ReferenceIdeal.Read.val_main_v167 (F := Ideal) (m ((c : Thread nD τ).loc main_arg10))) := by
  show StableHlo.after hostOps5 (W10 m ρ c) (Proc.devRef .tc main_v144) = _
  after_results_simp
  rw [arg10_at10 m ρ c]
  rfl

theorem v129_at11 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W11 m ρ c (Proc.devRef .tc main_v129) = (Cert.ReferenceIdeal.Read.val_main_v189 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH5 (W10 m ρ c) main_v129 (by decide)).trans ((W10_of_ne m ρ c main_v129 (by decide)).trans (v129_at9 m ρ c h0 h1 h8 h9 h10 h11 h12))

theorem v72_at11 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W11 m ρ c (Proc.devRef .tc main_v72) = (Cert.ReferenceIdeal.Read.val_main_v97 (F := Ideal) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH5 (W10 m ρ c) main_v72 (by decide)).trans (((W10_arr m ρ c 3).trans (((dat4 (V9 m ρ) c).arrAt_in 3 rfl _).trans (A_eq4 (V9 m ρ) c 3))).trans (v72_at9 m ρ c h0 h1 h8 h9 h10 h11 h12))

theorem v137_at11 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W11 m ρ c (Proc.devRef .tc main_v137) = (Cert.ReferenceIdeal.Read.val_main_v161 (F := Ideal) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH5 (W10 m ρ c) main_v137 (by decide)).trans (v137_at10 m ρ c h0 h1 h8 h9 h10 h11 h12)

set_option backward.isDefEq.respectTransparency.types false in
theorem v145_0_at12 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W12 m ρ c (Proc.devRef .tc main_v145_0) = (Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (W12_arr m ρ c 6).trans ((Cert.KernelIdeal.RegR.arr5_6 (V11 m ρ) c).trans (by
    unfold Cert.KernelIdeal.RegR.H5
    rw [show V11 m ρ c main_v129 = _ from v129_at11 m ρ c h0 h1 h8 h9 h10 h11 h12, show V11 m ρ c main_v139 = _ from v139_at11 m ρ c, show V11 m ρ c main_v142 = _ from v142_at11 m ρ c, show V11 m ρ c main_v72 = _ from v72_at11 m ρ c h0 h1 h8 h9 h10 h11 h12, show V11 m ρ c main_v144 = _ from v144_at11 m ρ c, show V11 m ρ c main_v137 = _ from v137_at11 m ρ c h0 h1 h8 h9 h10 h11 h12]
    rw [Cert.ReferenceIdeal.RefNet.v263_eq, Cert.ReferenceIdeal.RefNet.v196_eq, Cert.ReferenceIdeal.RefNet.v195_eq, Cert.SageSpec.plus_comm]))

set_option backward.isDefEq.respectTransparency.types false in
theorem v145_1_at12 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W12 m ρ c (Proc.devRef .tc main_v145_1) = (Cert.SageSpec.colSum (Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)))) :=
  (W12_arr m ρ c 7).trans ((Cert.KernelIdeal.RegR.arr5_7 (V11 m ρ) c).trans (by
    unfold Cert.KernelIdeal.RegR.H5
    rw [show V11 m ρ c main_v129 = _ from v129_at11 m ρ c h0 h1 h8 h9 h10 h11 h12, show V11 m ρ c main_v139 = _ from v139_at11 m ρ c, show V11 m ρ c main_v142 = _ from v142_at11 m ρ c, show V11 m ρ c main_v72 = _ from v72_at11 m ρ c h0 h1 h8 h9 h10 h11 h12, show V11 m ρ c main_v144 = _ from v144_at11 m ρ c, show V11 m ρ c main_v137 = _ from v137_at11 m ρ c h0 h1 h8 h9 h10 h11 h12]
    rw [Cert.ReferenceIdeal.RefNet.v263_eq, Cert.ReferenceIdeal.RefNet.v196_eq, Cert.ReferenceIdeal.RefNet.v195_eq, Cert.SageSpec.plus_comm]))

set_option backward.isDefEq.respectTransparency.types false in
theorem v145_2_at12 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W12 m ρ c (Proc.devRef .tc main_v145_2) = (Cert.SageSpec.colSumSq (Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)))) :=
  (W12_arr m ρ c 8).trans ((Cert.KernelIdeal.RegR.arr5_8 (V11 m ρ) c).trans (by
    unfold Cert.KernelIdeal.RegR.H5
    rw [show V11 m ρ c main_v129 = _ from v129_at11 m ρ c h0 h1 h8 h9 h10 h11 h12, show V11 m ρ c main_v139 = _ from v139_at11 m ρ c, show V11 m ρ c main_v142 = _ from v142_at11 m ρ c, show V11 m ρ c main_v72 = _ from v72_at11 m ρ c h0 h1 h8 h9 h10 h11 h12, show V11 m ρ c main_v144 = _ from v144_at11 m ρ c, show V11 m ρ c main_v137 = _ from v137_at11 m ρ c h0 h1 h8 h9 h10 h11 h12]
    rw [Cert.ReferenceIdeal.RefNet.v263_eq, Cert.ReferenceIdeal.RefNet.v196_eq, Cert.ReferenceIdeal.RefNet.v195_eq, Cert.SageSpec.plus_comm]))

end Cert.KernelIdeal.KNet

end
-- ==== Proof.RegR6a.lean ====
/-
  What one grid point of region 6 leaves in its three output blocks, as the arithmetic of that point.

  The body stores the dense step of its input blocks into the result block. At the first point it also stores a
  zero row into each of the two statistics rows; at every point it then reads each statistics row back and stores
  the row plus the block's column sums (of the dense step, and of its squares). Every load and store goes through
  the whole block, so each output block ends holding the value of its last store: at the first point the sums
  added to the zero row, at a later point the sums added to the row the point found.
-/
import proofs.«146104_j52931176955955_1_alg».proof.Proof.Gen.KernelIdeal.Frame
import Idealize.ShloMosaic.Lib.Pipeline.Value
import Idealize.ShloMosaic.Lib.Tactic

noncomputable section

namespace Cert.KernelIdeal.RegR

open Idealize.ShloMosaic Idealize.ShloMosaic.TcCoe Idealize.ShloMosaic.Tactic Idealize.SL.Sem
open Cert.KernelIdeal Cert.KernelIdeal.Gen

variable {F : FTy → Type} [FloatOps F]

theorem zero2_6 : (![0, 0] : Fin 2 → Nat) = fun _ => 0 := funext fun a => by fin_cases a <;> rfl

theorem out6_B_5_eq (c : Dev nD) (i : grid6.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond6_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out6_B_5 c i a1 h1 a2 h2 a3 h3 a4 h4 a5 h5 a6 h6 a7 h7 a8 h8 hc x0 x1 x2 x3 x4 xo6 xo7 = k6_pay2 x0 x1 x2 x3 x4 := by
  unfold out6_B_5
  rw [View.read_writes_eq_canon _ _ _ (cover6_B_5 c i a1 h1 a2 h2 a3 h3 a4 h4 a5 h5 a6 h6 a7 h7 a8 h8 hc x0 x1 x2 x3 x4 xo6 xo7)]
  unfold kernelRun6_B
  dsimp only
  rw [View.canon_unit_zero zero2_6]
  simp only [View.readAt_eq_ld, h1.read_unread, h2.read_unread, h3.read_unread, h4.read_unread, h5.read_unread, View.ld_unit_zero (S := S2000x128) zero2_6, View.ld_unit_zero (S := S128x128) zero2_6, View.ld_unit_zero (S := S1x128) zero2_6]

theorem out6_B_6_eq (c : Dev nD) (i : grid6.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond6_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out6_B_6 c i a1 h1 a2 h2 a3 h3 a4 h4 a5 h5 a6 h6 a7 h7 a8 h8 hc x0 x1 x2 x3 x4 xo6 xo7 = k6_pay5 x0 x1 x2 x3 x4 xo6 := by
  unfold out6_B_6
  rw [View.read_writes_eq_canon _ _ _ (cover6_B_6 c i a1 h1 a2 h2 a3 h3 a4 h4 a5 h5 a6 h6 a7 h7 a8 h8 hc x0 x1 x2 x3 x4 xo6 xo7)]
  unfold kernelRun6_B
  dsimp only
  sl_unfold_words
  rw [View.canon_unit_zero zero2_6]
  simp only [View.readAt_eq_ld, h1.read_unread, h2.read_unread, h3.read_unread, h4.read_unread, h5.read_unread, h7.read_unread, View.ld_unit_zero (S := S2000x128) zero2_6, View.ld_unit_zero (S := S128x128) zero2_6, View.ld_unit_zero (S := S1x128) zero2_6]

theorem out6_B_7_eq (c : Dev nD) (i : grid6.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond6_0 i)
    (x0 : Vec F S2000x128 .f32) (x1 : Vec F S128x128 .f32) (x2 : Vec F S1x128 .f32) (x3 : Vec F S2000x128 .f32) (x4 : Vec F S128x128 .f32) (xo6 : Vec F S1x128 .f32) (xo7 : Vec F S1x128 .f32) :
    out6_B_7 c i a1 h1 a2 h2 a3 h3 a4 h4 a5 h5 a6 h6 a7 h7 a8 h8 hc x0 x1 x2 x3 x4 xo6 xo7 = k6_pay1 (k6_pay2 x0 x1 x2 x3 x4) xo7 := by
  unfold out6_B_7
  rw [View.read_writes_eq_canon _ _ _ (cover6_B_7 c i a1 h1 a2 h2 a3 h3 a4 h4 a5 h5 a6 h6 a7 h7 a8 h8 hc x0 x1 x2 x3 x4 xo6 xo7)]
  unfold kernelRun6_B
  dsimp only
  sl_unfold_words
  rw [View.canon_unit_zero zero2_6]
  simp only [View.readAt_eq_ld, h1.read_unread, h2.read_unread, h3.read_unread, h4.read_unread, h5.read_unread, h8.read_unread, View.ld_unit_zero (S := S2000x128) zero2_6, View.ld_unit_zero (S := S128x128) zero2_6, View.ld_unit_zero (S := S1x128) zero2_6]

theorem out6_A_5_eq (c : Dev nD) (i : grid6.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond6_0 i)
    (x0 : Vec F S2000x128 .f32) (x1 : Vec F S128x128 .f32) (x2 : Vec F S1x128 .f32) (x3 : Vec F S2000x128 .f32) (x4 : Vec F S128x128 .f32) :
    out6_A_5 c i a1 h1 a2 h2 a3 h3 a4 h4 a5 h5 a6 h6 a7 h7 a8 h8 hc x0 x1 x2 x3 x4 = k6_pay2 x0 x1 x2 x3 x4 := by
  unfold out6_A_5
  rw [View.read_writes_eq_canon _ _ _ (cover6_A_5 c i a1 h1 a2 h2 a3 h3 a4 h4 a5 h5 a6 h6 a7 h7 a8 h8 hc x0 x1 x2 x3 x4)]
  unfold kernelRun6_A
  dsimp only
  rw [View.canon_unit_zero zero2_6]
  simp only [View.readAt_eq_ld, h1.read_unread, h2.read_unread, h3.read_unread, h4.read_unread, h5.read_unread, View.ld_unit_zero (S := S2000x128) zero2_6, View.ld_unit_zero (S := S128x128) zero2_6, View.ld_unit_zero (S := S1x128) zero2_6]

theorem out6_A_6_eq (c : Dev nD) (i : grid6.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond6_0 i)
    (x0 : Vec F S2000x128 .f32) (x1 : Vec F S128x128 .f32) (x2 : Vec F S1x128 .f32) (x3 : Vec F S2000x128 .f32) (x4 : Vec F S128x128 .f32) :
    out6_A_6 c i a1 h1 a2 h2 a3 h3 a4 h4 a5 h5 a6 h6 a7 h7 a8 h8 hc x0 x1 x2 x3 x4 = k6_pay5 x0 x1 x2 x3 x4 k6_pay3 := by
  unfold out6_A_6
  rw [View.read_writes_eq_canon _ _ _ (cover6_A_6 c i a1 h1 a2 h2 a3 h3 a4 h4 a5 h5 a6 h6 a7 h7 a8 h8 hc x0 x1 x2 x3 x4)]
  unfold kernelRun6_A
  dsimp only
  sl_unfold_words
  rw [View.canon_cons_unit_zero (S := S1x128) zero2_6]
  simp only [View.readAt_eq_ld, h1.read_unread, h2.read_unread, h3.read_unread, h4.read_unread, h5.read_unread, View.readCov_unit_zero (S := S1x128) _ zero2_6, View.ld_unit_zero (S := S2000x128) zero2_6, View.ld_unit_zero (S := S128x128) zero2_6, View.ld_unit_zero (S := S1x128) zero2_6]

theorem out6_A_7_eq (c : Dev nD) (i : grid6.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond6_0 i)
    (x0 : Vec F S2000x128 .f32) (x1 : Vec F S128x128 .f32) (x2 : Vec F S1x128 .f32) (x3 : Vec F S2000x128 .f32) (x4 : Vec F S128x128 .f32) :
    out6_A_7 c i a1 h1 a2 h2 a3 h3 a4 h4 a5 h5 a6 h6 a7 h7 a8 h8 hc x0 x1 x2 x3 x4 = k6_pay1 (k6_pay2 x0 x1 x2 x3 x4) k6_pay4 := by
  unfold out6_A_7
  rw [View.read_writes_eq_canon _ _ _ (cover6_A_7 c i a1 h1 a2 h2 a3 h3 a4 h4 a5 h5 a6 h6 a7 h7 a8 h8 hc x0 x1 x2 x3 x4)]
  unfold kernelRun6_A
  dsimp only
  sl_unfold_words
  rw [View.canon_cons_unit_zero (S := S1x128) zero2_6]
  simp only [View.readAt_eq_ld, h1.read_unread, h2.read_unread, h3.read_unread, h4.read_unread, h5.read_unread, View.readCov_unit_zero (S := S1x128) _ zero2_6, View.ld_unit_zero (S := S2000x128) zero2_6, View.ld_unit_zero (S := S128x128) zero2_6, View.ld_unit_zero (S := S1x128) zero2_6]

end Cert.KernelIdeal.RegR

end
-- ==== Proof.RegR6.lean ====
/-
  The three arrays region 6 leaves, as whole-array functions of the arrays it finds.

  The grid has 75 points; point t works on rows 2000·t … 2000·t + 1999 of the 150000 rows, with both weight
  matrices and the bias row whole at every point. The layer is  H = max (mean · Wl + b + x · Wr, 0)  entry by entry.
  The result block of point t is block t of H, and the result blocks tile the array, so the result array is H. The
  two statistics rows keep a running total: after point t they hold the sums, over the rows of blocks 0 … t, of H's
  columns and of the squares of H's columns (by induction on the point: the first point starts from the zero row).
  Only the last point writes them back, and its block is the whole one-row array, so after the region they hold the
  column sums of H and of H's squares over all 150000 rows.
-/
import proofs.«146104_j52931176955955_1_alg».proof.Proof.Gen.KernelIdeal.Frame
import Idealize.ShloMosaic.Lib.Pipeline.Value
import Idealize.ShloMosaic.Lib.Tactic
import Idealize.ShloMosaic.Lib.ValueIdx
import proofs.«146104_j52931176955955_1_alg».proof.Proof.SageSpec
import proofs.«146104_j52931176955955_1_alg».proof.Proof.RegRPayOwn
import proofs.«146104_j52931176955955_1_alg».proof.Proof.RegRTotal
import proofs.«146104_j52931176955955_1_alg».proof.Proof.RegR6a

noncomputable section

namespace Cert.KernelIdeal.RegR

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The rows are 75 blocks of 2000. -/
theorem rows6_eq : 150000 = 75 * 2000 := by decide

/-- The layer as a whole-array function of the arrays the region finds: the dense step clamped at zero. -/
abbrev H6 (c : Dev nD) : S150000x128.Idx → EReal := (Cert.DenseSpec.relu (Cert.SageSpec.lin (n := 150000) (V c main_v167) (V c main_v169) (V c main_v172) (V c main_v85) (V c main_v174)) : S150000x128.Idx → EReal)

/-- The printed index maps, decided over the grid: windows 0, 3 and 5 step one block of rows per point, the others
    stay at block (0, 0). -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- Window 0's block at point t is rows 2000·t … 2000·t + 1999 of its array. -/
theorem iblk6_0_apply (c : Dev nD) (t : Fin cfg6.N) (r : Fin 2000) (k : Fin 128) :
    iblk6 V c 0 t (ix2 r k) = (V c main_v167 : S150000x128.Idx → EReal) (ix2 (⟨t.val * 2000 + r.val, Sage.Alg.block_row_lt (rows6_eq) (lt_of_lt_of_eq t.isLt N_6) r.isLt⟩ : Fin 150000) k) := by
  obtain ⟨e00, e01, e10, e11, e20, e21, e30, e31, e40, e41, e50, e51, e60, e61, e70, e71⟩ := idx6 t
  unfold iblk6
  rw [View.read_apply]
  show V c main_v167 _ = V c main_v167 _
  congr 1
  funext a
  apply Fin.ext
  match a with
  | ⟨0, _⟩ => show win6_0.index t (0 : Fin 2) * 2000 + 1 * r.val = t.val * 2000 + r.val; omega
  | ⟨1, _⟩ => show win6_0.index t (1 : Fin 2) * 128 + 1 * k.val = k.val; omega

/-- Window 1's block at every point is its whole array. -/
theorem iblk6_1_apply (c : Dev nD) (t : Fin cfg6.N) (p : Fin 128) (k : Fin 128) :
    iblk6 V c 1 t (ix2 p k) = (V c main_v169 : S128x128.Idx → EReal) (ix2 p k) := by
  obtain ⟨e00, e01, e10, e11, e20, e21, e30, e31, e40, e41, e50, e51, e60, e61, e70, e71⟩ := idx6 t
  unfold iblk6
  rw [View.read_apply]
  show V c main_v169 _ = V c main_v169 _
  congr 1
  funext a
  apply Fin.ext
  match a with
  | ⟨0, _⟩ => show win6_1.index t (0 : Fin 2) * 128 + 1 * p.val = p.val; omega
  | ⟨1, _⟩ => show win6_1.index t (1 : Fin 2) * 128 + 1 * k.val = k.val; omega

/-- Window 2's block at every point is its whole array. -/
theorem iblk6_2_apply (c : Dev nD) (t : Fin cfg6.N) (p : Fin 1) (k : Fin 128) :
    iblk6 V c 2 t (ix2 p k) = (V c main_v172 : S1x128.Idx → EReal) (ix2 p k) := by
  obtain ⟨e00, e01, e10, e11, e20, e21, e30, e31, e40, e41, e50, e51, e60, e61, e70, e71⟩ := idx6 t
  unfold iblk6
  rw [View.read_apply]
  show V c main_v172 _ = V c main_v172 _
  congr 1
  funext a
  apply Fin.ext
  match a with
  | ⟨0, _⟩ => show win6_2.index t (0 : Fin 2) * 1 + 1 * p.val = p.val; omega
  | ⟨1, _⟩ => show win6_2.index t (1 : Fin 2) * 128 + 1 * k.val = k.val; omega

/-- Window 3's block at point t is rows 2000·t … 2000·t + 1999 of its array. -/
theorem iblk6_3_apply (c : Dev nD) (t : Fin cfg6.N) (r : Fin 2000) (k : Fin 128) :
    iblk6 V c 3 t (ix2 r k) = (V c main_v85 : S150000x128.Idx → EReal) (ix2 (⟨t.val * 2000 + r.val, Sage.Alg.block_row_lt (rows6_eq) (lt_of_lt_of_eq t.isLt N_6) r.isLt⟩ : Fin 150000) k) := by
  obtain ⟨e00, e01, e10, e11, e20, e21, e30, e31, e40, e41, e50, e51, e60, e61, e70, e71⟩ := idx6 t
  unfold iblk6
  rw [View.read_apply]
  show V c main_v85 _ = V c main_v85 _
  congr 1
  funext a
  apply Fin.ext
  match a with
  | ⟨0, _⟩ => show win6_3.index t (0 : Fin 2) * 2000 + 1 * r.val = t.val * 2000 + r.val; omega
  | ⟨1, _⟩ => show win6_3.index t (1 : Fin 2) * 128 + 1 * k.val = k.val; omega

/-- Window 4's block at every point is its whole array. -/
theorem iblk6_4_apply (c : Dev nD) (t : Fin cfg6.N) (p : Fin 128) (k : Fin 128) :
    iblk6 V c 4 t (ix2 p k) = (V c main_v174 : S128x128.Idx → EReal) (ix2 p k) := by
  obtain ⟨e00, e01, e10, e11, e20, e21, e30, e31, e40, e41, e50, e51, e60, e61, e70, e71⟩ := idx6 t
  unfold iblk6
  rw [View.read_apply]
  show V c main_v174 _ = V c main_v174 _
  congr 1
  funext a
  apply Fin.ext
  match a with
  | ⟨0, _⟩ => show win6_4.index t (0 : Fin 2) * 128 + 1 * p.val = p.val; omega
  | ⟨1, _⟩ => show win6_4.index t (1 : Fin 2) * 128 + 1 * k.val = k.val; omega

/-- The dense step of the blocks at point t, at (r, q), is the layer at row 2000·t + r. -/
theorem blk6_apply (c : Dev nD) (t : Fin cfg6.N) (r : Fin 2000) (q : Fin 128) :
    k6_pay2 (iblk6 V c 0 t) (iblk6 V c 1 t) (iblk6 V c 2 t) (iblk6 V c 3 t) (iblk6 V c 4 t) (ix2 r q) = H6 V c (ix2 (⟨t.val * 2000 + r.val, Sage.Alg.block_row_lt (rows6_eq) (lt_of_lt_of_eq t.isLt N_6) r.isLt⟩ : Fin 150000) q) := by
  refine (k6_pay2_apply (iblk6 V c 0 t) (iblk6 V c 1 t) (iblk6 V c 2 t) (iblk6 V c 3 t) (iblk6 V c 4 t) r q).trans ?_
  simp only [iblk6_0_apply V c t, iblk6_1_apply V c t, iblk6_2_apply V c t, iblk6_3_apply V c t, iblk6_4_apply V c t]
  rfl

/-! ## What the three outputs hold after each point -/

theorem outs6_5 (c : Dev nD) (t : Fin cfg6.N) : (outsAt6 V c t.val t.isLt).1 = k6_pay2 (iblk6 V c 0 t) (iblk6 V c 1 t) (iblk6 V c 2 t) (iblk6 V c 3 t) (iblk6 V c 4 t) := by
  by_cases h : t.val % 75 = 0
  · rw [outsAt6_A V c t h]; dsimp only
    exact out6_A_5_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h) (iblk6 V c 0 t) (iblk6 V c 1 t) (iblk6 V c 2 t) (iblk6 V c 3 t) (iblk6 V c 4 t)
  · rw [outsAt6_B V c t h]; dsimp only
    exact out6_B_5_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h' => h ((hcond6_0 t).mp h')) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2

theorem outs6_6_A (c : Dev nD) (t : Fin cfg6.N) (h : t.val % 75 = 0) :
    (outsAt6 V c t.val t.isLt).2.1 = k6_pay5 (iblk6 V c 0 t) (iblk6 V c 1 t) (iblk6 V c 2 t) (iblk6 V c 3 t) (iblk6 V c 4 t) (k6_pay3 (F := Ideal)) := by
  rw [outsAt6_A V c t h]; dsimp only
  exact out6_A_6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h) (iblk6 V c 0 t) (iblk6 V c 1 t) (iblk6 V c 2 t) (iblk6 V c 3 t) (iblk6 V c 4 t)

theorem outs6_6_B (c : Dev nD) (t : Fin cfg6.N) (h : ¬t.val % 75 = 0) :
    (outsAt6 V c t.val t.isLt).2.1 = k6_pay5 (iblk6 V c 0 t) (iblk6 V c 1 t) (iblk6 V c 2 t) (iblk6 V c 3 t) (iblk6 V c 4 t) (outsAt6 V c (t.val - 1) (Nat.lt_of_le_of_lt (Nat.sub_le _ _) t.isLt)).2.1 := by
  rw [outsAt6_B V c t h]; dsimp only
  exact out6_B_6_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h' => h ((hcond6_0 t).mp h')) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2

theorem outs6_7_A (c : Dev nD) (t : Fin cfg6.N) (h : t.val % 75 = 0) :
    (outsAt6 V c t.val t.isLt).2.2 = k6_pay1 (k6_pay2 (iblk6 V c 0 t) (iblk6 V c 1 t) (iblk6 V c 2 t) (iblk6 V c 3 t) (iblk6 V c 4 t)) (k6_pay4 (F := Ideal)) := by
  rw [outsAt6_A V c t h]; dsimp only
  exact out6_A_7_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h) (iblk6 V c 0 t) (iblk6 V c 1 t) (iblk6 V c 2 t) (iblk6 V c 3 t) (iblk6 V c 4 t)

theorem outs6_7_B (c : Dev nD) (t : Fin cfg6.N) (h : ¬t.val % 75 = 0) :
    (outsAt6 V c t.val t.isLt).2.2 = k6_pay1 (k6_pay2 (iblk6 V c 0 t) (iblk6 V c 1 t) (iblk6 V c 2 t) (iblk6 V c 3 t) (iblk6 V c 4 t)) (outsAt6 V c (t.val - 1) (Nat.lt_of_le_of_lt (Nat.sub_le _ _) t.isLt)).2.2 := by
  rw [outsAt6_B V c t h]; dsimp only
  exact out6_B_7_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h' => h ((hcond6_0 t).mp h')) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2

/-! ## The running totals at a column -/

theorem stat6_6_A (c : Dev nD) (q : Fin 128) (t : Fin cfg6.N) (h : t.val % 75 = 0) :
    (outsAt6 V c t.val t.isLt).2.1 (ix2 (0 : Fin 1) q) = ∑ r : Fin 2000, H6 V c (ix2 (⟨t.val * 2000 + r.val, Sage.Alg.block_row_lt (rows6_eq) (lt_of_lt_of_eq t.isLt N_6) r.isLt⟩ : Fin 150000) q) := by
  refine (congrFun (outs6_6_A V c t h) (ix2 (0 : Fin 1) q)).trans ?_
  refine (k6_pay5_apply (iblk6 V c 0 t) (iblk6 V c 1 t) (iblk6 V c 2 t) (iblk6 V c 3 t) (iblk6 V c 4 t) (k6_pay3 (F := Ideal)) q).trans ?_
  rw [k6_pay3_apply, Ideal.ofBits_zero_f32, zero_add]
  exact Finset.sum_congr rfl fun r _ => blk6_apply V c t r q

theorem stat6_6_B (c : Dev nD) (q : Fin 128) (t : Fin cfg6.N) (h : ¬t.val % 75 = 0) :
    (outsAt6 V c t.val t.isLt).2.1 (ix2 (0 : Fin 1) q)
      = (outsAt6 V c (t.val - 1) (Nat.lt_of_le_of_lt (Nat.sub_le _ _) t.isLt)).2.1 (ix2 (0 : Fin 1) q) + ∑ r : Fin 2000, H6 V c (ix2 (⟨t.val * 2000 + r.val, Sage.Alg.block_row_lt (rows6_eq) (lt_of_lt_of_eq t.isLt N_6) r.isLt⟩ : Fin 150000) q) := by
  refine (congrFun (outs6_6_B V c t h) (ix2 (0 : Fin 1) q)).trans ?_
  refine (k6_pay5_apply (iblk6 V c 0 t) (iblk6 V c 1 t) (iblk6 V c 2 t) (iblk6 V c 3 t) (iblk6 V c 4 t) (outsAt6 V c (t.val - 1) (Nat.lt_of_le_of_lt (Nat.sub_le _ _) t.isLt)).2.1 q).trans ?_
  exact congrArg _ (Finset.sum_congr rfl fun r _ => blk6_apply V c t r q)

theorem stat6_7_A (c : Dev nD) (q : Fin 128) (t : Fin cfg6.N) (h : t.val % 75 = 0) :
    (outsAt6 V c t.val t.isLt).2.2 (ix2 (0 : Fin 1) q)
      = ∑ r : Fin 2000, H6 V c (ix2 (⟨t.val * 2000 + r.val, Sage.Alg.block_row_lt (rows6_eq) (lt_of_lt_of_eq t.isLt N_6) r.isLt⟩ : Fin 150000) q) * H6 V c (ix2 (⟨t.val * 2000 + r.val, Sage.Alg.block_row_lt (rows6_eq) (lt_of_lt_of_eq t.isLt N_6) r.isLt⟩ : Fin 150000) q) := by
  refine (congrFun (outs6_7_A V c t h) (ix2 (0 : Fin 1) q)).trans ?_
  refine (k6_pay1_apply (k6_pay2 (iblk6 V c 0 t) (iblk6 V c 1 t) (iblk6 V c 2 t) (iblk6 V c 3 t) (iblk6 V c 4 t)) (k6_pay4 (F := Ideal)) q).trans ?_
  rw [k6_pay4_apply, Ideal.ofBits_zero_f32, zero_add]
  exact Finset.sum_congr rfl fun r _ => by rw [blk6_apply V c t r q]

theorem stat6_7_B (c : Dev nD) (q : Fin 128) (t : Fin cfg6.N) (h : ¬t.val % 75 = 0) :
    (outsAt6 V c t.val t.isLt).2.2 (ix2 (0 : Fin 1) q)
      = (outsAt6 V c (t.val - 1) (Nat.lt_of_le_of_lt (Nat.sub_le _ _) t.isLt)).2.2 (ix2 (0 : Fin 1) q)
        + ∑ r : Fin 2000, H6 V c (ix2 (⟨t.val * 2000 + r.val, Sage.Alg.block_row_lt (rows6_eq) (lt_of_lt_of_eq t.isLt N_6) r.isLt⟩ : Fin 150000) q) * H6 V c (ix2 (⟨t.val * 2000 + r.val, Sage.Alg.block_row_lt (rows6_eq) (lt_of_lt_of_eq t.isLt N_6) r.isLt⟩ : Fin 150000) q) := by
  refine (congrFun (outs6_7_B V c t h) (ix2 (0 : Fin 1) q)).trans ?_
  refine (k6_pay1_apply (k6_pay2 (iblk6 V c 0 t) (iblk6 V c 1 t) (iblk6 V c 2 t) (iblk6 V c 3 t) (iblk6 V c 4 t)) (outsAt6 V c (t.val - 1) (Nat.lt_of_le_of_lt (Nat.sub_le _ _) t.isLt)).2.2 q).trans ?_
  exact congrArg _ (Finset.sum_congr rfl fun r _ => by rw [blk6_apply V c t r q])

/-- After the last point the first statistics row holds the column sums of the layer. -/
theorem stat6_6_last (c : Dev nD) (q : Fin 128) (n : ℕ) (hn : n < cfg6.N) (e : n + 1 = 75) :
    (outsAt6 V c n hn).2.1 (ix2 (0 : Fin 1) q) = ∑ p : Fin 150000, H6 V c (ix2 p q) := by
  have key := Sage.Alg.block_total_last 75 2000 rows6_eq (fun p : Fin 150000 => H6 V c (ix2 p q))
    (fun n hn => (outsAt6 V c n (lt_of_lt_of_eq hn N_6.symm)).2.1 (ix2 (0 : Fin 1) q))
    (fun n h1 e0 => stat6_6_A V c q ⟨n, lt_of_lt_of_eq h1 N_6.symm⟩ (by show n % 75 = 0; omega))
    (fun n h1 hne => stat6_6_B V c q ⟨n, lt_of_lt_of_eq h1 N_6.symm⟩ (by show ¬n % 75 = 0; omega))
    n e (lt_of_lt_of_eq hn N_6)
  exact key

/-- After the last point the second statistics row holds the column sums of the layer's squares. -/
theorem stat6_7_last (c : Dev nD) (q : Fin 128) (n : ℕ) (hn : n < cfg6.N) (e : n + 1 = 75) :
    (outsAt6 V c n hn).2.2 (ix2 (0 : Fin 1) q) = ∑ p : Fin 150000, H6 V c (ix2 p q) * H6 V c (ix2 p q) := by
  have key := Sage.Alg.block_total_last 75 2000 rows6_eq (fun p : Fin 150000 => H6 V c (ix2 p q) * H6 V c (ix2 p q))
    (fun n hn => (outsAt6 V c n (lt_of_lt_of_eq hn N_6.symm)).2.2 (ix2 (0 : Fin 1) q))
    (fun n h1 e0 => stat6_7_A V c q ⟨n, lt_of_lt_of_eq h1 N_6.symm⟩ (by show n % 75 = 0; omega))
    (fun n h1 hne => stat6_7_B V c q ⟨n, lt_of_lt_of_eq h1 N_6.symm⟩ (by show ¬n % 75 = 0; omega))
    n e (lt_of_lt_of_eq hn N_6)
  exact key

/-! ## The arrays after the region -/

/-- An index of the result array is in point t's block iff each coordinate is in the block's range. -/
theorem mem_blk6_5 (t : Fin cfg6.N) (i : S150000x128.Idx) :
    i ∈ ((cfg6.win 5).blk t).view.set ↔ ∀ a : Fin 2, win6_5.index t a * S2000x128.size a ≤ (i a).val ∧ (i a).val < win6_5.index t a * S2000x128.size a + S2000x128.size a := by
  show i ∈ ((View.whole main_v175_0).slice (win6_5.rect t)).set ↔ _
  rw [View.set_slice_whole, Rect.mem_set_unit]
  exact Iff.rfl

/-- What point t writes back to the result array is block t of the layer. -/
theorem flushed6_5 (c : Dev nD) (t : Fin cfg6.N) :
    (dat6 V c).flushed 5 t = ((cfg6.win 5).blk t).view.read (Elt Ideal) (H6 V c) := by
  show (cfg6.win 5).cut (grid6.coords t) ((dat6 V c).after 5 t) = _
  rw [after6_5, outs6_5 V c t]
  obtain ⟨e00, e01, e10, e11, e20, e21, e30, e31, e40, e41, e50, e51, e60, e61, e70, e71⟩ := idx6 t
  funext j
  obtain ⟨r, q, rfl⟩ : ∃ (r : Fin 2000) (q : Fin 128), j = ix2 r q := ⟨j 0, j 1, eq_ix2 (n0 := 2000) (n1 := 128) j⟩
  rw [View.read_apply]
  refine (blk6_apply V c t r q).trans ?_
  refine congrArg (H6 V c) ?_
  funext a
  apply Fin.ext
  match a with
  | ⟨0, _⟩ => show t.val * 2000 + r.val = win6_5.index t (0 : Fin 2) * 2000 + 1 * r.val; omega
  | ⟨1, _⟩ => show q.val = win6_5.index t (1 : Fin 2) * 128 + 1 * q.val; omega

/-- The result array after the region is the layer. -/
theorem arr6_5 (c : Dev nD) : (dat6 V c).arrAt 5 cfg6.N = (Cert.DenseSpec.relu (Cert.SageSpec.lin (n := 150000) (V c main_v167) (V c main_v169) (V c main_v172) (V c main_v85) (V c main_v174)) : S150000x128.Idx → EReal) :=
  (dat6 V c).arrAt_eq_of_cover 5 (H6 V c) (fun t _ => flushed6_5 V c t) fun i => by
    have hN : cfg6.N = 75 := N_6
    have hi0 : (i 0).val < 150000 := (i 0).isLt
    have hi1 : (i 1).val < 128 := (i 1).isLt
    have ht : (i 0).val / 2000 < cfg6.N := by rw [hN]; omega
    obtain ⟨e00, e01, e10, e11, e20, e21, e30, e31, e40, e41, e50, e51, e60, e61, e70, e71⟩ := idx6 ⟨(i 0).val / 2000, ht⟩
    refine ⟨⟨(i 0).val / 2000, ht⟩, flush6_5 _, ?_⟩
    rw [mem_blk6_5]
    intro a
    match a with
    | ⟨0, _⟩ =>
      show win6_5.index ⟨(i 0).val / 2000, ht⟩ (0 : Fin 2) * 2000 ≤ (i 0).val ∧ (i 0).val < win6_5.index ⟨(i 0).val / 2000, ht⟩ (0 : Fin 2) * 2000 + 2000
      have e50' : win6_5.index ⟨(i 0).val / 2000, ht⟩ (0 : Fin 2) = (i 0).val / 2000 := e50
      omega
    | ⟨1, _⟩ =>
      show win6_5.index ⟨(i 0).val / 2000, ht⟩ (1 : Fin 2) * 128 ≤ (i 1).val ∧ (i 1).val < win6_5.index ⟨(i 0).val / 2000, ht⟩ (1 : Fin 2) * 128 + 128
      omega

/-- An index of statistics row 1 is in point t's block iff each coordinate is in the block's range. -/
theorem mem_blk6_6 (t : Fin cfg6.N) (i : S1x128.Idx) :
    i ∈ ((cfg6.win 6).blk t).view.set ↔ ∀ a : Fin 2, win6_6.index t a * S1x128.size a ≤ (i a).val ∧ (i a).val < win6_6.index t a * S1x128.size a + S1x128.size a := by
  show i ∈ ((View.whole main_v175_1).slice (win6_6.rect t)).set ↔ _
  rw [View.set_slice_whole, Rect.mem_set_unit]
  exact Iff.rfl

/-- The one point that writes the row back is the last; what it writes is any row that the running total equals
    entry by entry. -/
theorem flushed6_6_of (c : Dev nD) (t : Fin cfg6.N) (G : S1x128.Idx → EReal)
    (hG : ∀ q : Fin 128, (outsAt6 V c t.val t.isLt).2.1 (ix2 (0 : Fin 1) q) = G (ix2 (0 : Fin 1) q)) :
    (dat6 V c).flushed 6 t = ((cfg6.win 6).blk t).view.read (Elt Ideal) G := by
  obtain ⟨e00, e01, e10, e11, e20, e21, e30, e31, e40, e41, e50, e51, e60, e61, e70, e71⟩ := idx6 t
  show (cfg6.win 6).cut (grid6.coords t) ((dat6 V c).after 6 t) = _
  rw [after6_6]
  funext j
  obtain ⟨u, q, rfl⟩ : ∃ (u : Fin 1) (q : Fin 128), j = ix2 u q := ⟨j 0, j 1, eq_ix2 (n0 := 1) (n1 := 128) j⟩
  obtain rfl : u = 0 := Fin.eq_zero u
  have hemb : ((cfg6.win 6).blk t).view.emb (ix2 (0 : Fin 1) q) = ix2 (0 : Fin 1) q := by
    funext a
    apply Fin.ext
    match a with
    | ⟨0, _⟩ => show win6_6.index t (0 : Fin 2) * 1 + 1 * 0 = 0; omega
    | ⟨1, _⟩ => show win6_6.index t (1 : Fin 2) * 128 + 1 * q.val = q.val; omega
  show (outsAt6 V c t.val t.isLt).2.1 (ix2 (0 : Fin 1) q) = G (((cfg6.win 6).blk t).view.emb (ix2 (0 : Fin 1) q))
  rw [hemb]
  exact hG q

/-- It writes the whole-array column sums. -/
theorem flushed6_6 (c : Dev nD) (t : Fin cfg6.N) (hf : (cfg6.win 6).flush t = true) :
    (dat6 V c).flushed 6 t = ((cfg6.win 6).blk t).view.read (Elt Ideal) (Cert.SageSpec.colSum (H6 V c)) := by
  have hN : cfg6.N = 75 := N_6
  have hlast : t.val + 1 = 75 := by
    have h1 := (flush6_6 t).mp hf
    have h2 : t.val < 75 := lt_of_lt_of_eq t.isLt hN
    omega
  exact flushed6_6_of V c t (Cert.SageSpec.colSum (H6 V c)) fun q =>
    (stat6_6_last V c q t.val t.isLt hlast).trans (Cert.SageSpec.colSum_ix2 (H6 V c) q).symm

/-- Statistics row 1 after the region: the column sums of the layer. -/
theorem arr6_6 (c : Dev nD) : (dat6 V c).arrAt 6 cfg6.N = Cert.SageSpec.colSum (Cert.DenseSpec.relu (Cert.SageSpec.lin (n := 150000) (V c main_v167) (V c main_v169) (V c main_v172) (V c main_v85) (V c main_v174)) : S150000x128.Idx → EReal) :=
  (dat6 V c).arrAt_eq_of_cover 6 (Cert.SageSpec.colSum (H6 V c)) (flushed6_6 V c) fun i => by
    have hN : cfg6.N = 75 := N_6
    have hi0 : (i 0).val < 1 := (i 0).isLt
    have hi1 : (i 1).val < 128 := (i 1).isLt
    have ht : 74 < cfg6.N := by rw [hN]; omega
    obtain ⟨e00, e01, e10, e11, e20, e21, e30, e31, e40, e41, e50, e51, e60, e61, e70, e71⟩ := idx6 ⟨74, ht⟩
    refine ⟨⟨74, ht⟩, (flush6_6 _).mpr rfl, ?_⟩
    rw [mem_blk6_6]
    intro a
    match a with
    | ⟨0, _⟩ =>
      show win6_6.index ⟨74, ht⟩ (0 : Fin 2) * 1 ≤ (i 0).val ∧ (i 0).val < win6_6.index ⟨74, ht⟩ (0 : Fin 2) * 1 + 1
      omega
    | ⟨1, _⟩ =>
      show win6_6.index ⟨74, ht⟩ (1 : Fin 2) * 128 ≤ (i 1).val ∧ (i 1).val < win6_6.index ⟨74, ht⟩ (1 : Fin 2) * 128 + 128
      omega

/-- An index of statistics row 2 is in point t's block iff each coordinate is in the block's range. -/
theorem mem_blk6_7 (t : Fin cfg6.N) (i : S1x128.Idx) :
    i ∈ ((cfg6.win 7).blk t).view.set ↔ ∀ a : Fin 2, win6_7.index t a * S1x128.size a ≤ (i a).val ∧ (i a).val < win6_7.index t a * S1x128.size a + S1x128.size a := by
  show i ∈ ((View.whole main_v175_2).slice (win6_7.rect t)).set ↔ _
  rw [View.set_slice_whole, Rect.mem_set_unit]
  exact Iff.rfl

/-- The one point that writes the row back is the last; what it writes is any row that the running total equals
    entry by entry. -/
theorem flushed6_7_of (c : Dev nD) (t : Fin cfg6.N) (G : S1x128.Idx → EReal)
    (hG : ∀ q : Fin 128, (outsAt6 V c t.val t.isLt).2.2 (ix2 (0 : Fin 1) q) = G (ix2 (0 : Fin 1) q)) :
    (dat6 V c).flushed 7 t = ((cfg6.win 7).blk t).view.read (Elt Ideal) G := by
  obtain ⟨e00, e01, e10, e11, e20, e21, e30, e31, e40, e41, e50, e51, e60, e61, e70, e71⟩ := idx6 t
  show (cfg6.win 7).cut (grid6.coords t) ((dat6 V c).after 7 t) = _
  rw [after6_7]
  funext j
  obtain ⟨u, q, rfl⟩ : ∃ (u : Fin 1) (q : Fin 128), j = ix2 u q := ⟨j 0, j 1, eq_ix2 (n0 := 1) (n1 := 128) j⟩
  obtain rfl : u = 0 := Fin.eq_zero u
  have hemb : ((cfg6.win 7).blk t).view.emb (ix2 (0 : Fin 1) q) = ix2 (0 : Fin 1) q := by
    funext a
    apply Fin.ext
    match a with
    | ⟨0, _⟩ => show win6_7.index t (0 : Fin 2) * 1 + 1 * 0 = 0; omega
    | ⟨1, _⟩ => show win6_7.index t (1 : Fin 2) * 128 + 1 * q.val = q.val; omega
  show (outsAt6 V c t.val t.isLt).2.2 (ix2 (0 : Fin 1) q) = G (((cfg6.win 7).blk t).view.emb (ix2 (0 : Fin 1) q))
  rw [hemb]
  exact hG q

/-- It writes the whole-array column sums of squares. -/
theorem flushed6_7 (c : Dev nD) (t : Fin cfg6.N) (hf : (cfg6.win 7).flush t = true) :
    (dat6 V c).flushed 7 t = ((cfg6.win 7).blk t).view.read (Elt Ideal) (Cert.SageSpec.colSumSq (H6 V c)) := by
  have hN : cfg6.N = 75 := N_6
  have hlast : t.val + 1 = 75 := by
    have h1 := (flush6_7 t).mp hf
    have h2 : t.val < 75 := lt_of_lt_of_eq t.isLt hN
    omega
  exact flushed6_7_of V c t (Cert.SageSpec.colSumSq (H6 V c)) fun q =>
    (stat6_7_last V c q t.val t.isLt hlast).trans (Cert.SageSpec.colSumSq_ix2 (H6 V c) q).symm

/-- Statistics row 2 after the region: the column sums of squares of the layer. -/
theorem arr6_7 (c : Dev nD) : (dat6 V c).arrAt 7 cfg6.N = Cert.SageSpec.colSumSq (Cert.DenseSpec.relu (Cert.SageSpec.lin (n := 150000) (V c main_v167) (V c main_v169) (V c main_v172) (V c main_v85) (V c main_v174)) : S150000x128.Idx → EReal) :=
  (dat6 V c).arrAt_eq_of_cover 7 (Cert.SageSpec.colSumSq (H6 V c)) (flushed6_7 V c) fun i => by
    have hN : cfg6.N = 75 := N_6
    have hi0 : (i 0).val < 1 := (i 0).isLt
    have hi1 : (i 1).val < 128 := (i 1).isLt
    have ht : 74 < cfg6.N := by rw [hN]; omega
    obtain ⟨e00, e01, e10, e11, e20, e21, e30, e31, e40, e41, e50, e51, e60, e61, e70, e71⟩ := idx6 ⟨74, ht⟩
    refine ⟨⟨74, ht⟩, (flush6_7 _).mpr rfl, ?_⟩
    rw [mem_blk6_7]
    intro a
    match a with
    | ⟨0, _⟩ =>
      show win6_7.index ⟨74, ht⟩ (0 : Fin 2) * 1 ≤ (i 0).val ∧ (i 0).val < win6_7.index ⟨74, ht⟩ (0 : Fin 2) * 1 + 1
      omega
    | ⟨1, _⟩ =>
      show win6_7.index ⟨74, ht⟩ (1 : Fin 2) * 128 ≤ (i 1).val ∧ (i 1).val < win6_7.index ⟨74, ht⟩ (1 : Fin 2) * 128 + 128
      omega

end Cert.KernelIdeal.RegR

end
-- ==== Proof.KReg6.lean ====
/-
  Region 6 of the idealized kernel program, read against the reference's stages: the region's host-computed operands
  are the same host operations of the same values as the reference's stages; the region's output arrays are the
  whole-array functions of its operands that the reference's corresponding stages are.
-/
import proofs.«146104_j52931176955955_1_alg».proof.Proof.KReg5
import proofs.«146104_j52931176955955_1_alg».proof.Proof.RegR6

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v72_at12 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W12 m ρ c (Proc.devRef .tc main_v72) = (Cert.ReferenceIdeal.Read.val_main_v97 (F := Ideal) (m ((c : Thread nD τ).loc main_arg0)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12))) :=
  ((W12_arr m ρ c 3).trans (((dat5 (V11 m ρ) c).arrAt_in 3 rfl _).trans (A_eq5 (V11 m ρ) c 3))).trans (v72_at11 m ρ c h0 h1 h8 h9 h10 h11 h12)

set_option backward.isDefEq.respectTransparency.types false in
theorem v167_at13 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W13 m ρ c (Proc.devRef .tc main_v167) = (Cert.ReferenceIdeal.Read.val_main_v224 (F := Ideal) (m ((c : Thread nD τ).loc main_arg0)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps6 (W12 m ρ c) (Proc.devRef .tc main_v167) = _
  after_results_simp
  rw [arg4_at12 m ρ c, v72_at12 m ρ c h0 h1 h8 h9 h10 h11 h12]
  rfl

set_option backward.isDefEq.respectTransparency.types false in
theorem v169_at13 : W13 m ρ c (Proc.devRef .tc main_v169) = (Cert.ReferenceIdeal.Read.val_main_v198 (F := Ideal) (m ((c : Thread nD τ).loc main_arg8))) := by
  show StableHlo.after hostOps6 (W12 m ρ c) (Proc.devRef .tc main_v169) = _
  after_results_simp
  rw [arg8_at12 m ρ c]
  rfl

set_option backward.isDefEq.respectTransparency.types false in
theorem v172_at13 : W13 m ρ c (Proc.devRef .tc main_v172) = (Cert.ReferenceIdeal.Read.val_main_v226 (F := Ideal) (m ((c : Thread nD τ).loc main_arg9))) := by
  show StableHlo.after hostOps6 (W12 m ρ c) (Proc.devRef .tc main_v172) = _
  after_results_simp
  rw [arg9_at12 m ρ c]
  rfl

set_option backward.isDefEq.respectTransparency.types false in
theorem v174_at13 : W13 m ρ c (Proc.devRef .tc main_v174) = (Cert.ReferenceIdeal.Read.val_main_v202 (F := Ideal) (m ((c : Thread nD τ).loc main_arg10))) := by
  show StableHlo.after hostOps6 (W12 m ρ c) (Proc.devRef .tc main_v174) = _
  after_results_simp
  rw [arg10_at12 m ρ c]
  rfl

theorem v85_at13 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W13 m ρ c (Proc.devRef .tc main_v85) = (Cert.ReferenceIdeal.Read.val_main_v127 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH6 (W12 m ρ c) main_v85 (by decide)).trans ((W12_of_ne m ρ c main_v85 (by decide)).trans ((keepH5 (W10 m ρ c) main_v85 (by decide)).trans ((W10_of_ne m ρ c main_v85 (by decide)).trans ((keepH4 (W8 m ρ c) main_v85 (by decide)).trans (v85_at8 m ρ c h0 h1 h8 h9 h10 h11 h12)))))

set_option backward.isDefEq.respectTransparency.types false in
theorem v175_0_at14 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W14 m ρ c (Proc.devRef .tc main_v175_0) = (Cert.ReferenceIdeal.Read.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  (W14_arr m ρ c 5).trans ((Cert.KernelIdeal.RegR.arr6_5 (V13 m ρ) c).trans (by
    rw [show V13 m ρ c main_v167 = _ from v167_at13 m ρ c h0 h1 h8 h9 h10 h11 h12, show V13 m ρ c main_v169 = _ from v169_at13 m ρ c, show V13 m ρ c main_v172 = _ from v172_at13 m ρ c, show V13 m ρ c main_v85 = _ from v85_at13 m ρ c h0 h1 h8 h9 h10 h11 h12, show V13 m ρ c main_v174 = _ from v174_at13 m ρ c]
    exact ((Cert.ReferenceIdeal.RefNet.v293_eq (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))).trans (congrArg Cert.DenseSpec.relu (Cert.ReferenceIdeal.RefNet.v230_eq (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))))).symm))

set_option backward.isDefEq.respectTransparency.types false in
theorem v175_1_at14 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W14 m ρ c (Proc.devRef .tc main_v175_1) = (Cert.SageSpec.colSum (Cert.ReferenceIdeal.Read.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)))) :=
  (W14_arr m ρ c 6).trans ((Cert.KernelIdeal.RegR.arr6_6 (V13 m ρ) c).trans (by
    rw [show V13 m ρ c main_v167 = _ from v167_at13 m ρ c h0 h1 h8 h9 h10 h11 h12, show V13 m ρ c main_v169 = _ from v169_at13 m ρ c, show V13 m ρ c main_v172 = _ from v172_at13 m ρ c, show V13 m ρ c main_v85 = _ from v85_at13 m ρ c h0 h1 h8 h9 h10 h11 h12, show V13 m ρ c main_v174 = _ from v174_at13 m ρ c]
    exact congrArg Cert.SageSpec.colSum (((Cert.ReferenceIdeal.RefNet.v293_eq (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))).trans (congrArg Cert.DenseSpec.relu (Cert.ReferenceIdeal.RefNet.v230_eq (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))))).symm)))

set_option backward.isDefEq.respectTransparency.types false in
theorem v175_2_at14 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W14 m ρ c (Proc.devRef .tc main_v175_2) = (Cert.SageSpec.colSumSq (Cert.ReferenceIdeal.Read.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)))) :=
  (W14_arr m ρ c 7).trans ((Cert.KernelIdeal.RegR.arr6_7 (V13 m ρ) c).trans (by
    rw [show V13 m ρ c main_v167 = _ from v167_at13 m ρ c h0 h1 h8 h9 h10 h11 h12, show V13 m ρ c main_v169 = _ from v169_at13 m ρ c, show V13 m ρ c main_v172 = _ from v172_at13 m ρ c, show V13 m ρ c main_v85 = _ from v85_at13 m ρ c h0 h1 h8 h9 h10 h11 h12, show V13 m ρ c main_v174 = _ from v174_at13 m ρ c]
    exact congrArg Cert.SageSpec.colSumSq (((Cert.ReferenceIdeal.RefNet.v293_eq (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))).trans (congrArg Cert.DenseSpec.relu (Cert.ReferenceIdeal.RefNet.v230_eq (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))))).symm)))

end Cert.KernelIdeal.KNet

end
-- ==== Proof.RegRPayLin0.lean ====
/-
  The arithmetic of one grid point of a dense layer without own features, read entry by entry on the extended reals.

  The body of such a region computes, from a block X of 2000 rows of neighbour means, a 128 × 128 weight matrix W
  and a bias row b, the block  P = max (X · W + b, 0)  (entry (r, q): the sum over k of X (r, k) * W (k, q), plus
  b (0, q), clamped at zero), and two updated statistics rows: the row found plus the column sums of P, and the
  row found plus the column sums of the squares of P. On the extended reals a change of float format is the
  identity, the matrix unit accumulating into zero is the plain contraction, and a reduction along the rows from
  the zero accumulator is the plain sum of the column; the rows the first grid point stores are rows of zeros.
-/
import proofs.«146104_j52931176955955_1_alg».proof.Proof.Gen.KernelIdeal.Skeleton
import proofs.«146104_j52931176955955_1_alg».proof.Proof.LibDotRecord
import proofs.«146104_j52931176955955_1_alg».proof.Proof.LibColumnSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegR

open Idealize.ShloMosaic Idealize.ShloMosaic.ValueIdx Cert.KernelIdeal Cert.KernelIdeal.Gen

/-- The dense block with its features clamped at zero, at row r and feature q: the row of means times the
    weight matrix, plus the bias, clamped. (A change of float format is the identity on the extended reals.) -/
theorem pay7_1_apply (x0 : FVec Ideal S2000x128 .f32) (w : FVec Ideal S128x128 .f32) (b : FVec Ideal S1x128 .f32)
    (r : Fin 2000) (q : Fin 128) :
    k7_pay1 (F := Ideal) x0 w b (ix2 r q)
      = max ((∑ k : Fin 128, x0 (ix2 r k) * w (ix2 k q)) + b (ix2 (0 : Fin 1) q)) (Ideal.ofBits .f32 0x00000000#32) := by
  unfold k7_pay1
  simp only [shapeCast_self]
  exact congrArg₂ (fun a c => max (a + c) (Ideal.ofBits .f32 0x00000000#32))
    (DotRecord.matmul_zero_apply dot_S2000x128_S128x128_S2000x128_1_0_0_1_n_n rfl rfl rfl rfl rfl rfl
      (truncf .bf16 x0 bitsLt_bf16_f32) (truncf .bf16 w bitsLt_bf16_f32) none r q)
    (DotRecord.broadcastTo_1b_ab_apply b broadcasts_S1x128_S2000x128 r q)

/-- The row of zeros the first grid point stores into the column-sum row. -/
theorem pay7_2_apply (i : S1x128.Idx) : k7_pay2 (F := Ideal) i = Ideal.ofBits .f32 0x00000000#32 := rfl

/-- The row of zeros the first grid point stores into the row of column sums of squares. -/
theorem pay7_3_apply (i : S1x128.Idx) : k7_pay3 (F := Ideal) i = Ideal.ofBits .f32 0x00000000#32 := rfl

/-- The updated column-sum row at feature q: the row found plus the sum of the block's column q. -/
theorem pay7_4_apply (x0 : FVec Ideal S2000x128 .f32) (w : FVec Ideal S128x128 .f32) (b : FVec Ideal S1x128 .f32)
    (xo : FVec Ideal S1x128 .f32) (q : Fin 128) :
    k7_pay4 (F := Ideal) x0 w b xo (ix2 (0 : Fin 1) q)
      = xo (ix2 (0 : Fin 1) q) + ∑ r : Fin 2000, k7_pay1 (F := Ideal) x0 w b (ix2 r q) := by
  unfold k7_pay4
  simp only [shapeCast_self]
  refine congrArg (fun z => xo (ix2 (0 : Fin 1) q) + z) ?_
  refine (shapeCast_a_1a_apply _ shapeCasts_S128_S1x128 (0 : Fin 1) q).trans ?_
  exact ColumnSum.colSum_apply (k7_pay1 (F := Ideal) x0 w b) reduces_S2000x128_S128 (.inl rfl) rfl q

/-- The updated row of column sums of squares at feature q: the row found plus the sum of the squares of the
    block's column q. -/
theorem pay7_5_apply (x0 : FVec Ideal S2000x128 .f32) (w : FVec Ideal S128x128 .f32) (b : FVec Ideal S1x128 .f32)
    (xo : FVec Ideal S1x128 .f32) (q : Fin 128) :
    k7_pay5 (F := Ideal) x0 w b xo (ix2 (0 : Fin 1) q)
      = xo (ix2 (0 : Fin 1) q)
        + ∑ r : Fin 2000, k7_pay1 (F := Ideal) x0 w b (ix2 r q) * k7_pay1 (F := Ideal) x0 w b (ix2 r q) := by
  unfold k7_pay5
  simp only [shapeCast_self]
  refine congrArg (fun z => xo (ix2 (0 : Fin 1) q) + z) ?_
  refine (shapeCast_a_1a_apply _ shapeCasts_S128_S1x128 (0 : Fin 1) q).trans ?_
  exact ColumnSum.colSum_apply (mulf (k7_pay1 (F := Ideal) x0 w b) (k7_pay1 (F := Ideal) x0 w b))
    reduces_S2000x128_S128 (.inl rfl) rfl q

end Cert.KernelIdeal.RegR

end
-- ==== Proof.RegR7a.lean ====
/-
  Region 7: what one grid point leaves in its three output blocks, as the body's arithmetic of the blocks it reads.

  At every grid point the body stores the dense block computed from its input blocks. At the first point it also
  stores a row of zeros into each of the two statistics rows before updating them; at every later point it updates
  the rows it finds. So after a point the block of the result is the dense block, and each statistics row is its
  update of the row of zeros (first point) or of the row the point before left (later points). Each statement
  reads the stores the run of the body found back through the whole staging buffer: one store through the whole
  buffer leaves its value, a load of the whole buffer reads its contents, and a load after a store reads what was
  stored. Stated for any float instance.
-/
import proofs.«146104_j52931176955955_1_alg».proof.Proof.Gen.KernelIdeal.Frame
import Idealize.ShloMosaic.Lib.Pipeline.Value
import Idealize.ShloMosaic.Lib.Tactic

set_option maxRecDepth 16384

noncomputable section

namespace Cert.KernelIdeal.RegR

open Idealize.ShloMosaic Idealize.ShloMosaic.TcCoe Idealize.SL.Sem
open Cert.KernelIdeal Cert.KernelIdeal.Gen

variable {F : FTy → Type} [FloatOps F]

/-- The zero offsets of a block read or written whole. -/
theorem hz2_7 : (![0, 0] : Fin 2 → Nat) = fun _ => 0 := funext fun a => by fin_cases a <;> rfl

local notation "hz2" => hz2_7

/-- First point: the result block is the dense block of the input blocks. -/
theorem out7_A_3_eq (c : Dev nD) (i : grid7.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole)
    (hc : cond7_0 i) (x0 : Vec F S2000x128 .f32) (x1 : Vec F S128x128 .f32) (x2 : Vec F S1x128 .f32) :
    out7_A_3 c i a1 h1 a2 h2 a3 h3 a4 h4 a5 h5 a6 h6 hc x0 x1 x2 = k7_pay1 x0 x1 x2 := by
  unfold out7_A_3
  rw [View.read_writes_eq_canon _ _ _ (cover7_A_3 c i a1 h1 a2 h2 a3 h3 a4 h4 a5 h5 a6 h6 hc x0 x1 x2)]
  unfold kernelRun7_A
  dsimp only
  sl_unfold_words
  rw [View.canon_unit_zero hz2]
  simp only [View.readAt_eq_ld, h1.read_unread, h2.read_unread, h3.read_unread, View.ld_unit_zero (S := S2000x128) hz2, View.ld_unit_zero (S := S128x128) hz2, View.ld_unit_zero (S := S1x128) hz2]

/-- Later points: the result block is the dense block of the input blocks. -/
theorem out7_B_3_eq (c : Dev nD) (i : grid7.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole)
    (hc : ¬cond7_0 i) (x0 : Vec F S2000x128 .f32) (x1 : Vec F S128x128 .f32) (x2 : Vec F S1x128 .f32) (xo4 xo5 : Vec F S1x128 .f32) :
    out7_B_3 c i a1 h1 a2 h2 a3 h3 a4 h4 a5 h5 a6 h6 hc x0 x1 x2 xo4 xo5 = k7_pay1 x0 x1 x2 := by
  unfold out7_B_3
  rw [View.read_writes_eq_canon _ _ _ (cover7_B_3 c i a1 h1 a2 h2 a3 h3 a4 h4 a5 h5 a6 h6 hc x0 x1 x2 xo4 xo5)]
  unfold kernelRun7_B
  dsimp only
  sl_unfold_words
  rw [View.canon_unit_zero hz2]
  simp only [View.readAt_eq_ld, h1.read_unread, h2.read_unread, h3.read_unread, View.ld_unit_zero (S := S2000x128) hz2, View.ld_unit_zero (S := S128x128) hz2, View.ld_unit_zero (S := S1x128) hz2]

/-- First point: the column-sum row is the update of the row of zeros. -/
theorem out7_A_4_eq (c : Dev nD) (i : grid7.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole)
    (hc : cond7_0 i) (x0 : Vec F S2000x128 .f32) (x1 : Vec F S128x128 .f32) (x2 : Vec F S1x128 .f32) :
    out7_A_4 c i a1 h1 a2 h2 a3 h3 a4 h4 a5 h5 a6 h6 hc x0 x1 x2 = k7_pay4 x0 x1 x2 k7_pay2 := by
  unfold out7_A_4
  rw [View.read_writes_eq_canon _ _ _ (cover7_A_4 c i a1 h1 a2 h2 a3 h3 a4 h4 a5 h5 a6 h6 hc x0 x1 x2)]
  unfold kernelRun7_A
  dsimp only
  sl_unfold_words
  rw [View.canon_cons_unit_zero (S := S1x128) hz2, View.readCov_unit_zero (S := S1x128) _ hz2]
  simp only [View.readAt_eq_ld, h1.read_unread, h2.read_unread, h3.read_unread, View.ld_unit_zero (S := S2000x128) hz2, View.ld_unit_zero (S := S128x128) hz2, View.ld_unit_zero (S := S1x128) hz2]

/-- Later points: the column-sum row is the update of the row found. -/
theorem out7_B_4_eq (c : Dev nD) (i : grid7.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole)
    (hc : ¬cond7_0 i) (x0 : Vec F S2000x128 .f32) (x1 : Vec F S128x128 .f32) (x2 : Vec F S1x128 .f32) (xo4 xo5 : Vec F S1x128 .f32) :
    out7_B_4 c i a1 h1 a2 h2 a3 h3 a4 h4 a5 h5 a6 h6 hc x0 x1 x2 xo4 xo5 = k7_pay4 x0 x1 x2 xo4 := by
  unfold out7_B_4
  rw [View.read_writes_eq_canon _ _ _ (cover7_B_4 c i a1 h1 a2 h2 a3 h3 a4 h4 a5 h5 a6 h6 hc x0 x1 x2 xo4 xo5)]
  unfold kernelRun7_B
  dsimp only
  sl_unfold_words
  rw [View.canon_unit_zero hz2]
  simp only [View.readAt_eq_ld, h1.read_unread, h2.read_unread, h3.read_unread, h5.read_unread, View.ld_unit_zero (S := S2000x128) hz2, View.ld_unit_zero (S := S128x128) hz2, View.ld_unit_zero (S := S1x128) hz2]

/-- First point: the row of column sums of squares is the update of the row of zeros. -/
theorem out7_A_5_eq (c : Dev nD) (i : grid7.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole)
    (hc : cond7_0 i) (x0 : Vec F S2000x128 .f32) (x1 : Vec F S128x128 .f32) (x2 : Vec F S1x128 .f32) :
    out7_A_5 c i a1 h1 a2 h2 a3 h3 a4 h4 a5 h5 a6 h6 hc x0 x1 x2 = k7_pay5 x0 x1 x2 k7_pay3 := by
  unfold out7_A_5
  rw [View.read_writes_eq_canon _ _ _ (cover7_A_5 c i a1 h1 a2 h2 a3 h3 a4 h4 a5 h5 a6 h6 hc x0 x1 x2)]
  unfold kernelRun7_A
  dsimp only
  sl_unfold_words
  rw [View.canon_cons_unit_zero (S := S1x128) hz2, View.readCov_unit_zero (S := S1x128) _ hz2]
  simp only [View.readAt_eq_ld, h1.read_unread, h2.read_unread, h3.read_unread, View.ld_unit_zero (S := S2000x128) hz2, View.ld_unit_zero (S := S128x128) hz2, View.ld_unit_zero (S := S1x128) hz2]

/-- Later points: the row of column sums of squares is the update of the row found. -/
theorem out7_B_5_eq (c : Dev nD) (i : grid7.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole)
    (hc : ¬cond7_0 i) (x0 : Vec F S2000x128 .f32) (x1 : Vec F S128x128 .f32) (x2 : Vec F S1x128 .f32) (xo4 xo5 : Vec F S1x128 .f32) :
    out7_B_5 c i a1 h1 a2 h2 a3 h3 a4 h4 a5 h5 a6 h6 hc x0 x1 x2 xo4 xo5 = k7_pay5 x0 x1 x2 xo5 := by
  unfold out7_B_5
  rw [View.read_writes_eq_canon _ _ _ (cover7_B_5 c i a1 h1 a2 h2 a3 h3 a4 h4 a5 h5 a6 h6 hc x0 x1 x2 xo4 xo5)]
  unfold kernelRun7_B
  dsimp only
  sl_unfold_words
  rw [View.canon_unit_zero hz2]
  simp only [View.readAt_eq_ld, h1.read_unread, h2.read_unread, h3.read_unread, h6.read_unread, View.ld_unit_zero (S := S2000x128) hz2, View.ld_unit_zero (S := S128x128) hz2, View.ld_unit_zero (S := S1x128) hz2]

end Cert.KernelIdeal.RegR

end
-- ==== Proof.RegR7.lean ====
/-
  Region 7: the three arrays after the region, as whole-array functions of the arrays the region finds.

  The region runs over 5 grid points; point t reads rows 2000 t, …, 2000 t + 1999 of its row-tiled inputs and the
  whole of its other inputs, stores the dense block of those rows, and keeps two running statistics rows.
  * The dense block of point t is rows 2000 t, … of the whole-array function H (the payload at an entry, each
    input block read where it sits in its array); the blocks tile the 10000 rows, so the result array is H.
  * The column-sum row starts, at point 0, from a row of zeros plus the column sums of block 0, and at each later
    point adds the column sums of that point's block to what the point before left. It is written back after the
    last point only, when it holds the sum over all blocks, which is the column sum over all 10000 rows.
  * The same for the squares.
-/
import proofs.«146104_j52931176955955_1_alg».proof.Proof.Gen.KernelIdeal.Frame
import proofs.«146104_j52931176955955_1_alg».proof.Proof.SageSpec
import proofs.«146104_j52931176955955_1_alg».proof.Proof.RegRGrid
import proofs.«146104_j52931176955955_1_alg».proof.Proof.RegRPayLin0
import proofs.«146104_j52931176955955_1_alg».proof.Proof.RegR7a
import Idealize.ShloMosaic.Lib.Pipeline.Value

set_option maxRecDepth 16384

noncomputable section

namespace Cert.KernelIdeal.RegR

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The region's result rows as one function of the arrays it finds. -/
abbrev H7 : SageSpec.Mat 10000 := DenseSpec.relu (SageSpec.lin0 (V c main_v197 : S10000x128.Idx → EReal) (V c main_v199 : S128x128.Idx → EReal)
    (V c main_v202 : S1x128.Idx → EReal))

/-! ## Where the blocks sit -/

/-- The block indices, decided over the grid: a row-tiled window's block at point t is block t of its array, every
    other window's block is its whole array. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- Input window 0 is tiled by rows: its block at point t is rows 2000 t, …, 2000 t + 1999 of its array. -/
theorem iblk7_0_apply (t : Fin cfg7.N) (r : Fin 2000) (k : Fin 128) (h : 2000 * t.val + r.val < 10000) :
    (iblk7 V c 0 t : FVec Ideal S2000x128 .f32) (ix2 r k) = (V c main_v197 : S10000x128.Idx → EReal) (ix2 ⟨2000 * t.val + r.val, h⟩ k) := by
  obtain ⟨e0, e1, -⟩ := idx7 t
  unfold iblk7
  rw [View.read_apply]
  show V c main_v197 _ = V c main_v197 _
  refine congrArg (V c main_v197) (funext fun a => Fin.ext ?_)
  match a with
  | ⟨0, _⟩ => show win7_0.index t (0 : Fin 2) * 2000 + 1 * r.val = 2000 * t.val + r.val; omega
  | ⟨1, _⟩ => show win7_0.index t (1 : Fin 2) * 128 + 1 * k.val = k.val; omega

/-- Input window 1 is its whole array at every point. -/
theorem iblk7_1_apply (t : Fin cfg7.N) (p : Fin 128) (q : Fin 128) :
    (iblk7 V c 1 t : FVec Ideal S128x128 .f32) (ix2 p q) = (V c main_v199 : S128x128.Idx → EReal) (ix2 p q) := by
  obtain ⟨-, -, e0, e1, -⟩ := idx7 t
  unfold iblk7
  rw [View.read_apply]
  show V c main_v199 _ = V c main_v199 _
  refine congrArg (V c main_v199) (funext fun a => Fin.ext ?_)
  match a with
  | ⟨0, _⟩ => show win7_1.index t (0 : Fin 2) * 128 + 1 * p.val = p.val; omega
  | ⟨1, _⟩ => show win7_1.index t (1 : Fin 2) * 128 + 1 * q.val = q.val; omega

/-- Input window 2 is its whole array at every point. -/
theorem iblk7_2_apply (t : Fin cfg7.N) (p : Fin 1) (q : Fin 128) :
    (iblk7 V c 2 t : FVec Ideal S1x128 .f32) (ix2 p q) = (V c main_v202 : S1x128.Idx → EReal) (ix2 p q) := by
  obtain ⟨-, -, -, -, e0, e1, -⟩ := idx7 t
  unfold iblk7
  rw [View.read_apply]
  show V c main_v202 _ = V c main_v202 _
  refine congrArg (V c main_v202) (funext fun a => Fin.ext ?_)
  match a with
  | ⟨0, _⟩ => show win7_2.index t (0 : Fin 2) * 1 + 1 * p.val = p.val; omega
  | ⟨1, _⟩ => show win7_2.index t (1 : Fin 2) * 128 + 1 * q.val = q.val; omega

/-- The dense block of point t, at row r and feature q, is H at row 2000 t + r. -/
theorem blk7 (t : Fin cfg7.N) (r : Fin 2000) (q : Fin 128) (h : 2000 * t.val + r.val < 10000) :
    k7_pay1 (F := Ideal) (iblk7 V c 0 t) (iblk7 V c 1 t) (iblk7 V c 2 t) (ix2 r q) = H7 V c (ix2 ⟨2000 * t.val + r.val, h⟩ q) :=
  (pay7_1_apply (iblk7 V c 0 t) (iblk7 V c 1 t) (iblk7 V c 2 t) r q).trans
    (congrArg₂ (fun a b => max (a + b) (Ideal.ofBits .f32 0x00000000#32))
      (Finset.sum_congr rfl fun k _ => congrArg₂ (fun a b => a * b) (iblk7_0_apply V c t r k h) (iblk7_1_apply V c t k q))
      (iblk7_2_apply V c t 0 q))

/-! ## What each point leaves -/

/-- After every point the result block is the dense block of the point's input blocks. -/
theorem outs7_blk (t : Fin cfg7.N) :
    (outsAt7 V c t.val t.isLt).1 = k7_pay1 (F := Ideal) (iblk7 V c 0 t) (iblk7 V c 1 t) (iblk7 V c 2 t) := by
  by_cases h0 : t.val % 5 = 0
  · rw [outsAt7_A V c t h0]
    dsimp only
    exact out7_A_3_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)
  · rw [outsAt7_B V c t h0]
    dsimp only
    exact out7_B_3_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2

/-- After the first point the column-sum row is the update of the row of zeros. -/
theorem outs7_sum_A (t : Fin cfg7.N) (h0 : t.val % 5 = 0) :
    (outsAt7 V c t.val t.isLt).2.1 = k7_pay4 (F := Ideal) (iblk7 V c 0 t) (iblk7 V c 1 t) (iblk7 V c 2 t) (k7_pay2 (F := Ideal)) := by
  rw [outsAt7_A V c t h0]
  dsimp only
  exact out7_A_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)

/-- After a later point the column-sum row is the update of the row the point before left. -/
theorem outs7_sum_B (t : Fin cfg7.N) (h0 : ¬t.val % 5 = 0) :
    (outsAt7 V c t.val t.isLt).2.1 = k7_pay4 (F := Ideal) (iblk7 V c 0 t) (iblk7 V c 1 t) (iblk7 V c 2 t) (outsAt7 V c (t.val - 1) (Nat.lt_of_le_of_lt (Nat.sub_le _ _) t.isLt)).2.1 := by
  rw [outsAt7_B V c t h0]
  dsimp only
  exact out7_B_4_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2

/-- After the first point the row of column sums of squares is the update of the row of zeros. -/
theorem outs7_sq_A (t : Fin cfg7.N) (h0 : t.val % 5 = 0) :
    (outsAt7 V c t.val t.isLt).2.2 = k7_pay5 (F := Ideal) (iblk7 V c 0 t) (iblk7 V c 1 t) (iblk7 V c 2 t) (k7_pay3 (F := Ideal)) := by
  rw [outsAt7_A V c t h0]
  dsimp only
  exact out7_A_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)

/-- After a later point the row of column sums of squares is the update of the row the point before left. -/
theorem outs7_sq_B (t : Fin cfg7.N) (h0 : ¬t.val % 5 = 0) :
    (outsAt7 V c t.val t.isLt).2.2 = k7_pay5 (F := Ideal) (iblk7 V c 0 t) (iblk7 V c 1 t) (iblk7 V c 2 t) (outsAt7 V c (t.val - 1) (Nat.lt_of_le_of_lt (Nat.sub_le _ _) t.isLt)).2.2 := by
  rw [outsAt7_B V c t h0]
  dsimp only
  exact out7_B_5_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2

/-! ## The running totals -/

/-- The 10000 rows are 5 blocks of 2000. -/
theorem rows7 : 10000 = cfg7.N * 2000 := by rw [show cfg7.N = 5 from N_7]

/-- Point 0 leaves, at feature q of the column-sum row, zero plus the column sum of block 0 of H. -/
theorem sum7_zero (h : 0 < cfg7.N) (q : Fin 128) :
    (outsAt7 V c 0 h).2.1 (ix2 (0 : Fin 1) q)
      = 0 + ∑ r : Fin 2000, H7 V c (ix2 ⟨2000 * 0 + r.val, row_lt (rows7) h r⟩ q) :=
  (congrFun (outs7_sum_A V c ⟨0, h⟩ rfl) (ix2 (0 : Fin 1) q)).trans
    ((pay7_4_apply (iblk7 V c 0 ⟨0, h⟩) (iblk7 V c 1 ⟨0, h⟩) (iblk7 V c 2 ⟨0, h⟩) (k7_pay2 (F := Ideal)) q).trans
      (congrArg₂ (fun a b => a + b) ((pay7_2_apply (ix2 (0 : Fin 1) q)).trans Ideal.ofBits_zero_f32)
        (Finset.sum_congr rfl fun r _ => blk7 V c ⟨0, h⟩ r q (row_lt (rows7) h r))))

/-- Point n + 1 adds the column sum of block n + 1 of H to what point n left. -/
theorem sum7_succ (n : ℕ) (h : n + 1 < cfg7.N) (q : Fin 128) :
    (outsAt7 V c (n + 1) h).2.1 (ix2 (0 : Fin 1) q)
      = (outsAt7 V c n (Nat.lt_of_succ_lt h)).2.1 (ix2 (0 : Fin 1) q)
        + ∑ r : Fin 2000, H7 V c (ix2 ⟨2000 * (n + 1) + r.val, row_lt (rows7) h r⟩ q) := by
  have hN : n + 1 < 5 := lt_of_lt_of_eq h N_7
  have hB : ¬(⟨n + 1, h⟩ : Fin cfg7.N).val % 5 = 0 := by dsimp only; omega
  exact (congrFun (outs7_sum_B V c ⟨n + 1, h⟩ hB) (ix2 (0 : Fin 1) q)).trans
    ((pay7_4_apply (iblk7 V c 0 ⟨n + 1, h⟩) (iblk7 V c 1 ⟨n + 1, h⟩) (iblk7 V c 2 ⟨n + 1, h⟩) (outsAt7 V c n (Nat.lt_of_succ_lt h)).2.1 q).trans
      (congrArg (fun b => (outsAt7 V c n (Nat.lt_of_succ_lt h)).2.1 (ix2 (0 : Fin 1) q) + b)
        (Finset.sum_congr rfl fun r _ => blk7 V c ⟨n + 1, h⟩ r q (row_lt (rows7) h r))))

/-- Point 0 leaves, at feature q of the row of column sums of squares, zero plus that sum over block 0 of H. -/
theorem sq7_zero (h : 0 < cfg7.N) (q : Fin 128) :
    (outsAt7 V c 0 h).2.2 (ix2 (0 : Fin 1) q)
      = 0 + ∑ r : Fin 2000, H7 V c (ix2 ⟨2000 * 0 + r.val, row_lt (rows7) h r⟩ q)
            * H7 V c (ix2 ⟨2000 * 0 + r.val, row_lt (rows7) h r⟩ q) :=
  (congrFun (outs7_sq_A V c ⟨0, h⟩ rfl) (ix2 (0 : Fin 1) q)).trans
    ((pay7_5_apply (iblk7 V c 0 ⟨0, h⟩) (iblk7 V c 1 ⟨0, h⟩) (iblk7 V c 2 ⟨0, h⟩) (k7_pay3 (F := Ideal)) q).trans
      (congrArg₂ (fun a b => a + b) ((pay7_3_apply (ix2 (0 : Fin 1) q)).trans Ideal.ofBits_zero_f32)
        (Finset.sum_congr rfl fun r _ => congrArg₂ (fun a b => a * b)
          (blk7 V c ⟨0, h⟩ r q (row_lt (rows7) h r)) (blk7 V c ⟨0, h⟩ r q (row_lt (rows7) h r)))))

/-- Point n + 1 adds the sum of the squares of column q of block n + 1 of H to what point n left. -/
theorem sq7_succ (n : ℕ) (h : n + 1 < cfg7.N) (q : Fin 128) :
    (outsAt7 V c (n + 1) h).2.2 (ix2 (0 : Fin 1) q)
      = (outsAt7 V c n (Nat.lt_of_succ_lt h)).2.2 (ix2 (0 : Fin 1) q)
        + ∑ r : Fin 2000, H7 V c (ix2 ⟨2000 * (n + 1) + r.val, row_lt (rows7) h r⟩ q)
            * H7 V c (ix2 ⟨2000 * (n + 1) + r.val, row_lt (rows7) h r⟩ q) := by
  have hN : n + 1 < 5 := lt_of_lt_of_eq h N_7
  have hB : ¬(⟨n + 1, h⟩ : Fin cfg7.N).val % 5 = 0 := by dsimp only; omega
  exact (congrFun (outs7_sq_B V c ⟨n + 1, h⟩ hB) (ix2 (0 : Fin 1) q)).trans
    ((pay7_5_apply (iblk7 V c 0 ⟨n + 1, h⟩) (iblk7 V c 1 ⟨n + 1, h⟩) (iblk7 V c 2 ⟨n + 1, h⟩) (outsAt7 V c n (Nat.lt_of_succ_lt h)).2.2 q).trans
      (congrArg (fun b => (outsAt7 V c n (Nat.lt_of_succ_lt h)).2.2 (ix2 (0 : Fin 1) q) + b)
        (Finset.sum_congr rfl fun r _ => congrArg₂ (fun a b => a * b)
          (blk7 V c ⟨n + 1, h⟩ r q (row_lt (rows7) h r)) (blk7 V c ⟨n + 1, h⟩ r q (row_lt (rows7) h r)))))

/-- After the last point the column-sum row holds, at feature q, the sum of column q of H over all rows. -/
theorem sum7_last (n : ℕ) (hn : n + 1 = cfg7.N) (h : n < cfg7.N) (q : Fin 128) :
    (outsAt7 V c n h).2.1 (ix2 (0 : Fin 1) q) = ∑ p : Fin 10000, H7 V c (ix2 p q) := by
  have e := total_eq_sum cfg7.N 2000 (rows7) (fun p : Fin 10000 => H7 V c (ix2 p q))
    (fun n h => (outsAt7 V c n h).2.1 (ix2 (0 : Fin 1) q))
    (fun h => sum7_zero V c h q) (fun n h => sum7_succ V c n h q) n hn
  exact e

/-- After the last point the other row holds, at feature q, the sum of the squares of column q of H over all rows. -/
theorem sq7_last (n : ℕ) (hn : n + 1 = cfg7.N) (h : n < cfg7.N) (q : Fin 128) :
    (outsAt7 V c n h).2.2 (ix2 (0 : Fin 1) q) = ∑ p : Fin 10000, H7 V c (ix2 p q) * H7 V c (ix2 p q) := by
  have e := total_eq_sum cfg7.N 2000 (rows7) (fun p : Fin 10000 => H7 V c (ix2 p q) * H7 V c (ix2 p q))
    (fun n h => (outsAt7 V c n h).2.2 (ix2 (0 : Fin 1) q))
    (fun h => sq7_zero V c h q) (fun n h => sq7_succ V c n h q) n hn
  exact e

/-! ## The result rows -/

/-- A row of the result array is in point t's block iff it is one of rows 2000 t, …, 2000 t + 1999. -/
theorem mem_blk7_3 (t : Fin cfg7.N) (i : S10000x128.Idx) :
    i ∈ ((cfg7.win 3).blk t).view.set ↔ ∀ a : Fin 2, win7_3.index t a * S2000x128.size a ≤ (i a).val
      ∧ (i a).val < win7_3.index t a * S2000x128.size a + S2000x128.size a := by
  show i ∈ ((View.whole main_v203_0).slice (win7_3.rect t)).set ↔ _
  rw [View.set_slice_whole, Rect.mem_set_unit]
  exact Iff.rfl

/-- What point t writes back to the result array is block t of H. -/
theorem flushed7_3 (t : Fin cfg7.N) :
    (dat7 V c).flushed 3 t = ((cfg7.win 3).blk t).view.read (Elt Ideal) (H7 V c) := by
  obtain ⟨-, -, -, -, -, -, e0, e1, -⟩ := idx7 t
  have ht : t.val < 5 := lt_of_lt_of_eq t.isLt N_7
  show (cfg7.win 3).cut (grid7.coords t) ((dat7 V c).after 3 t) = _
  rw [after7_3, outs7_blk V c t]
  refine funext fun (y : S2000x128.Idx) => ?_
  obtain ⟨r, q, rfl⟩ : ∃ (r : Fin 2000) (q : Fin 128), y = ix2 r q := ⟨y 0, y 1, eq_ix2 y⟩
  rw [View.read_apply]
  show k7_pay1 (F := Ideal) (iblk7 V c 0 t) (iblk7 V c 1 t) (iblk7 V c 2 t) (ix2 r q) = H7 V c (((cfg7.win 3).blk t).view.emb (ix2 r q))
  refine (blk7 V c t r q (by omega)).trans (congrArg (H7 V c) (funext fun a => Fin.ext ?_))
  match a with
  | ⟨0, _⟩ => show 2000 * t.val + r.val = win7_3.index t (0 : Fin 2) * 2000 + 1 * r.val; omega
  | ⟨1, _⟩ => show q.val = win7_3.index t (1 : Fin 2) * 128 + 1 * q.val; omega

/-- Every row of the result array is in the block of the point its number divided by 2000 names. -/
theorem cover7_3 (i : S10000x128.Idx) :
    ∃ t : Fin cfg7.N, (cfg7.win 3).flush t = true ∧ i ∈ ((cfg7.win 3).blk t).view.set := by
  have hi0 : (i 0).val < 10000 := (i 0).isLt
  have hi1 : (i 1).val < 128 := (i 1).isLt
  have hN : cfg7.N = 5 := N_7
  obtain ⟨t, ht⟩ : ∃ t : Fin cfg7.N, t.val = (i 0).val / 2000 := ⟨⟨(i 0).val / 2000, by rw [hN]; omega⟩, rfl⟩
  obtain ⟨-, -, -, -, -, -, e0, e1, -⟩ := idx7 t
  refine ⟨t, flush7_3 t, (mem_blk7_3 t i).mpr fun a => ?_⟩
  match a with
  | ⟨0, _⟩ =>
    show win7_3.index t (0 : Fin 2) * 2000 ≤ (i 0).val ∧ (i 0).val < win7_3.index t (0 : Fin 2) * 2000 + 2000
    omega
  | ⟨1, _⟩ =>
    show win7_3.index t (1 : Fin 2) * 128 ≤ (i 1).val ∧ (i 1).val < win7_3.index t (1 : Fin 2) * 128 + 128
    omega

/-- The result array after the region is H. -/
theorem arr7_3 : (dat7 (F := Ideal) V c).arrAt 3 cfg7.N = H7 V c :=
  (dat7 V c).arrAt_eq_of_cover 3 (H7 V c) (fun t _ => flushed7_3 V c t) (cover7_3)

/-! ## The statistics rows -/

/-- The last grid point. -/
def tl7 : Fin cfg7.N := ⟨4, by rw [show cfg7.N = 5 from N_7]; decide⟩

/-- The entries of window 4's one-row block sit at themselves in the one-row array, at every point. -/
theorem emb7_4 (t : Fin cfg7.N) (q : Fin 128) :
    ((cfg7.win 4).blk t).view.emb (ix2 (0 : Fin 1) q) = (ix2 (0 : Fin 1) q : S1x128.Idx) := by
  obtain ⟨-, -, -, -, -, -, -, -, e0, e1, -⟩ := idx7 t
  refine funext fun a => Fin.ext ?_
  match a with
  | ⟨0, _⟩ => show win7_4.index t (0 : Fin 2) * 1 + 1 * 0 = 0; omega
  | ⟨1, _⟩ => show win7_4.index t (1 : Fin 2) * 128 + 1 * q.val = q.val; omega

/-- The one write-back of window 4, after the last point, writes the column sums of H. -/
theorem flushed7_4 (t : Fin cfg7.N) (hf : (cfg7.win 4).flush t = true) :
    (dat7 V c).flushed 4 t = ((cfg7.win 4).blk t).view.read (Elt Ideal) (SageSpec.colSum (H7 V c)) := by
  have hN : cfg7.N = 5 := N_7
  have hl : t.val + 1 = cfg7.N := by have := (flush7_4 t).mp hf; have := t.isLt; omega
  show (cfg7.win 4).cut (grid7.coords t) ((dat7 V c).after 4 t) = _
  rw [after7_4]
  refine funext fun (y : S1x128.Idx) => ?_
  obtain ⟨u, q, rfl⟩ : ∃ (u : Fin 1) (q : Fin 128), y = ix2 u q := ⟨y 0, y 1, eq_ix2 y⟩
  obtain rfl : u = 0 := Subsingleton.elim _ _
  rw [View.read_apply]
  show (outsAt7 V c t.val t.isLt).2.1 (ix2 (0 : Fin 1) q)
    = SageSpec.colSum (H7 V c) (((cfg7.win 4).blk t).view.emb (ix2 (0 : Fin 1) q))
  rw [emb7_4 t q]
  exact (sum7_last V c t.val hl t.isLt q).trans (SageSpec.colSum_ix2 (H7 V c) q).symm

/-- Every entry of the one-row array is in the block written back after the last point. -/
theorem cover7_4 (i : S1x128.Idx) :
    ∃ t : Fin cfg7.N, (cfg7.win 4).flush t = true ∧ i ∈ ((cfg7.win 4).blk t).view.set := by
  have hi0 : (i 0).val < 1 := (i 0).isLt
  have hi1 : (i 1).val < 128 := (i 1).isLt
  obtain ⟨-, -, -, -, -, -, -, -, e0, e1, -⟩ := idx7 tl7
  refine ⟨tl7, (flush7_4 tl7).mpr rfl, ?_⟩
  show i ∈ ((View.whole main_v203_1).slice (win7_4.rect tl7)).set
  rw [View.set_slice_whole, Rect.mem_set_unit]
  intro a
  match a with
  | ⟨0, _⟩ =>
    show win7_4.index tl7 (0 : Fin 2) * 1 ≤ (i 0).val ∧ (i 0).val < win7_4.index tl7 (0 : Fin 2) * 1 + 1
    omega
  | ⟨1, _⟩ =>
    show win7_4.index tl7 (1 : Fin 2) * 128 ≤ (i 1).val ∧ (i 1).val < win7_4.index tl7 (1 : Fin 2) * 128 + 128
    omega

/-- The column-sum array after the region is the column sums of H. -/
theorem arr7_4 : (dat7 (F := Ideal) V c).arrAt 4 cfg7.N = SageSpec.colSum (H7 V c) :=
  (dat7 V c).arrAt_eq_of_cover 4 (SageSpec.colSum (H7 V c)) (flushed7_4 V c) (cover7_4)

/-- The entries of window 5's one-row block sit at themselves in the one-row array, at every point. -/
theorem emb7_5 (t : Fin cfg7.N) (q : Fin 128) :
    ((cfg7.win 5).blk t).view.emb (ix2 (0 : Fin 1) q) = (ix2 (0 : Fin 1) q : S1x128.Idx) := by
  obtain ⟨-, -, -, -, -, -, -, -, -, -, e0, e1⟩ := idx7 t
  refine funext fun a => Fin.ext ?_
  match a with
  | ⟨0, _⟩ => show win7_5.index t (0 : Fin 2) * 1 + 1 * 0 = 0; omega
  | ⟨1, _⟩ => show win7_5.index t (1 : Fin 2) * 128 + 1 * q.val = q.val; omega

/-- The one write-back of window 5, after the last point, writes the column sums of squares of H. -/
theorem flushed7_5 (t : Fin cfg7.N) (hf : (cfg7.win 5).flush t = true) :
    (dat7 V c).flushed 5 t = ((cfg7.win 5).blk t).view.read (Elt Ideal) (SageSpec.colSumSq (H7 V c)) := by
  have hN : cfg7.N = 5 := N_7
  have hl : t.val + 1 = cfg7.N := by have := (flush7_5 t).mp hf; have := t.isLt; omega
  show (cfg7.win 5).cut (grid7.coords t) ((dat7 V c).after 5 t) = _
  rw [after7_5]
  refine funext fun (y : S1x128.Idx) => ?_
  obtain ⟨u, q, rfl⟩ : ∃ (u : Fin 1) (q : Fin 128), y = ix2 u q := ⟨y 0, y 1, eq_ix2 y⟩
  obtain rfl : u = 0 := Subsingleton.elim _ _
  rw [View.read_apply]
  show (outsAt7 V c t.val t.isLt).2.2 (ix2 (0 : Fin 1) q)
    = SageSpec.colSumSq (H7 V c) (((cfg7.win 5).blk t).view.emb (ix2 (0 : Fin 1) q))
  rw [emb7_5 t q]
  exact (sq7_last V c t.val hl t.isLt q).trans (SageSpec.colSumSq_ix2 (H7 V c) q).symm

/-- Every entry of the one-row array is in the block written back after the last point. -/
theorem cover7_5 (i : S1x128.Idx) :
    ∃ t : Fin cfg7.N, (cfg7.win 5).flush t = true ∧ i ∈ ((cfg7.win 5).blk t).view.set := by
  have hi0 : (i 0).val < 1 := (i 0).isLt
  have hi1 : (i 1).val < 128 := (i 1).isLt
  obtain ⟨-, -, -, -, -, -, -, -, -, -, e0, e1⟩ := idx7 tl7
  refine ⟨tl7, (flush7_5 tl7).mpr rfl, ?_⟩
  show i ∈ ((View.whole main_v203_2).slice (win7_5.rect tl7)).set
  rw [View.set_slice_whole, Rect.mem_set_unit]
  intro a
  match a with
  | ⟨0, _⟩ =>
    show win7_5.index tl7 (0 : Fin 2) * 1 ≤ (i 0).val ∧ (i 0).val < win7_5.index tl7 (0 : Fin 2) * 1 + 1
    omega
  | ⟨1, _⟩ =>
    show win7_5.index tl7 (1 : Fin 2) * 128 ≤ (i 1).val ∧ (i 1).val < win7_5.index tl7 (1 : Fin 2) * 128 + 128
    omega

/-- The squares array after the region is the column sums of squares of H. -/
theorem arr7_5 : (dat7 (F := Ideal) V c).arrAt 5 cfg7.N = SageSpec.colSumSq (H7 V c) :=
  (dat7 V c).arrAt_eq_of_cover 5 (SageSpec.colSumSq (H7 V c)) (flushed7_5 V c) (cover7_5)

end Cert.KernelIdeal.RegR

end
-- ==== Proof.KReg7.lean ====
/-
  Region 7 of the idealized kernel program, read against the reference's stages: the region's host-computed operands
  are the same host operations of the same values as the reference's stages; the region's output arrays are the
  whole-array functions of its operands that the reference's corresponding stages are.
-/
import proofs.«146104_j52931176955955_1_alg».proof.Proof.KReg6
import proofs.«146104_j52931176955955_1_alg».proof.Proof.RegR7

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v85_at14 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W14 m ρ c (Proc.devRef .tc main_v85) = (Cert.ReferenceIdeal.Read.val_main_v127 (F := Ideal) (m ((c : Thread nD τ).loc main_arg0)) (m ((c : Thread nD τ).loc main_arg1)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  ((W14_arr m ρ c 3).trans (((dat6 (V13 m ρ) c).arrAt_in 3 rfl _).trans (A_eq6 (V13 m ρ) c 3))).trans (v85_at13 m ρ c h0 h1 h8 h9 h10 h11 h12)

set_option backward.isDefEq.respectTransparency.types false in
theorem v197_at15 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W15 m ρ c (Proc.devRef .tc main_v197) = (Cert.ReferenceIdeal.Read.val_main_v258 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps7 (W14 m ρ c) (Proc.devRef .tc main_v197) = _
  after_results_simp
  rw [arg6_at14 m ρ c, v85_at14 m ρ c h0 h1 h8 h9 h10 h11 h12]
  rfl

set_option backward.isDefEq.respectTransparency.types false in
theorem v199_at15 : W15 m ρ c (Proc.devRef .tc main_v199) = (Cert.ReferenceIdeal.Read.val_main_v232 (F := Ideal) (m ((c : Thread nD τ).loc main_arg8))) := by
  show StableHlo.after hostOps7 (W14 m ρ c) (Proc.devRef .tc main_v199) = _
  after_results_simp
  rw [arg8_at14 m ρ c]
  rfl

set_option backward.isDefEq.respectTransparency.types false in
theorem v202_at15 : W15 m ρ c (Proc.devRef .tc main_v202) = (Cert.ReferenceIdeal.Read.val_main_v260 (F := Ideal) (m ((c : Thread nD τ).loc main_arg9))) := by
  show StableHlo.after hostOps7 (W14 m ρ c) (Proc.devRef .tc main_v202) = _
  after_results_simp
  rw [arg9_at14 m ρ c]
  rfl

set_option backward.isDefEq.respectTransparency.types false in
theorem v203_0_at16 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W16 m ρ c (Proc.devRef .tc main_v203_0) = (Cert.ReferenceIdeal.Read.val_main_v323 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) :=
  (W16_arr m ρ c 3).trans ((Cert.KernelIdeal.RegR.arr7_3 (V15 m ρ) c).trans (by
    unfold Cert.KernelIdeal.RegR.H7
    rw [show V15 m ρ c main_v197 = _ from v197_at15 m ρ c h0 h1 h8 h9 h10 h11 h12, show V15 m ρ c main_v199 = _ from v199_at15 m ρ c, show V15 m ρ c main_v202 = _ from v202_at15 m ρ c]
    exact ((Cert.ReferenceIdeal.RefNet.v323_eq (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))).trans (congrArg Cert.DenseSpec.relu (Cert.ReferenceIdeal.RefNet.v262_eq (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))))).symm))

set_option backward.isDefEq.respectTransparency.types false in
theorem v203_1_at16 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W16 m ρ c (Proc.devRef .tc main_v203_1) = (Cert.SageSpec.colSum (Cert.ReferenceIdeal.Read.val_main_v323 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)))) :=
  (W16_arr m ρ c 4).trans ((Cert.KernelIdeal.RegR.arr7_4 (V15 m ρ) c).trans (by
    unfold Cert.KernelIdeal.RegR.H7
    rw [show V15 m ρ c main_v197 = _ from v197_at15 m ρ c h0 h1 h8 h9 h10 h11 h12, show V15 m ρ c main_v199 = _ from v199_at15 m ρ c, show V15 m ρ c main_v202 = _ from v202_at15 m ρ c]
    exact congrArg Cert.SageSpec.colSum (((Cert.ReferenceIdeal.RefNet.v323_eq (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))).trans (congrArg Cert.DenseSpec.relu (Cert.ReferenceIdeal.RefNet.v262_eq (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))))).symm)))

set_option backward.isDefEq.respectTransparency.types false in
theorem v203_2_at16 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W16 m ρ c (Proc.devRef .tc main_v203_2) = (Cert.SageSpec.colSumSq (Cert.ReferenceIdeal.Read.val_main_v323 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)))) :=
  (W16_arr m ρ c 5).trans ((Cert.KernelIdeal.RegR.arr7_5 (V15 m ρ) c).trans (by
    unfold Cert.KernelIdeal.RegR.H7
    rw [show V15 m ρ c main_v197 = _ from v197_at15 m ρ c h0 h1 h8 h9 h10 h11 h12, show V15 m ρ c main_v199 = _ from v199_at15 m ρ c, show V15 m ρ c main_v202 = _ from v202_at15 m ρ c]
    exact congrArg Cert.SageSpec.colSumSq (((Cert.ReferenceIdeal.RefNet.v323_eq (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))).trans (congrArg Cert.DenseSpec.relu (Cert.ReferenceIdeal.RefNet.v262_eq (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))))).symm)))

end Cert.KernelIdeal.KNet

end
-- ==== Proof.RegA8.lean ====
/-
  Region 8: batch normalisation applied, as one array.

  The region walks 100 blocks of 2000 rows. At block t it reads rows 2000 t … 2000 t + 1999 of the array to be
  normalised and the four whole rows of column means, column variances, scales and shifts, and writes the same rows
  of its output. Its body's block at entry (r, q) is ((h (r, q) − μ (q)) · rsqrt (v (q) + ε)) · γ (q) + β (q); so
  block t of the output is block t of the whole-array function that maps every entry this way, and the 100 blocks
  cover the 200000 rows: row i lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayBn
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem zeros2 : (![0, 0] : Fin 2 → Nat) = fun _ => 0 := funext fun a => by fin_cases a <;> rfl

/-- The block indices over the grid: the row-tiled windows sit at block (t, 0), the four rows at block (0, 0). -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Row r of block t as a row of the array. -/
def row8 (t : Fin cfg8.N) (r : Fin 2000) : Fin 200000 :=
  ⟨2000 * t.val + r.val, by
    have ht : t.val < 100 := Nat.lt_of_lt_of_eq t.isLt N_8
    have hr := r.isLt
    omega⟩

/-- Row r of window 0's block at point t is row 2000 t + r of its array. -/
theorem blk8_0 (c : Dev nD) (t : Fin cfg8.N) (r : Fin 2000) (k : Fin 128) :
    (iblk8 V c 0 t : S2000x128.Idx → EReal) (ix2 r k) = (V c main_v145_0 : S200000x128.Idx → EReal) (ix2 (row8 t r) k) := by
  obtain ⟨ea, eb, -⟩ := idx8 t
  unfold iblk8
  rw [View.read_apply]
  show (V c main_v145_0 : S200000x128.Idx → EReal) _ = _
  refine congrArg (V c main_v145_0 : S200000x128.Idx → EReal) ?_
  funext a; apply Fin.ext
  match a with
  | ⟨0, _⟩ => show win8_0.index t (0 : Fin 2) * 2000 + 1 * r.val = 2000 * t.val + r.val; rw [ea]; omega
  | ⟨1, _⟩ => show win8_0.index t (1 : Fin 2) * 128 + 1 * k.val = k.val; rw [eb]; omega

/-- Window 1's block at every point is its whole row. -/
theorem blk8_1 (c : Dev nD) (t : Fin cfg8.N) (k : Fin 1) (q : Fin 128) :
    (iblk8 V c 1 t : S1x128.Idx → EReal) (ix2 k q) = (V c main_v211 : S1x128.Idx → EReal) (ix2 k q) := by
  obtain ⟨-, -, ea, eb, -⟩ := idx8 t
  unfold iblk8
  rw [View.read_apply]
  show (V c main_v211 : S1x128.Idx → EReal) _ = _
  refine congrArg (V c main_v211 : S1x128.Idx → EReal) ?_
  funext a; apply Fin.ext
  match a with
  | ⟨0, _⟩ => show win8_1.index t (0 : Fin 2) * 1 + 1 * k.val = k.val; rw [ea]; omega
  | ⟨1, _⟩ => show win8_1.index t (1 : Fin 2) * 128 + 1 * q.val = q.val; rw [eb]; omega

/-- Window 2's block at every point is its whole row. -/
theorem blk8_2 (c : Dev nD) (t : Fin cfg8.N) (k : Fin 1) (q : Fin 128) :
    (iblk8 V c 2 t : S1x128.Idx → EReal) (ix2 k q) = (V c main_v215 : S1x128.Idx → EReal) (ix2 k q) := by
  obtain ⟨-, -, -, -, ea, eb, -⟩ := idx8 t
  unfold iblk8
  rw [View.read_apply]
  show (V c main_v215 : S1x128.Idx → EReal) _ = _
  refine congrArg (V c main_v215 : S1x128.Idx → EReal) ?_
  funext a; apply Fin.ext
  match a with
  | ⟨0, _⟩ => show win8_2.index t (0 : Fin 2) * 1 + 1 * k.val = k.val; rw [ea]; omega
  | ⟨1, _⟩ => show win8_2.index t (1 : Fin 2) * 128 + 1 * q.val = q.val; rw [eb]; omega

/-- Window 3's block at every point is its whole row. -/
theorem blk8_3 (c : Dev nD) (t : Fin cfg8.N) (k : Fin 1) (q : Fin 128) :
    (iblk8 V c 3 t : S1x128.Idx → EReal) (ix2 k q) = (V c main_v206 : S1x128.Idx → EReal) (ix2 k q) := by
  obtain ⟨-, -, -, -, -, -, ea, eb, -⟩ := idx8 t
  unfold iblk8
  rw [View.read_apply]
  show (V c main_v206 : S1x128.Idx → EReal) _ = _
  refine congrArg (V c main_v206 : S1x128.Idx → EReal) ?_
  funext a; apply Fin.ext
  match a with
  | ⟨0, _⟩ => show win8_3.index t (0 : Fin 2) * 1 + 1 * k.val = k.val; rw [ea]; omega
  | ⟨1, _⟩ => show win8_3.index t (1 : Fin 2) * 128 + 1 * q.val = q.val; rw [eb]; omega

/-- Window 4's block at every point is its whole row. -/
theorem blk8_4 (c : Dev nD) (t : Fin cfg8.N) (k : Fin 1) (q : Fin 128) :
    (iblk8 V c 4 t : S1x128.Idx → EReal) (ix2 k q) = (V c main_v209 : S1x128.Idx → EReal) (ix2 k q) := by
  obtain ⟨-, -, -, -, -, -, -, -, ea, eb, -⟩ := idx8 t
  unfold iblk8
  rw [View.read_apply]
  show (V c main_v209 : S1x128.Idx → EReal) _ = _
  refine congrArg (V c main_v209 : S1x128.Idx → EReal) ?_
  funext a; apply Fin.ext
  match a with
  | ⟨0, _⟩ => show win8_4.index t (0 : Fin 2) * 1 + 1 * k.val = k.val; rw [ea]; omega
  | ⟨1, _⟩ => show win8_4.index t (1 : Fin 2) * 128 + 1 * q.val = q.val; rw [eb]; omega

/-- What point t writes back is block t of the whole-array function. -/
theorem flushed8 (c : Dev nD) (t : Fin cfg8.N) :
    (dat8 V c).flushed 5 t = ((cfg8.win 5).blk t).view.read (Elt Ideal)
      (SageSpec.bnApply (V c main_v145_0) (V c main_v211) (V c main_v215) (V c main_v206) (V c main_v209)) := by
  show (cfg8.win 5).cut (grid8.coords t) ((dat8 V c).after 5 t) = _
  rw [after8_5]
  unfold out8_5
  rw [View.canon_unit_zero zeros2]
  simp only [View.ld_unit_zero (S := S2000x128) zeros2, View.ld_unit_zero (S := S1x128) zeros2]
  obtain ⟨-, -, -, -, -, -, -, -, -, -, ea, eb⟩ := idx8 t
  refine funext fun (j : S2000x128.Idx) => ?_
  obtain ⟨r, q, rfl⟩ : ∃ (r : Fin 2000) (q : Fin 128), j = ix2 r q := ⟨j 0, j 1, eq_ix2 j⟩
  have hemb : (((cfg8.win 5).blk t).view.emb (ix2 r q) : S200000x128.Idx) = ix2 (row8 t r) q := by
    funext a; apply Fin.ext
    match a with
    | ⟨0, _⟩ => show win8_5.index t (0 : Fin 2) * 2000 + 1 * r.val = 2000 * t.val + r.val; rw [ea]; omega
    | ⟨1, _⟩ => show win8_5.index t (1 : Fin 2) * 128 + 1 * q.val = q.val; rw [eb]; omega
  refine (k8_pay1_apply (iblk8 V c 0 t) (iblk8 V c 2 t) (iblk8 V c 1 t) (iblk8 V c 3 t) (iblk8 V c 4 t) r q).trans ?_
  refine Eq.trans ?_ (congrArg (SageSpec.bnApply (V c main_v145_0) (V c main_v211) (V c main_v215) (V c main_v206) (V c main_v209)) hemb).symm
  show _ = (_ - _) * _ * _ + _
  refine congrArg₂ (· + ·) (congrArg₂ (· * ·) (congrArg₂ (· * ·) (congrArg₂ (· - ·) ?_ ?_) ?_) ?_) ?_
  · exact blk8_0 V c t r q
  · exact blk8_1 V c t 0 q
  · exact congrArg (fun x => Ideal.rsqrt (x + SageSpec.eps)) (blk8_2 V c t 0 q)
  · exact blk8_3 V c t 0 q
  · exact blk8_4 V c t 0 q

/-- An index of the array is in point t's block iff each coordinate is in the block's range on its axis. -/
theorem mem_blk8 (t : Fin cfg8.N) (i : S200000x128.Idx) :
    i ∈ ((cfg8.win 5).blk t).view.set ↔ ∀ a : Fin 2, win8_5.index t a * S2000x128.size a ≤ (i a).val
      ∧ (i a).val < win8_5.index t a * S2000x128.size a + S2000x128.size a := by
  show i ∈ ((View.whole main_v216).slice (win8_5.rect t)).set ↔ _
  rw [View.set_slice_whole, Rect.mem_set_unit]
  exact Iff.rfl

/-- Every index of the array is in some point's block: row i is in block i / 2000. -/
theorem cover8 (i : S200000x128.Idx) :
    ∃ t : Fin cfg8.N, (cfg8.win 5).flush t = true ∧ i ∈ ((cfg8.win 5).blk t).view.set := by
  have hi0 : (i 0).val < 200000 := (i 0).isLt
  have hi1 : (i 1).val < 128 := (i 1).isLt
  have hN : cfg8.N = 100 := N_8
  obtain ⟨t, ht⟩ : ∃ t : Fin cfg8.N, t.val = (i 0).val / 2000 := ⟨⟨(i 0).val / 2000, by rw [hN]; omega⟩, rfl⟩
  obtain ⟨-, -, -, -, -, -, -, -, -, -, ea, eb⟩ := idx8 t
  refine ⟨t, flush8_5 t, ?_⟩
  rw [mem_blk8]
  intro a
  match a with
  | ⟨0, _⟩ =>
    show win8_5.index t (0 : Fin 2) * 2000 ≤ (i 0).val ∧ (i 0).val < win8_5.index t (0 : Fin 2) * 2000 + 2000
    rw [ea, ht]; omega
  | ⟨1, _⟩ =>
    show win8_5.index t (1 : Fin 2) * 128 ≤ (i 1).val ∧ (i 1).val < win8_5.index t (1 : Fin 2) * 128 + 128
    rw [eb]; omega

/-- The output array after the region is the whole-array function of the region's input arrays. -/
theorem arr8 (c : Dev nD) :
    (dat8 (F := Ideal) V c).arrAt 5 cfg8.N
      = SageSpec.bnApply (V c main_v145_0) (V c main_v211) (V c main_v215) (V c main_v206) (V c main_v209) :=
  (dat8 V c).arrAt_eq_of_cover 5 _ (fun t _ => flushed8 V c t) cover8

end Cert.KernelIdeal.RegA

end
-- ==== Proof.KReg8.lean ====
/-
  Region 8 of the idealized kernel program, read against the reference's stages: the region's host-computed operands
  are the same host operations of the same values as the reference's stages; the region's output arrays are the
  whole-array functions of its operands that the reference's corresponding stages are.
-/
import proofs.«146104_j52931176955955_1_alg».proof.Proof.KReg7
import proofs.«146104_j52931176955955_1_alg».proof.Proof.RegA8

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v145_1_at16 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W16 m ρ c (Proc.devRef .tc main_v145_1) = (Cert.SageSpec.colSum (Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)))) :=
  (W16_of_ne m ρ c main_v145_1 (by decide)).trans ((keepH7 (W14 m ρ c) main_v145_1 (by decide)).trans ((W14_of_ne m ρ c main_v145_1 (by decide)).trans ((keepH6 (W12 m ρ c) main_v145_1 (by decide)).trans (v145_1_at12 m ρ c h0 h1 h8 h9 h10 h11 h12))))

set_option backward.isDefEq.respectTransparency.types false in
theorem v211_at17 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W17 m ρ c (Proc.devRef .tc main_v211) = (Cert.SageSpec.muK (Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) ((200000 : ℝ) : EReal)) := by
  show StableHlo.after hostOps8 (W16 m ρ c) (Proc.devRef .tc main_v211) = _
  after_results_simp
  rw [v145_1_at16 m ρ c h0 h1 h8 h9 h10 h11 h12]
  exact Cert.SageSpec.host_muK_eq _ (200000 : ℝ) _ Sage.Alg.ofBits_200000 _

theorem v145_2_at16 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W16 m ρ c (Proc.devRef .tc main_v145_2) = (Cert.SageSpec.colSumSq (Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)))) :=
  (W16_of_ne m ρ c main_v145_2 (by decide)).trans ((keepH7 (W14 m ρ c) main_v145_2 (by decide)).trans ((W14_of_ne m ρ c main_v145_2 (by decide)).trans ((keepH6 (W12 m ρ c) main_v145_2 (by decide)).trans (v145_2_at12 m ρ c h0 h1 h8 h9 h10 h11 h12))))

set_option backward.isDefEq.respectTransparency.types false in
theorem v215_at17 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W17 m ρ c (Proc.devRef .tc main_v215) = (Cert.SageSpec.varK (Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) ((200000 : ℝ) : EReal)) := by
  show StableHlo.after hostOps8 (W16 m ρ c) (Proc.devRef .tc main_v215) = _
  after_results_simp
  rw [v145_2_at16 m ρ c h0 h1 h8 h9 h10 h11 h12, v145_1_at16 m ρ c h0 h1 h8 h9 h10 h11 h12]
  exact Cert.SageSpec.host_varK_eq _ (200000 : ℝ) _ Sage.Alg.ofBits_200000 _

set_option backward.isDefEq.respectTransparency.types false in
theorem v206_at17 : W17 m ρ c (Proc.devRef .tc main_v206) = (Cert.ReferenceIdeal.Read.val_main_v287 (F := Ideal) (m ((c : Thread nD τ).loc main_arg11))) := by
  show StableHlo.after hostOps8 (W16 m ρ c) (Proc.devRef .tc main_v206) = _
  after_results_simp
  rw [arg11_at16 m ρ c]
  rfl

set_option backward.isDefEq.respectTransparency.types false in
theorem v209_at17 : W17 m ρ c (Proc.devRef .tc main_v209) = (Cert.ReferenceIdeal.Read.val_main_v290 (F := Ideal) (m ((c : Thread nD τ).loc main_arg12))) := by
  show StableHlo.after hostOps8 (W16 m ρ c) (Proc.devRef .tc main_v209) = _
  after_results_simp
  rw [arg12_at16 m ρ c]
  rfl

theorem v145_0_at17 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W17 m ρ c (Proc.devRef .tc main_v145_0) = (Cert.ReferenceIdeal.Read.val_main_v263 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH8 (W16 m ρ c) main_v145_0 (by decide)).trans ((W16_of_ne m ρ c main_v145_0 (by decide)).trans ((keepH7 (W14 m ρ c) main_v145_0 (by decide)).trans ((W14_of_ne m ρ c main_v145_0 (by decide)).trans ((keepH6 (W12 m ρ c) main_v145_0 (by decide)).trans (v145_0_at12 m ρ c h0 h1 h8 h9 h10 h11 h12)))))

set_option backward.isDefEq.respectTransparency.types false in
theorem v216_at18 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W18 m ρ c (Proc.devRef .tc main_v216) = (Cert.ReferenceIdeal.Read.val_main_v292 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (W18_arr m ρ c 5).trans ((Cert.KernelIdeal.RegA.arr8 (V17 m ρ) c).trans (by
    rw [show V17 m ρ c main_v145_0 = _ from v145_0_at17 m ρ c h0 h1 h8 h9 h10 h11 h12, show V17 m ρ c main_v211 = _ from v211_at17 m ρ c h0 h1 h8 h9 h10 h11 h12, show V17 m ρ c main_v215 = _ from v215_at17 m ρ c h0 h1 h8 h9 h10 h11 h12, show V17 m ρ c main_v206 = _ from v206_at17 m ρ c, show V17 m ρ c main_v209 = _ from v209_at17 m ρ c]
    exact (Cert.SageSpec.bnApply_eq_bnRef _ (Cert.ReferenceIdeal.RefNet.real_v263 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) h0 h1 h8 h9 h10 h11 h12) (200000 : ℝ) (by norm_num) (by norm_num) _ _).trans (Cert.ReferenceIdeal.RefNet.v292_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.RegA9.lean ====
/-
  Region 9: batch normalisation applied, as one array.

  The region walks 75 blocks of 2000 rows. At block t it reads rows 2000 t … 2000 t + 1999 of the array to be
  normalised and the four whole rows of column means, column variances, scales and shifts, and writes the same rows
  of its output. Its body's block at entry (r, q) is ((h (r, q) − μ (q)) · rsqrt (v (q) + ε)) · γ (q) + β (q); so
  block t of the output is block t of the whole-array function that maps every entry this way, and the 75 blocks
  cover the 150000 rows: row i lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayBn
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem zeros2 : (![0, 0] : Fin 2 → Nat) = fun _ => 0 := funext fun a => by fin_cases a <;> rfl

/-- The block indices over the grid: the row-tiled windows sit at block (t, 0), the four rows at block (0, 0). -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Row r of block t as a row of the array. -/
def row9 (t : Fin cfg9.N) (r : Fin 2000) : Fin 150000 :=
  ⟨2000 * t.val + r.val, by
    have ht : t.val < 75 := Nat.lt_of_lt_of_eq t.isLt N_9
    have hr := r.isLt
    omega⟩

/-- Row r of window 0's block at point t is row 2000 t + r of its array. -/
theorem blk9_0 (c : Dev nD) (t : Fin cfg9.N) (r : Fin 2000) (k : Fin 128) :
    (iblk9 V c 0 t : S2000x128.Idx → EReal) (ix2 r k) = (V c main_v175_0 : S150000x128.Idx → EReal) (ix2 (row9 t r) k) := by
  obtain ⟨ea, eb, -⟩ := idx9 t
  unfold iblk9
  rw [View.read_apply]
  show (V c main_v175_0 : S150000x128.Idx → EReal) _ = _
  refine congrArg (V c main_v175_0 : S150000x128.Idx → EReal) ?_
  funext a; apply Fin.ext
  match a with
  | ⟨0, _⟩ => show win9_0.index t (0 : Fin 2) * 2000 + 1 * r.val = 2000 * t.val + r.val; rw [ea]; omega
  | ⟨1, _⟩ => show win9_0.index t (1 : Fin 2) * 128 + 1 * k.val = k.val; rw [eb]; omega

/-- Window 1's block at every point is its whole row. -/
theorem blk9_1 (c : Dev nD) (t : Fin cfg9.N) (k : Fin 1) (q : Fin 128) :
    (iblk9 V c 1 t : S1x128.Idx → EReal) (ix2 k q) = (V c main_v224 : S1x128.Idx → EReal) (ix2 k q) := by
  obtain ⟨-, -, ea, eb, -⟩ := idx9 t
  unfold iblk9
  rw [View.read_apply]
  show (V c main_v224 : S1x128.Idx → EReal) _ = _
  refine congrArg (V c main_v224 : S1x128.Idx → EReal) ?_
  funext a; apply Fin.ext
  match a with
  | ⟨0, _⟩ => show win9_1.index t (0 : Fin 2) * 1 + 1 * k.val = k.val; rw [ea]; omega
  | ⟨1, _⟩ => show win9_1.index t (1 : Fin 2) * 128 + 1 * q.val = q.val; rw [eb]; omega

/-- Window 2's block at every point is its whole row. -/
theorem blk9_2 (c : Dev nD) (t : Fin cfg9.N) (k : Fin 1) (q : Fin 128) :
    (iblk9 V c 2 t : S1x128.Idx → EReal) (ix2 k q) = (V c main_v228 : S1x128.Idx → EReal) (ix2 k q) := by
  obtain ⟨-, -, -, -, ea, eb, -⟩ := idx9 t
  unfold iblk9
  rw [View.read_apply]
  show (V c main_v228 : S1x128.Idx → EReal) _ = _
  refine congrArg (V c main_v228 : S1x128.Idx → EReal) ?_
  funext a; apply Fin.ext
  match a with
  | ⟨0, _⟩ => show win9_2.index t (0 : Fin 2) * 1 + 1 * k.val = k.val; rw [ea]; omega
  | ⟨1, _⟩ => show win9_2.index t (1 : Fin 2) * 128 + 1 * q.val = q.val; rw [eb]; omega

/-- Window 3's block at every point is its whole row. -/
theorem blk9_3 (c : Dev nD) (t : Fin cfg9.N) (k : Fin 1) (q : Fin 128) :
    (iblk9 V c 3 t : S1x128.Idx → EReal) (ix2 k q) = (V c main_v219 : S1x128.Idx → EReal) (ix2 k q) := by
  obtain ⟨-, -, -, -, -, -, ea, eb, -⟩ := idx9 t
  unfold iblk9
  rw [View.read_apply]
  show (V c main_v219 : S1x128.Idx → EReal) _ = _
  refine congrArg (V c main_v219 : S1x128.Idx → EReal) ?_
  funext a; apply Fin.ext
  match a with
  | ⟨0, _⟩ => show win9_3.index t (0 : Fin 2) * 1 + 1 * k.val = k.val; rw [ea]; omega
  | ⟨1, _⟩ => show win9_3.index t (1 : Fin 2) * 128 + 1 * q.val = q.val; rw [eb]; omega

/-- Window 4's block at every point is its whole row. -/
theorem blk9_4 (c : Dev nD) (t : Fin cfg9.N) (k : Fin 1) (q : Fin 128) :
    (iblk9 V c 4 t : S1x128.Idx → EReal) (ix2 k q) = (V c main_v222 : S1x128.Idx → EReal) (ix2 k q) := by
  obtain ⟨-, -, -, -, -, -, -, -, ea, eb, -⟩ := idx9 t
  unfold iblk9
  rw [View.read_apply]
  show (V c main_v222 : S1x128.Idx → EReal) _ = _
  refine congrArg (V c main_v222 : S1x128.Idx → EReal) ?_
  funext a; apply Fin.ext
  match a with
  | ⟨0, _⟩ => show win9_4.index t (0 : Fin 2) * 1 + 1 * k.val = k.val; rw [ea]; omega
  | ⟨1, _⟩ => show win9_4.index t (1 : Fin 2) * 128 + 1 * q.val = q.val; rw [eb]; omega

/-- What point t writes back is block t of the whole-array function. -/
theorem flushed9 (c : Dev nD) (t : Fin cfg9.N) :
    (dat9 V c).flushed 5 t = ((cfg9.win 5).blk t).view.read (Elt Ideal)
      (SageSpec.bnApply (V c main_v175_0) (V c main_v224) (V c main_v228) (V c main_v219) (V c main_v222)) := by
  show (cfg9.win 5).cut (grid9.coords t) ((dat9 V c).after 5 t) = _
  rw [after9_5]
  unfold out9_5
  rw [View.canon_unit_zero zeros2]
  simp only [View.ld_unit_zero (S := S2000x128) zeros2, View.ld_unit_zero (S := S1x128) zeros2]
  obtain ⟨-, -, -, -, -, -, -, -, -, -, ea, eb⟩ := idx9 t
  refine funext fun (j : S2000x128.Idx) => ?_
  obtain ⟨r, q, rfl⟩ : ∃ (r : Fin 2000) (q : Fin 128), j = ix2 r q := ⟨j 0, j 1, eq_ix2 j⟩
  have hemb : (((cfg9.win 5).blk t).view.emb (ix2 r q) : S150000x128.Idx) = ix2 (row9 t r) q := by
    funext a; apply Fin.ext
    match a with
    | ⟨0, _⟩ => show win9_5.index t (0 : Fin 2) * 2000 + 1 * r.val = 2000 * t.val + r.val; rw [ea]; omega
    | ⟨1, _⟩ => show win9_5.index t (1 : Fin 2) * 128 + 1 * q.val = q.val; rw [eb]; omega
  refine (k9_pay1_apply (iblk9 V c 0 t) (iblk9 V c 2 t) (iblk9 V c 1 t) (iblk9 V c 3 t) (iblk9 V c 4 t) r q).trans ?_
  refine Eq.trans ?_ (congrArg (SageSpec.bnApply (V c main_v175_0) (V c main_v224) (V c main_v228) (V c main_v219) (V c main_v222)) hemb).symm
  show _ = (_ - _) * _ * _ + _
  refine congrArg₂ (· + ·) (congrArg₂ (· * ·) (congrArg₂ (· * ·) (congrArg₂ (· - ·) ?_ ?_) ?_) ?_) ?_
  · exact blk9_0 V c t r q
  · exact blk9_1 V c t 0 q
  · exact congrArg (fun x => Ideal.rsqrt (x + SageSpec.eps)) (blk9_2 V c t 0 q)
  · exact blk9_3 V c t 0 q
  · exact blk9_4 V c t 0 q

/-- An index of the array is in point t's block iff each coordinate is in the block's range on its axis. -/
theorem mem_blk9 (t : Fin cfg9.N) (i : S150000x128.Idx) :
    i ∈ ((cfg9.win 5).blk t).view.set ↔ ∀ a : Fin 2, win9_5.index t a * S2000x128.size a ≤ (i a).val
      ∧ (i a).val < win9_5.index t a * S2000x128.size a + S2000x128.size a := by
  show i ∈ ((View.whole main_v229).slice (win9_5.rect t)).set ↔ _
  rw [View.set_slice_whole, Rect.mem_set_unit]
  exact Iff.rfl

/-- Every index of the array is in some point's block: row i is in block i / 2000. -/
theorem cover9 (i : S150000x128.Idx) :
    ∃ t : Fin cfg9.N, (cfg9.win 5).flush t = true ∧ i ∈ ((cfg9.win 5).blk t).view.set := by
  have hi0 : (i 0).val < 150000 := (i 0).isLt
  have hi1 : (i 1).val < 128 := (i 1).isLt
  have hN : cfg9.N = 75 := N_9
  obtain ⟨t, ht⟩ : ∃ t : Fin cfg9.N, t.val = (i 0).val / 2000 := ⟨⟨(i 0).val / 2000, by rw [hN]; omega⟩, rfl⟩
  obtain ⟨-, -, -, -, -, -, -, -, -, -, ea, eb⟩ := idx9 t
  refine ⟨t, flush9_5 t, ?_⟩
  rw [mem_blk9]
  intro a
  match a with
  | ⟨0, _⟩ =>
    show win9_5.index t (0 : Fin 2) * 2000 ≤ (i 0).val ∧ (i 0).val < win9_5.index t (0 : Fin 2) * 2000 + 2000
    rw [ea, ht]; omega
  | ⟨1, _⟩ =>
    show win9_5.index t (1 : Fin 2) * 128 ≤ (i 1).val ∧ (i 1).val < win9_5.index t (1 : Fin 2) * 128 + 128
    rw [eb]; omega

/-- The output array after the region is the whole-array function of the region's input arrays. -/
theorem arr9 (c : Dev nD) :
    (dat9 (F := Ideal) V c).arrAt 5 cfg9.N
      = SageSpec.bnApply (V c main_v175_0) (V c main_v224) (V c main_v228) (V c main_v219) (V c main_v222) :=
  (dat9 V c).arrAt_eq_of_cover 5 _ (fun t _ => flushed9 V c t) cover9

end Cert.KernelIdeal.RegA

end
-- ==== Proof.KReg9.lean ====
/-
  Region 9 of the idealized kernel program, read against the reference's stages: the region's host-computed operands
  are the same host operations of the same values as the reference's stages; the region's output arrays are the
  whole-array functions of its operands that the reference's corresponding stages are.
-/
import proofs.«146104_j52931176955955_1_alg».proof.Proof.KReg8
import proofs.«146104_j52931176955955_1_alg».proof.Proof.RegA9

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v175_1_at18 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W18 m ρ c (Proc.devRef .tc main_v175_1) = (Cert.SageSpec.colSum (Cert.ReferenceIdeal.Read.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)))) :=
  (W18_of_ne m ρ c main_v175_1 (by decide)).trans ((keepH8 (W16 m ρ c) main_v175_1 (by decide)).trans ((W16_of_ne m ρ c main_v175_1 (by decide)).trans ((keepH7 (W14 m ρ c) main_v175_1 (by decide)).trans (v175_1_at14 m ρ c h0 h1 h8 h9 h10 h11 h12))))

set_option backward.isDefEq.respectTransparency.types false in
theorem v224_at19 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W19 m ρ c (Proc.devRef .tc main_v224) = (Cert.SageSpec.muK (Cert.ReferenceIdeal.Read.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) ((150000 : ℝ) : EReal)) := by
  show StableHlo.after hostOps9 (W18 m ρ c) (Proc.devRef .tc main_v224) = _
  after_results_simp
  rw [v175_1_at18 m ρ c h0 h1 h8 h9 h10 h11 h12]
  exact Cert.SageSpec.host_muK_eq _ (150000 : ℝ) _ Sage.Alg.ofBits_150000 _

theorem v175_2_at18 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W18 m ρ c (Proc.devRef .tc main_v175_2) = (Cert.SageSpec.colSumSq (Cert.ReferenceIdeal.Read.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)))) :=
  (W18_of_ne m ρ c main_v175_2 (by decide)).trans ((keepH8 (W16 m ρ c) main_v175_2 (by decide)).trans ((W16_of_ne m ρ c main_v175_2 (by decide)).trans ((keepH7 (W14 m ρ c) main_v175_2 (by decide)).trans (v175_2_at14 m ρ c h0 h1 h8 h9 h10 h11 h12))))

set_option backward.isDefEq.respectTransparency.types false in
theorem v228_at19 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W19 m ρ c (Proc.devRef .tc main_v228) = (Cert.SageSpec.varK (Cert.ReferenceIdeal.Read.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) ((150000 : ℝ) : EReal)) := by
  show StableHlo.after hostOps9 (W18 m ρ c) (Proc.devRef .tc main_v228) = _
  after_results_simp
  rw [v175_2_at18 m ρ c h0 h1 h8 h9 h10 h11 h12, v175_1_at18 m ρ c h0 h1 h8 h9 h10 h11 h12]
  exact Cert.SageSpec.host_varK_eq _ (150000 : ℝ) _ Sage.Alg.ofBits_150000 _

set_option backward.isDefEq.respectTransparency.types false in
theorem v219_at19 : W19 m ρ c (Proc.devRef .tc main_v219) = (Cert.ReferenceIdeal.Read.val_main_v317 (F := Ideal) (m ((c : Thread nD τ).loc main_arg11))) := by
  show StableHlo.after hostOps9 (W18 m ρ c) (Proc.devRef .tc main_v219) = _
  after_results_simp
  rw [arg11_at18 m ρ c]
  rfl

set_option backward.isDefEq.respectTransparency.types false in
theorem v222_at19 : W19 m ρ c (Proc.devRef .tc main_v222) = (Cert.ReferenceIdeal.Read.val_main_v320 (F := Ideal) (m ((c : Thread nD τ).loc main_arg12))) := by
  show StableHlo.after hostOps9 (W18 m ρ c) (Proc.devRef .tc main_v222) = _
  after_results_simp
  rw [arg12_at18 m ρ c]
  rfl

theorem v175_0_at19 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W19 m ρ c (Proc.devRef .tc main_v175_0) = (Cert.ReferenceIdeal.Read.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH9 (W18 m ρ c) main_v175_0 (by decide)).trans ((W18_of_ne m ρ c main_v175_0 (by decide)).trans ((keepH8 (W16 m ρ c) main_v175_0 (by decide)).trans ((W16_of_ne m ρ c main_v175_0 (by decide)).trans ((keepH7 (W14 m ρ c) main_v175_0 (by decide)).trans (v175_0_at14 m ρ c h0 h1 h8 h9 h10 h11 h12)))))

set_option backward.isDefEq.respectTransparency.types false in
theorem v229_at20 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W20 m ρ c (Proc.devRef .tc main_v229) = (Cert.ReferenceIdeal.Read.val_main_v322 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  (W20_arr m ρ c 5).trans ((Cert.KernelIdeal.RegA.arr9 (V19 m ρ) c).trans (by
    rw [show V19 m ρ c main_v175_0 = _ from v175_0_at19 m ρ c h0 h1 h8 h9 h10 h11 h12, show V19 m ρ c main_v224 = _ from v224_at19 m ρ c h0 h1 h8 h9 h10 h11 h12, show V19 m ρ c main_v228 = _ from v228_at19 m ρ c h0 h1 h8 h9 h10 h11 h12, show V19 m ρ c main_v219 = _ from v219_at19 m ρ c, show V19 m ρ c main_v222 = _ from v222_at19 m ρ c]
    exact (Cert.SageSpec.bnApply_eq_bnRef _ (Cert.ReferenceIdeal.RefNet.real_v293 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) h0 h1 h8 h9 h10 h11 h12) (150000 : ℝ) (by norm_num) (by norm_num) _ _).trans (Cert.ReferenceIdeal.RefNet.v322_eq (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.RegA10.lean ====
/-
  Region 10: batch normalisation applied, as one array.

  The region walks 5 blocks of 2000 rows. At block t it reads rows 2000 t … 2000 t + 1999 of the array to be
  normalised and the four whole rows of column means, column variances, scales and shifts, and writes the same rows
  of its output. Its body's block at entry (r, q) is ((h (r, q) − μ (q)) · rsqrt (v (q) + ε)) · γ (q) + β (q); so
  block t of the output is block t of the whole-array function that maps every entry this way, and the 5 blocks
  cover the 10000 rows: row i lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayBn
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem zeros2 : (![0, 0] : Fin 2 → Nat) = fun _ => 0 := funext fun a => by fin_cases a <;> rfl

/-- The block indices over the grid: the row-tiled windows sit at block (t, 0), the four rows at block (0, 0). -/
theorem idx10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Row r of block t as a row of the array. -/
def row10 (t : Fin cfg10.N) (r : Fin 2000) : Fin 10000 :=
  ⟨2000 * t.val + r.val, by
    have ht : t.val < 5 := Nat.lt_of_lt_of_eq t.isLt N_10
    have hr := r.isLt
    omega⟩

/-- Row r of window 0's block at point t is row 2000 t + r of its array. -/
theorem blk10_0 (c : Dev nD) (t : Fin cfg10.N) (r : Fin 2000) (k : Fin 128) :
    (iblk10 V c 0 t : S2000x128.Idx → EReal) (ix2 r k) = (V c main_v203_0 : S10000x128.Idx → EReal) (ix2 (row10 t r) k) := by
  obtain ⟨ea, eb, -⟩ := idx10 t
  unfold iblk10
  rw [View.read_apply]
  show (V c main_v203_0 : S10000x128.Idx → EReal) _ = _
  refine congrArg (V c main_v203_0 : S10000x128.Idx → EReal) ?_
  funext a; apply Fin.ext
  match a with
  | ⟨0, _⟩ => show win10_0.index t (0 : Fin 2) * 2000 + 1 * r.val = 2000 * t.val + r.val; rw [ea]; omega
  | ⟨1, _⟩ => show win10_0.index t (1 : Fin 2) * 128 + 1 * k.val = k.val; rw [eb]; omega

/-- Window 1's block at every point is its whole row. -/
theorem blk10_1 (c : Dev nD) (t : Fin cfg10.N) (k : Fin 1) (q : Fin 128) :
    (iblk10 V c 1 t : S1x128.Idx → EReal) (ix2 k q) = (V c main_v237 : S1x128.Idx → EReal) (ix2 k q) := by
  obtain ⟨-, -, ea, eb, -⟩ := idx10 t
  unfold iblk10
  rw [View.read_apply]
  show (V c main_v237 : S1x128.Idx → EReal) _ = _
  refine congrArg (V c main_v237 : S1x128.Idx → EReal) ?_
  funext a; apply Fin.ext
  match a with
  | ⟨0, _⟩ => show win10_1.index t (0 : Fin 2) * 1 + 1 * k.val = k.val; rw [ea]; omega
  | ⟨1, _⟩ => show win10_1.index t (1 : Fin 2) * 128 + 1 * q.val = q.val; rw [eb]; omega

/-- Window 2's block at every point is its whole row. -/
theorem blk10_2 (c : Dev nD) (t : Fin cfg10.N) (k : Fin 1) (q : Fin 128) :
    (iblk10 V c 2 t : S1x128.Idx → EReal) (ix2 k q) = (V c main_v241 : S1x128.Idx → EReal) (ix2 k q) := by
  obtain ⟨-, -, -, -, ea, eb, -⟩ := idx10 t
  unfold iblk10
  rw [View.read_apply]
  show (V c main_v241 : S1x128.Idx → EReal) _ = _
  refine congrArg (V c main_v241 : S1x128.Idx → EReal) ?_
  funext a; apply Fin.ext
  match a with
  | ⟨0, _⟩ => show win10_2.index t (0 : Fin 2) * 1 + 1 * k.val = k.val; rw [ea]; omega
  | ⟨1, _⟩ => show win10_2.index t (1 : Fin 2) * 128 + 1 * q.val = q.val; rw [eb]; omega

/-- Window 3's block at every point is its whole row. -/
theorem blk10_3 (c : Dev nD) (t : Fin cfg10.N) (k : Fin 1) (q : Fin 128) :
    (iblk10 V c 3 t : S1x128.Idx → EReal) (ix2 k q) = (V c main_v232 : S1x128.Idx → EReal) (ix2 k q) := by
  obtain ⟨-, -, -, -, -, -, ea, eb, -⟩ := idx10 t
  unfold iblk10
  rw [View.read_apply]
  show (V c main_v232 : S1x128.Idx → EReal) _ = _
  refine congrArg (V c main_v232 : S1x128.Idx → EReal) ?_
  funext a; apply Fin.ext
  match a with
  | ⟨0, _⟩ => show win10_3.index t (0 : Fin 2) * 1 + 1 * k.val = k.val; rw [ea]; omega
  | ⟨1, _⟩ => show win10_3.index t (1 : Fin 2) * 128 + 1 * q.val = q.val; rw [eb]; omega

/-- Window 4's block at every point is its whole row. -/
theorem blk10_4 (c : Dev nD) (t : Fin cfg10.N) (k : Fin 1) (q : Fin 128) :
    (iblk10 V c 4 t : S1x128.Idx → EReal) (ix2 k q) = (V c main_v235 : S1x128.Idx → EReal) (ix2 k q) := by
  obtain ⟨-, -, -, -, -, -, -, -, ea, eb, -⟩ := idx10 t
  unfold iblk10
  rw [View.read_apply]
  show (V c main_v235 : S1x128.Idx → EReal) _ = _
  refine congrArg (V c main_v235 : S1x128.Idx → EReal) ?_
  funext a; apply Fin.ext
  match a with
  | ⟨0, _⟩ => show win10_4.index t (0 : Fin 2) * 1 + 1 * k.val = k.val; rw [ea]; omega
  | ⟨1, _⟩ => show win10_4.index t (1 : Fin 2) * 128 + 1 * q.val = q.val; rw [eb]; omega

/-- What point t writes back is block t of the whole-array function. -/
theorem flushed10 (c : Dev nD) (t : Fin cfg10.N) :
    (dat10 V c).flushed 5 t = ((cfg10.win 5).blk t).view.read (Elt Ideal)
      (SageSpec.bnApply (V c main_v203_0) (V c main_v237) (V c main_v241) (V c main_v232) (V c main_v235)) := by
  show (cfg10.win 5).cut (grid10.coords t) ((dat10 V c).after 5 t) = _
  rw [after10_5]
  unfold out10_5
  rw [View.canon_unit_zero zeros2]
  simp only [View.ld_unit_zero (S := S2000x128) zeros2, View.ld_unit_zero (S := S1x128) zeros2]
  obtain ⟨-, -, -, -, -, -, -, -, -, -, ea, eb⟩ := idx10 t
  refine funext fun (j : S2000x128.Idx) => ?_
  obtain ⟨r, q, rfl⟩ : ∃ (r : Fin 2000) (q : Fin 128), j = ix2 r q := ⟨j 0, j 1, eq_ix2 j⟩
  have hemb : (((cfg10.win 5).blk t).view.emb (ix2 r q) : S10000x128.Idx) = ix2 (row10 t r) q := by
    funext a; apply Fin.ext
    match a with
    | ⟨0, _⟩ => show win10_5.index t (0 : Fin 2) * 2000 + 1 * r.val = 2000 * t.val + r.val; rw [ea]; omega
    | ⟨1, _⟩ => show win10_5.index t (1 : Fin 2) * 128 + 1 * q.val = q.val; rw [eb]; omega
  refine (k10_pay1_apply (iblk10 V c 0 t) (iblk10 V c 2 t) (iblk10 V c 1 t) (iblk10 V c 3 t) (iblk10 V c 4 t) r q).trans ?_
  refine Eq.trans ?_ (congrArg (SageSpec.bnApply (V c main_v203_0) (V c main_v237) (V c main_v241) (V c main_v232) (V c main_v235)) hemb).symm
  show _ = (_ - _) * _ * _ + _
  refine congrArg₂ (· + ·) (congrArg₂ (· * ·) (congrArg₂ (· * ·) (congrArg₂ (· - ·) ?_ ?_) ?_) ?_) ?_
  · exact blk10_0 V c t r q
  · exact blk10_1 V c t 0 q
  · exact congrArg (fun x => Ideal.rsqrt (x + SageSpec.eps)) (blk10_2 V c t 0 q)
  · exact blk10_3 V c t 0 q
  · exact blk10_4 V c t 0 q

/-- An index of the array is in point t's block iff each coordinate is in the block's range on its axis. -/
theorem mem_blk10 (t : Fin cfg10.N) (i : S10000x128.Idx) :
    i ∈ ((cfg10.win 5).blk t).view.set ↔ ∀ a : Fin 2, win10_5.index t a * S2000x128.size a ≤ (i a).val
      ∧ (i a).val < win10_5.index t a * S2000x128.size a + S2000x128.size a := by
  show i ∈ ((View.whole main_v242).slice (win10_5.rect t)).set ↔ _
  rw [View.set_slice_whole, Rect.mem_set_unit]
  exact Iff.rfl

/-- Every index of the array is in some point's block: row i is in block i / 2000. -/
theorem cover10 (i : S10000x128.Idx) :
    ∃ t : Fin cfg10.N, (cfg10.win 5).flush t = true ∧ i ∈ ((cfg10.win 5).blk t).view.set := by
  have hi0 : (i 0).val < 10000 := (i 0).isLt
  have hi1 : (i 1).val < 128 := (i 1).isLt
  have hN : cfg10.N = 5 := N_10
  obtain ⟨t, ht⟩ : ∃ t : Fin cfg10.N, t.val = (i 0).val / 2000 := ⟨⟨(i 0).val / 2000, by rw [hN]; omega⟩, rfl⟩
  obtain ⟨-, -, -, -, -, -, -, -, -, -, ea, eb⟩ := idx10 t
  refine ⟨t, flush10_5 t, ?_⟩
  rw [mem_blk10]
  intro a
  match a with
  | ⟨0, _⟩ =>
    show win10_5.index t (0 : Fin 2) * 2000 ≤ (i 0).val ∧ (i 0).val < win10_5.index t (0 : Fin 2) * 2000 + 2000
    rw [ea, ht]; omega
  | ⟨1, _⟩ =>
    show win10_5.index t (1 : Fin 2) * 128 ≤ (i 1).val ∧ (i 1).val < win10_5.index t (1 : Fin 2) * 128 + 128
    rw [eb]; omega

/-- The output array after the region is the whole-array function of the region's input arrays. -/
theorem arr10 (c : Dev nD) :
    (dat10 (F := Ideal) V c).arrAt 5 cfg10.N
      = SageSpec.bnApply (V c main_v203_0) (V c main_v237) (V c main_v241) (V c main_v232) (V c main_v235) :=
  (dat10 V c).arrAt_eq_of_cover 5 _ (fun t _ => flushed10 V c t) cover10

end Cert.KernelIdeal.RegA

end
-- ==== Proof.KReg10.lean ====
/-
  Region 10 of the idealized kernel program, read against the reference's stages: the region's host-computed operands
  are the same host operations of the same values as the reference's stages; the region's output arrays are the
  whole-array functions of its operands that the reference's corresponding stages are.
-/
import proofs.«146104_j52931176955955_1_alg».proof.Proof.KReg9
import proofs.«146104_j52931176955955_1_alg».proof.Proof.RegA10

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v203_1_at20 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W20 m ρ c (Proc.devRef .tc main_v203_1) = (Cert.SageSpec.colSum (Cert.ReferenceIdeal.Read.val_main_v323 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)))) :=
  (W20_of_ne m ρ c main_v203_1 (by decide)).trans ((keepH9 (W18 m ρ c) main_v203_1 (by decide)).trans ((W18_of_ne m ρ c main_v203_1 (by decide)).trans ((keepH8 (W16 m ρ c) main_v203_1 (by decide)).trans (v203_1_at16 m ρ c h0 h1 h8 h9 h10 h11 h12))))

set_option backward.isDefEq.respectTransparency.types false in
theorem v237_at21 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W21 m ρ c (Proc.devRef .tc main_v237) = (Cert.SageSpec.muK (Cert.ReferenceIdeal.Read.val_main_v323 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) ((10000 : ℝ) : EReal)) := by
  show StableHlo.after hostOps10 (W20 m ρ c) (Proc.devRef .tc main_v237) = _
  after_results_simp
  rw [v203_1_at20 m ρ c h0 h1 h8 h9 h10 h11 h12]
  exact Cert.SageSpec.host_muK_eq _ (10000 : ℝ) _ Sage.Alg.ofBits_10000 _

theorem v203_2_at20 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W20 m ρ c (Proc.devRef .tc main_v203_2) = (Cert.SageSpec.colSumSq (Cert.ReferenceIdeal.Read.val_main_v323 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)))) :=
  (W20_of_ne m ρ c main_v203_2 (by decide)).trans ((keepH9 (W18 m ρ c) main_v203_2 (by decide)).trans ((W18_of_ne m ρ c main_v203_2 (by decide)).trans ((keepH8 (W16 m ρ c) main_v203_2 (by decide)).trans (v203_2_at16 m ρ c h0 h1 h8 h9 h10 h11 h12))))

set_option backward.isDefEq.respectTransparency.types false in
theorem v241_at21 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W21 m ρ c (Proc.devRef .tc main_v241) = (Cert.SageSpec.varK (Cert.ReferenceIdeal.Read.val_main_v323 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) ((10000 : ℝ) : EReal)) := by
  show StableHlo.after hostOps10 (W20 m ρ c) (Proc.devRef .tc main_v241) = _
  after_results_simp
  rw [v203_2_at20 m ρ c h0 h1 h8 h9 h10 h11 h12, v203_1_at20 m ρ c h0 h1 h8 h9 h10 h11 h12]
  exact Cert.SageSpec.host_varK_eq _ (10000 : ℝ) _ Sage.Alg.ofBits_10000 _

set_option backward.isDefEq.respectTransparency.types false in
theorem v232_at21 : W21 m ρ c (Proc.devRef .tc main_v232) = (Cert.ReferenceIdeal.Read.val_main_v347 (F := Ideal) (m ((c : Thread nD τ).loc main_arg11))) := by
  show StableHlo.after hostOps10 (W20 m ρ c) (Proc.devRef .tc main_v232) = _
  after_results_simp
  rw [arg11_at20 m ρ c]
  rfl

set_option backward.isDefEq.respectTransparency.types false in
theorem v235_at21 : W21 m ρ c (Proc.devRef .tc main_v235) = (Cert.ReferenceIdeal.Read.val_main_v350 (F := Ideal) (m ((c : Thread nD τ).loc main_arg12))) := by
  show StableHlo.after hostOps10 (W20 m ρ c) (Proc.devRef .tc main_v235) = _
  after_results_simp
  rw [arg12_at20 m ρ c]
  rfl

theorem v203_0_at21 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W21 m ρ c (Proc.devRef .tc main_v203_0) = (Cert.ReferenceIdeal.Read.val_main_v323 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH10 (W20 m ρ c) main_v203_0 (by decide)).trans ((W20_of_ne m ρ c main_v203_0 (by decide)).trans ((keepH9 (W18 m ρ c) main_v203_0 (by decide)).trans ((W18_of_ne m ρ c main_v203_0 (by decide)).trans ((keepH8 (W16 m ρ c) main_v203_0 (by decide)).trans (v203_0_at16 m ρ c h0 h1 h8 h9 h10 h11 h12)))))

set_option backward.isDefEq.respectTransparency.types false in
theorem v242_at22 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W22 m ρ c (Proc.devRef .tc main_v242) = (Cert.ReferenceIdeal.Read.val_main_v352 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) :=
  (W22_arr m ρ c 5).trans ((Cert.KernelIdeal.RegA.arr10 (V21 m ρ) c).trans (by
    rw [show V21 m ρ c main_v203_0 = _ from v203_0_at21 m ρ c h0 h1 h8 h9 h10 h11 h12, show V21 m ρ c main_v237 = _ from v237_at21 m ρ c h0 h1 h8 h9 h10 h11 h12, show V21 m ρ c main_v241 = _ from v241_at21 m ρ c h0 h1 h8 h9 h10 h11 h12, show V21 m ρ c main_v232 = _ from v232_at21 m ρ c, show V21 m ρ c main_v235 = _ from v235_at21 m ρ c]
    exact (Cert.SageSpec.bnApply_eq_bnRef _ (Cert.ReferenceIdeal.RefNet.real_v323 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) h0 h1 h8 h9 h10 h11 h12) (10000 : ℝ) (by norm_num) (by norm_num) _ _).trans (Cert.ReferenceIdeal.RefNet.v352_eq (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.RegA11.lean ====
/-
  Region 11: a dense step as one array.

  The region walks 100 blocks of 2000 rows. At block t it reads rows 2000 t … 2000 t + 1999 of the neighbour means
  and of the nodes' own features, the two whole 128 × 128 matrices and the whole bias row, and writes the same rows
  of its output. Its body's block at entry (r, q) is the dense step of the operands' row r; so block t of the output
  is block t of the whole-array function  mean · Wl + b + x · Wr,  and the 100 blocks cover the 200000 rows: row i
  lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayLin
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros11 : (![0, 0] : Fin 2 → Nat) = fun _ => 0 := funext fun a => by fin_cases a <;> rfl

/-- The block indices over the grid: the row-tiled windows sit at block (t, 0), the others at block (0, 0). -/
theorem idx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Row r of block t as a row of the array. -/
def row11 (t : Fin cfg11.N) (r : Fin 2000) : Fin 200000 :=
  ⟨2000 * t.val + r.val, by
    have ht : t.val < 100 := Nat.lt_of_lt_of_eq t.isLt N_11
    have hr := r.isLt
    omega⟩

/-- Row r of window 0's block at point t is row 2000 t + r of its array. -/
theorem blk11_0 (c : Dev nD) (t : Fin cfg11.N) (r : Fin 2000) (k : Fin 128) :
    (iblk11 V c 0 t : S2000x128.Idx → EReal) (ix2 r k) = (V c main_v264 : S200000x128.Idx → EReal) (ix2 (row11 t r) k) := by
  obtain ⟨ea, eb, -⟩ := idx11 t
  unfold iblk11
  rw [View.read_apply]
  show (V c main_v264 : S200000x128.Idx → EReal) _ = _
  refine congrArg (V c main_v264 : S200000x128.Idx → EReal) ?_
  funext a; apply Fin.ext
  match a with
  | ⟨0, _⟩ => show win11_0.index t (0 : Fin 2) * 2000 + 1 * r.val = 2000 * t.val + r.val; rw [ea]; omega
  | ⟨1, _⟩ => show win11_0.index t (1 : Fin 2) * 128 + 1 * k.val = k.val; rw [eb]; omega

/-- Window 1's block at every point is its whole array. -/
theorem blk11_1 (c : Dev nD) (t : Fin cfg11.N) (k : Fin 128) (q : Fin 128) :
    (iblk11 V c 1 t : S128x128.Idx → EReal) (ix2 k q) = (V c main_v288 : S128x128.Idx → EReal) (ix2 k q) := by
  obtain ⟨-, -, ea, eb, -⟩ := idx11 t
  unfold iblk11
  rw [View.read_apply]
  show (V c main_v288 : S128x128.Idx → EReal) _ = _
  refine congrArg (V c main_v288 : S128x128.Idx → EReal) ?_
  funext a; apply Fin.ext
  match a with
  | ⟨0, _⟩ => show win11_1.index t (0 : Fin 2) * 128 + 1 * k.val = k.val; rw [ea]; omega
  | ⟨1, _⟩ => show win11_1.index t (1 : Fin 2) * 128 + 1 * q.val = q.val; rw [eb]; omega

/-- Window 2's block at every point is its whole array. -/
theorem blk11_2 (c : Dev nD) (t : Fin cfg11.N) (k : Fin 1) (q : Fin 128) :
    (iblk11 V c 2 t : S1x128.Idx → EReal) (ix2 k q) = (V c main_v291 : S1x128.Idx → EReal) (ix2 k q) := by
  obtain ⟨-, -, -, -, ea, eb, -⟩ := idx11 t
  unfold iblk11
  rw [View.read_apply]
  show (V c main_v291 : S1x128.Idx → EReal) _ = _
  refine congrArg (V c main_v291 : S1x128.Idx → EReal) ?_
  funext a; apply Fin.ext
  match a with
  | ⟨0, _⟩ => show win11_2.index t (0 : Fin 2) * 1 + 1 * k.val = k.val; rw [ea]; omega
  | ⟨1, _⟩ => show win11_2.index t (1 : Fin 2) * 128 + 1 * q.val = q.val; rw [eb]; omega

/-- Row r of window 3's block at point t is row 2000 t + r of its array. -/
theorem blk11_3 (c : Dev nD) (t : Fin cfg11.N) (r : Fin 2000) (k : Fin 128) :
    (iblk11 V c 3 t : S2000x128.Idx → EReal) (ix2 r k) = (V c main_v216 : S200000x128.Idx → EReal) (ix2 (row11 t r) k) := by
  obtain ⟨-, -, -, -, -, -, ea, eb, -⟩ := idx11 t
  unfold iblk11
  rw [View.read_apply]
  show (V c main_v216 : S200000x128.Idx → EReal) _ = _
  refine congrArg (V c main_v216 : S200000x128.Idx → EReal) ?_
  funext a; apply Fin.ext
  match a with
  | ⟨0, _⟩ => show win11_3.index t (0 : Fin 2) * 2000 + 1 * r.val = 2000 * t.val + r.val; rw [ea]; omega
  | ⟨1, _⟩ => show win11_3.index t (1 : Fin 2) * 128 + 1 * k.val = k.val; rw [eb]; omega

/-- Window 4's block at every point is its whole array. -/
theorem blk11_4 (c : Dev nD) (t : Fin cfg11.N) (k : Fin 128) (q : Fin 128) :
    (iblk11 V c 4 t : S128x128.Idx → EReal) (ix2 k q) = (V c main_v293 : S128x128.Idx → EReal) (ix2 k q) := by
  obtain ⟨-, -, -, -, -, -, -, -, ea, eb, -⟩ := idx11 t
  unfold iblk11
  rw [View.read_apply]
  show (V c main_v293 : S128x128.Idx → EReal) _ = _
  refine congrArg (V c main_v293 : S128x128.Idx → EReal) ?_
  funext a; apply Fin.ext
  match a with
  | ⟨0, _⟩ => show win11_4.index t (0 : Fin 2) * 128 + 1 * k.val = k.val; rw [ea]; omega
  | ⟨1, _⟩ => show win11_4.index t (1 : Fin 2) * 128 + 1 * q.val = q.val; rw [eb]; omega

/-- What point t writes back is block t of the whole-array function. -/
theorem flushed11 (c : Dev nD) (t : Fin cfg11.N) :
    (dat11 V c).flushed 5 t = ((cfg11.win 5).blk t).view.read (Elt Ideal)
      (SageSpec.lin (V c main_v264) (V c main_v288) (V c main_v291) (V c main_v216) (V c main_v293)) := by
  show (cfg11.win 5).cut (grid11.coords t) ((dat11 V c).after 5 t) = _
  rw [after11_5]
  unfold out11_5
  rw [View.canon_unit_zero zeros11]
  simp only [View.ld_unit_zero (S := S2000x128) zeros11, View.ld_unit_zero (S := S128x128) zeros11, View.ld_unit_zero (S := S1x128) zeros11]
  obtain ⟨-, -, -, -, -, -, -, -, -, -, ea, eb⟩ := idx11 t
  refine funext fun (j : S2000x128.Idx) => ?_
  obtain ⟨r, q, rfl⟩ : ∃ (r : Fin 2000) (q : Fin 128), j = ix2 r q := ⟨j 0, j 1, eq_ix2 j⟩
  have hemb : (((cfg11.win 5).blk t).view.emb (ix2 r q) : S200000x128.Idx) = ix2 (row11 t r) q := by
    funext a; apply Fin.ext
    match a with
    | ⟨0, _⟩ => show win11_5.index t (0 : Fin 2) * 2000 + 1 * r.val = 2000 * t.val + r.val; rw [ea]; omega
    | ⟨1, _⟩ => show win11_5.index t (1 : Fin 2) * 128 + 1 * q.val = q.val; rw [eb]; omega
  refine (k11_pay1_apply (iblk11 V c 0 t) (iblk11 V c 1 t) (iblk11 V c 2 t) (iblk11 V c 3 t) (iblk11 V c 4 t) r q).trans ?_
  refine Eq.trans ?_ (congrArg (SageSpec.lin (V c main_v264) (V c main_v288) (V c main_v291) (V c main_v216) (V c main_v293)) hemb).symm
  show _ = _ + _ + _
  refine congrArg₂ (· + ·) (congrArg₂ (· + ·) ?_ ?_) ?_
  · exact Finset.sum_congr rfl fun k _ => congrArg₂ (· * ·) (blk11_0 V c t r k) (blk11_1 V c t k q)
  · exact blk11_2 V c t 0 q
  · exact Finset.sum_congr rfl fun k _ => congrArg₂ (· * ·) (blk11_3 V c t r k) (blk11_4 V c t k q)

/-- An index of the array is in point t's block iff each coordinate is in the block's range on its axis. -/
theorem mem_blk11 (t : Fin cfg11.N) (i : S200000x128.Idx) :
    i ∈ ((cfg11.win 5).blk t).view.set ↔ ∀ a : Fin 2, win11_5.index t a * S2000x128.size a ≤ (i a).val
      ∧ (i a).val < win11_5.index t a * S2000x128.size a + S2000x128.size a := by
  show i ∈ ((View.whole main_v294).slice (win11_5.rect t)).set ↔ _
  rw [View.set_slice_whole, Rect.mem_set_unit]
  exact Iff.rfl

/-- Every index of the array is in some point's block: row i is in block i / 2000. -/
theorem cover11 (i : S200000x128.Idx) :
    ∃ t : Fin cfg11.N, (cfg11.win 5).flush t = true ∧ i ∈ ((cfg11.win 5).blk t).view.set := by
  have hi0 : (i 0).val < 200000 := (i 0).isLt
  have hi1 : (i 1).val < 128 := (i 1).isLt
  have hN : cfg11.N = 100 := N_11
  obtain ⟨t, ht⟩ : ∃ t : Fin cfg11.N, t.val = (i 0).val / 2000 := ⟨⟨(i 0).val / 2000, by rw [hN]; omega⟩, rfl⟩
  obtain ⟨-, -, -, -, -, -, -, -, -, -, ea, eb⟩ := idx11 t
  refine ⟨t, flush11_5 t, ?_⟩
  rw [mem_blk11]
  intro a
  match a with
  | ⟨0, _⟩ =>
    show win11_5.index t (0 : Fin 2) * 2000 ≤ (i 0).val ∧ (i 0).val < win11_5.index t (0 : Fin 2) * 2000 + 2000
    rw [ea, ht]; omega
  | ⟨1, _⟩ =>
    show win11_5.index t (1 : Fin 2) * 128 ≤ (i 1).val ∧ (i 1).val < win11_5.index t (1 : Fin 2) * 128 + 128
    rw [eb]; omega

/-- The output array after the region is the whole-array function of the region's input arrays. -/
theorem arr11 (c : Dev nD) :
    (dat11 (F := Ideal) V c).arrAt 5 cfg11.N
      = SageSpec.lin (V c main_v264) (V c main_v288) (V c main_v291) (V c main_v216) (V c main_v293) :=
  (dat11 V c).arrAt_eq_of_cover 5 _ (fun t _ => flushed11 V c t) (cover11)

end Cert.KernelIdeal.RegA

end
-- ==== Proof.KReg11.lean ====
/-
  Region 11 of the idealized kernel program, read against the reference's stages: the region's host-computed operands
  are the same host operations of the same values as the reference's stages; the region's output arrays are the
  whole-array functions of its operands that the reference's corresponding stages are.
-/
import proofs.«146104_j52931176955955_1_alg».proof.Proof.KReg10
import proofs.«146104_j52931176955955_1_alg».proof.Proof.RegA11

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v216_at22 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W22 m ρ c (Proc.devRef .tc main_v216) = (Cert.ReferenceIdeal.Read.val_main_v292 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (W22_of_ne m ρ c main_v216 (by decide)).trans ((keepH10 (W20 m ρ c) main_v216 (by decide)).trans ((W20_of_ne m ρ c main_v216 (by decide)).trans ((keepH9 (W18 m ρ c) main_v216 (by decide)).trans (v216_at18 m ρ c h0 h1 h8 h9 h10 h11 h12))))

set_option backward.isDefEq.respectTransparency.types false in
theorem v264_at23 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W23 m ρ c (Proc.devRef .tc main_v264) = (Cert.ReferenceIdeal.Read.val_main_v380 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps11 (W22 m ρ c) (Proc.devRef .tc main_v264) = _
  after_results_simp
  rw [arg3_at22 m ρ c, v216_at22 m ρ c h0 h1 h8 h9 h10 h11 h12]
  rfl

set_option backward.isDefEq.respectTransparency.types false in
theorem v288_at23 : W23 m ρ c (Proc.devRef .tc main_v288) = (Cert.ReferenceIdeal.Read.val_main_v354 (F := Ideal) (m ((c : Thread nD τ).loc main_arg8))) := by
  show StableHlo.after hostOps11 (W22 m ρ c) (Proc.devRef .tc main_v288) = _
  after_results_simp
  rw [arg8_at22 m ρ c]
  rfl

set_option backward.isDefEq.respectTransparency.types false in
theorem v291_at23 : W23 m ρ c (Proc.devRef .tc main_v291) = (Cert.ReferenceIdeal.Read.val_main_v382 (F := Ideal) (m ((c : Thread nD τ).loc main_arg9))) := by
  show StableHlo.after hostOps11 (W22 m ρ c) (Proc.devRef .tc main_v291) = _
  after_results_simp
  rw [arg9_at22 m ρ c]
  rfl

set_option backward.isDefEq.respectTransparency.types false in
theorem v293_at23 : W23 m ρ c (Proc.devRef .tc main_v293) = (Cert.ReferenceIdeal.Read.val_main_v358 (F := Ideal) (m ((c : Thread nD τ).loc main_arg10))) := by
  show StableHlo.after hostOps11 (W22 m ρ c) (Proc.devRef .tc main_v293) = _
  after_results_simp
  rw [arg10_at22 m ρ c]
  rfl

theorem v229_at22 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W22 m ρ c (Proc.devRef .tc main_v229) = (Cert.ReferenceIdeal.Read.val_main_v322 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  (W22_of_ne m ρ c main_v229 (by decide)).trans ((keepH10 (W20 m ρ c) main_v229 (by decide)).trans (v229_at20 m ρ c h0 h1 h8 h9 h10 h11 h12))

set_option backward.isDefEq.respectTransparency.types false in
theorem v286_at23 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W23 m ρ c (Proc.devRef .tc main_v286) = (Cert.ReferenceIdeal.Read.val_main_v414 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps11 (W22 m ρ c) (Proc.devRef .tc main_v286) = _
  after_results_simp
  rw [arg5_at22 m ρ c, v229_at22 m ρ c h0 h1 h8 h9 h10 h11 h12]
  rfl

theorem v216_at23 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W23 m ρ c (Proc.devRef .tc main_v216) = (Cert.ReferenceIdeal.Read.val_main_v292 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH11 (W22 m ρ c) main_v216 (by decide)).trans (v216_at22 m ρ c h0 h1 h8 h9 h10 h11 h12)

set_option backward.isDefEq.respectTransparency.types false in
theorem v294_at24 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W24 m ρ c (Proc.devRef .tc main_v294) = (Cert.ReferenceIdeal.Read.val_main_v386 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (W24_arr m ρ c 5).trans ((Cert.KernelIdeal.RegA.arr11 (V23 m ρ) c).trans (by
    rw [show V23 m ρ c main_v264 = _ from v264_at23 m ρ c h0 h1 h8 h9 h10 h11 h12, show V23 m ρ c main_v288 = _ from v288_at23 m ρ c, show V23 m ρ c main_v291 = _ from v291_at23 m ρ c, show V23 m ρ c main_v216 = _ from v216_at23 m ρ c h0 h1 h8 h9 h10 h11 h12, show V23 m ρ c main_v293 = _ from v293_at23 m ρ c]
    exact (Cert.ReferenceIdeal.RefNet.v386_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.RegAPayLinPlus.lean ====
/-
  The dense step plus another block, read at an entry.

  Two kernels compute the dense step of a block of 2000 rows — the block of neighbour means times a 128 × 128 matrix,
  plus the bias row, plus the block of own features times a second matrix — and then add a sixth operand's block
  entry by entry, the dense step on the left of that last sum. On the extended reals a change of float format and a
  reshape to the same shape are the identity and the matrix unit accumulating into zero is the textbook contraction,
  so entry (r, q) of the stored block is
      ((∑ k, x (r, k) · W (k, q)  +  b (0, q))  +  ∑ k, x' (r, k) · W' (k, q))  +  o (r, q).
-/
import proofs.«146104_j52931176955955_1_alg».proof.Proof.Gen.KernelIdeal.Skeleton
import proofs.«146104_j52931176955955_1_alg».proof.Proof.LibDotRecord

namespace Cert.KernelIdeal.RegA

open Idealize.ShloMosaic Idealize.ShloMosaic.ValueIdx Cert.KernelIdeal

/-- The dense step plus the sixth operand, at entry (r, q) of the stored block. -/
theorem k12_pay1_apply (x0 : Vec Ideal S2000x128 .f32) (w : Vec Ideal S128x128 .f32) (b : Vec Ideal S1x128 .f32)
    (x3 : Vec Ideal S2000x128 .f32) (w' : Vec Ideal S128x128 .f32) (o : Vec Ideal S2000x128 .f32) (r : Fin 2000) (q : Fin 128) :
    Gen.k12_pay1 (F := Ideal) x0 w b x3 w' o (ix2 r q)
      = (((∑ k : Fin 128, x0 (ix2 r k) * w (ix2 k q)) + b (ix2 (0 : Fin 1) q)) + ∑ k : Fin 128, x3 (ix2 r k) * w' (ix2 k q))
        + o (ix2 r q) := by
  unfold Gen.k12_pay1
  simp only [shapeCast_self]
  refine congrArg₂ (· + ·) (congrArg₂ (· + ·) (congrArg₂ (· + ·) ?_ ?_) ?_) rfl
  · exact DotRecord.matmul_zero_apply dot_S2000x128_S128x128_S2000x128_1_0_0_1_n_n rfl rfl rfl rfl rfl rfl _ _ none r q
  · exact DotRecord.broadcastTo_1b_ab_apply b Gen.broadcasts_S1x128_S2000x128 r q
  · exact DotRecord.matmul_zero_apply dot_S2000x128_S128x128_S2000x128_1_0_0_1_n_n rfl rfl rfl rfl rfl rfl _ _ none r q

/-- The same body in the other kernel of this kind. -/
theorem k14_pay1_apply (x0 : Vec Ideal S2000x128 .f32) (w : Vec Ideal S128x128 .f32) (b : Vec Ideal S1x128 .f32)
    (x3 : Vec Ideal S2000x128 .f32) (w' : Vec Ideal S128x128 .f32) (o : Vec Ideal S2000x128 .f32) (r : Fin 2000) (q : Fin 128) :
    Gen.k14_pay1 (F := Ideal) x0 w b x3 w' o (ix2 r q)
      = (((∑ k : Fin 128, x0 (ix2 r k) * w (ix2 k q)) + b (ix2 (0 : Fin 1) q)) + ∑ k : Fin 128, x3 (ix2 r k) * w' (ix2 k q))
        + o (ix2 r q) :=
  k12_pay1_apply x0 w b x3 w' o r q

end Cert.KernelIdeal.RegA
-- ==== Proof.RegA12.lean ====
/-
  Region 12: a dense step plus another array, as one array.

  The region walks 100 blocks of 2000 rows. At block t it reads rows 2000 t … 2000 t + 1999 of the neighbour means,
  of the nodes' own features and of the array to be added, the two whole 128 × 128 matrices and the whole bias row,
  and writes the same rows of its output. Its body's block at entry (r, q) is the dense step of the operands' row r
  plus the added block's entry, the dense step on the left; so block t of the output is block t of the whole-array
  function  (mean · Wl + b + x · Wr) + other,  and the 100 blocks cover the 200000 rows: row i lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayLinPlus
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros12 : (![0, 0] : Fin 2 → Nat) = fun _ => 0 := funext fun a => by fin_cases a <;> rfl

/-- The block indices over the grid: the row-tiled windows sit at block (t, 0), the others at block (0, 0). -/
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0
    ∧ win12_6.index t (0 : Fin 2) = t.val ∧ win12_6.index t (1 : Fin 2) = 0 :=
  (by decide +kernel : ∀ t : Fin grid12.N, _)

/-- Row r of block t as a row of the array. -/
def row12 (t : Fin cfg12.N) (r : Fin 2000) : Fin 200000 :=
  ⟨2000 * t.val + r.val, by
    have ht : t.val < 100 := Nat.lt_of_lt_of_eq t.isLt N_12
    have hr := r.isLt
    omega⟩

/-- Row r of window 0's block at point t is row 2000 t + r of its array. -/
theorem blk12_0 (c : Dev nD) (t : Fin cfg12.N) (r : Fin 2000) (k : Fin 128) :
    (iblk12 V c 0 t : S2000x128.Idx → EReal) (ix2 r k) = (V c main_v286 : S200000x128.Idx → EReal) (ix2 (row12 t r) k) := by
  obtain ⟨ea, eb, -⟩ := idx12 t
  unfold iblk12
  rw [View.read_apply]
  show (V c main_v286 : S200000x128.Idx → EReal) _ = _
  refine congrArg (V c main_v286 : S200000x128.Idx → EReal) ?_
  funext a; apply Fin.ext
  match a with
  | ⟨0, _⟩ => show win12_0.index t (0 : Fin 2) * 2000 + 1 * r.val = 2000 * t.val + r.val; rw [ea]; omega
  | ⟨1, _⟩ => show win12_0.index t (1 : Fin 2) * 128 + 1 * k.val = k.val; rw [eb]; omega

/-- Window 1's block at every point is its whole array. -/
theorem blk12_1 (c : Dev nD) (t : Fin cfg12.N) (k : Fin 128) (q : Fin 128) :
    (iblk12 V c 1 t : S128x128.Idx → EReal) (ix2 k q) = (V c main_v296 : S128x128.Idx → EReal) (ix2 k q) := by
  obtain ⟨-, -, ea, eb, -⟩ := idx12 t
  unfold iblk12
  rw [View.read_apply]
  show (V c main_v296 : S128x128.Idx → EReal) _ = _
  refine congrArg (V c main_v296 : S128x128.Idx → EReal) ?_
  funext a; apply Fin.ext
  match a with
  | ⟨0, _⟩ => show win12_1.index t (0 : Fin 2) * 128 + 1 * k.val = k.val; rw [ea]; omega
  | ⟨1, _⟩ => show win12_1.index t (1 : Fin 2) * 128 + 1 * q.val = q.val; rw [eb]; omega

/-- Window 2's block at every point is its whole array. -/
theorem blk12_2 (c : Dev nD) (t : Fin cfg12.N) (k : Fin 1) (q : Fin 128) :
    (iblk12 V c 2 t : S1x128.Idx → EReal) (ix2 k q) = (V c main_v299 : S1x128.Idx → EReal) (ix2 k q) := by
  obtain ⟨-, -, -, -, ea, eb, -⟩ := idx12 t
  unfold iblk12
  rw [View.read_apply]
  show (V c main_v299 : S1x128.Idx → EReal) _ = _
  refine congrArg (V c main_v299 : S1x128.Idx → EReal) ?_
  funext a; apply Fin.ext
  match a with
  | ⟨0, _⟩ => show win12_2.index t (0 : Fin 2) * 1 + 1 * k.val = k.val; rw [ea]; omega
  | ⟨1, _⟩ => show win12_2.index t (1 : Fin 2) * 128 + 1 * q.val = q.val; rw [eb]; omega

/-- Row r of window 3's block at point t is row 2000 t + r of its array. -/
theorem blk12_3 (c : Dev nD) (t : Fin cfg12.N) (r : Fin 2000) (k : Fin 128) :
    (iblk12 V c 3 t : S2000x128.Idx → EReal) (ix2 r k) = (V c main_v216 : S200000x128.Idx → EReal) (ix2 (row12 t r) k) := by
  obtain ⟨-, -, -, -, -, -, ea, eb, -⟩ := idx12 t
  unfold iblk12
  rw [View.read_apply]
  show (V c main_v216 : S200000x128.Idx → EReal) _ = _
  refine congrArg (V c main_v216 : S200000x128.Idx → EReal) ?_
  funext a; apply Fin.ext
  match a with
  | ⟨0, _⟩ => show win12_3.index t (0 : Fin 2) * 2000 + 1 * r.val = 2000 * t.val + r.val; rw [ea]; omega
  | ⟨1, _⟩ => show win12_3.index t (1 : Fin 2) * 128 + 1 * k.val = k.val; rw [eb]; omega

/-- Window 4's block at every point is its whole array. -/
theorem blk12_4 (c : Dev nD) (t : Fin cfg12.N) (k : Fin 128) (q : Fin 128) :
    (iblk12 V c 4 t : S128x128.Idx → EReal) (ix2 k q) = (V c main_v301 : S128x128.Idx → EReal) (ix2 k q) := by
  obtain ⟨-, -, -, -, -, -, -, -, ea, eb, -⟩ := idx12 t
  unfold iblk12
  rw [View.read_apply]
  show (V c main_v301 : S128x128.Idx → EReal) _ = _
  refine congrArg (V c main_v301 : S128x128.Idx → EReal) ?_
  funext a; apply Fin.ext
  match a with
  | ⟨0, _⟩ => show win12_4.index t (0 : Fin 2) * 128 + 1 * k.val = k.val; rw [ea]; omega
  | ⟨1, _⟩ => show win12_4.index t (1 : Fin 2) * 128 + 1 * q.val = q.val; rw [eb]; omega

/-- Row r of window 5's block at point t is row 2000 t + r of its array. -/
theorem blk12_5 (c : Dev nD) (t : Fin cfg12.N) (r : Fin 2000) (k : Fin 128) :
    (iblk12 V c 5 t : S2000x128.Idx → EReal) (ix2 r k) = (V c main_v294 : S200000x128.Idx → EReal) (ix2 (row12 t r) k) := by
  obtain ⟨-, -, -, -, -, -, -, -, -, -, ea, eb, -⟩ := idx12 t
  unfold iblk12
  rw [View.read_apply]
  show (V c main_v294 : S200000x128.Idx → EReal) _ = _
  refine congrArg (V c main_v294 : S200000x128.Idx → EReal) ?_
  funext a; apply Fin.ext
  match a with
  | ⟨0, _⟩ => show win12_5.index t (0 : Fin 2) * 2000 + 1 * r.val = 2000 * t.val + r.val; rw [ea]; omega
  | ⟨1, _⟩ => show win12_5.index t (1 : Fin 2) * 128 + 1 * k.val = k.val; rw [eb]; omega

/-- What point t writes back is block t of the whole-array function. -/
theorem flushed12 (c : Dev nD) (t : Fin cfg12.N) :
    (dat12 V c).flushed 6 t = ((cfg12.win 6).blk t).view.read (Elt Ideal)
      (SageSpec.plus (SageSpec.lin (V c main_v286) (V c main_v296) (V c main_v299) (V c main_v216) (V c main_v301)) (V c main_v294)) := by
  show (cfg12.win 6).cut (grid12.coords t) ((dat12 V c).after 6 t) = _
  rw [after12_6]
  unfold out12_6
  rw [View.canon_unit_zero zeros12]
  simp only [View.ld_unit_zero (S := S2000x128) zeros12, View.ld_unit_zero (S := S128x128) zeros12, View.ld_unit_zero (S := S1x128) zeros12]
  obtain ⟨-, -, -, -, -, -, -, -, -, -, -, -, ea, eb⟩ := idx12 t
  refine funext fun (j : S2000x128.Idx) => ?_
  obtain ⟨r, q, rfl⟩ : ∃ (r : Fin 2000) (q : Fin 128), j = ix2 r q := ⟨j 0, j 1, eq_ix2 j⟩
  have hemb : (((cfg12.win 6).blk t).view.emb (ix2 r q) : S200000x128.Idx) = ix2 (row12 t r) q := by
    funext a; apply Fin.ext
    match a with
    | ⟨0, _⟩ => show win12_6.index t (0 : Fin 2) * 2000 + 1 * r.val = 2000 * t.val + r.val; rw [ea]; omega
    | ⟨1, _⟩ => show win12_6.index t (1 : Fin 2) * 128 + 1 * q.val = q.val; rw [eb]; omega
  refine (k12_pay1_apply (iblk12 V c 0 t) (iblk12 V c 1 t) (iblk12 V c 2 t) (iblk12 V c 3 t) (iblk12 V c 4 t) (iblk12 V c 5 t) r q).trans ?_
  refine Eq.trans ?_ (congrArg (SageSpec.plus (SageSpec.lin (V c main_v286) (V c main_v296) (V c main_v299) (V c main_v216) (V c main_v301)) (V c main_v294)) hemb).symm
  show _ = (_ + _ + _) + _
  refine congrArg₂ (· + ·) (congrArg₂ (· + ·) (congrArg₂ (· + ·) ?_ ?_) ?_) ?_
  · exact Finset.sum_congr rfl fun k _ => congrArg₂ (· * ·) (blk12_0 V c t r k) (blk12_1 V c t k q)
  · exact blk12_2 V c t 0 q
  · exact Finset.sum_congr rfl fun k _ => congrArg₂ (· * ·) (blk12_3 V c t r k) (blk12_4 V c t k q)
  · exact blk12_5 V c t r q

/-- An index of the array is in point t's block iff each coordinate is in the block's range on its axis. -/
theorem mem_blk12 (t : Fin cfg12.N) (i : S200000x128.Idx) :
    i ∈ ((cfg12.win 6).blk t).view.set ↔ ∀ a : Fin 2, win12_6.index t a * S2000x128.size a ≤ (i a).val
      ∧ (i a).val < win12_6.index t a * S2000x128.size a + S2000x128.size a := by
  show i ∈ ((View.whole main_v302).slice (win12_6.rect t)).set ↔ _
  rw [View.set_slice_whole, Rect.mem_set_unit]
  exact Iff.rfl

/-- Every index of the array is in some point's block: row i is in block i / 2000. -/
theorem cover12 (i : S200000x128.Idx) :
    ∃ t : Fin cfg12.N, (cfg12.win 6).flush t = true ∧ i ∈ ((cfg12.win 6).blk t).view.set := by
  have hi0 : (i 0).val < 200000 := (i 0).isLt
  have hi1 : (i 1).val < 128 := (i 1).isLt
  have hN : cfg12.N = 100 := N_12
  obtain ⟨t, ht⟩ : ∃ t : Fin cfg12.N, t.val = (i 0).val / 2000 := ⟨⟨(i 0).val / 2000, by rw [hN]; omega⟩, rfl⟩
  obtain ⟨-, -, -, -, -, -, -, -, -, -, -, -, ea, eb⟩ := idx12 t
  refine ⟨t, flush12_6 t, ?_⟩
  rw [mem_blk12]
  intro a
  match a with
  | ⟨0, _⟩ =>
    show win12_6.index t (0 : Fin 2) * 2000 ≤ (i 0).val ∧ (i 0).val < win12_6.index t (0 : Fin 2) * 2000 + 2000
    rw [ea, ht]; omega
  | ⟨1, _⟩ =>
    show win12_6.index t (1 : Fin 2) * 128 ≤ (i 1).val ∧ (i 1).val < win12_6.index t (1 : Fin 2) * 128 + 128
    rw [eb]; omega

/-- The output array after the region is the whole-array function of the region's input arrays. -/
theorem arr12 (c : Dev nD) :
    (dat12 (F := Ideal) V c).arrAt 6 cfg12.N
      = SageSpec.plus (SageSpec.lin (V c main_v286) (V c main_v296) (V c main_v299) (V c main_v216) (V c main_v301)) (V c main_v294) :=
  (dat12 V c).arrAt_eq_of_cover 6 _ (fun t _ => flushed12 V c t) cover12

end Cert.KernelIdeal.RegA

end
-- ==== Proof.KReg12.lean ====
/-
  Region 12 of the idealized kernel program, read against the reference's stages: the region's host-computed operands
  are the same host operations of the same values as the reference's stages; the region's output arrays are the
  whole-array functions of its operands that the reference's corresponding stages are.
-/
import proofs.«146104_j52931176955955_1_alg».proof.Proof.KReg11
import proofs.«146104_j52931176955955_1_alg».proof.Proof.RegA12

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

set_option backward.isDefEq.respectTransparency.types false in
theorem v296_at25 : W25 m ρ c (Proc.devRef .tc main_v296) = (Cert.ReferenceIdeal.Read.val_main_v388 (F := Ideal) (m ((c : Thread nD τ).loc main_arg8))) := by
  show StableHlo.after hostOps12 (W24 m ρ c) (Proc.devRef .tc main_v296) = _
  after_results_simp
  rw [arg8_at24 m ρ c]
  rfl

set_option backward.isDefEq.respectTransparency.types false in
theorem v299_at25 : W25 m ρ c (Proc.devRef .tc main_v299) = (Cert.ReferenceIdeal.Read.val_main_v416 (F := Ideal) (m ((c : Thread nD τ).loc main_arg9))) := by
  show StableHlo.after hostOps12 (W24 m ρ c) (Proc.devRef .tc main_v299) = _
  after_results_simp
  rw [arg9_at24 m ρ c]
  rfl

set_option backward.isDefEq.respectTransparency.types false in
theorem v301_at25 : W25 m ρ c (Proc.devRef .tc main_v301) = (Cert.ReferenceIdeal.Read.val_main_v392 (F := Ideal) (m ((c : Thread nD τ).loc main_arg10))) := by
  show StableHlo.after hostOps12 (W24 m ρ c) (Proc.devRef .tc main_v301) = _
  after_results_simp
  rw [arg10_at24 m ρ c]
  rfl

theorem v286_at25 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W25 m ρ c (Proc.devRef .tc main_v286) = (Cert.ReferenceIdeal.Read.val_main_v414 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH12 (W24 m ρ c) main_v286 (by decide)).trans ((W24_of_ne m ρ c main_v286 (by decide)).trans (v286_at23 m ρ c h0 h1 h8 h9 h10 h11 h12))

theorem v216_at25 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W25 m ρ c (Proc.devRef .tc main_v216) = (Cert.ReferenceIdeal.Read.val_main_v292 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH12 (W24 m ρ c) main_v216 (by decide)).trans (((W24_arr m ρ c 3).trans (((dat11 (V23 m ρ) c).arrAt_in 3 rfl _).trans (A_eq11 (V23 m ρ) c 3))).trans (v216_at23 m ρ c h0 h1 h8 h9 h10 h11 h12))

theorem v294_at25 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W25 m ρ c (Proc.devRef .tc main_v294) = (Cert.ReferenceIdeal.Read.val_main_v386 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH12 (W24 m ρ c) main_v294 (by decide)).trans (v294_at24 m ρ c h0 h1 h8 h9 h10 h11 h12)

set_option backward.isDefEq.respectTransparency.types false in
theorem v302_at26 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W26 m ρ c (Proc.devRef .tc main_v302) = (Cert.ReferenceIdeal.Read.val_main_v421 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (W26_arr m ρ c 6).trans ((Cert.KernelIdeal.RegA.arr12 (V25 m ρ) c).trans (by
    rw [show V25 m ρ c main_v286 = _ from v286_at25 m ρ c h0 h1 h8 h9 h10 h11 h12, show V25 m ρ c main_v296 = _ from v296_at25 m ρ c, show V25 m ρ c main_v299 = _ from v299_at25 m ρ c, show V25 m ρ c main_v216 = _ from v216_at25 m ρ c h0 h1 h8 h9 h10 h11 h12, show V25 m ρ c main_v301 = _ from v301_at25 m ρ c, show V25 m ρ c main_v294 = _ from v294_at25 m ρ c h0 h1 h8 h9 h10 h11 h12]
    rw [Cert.ReferenceIdeal.RefNet.v421_eq, Cert.ReferenceIdeal.RefNet.v420_eq, Cert.SageSpec.plus_comm]))

end Cert.KernelIdeal.KNet

end
-- ==== Proof.RegA13.lean ====
/-
  Region 13: a dense step as one array.

  The region walks 75 blocks of 2000 rows. At block t it reads rows 2000 t … 2000 t + 1999 of the neighbour means
  and of the nodes' own features, the two whole 128 × 128 matrices and the whole bias row, and writes the same rows
  of its output. Its body's block at entry (r, q) is the dense step of the operands' row r; so block t of the output
  is block t of the whole-array function  mean · Wl + b + x · Wr,  and the 75 blocks cover the 150000 rows: row i
  lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayLin
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros13 : (![0, 0] : Fin 2 → Nat) = fun _ => 0 := funext fun a => by fin_cases a <;> rfl

/-- The block indices over the grid: the row-tiled windows sit at block (t, 0), the others at block (0, 0). -/
theorem idx13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- Row r of block t as a row of the array. -/
def row13 (t : Fin cfg13.N) (r : Fin 2000) : Fin 150000 :=
  ⟨2000 * t.val + r.val, by
    have ht : t.val < 75 := Nat.lt_of_lt_of_eq t.isLt N_13
    have hr := r.isLt
    omega⟩

/-- Row r of window 0's block at point t is row 2000 t + r of its array. -/
theorem blk13_0 (c : Dev nD) (t : Fin cfg13.N) (r : Fin 2000) (k : Fin 128) :
    (iblk13 V c 0 t : S2000x128.Idx → EReal) (ix2 r k) = (V c main_v324 : S150000x128.Idx → EReal) (ix2 (row13 t r) k) := by
  obtain ⟨ea, eb, -⟩ := idx13 t
  unfold iblk13
  rw [View.read_apply]
  show (V c main_v324 : S150000x128.Idx → EReal) _ = _
  refine congrArg (V c main_v324 : S150000x128.Idx → EReal) ?_
  funext a; apply Fin.ext
  match a with
  | ⟨0, _⟩ => show win13_0.index t (0 : Fin 2) * 2000 + 1 * r.val = 2000 * t.val + r.val; rw [ea]; omega
  | ⟨1, _⟩ => show win13_0.index t (1 : Fin 2) * 128 + 1 * k.val = k.val; rw [eb]; omega

/-- Window 1's block at every point is its whole array. -/
theorem blk13_1 (c : Dev nD) (t : Fin cfg13.N) (k : Fin 128) (q : Fin 128) :
    (iblk13 V c 1 t : S128x128.Idx → EReal) (ix2 k q) = (V c main_v348 : S128x128.Idx → EReal) (ix2 k q) := by
  obtain ⟨-, -, ea, eb, -⟩ := idx13 t
  unfold iblk13
  rw [View.read_apply]
  show (V c main_v348 : S128x128.Idx → EReal) _ = _
  refine congrArg (V c main_v348 : S128x128.Idx → EReal) ?_
  funext a; apply Fin.ext
  match a with
  | ⟨0, _⟩ => show win13_1.index t (0 : Fin 2) * 128 + 1 * k.val = k.val; rw [ea]; omega
  | ⟨1, _⟩ => show win13_1.index t (1 : Fin 2) * 128 + 1 * q.val = q.val; rw [eb]; omega

/-- Window 2's block at every point is its whole array. -/
theorem blk13_2 (c : Dev nD) (t : Fin cfg13.N) (k : Fin 1) (q : Fin 128) :
    (iblk13 V c 2 t : S1x128.Idx → EReal) (ix2 k q) = (V c main_v351 : S1x128.Idx → EReal) (ix2 k q) := by
  obtain ⟨-, -, -, -, ea, eb, -⟩ := idx13 t
  unfold iblk13
  rw [View.read_apply]
  show (V c main_v351 : S1x128.Idx → EReal) _ = _
  refine congrArg (V c main_v351 : S1x128.Idx → EReal) ?_
  funext a; apply Fin.ext
  match a with
  | ⟨0, _⟩ => show win13_2.index t (0 : Fin 2) * 1 + 1 * k.val = k.val; rw [ea]; omega
  | ⟨1, _⟩ => show win13_2.index t (1 : Fin 2) * 128 + 1 * q.val = q.val; rw [eb]; omega

/-- Row r of window 3's block at point t is row 2000 t + r of its array. -/
theorem blk13_3 (c : Dev nD) (t : Fin cfg13.N) (r : Fin 2000) (k : Fin 128) :
    (iblk13 V c 3 t : S2000x128.Idx → EReal) (ix2 r k) = (V c main_v229 : S150000x128.Idx → EReal) (ix2 (row13 t r) k) := by
  obtain ⟨-, -, -, -, -, -, ea, eb, -⟩ := idx13 t
  unfold iblk13
  rw [View.read_apply]
  show (V c main_v229 : S150000x128.Idx → EReal) _ = _
  refine congrArg (V c main_v229 : S150000x128.Idx → EReal) ?_
  funext a; apply Fin.ext
  match a with
  | ⟨0, _⟩ => show win13_3.index t (0 : Fin 2) * 2000 + 1 * r.val = 2000 * t.val + r.val; rw [ea]; omega
  | ⟨1, _⟩ => show win13_3.index t (1 : Fin 2) * 128 + 1 * k.val = k.val; rw [eb]; omega

/-- Window 4's block at every point is its whole array. -/
theorem blk13_4 (c : Dev nD) (t : Fin cfg13.N) (k : Fin 128) (q : Fin 128) :
    (iblk13 V c 4 t : S128x128.Idx → EReal) (ix2 k q) = (V c main_v353 : S128x128.Idx → EReal) (ix2 k q) := by
  obtain ⟨-, -, -, -, -, -, -, -, ea, eb, -⟩ := idx13 t
  unfold iblk13
  rw [View.read_apply]
  show (V c main_v353 : S128x128.Idx → EReal) _ = _
  refine congrArg (V c main_v353 : S128x128.Idx → EReal) ?_
  funext a; apply Fin.ext
  match a with
  | ⟨0, _⟩ => show win13_4.index t (0 : Fin 2) * 128 + 1 * k.val = k.val; rw [ea]; omega
  | ⟨1, _⟩ => show win13_4.index t (1 : Fin 2) * 128 + 1 * q.val = q.val; rw [eb]; omega

/-- What point t writes back is block t of the whole-array function. -/
theorem flushed13 (c : Dev nD) (t : Fin cfg13.N) :
    (dat13 V c).flushed 5 t = ((cfg13.win 5).blk t).view.read (Elt Ideal)
      (SageSpec.lin (V c main_v324) (V c main_v348) (V c main_v351) (V c main_v229) (V c main_v353)) := by
  show (cfg13.win 5).cut (grid13.coords t) ((dat13 V c).after 5 t) = _
  rw [after13_5]
  unfold out13_5
  rw [View.canon_unit_zero zeros13]
  simp only [View.ld_unit_zero (S := S2000x128) zeros13, View.ld_unit_zero (S := S128x128) zeros13, View.ld_unit_zero (S := S1x128) zeros13]
  obtain ⟨-, -, -, -, -, -, -, -, -, -, ea, eb⟩ := idx13 t
  refine funext fun (j : S2000x128.Idx) => ?_
  obtain ⟨r, q, rfl⟩ : ∃ (r : Fin 2000) (q : Fin 128), j = ix2 r q := ⟨j 0, j 1, eq_ix2 j⟩
  have hemb : (((cfg13.win 5).blk t).view.emb (ix2 r q) : S150000x128.Idx) = ix2 (row13 t r) q := by
    funext a; apply Fin.ext
    match a with
    | ⟨0, _⟩ => show win13_5.index t (0 : Fin 2) * 2000 + 1 * r.val = 2000 * t.val + r.val; rw [ea]; omega
    | ⟨1, _⟩ => show win13_5.index t (1 : Fin 2) * 128 + 1 * q.val = q.val; rw [eb]; omega
  refine (k13_pay1_apply (iblk13 V c 0 t) (iblk13 V c 1 t) (iblk13 V c 2 t) (iblk13 V c 3 t) (iblk13 V c 4 t) r q).trans ?_
  refine Eq.trans ?_ (congrArg (SageSpec.lin (V c main_v324) (V c main_v348) (V c main_v351) (V c main_v229) (V c main_v353)) hemb).symm
  show _ = _ + _ + _
  refine congrArg₂ (· + ·) (congrArg₂ (· + ·) ?_ ?_) ?_
  · exact Finset.sum_congr rfl fun k _ => congrArg₂ (· * ·) (blk13_0 V c t r k) (blk13_1 V c t k q)
  · exact blk13_2 V c t 0 q
  · exact Finset.sum_congr rfl fun k _ => congrArg₂ (· * ·) (blk13_3 V c t r k) (blk13_4 V c t k q)

/-- An index of the array is in point t's block iff each coordinate is in the block's range on its axis. -/
theorem mem_blk13 (t : Fin cfg13.N) (i : S150000x128.Idx) :
    i ∈ ((cfg13.win 5).blk t).view.set ↔ ∀ a : Fin 2, win13_5.index t a * S2000x128.size a ≤ (i a).val
      ∧ (i a).val < win13_5.index t a * S2000x128.size a + S2000x128.size a := by
  show i ∈ ((View.whole main_v354).slice (win13_5.rect t)).set ↔ _
  rw [View.set_slice_whole, Rect.mem_set_unit]
  exact Iff.rfl

/-- Every index of the array is in some point's block: row i is in block i / 2000. -/
theorem cover13 (i : S150000x128.Idx) :
    ∃ t : Fin cfg13.N, (cfg13.win 5).flush t = true ∧ i ∈ ((cfg13.win 5).blk t).view.set := by
  have hi0 : (i 0).val < 150000 := (i 0).isLt
  have hi1 : (i 1).val < 128 := (i 1).isLt
  have hN : cfg13.N = 75 := N_13
  obtain ⟨t, ht⟩ : ∃ t : Fin cfg13.N, t.val = (i 0).val / 2000 := ⟨⟨(i 0).val / 2000, by rw [hN]; omega⟩, rfl⟩
  obtain ⟨-, -, -, -, -, -, -, -, -, -, ea, eb⟩ := idx13 t
  refine ⟨t, flush13_5 t, ?_⟩
  rw [mem_blk13]
  intro a
  match a with
  | ⟨0, _⟩ =>
    show win13_5.index t (0 : Fin 2) * 2000 ≤ (i 0).val ∧ (i 0).val < win13_5.index t (0 : Fin 2) * 2000 + 2000
    rw [ea, ht]; omega
  | ⟨1, _⟩ =>
    show win13_5.index t (1 : Fin 2) * 128 ≤ (i 1).val ∧ (i 1).val < win13_5.index t (1 : Fin 2) * 128 + 128
    rw [eb]; omega

/-- The output array after the region is the whole-array function of the region's input arrays. -/
theorem arr13 (c : Dev nD) :
    (dat13 (F := Ideal) V c).arrAt 5 cfg13.N
      = SageSpec.lin (V c main_v324) (V c main_v348) (V c main_v351) (V c main_v229) (V c main_v353) :=
  (dat13 V c).arrAt_eq_of_cover 5 _ (fun t _ => flushed13 V c t) (cover13)

end Cert.KernelIdeal.RegA

end
-- ==== Proof.KReg13.lean ====
/-
  Region 13 of the idealized kernel program, read against the reference's stages: the region's host-computed operands
  are the same host operations of the same values as the reference's stages; the region's output arrays are the
  whole-array functions of its operands that the reference's corresponding stages are.
-/
import proofs.«146104_j52931176955955_1_alg».proof.Proof.KReg12
import proofs.«146104_j52931176955955_1_alg».proof.Proof.RegA13

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v216_at26 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W26 m ρ c (Proc.devRef .tc main_v216) = (Cert.ReferenceIdeal.Read.val_main_v292 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  ((W26_arr m ρ c 3).trans (((dat12 (V25 m ρ) c).arrAt_in 3 rfl _).trans (A_eq12 (V25 m ρ) c 3))).trans (v216_at25 m ρ c h0 h1 h8 h9 h10 h11 h12)

set_option backward.isDefEq.respectTransparency.types false in
theorem v324_at27 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W27 m ρ c (Proc.devRef .tc main_v324) = (Cert.ReferenceIdeal.Read.val_main_v449 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps13 (W26 m ρ c) (Proc.devRef .tc main_v324) = _
  after_results_simp
  rw [arg4_at26 m ρ c, v216_at26 m ρ c h0 h1 h8 h9 h10 h11 h12]
  rfl

set_option backward.isDefEq.respectTransparency.types false in
theorem v348_at27 : W27 m ρ c (Proc.devRef .tc main_v348) = (Cert.ReferenceIdeal.Read.val_main_v423 (F := Ideal) (m ((c : Thread nD τ).loc main_arg8))) := by
  show StableHlo.after hostOps13 (W26 m ρ c) (Proc.devRef .tc main_v348) = _
  after_results_simp
  rw [arg8_at26 m ρ c]
  rfl

set_option backward.isDefEq.respectTransparency.types false in
theorem v351_at27 : W27 m ρ c (Proc.devRef .tc main_v351) = (Cert.ReferenceIdeal.Read.val_main_v451 (F := Ideal) (m ((c : Thread nD τ).loc main_arg9))) := by
  show StableHlo.after hostOps13 (W26 m ρ c) (Proc.devRef .tc main_v351) = _
  after_results_simp
  rw [arg9_at26 m ρ c]
  rfl

set_option backward.isDefEq.respectTransparency.types false in
theorem v353_at27 : W27 m ρ c (Proc.devRef .tc main_v353) = (Cert.ReferenceIdeal.Read.val_main_v427 (F := Ideal) (m ((c : Thread nD τ).loc main_arg10))) := by
  show StableHlo.after hostOps13 (W26 m ρ c) (Proc.devRef .tc main_v353) = _
  after_results_simp
  rw [arg10_at26 m ρ c]
  rfl

theorem v242_at26 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W26 m ρ c (Proc.devRef .tc main_v242) = (Cert.ReferenceIdeal.Read.val_main_v352 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) :=
  (W26_of_ne m ρ c main_v242 (by decide)).trans ((keepH12 (W24 m ρ c) main_v242 (by decide)).trans ((W24_of_ne m ρ c main_v242 (by decide)).trans ((keepH11 (W22 m ρ c) main_v242 (by decide)).trans (v242_at22 m ρ c h0 h1 h8 h9 h10 h11 h12))))

set_option backward.isDefEq.respectTransparency.types false in
theorem v346_at27 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W27 m ρ c (Proc.devRef .tc main_v346) = (Cert.ReferenceIdeal.Read.val_main_v483 (F := Ideal) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps13 (W26 m ρ c) (Proc.devRef .tc main_v346) = _
  after_results_simp
  rw [arg7_at26 m ρ c, v242_at26 m ρ c h0 h1 h8 h9 h10 h11 h12]
  rfl

theorem v229_at27 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W27 m ρ c (Proc.devRef .tc main_v229) = (Cert.ReferenceIdeal.Read.val_main_v322 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH13 (W26 m ρ c) main_v229 (by decide)).trans ((W26_of_ne m ρ c main_v229 (by decide)).trans ((keepH12 (W24 m ρ c) main_v229 (by decide)).trans ((W24_of_ne m ρ c main_v229 (by decide)).trans ((keepH11 (W22 m ρ c) main_v229 (by decide)).trans (v229_at22 m ρ c h0 h1 h8 h9 h10 h11 h12)))))

set_option backward.isDefEq.respectTransparency.types false in
theorem v354_at28 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W28 m ρ c (Proc.devRef .tc main_v354) = (Cert.ReferenceIdeal.Read.val_main_v455 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (W28_arr m ρ c 5).trans ((Cert.KernelIdeal.RegA.arr13 (V27 m ρ) c).trans (by
    rw [show V27 m ρ c main_v324 = _ from v324_at27 m ρ c h0 h1 h8 h9 h10 h11 h12, show V27 m ρ c main_v348 = _ from v348_at27 m ρ c, show V27 m ρ c main_v351 = _ from v351_at27 m ρ c, show V27 m ρ c main_v229 = _ from v229_at27 m ρ c h0 h1 h8 h9 h10 h11 h12, show V27 m ρ c main_v353 = _ from v353_at27 m ρ c]
    exact (Cert.ReferenceIdeal.RefNet.v455_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.RegA14.lean ====
/-
  Region 14: a dense step plus another array, as one array.

  The region walks 75 blocks of 2000 rows. At block t it reads rows 2000 t … 2000 t + 1999 of the neighbour means,
  of the nodes' own features and of the array to be added, the two whole 128 × 128 matrices and the whole bias row,
  and writes the same rows of its output. Its body's block at entry (r, q) is the dense step of the operands' row r
  plus the added block's entry, the dense step on the left; so block t of the output is block t of the whole-array
  function  (mean · Wl + b + x · Wr) + other,  and the 75 blocks cover the 150000 rows: row i lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayLinPlus
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros14 : (![0, 0] : Fin 2 → Nat) = fun _ => 0 := funext fun a => by fin_cases a <;> rfl

/-- The block indices over the grid: the row-tiled windows sit at block (t, 0), the others at block (0, 0). -/
theorem idx14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0
    ∧ win14_6.index t (0 : Fin 2) = t.val ∧ win14_6.index t (1 : Fin 2) = 0 :=
  (by decide +kernel : ∀ t : Fin grid14.N, _)

/-- Row r of block t as a row of the array. -/
def row14 (t : Fin cfg14.N) (r : Fin 2000) : Fin 150000 :=
  ⟨2000 * t.val + r.val, by
    have ht : t.val < 75 := Nat.lt_of_lt_of_eq t.isLt N_14
    have hr := r.isLt
    omega⟩

/-- Row r of window 0's block at point t is row 2000 t + r of its array. -/
theorem blk14_0 (c : Dev nD) (t : Fin cfg14.N) (r : Fin 2000) (k : Fin 128) :
    (iblk14 V c 0 t : S2000x128.Idx → EReal) (ix2 r k) = (V c main_v346 : S150000x128.Idx → EReal) (ix2 (row14 t r) k) := by
  obtain ⟨ea, eb, -⟩ := idx14 t
  unfold iblk14
  rw [View.read_apply]
  show (V c main_v346 : S150000x128.Idx → EReal) _ = _
  refine congrArg (V c main_v346 : S150000x128.Idx → EReal) ?_
  funext a; apply Fin.ext
  match a with
  | ⟨0, _⟩ => show win14_0.index t (0 : Fin 2) * 2000 + 1 * r.val = 2000 * t.val + r.val; rw [ea]; omega
  | ⟨1, _⟩ => show win14_0.index t (1 : Fin 2) * 128 + 1 * k.val = k.val; rw [eb]; omega

/-- Window 1's block at every point is its whole array. -/
theorem blk14_1 (c : Dev nD) (t : Fin cfg14.N) (k : Fin 128) (q : Fin 128) :
    (iblk14 V c 1 t : S128x128.Idx → EReal) (ix2 k q) = (V c main_v356 : S128x128.Idx → EReal) (ix2 k q) := by
  obtain ⟨-, -, ea, eb, -⟩ := idx14 t
  unfold iblk14
  rw [View.read_apply]
  show (V c main_v356 : S128x128.Idx → EReal) _ = _
  refine congrArg (V c main_v356 : S128x128.Idx → EReal) ?_
  funext a; apply Fin.ext
  match a with
  | ⟨0, _⟩ => show win14_1.index t (0 : Fin 2) * 128 + 1 * k.val = k.val; rw [ea]; omega
  | ⟨1, _⟩ => show win14_1.index t (1 : Fin 2) * 128 + 1 * q.val = q.val; rw [eb]; omega

/-- Window 2's block at every point is its whole array. -/
theorem blk14_2 (c : Dev nD) (t : Fin cfg14.N) (k : Fin 1) (q : Fin 128) :
    (iblk14 V c 2 t : S1x128.Idx → EReal) (ix2 k q) = (V c main_v359 : S1x128.Idx → EReal) (ix2 k q) := by
  obtain ⟨-, -, -, -, ea, eb, -⟩ := idx14 t
  unfold iblk14
  rw [View.read_apply]
  show (V c main_v359 : S1x128.Idx → EReal) _ = _
  refine congrArg (V c main_v359 : S1x128.Idx → EReal) ?_
  funext a; apply Fin.ext
  match a with
  | ⟨0, _⟩ => show win14_2.index t (0 : Fin 2) * 1 + 1 * k.val = k.val; rw [ea]; omega
  | ⟨1, _⟩ => show win14_2.index t (1 : Fin 2) * 128 + 1 * q.val = q.val; rw [eb]; omega

/-- Row r of window 3's block at point t is row 2000 t + r of its array. -/
theorem blk14_3 (c : Dev nD) (t : Fin cfg14.N) (r : Fin 2000) (k : Fin 128) :
    (iblk14 V c 3 t : S2000x128.Idx → EReal) (ix2 r k) = (V c main_v229 : S150000x128.Idx → EReal) (ix2 (row14 t r) k) := by
  obtain ⟨-, -, -, -, -, -, ea, eb, -⟩ := idx14 t
  unfold iblk14
  rw [View.read_apply]
  show (V c main_v229 : S150000x128.Idx → EReal) _ = _
  refine congrArg (V c main_v229 : S150000x128.Idx → EReal) ?_
  funext a; apply Fin.ext
  match a with
  | ⟨0, _⟩ => show win14_3.index t (0 : Fin 2) * 2000 + 1 * r.val = 2000 * t.val + r.val; rw [ea]; omega
  | ⟨1, _⟩ => show win14_3.index t (1 : Fin 2) * 128 + 1 * k.val = k.val; rw [eb]; omega

/-- Window 4's block at every point is its whole array. -/
theorem blk14_4 (c : Dev nD) (t : Fin cfg14.N) (k : Fin 128) (q : Fin 128) :
    (iblk14 V c 4 t : S128x128.Idx → EReal) (ix2 k q) = (V c main_v361 : S128x128.Idx → EReal) (ix2 k q) := by
  obtain ⟨-, -, -, -, -, -, -, -, ea, eb, -⟩ := idx14 t
  unfold iblk14
  rw [View.read_apply]
  show (V c main_v361 : S128x128.Idx → EReal) _ = _
  refine congrArg (V c main_v361 : S128x128.Idx → EReal) ?_
  funext a; apply Fin.ext
  match a with
  | ⟨0, _⟩ => show win14_4.index t (0 : Fin 2) * 128 + 1 * k.val = k.val; rw [ea]; omega
  | ⟨1, _⟩ => show win14_4.index t (1 : Fin 2) * 128 + 1 * q.val = q.val; rw [eb]; omega

/-- Row r of window 5's block at point t is row 2000 t + r of its array. -/
theorem blk14_5 (c : Dev nD) (t : Fin cfg14.N) (r : Fin 2000) (k : Fin 128) :
    (iblk14 V c 5 t : S2000x128.Idx → EReal) (ix2 r k) = (V c main_v354 : S150000x128.Idx → EReal) (ix2 (row14 t r) k) := by
  obtain ⟨-, -, -, -, -, -, -, -, -, -, ea, eb, -⟩ := idx14 t
  unfold iblk14
  rw [View.read_apply]
  show (V c main_v354 : S150000x128.Idx → EReal) _ = _
  refine congrArg (V c main_v354 : S150000x128.Idx → EReal) ?_
  funext a; apply Fin.ext
  match a with
  | ⟨0, _⟩ => show win14_5.index t (0 : Fin 2) * 2000 + 1 * r.val = 2000 * t.val + r.val; rw [ea]; omega
  | ⟨1, _⟩ => show win14_5.index t (1 : Fin 2) * 128 + 1 * k.val = k.val; rw [eb]; omega

/-- What point t writes back is block t of the whole-array function. -/
theorem flushed14 (c : Dev nD) (t : Fin cfg14.N) :
    (dat14 V c).flushed 6 t = ((cfg14.win 6).blk t).view.read (Elt Ideal)
      (SageSpec.plus (SageSpec.lin (V c main_v346) (V c main_v356) (V c main_v359) (V c main_v229) (V c main_v361)) (V c main_v354)) := by
  show (cfg14.win 6).cut (grid14.coords t) ((dat14 V c).after 6 t) = _
  rw [after14_6]
  unfold out14_6
  rw [View.canon_unit_zero zeros14]
  simp only [View.ld_unit_zero (S := S2000x128) zeros14, View.ld_unit_zero (S := S128x128) zeros14, View.ld_unit_zero (S := S1x128) zeros14]
  obtain ⟨-, -, -, -, -, -, -, -, -, -, -, -, ea, eb⟩ := idx14 t
  refine funext fun (j : S2000x128.Idx) => ?_
  obtain ⟨r, q, rfl⟩ : ∃ (r : Fin 2000) (q : Fin 128), j = ix2 r q := ⟨j 0, j 1, eq_ix2 j⟩
  have hemb : (((cfg14.win 6).blk t).view.emb (ix2 r q) : S150000x128.Idx) = ix2 (row14 t r) q := by
    funext a; apply Fin.ext
    match a with
    | ⟨0, _⟩ => show win14_6.index t (0 : Fin 2) * 2000 + 1 * r.val = 2000 * t.val + r.val; rw [ea]; omega
    | ⟨1, _⟩ => show win14_6.index t (1 : Fin 2) * 128 + 1 * q.val = q.val; rw [eb]; omega
  refine (k14_pay1_apply (iblk14 V c 0 t) (iblk14 V c 1 t) (iblk14 V c 2 t) (iblk14 V c 3 t) (iblk14 V c 4 t) (iblk14 V c 5 t) r q).trans ?_
  refine Eq.trans ?_ (congrArg (SageSpec.plus (SageSpec.lin (V c main_v346) (V c main_v356) (V c main_v359) (V c main_v229) (V c main_v361)) (V c main_v354)) hemb).symm
  show _ = (_ + _ + _) + _
  refine congrArg₂ (· + ·) (congrArg₂ (· + ·) (congrArg₂ (· + ·) ?_ ?_) ?_) ?_
  · exact Finset.sum_congr rfl fun k _ => congrArg₂ (· * ·) (blk14_0 V c t r k) (blk14_1 V c t k q)
  · exact blk14_2 V c t 0 q
  · exact Finset.sum_congr rfl fun k _ => congrArg₂ (· * ·) (blk14_3 V c t r k) (blk14_4 V c t k q)
  · exact blk14_5 V c t r q

/-- An index of the array is in point t's block iff each coordinate is in the block's range on its axis. -/
theorem mem_blk14 (t : Fin cfg14.N) (i : S150000x128.Idx) :
    i ∈ ((cfg14.win 6).blk t).view.set ↔ ∀ a : Fin 2, win14_6.index t a * S2000x128.size a ≤ (i a).val
      ∧ (i a).val < win14_6.index t a * S2000x128.size a + S2000x128.size a := by
  show i ∈ ((View.whole main_v362).slice (win14_6.rect t)).set ↔ _
  rw [View.set_slice_whole, Rect.mem_set_unit]
  exact Iff.rfl

/-- Every index of the array is in some point's block: row i is in block i / 2000. -/
theorem cover14 (i : S150000x128.Idx) :
    ∃ t : Fin cfg14.N, (cfg14.win 6).flush t = true ∧ i ∈ ((cfg14.win 6).blk t).view.set := by
  have hi0 : (i 0).val < 150000 := (i 0).isLt
  have hi1 : (i 1).val < 128 := (i 1).isLt
  have hN : cfg14.N = 75 := N_14
  obtain ⟨t, ht⟩ : ∃ t : Fin cfg14.N, t.val = (i 0).val / 2000 := ⟨⟨(i 0).val / 2000, by rw [hN]; omega⟩, rfl⟩
  obtain ⟨-, -, -, -, -, -, -, -, -, -, -, -, ea, eb⟩ := idx14 t
  refine ⟨t, flush14_6 t, ?_⟩
  rw [mem_blk14]
  intro a
  match a with
  | ⟨0, _⟩ =>
    show win14_6.index t (0 : Fin 2) * 2000 ≤ (i 0).val ∧ (i 0).val < win14_6.index t (0 : Fin 2) * 2000 + 2000
    rw [ea, ht]; omega
  | ⟨1, _⟩ =>
    show win14_6.index t (1 : Fin 2) * 128 ≤ (i 1).val ∧ (i 1).val < win14_6.index t (1 : Fin 2) * 128 + 128
    rw [eb]; omega

/-- The output array after the region is the whole-array function of the region's input arrays. -/
theorem arr14 (c : Dev nD) :
    (dat14 (F := Ideal) V c).arrAt 6 cfg14.N
      = SageSpec.plus (SageSpec.lin (V c main_v346) (V c main_v356) (V c main_v359) (V c main_v229) (V c main_v361)) (V c main_v354) :=
  (dat14 V c).arrAt_eq_of_cover 6 _ (fun t _ => flushed14 V c t) cover14

end Cert.KernelIdeal.RegA

end
-- ==== Proof.KReg14.lean ====
/-
  Region 14 of the idealized kernel program, read against the reference's stages: the region's host-computed operands
  are the same host operations of the same values as the reference's stages; the region's output arrays are the
  whole-array functions of its operands that the reference's corresponding stages are.
-/
import proofs.«146104_j52931176955955_1_alg».proof.Proof.KReg13
import proofs.«146104_j52931176955955_1_alg».proof.Proof.RegA14

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

set_option backward.isDefEq.respectTransparency.types false in
theorem v356_at29 : W29 m ρ c (Proc.devRef .tc main_v356) = (Cert.ReferenceIdeal.Read.val_main_v457 (F := Ideal) (m ((c : Thread nD τ).loc main_arg8))) := by
  show StableHlo.after hostOps14 (W28 m ρ c) (Proc.devRef .tc main_v356) = _
  after_results_simp
  rw [arg8_at28 m ρ c]
  rfl

set_option backward.isDefEq.respectTransparency.types false in
theorem v359_at29 : W29 m ρ c (Proc.devRef .tc main_v359) = (Cert.ReferenceIdeal.Read.val_main_v485 (F := Ideal) (m ((c : Thread nD τ).loc main_arg9))) := by
  show StableHlo.after hostOps14 (W28 m ρ c) (Proc.devRef .tc main_v359) = _
  after_results_simp
  rw [arg9_at28 m ρ c]
  rfl

set_option backward.isDefEq.respectTransparency.types false in
theorem v361_at29 : W29 m ρ c (Proc.devRef .tc main_v361) = (Cert.ReferenceIdeal.Read.val_main_v461 (F := Ideal) (m ((c : Thread nD τ).loc main_arg10))) := by
  show StableHlo.after hostOps14 (W28 m ρ c) (Proc.devRef .tc main_v361) = _
  after_results_simp
  rw [arg10_at28 m ρ c]
  rfl

theorem v346_at29 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W29 m ρ c (Proc.devRef .tc main_v346) = (Cert.ReferenceIdeal.Read.val_main_v483 (F := Ideal) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH14 (W28 m ρ c) main_v346 (by decide)).trans ((W28_of_ne m ρ c main_v346 (by decide)).trans (v346_at27 m ρ c h0 h1 h8 h9 h10 h11 h12))

theorem v229_at29 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W29 m ρ c (Proc.devRef .tc main_v229) = (Cert.ReferenceIdeal.Read.val_main_v322 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH14 (W28 m ρ c) main_v229 (by decide)).trans (((W28_arr m ρ c 3).trans (((dat13 (V27 m ρ) c).arrAt_in 3 rfl _).trans (A_eq13 (V27 m ρ) c 3))).trans (v229_at27 m ρ c h0 h1 h8 h9 h10 h11 h12))

theorem v354_at29 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W29 m ρ c (Proc.devRef .tc main_v354) = (Cert.ReferenceIdeal.Read.val_main_v455 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH14 (W28 m ρ c) main_v354 (by decide)).trans (v354_at28 m ρ c h0 h1 h8 h9 h10 h11 h12)

set_option backward.isDefEq.respectTransparency.types false in
theorem v362_at30 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W30 m ρ c (Proc.devRef .tc main_v362) = (Cert.ReferenceIdeal.Read.val_main_v490 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (W30_arr m ρ c 6).trans ((Cert.KernelIdeal.RegA.arr14 (V29 m ρ) c).trans (by
    rw [show V29 m ρ c main_v346 = _ from v346_at29 m ρ c h0 h1 h8 h9 h10 h11 h12, show V29 m ρ c main_v356 = _ from v356_at29 m ρ c, show V29 m ρ c main_v359 = _ from v359_at29 m ρ c, show V29 m ρ c main_v229 = _ from v229_at29 m ρ c h0 h1 h8 h9 h10 h11 h12, show V29 m ρ c main_v361 = _ from v361_at29 m ρ c, show V29 m ρ c main_v354 = _ from v354_at29 m ρ c h0 h1 h8 h9 h10 h11 h12]
    rw [Cert.ReferenceIdeal.RefNet.v490_eq, Cert.ReferenceIdeal.RefNet.v489_eq, Cert.SageSpec.plus_comm]))

end Cert.KernelIdeal.KNet

end
-- ==== Proof.RegA15.lean ====
/-
  Region 15: a dense step as one array.

  The region walks 5 blocks of 2000 rows. At block t it reads rows 2000 t … 2000 t + 1999 of the neighbour means
  and of the nodes' own features, the two whole 128 × 128 matrices and the whole bias row, and writes the same rows
  of its output. Its body's block at entry (r, q) is the dense step of the operands' row r; so block t of the output
  is block t of the whole-array function  mean · Wl + b + x · Wr,  and the 5 blocks cover the 10000 rows: row i
  lies in block i / 2000.
-/
import proofs.«146104_j52931176955955_1_alg».proof.Proof.Gen.KernelIdeal.Frame
import proofs.«146104_j52931176955955_1_alg».proof.Proof.SageSpec
import proofs.«146104_j52931176955955_1_alg».proof.Proof.RegAPayLin
import Idealize.ShloMosaic.Lib.Pipeline.Value

noncomputable section

namespace Cert.KernelIdeal.RegA

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros15 : (![0, 0] : Fin 2 → Nat) = fun _ => 0 := funext fun a => by fin_cases a <;> rfl

/-- The block indices over the grid: the row-tiled windows sit at block (t, 0), the others at block (0, 0). -/
theorem idx15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0
    ∧ win15_4.index t (0 : Fin 2) = 0 ∧ win15_4.index t (1 : Fin 2) = 0
    ∧ win15_5.index t (0 : Fin 2) = t.val ∧ win15_5.index t (1 : Fin 2) = 0 :=
  (by decide +kernel : ∀ t : Fin grid15.N, _)

/-- Row r of block t as a row of the array. -/
def row15 (t : Fin cfg15.N) (r : Fin 2000) : Fin 10000 :=
  ⟨2000 * t.val + r.val, by
    have ht : t.val < 5 := Nat.lt_of_lt_of_eq t.isLt N_15
    have hr := r.isLt
    omega⟩

/-- Row r of window 0's block at point t is row 2000 t + r of its array. -/
theorem blk15_0 (c : Dev nD) (t : Fin cfg15.N) (r : Fin 2000) (k : Fin 128) :
    (iblk15 V c 0 t : S2000x128.Idx → EReal) (ix2 r k) = (V c main_v384 : S10000x128.Idx → EReal) (ix2 (row15 t r) k) := by
  obtain ⟨ea, eb, -⟩ := idx15 t
  unfold iblk15
  rw [View.read_apply]
  show (V c main_v384 : S10000x128.Idx → EReal) _ = _
  refine congrArg (V c main_v384 : S10000x128.Idx → EReal) ?_
  funext a; apply Fin.ext
  match a with
  | ⟨0, _⟩ => show win15_0.index t (0 : Fin 2) * 2000 + 1 * r.val = 2000 * t.val + r.val; rw [ea]; omega
  | ⟨1, _⟩ => show win15_0.index t (1 : Fin 2) * 128 + 1 * k.val = k.val; rw [eb]; omega

/-- Window 1's block at every point is its whole array. -/
theorem blk15_1 (c : Dev nD) (t : Fin cfg15.N) (k : Fin 128) (q : Fin 128) :
    (iblk15 V c 1 t : S128x128.Idx → EReal) (ix2 k q) = (V c main_v386 : S128x128.Idx → EReal) (ix2 k q) := by
  obtain ⟨-, -, ea, eb, -⟩ := idx15 t
  unfold iblk15
  rw [View.read_apply]
  show (V c main_v386 : S128x128.Idx → EReal) _ = _
  refine congrArg (V c main_v386 : S128x128.Idx → EReal) ?_
  funext a; apply Fin.ext
  match a with
  | ⟨0, _⟩ => show win15_1.index t (0 : Fin 2) * 128 + 1 * k.val = k.val; rw [ea]; omega
  | ⟨1, _⟩ => show win15_1.index t (1 : Fin 2) * 128 + 1 * q.val = q.val; rw [eb]; omega

/-- Window 2's block at every point is its whole array. -/
theorem blk15_2 (c : Dev nD) (t : Fin cfg15.N) (k : Fin 1) (q : Fin 128) :
    (iblk15 V c 2 t : S1x128.Idx → EReal) (ix2 k q) = (V c main_v389 : S1x128.Idx → EReal) (ix2 k q) := by
  obtain ⟨-, -, -, -, ea, eb, -⟩ := idx15 t
  unfold iblk15
  rw [View.read_apply]
  show (V c main_v389 : S1x128.Idx → EReal) _ = _
  refine congrArg (V c main_v389 : S1x128.Idx → EReal) ?_
  funext a; apply Fin.ext
  match a with
  | ⟨0, _⟩ => show win15_2.index t (0 : Fin 2) * 1 + 1 * k.val = k.val; rw [ea]; omega
  | ⟨1, _⟩ => show win15_2.index t (1 : Fin 2) * 128 + 1 * q.val = q.val; rw [eb]; omega

/-- Row r of window 3's block at point t is row 2000 t + r of its array. -/
theorem blk15_3 (c : Dev nD) (t : Fin cfg15.N) (r : Fin 2000) (k : Fin 128) :
    (iblk15 V c 3 t : S2000x128.Idx → EReal) (ix2 r k) = (V c main_v242 : S10000x128.Idx → EReal) (ix2 (row15 t r) k) := by
  obtain ⟨-, -, -, -, -, -, ea, eb, -⟩ := idx15 t
  unfold iblk15
  rw [View.read_apply]
  show (V c main_v242 : S10000x128.Idx → EReal) _ = _
  refine congrArg (V c main_v242 : S10000x128.Idx → EReal) ?_
  funext a; apply Fin.ext
  match a with
  | ⟨0, _⟩ => show win15_3.index t (0 : Fin 2) * 2000 + 1 * r.val = 2000 * t.val + r.val; rw [ea]; omega
  | ⟨1, _⟩ => show win15_3.index t (1 : Fin 2) * 128 + 1 * k.val = k.val; rw [eb]; omega

/-- Window 4's block at every point is its whole array. -/
theorem blk15_4 (c : Dev nD) (t : Fin cfg15.N) (k : Fin 128) (q : Fin 128) :
    (iblk15 V c 4 t : S128x128.Idx → EReal) (ix2 k q) = (V c main_v391 : S128x128.Idx → EReal) (ix2 k q) := by
  obtain ⟨-, -, -, -, -, -, -, -, ea, eb, -⟩ := idx15 t
  unfold iblk15
  rw [View.read_apply]
  show (V c main_v391 : S128x128.Idx → EReal) _ = _
  refine congrArg (V c main_v391 : S128x128.Idx → EReal) ?_
  funext a; apply Fin.ext
  match a with
  | ⟨0, _⟩ => show win15_4.index t (0 : Fin 2) * 128 + 1 * k.val = k.val; rw [ea]; omega
  | ⟨1, _⟩ => show win15_4.index t (1 : Fin 2) * 128 + 1 * q.val = q.val; rw [eb]; omega

/-- What point t writes back is block t of the whole-array function. -/
theorem flushed15 (c : Dev nD) (t : Fin cfg15.N) :
    (dat15 V c).flushed 5 t = ((cfg15.win 5).blk t).view.read (Elt Ideal)
      (SageSpec.lin (V c main_v384) (V c main_v386) (V c main_v389) (V c main_v242) (V c main_v391)) := by
  show (cfg15.win 5).cut (grid15.coords t) ((dat15 V c).after 5 t) = _
  rw [after15_5]
  unfold out15_5
  rw [View.canon_unit_zero zeros15]
  simp only [View.ld_unit_zero (S := S2000x128) zeros15, View.ld_unit_zero (S := S128x128) zeros15, View.ld_unit_zero (S := S1x128) zeros15]
  obtain ⟨-, -, -, -, -, -, -, -, -, -, ea, eb⟩ := idx15 t
  refine funext fun (j : S2000x128.Idx) => ?_
  obtain ⟨r, q, rfl⟩ : ∃ (r : Fin 2000) (q : Fin 128), j = ix2 r q := ⟨j 0, j 1, eq_ix2 j⟩
  have hemb : (((cfg15.win 5).blk t).view.emb (ix2 r q) : S10000x128.Idx) = ix2 (row15 t r) q := by
    funext a; apply Fin.ext
    match a with
    | ⟨0, _⟩ => show win15_5.index t (0 : Fin 2) * 2000 + 1 * r.val = 2000 * t.val + r.val; rw [ea]; omega
    | ⟨1, _⟩ => show win15_5.index t (1 : Fin 2) * 128 + 1 * q.val = q.val; rw [eb]; omega
  refine (k15_pay1_apply (iblk15 V c 0 t) (iblk15 V c 1 t) (iblk15 V c 2 t) (iblk15 V c 3 t) (iblk15 V c 4 t) r q).trans ?_
  refine Eq.trans ?_ (congrArg (SageSpec.lin (V c main_v384) (V c main_v386) (V c main_v389) (V c main_v242) (V c main_v391)) hemb).symm
  show _ = _ + _ + _
  refine congrArg₂ (· + ·) (congrArg₂ (· + ·) ?_ ?_) ?_
  · exact Finset.sum_congr rfl fun k _ => congrArg₂ (· * ·) (blk15_0 V c t r k) (blk15_1 V c t k q)
  · exact blk15_2 V c t 0 q
  · exact Finset.sum_congr rfl fun k _ => congrArg₂ (· * ·) (blk15_3 V c t r k) (blk15_4 V c t k q)

/-- An index of the array is in point t's block iff each coordinate is in the block's range on its axis. -/
theorem mem_blk15 (t : Fin cfg15.N) (i : S10000x128.Idx) :
    i ∈ ((cfg15.win 5).blk t).view.set ↔ ∀ a : Fin 2, win15_5.index t a * S2000x128.size a ≤ (i a).val
      ∧ (i a).val < win15_5.index t a * S2000x128.size a + S2000x128.size a := by
  show i ∈ ((View.whole main_v392).slice (win15_5.rect t)).set ↔ _
  rw [View.set_slice_whole, Rect.mem_set_unit]
  exact Iff.rfl

/-- Every index of the array is in some point's block: row i is in block i / 2000. -/
theorem cover15 (i : S10000x128.Idx) :
    ∃ t : Fin cfg15.N, (cfg15.win 5).flush t = true ∧ i ∈ ((cfg15.win 5).blk t).view.set := by
  have hi0 : (i 0).val < 10000 := (i 0).isLt
  have hi1 : (i 1).val < 128 := (i 1).isLt
  have hN : cfg15.N = 5 := N_15
  obtain ⟨t, ht⟩ : ∃ t : Fin cfg15.N, t.val = (i 0).val / 2000 := ⟨⟨(i 0).val / 2000, by rw [hN]; omega⟩, rfl⟩
  obtain ⟨-, -, -, -, -, -, -, -, -, -, ea, eb⟩ := idx15 t
  refine ⟨t, flush15_5 t, ?_⟩
  rw [mem_blk15]
  intro a
  match a with
  | ⟨0, _⟩ =>
    show win15_5.index t (0 : Fin 2) * 2000 ≤ (i 0).val ∧ (i 0).val < win15_5.index t (0 : Fin 2) * 2000 + 2000
    rw [ea, ht]; omega
  | ⟨1, _⟩ =>
    show win15_5.index t (1 : Fin 2) * 128 ≤ (i 1).val ∧ (i 1).val < win15_5.index t (1 : Fin 2) * 128 + 128
    rw [eb]; omega

/-- The output array after the region is the whole-array function of the region's input arrays. -/
theorem arr15 (c : Dev nD) :
    (dat15 (F := Ideal) V c).arrAt 5 cfg15.N
      = SageSpec.lin (V c main_v384) (V c main_v386) (V c main_v389) (V c main_v242) (V c main_v391) :=
  (dat15 V c).arrAt_eq_of_cover 5 _ (fun t _ => flushed15 V c t) (cover15)

end Cert.KernelIdeal.RegA

end
-- ==== Proof.KReg15.lean ====
/-
  Region 15 of the idealized kernel program, read against the reference's stages: the region's host-computed operands
  are the same host operations of the same values as the reference's stages; the region's output arrays are the
  whole-array functions of its operands that the reference's corresponding stages are.
-/
import proofs.«146104_j52931176955955_1_alg».proof.Proof.KReg14
import proofs.«146104_j52931176955955_1_alg».proof.Proof.RegA15

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v229_at30 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W30 m ρ c (Proc.devRef .tc main_v229) = (Cert.ReferenceIdeal.Read.val_main_v322 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12))) :=
  ((W30_arr m ρ c 3).trans (((dat14 (V29 m ρ) c).arrAt_in 3 rfl _).trans (A_eq14 (V29 m ρ) c 3))).trans (v229_at29 m ρ c h0 h1 h8 h9 h10 h11 h12)

set_option backward.isDefEq.respectTransparency.types false in
theorem v384_at31 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W31 m ρ c (Proc.devRef .tc main_v384) = (Cert.ReferenceIdeal.Read.val_main_v518 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps15 (W30 m ρ c) (Proc.devRef .tc main_v384) = _
  after_results_simp
  rw [arg6_at30 m ρ c, v229_at30 m ρ c h0 h1 h8 h9 h10 h11 h12]
  rfl

set_option backward.isDefEq.respectTransparency.types false in
theorem v386_at31 : W31 m ρ c (Proc.devRef .tc main_v386) = (Cert.ReferenceIdeal.Read.val_main_v492 (F := Ideal) (m ((c : Thread nD τ).loc main_arg8))) := by
  show StableHlo.after hostOps15 (W30 m ρ c) (Proc.devRef .tc main_v386) = _
  after_results_simp
  rw [arg8_at30 m ρ c]
  rfl

set_option backward.isDefEq.respectTransparency.types false in
theorem v389_at31 : W31 m ρ c (Proc.devRef .tc main_v389) = (Cert.ReferenceIdeal.Read.val_main_v520 (F := Ideal) (m ((c : Thread nD τ).loc main_arg9))) := by
  show StableHlo.after hostOps15 (W30 m ρ c) (Proc.devRef .tc main_v389) = _
  after_results_simp
  rw [arg9_at30 m ρ c]
  rfl

set_option backward.isDefEq.respectTransparency.types false in
theorem v391_at31 : W31 m ρ c (Proc.devRef .tc main_v391) = (Cert.ReferenceIdeal.Read.val_main_v496 (F := Ideal) (m ((c : Thread nD τ).loc main_arg10))) := by
  show StableHlo.after hostOps15 (W30 m ρ c) (Proc.devRef .tc main_v391) = _
  after_results_simp
  rw [arg10_at30 m ρ c]
  rfl

theorem v242_at31 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W31 m ρ c (Proc.devRef .tc main_v242) = (Cert.ReferenceIdeal.Read.val_main_v352 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) :=
  (keepH15 (W30 m ρ c) main_v242 (by decide)).trans ((W30_of_ne m ρ c main_v242 (by decide)).trans ((keepH14 (W28 m ρ c) main_v242 (by decide)).trans ((W28_of_ne m ρ c main_v242 (by decide)).trans ((keepH13 (W26 m ρ c) main_v242 (by decide)).trans (v242_at26 m ρ c h0 h1 h8 h9 h10 h11 h12)))))

set_option backward.isDefEq.respectTransparency.types false in
theorem v392_at32 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W32 m ρ c (Proc.devRef .tc main_v392) = (Cert.ReferenceIdeal.Read.val_main_v524 (F := Ideal) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) :=
  (W32_arr m ρ c 5).trans ((Cert.KernelIdeal.RegA.arr15 (V31 m ρ) c).trans (by
    rw [show V31 m ρ c main_v384 = _ from v384_at31 m ρ c h0 h1 h8 h9 h10 h11 h12, show V31 m ρ c main_v386 = _ from v386_at31 m ρ c, show V31 m ρ c main_v389 = _ from v389_at31 m ρ c, show V31 m ρ c main_v242 = _ from v242_at31 m ρ c h0 h1 h8 h9 h10 h11 h12, show V31 m ρ c main_v391 = _ from v391_at31 m ρ c]
    exact (Cert.ReferenceIdeal.RefNet.v524_eq (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))).symm))

end Cert.KernelIdeal.KNet

end
-- ==== Proof.KOut.lean ====
/-
  The three results of the idealized kernel program at the end of the fold are the reference's three result stages
  of the same arguments: each is the output array of its region, kept by every later stretch and region.
-/
import proofs.«146104_j52931176955955_1_alg».proof.Proof.KReg15

set_option maxRecDepth 16384

noncomputable section

namespace Cert.KernelIdeal.KNet

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem v302_at32 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W32 m ρ c (Proc.devRef .tc main_v302) = (Cert.ReferenceIdeal.Read.val_main_v421 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) :=
  (W32_of_ne m ρ c main_v302 (by decide)).trans ((keepH15 (W30 m ρ c) main_v302 (by decide)).trans ((W30_of_ne m ρ c main_v302 (by decide)).trans ((keepH14 (W28 m ρ c) main_v302 (by decide)).trans ((W28_of_ne m ρ c main_v302 (by decide)).trans ((keepH13 (W26 m ρ c) main_v302 (by decide)).trans (v302_at26 m ρ c h0 h1 h8 h9 h10 h11 h12))))))

theorem v362_at32 (h0 : ∀ i, Sage.Alg.IsReal (m ((c : Thread nD τ).loc main_arg0) i)) (h1 : ∀ i, Sage.Alg.IsReal (m ((c : Thread nD τ).loc main_arg1) i)) (h8 : ∀ i, Sage.Alg.IsReal (m ((c : Thread nD τ).loc main_arg8) i)) (h9 : ∀ i, Sage.Alg.IsReal (m ((c : Thread nD τ).loc main_arg9) i)) (h10 : ∀ i, Sage.Alg.IsReal (m ((c : Thread nD τ).loc main_arg10) i)) (h11 : ∀ i, Sage.Alg.IsReal (m ((c : Thread nD τ).loc main_arg11) i)) (h12 : ∀ i, Sage.Alg.IsReal (m ((c : Thread nD τ).loc main_arg12) i)) : W32 m ρ c (Proc.devRef .tc main_v362) = (Cert.ReferenceIdeal.Read.val_main_v490 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (W32_of_ne m ρ c main_v362 (by decide)).trans ((keepH15 (W30 m ρ c) main_v362 (by decide)).trans (v362_at30 m ρ c h0 h1 h8 h9 h10 h11 h12))

end Cert.KernelIdeal.KNet

end
-- ==== Proof.PreReal.lean ====
/-
  The precondition "every float input is finite", decoded.

  The precondition is printed as a conjunction of eight terms, one per float argument `a`: the conjunction, over all
  entries `i` of `a`, of the comparison `|a i| < +∞`, where `|x| = max x (-x)` in the extended reals and `+∞` is
  the value `⊤` that the single-precision pattern `0x7F800000` denotes.  If the whole conjunction is true, each of the
  eight terms is true, so each comparison is true at every entry.  In the extended reals `max x (-x) < ⊤` fails at
  `x = ⊥` and at `x = ⊤` (there the maximum is `⊤`), so it holds only at real numbers.  Hence every entry of every
  float argument is a real number.  The five integer arguments are not constrained.
-/
import proofs.«146104_j52931176955955_1_alg».proof.Pre_finite_inputs
import proofs.«146104_j52931176955955_1_alg».proof.Proof.LibRealClosure
import Idealize.ShloMosaic.Lib.ReduceAll
import Idealize.ShloMosaic.Lib.ValueIdx
import Idealize.ShloMosaic.PureOps.Ideal.Laws

namespace Cert.PreReal

open Idealize.ShloMosaic
open Cert.Pre_finite_inputs

/-- The result shape of a reduction over all axes has exactly one index. -/
instance : Subsingleton S_.Idx := ⟨fun a b => funext fun d => d.elim0⟩

/-- The single-precision pattern `0x7F800000` denotes `+∞`. -/
theorem ofBits_inf : Ideal.ofBits .f32 0x7F800000#32 = (⊤ : EReal) := by
  simp [Ideal.ofBits, Ideal.ieee]

/-- An extended real `x` with `|x| = max x (-x) < +∞` is a real number: at `⊥` and at `⊤` the absolute value is
    `⊤`, which is not below `⊤`. -/
theorem isReal_of_abs_lt_inf (x : EReal)
    (h : Ideal.cmp .olt (max x (-x)) (Ideal.ofBits .f32 0x7F800000#32) = 1#1) : Sage.Alg.IsReal x := by
  rw [ofBits_inf] at h
  induction x using EReal.rec with
  | bot => simp [Ideal.cmp] at h
  | top => simp [Ideal.cmp] at h
  | coe r => exact ⟨r, rfl⟩

/-- If the conjunction over all entries `i` of the comparison `|x i| < +∞` is true, every entry of `x` is a real
    number.  The shape `s`, the reduced axes and the shape facts are arbitrary. -/
theorem entries_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant S_ .f32 0x7F800000#32)))
          (constantI S_ 1 1#1) hr hu ValueIdx.ix0 = 1#1)
    (i : s.Idx) : Sage.Alg.IsReal (x i) := by
  have hi := Host.reduce_andi_all _ _ hr hu ValueIdx.ix0 h i
  exact isReal_of_abs_lt_inf (x i) hi

/-- A conjunction of two truth values at the one index of the scalar shape is true only if both are. -/
theorem andi_ix0 (a b : IVec S_ 1) (h : andi a b ValueIdx.ix0 = 1#1) :
    a ValueIdx.ix0 = 1#1 ∧ b ValueIdx.ix0 = 1#1 :=
  IntOp.andi_eq_one.1 h

/-- The precondition "every float input is finite" says that every entry of each of the eight float arguments is a
    real number.  The precondition is the conjunction of eight terms, each the conjunction over all entries of
    `|a i| < +∞`; each term gives that comparison entry by entry, and it excludes both infinities. -/
theorem args_real [Facts] (a0 : FVec Ideal S200000x128 .f32) (a1 : FVec Ideal S150000x128 .f32)
    (a2 : FVec Ideal S10000x128 .f32) (a3 : IVec S2x600000 32) (a4 : IVec S2x500000 32) (a5 : IVec S2x500000 32)
    (a6 : IVec S2x150000 32) (a7 : IVec S2x150000 32) (a8 : FVec Ideal S11x128x128 .f32)
    (a9 : FVec Ideal S11x128 .f32) (a10 : FVec Ideal S11x128x128 .f32) (a11 : FVec Ideal S5x128 .f32)
    (a12 : FVec Ideal S5x128 .f32)
    (h : Cert.Pre_finite_inputs.fn (F := Ideal) a0 a1 a2 a3 a4 a5 a6 a7 a8 a9 a10 a11 a12 = (fun _ => 1#1)) :
    (∀ i, Sage.Alg.IsReal (a0 i)) ∧ (∀ i, Sage.Alg.IsReal (a1 i)) ∧ (∀ i, Sage.Alg.IsReal (a2 i)) ∧
    (∀ i, Sage.Alg.IsReal (a8 i)) ∧ (∀ i, Sage.Alg.IsReal (a9 i)) ∧ (∀ i, Sage.Alg.IsReal (a10 i)) ∧
    (∀ i, Sage.Alg.IsReal (a11 i)) ∧ (∀ i, Sage.Alg.IsReal (a12 i)) := by
  have h0 := congrFun h ValueIdx.ix0
  dsimp only [Cert.Pre_finite_inputs.fn, Cert.Pre_finite_inputs.fn_part1, Cert.Pre_finite_inputs.fn_part2] at h0
  obtain ⟨h0, e12⟩ := andi_ix0 _ _ h0
  obtain ⟨h0, e11⟩ := andi_ix0 _ _ h0
  obtain ⟨h0, e10⟩ := andi_ix0 _ _ h0
  obtain ⟨h0, e9⟩ := andi_ix0 _ _ h0
  obtain ⟨h0, e8⟩ := andi_ix0 _ _ h0
  obtain ⟨h0, e2⟩ := andi_ix0 _ _ h0
  obtain ⟨e0, e1⟩ := andi_ix0 _ _ h0
  exact ⟨entries_real a0 _ _ _ e0, entries_real a1 _ _ _ e1, entries_real a2 _ _ _ e2,
    entries_real a8 _ _ _ e8, entries_real a9 _ _ _ e9, entries_real a10 _ _ _ e10,
    entries_real a11 _ _ _ e11, entries_real a12 _ _ _ e12⟩

end Cert.PreReal
-- ==== Proof.lean ====
/-
  The certificate of the heterogeneous GraphSAGE kernel against its reference.

  Three layers over three node types. Every dense step is  mean · Wl + b + x · Wr  of a segment mean of neighbour
  features and the node's own features; two of the three layers end in a clamp at zero and a batch normalisation.
  The kernel program computes the dense steps, the clamps, the column sums of each clamped array and of its squares,
  and the normalisations in sixteen tiled regions, and everything else — the gathers and scatter-adds of the segment
  means, the weight slices, the division of the sums by the row count — with the same host operations as the
  reference. On the extended reals a tile of a product is the product's tile and a running total over the tiles is the
  column sum, so region by region the kernel's arrays are the reference's stages — with one law that needs finite
  values: the kernel normalises by the mean of the squares minus the squared mean, the reference by the mean of the
  squared deviations, and these agree on real data only. The precondition makes every float argument real, and every
  stage keeps real arrays real (segment means divide by a count clamped at one; the variance is nonnegative and a
  positive constant is added before the inverse square root), so the law applies at each of the five normalisations.
-/
import proofs.«146104_j52931176955955_1_alg».proof.Defs
import proofs.«146104_j52931176955955_1_alg».proof.Proof.Gen.Kernel
import proofs.«146104_j52931176955955_1_alg».proof.Proof.Gen.Kernel.Skeleton
import proofs.«146104_j52931176955955_1_alg».proof.Proof.Gen.Kernel.Launch
import proofs.«146104_j52931176955955_1_alg».proof.Proof.Gen.Kernel.Points
import proofs.«146104_j52931176955955_1_alg».proof.Proof.Gen.Kernel.Frame
import proofs.«146104_j52931176955955_1_alg».proof.Proof.Gen.KernelIdeal
import proofs.«146104_j52931176955955_1_alg».proof.Proof.Gen.KernelIdeal.Skeleton
import proofs.«146104_j52931176955955_1_alg».proof.Proof.Gen.KernelIdeal.Launch
import proofs.«146104_j52931176955955_1_alg».proof.Proof.Gen.KernelIdeal.Points
import proofs.«146104_j52931176955955_1_alg».proof.Proof.Gen.KernelIdeal.Frame
import proofs.«146104_j52931176955955_1_alg».proof.Proof.Gen.ReferenceIdeal
import proofs.«146104_j52931176955955_1_alg».proof.Proof.Gen.Pre_finite_inputs
import proofs.«146104_j52931176955955_1_alg».proof.Proof.RefRun
import proofs.«146104_j52931176955955_1_alg».proof.Proof.KRun
import proofs.«146104_j52931176955955_1_alg».proof.Proof.KOut
import proofs.«146104_j52931176955955_1_alg».proof.Proof.PreReal
import Idealize.ShloMosaic.Adequacy
import Idealize.ShloMosaic.Init

noncomputable section

namespace Cert.Proof

open Idealize.ShloMosaic Idealize.SL.Sem Cert.Kernel

/-- The word-level kernel program runs and keeps its arguments. -/
theorem frame_k [Cert.Kernel.Facts] [Cert.Pre_finite_inputs.Facts] : Cert.frame_Kernel := fun m ρ _ => Cert.Kernel.Gen.frame m ρ

/-- The idealized kernel program runs and keeps its arguments. -/
theorem frame_ki [Cert.KernelIdeal.Facts] [Cert.Pre_finite_inputs.Facts] : Cert.frame_KernelIdeal := fun m ρ _ => Cert.KernelIdeal.Gen.frame m ρ

/-- The reference runs and keeps its arguments: its run with the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2) (Cert.ReferenceIdeal.RefRun.run_val m ρ)

set_option backward.isDefEq.respectTransparency.types false in
/-- From memories agreeing on the arguments both programs end with the reference's three result stages of the
    arguments: the kernel's by the fold read region by region, the reference's by its run read chunk by chunk. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W32 m ρ c (Proc.devRef .tc Cert.KernelIdeal.main_v302),
    fun c => Cert.KernelIdeal.Gen.W32 m ρ c (Proc.devRef .tc Cert.KernelIdeal.main_v362),
    fun c => Cert.KernelIdeal.Gen.W32 m ρ c (Proc.devRef .tc Cert.KernelIdeal.main_v392),
    Cert.KernelIdeal.KRun.run_values m ρ, ?_⟩
  refine (θ_run Cert.ReferenceIdeal.defs _ _).mono (fun _ h c => ?_) (Cert.ReferenceIdeal.RefRun.run_val m' ρ')
  obtain ⟨hr0, hr1, hr2, hargs⟩ := h c
  obtain ⟨a0, a1, a2, a3, a4, a5, a6, a7, a8, a9, a10, a11, a12⟩ := hagree c
  obtain ⟨h0, h1, -, h8, h9, h10, h11, h12⟩ := Cert.PreReal.args_real _ _ _ _ _ _ _ _ _ _ _ _ _ (hpre c)
  refine ⟨hr0.trans ?_, hr1.trans ?_, hr2.trans ?_, hargs⟩
  · simp only [a0, a1, a2, a3, a4, a5, a6, a7, a8, a9, a10, a11, a12]
    exact (Cert.KernelIdeal.KNet.v302_at32 m ρ c h0 h1 h8 h9 h10 h11 h12).symm
  · simp only [a0, a1, a2, a3, a4, a5, a6, a7, a8, a9, a10, a11, a12]
    exact (Cert.KernelIdeal.KNet.v362_at32 m ρ c h0 h1 h8 h9 h10 h11 h12).symm
  · simp only [a0, a1, a2, a3, a4, a5, a6, a7, a8, a9, a10, a11, a12]
    exact (Cert.KernelIdeal.KNet.v392_at32 m ρ c h0 h1 h8 h9 h10 h11 h12).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
